-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v384) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x1 : Shape := ⟨2, ![8192, 1]⟩
abbrev S2x5x5 : Shape := ⟨3, ![2, 5, 5]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S2x5x5 : S_.BroadcastsInDim S2x5x5 (![] : Fin 0 → Fin S2x5x5.rank)
  reducesTo_S2x5x5_S_d0_1_2 : S2x5x5.ReducesTo [0, 1, 2] S_

variable [Facts]

def fn {F : FTy → Type} [FloatOps F] (main_arg0 : FVec F S8192x8192 .f32) (main_arg1 : FVec F S8192x1 .f32) (main_arg2 : FVec F S2x5x5 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S2x5x5 .f32 := Host.absf main_arg2
  let main_cst_2 : FVec F S_ .f32 := constant S_ .f32 0x7F800000#32
  let main_v10 : FVec F S2x5x5 .f32 := broadcastInDim S2x5x5 ![] bcast_S_S2x5x5 main_cst_2
  let main_v11 : IVec S2x5x5 1 := cmpf .olt main_v9 main_v10
  let main_c_3 : IVec S_ 1 := constantI S_ 1 1#1
  let main_v12 : IVec S_ 1 := (fun x v => Host.reduce IntOp.andi x v reducesTo_S2x5x5_S_d0_1_2 h_S_) main_v11 main_c_3
  let main_v13 : IVec S_ 1 := andi main_v8 main_v12
  main_v13
-- ==== Kernel.lean ====
abbrev S8192x8192 : Shape := ⟨2, ![8192, 8192]⟩
abbrev S8192x1 : Shape := ⟨2, ![8192, 1]⟩
abbrev S2x5x5 : Shape := ⟨3, ![2, 5, 5]⟩
abbrev S8192 : Shape := ⟨1, ![8192]⟩
abbrev S_ : Shape := ⟨0, ![]⟩
abbrev S1x8192 : Shape := ⟨2, ![1, 8192]⟩
abbrev S1x1x1 : Shape := ⟨3, ![1, 1, 1]⟩
abbrev S1x1 : Shape := ⟨2, ![1, 1]⟩
abbrev S8192x2 : Shape := ⟨2, ![8192, 2]⟩
abbrev S256x8192 : Shape := ⟨2, ![256, 8192]⟩
abbrev S1x256 : Shape := ⟨2, ![1, 256]⟩
abbrev S1024x8192 : Shape := ⟨2, ![1024, 8192]⟩
abbrev S1x1024 : Shape := ⟨2, ![1, 1024]⟩

abbrev nBuf : Space → Nat
  | .hbm => 463
  | .vmem => 402
  | .smem => 0
  | _ => 0

abbrev hbmTy0_0 (i : Nat) : BufTy := match i % 128 with
  | 0 => ⟨S8192x8192, .f32⟩
  | 1 => ⟨S8192x1, .f32⟩
  | 2 => ⟨S2x5x5, .f32⟩
  | 3 => ⟨S8192, .f32⟩
  | 4 => ⟨S_, .f32⟩
  | 5 => ⟨S8192, .f32⟩
  | 6 => ⟨S8192, .f32⟩
  | 7 => ⟨S_, .f32⟩
  | 8 => ⟨S8192, .f32⟩
  | 9 => ⟨S8192, .f32⟩
  | 10 => ⟨S1x8192, .f32⟩
  | 11 => ⟨S1x1x1, .f32⟩
  | 12 => ⟨S_, .f32⟩
  | 13 => ⟨S1x8192, .f32⟩
  | 14 => ⟨S1x8192, .f32⟩
  | 15 => ⟨S1x1x1, .f32⟩
  | 16 => ⟨S_, .f32⟩
  | 17 => ⟨S1x1, .f32⟩
  | 18 => ⟨S8192x8192, .bf16⟩
  | 19 => ⟨S1x8192, .f32⟩
  | 20 => ⟨S1x8192, .f32⟩
  | 21 => ⟨S1x1x1, .f32⟩
  | 22 => ⟨S_, .f32⟩
  | 23 => ⟨S1x1, .f32⟩
  | 24 => ⟨S1x8192, .f32⟩
  | 25 => ⟨S1x8192, .f32⟩
  | 26 => ⟨S1x1x1, .f32⟩
  | 27 => ⟨S_, .f32⟩
  | 28 => ⟨S1x1, .f32⟩
  | 29 => ⟨S1x8192, .f32⟩
  | 30 => ⟨S1x8192, .f32⟩
  | 31 => ⟨S1x1x1, .f32⟩
  | 32 => ⟨S_, .f32⟩
  | 33 => ⟨S1x1, .f32⟩
  | 34 => ⟨S1x8192, .f32⟩
  | 35 => ⟨S1x8192, .f32⟩
  | 36 => ⟨S_, .f32⟩
  | 37 => ⟨S_, .f32⟩
  | 38 => ⟨S1x8192, .f32⟩
  | 39 => ⟨S1x8192, .i1⟩
  | 40 => ⟨S_, .f32⟩
  | 41 => ⟨S1x8192, .f32⟩
  | 42 => ⟨S1x8192, .f32⟩
  | 43 => ⟨S1x8192, .f32⟩
  | 44 => ⟨S_, .f32⟩
  | 45 => ⟨S_, .f32⟩
  | 46 => ⟨S_, .f32⟩
  | 47 => ⟨S_, .f32⟩
  | 48 => ⟨S1x8192, .f32⟩
  | 49 => ⟨S1x8192, .f32⟩
  | 50 => ⟨S_, .f32⟩
  | 51 => ⟨S_, .f32⟩
  | 52 => ⟨S_, .f32⟩
  | 53 => ⟨S_, .f32⟩
  | 54 => ⟨S1x8192, .f32⟩
  | 55 => ⟨S1x8192, .f32⟩
  | 56 => ⟨S1x1x1, .f32⟩
  | 57 => ⟨S_, .f32⟩
  | 58 => ⟨S1x8192, .f32⟩
  | 59 => ⟨S1x8192, .f32⟩
  | 60 => ⟨S1x1x1, .f32⟩
  | 61 => ⟨S_, .f32⟩
  | 62 => ⟨S1x1, .f32⟩
  | 63 => ⟨S1x8192, .f32⟩
  | 64 => ⟨S1x8192, .f32⟩
  | 65 => ⟨S1x1x1, .f32⟩
  | 66 => ⟨S_, .f32⟩
  | 67 => ⟨S1x1, .f32⟩
  | 68 => ⟨S1x8192, .f32⟩
  | 69 => ⟨S1x8192, .f32⟩
  | 70 => ⟨S1x1x1, .f32⟩
  | 71 => ⟨S_, .f32⟩
  | 72 => ⟨S1x1, .f32⟩
  | 73 => ⟨S1x8192, .f32⟩
  | 74 => ⟨S1x8192, .f32⟩
  | 75 => ⟨S1x1x1, .f32⟩
  | 76 => ⟨S_, .f32⟩
  | 77 => ⟨S1x1, .f32⟩
  | 78 => ⟨S1x8192, .f32⟩
  | 79 => ⟨S1x8192, .f32⟩
  | 80 => ⟨S_, .f32⟩
  | 81 => ⟨S_, .f32⟩
  | 82 => ⟨S1x8192, .f32⟩
  | 83 => ⟨S1x8192, .i1⟩
  | 84 => ⟨S_, .f32⟩
  | 85 => ⟨S1x8192, .f32⟩
  | 86 => ⟨S1x8192, .f32⟩
  | 87 => ⟨S1x8192, .f32⟩
  | 88 => ⟨S_, .f32⟩
  | 89 => ⟨S_, .f32⟩
  | 90 => ⟨S_, .f32⟩
  | 91 => ⟨S_, .f32⟩
  | 92 => ⟨S1x8192, .f32⟩
  | 93 => ⟨S1x8192, .f32⟩
  | 94 => ⟨S_, .f32⟩
  | 95 => ⟨S_, .f32⟩
  | 96 => ⟨S_, .f32⟩
  | 97 => ⟨S_, .f32⟩
  | 98 => ⟨S1x8192, .f32⟩
  | 99 => ⟨S1x8192, .f32⟩
  | 100 => ⟨S1x1x1, .f32⟩
  | 101 => ⟨S_, .f32⟩
  | 102 => ⟨S1x8192, .f32⟩
  | 103 => ⟨S1x8192, .f32⟩
  | 104 => ⟨S1x1x1, .f32⟩
  | 105 => ⟨S_, .f32⟩
  | 106 => ⟨S1x1, .f32⟩
  | 107 => ⟨S1x8192, .f32⟩
  | 108 => ⟨S1x8192, .f32⟩
  | 109 => ⟨S1x1x1, .f32⟩
  | 110 => ⟨S_, .f32⟩
  | 111 => ⟨S1x1, .f32⟩
  | 112 => ⟨S1x8192, .f32⟩
  | 113 => ⟨S1x8192, .f32⟩
  | 114 => ⟨S1x1x1, .f32⟩
  | 115 => ⟨S_, .f32⟩
  | 116 => ⟨S1x1, .f32⟩
  | 117 => ⟨S1x8192, .f32⟩
  | 118 => ⟨S1x8192, .f32⟩
  | 119 => ⟨S1x1x1, .f32⟩
  | 120 => ⟨S_, .f32⟩
  | 121 => ⟨S1x1, .f32⟩
  | 122 => ⟨S1x8192, .f32⟩
  | 123 => ⟨S1x8192, .f32⟩
  | 124 => ⟨S_, .f32⟩
  | 125 => ⟨S_, .f32⟩
  | 126 => ⟨S1x8192, .f32⟩
  | 127 => ⟨S1x8192, .i1⟩
  | _ => ⟨S8192x8192, .f32⟩

abbrev hbmTy0_1 (i : Nat) : BufTy := match i % 128 with
  | 0 => ⟨S_, .f32⟩
  | 1 => ⟨S1x8192, .f32⟩
  | 2 => ⟨S1x8192, .f32⟩
  | 3 => ⟨S1x8192, .f32⟩
  | 4 => ⟨S_, .f32⟩
  | 5 => ⟨S_, .f32⟩
  | 6 => ⟨S_, .f32⟩
  | 7 => ⟨S_, .f32⟩
  | 8 => ⟨S1x8192, .f32⟩
  | 9 => ⟨S1x8192, .f32⟩
  | 10 => ⟨S_, .f32⟩
  | 11 => ⟨S_, .f32⟩
  | 12 => ⟨S_, .f32⟩
  | 13 => ⟨S_, .f32⟩
  | 14 => ⟨S1x8192, .f32⟩
  | 15 => ⟨S1x8192, .f32⟩
  | 16 => ⟨S1x1x1, .f32⟩
  | 17 => ⟨S_, .f32⟩
  | 18 => ⟨S1x8192, .f32⟩
  | 19 => ⟨S1x8192, .f32⟩
  | 20 => ⟨S1x1x1, .f32⟩
  | 21 => ⟨S_, .f32⟩
  | 22 => ⟨S1x1, .f32⟩
  | 23 => ⟨S1x8192, .f32⟩
  | 24 => ⟨S1x8192, .f32⟩
  | 25 => ⟨S1x1x1, .f32⟩
  | 26 => ⟨S_, .f32⟩
  | 27 => ⟨S1x1, .f32⟩
  | 28 => ⟨S1x8192, .f32⟩
  | 29 => ⟨S1x8192, .f32⟩
  | 30 => ⟨S1x1x1, .f32⟩
  | 31 => ⟨S_, .f32⟩
  | 32 => ⟨S1x1, .f32⟩
  | 33 => ⟨S1x8192, .f32⟩
  | 34 => ⟨S1x8192, .f32⟩
  | 35 => ⟨S1x1x1, .f32⟩
  | 36 => ⟨S_, .f32⟩
  | 37 => ⟨S1x1, .f32⟩
  | 38 => ⟨S1x8192, .f32⟩
  | 39 => ⟨S1x8192, .f32⟩
  | 40 => ⟨S_, .f32⟩
  | 41 => ⟨S_, .f32⟩
  | 42 => ⟨S1x8192, .f32⟩
  | 43 => ⟨S1x8192, .i1⟩
  | 44 => ⟨S_, .f32⟩
  | 45 => ⟨S1x8192, .f32⟩
  | 46 => ⟨S1x8192, .f32⟩
  | 47 => ⟨S1x8192, .f32⟩
  | 48 => ⟨S_, .f32⟩
  | 49 => ⟨S_, .f32⟩
  | 50 => ⟨S_, .f32⟩
  | 51 => ⟨S_, .f32⟩
  | 52 => ⟨S1x8192, .f32⟩
  | 53 => ⟨S1x8192, .f32⟩
  | 54 => ⟨S_, .f32⟩
  | 55 => ⟨S_, .f32⟩
  | 56 => ⟨S_, .f32⟩
  | 57 => ⟨S_, .f32⟩
  | 58 => ⟨S1x8192, .f32⟩
  | 59 => ⟨S1x8192, .f32⟩
  | 60 => ⟨S1x1x1, .f32⟩
  | 61 => ⟨S_, .f32⟩
  | 62 => ⟨S1x8192, .f32⟩
  | 63 => ⟨S1x8192, .f32⟩
  | 64 => ⟨S1x1x1, .f32⟩
  | 65 => ⟨S_, .f32⟩
  | 66 => ⟨S1x1, .f32⟩
  | 67 => ⟨S1x8192, .f32⟩
  | 68 => ⟨S1x8192, .f32⟩
  | 69 => ⟨S1x1x1, .f32⟩
  | 70 => ⟨S_, .f32⟩
  | 71 => ⟨S1x1, .f32⟩
  | 72 => ⟨S1x8192, .f32⟩
  | 73 => ⟨S1x8192, .f32⟩
  | 74 => ⟨S1x1x1, .f32⟩
  | 75 => ⟨S_, .f32⟩
  | 76 => ⟨S1x1, .f32⟩
  | 77 => ⟨S1x8192, .f32⟩
  | 78 => ⟨S1x8192, .f32⟩
  | 79 => ⟨S1x1x1, .f32⟩
  | 80 => ⟨S_, .f32⟩
  | 81 => ⟨S1x1, .f32⟩
  | 82 => ⟨S1x8192, .f32⟩
  | 83 => ⟨S1x8192, .f32⟩
  | 84 => ⟨S_, .f32⟩
  | 85 => ⟨S_, .f32⟩
  | 86 => ⟨S1x8192, .f32⟩
  | 87 => ⟨S1x8192, .i1⟩
  | 88 => ⟨S_, .f32⟩
  | 89 => ⟨S1x8192, .f32⟩
  | 90 => ⟨S1x8192, .f32⟩
  | 91 => ⟨S1x8192, .f32⟩
  | 92 => ⟨S_, .f32⟩
  | 93 => ⟨S_, .f32⟩
  | 94 => ⟨S_, .f32⟩
  | 95 => ⟨S_, .f32⟩
  | 96 => ⟨S1x8192, .f32⟩
  | 97 => ⟨S1x8192, .f32⟩
  | 98 => ⟨S_, .f32⟩
  | 99 => ⟨S_, .f32⟩
  | 100 => ⟨S_, .f32⟩
  | 101 => ⟨S_, .f32⟩
  | 102 => ⟨S1x8192, .f32⟩
  | 103 => ⟨S1x8192, .f32⟩
  | 104 => ⟨S1x1x1, .f32⟩
  | 105 => ⟨S_, .f32⟩
  | 106 => ⟨S1x8192, .f32⟩
  | 107 => ⟨S1x8192, .f32⟩
  | 108 => ⟨S1x1x1, .f32⟩
  | 109 => ⟨S_, .f32⟩
  | 110 => ⟨S1x1, .f32⟩
  | 111 => ⟨S1x8192, .f32⟩
  | 112 => ⟨S1x8192, .f32⟩
  | 113 => ⟨S1x1x1, .f32⟩
  | 114 => ⟨S_, .f32⟩
  | 115 => ⟨S1x1, .f32⟩
  | 116 => ⟨S1x8192, .f32⟩
  | 117 => ⟨S1x8192, .f32⟩
  | 118 => ⟨S1x1x1, .f32⟩
  | 119 => ⟨S_, .f32⟩
  | 120 => ⟨S1x1, .f32⟩
  | 121 => ⟨S1x8192, .f32⟩
  | 122 => ⟨S1x8192, .f32⟩
  | 123 => ⟨S1x1x1, .f32⟩
  | 124 => ⟨S_, .f32⟩
  | 125 => ⟨S1x1, .f32⟩
  | 126 => ⟨S1x8192, .f32⟩
  | 127 => ⟨S1x8192, .f32⟩
  | _ => ⟨S8192x8192, .f32⟩

abbrev hbmTy0_2 (i : Nat) : BufTy := match i % 128 with
  | 0 => ⟨S_, .f32⟩
  | 1 => ⟨S_, .f32⟩
  | 2 => ⟨S1x8192, .f32⟩
  | 3 => ⟨S1x8192, .i1⟩
  | 4 => ⟨S_, .f32⟩
  | 5 => ⟨S1x8192, .f32⟩
  | 6 => ⟨S1x8192, .f32⟩
  | 7 => ⟨S1x8192, .f32⟩
  | 8 => ⟨S_, .f32⟩
  | 9 => ⟨S_, .f32⟩
  | 10 => ⟨S_, .f32⟩
  | 11 => ⟨S_, .f32⟩
  | 12 => ⟨S1x8192, .f32⟩
  | 13 => ⟨S1x8192, .f32⟩
  | 14 => ⟨S_, .f32⟩
  | 15 => ⟨S_, .f32⟩
  | 16 => ⟨S_, .f32⟩
  | 17 => ⟨S_, .f32⟩
  | 18 => ⟨S1x8192, .f32⟩
  | 19 => ⟨S1x8192, .f32⟩
  | 20 => ⟨S1x1x1, .f32⟩
  | 21 => ⟨S_, .f32⟩
  | 22 => ⟨S1x8192, .f32⟩
  | 23 => ⟨S1x8192, .f32⟩
  | 24 => ⟨S1x1x1, .f32⟩
  | 25 => ⟨S_, .f32⟩
  | 26 => ⟨S1x1, .f32⟩
  | 27 => ⟨S1x8192, .f32⟩
  | 28 => ⟨S1x8192, .f32⟩
  | 29 => ⟨S1x1x1, .f32⟩
  | 30 => ⟨S_, .f32⟩
  | 31 => ⟨S1x1, .f32⟩
  | 32 => ⟨S1x8192, .f32⟩
  | 33 => ⟨S1x8192, .f32⟩
  | 34 => ⟨S1x1x1, .f32⟩
  | 35 => ⟨S_, .f32⟩
  | 36 => ⟨S1x1, .f32⟩
  | 37 => ⟨S1x8192, .f32⟩
  | 38 => ⟨S1x8192, .f32⟩
  | 39 => ⟨S1x1x1, .f32⟩
  | 40 => ⟨S_, .f32⟩
  | 41 => ⟨S1x1, .f32⟩
  | 42 => ⟨S1x8192, .f32⟩
  | 43 => ⟨S1x8192, .f32⟩
  | 44 => ⟨S_, .f32⟩
  | 45 => ⟨S_, .f32⟩
  | 46 => ⟨S1x8192, .f32⟩
  | 47 => ⟨S1x8192, .i1⟩
  | 48 => ⟨S_, .f32⟩
  | 49 => ⟨S1x8192, .f32⟩
  | 50 => ⟨S1x8192, .f32⟩
  | 51 => ⟨S1x8192, .f32⟩
  | 52 => ⟨S_, .f32⟩
  | 53 => ⟨S_, .f32⟩
  | 54 => ⟨S_, .f32⟩
  | 55 => ⟨S_, .f32⟩
  | 56 => ⟨S1x8192, .f32⟩
  | 57 => ⟨S1x8192, .f32⟩
  | 58 => ⟨S_, .f32⟩
  | 59 => ⟨S_, .f32⟩
  | 60 => ⟨S_, .f32⟩
  | 61 => ⟨S_, .f32⟩
  | 62 => ⟨S1x8192, .f32⟩
  | 63 => ⟨S1x8192, .f32⟩
  | 64 => ⟨S1x1x1, .f32⟩
  | 65 => ⟨S_, .f32⟩
  | 66 => ⟨S1x8192, .f32⟩
  | 67 => ⟨S1x8192, .f32⟩
  | 68 => ⟨S1x1x1, .f32⟩
  | 69 => ⟨S_, .f32⟩
  | 70 => ⟨S1x1, .f32⟩
  | 71 => ⟨S1x8192, .f32⟩
  | 72 => ⟨S1x8192, .f32⟩
  | 73 => ⟨S1x1x1, .f32⟩
  | 74 => ⟨S_, .f32⟩
  | 75 => ⟨S1x1, .f32⟩
  | 76 => ⟨S1x8192, .f32⟩
  | 77 => ⟨S1x8192, .f32⟩
  | 78 => ⟨S1x1x1, .f32⟩
  | 79 => ⟨S_, .f32⟩
  | 80 => ⟨S1x1, .f32⟩
  | 81 => ⟨S1x8192, .f32⟩
  | 82 => ⟨S1x8192, .f32⟩
  | 83 => ⟨S1x1x1, .f32⟩
  | 84 => ⟨S_, .f32⟩
  | 85 => ⟨S1x1, .f32⟩
  | 86 => ⟨S1x8192, .f32⟩
  | 87 => ⟨S1x8192, .f32⟩
  | 88 => ⟨S_, .f32⟩
  | 89 => ⟨S_, .f32⟩
  | 90 => ⟨S1x8192, .f32⟩
  | 91 => ⟨S1x8192, .i1⟩
  | 92 => ⟨S_, .f32⟩
  | 93 => ⟨S1x8192, .f32⟩
  | 94 => ⟨S1x8192, .f32⟩
  | 95 => ⟨S1x8192, .f32⟩
  | 96 => ⟨S_, .f32⟩
  | 97 => ⟨S_, .f32⟩
  | 98 => ⟨S_, .f32⟩
  | 99 => ⟨S_, .f32⟩
  | 100 => ⟨S1x8192, .f32⟩
  | 101 => ⟨S1x8192, .f32⟩
  | 102 => ⟨S_, .f32⟩
  | 103 => ⟨S_, .f32⟩
  | 104 => ⟨S_, .f32⟩
  | 105 => ⟨S_, .f32⟩
  | 106 => ⟨S1x8192, .f32⟩
  | 107 => ⟨S1x8192, .f32⟩
  | 108 => ⟨S1x1x1, .f32⟩
  | 109 => ⟨S_, .f32⟩
  | 110 => ⟨S1x8192, .f32⟩
  | 111 => ⟨S1x8192, .f32⟩
  | 112 => ⟨S1x1x1, .f32⟩
  | 113 => ⟨S_, .f32⟩
  | 114 => ⟨S1x1, .f32⟩
  | 115 => ⟨S1x8192, .f32⟩
  | 116 => ⟨S1x8192, .f32⟩
  | 117 => ⟨S1x1x1, .f32⟩
  | 118 => ⟨S_, .f32⟩
  | 119 => ⟨S1x1, .f32⟩
  | 120 => ⟨S1x8192, .f32⟩
  | 121 => ⟨S1x8192, .f32⟩
  | 122 => ⟨S1x1x1, .f32⟩
  | 123 => ⟨S_, .f32⟩
  | 124 => ⟨S1x1, .f32⟩
  | 125 => ⟨S1x8192, .f32⟩
  | 126 => ⟨S1x8192, .f32⟩
  | 127 => ⟨S1x1x1, .f32⟩
  | _ => ⟨S8192x8192, .f32⟩

abbrev hbmTy0_3 (i : Nat) : BufTy := match i % 128 with
  | 0 => ⟨S_, .f32⟩
  | 1 => ⟨S1x1, .f32⟩
  | 2 => ⟨S1x8192, .f32⟩
  | 3 => ⟨S1x8192, .f32⟩
  | 4 => ⟨S_, .f32⟩
  | 5 => ⟨S_, .f32⟩
  | 6 => ⟨S1x8192, .f32⟩
  | 7 => ⟨S1x8192, .i1⟩
  | 8 => ⟨S_, .f32⟩
  | 9 => ⟨S1x8192, .f32⟩
  | 10 => ⟨S1x8192, .f32⟩
  | 11 => ⟨S1x8192, .f32⟩
  | 12 => ⟨S_, .f32⟩
  | 13 => ⟨S_, .f32⟩
  | 14 => ⟨S_, .f32⟩
  | 15 => ⟨S_, .f32⟩
  | 16 => ⟨S1x8192, .f32⟩
  | 17 => ⟨S1x8192, .f32⟩
  | 18 => ⟨S_, .f32⟩
  | 19 => ⟨S_, .f32⟩
  | 20 => ⟨S_, .f32⟩
  | 21 => ⟨S_, .f32⟩
  | 22 => ⟨S1x8192, .f32⟩
  | 23 => ⟨S1x8192, .f32⟩
  | 24 => ⟨S1x1x1, .f32⟩
  | 25 => ⟨S_, .f32⟩
  | 26 => ⟨S1x8192, .f32⟩
  | 27 => ⟨S1x8192, .f32⟩
  | 28 => ⟨S1x1x1, .f32⟩
  | 29 => ⟨S_, .f32⟩
  | 30 => ⟨S1x1, .f32⟩
  | 31 => ⟨S1x8192, .f32⟩
  | 32 => ⟨S1x8192, .f32⟩
  | 33 => ⟨S1x1x1, .f32⟩
  | 34 => ⟨S_, .f32⟩
  | 35 => ⟨S1x1, .f32⟩
  | 36 => ⟨S1x8192, .f32⟩
  | 37 => ⟨S1x8192, .f32⟩
  | 38 => ⟨S1x1x1, .f32⟩
  | 39 => ⟨S_, .f32⟩
  | 40 => ⟨S1x1, .f32⟩
  | 41 => ⟨S1x8192, .f32⟩
  | 42 => ⟨S1x8192, .f32⟩
  | 43 => ⟨S1x1x1, .f32⟩
  | 44 => ⟨S_, .f32⟩
  | 45 => ⟨S1x1, .f32⟩
  | 46 => ⟨S1x8192, .f32⟩
  | 47 => ⟨S1x8192, .f32⟩
  | 48 => ⟨S_, .f32⟩
  | 49 => ⟨S_, .f32⟩
  | 50 => ⟨S1x8192, .f32⟩
  | 51 => ⟨S1x8192, .i1⟩
  | 52 => ⟨S_, .f32⟩
  | 53 => ⟨S1x8192, .f32⟩
  | 54 => ⟨S1x8192, .f32⟩
  | 55 => ⟨S1x8192, .f32⟩
  | 56 => ⟨S_, .f32⟩
  | 57 => ⟨S_, .f32⟩
  | 58 => ⟨S_, .f32⟩
  | 59 => ⟨S_, .f32⟩
  | 60 => ⟨S1x8192, .f32⟩
  | 61 => ⟨S1x8192, .f32⟩
  | 62 => ⟨S_, .f32⟩
  | 63 => ⟨S_, .f32⟩
  | 64 => ⟨S_, .f32⟩
  | 65 => ⟨S_, .f32⟩
  | 66 => ⟨S1x8192, .f32⟩
  | 67 => ⟨S1x8192, .f32⟩
  | 68 => ⟨S8192x1, .f32⟩
  | 69 => ⟨S8192x1, .f32⟩
  | 70 => ⟨S8192x2, .f32⟩
  | 71 => ⟨S8192x2, .f32⟩
  | 72 => ⟨S8192x2, .f32⟩
  | 73 => ⟨S_, .f32⟩
  | 74 => ⟨S8192x2, .f32⟩
  | 75 => ⟨S8192x2, .f32⟩
  | 76 => ⟨S_, .f32⟩
  | 77 => ⟨S8192x2, .f32⟩
  | 78 => ⟨S8192x2, .f32⟩
  | _ => ⟨S8192x8192, .f32⟩

abbrev hbmTy (i : Nat) : BufTy := match i / 128 with
  | 0 => hbmTy0_0 i
  | 1 => hbmTy0_1 i
  | 2 => hbmTy0_2 i
  | 3 => hbmTy0_3 i
  | _ => ⟨S8192x8192, .f32⟩

abbrev vmemTy0_0 (i : Nat) : BufTy := match i % 128 with
  | 0 => ⟨S256x8192, .f32⟩
  | 1 => ⟨S256x8192, .f32⟩
  | 2 => ⟨S1x8192, .f32⟩
  | 3 => ⟨S1x1, .f32⟩
  | 4 => ⟨S1x256, .f32⟩
  | 5 => ⟨S1x256, .f32⟩
  | 6 => ⟨S256x8192, .bf16⟩
  | 7 => ⟨S256x8192, .bf16⟩
  | 8 => ⟨S1x256, .f32⟩
  | 9 => ⟨S1x256, .f32⟩
  | 10 => ⟨S1x256, .f32⟩
  | 11 => ⟨S1x256, .f32⟩
  | 12 => ⟨S1024x8192, .bf16⟩
  | 13 => ⟨S1024x8192, .bf16⟩
  | 14 => ⟨S1x8192, .f32⟩
  | 15 => ⟨S1x1, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1024x8192, .bf16⟩
  | 23 => ⟨S1024x8192, .bf16⟩
  | 24 => ⟨S1x8192, .f32⟩
  | 25 => ⟨S1x1, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1024x8192, .bf16⟩
  | 33 => ⟨S1024x8192, .bf16⟩
  | 34 => ⟨S1x8192, .f32⟩
  | 35 => ⟨S1x1, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1024x8192, .bf16⟩
  | 43 => ⟨S1024x8192, .bf16⟩
  | 44 => ⟨S1x8192, .f32⟩
  | 45 => ⟨S1x1, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1024x8192, .bf16⟩
  | 53 => ⟨S1024x8192, .bf16⟩
  | 54 => ⟨S1x8192, .f32⟩
  | 55 => ⟨S1x1, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1024x8192, .bf16⟩
  | 63 => ⟨S1024x8192, .bf16⟩
  | 64 => ⟨S1x8192, .f32⟩
  | 65 => ⟨S1x1, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1024x8192, .bf16⟩
  | 73 => ⟨S1024x8192, .bf16⟩
  | 74 => ⟨S1x8192, .f32⟩
  | 75 => ⟨S1x1, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1024x8192, .bf16⟩
  | 83 => ⟨S1024x8192, .bf16⟩
  | 84 => ⟨S1x8192, .f32⟩
  | 85 => ⟨S1x1, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1024x8192, .bf16⟩
  | 93 => ⟨S1024x8192, .bf16⟩
  | 94 => ⟨S1x8192, .f32⟩
  | 95 => ⟨S1x1, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1024x8192, .bf16⟩
  | 103 => ⟨S1024x8192, .bf16⟩
  | 104 => ⟨S1x8192, .f32⟩
  | 105 => ⟨S1x1, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1024x8192, .bf16⟩
  | 113 => ⟨S1024x8192, .bf16⟩
  | 114 => ⟨S1x8192, .f32⟩
  | 115 => ⟨S1x1, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1024x8192, .bf16⟩
  | 123 => ⟨S1024x8192, .bf16⟩
  | 124 => ⟨S1x8192, .f32⟩
  | 125 => ⟨S1x1, .f32⟩
  | 126 => ⟨S1x1024, .f32⟩
  | 127 => ⟨S1x1024, .f32⟩
  | _ => ⟨S8192x8192, .f32⟩

abbrev vmemTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1024x8192, .bf16⟩
  | 5 => ⟨S1024x8192, .bf16⟩
  | 6 => ⟨S1x8192, .f32⟩
  | 7 => ⟨S1x1, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1024x8192, .bf16⟩
  | 15 => ⟨S1024x8192, .bf16⟩
  | 16 => ⟨S1x8192, .f32⟩
  | 17 => ⟨S1x1, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1024x8192, .bf16⟩
  | 25 => ⟨S1024x8192, .bf16⟩
  | 26 => ⟨S1x8192, .f32⟩
  | 27 => ⟨S1x1, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1024x8192, .bf16⟩
  | 35 => ⟨S1024x8192, .bf16⟩
  | 36 => ⟨S1x8192, .f32⟩
  | 37 => ⟨S1x1, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1024x8192, .bf16⟩
  | 45 => ⟨S1024x8192, .bf16⟩
  | 46 => ⟨S1x8192, .f32⟩
  | 47 => ⟨S1x1, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1024x8192, .bf16⟩
  | 55 => ⟨S1024x8192, .bf16⟩
  | 56 => ⟨S1x8192, .f32⟩
  | 57 => ⟨S1x1, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1024x8192, .bf16⟩
  | 65 => ⟨S1024x8192, .bf16⟩
  | 66 => ⟨S1x8192, .f32⟩
  | 67 => ⟨S1x1, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1024x8192, .bf16⟩
  | 75 => ⟨S1024x8192, .bf16⟩
  | 76 => ⟨S1x8192, .f32⟩
  | 77 => ⟨S1x1, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1024x8192, .bf16⟩
  | 85 => ⟨S1024x8192, .bf16⟩
  | 86 => ⟨S1x8192, .f32⟩
  | 87 => ⟨S1x1, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1024x8192, .bf16⟩
  | 95 => ⟨S1024x8192, .bf16⟩
  | 96 => ⟨S1x8192, .f32⟩
  | 97 => ⟨S1x1, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1024x8192, .bf16⟩
  | 105 => ⟨S1024x8192, .bf16⟩
  | 106 => ⟨S1x8192, .f32⟩
  | 107 => ⟨S1x1, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1024x8192, .bf16⟩
  | 115 => ⟨S1024x8192, .bf16⟩
  | 116 => ⟨S1x8192, .f32⟩
  | 117 => ⟨S1x1, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1024x8192, .bf16⟩
  | 125 => ⟨S1024x8192, .bf16⟩
  | 126 => ⟨S1x8192, .f32⟩
  | 127 => ⟨S1x1, .f32⟩
  | _ => ⟨S8192x8192, .f32⟩

abbrev vmemTy0_2 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1024x8192, .bf16⟩
  | 7 => ⟨S1024x8192, .bf16⟩
  | 8 => ⟨S1x8192, .f32⟩
  | 9 => ⟨S1x1, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1024x8192, .bf16⟩
  | 17 => ⟨S1024x8192, .bf16⟩
  | 18 => ⟨S1x8192, .f32⟩
  | 19 => ⟨S1x1, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1024x8192, .bf16⟩
  | 27 => ⟨S1024x8192, .bf16⟩
  | 28 => ⟨S1x8192, .f32⟩
  | 29 => ⟨S1x1, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1024x8192, .bf16⟩
  | 37 => ⟨S1024x8192, .bf16⟩
  | 38 => ⟨S1x8192, .f32⟩
  | 39 => ⟨S1x1, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1024x8192, .bf16⟩
  | 47 => ⟨S1024x8192, .bf16⟩
  | 48 => ⟨S1x8192, .f32⟩
  | 49 => ⟨S1x1, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1024x8192, .bf16⟩
  | 57 => ⟨S1024x8192, .bf16⟩
  | 58 => ⟨S1x8192, .f32⟩
  | 59 => ⟨S1x1, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1024x8192, .bf16⟩
  | 67 => ⟨S1024x8192, .bf16⟩
  | 68 => ⟨S1x8192, .f32⟩
  | 69 => ⟨S1x1, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1024x8192, .bf16⟩
  | 77 => ⟨S1024x8192, .bf16⟩
  | 78 => ⟨S1x8192, .f32⟩
  | 79 => ⟨S1x1, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1024x8192, .bf16⟩
  | 87 => ⟨S1024x8192, .bf16⟩
  | 88 => ⟨S1x8192, .f32⟩
  | 89 => ⟨S1x1, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1024x8192, .bf16⟩
  | 97 => ⟨S1024x8192, .bf16⟩
  | 98 => ⟨S1x8192, .f32⟩
  | 99 => ⟨S1x1, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1024x8192, .bf16⟩
  | 107 => ⟨S1024x8192, .bf16⟩
  | 108 => ⟨S1x8192, .f32⟩
  | 109 => ⟨S1x1, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1024x8192, .bf16⟩
  | 117 => ⟨S1024x8192, .bf16⟩
  | 118 => ⟨S1x8192, .f32⟩
  | 119 => ⟨S1x1, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1024x8192, .bf16⟩
  | 127 => ⟨S1024x8192, .bf16⟩
  | _ => ⟨S8192x8192, .f32⟩

abbrev vmemTy0_3 (i : Nat) : BufTy := match i % 128 with
  | 0 => ⟨S1x8192, .f32⟩
  | 1 => ⟨S1x1, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1024x8192, .bf16⟩
  | 9 => ⟨S1024x8192, .bf16⟩
  | 10 => ⟨S1x8192, .f32⟩
  | 11 => ⟨S1x1, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | _ => ⟨S8192x8192, .f32⟩

abbrev vmemTy (i : Nat) : BufTy := match i / 128 with
  | 0 => vmemTy0_0 i
  | 1 => vmemTy0_1 i
  | 2 => vmemTy0_2 i
  | 3 => vmemTy0_3 i
  | _ => ⟨S8192x8192, .f32⟩

abbrev bufTy : (tb : Table) → Fin (tcTables nBuf tb) → BufTy
  | .hbm, ⟨i, _⟩ => hbmTy i
  | .local _ .vmem, ⟨i, _⟩ => vmemTy i
  | _, _ => ⟨S8192x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev vmemScopedAt (i : Nat) : Bool := match i / 128 with
  | 0 => vmemScopedAt0_0 i
  | 1 => vmemScopedAt0_1 i
  | 2 => vmemScopedAt0_2 i
  | 3 => vmemScopedAt0_3 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 402 → Bool
  | ⟨i, _⟩ => dmaSemScopedAt i

abbrev sig : RefSig :=
  ofTc nBuf bufTy 0 402 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13_0 : Ref sig .tc := ⟨.hbm, 18, rfl⟩
abbrev main_call0_v13_1 : Ref sig .tc := ⟨.hbm, 19, rfl⟩
abbrev main_call0_v13_2 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17_0 : Ref sig .tc := ⟨.hbm, 24, rfl⟩
abbrev main_call0_v17_1 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21_0 : Ref sig .tc := ⟨.hbm, 29, rfl⟩
abbrev main_call0_v21_1 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25_0 : Ref sig .tc := ⟨.hbm, 34, rfl⟩
abbrev main_call0_v25_1 : Ref sig .tc := ⟨.hbm, 35, rfl⟩
abbrev main_call0_cst_1 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_v26 : Ref sig .tc := ⟨.hbm, 43, rfl⟩
abbrev main_call0_cst_2 : Ref sig .tc := ⟨.hbm, 44, rfl⟩
abbrev main_call0_v27 : Ref sig .tc := ⟨.hbm, 45, rfl⟩
abbrev main_call0_cst_3 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_cst_4 : Ref sig .tc := ⟨.hbm, 50, rfl⟩
abbrev main_call0_v31 : Ref sig .tc := ⟨.hbm, 51, rfl⟩
abbrev main_call0_cst_5 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42_0 : Ref sig .tc := ⟨.hbm, 63, rfl⟩
abbrev main_call0_v42_1 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46_0 : Ref sig .tc := ⟨.hbm, 68, rfl⟩
abbrev main_call0_v46_1 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50_0 : Ref sig .tc := ⟨.hbm, 73, rfl⟩
abbrev main_call0_v50_1 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54_0 : Ref sig .tc := ⟨.hbm, 78, rfl⟩
abbrev main_call0_v54_1 : Ref sig .tc := ⟨.hbm, 79, rfl⟩
abbrev main_call0_cst_6 : Ref sig .tc := ⟨.hbm, 80, rfl⟩
abbrev main_call0_call1_cst : Ref sig .tc := ⟨.hbm, 81, rfl⟩
abbrev main_call0_call1_v0 : Ref sig .tc := ⟨.hbm, 82, rfl⟩
abbrev main_call0_call1_v1 : Ref sig .tc := ⟨.hbm, 83, rfl⟩
abbrev main_call0_call1_v2 : Ref sig .tc := ⟨.hbm, 84, rfl⟩
abbrev main_call0_call1_v3 : Ref sig .tc := ⟨.hbm, 85, rfl⟩
abbrev main_call0_call1_v4 : Ref sig .tc := ⟨.hbm, 86, rfl⟩
abbrev main_call0_v55 : Ref sig .tc := ⟨.hbm, 87, rfl⟩
abbrev main_call0_cst_7 : Ref sig .tc := ⟨.hbm, 88, rfl⟩
abbrev main_call0_v56 : Ref sig .tc := ⟨.hbm, 89, rfl⟩
abbrev main_call0_cst_8 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_cst_9 : Ref sig .tc := ⟨.hbm, 94, rfl⟩
abbrev main_call0_v60 : Ref sig .tc := ⟨.hbm, 95, rfl⟩
abbrev main_call0_cst_10 : Ref sig .tc := ⟨.hbm, 96, rfl⟩
abbrev main_call0_v61 : Ref sig .tc := ⟨.hbm, 97, rfl⟩
abbrev main_call0_v62 : Ref sig .tc := ⟨.hbm, 98, rfl⟩
abbrev main_call0_v63 : Ref sig .tc := ⟨.hbm, 99, rfl⟩
abbrev main_call0_v64 : Ref sig .tc := ⟨.hbm, 100, rfl⟩
abbrev main_call0_v65 : Ref sig .tc := ⟨.hbm, 101, rfl⟩
abbrev main_call0_v66 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_v70 : Ref sig .tc := ⟨.hbm, 106, rfl⟩
abbrev main_call0_v71_0 : Ref sig .tc := ⟨.hbm, 107, rfl⟩
abbrev main_call0_v71_1 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75_0 : Ref sig .tc := ⟨.hbm, 112, rfl⟩
abbrev main_call0_v75_1 : Ref sig .tc := ⟨.hbm, 113, rfl⟩
abbrev main_call0_v76 : Ref sig .tc := ⟨.hbm, 114, rfl⟩
abbrev main_call0_v77 : Ref sig .tc := ⟨.hbm, 115, rfl⟩
abbrev main_call0_v78 : Ref sig .tc := ⟨.hbm, 116, rfl⟩
abbrev main_call0_v79_0 : Ref sig .tc := ⟨.hbm, 117, rfl⟩
abbrev main_call0_v79_1 : Ref sig .tc := ⟨.hbm, 118, rfl⟩
abbrev main_call0_v80 : Ref sig .tc := ⟨.hbm, 119, rfl⟩
abbrev main_call0_v81 : Ref sig .tc := ⟨.hbm, 120, rfl⟩
abbrev main_call0_v82 : Ref sig .tc := ⟨.hbm, 121, rfl⟩
abbrev main_call0_v83_0 : Ref sig .tc := ⟨.hbm, 122, rfl⟩
abbrev main_call0_v83_1 : Ref sig .tc := ⟨.hbm, 123, rfl⟩
abbrev main_call0_cst_11 : Ref sig .tc := ⟨.hbm, 124, rfl⟩
abbrev main_call0_call2_cst : Ref sig .tc := ⟨.hbm, 125, rfl⟩
abbrev main_call0_call2_v0 : Ref sig .tc := ⟨.hbm, 126, rfl⟩
abbrev main_call0_call2_v1 : Ref sig .tc := ⟨.hbm, 127, rfl⟩
abbrev main_call0_call2_v2 : Ref sig .tc := ⟨.hbm, 128, rfl⟩
abbrev main_call0_call2_v3 : Ref sig .tc := ⟨.hbm, 129, rfl⟩
abbrev main_call0_call2_v4 : Ref sig .tc := ⟨.hbm, 130, rfl⟩
abbrev main_call0_v84 : Ref sig .tc := ⟨.hbm, 131, rfl⟩
abbrev main_call0_cst_12 : Ref sig .tc := ⟨.hbm, 132, rfl⟩
abbrev main_call0_v85 : Ref sig .tc := ⟨.hbm, 133, rfl⟩
abbrev main_call0_cst_13 : Ref sig .tc := ⟨.hbm, 134, rfl⟩
abbrev main_call0_v86 : Ref sig .tc := ⟨.hbm, 135, rfl⟩
abbrev main_call0_v87 : Ref sig .tc := ⟨.hbm, 136, rfl⟩
abbrev main_call0_v88 : Ref sig .tc := ⟨.hbm, 137, rfl⟩
abbrev main_call0_cst_14 : Ref sig .tc := ⟨.hbm, 138, rfl⟩
abbrev main_call0_v89 : Ref sig .tc := ⟨.hbm, 139, rfl⟩
abbrev main_call0_cst_15 : Ref sig .tc := ⟨.hbm, 140, rfl⟩
abbrev main_call0_v90 : Ref sig .tc := ⟨.hbm, 141, rfl⟩
abbrev main_call0_v91 : Ref sig .tc := ⟨.hbm, 142, rfl⟩
abbrev main_call0_v92 : Ref sig .tc := ⟨.hbm, 143, rfl⟩
abbrev main_call0_v93 : Ref sig .tc := ⟨.hbm, 144, rfl⟩
abbrev main_call0_v94 : Ref sig .tc := ⟨.hbm, 145, rfl⟩
abbrev main_call0_v95 : Ref sig .tc := ⟨.hbm, 146, rfl⟩
abbrev main_call0_v96 : Ref sig .tc := ⟨.hbm, 147, rfl⟩
abbrev main_call0_v97 : Ref sig .tc := ⟨.hbm, 148, rfl⟩
abbrev main_call0_v98 : Ref sig .tc := ⟨.hbm, 149, rfl⟩
abbrev main_call0_v99 : Ref sig .tc := ⟨.hbm, 150, rfl⟩
abbrev main_call0_v100_0 : Ref sig .tc := ⟨.hbm, 151, rfl⟩
abbrev main_call0_v100_1 : Ref sig .tc := ⟨.hbm, 152, rfl⟩
abbrev main_call0_v101 : Ref sig .tc := ⟨.hbm, 153, rfl⟩
abbrev main_call0_v102 : Ref sig .tc := ⟨.hbm, 154, rfl⟩
abbrev main_call0_v103 : Ref sig .tc := ⟨.hbm, 155, rfl⟩
abbrev main_call0_v104_0 : Ref sig .tc := ⟨.hbm, 156, rfl⟩
abbrev main_call0_v104_1 : Ref sig .tc := ⟨.hbm, 157, rfl⟩
abbrev main_call0_v105 : Ref sig .tc := ⟨.hbm, 158, rfl⟩
abbrev main_call0_v106 : Ref sig .tc := ⟨.hbm, 159, rfl⟩
abbrev main_call0_v107 : Ref sig .tc := ⟨.hbm, 160, rfl⟩
abbrev main_call0_v108_0 : Ref sig .tc := ⟨.hbm, 161, rfl⟩
abbrev main_call0_v108_1 : Ref sig .tc := ⟨.hbm, 162, rfl⟩
abbrev main_call0_v109 : Ref sig .tc := ⟨.hbm, 163, rfl⟩
abbrev main_call0_v110 : Ref sig .tc := ⟨.hbm, 164, rfl⟩
abbrev main_call0_v111 : Ref sig .tc := ⟨.hbm, 165, rfl⟩
abbrev main_call0_v112_0 : Ref sig .tc := ⟨.hbm, 166, rfl⟩
abbrev main_call0_v112_1 : Ref sig .tc := ⟨.hbm, 167, rfl⟩
abbrev main_call0_cst_16 : Ref sig .tc := ⟨.hbm, 168, rfl⟩
abbrev main_call0_call3_cst : Ref sig .tc := ⟨.hbm, 169, rfl⟩
abbrev main_call0_call3_v0 : Ref sig .tc := ⟨.hbm, 170, rfl⟩
abbrev main_call0_call3_v1 : Ref sig .tc := ⟨.hbm, 171, rfl⟩
abbrev main_call0_call3_v2 : Ref sig .tc := ⟨.hbm, 172, rfl⟩
abbrev main_call0_call3_v3 : Ref sig .tc := ⟨.hbm, 173, rfl⟩
abbrev main_call0_call3_v4 : Ref sig .tc := ⟨.hbm, 174, rfl⟩
abbrev main_call0_v113 : Ref sig .tc := ⟨.hbm, 175, rfl⟩
abbrev main_call0_cst_17 : Ref sig .tc := ⟨.hbm, 176, rfl⟩
abbrev main_call0_v114 : Ref sig .tc := ⟨.hbm, 177, rfl⟩
abbrev main_call0_cst_18 : Ref sig .tc := ⟨.hbm, 178, rfl⟩
abbrev main_call0_v115 : Ref sig .tc := ⟨.hbm, 179, rfl⟩
abbrev main_call0_v116 : Ref sig .tc := ⟨.hbm, 180, rfl⟩
abbrev main_call0_v117 : Ref sig .tc := ⟨.hbm, 181, rfl⟩
abbrev main_call0_cst_19 : Ref sig .tc := ⟨.hbm, 182, rfl⟩
abbrev main_call0_v118 : Ref sig .tc := ⟨.hbm, 183, rfl⟩
abbrev main_call0_cst_20 : Ref sig .tc := ⟨.hbm, 184, rfl⟩
abbrev main_call0_v119 : Ref sig .tc := ⟨.hbm, 185, rfl⟩
abbrev main_call0_v120 : Ref sig .tc := ⟨.hbm, 186, rfl⟩
abbrev main_call0_v121 : Ref sig .tc := ⟨.hbm, 187, rfl⟩
abbrev main_call0_v122 : Ref sig .tc := ⟨.hbm, 188, rfl⟩
abbrev main_call0_v123 : Ref sig .tc := ⟨.hbm, 189, rfl⟩
abbrev main_call0_v124 : Ref sig .tc := ⟨.hbm, 190, rfl⟩
abbrev main_call0_v125 : Ref sig .tc := ⟨.hbm, 191, rfl⟩
abbrev main_call0_v126 : Ref sig .tc := ⟨.hbm, 192, rfl⟩
abbrev main_call0_v127 : Ref sig .tc := ⟨.hbm, 193, rfl⟩
abbrev main_call0_v128 : Ref sig .tc := ⟨.hbm, 194, rfl⟩
abbrev main_call0_v129_0 : Ref sig .tc := ⟨.hbm, 195, rfl⟩
abbrev main_call0_v129_1 : Ref sig .tc := ⟨.hbm, 196, rfl⟩
abbrev main_call0_v130 : Ref sig .tc := ⟨.hbm, 197, rfl⟩
abbrev main_call0_v131 : Ref sig .tc := ⟨.hbm, 198, rfl⟩
abbrev main_call0_v132 : Ref sig .tc := ⟨.hbm, 199, rfl⟩
abbrev main_call0_v133_0 : Ref sig .tc := ⟨.hbm, 200, rfl⟩
abbrev main_call0_v133_1 : Ref sig .tc := ⟨.hbm, 201, rfl⟩
abbrev main_call0_v134 : Ref sig .tc := ⟨.hbm, 202, rfl⟩
abbrev main_call0_v135 : Ref sig .tc := ⟨.hbm, 203, rfl⟩
abbrev main_call0_v136 : Ref sig .tc := ⟨.hbm, 204, rfl⟩
abbrev main_call0_v137_0 : Ref sig .tc := ⟨.hbm, 205, rfl⟩
abbrev main_call0_v137_1 : Ref sig .tc := ⟨.hbm, 206, rfl⟩
abbrev main_call0_v138 : Ref sig .tc := ⟨.hbm, 207, rfl⟩
abbrev main_call0_v139 : Ref sig .tc := ⟨.hbm, 208, rfl⟩
abbrev main_call0_v140 : Ref sig .tc := ⟨.hbm, 209, rfl⟩
abbrev main_call0_v141_0 : Ref sig .tc := ⟨.hbm, 210, rfl⟩
abbrev main_call0_v141_1 : Ref sig .tc := ⟨.hbm, 211, rfl⟩
abbrev main_call0_cst_21 : Ref sig .tc := ⟨.hbm, 212, rfl⟩
abbrev main_call0_call4_cst : Ref sig .tc := ⟨.hbm, 213, rfl⟩
abbrev main_call0_call4_v0 : Ref sig .tc := ⟨.hbm, 214, rfl⟩
abbrev main_call0_call4_v1 : Ref sig .tc := ⟨.hbm, 215, rfl⟩
abbrev main_call0_call4_v2 : Ref sig .tc := ⟨.hbm, 216, rfl⟩
abbrev main_call0_call4_v3 : Ref sig .tc := ⟨.hbm, 217, rfl⟩
abbrev main_call0_call4_v4 : Ref sig .tc := ⟨.hbm, 218, rfl⟩
abbrev main_call0_v142 : Ref sig .tc := ⟨.hbm, 219, rfl⟩
abbrev main_call0_cst_22 : Ref sig .tc := ⟨.hbm, 220, rfl⟩
abbrev main_call0_v143 : Ref sig .tc := ⟨.hbm, 221, rfl⟩
abbrev main_call0_cst_23 : Ref sig .tc := ⟨.hbm, 222, rfl⟩
abbrev main_call0_v144 : Ref sig .tc := ⟨.hbm, 223, rfl⟩
abbrev main_call0_v145 : Ref sig .tc := ⟨.hbm, 224, rfl⟩
abbrev main_call0_v146 : Ref sig .tc := ⟨.hbm, 225, rfl⟩
abbrev main_call0_cst_24 : Ref sig .tc := ⟨.hbm, 226, rfl⟩
abbrev main_call0_v147 : Ref sig .tc := ⟨.hbm, 227, rfl⟩
abbrev main_call0_cst_25 : Ref sig .tc := ⟨.hbm, 228, rfl⟩
abbrev main_call0_v148 : Ref sig .tc := ⟨.hbm, 229, rfl⟩
abbrev main_call0_v149 : Ref sig .tc := ⟨.hbm, 230, rfl⟩
abbrev main_call0_v150 : Ref sig .tc := ⟨.hbm, 231, rfl⟩
abbrev main_call0_v151 : Ref sig .tc := ⟨.hbm, 232, rfl⟩
abbrev main_call0_v152 : Ref sig .tc := ⟨.hbm, 233, rfl⟩
abbrev main_call0_v153 : Ref sig .tc := ⟨.hbm, 234, rfl⟩
abbrev main_call0_v154 : Ref sig .tc := ⟨.hbm, 235, rfl⟩
abbrev main_call0_v155 : Ref sig .tc := ⟨.hbm, 236, rfl⟩
abbrev main_call0_v156 : Ref sig .tc := ⟨.hbm, 237, rfl⟩
abbrev main_call0_v157 : Ref sig .tc := ⟨.hbm, 238, rfl⟩
abbrev main_call0_v158_0 : Ref sig .tc := ⟨.hbm, 239, rfl⟩
abbrev main_call0_v158_1 : Ref sig .tc := ⟨.hbm, 240, rfl⟩
abbrev main_call0_v159 : Ref sig .tc := ⟨.hbm, 241, rfl⟩
abbrev main_call0_v160 : Ref sig .tc := ⟨.hbm, 242, rfl⟩
abbrev main_call0_v161 : Ref sig .tc := ⟨.hbm, 243, rfl⟩
abbrev main_call0_v162_0 : Ref sig .tc := ⟨.hbm, 244, rfl⟩
abbrev main_call0_v162_1 : Ref sig .tc := ⟨.hbm, 245, rfl⟩
abbrev main_call0_v163 : Ref sig .tc := ⟨.hbm, 246, rfl⟩
abbrev main_call0_v164 : Ref sig .tc := ⟨.hbm, 247, rfl⟩
abbrev main_call0_v165 : Ref sig .tc := ⟨.hbm, 248, rfl⟩
abbrev main_call0_v166_0 : Ref sig .tc := ⟨.hbm, 249, rfl⟩
abbrev main_call0_v166_1 : Ref sig .tc := ⟨.hbm, 250, rfl⟩
abbrev main_call0_v167 : Ref sig .tc := ⟨.hbm, 251, rfl⟩
abbrev main_call0_v168 : Ref sig .tc := ⟨.hbm, 252, rfl⟩
abbrev main_call0_v169 : Ref sig .tc := ⟨.hbm, 253, rfl⟩
abbrev main_call0_v170_0 : Ref sig .tc := ⟨.hbm, 254, rfl⟩
abbrev main_call0_v170_1 : Ref sig .tc := ⟨.hbm, 255, rfl⟩
abbrev main_call0_cst_26 : Ref sig .tc := ⟨.hbm, 256, rfl⟩
abbrev main_call0_call5_cst : Ref sig .tc := ⟨.hbm, 257, rfl⟩
abbrev main_call0_call5_v0 : Ref sig .tc := ⟨.hbm, 258, rfl⟩
abbrev main_call0_call5_v1 : Ref sig .tc := ⟨.hbm, 259, rfl⟩
abbrev main_call0_call5_v2 : Ref sig .tc := ⟨.hbm, 260, rfl⟩
abbrev main_call0_call5_v3 : Ref sig .tc := ⟨.hbm, 261, rfl⟩
abbrev main_call0_call5_v4 : Ref sig .tc := ⟨.hbm, 262, rfl⟩
abbrev main_call0_v171 : Ref sig .tc := ⟨.hbm, 263, rfl⟩
abbrev main_call0_cst_27 : Ref sig .tc := ⟨.hbm, 264, rfl⟩
abbrev main_call0_v172 : Ref sig .tc := ⟨.hbm, 265, rfl⟩
abbrev main_call0_cst_28 : Ref sig .tc := ⟨.hbm, 266, rfl⟩
abbrev main_call0_v173 : Ref sig .tc := ⟨.hbm, 267, rfl⟩
abbrev main_call0_v174 : Ref sig .tc := ⟨.hbm, 268, rfl⟩
abbrev main_call0_v175 : Ref sig .tc := ⟨.hbm, 269, rfl⟩
abbrev main_call0_cst_29 : Ref sig .tc := ⟨.hbm, 270, rfl⟩
abbrev main_call0_v176 : Ref sig .tc := ⟨.hbm, 271, rfl⟩
abbrev main_call0_cst_30 : Ref sig .tc := ⟨.hbm, 272, rfl⟩
abbrev main_call0_v177 : Ref sig .tc := ⟨.hbm, 273, rfl⟩
abbrev main_call0_v178 : Ref sig .tc := ⟨.hbm, 274, rfl⟩
abbrev main_call0_v179 : Ref sig .tc := ⟨.hbm, 275, rfl⟩
abbrev main_call0_v180 : Ref sig .tc := ⟨.hbm, 276, rfl⟩
abbrev main_call0_v181 : Ref sig .tc := ⟨.hbm, 277, rfl⟩
abbrev main_call0_v182 : Ref sig .tc := ⟨.hbm, 278, rfl⟩
abbrev main_call0_v183 : Ref sig .tc := ⟨.hbm, 279, rfl⟩
abbrev main_call0_v184 : Ref sig .tc := ⟨.hbm, 280, rfl⟩
abbrev main_call0_v185 : Ref sig .tc := ⟨.hbm, 281, rfl⟩
abbrev main_call0_v186 : Ref sig .tc := ⟨.hbm, 282, rfl⟩
abbrev main_call0_v187_0 : Ref sig .tc := ⟨.hbm, 283, rfl⟩
abbrev main_call0_v187_1 : Ref sig .tc := ⟨.hbm, 284, rfl⟩
abbrev main_call0_v188 : Ref sig .tc := ⟨.hbm, 285, rfl⟩
abbrev main_call0_v189 : Ref sig .tc := ⟨.hbm, 286, rfl⟩
abbrev main_call0_v190 : Ref sig .tc := ⟨.hbm, 287, rfl⟩
abbrev main_call0_v191_0 : Ref sig .tc := ⟨.hbm, 288, rfl⟩
abbrev main_call0_v191_1 : Ref sig .tc := ⟨.hbm, 289, rfl⟩
abbrev main_call0_v192 : Ref sig .tc := ⟨.hbm, 290, rfl⟩
abbrev main_call0_v193 : Ref sig .tc := ⟨.hbm, 291, rfl⟩
abbrev main_call0_v194 : Ref sig .tc := ⟨.hbm, 292, rfl⟩
abbrev main_call0_v195_0 : Ref sig .tc := ⟨.hbm, 293, rfl⟩
abbrev main_call0_v195_1 : Ref sig .tc := ⟨.hbm, 294, rfl⟩
abbrev main_call0_v196 : Ref sig .tc := ⟨.hbm, 295, rfl⟩
abbrev main_call0_v197 : Ref sig .tc := ⟨.hbm, 296, rfl⟩
abbrev main_call0_v198 : Ref sig .tc := ⟨.hbm, 297, rfl⟩
abbrev main_call0_v199_0 : Ref sig .tc := ⟨.hbm, 298, rfl⟩
abbrev main_call0_v199_1 : Ref sig .tc := ⟨.hbm, 299, rfl⟩
abbrev main_call0_cst_31 : Ref sig .tc := ⟨.hbm, 300, rfl⟩
abbrev main_call0_call6_cst : Ref sig .tc := ⟨.hbm, 301, rfl⟩
abbrev main_call0_call6_v0 : Ref sig .tc := ⟨.hbm, 302, rfl⟩
abbrev main_call0_call6_v1 : Ref sig .tc := ⟨.hbm, 303, rfl⟩
abbrev main_call0_call6_v2 : Ref sig .tc := ⟨.hbm, 304, rfl⟩
abbrev main_call0_call6_v3 : Ref sig .tc := ⟨.hbm, 305, rfl⟩
abbrev main_call0_call6_v4 : Ref sig .tc := ⟨.hbm, 306, rfl⟩
abbrev main_call0_v200 : Ref sig .tc := ⟨.hbm, 307, rfl⟩
abbrev main_call0_cst_32 : Ref sig .tc := ⟨.hbm, 308, rfl⟩
abbrev main_call0_v201 : Ref sig .tc := ⟨.hbm, 309, rfl⟩
abbrev main_call0_cst_33 : Ref sig .tc := ⟨.hbm, 310, rfl⟩
abbrev main_call0_v202 : Ref sig .tc := ⟨.hbm, 311, rfl⟩
abbrev main_call0_v203 : Ref sig .tc := ⟨.hbm, 312, rfl⟩
abbrev main_call0_v204 : Ref sig .tc := ⟨.hbm, 313, rfl⟩
abbrev main_call0_cst_34 : Ref sig .tc := ⟨.hbm, 314, rfl⟩
abbrev main_call0_v205 : Ref sig .tc := ⟨.hbm, 315, rfl⟩
abbrev main_call0_cst_35 : Ref sig .tc := ⟨.hbm, 316, rfl⟩
abbrev main_call0_v206 : Ref sig .tc := ⟨.hbm, 317, rfl⟩
abbrev main_call0_v207 : Ref sig .tc := ⟨.hbm, 318, rfl⟩
abbrev main_call0_v208 : Ref sig .tc := ⟨.hbm, 319, rfl⟩
abbrev main_call0_v209 : Ref sig .tc := ⟨.hbm, 320, rfl⟩
abbrev main_call0_v210 : Ref sig .tc := ⟨.hbm, 321, rfl⟩
abbrev main_call0_v211 : Ref sig .tc := ⟨.hbm, 322, rfl⟩
abbrev main_call0_v212 : Ref sig .tc := ⟨.hbm, 323, rfl⟩
abbrev main_call0_v213 : Ref sig .tc := ⟨.hbm, 324, rfl⟩
abbrev main_call0_v214 : Ref sig .tc := ⟨.hbm, 325, rfl⟩
abbrev main_call0_v215 : Ref sig .tc := ⟨.hbm, 326, rfl⟩
abbrev main_call0_v216_0 : Ref sig .tc := ⟨.hbm, 327, rfl⟩
abbrev main_call0_v216_1 : Ref sig .tc := ⟨.hbm, 328, rfl⟩
abbrev main_call0_v217 : Ref sig .tc := ⟨.hbm, 329, rfl⟩
abbrev main_call0_v218 : Ref sig .tc := ⟨.hbm, 330, rfl⟩
abbrev main_call0_v219 : Ref sig .tc := ⟨.hbm, 331, rfl⟩
abbrev main_call0_v220_0 : Ref sig .tc := ⟨.hbm, 332, rfl⟩
abbrev main_call0_v220_1 : Ref sig .tc := ⟨.hbm, 333, rfl⟩
abbrev main_call0_v221 : Ref sig .tc := ⟨.hbm, 334, rfl⟩
abbrev main_call0_v222 : Ref sig .tc := ⟨.hbm, 335, rfl⟩
abbrev main_call0_v223 : Ref sig .tc := ⟨.hbm, 336, rfl⟩
abbrev main_call0_v224_0 : Ref sig .tc := ⟨.hbm, 337, rfl⟩
abbrev main_call0_v224_1 : Ref sig .tc := ⟨.hbm, 338, rfl⟩
abbrev main_call0_v225 : Ref sig .tc := ⟨.hbm, 339, rfl⟩
abbrev main_call0_v226 : Ref sig .tc := ⟨.hbm, 340, rfl⟩
abbrev main_call0_v227 : Ref sig .tc := ⟨.hbm, 341, rfl⟩
abbrev main_call0_v228_0 : Ref sig .tc := ⟨.hbm, 342, rfl⟩
abbrev main_call0_v228_1 : Ref sig .tc := ⟨.hbm, 343, rfl⟩
abbrev main_call0_cst_36 : Ref sig .tc := ⟨.hbm, 344, rfl⟩
abbrev main_call0_call7_cst : Ref sig .tc := ⟨.hbm, 345, rfl⟩
abbrev main_call0_call7_v0 : Ref sig .tc := ⟨.hbm, 346, rfl⟩
abbrev main_call0_call7_v1 : Ref sig .tc := ⟨.hbm, 347, rfl⟩
abbrev main_call0_call7_v2 : Ref sig .tc := ⟨.hbm, 348, rfl⟩
abbrev main_call0_call7_v3 : Ref sig .tc := ⟨.hbm, 349, rfl⟩
abbrev main_call0_call7_v4 : Ref sig .tc := ⟨.hbm, 350, rfl⟩
abbrev main_call0_v229 : Ref sig .tc := ⟨.hbm, 351, rfl⟩
abbrev main_call0_cst_37 : Ref sig .tc := ⟨.hbm, 352, rfl⟩
abbrev main_call0_v230 : Ref sig .tc := ⟨.hbm, 353, rfl⟩
abbrev main_call0_cst_38 : Ref sig .tc := ⟨.hbm, 354, rfl⟩
abbrev main_call0_v231 : Ref sig .tc := ⟨.hbm, 355, rfl⟩
abbrev main_call0_v232 : Ref sig .tc := ⟨.hbm, 356, rfl⟩
abbrev main_call0_v233 : Ref sig .tc := ⟨.hbm, 357, rfl⟩
abbrev main_call0_cst_39 : Ref sig .tc := ⟨.hbm, 358, rfl⟩
abbrev main_call0_v234 : Ref sig .tc := ⟨.hbm, 359, rfl⟩
abbrev main_call0_cst_40 : Ref sig .tc := ⟨.hbm, 360, rfl⟩
abbrev main_call0_v235 : Ref sig .tc := ⟨.hbm, 361, rfl⟩
abbrev main_call0_v236 : Ref sig .tc := ⟨.hbm, 362, rfl⟩
abbrev main_call0_v237 : Ref sig .tc := ⟨.hbm, 363, rfl⟩
abbrev main_call0_v238 : Ref sig .tc := ⟨.hbm, 364, rfl⟩
abbrev main_call0_v239 : Ref sig .tc := ⟨.hbm, 365, rfl⟩
abbrev main_call0_v240 : Ref sig .tc := ⟨.hbm, 366, rfl⟩
abbrev main_call0_v241 : Ref sig .tc := ⟨.hbm, 367, rfl⟩
abbrev main_call0_v242 : Ref sig .tc := ⟨.hbm, 368, rfl⟩
abbrev main_call0_v243 : Ref sig .tc := ⟨.hbm, 369, rfl⟩
abbrev main_call0_v244 : Ref sig .tc := ⟨.hbm, 370, rfl⟩
abbrev main_call0_v245_0 : Ref sig .tc := ⟨.hbm, 371, rfl⟩
abbrev main_call0_v245_1 : Ref sig .tc := ⟨.hbm, 372, rfl⟩
abbrev main_call0_v246 : Ref sig .tc := ⟨.hbm, 373, rfl⟩
abbrev main_call0_v247 : Ref sig .tc := ⟨.hbm, 374, rfl⟩
abbrev main_call0_v248 : Ref sig .tc := ⟨.hbm, 375, rfl⟩
abbrev main_call0_v249_0 : Ref sig .tc := ⟨.hbm, 376, rfl⟩
abbrev main_call0_v249_1 : Ref sig .tc := ⟨.hbm, 377, rfl⟩
abbrev main_call0_v250 : Ref sig .tc := ⟨.hbm, 378, rfl⟩
abbrev main_call0_v251 : Ref sig .tc := ⟨.hbm, 379, rfl⟩
abbrev main_call0_v252 : Ref sig .tc := ⟨.hbm, 380, rfl⟩
abbrev main_call0_v253_0 : Ref sig .tc := ⟨.hbm, 381, rfl⟩
abbrev main_call0_v253_1 : Ref sig .tc := ⟨.hbm, 382, rfl⟩
abbrev main_call0_v254 : Ref sig .tc := ⟨.hbm, 383, rfl⟩
abbrev main_call0_v255 : Ref sig .tc := ⟨.hbm, 384, rfl⟩
abbrev main_call0_v256 : Ref sig .tc := ⟨.hbm, 385, rfl⟩
abbrev main_call0_v257_0 : Ref sig .tc := ⟨.hbm, 386, rfl⟩
abbrev main_call0_v257_1 : Ref sig .tc := ⟨.hbm, 387, rfl⟩
abbrev main_call0_cst_41 : Ref sig .tc := ⟨.hbm, 388, rfl⟩
abbrev main_call0_call8_cst : Ref sig .tc := ⟨.hbm, 389, rfl⟩
abbrev main_call0_call8_v0 : Ref sig .tc := ⟨.hbm, 390, rfl⟩
abbrev main_call0_call8_v1 : Ref sig .tc := ⟨.hbm, 391, rfl⟩
abbrev main_call0_call8_v2 : Ref sig .tc := ⟨.hbm, 392, rfl⟩
abbrev main_call0_call8_v3 : Ref sig .tc := ⟨.hbm, 393, rfl⟩
abbrev main_call0_call8_v4 : Ref sig .tc := ⟨.hbm, 394, rfl⟩
abbrev main_call0_v258 : Ref sig .tc := ⟨.hbm, 395, rfl⟩
abbrev main_call0_cst_42 : Ref sig .tc := ⟨.hbm, 396, rfl⟩
abbrev main_call0_v259 : Ref sig .tc := ⟨.hbm, 397, rfl⟩
abbrev main_call0_cst_43 : Ref sig .tc := ⟨.hbm, 398, rfl⟩
abbrev main_call0_v260 : Ref sig .tc := ⟨.hbm, 399, rfl⟩
abbrev main_call0_v261 : Ref sig .tc := ⟨.hbm, 400, rfl⟩
abbrev main_call0_v262 : Ref sig .tc := ⟨.hbm, 401, rfl⟩
abbrev main_call0_cst_44 : Ref sig .tc := ⟨.hbm, 402, rfl⟩
abbrev main_call0_v263 : Ref sig .tc := ⟨.hbm, 403, rfl⟩
abbrev main_call0_cst_45 : Ref sig .tc := ⟨.hbm, 404, rfl⟩
abbrev main_call0_v264 : Ref sig .tc := ⟨.hbm, 405, rfl⟩
abbrev main_call0_v265 : Ref sig .tc := ⟨.hbm, 406, rfl⟩
abbrev main_call0_v266 : Ref sig .tc := ⟨.hbm, 407, rfl⟩
abbrev main_call0_v267 : Ref sig .tc := ⟨.hbm, 408, rfl⟩
abbrev main_call0_v268 : Ref sig .tc := ⟨.hbm, 409, rfl⟩
abbrev main_call0_v269 : Ref sig .tc := ⟨.hbm, 410, rfl⟩
abbrev main_call0_v270 : Ref sig .tc := ⟨.hbm, 411, rfl⟩
abbrev main_call0_v271 : Ref sig .tc := ⟨.hbm, 412, rfl⟩
abbrev main_call0_v272 : Ref sig .tc := ⟨.hbm, 413, rfl⟩
abbrev main_call0_v273 : Ref sig .tc := ⟨.hbm, 414, rfl⟩
abbrev main_call0_v274_0 : Ref sig .tc := ⟨.hbm, 415, rfl⟩
abbrev main_call0_v274_1 : Ref sig .tc := ⟨.hbm, 416, rfl⟩
abbrev main_call0_v275 : Ref sig .tc := ⟨.hbm, 417, rfl⟩
abbrev main_call0_v276 : Ref sig .tc := ⟨.hbm, 418, rfl⟩
abbrev main_call0_v277 : Ref sig .tc := ⟨.hbm, 419, rfl⟩
abbrev main_call0_v278_0 : Ref sig .tc := ⟨.hbm, 420, rfl⟩
abbrev main_call0_v278_1 : Ref sig .tc := ⟨.hbm, 421, rfl⟩
abbrev main_call0_v279 : Ref sig .tc := ⟨.hbm, 422, rfl⟩
abbrev main_call0_v280 : Ref sig .tc := ⟨.hbm, 423, rfl⟩
abbrev main_call0_v281 : Ref sig .tc := ⟨.hbm, 424, rfl⟩
abbrev main_call0_v282_0 : Ref sig .tc := ⟨.hbm, 425, rfl⟩
abbrev main_call0_v282_1 : Ref sig .tc := ⟨.hbm, 426, rfl⟩
abbrev main_call0_v283 : Ref sig .tc := ⟨.hbm, 427, rfl⟩
abbrev main_call0_v284 : Ref sig .tc := ⟨.hbm, 428, rfl⟩
abbrev main_call0_v285 : Ref sig .tc := ⟨.hbm, 429, rfl⟩
abbrev main_call0_v286_0 : Ref sig .tc := ⟨.hbm, 430, rfl⟩
abbrev main_call0_v286_1 : Ref sig .tc := ⟨.hbm, 431, rfl⟩
abbrev main_call0_cst_46 : Ref sig .tc := ⟨.hbm, 432, rfl⟩
abbrev main_call0_call9_cst : Ref sig .tc := ⟨.hbm, 433, rfl⟩
abbrev main_call0_call9_v0 : Ref sig .tc := ⟨.hbm, 434, rfl⟩
abbrev main_call0_call9_v1 : Ref sig .tc := ⟨.hbm, 435, rfl⟩
abbrev main_call0_call9_v2 : Ref sig .tc := ⟨.hbm, 436, rfl⟩
abbrev main_call0_call9_v3 : Ref sig .tc := ⟨.hbm, 437, rfl⟩
abbrev main_call0_call9_v4 : Ref sig .tc := ⟨.hbm, 438, rfl⟩
abbrev main_call0_v287 : Ref sig .tc := ⟨.hbm, 439, rfl⟩
abbrev main_call0_cst_47 : Ref sig .tc := ⟨.hbm, 440, rfl⟩
abbrev main_call0_v288 : Ref sig .tc := ⟨.hbm, 441, rfl⟩
abbrev main_call0_cst_48 : Ref sig .tc := ⟨.hbm, 442, rfl⟩
abbrev main_call0_v289 : Ref sig .tc := ⟨.hbm, 443, rfl⟩
abbrev main_call0_v290 : Ref sig .tc := ⟨.hbm, 444, rfl⟩
abbrev main_call0_v291 : Ref sig .tc := ⟨.hbm, 445, rfl⟩
abbrev main_call0_cst_49 : Ref sig .tc := ⟨.hbm, 446, rfl⟩
abbrev main_call0_v292 : Ref sig .tc := ⟨.hbm, 447, rfl⟩
abbrev main_call0_cst_50 : Ref sig .tc := ⟨.hbm, 448, rfl⟩
abbrev main_call0_v293 : Ref sig .tc := ⟨.hbm, 449, rfl⟩
abbrev main_call0_v294 : Ref sig .tc := ⟨.hbm, 450, rfl⟩
abbrev main_call0_v295 : Ref sig .tc := ⟨.hbm, 451, rfl⟩
abbrev main_call0_v296 : Ref sig .tc := ⟨.hbm, 452, rfl⟩
abbrev main_call0_v297 : Ref sig .tc := ⟨.hbm, 453, rfl⟩
abbrev main_call0_v298 : Ref sig .tc := ⟨.hbm, 454, rfl⟩
abbrev main_call0_v299 : Ref sig .tc := ⟨.hbm, 455, rfl⟩
abbrev main_call0_v300 : Ref sig .tc := ⟨.hbm, 456, rfl⟩
abbrev main_call0_cst_51 : Ref sig .tc := ⟨.hbm, 457, rfl⟩
abbrev main_call0_v301 : Ref sig .tc := ⟨.hbm, 458, rfl⟩
abbrev main_call0_v302 : Ref sig .tc := ⟨.hbm, 459, rfl⟩
abbrev main_call0_cst_52 : Ref sig .tc := ⟨.hbm, 460, rfl⟩
abbrev main_call0_v303 : Ref sig .tc := ⟨.hbm, 461, rfl⟩
abbrev main_v0 : Ref sig .tc := ⟨.hbm, 462, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc6_stg5_0 : Ref sig .tc := ⟨.vmem, 70, rfl⟩
abbrev cc6_stg5_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg3_1 : Ref sig .tc := ⟨.vmem, 77, rfl⟩
abbrev cc7_stg4_0 : Ref sig .tc := ⟨.vmem, 78, rfl⟩
abbrev cc7_stg4_1 : Ref sig .tc := ⟨.vmem, 79, rfl⟩
abbrev cc7_stg5_0 : Ref sig .tc := ⟨.vmem, 80, rfl⟩
abbrev cc7_stg5_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg3_1 : Ref sig .tc := ⟨.vmem, 87, rfl⟩
abbrev cc8_stg4_0 : Ref sig .tc := ⟨.vmem, 88, rfl⟩
abbrev cc8_stg4_1 : Ref sig .tc := ⟨.vmem, 89, rfl⟩
abbrev cc8_stg5_0 : Ref sig .tc := ⟨.vmem, 90, rfl⟩
abbrev cc8_stg5_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg3_1 : Ref sig .tc := ⟨.vmem, 97, rfl⟩
abbrev cc9_stg4_0 : Ref sig .tc := ⟨.vmem, 98, rfl⟩
abbrev cc9_stg4_1 : Ref sig .tc := ⟨.vmem, 99, rfl⟩
abbrev cc9_stg5_0 : Ref sig .tc := ⟨.vmem, 100, rfl⟩
abbrev cc9_stg5_1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg2_0 : Ref sig .tc := ⟨.vmem, 105, rfl⟩
abbrev cc10_stg3_0 : Ref sig .tc := ⟨.vmem, 106, rfl⟩
abbrev cc10_stg3_1 : Ref sig .tc := ⟨.vmem, 107, rfl⟩
abbrev cc10_stg4_0 : Ref sig .tc := ⟨.vmem, 108, rfl⟩
abbrev cc10_stg4_1 : Ref sig .tc := ⟨.vmem, 109, rfl⟩
abbrev cc10_stg5_0 : Ref sig .tc := ⟨.vmem, 110, rfl⟩
abbrev cc10_stg5_1 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg2_0 : Ref sig .tc := ⟨.vmem, 115, rfl⟩
abbrev cc11_stg3_0 : Ref sig .tc := ⟨.vmem, 116, rfl⟩
abbrev cc11_stg3_1 : Ref sig .tc := ⟨.vmem, 117, rfl⟩
abbrev cc11_stg4_0 : Ref sig .tc := ⟨.vmem, 118, rfl⟩
abbrev cc11_stg4_1 : Ref sig .tc := ⟨.vmem, 119, rfl⟩
abbrev cc11_stg5_0 : Ref sig .tc := ⟨.vmem, 120, rfl⟩
abbrev cc11_stg5_1 : Ref sig .tc := ⟨.vmem, 121, rfl⟩
abbrev cc12_stg0_0 : Ref sig .tc := ⟨.vmem, 122, rfl⟩
abbrev cc12_stg0_1 : Ref sig .tc := ⟨.vmem, 123, rfl⟩
abbrev cc12_stg1_0 : Ref sig .tc := ⟨.vmem, 124, rfl⟩
abbrev cc12_stg2_0 : Ref sig .tc := ⟨.vmem, 125, rfl⟩
abbrev cc12_stg3_0 : Ref sig .tc := ⟨.vmem, 126, rfl⟩
abbrev cc12_stg3_1 : Ref sig .tc := ⟨.vmem, 127, rfl⟩
abbrev cc12_stg4_0 : Ref sig .tc := ⟨.vmem, 128, rfl⟩
abbrev cc12_stg4_1 : Ref sig .tc := ⟨.vmem, 129, rfl⟩
abbrev cc12_stg5_0 : Ref sig .tc := ⟨.vmem, 130, rfl⟩
abbrev cc12_stg5_1 : Ref sig .tc := ⟨.vmem, 131, rfl⟩
abbrev cc13_stg0_0 : Ref sig .tc := ⟨.vmem, 132, rfl⟩
abbrev cc13_stg0_1 : Ref sig .tc := ⟨.vmem, 133, rfl⟩
abbrev cc13_stg1_0 : Ref sig .tc := ⟨.vmem, 134, rfl⟩
abbrev cc13_stg2_0 : Ref sig .tc := ⟨.vmem, 135, rfl⟩
abbrev cc13_stg3_0 : Ref sig .tc := ⟨.vmem, 136, rfl⟩
abbrev cc13_stg3_1 : Ref sig .tc := ⟨.vmem, 137, rfl⟩
abbrev cc13_stg4_0 : Ref sig .tc := ⟨.vmem, 138, rfl⟩
abbrev cc13_stg4_1 : Ref sig .tc := ⟨.vmem, 139, rfl⟩
abbrev cc13_stg5_0 : Ref sig .tc := ⟨.vmem, 140, rfl⟩
abbrev cc13_stg5_1 : Ref sig .tc := ⟨.vmem, 141, rfl⟩
abbrev cc14_stg0_0 : Ref sig .tc := ⟨.vmem, 142, rfl⟩
abbrev cc14_stg0_1 : Ref sig .tc := ⟨.vmem, 143, rfl⟩
abbrev cc14_stg1_0 : Ref sig .tc := ⟨.vmem, 144, rfl⟩
abbrev cc14_stg2_0 : Ref sig .tc := ⟨.vmem, 145, rfl⟩
abbrev cc14_stg3_0 : Ref sig .tc := ⟨.vmem, 146, rfl⟩
abbrev cc14_stg3_1 : Ref sig .tc := ⟨.vmem, 147, rfl⟩
abbrev cc14_stg4_0 : Ref sig .tc := ⟨.vmem, 148, rfl⟩
abbrev cc14_stg4_1 : Ref sig .tc := ⟨.vmem, 149, rfl⟩
abbrev cc14_stg5_0 : Ref sig .tc := ⟨.vmem, 150, rfl⟩
abbrev cc14_stg5_1 : Ref sig .tc := ⟨.vmem, 151, rfl⟩
abbrev cc15_stg0_0 : Ref sig .tc := ⟨.vmem, 152, rfl⟩
abbrev cc15_stg0_1 : Ref sig .tc := ⟨.vmem, 153, rfl⟩
abbrev cc15_stg1_0 : Ref sig .tc := ⟨.vmem, 154, rfl⟩
abbrev cc15_stg2_0 : Ref sig .tc := ⟨.vmem, 155, rfl⟩
abbrev cc15_stg3_0 : Ref sig .tc := ⟨.vmem, 156, rfl⟩
abbrev cc15_stg3_1 : Ref sig .tc := ⟨.vmem, 157, rfl⟩
abbrev cc15_stg4_0 : Ref sig .tc := ⟨.vmem, 158, rfl⟩
abbrev cc15_stg4_1 : Ref sig .tc := ⟨.vmem, 159, rfl⟩
abbrev cc15_stg5_0 : Ref sig .tc := ⟨.vmem, 160, rfl⟩
abbrev cc15_stg5_1 : Ref sig .tc := ⟨.vmem, 161, rfl⟩
abbrev cc16_stg0_0 : Ref sig .tc := ⟨.vmem, 162, rfl⟩
abbrev cc16_stg0_1 : Ref sig .tc := ⟨.vmem, 163, rfl⟩
abbrev cc16_stg1_0 : Ref sig .tc := ⟨.vmem, 164, rfl⟩
abbrev cc16_stg2_0 : Ref sig .tc := ⟨.vmem, 165, rfl⟩
abbrev cc16_stg3_0 : Ref sig .tc := ⟨.vmem, 166, rfl⟩
abbrev cc16_stg3_1 : Ref sig .tc := ⟨.vmem, 167, rfl⟩
abbrev cc16_stg4_0 : Ref sig .tc := ⟨.vmem, 168, rfl⟩
abbrev cc16_stg4_1 : Ref sig .tc := ⟨.vmem, 169, rfl⟩
abbrev cc16_stg5_0 : Ref sig .tc := ⟨.vmem, 170, rfl⟩
abbrev cc16_stg5_1 : Ref sig .tc := ⟨.vmem, 171, rfl⟩
abbrev cc17_stg0_0 : Ref sig .tc := ⟨.vmem, 172, rfl⟩
abbrev cc17_stg0_1 : Ref sig .tc := ⟨.vmem, 173, rfl⟩
abbrev cc17_stg1_0 : Ref sig .tc := ⟨.vmem, 174, rfl⟩
abbrev cc17_stg2_0 : Ref sig .tc := ⟨.vmem, 175, rfl⟩
abbrev cc17_stg3_0 : Ref sig .tc := ⟨.vmem, 176, rfl⟩
abbrev cc17_stg3_1 : Ref sig .tc := ⟨.vmem, 177, rfl⟩
abbrev cc17_stg4_0 : Ref sig .tc := ⟨.vmem, 178, rfl⟩
abbrev cc17_stg4_1 : Ref sig .tc := ⟨.vmem, 179, rfl⟩
abbrev cc17_stg5_0 : Ref sig .tc := ⟨.vmem, 180, rfl⟩
abbrev cc17_stg5_1 : Ref sig .tc := ⟨.vmem, 181, rfl⟩
abbrev cc18_stg0_0 : Ref sig .tc := ⟨.vmem, 182, rfl⟩
abbrev cc18_stg0_1 : Ref sig .tc := ⟨.vmem, 183, rfl⟩
abbrev cc18_stg1_0 : Ref sig .tc := ⟨.vmem, 184, rfl⟩
abbrev cc18_stg2_0 : Ref sig .tc := ⟨.vmem, 185, rfl⟩
abbrev cc18_stg3_0 : Ref sig .tc := ⟨.vmem, 186, rfl⟩
abbrev cc18_stg3_1 : Ref sig .tc := ⟨.vmem, 187, rfl⟩
abbrev cc18_stg4_0 : Ref sig .tc := ⟨.vmem, 188, rfl⟩
abbrev cc18_stg4_1 : Ref sig .tc := ⟨.vmem, 189, rfl⟩
abbrev cc18_stg5_0 : Ref sig .tc := ⟨.vmem, 190, rfl⟩
abbrev cc18_stg5_1 : Ref sig .tc := ⟨.vmem, 191, rfl⟩
abbrev cc19_stg0_0 : Ref sig .tc := ⟨.vmem, 192, rfl⟩
abbrev cc19_stg0_1 : Ref sig .tc := ⟨.vmem, 193, rfl⟩
abbrev cc19_stg1_0 : Ref sig .tc := ⟨.vmem, 194, rfl⟩
abbrev cc19_stg2_0 : Ref sig .tc := ⟨.vmem, 195, rfl⟩
abbrev cc19_stg3_0 : Ref sig .tc := ⟨.vmem, 196, rfl⟩
abbrev cc19_stg3_1 : Ref sig .tc := ⟨.vmem, 197, rfl⟩
abbrev cc19_stg4_0 : Ref sig .tc := ⟨.vmem, 198, rfl⟩
abbrev cc19_stg4_1 : Ref sig .tc := ⟨.vmem, 199, rfl⟩
abbrev cc19_stg5_0 : Ref sig .tc := ⟨.vmem, 200, rfl⟩
abbrev cc19_stg5_1 : Ref sig .tc := ⟨.vmem, 201, rfl⟩
abbrev cc20_stg0_0 : Ref sig .tc := ⟨.vmem, 202, rfl⟩
abbrev cc20_stg0_1 : Ref sig .tc := ⟨.vmem, 203, rfl⟩
abbrev cc20_stg1_0 : Ref sig .tc := ⟨.vmem, 204, rfl⟩
abbrev cc20_stg2_0 : Ref sig .tc := ⟨.vmem, 205, rfl⟩
abbrev cc20_stg3_0 : Ref sig .tc := ⟨.vmem, 206, rfl⟩
abbrev cc20_stg3_1 : Ref sig .tc := ⟨.vmem, 207, rfl⟩
abbrev cc20_stg4_0 : Ref sig .tc := ⟨.vmem, 208, rfl⟩
abbrev cc20_stg4_1 : Ref sig .tc := ⟨.vmem, 209, rfl⟩
abbrev cc20_stg5_0 : Ref sig .tc := ⟨.vmem, 210, rfl⟩
abbrev cc20_stg5_1 : Ref sig .tc := ⟨.vmem, 211, rfl⟩
abbrev cc21_stg0_0 : Ref sig .tc := ⟨.vmem, 212, rfl⟩
abbrev cc21_stg0_1 : Ref sig .tc := ⟨.vmem, 213, rfl⟩
abbrev cc21_stg1_0 : Ref sig .tc := ⟨.vmem, 214, rfl⟩
abbrev cc21_stg2_0 : Ref sig .tc := ⟨.vmem, 215, rfl⟩
abbrev cc21_stg3_0 : Ref sig .tc := ⟨.vmem, 216, rfl⟩
abbrev cc21_stg3_1 : Ref sig .tc := ⟨.vmem, 217, rfl⟩
abbrev cc21_stg4_0 : Ref sig .tc := ⟨.vmem, 218, rfl⟩
abbrev cc21_stg4_1 : Ref sig .tc := ⟨.vmem, 219, rfl⟩
abbrev cc21_stg5_0 : Ref sig .tc := ⟨.vmem, 220, rfl⟩
abbrev cc21_stg5_1 : Ref sig .tc := ⟨.vmem, 221, rfl⟩
abbrev cc22_stg0_0 : Ref sig .tc := ⟨.vmem, 222, rfl⟩
abbrev cc22_stg0_1 : Ref sig .tc := ⟨.vmem, 223, rfl⟩
abbrev cc22_stg1_0 : Ref sig .tc := ⟨.vmem, 224, rfl⟩
abbrev cc22_stg2_0 : Ref sig .tc := ⟨.vmem, 225, rfl⟩
abbrev cc22_stg3_0 : Ref sig .tc := ⟨.vmem, 226, rfl⟩
abbrev cc22_stg3_1 : Ref sig .tc := ⟨.vmem, 227, rfl⟩
abbrev cc22_stg4_0 : Ref sig .tc := ⟨.vmem, 228, rfl⟩
abbrev cc22_stg4_1 : Ref sig .tc := ⟨.vmem, 229, rfl⟩
abbrev cc22_stg5_0 : Ref sig .tc := ⟨.vmem, 230, rfl⟩
abbrev cc22_stg5_1 : Ref sig .tc := ⟨.vmem, 231, rfl⟩
abbrev cc23_stg0_0 : Ref sig .tc := ⟨.vmem, 232, rfl⟩
abbrev cc23_stg0_1 : Ref sig .tc := ⟨.vmem, 233, rfl⟩
abbrev cc23_stg1_0 : Ref sig .tc := ⟨.vmem, 234, rfl⟩
abbrev cc23_stg2_0 : Ref sig .tc := ⟨.vmem, 235, rfl⟩
abbrev cc23_stg3_0 : Ref sig .tc := ⟨.vmem, 236, rfl⟩
abbrev cc23_stg3_1 : Ref sig .tc := ⟨.vmem, 237, rfl⟩
abbrev cc23_stg4_0 : Ref sig .tc := ⟨.vmem, 238, rfl⟩
abbrev cc23_stg4_1 : Ref sig .tc := ⟨.vmem, 239, rfl⟩
abbrev cc23_stg5_0 : Ref sig .tc := ⟨.vmem, 240, rfl⟩
abbrev cc23_stg5_1 : Ref sig .tc := ⟨.vmem, 241, rfl⟩
abbrev cc24_stg0_0 : Ref sig .tc := ⟨.vmem, 242, rfl⟩
abbrev cc24_stg0_1 : Ref sig .tc := ⟨.vmem, 243, rfl⟩
abbrev cc24_stg1_0 : Ref sig .tc := ⟨.vmem, 244, rfl⟩
abbrev cc24_stg2_0 : Ref sig .tc := ⟨.vmem, 245, rfl⟩
abbrev cc24_stg3_0 : Ref sig .tc := ⟨.vmem, 246, rfl⟩
abbrev cc24_stg3_1 : Ref sig .tc := ⟨.vmem, 247, rfl⟩
abbrev cc24_stg4_0 : Ref sig .tc := ⟨.vmem, 248, rfl⟩
abbrev cc24_stg4_1 : Ref sig .tc := ⟨.vmem, 249, rfl⟩
abbrev cc24_stg5_0 : Ref sig .tc := ⟨.vmem, 250, rfl⟩
abbrev cc24_stg5_1 : Ref sig .tc := ⟨.vmem, 251, rfl⟩
abbrev cc25_stg0_0 : Ref sig .tc := ⟨.vmem, 252, rfl⟩
abbrev cc25_stg0_1 : Ref sig .tc := ⟨.vmem, 253, rfl⟩
abbrev cc25_stg1_0 : Ref sig .tc := ⟨.vmem, 254, rfl⟩
abbrev cc25_stg2_0 : Ref sig .tc := ⟨.vmem, 255, rfl⟩
abbrev cc25_stg3_0 : Ref sig .tc := ⟨.vmem, 256, rfl⟩
abbrev cc25_stg3_1 : Ref sig .tc := ⟨.vmem, 257, rfl⟩
abbrev cc25_stg4_0 : Ref sig .tc := ⟨.vmem, 258, rfl⟩
abbrev cc25_stg4_1 : Ref sig .tc := ⟨.vmem, 259, rfl⟩
abbrev cc25_stg5_0 : Ref sig .tc := ⟨.vmem, 260, rfl⟩
abbrev cc25_stg5_1 : Ref sig .tc := ⟨.vmem, 261, rfl⟩
abbrev cc26_stg0_0 : Ref sig .tc := ⟨.vmem, 262, rfl⟩
abbrev cc26_stg0_1 : Ref sig .tc := ⟨.vmem, 263, rfl⟩
abbrev cc26_stg1_0 : Ref sig .tc := ⟨.vmem, 264, rfl⟩
abbrev cc26_stg2_0 : Ref sig .tc := ⟨.vmem, 265, rfl⟩
abbrev cc26_stg3_0 : Ref sig .tc := ⟨.vmem, 266, rfl⟩
abbrev cc26_stg3_1 : Ref sig .tc := ⟨.vmem, 267, rfl⟩
abbrev cc26_stg4_0 : Ref sig .tc := ⟨.vmem, 268, rfl⟩
abbrev cc26_stg4_1 : Ref sig .tc := ⟨.vmem, 269, rfl⟩
abbrev cc26_stg5_0 : Ref sig .tc := ⟨.vmem, 270, rfl⟩
abbrev cc26_stg5_1 : Ref sig .tc := ⟨.vmem, 271, rfl⟩
abbrev cc27_stg0_0 : Ref sig .tc := ⟨.vmem, 272, rfl⟩
abbrev cc27_stg0_1 : Ref sig .tc := ⟨.vmem, 273, rfl⟩
abbrev cc27_stg1_0 : Ref sig .tc := ⟨.vmem, 274, rfl⟩
abbrev cc27_stg2_0 : Ref sig .tc := ⟨.vmem, 275, rfl⟩
abbrev cc27_stg3_0 : Ref sig .tc := ⟨.vmem, 276, rfl⟩
abbrev cc27_stg3_1 : Ref sig .tc := ⟨.vmem, 277, rfl⟩
abbrev cc27_stg4_0 : Ref sig .tc := ⟨.vmem, 278, rfl⟩
abbrev cc27_stg4_1 : Ref sig .tc := ⟨.vmem, 279, rfl⟩
abbrev cc27_stg5_0 : Ref sig .tc := ⟨.vmem, 280, rfl⟩
abbrev cc27_stg5_1 : Ref sig .tc := ⟨.vmem, 281, rfl⟩
abbrev cc28_stg0_0 : Ref sig .tc := ⟨.vmem, 282, rfl⟩
abbrev cc28_stg0_1 : Ref sig .tc := ⟨.vmem, 283, rfl⟩
abbrev cc28_stg1_0 : Ref sig .tc := ⟨.vmem, 284, rfl⟩
abbrev cc28_stg2_0 : Ref sig .tc := ⟨.vmem, 285, rfl⟩
abbrev cc28_stg3_0 : Ref sig .tc := ⟨.vmem, 286, rfl⟩
abbrev cc28_stg3_1 : Ref sig .tc := ⟨.vmem, 287, rfl⟩
abbrev cc28_stg4_0 : Ref sig .tc := ⟨.vmem, 288, rfl⟩
abbrev cc28_stg4_1 : Ref sig .tc := ⟨.vmem, 289, rfl⟩
abbrev cc28_stg5_0 : Ref sig .tc := ⟨.vmem, 290, rfl⟩
abbrev cc28_stg5_1 : Ref sig .tc := ⟨.vmem, 291, rfl⟩
abbrev cc29_stg0_0 : Ref sig .tc := ⟨.vmem, 292, rfl⟩
abbrev cc29_stg0_1 : Ref sig .tc := ⟨.vmem, 293, rfl⟩
abbrev cc29_stg1_0 : Ref sig .tc := ⟨.vmem, 294, rfl⟩
abbrev cc29_stg2_0 : Ref sig .tc := ⟨.vmem, 295, rfl⟩
abbrev cc29_stg3_0 : Ref sig .tc := ⟨.vmem, 296, rfl⟩
abbrev cc29_stg3_1 : Ref sig .tc := ⟨.vmem, 297, rfl⟩
abbrev cc29_stg4_0 : Ref sig .tc := ⟨.vmem, 298, rfl⟩
abbrev cc29_stg4_1 : Ref sig .tc := ⟨.vmem, 299, rfl⟩
abbrev cc29_stg5_0 : Ref sig .tc := ⟨.vmem, 300, rfl⟩
abbrev cc29_stg5_1 : Ref sig .tc := ⟨.vmem, 301, rfl⟩
abbrev cc30_stg0_0 : Ref sig .tc := ⟨.vmem, 302, rfl⟩
abbrev cc30_stg0_1 : Ref sig .tc := ⟨.vmem, 303, rfl⟩
abbrev cc30_stg1_0 : Ref sig .tc := ⟨.vmem, 304, rfl⟩
abbrev cc30_stg2_0 : Ref sig .tc := ⟨.vmem, 305, rfl⟩
abbrev cc30_stg3_0 : Ref sig .tc := ⟨.vmem, 306, rfl⟩
abbrev cc30_stg3_1 : Ref sig .tc := ⟨.vmem, 307, rfl⟩
abbrev cc30_stg4_0 : Ref sig .tc := ⟨.vmem, 308, rfl⟩
abbrev cc30_stg4_1 : Ref sig .tc := ⟨.vmem, 309, rfl⟩
abbrev cc30_stg5_0 : Ref sig .tc := ⟨.vmem, 310, rfl⟩
abbrev cc30_stg5_1 : Ref sig .tc := ⟨.vmem, 311, rfl⟩
abbrev cc31_stg0_0 : Ref sig .tc := ⟨.vmem, 312, rfl⟩
abbrev cc31_stg0_1 : Ref sig .tc := ⟨.vmem, 313, rfl⟩
abbrev cc31_stg1_0 : Ref sig .tc := ⟨.vmem, 314, rfl⟩
abbrev cc31_stg2_0 : Ref sig .tc := ⟨.vmem, 315, rfl⟩
abbrev cc31_stg3_0 : Ref sig .tc := ⟨.vmem, 316, rfl⟩
abbrev cc31_stg3_1 : Ref sig .tc := ⟨.vmem, 317, rfl⟩
abbrev cc31_stg4_0 : Ref sig .tc := ⟨.vmem, 318, rfl⟩
abbrev cc31_stg4_1 : Ref sig .tc := ⟨.vmem, 319, rfl⟩
abbrev cc31_stg5_0 : Ref sig .tc := ⟨.vmem, 320, rfl⟩
abbrev cc31_stg5_1 : Ref sig .tc := ⟨.vmem, 321, rfl⟩
abbrev cc32_stg0_0 : Ref sig .tc := ⟨.vmem, 322, rfl⟩
abbrev cc32_stg0_1 : Ref sig .tc := ⟨.vmem, 323, rfl⟩
abbrev cc32_stg1_0 : Ref sig .tc := ⟨.vmem, 324, rfl⟩
abbrev cc32_stg2_0 : Ref sig .tc := ⟨.vmem, 325, rfl⟩
abbrev cc32_stg3_0 : Ref sig .tc := ⟨.vmem, 326, rfl⟩
abbrev cc32_stg3_1 : Ref sig .tc := ⟨.vmem, 327, rfl⟩
abbrev cc32_stg4_0 : Ref sig .tc := ⟨.vmem, 328, rfl⟩
abbrev cc32_stg4_1 : Ref sig .tc := ⟨.vmem, 329, rfl⟩
abbrev cc32_stg5_0 : Ref sig .tc := ⟨.vmem, 330, rfl⟩
abbrev cc32_stg5_1 : Ref sig .tc := ⟨.vmem, 331, rfl⟩
abbrev cc33_stg0_0 : Ref sig .tc := ⟨.vmem, 332, rfl⟩
abbrev cc33_stg0_1 : Ref sig .tc := ⟨.vmem, 333, rfl⟩
abbrev cc33_stg1_0 : Ref sig .tc := ⟨.vmem, 334, rfl⟩
abbrev cc33_stg2_0 : Ref sig .tc := ⟨.vmem, 335, rfl⟩
abbrev cc33_stg3_0 : Ref sig .tc := ⟨.vmem, 336, rfl⟩
abbrev cc33_stg3_1 : Ref sig .tc := ⟨.vmem, 337, rfl⟩
abbrev cc33_stg4_0 : Ref sig .tc := ⟨.vmem, 338, rfl⟩
abbrev cc33_stg4_1 : Ref sig .tc := ⟨.vmem, 339, rfl⟩
abbrev cc33_stg5_0 : Ref sig .tc := ⟨.vmem, 340, rfl⟩
abbrev cc33_stg5_1 : Ref sig .tc := ⟨.vmem, 341, rfl⟩
abbrev cc34_stg0_0 : Ref sig .tc := ⟨.vmem, 342, rfl⟩
abbrev cc34_stg0_1 : Ref sig .tc := ⟨.vmem, 343, rfl⟩
abbrev cc34_stg1_0 : Ref sig .tc := ⟨.vmem, 344, rfl⟩
abbrev cc34_stg2_0 : Ref sig .tc := ⟨.vmem, 345, rfl⟩
abbrev cc34_stg3_0 : Ref sig .tc := ⟨.vmem, 346, rfl⟩
abbrev cc34_stg3_1 : Ref sig .tc := ⟨.vmem, 347, rfl⟩
abbrev cc34_stg4_0 : Ref sig .tc := ⟨.vmem, 348, rfl⟩
abbrev cc34_stg4_1 : Ref sig .tc := ⟨.vmem, 349, rfl⟩
abbrev cc34_stg5_0 : Ref sig .tc := ⟨.vmem, 350, rfl⟩
abbrev cc34_stg5_1 : Ref sig .tc := ⟨.vmem, 351, rfl⟩
abbrev cc35_stg0_0 : Ref sig .tc := ⟨.vmem, 352, rfl⟩
abbrev cc35_stg0_1 : Ref sig .tc := ⟨.vmem, 353, rfl⟩
abbrev cc35_stg1_0 : Ref sig .tc := ⟨.vmem, 354, rfl⟩
abbrev cc35_stg2_0 : Ref sig .tc := ⟨.vmem, 355, rfl⟩
abbrev cc35_stg3_0 : Ref sig .tc := ⟨.vmem, 356, rfl⟩
abbrev cc35_stg3_1 : Ref sig .tc := ⟨.vmem, 357, rfl⟩
abbrev cc35_stg4_0 : Ref sig .tc := ⟨.vmem, 358, rfl⟩
abbrev cc35_stg4_1 : Ref sig .tc := ⟨.vmem, 359, rfl⟩
abbrev cc35_stg5_0 : Ref sig .tc := ⟨.vmem, 360, rfl⟩
abbrev cc35_stg5_1 : Ref sig .tc := ⟨.vmem, 361, rfl⟩
abbrev cc36_stg0_0 : Ref sig .tc := ⟨.vmem, 362, rfl⟩
abbrev cc36_stg0_1 : Ref sig .tc := ⟨.vmem, 363, rfl⟩
abbrev cc36_stg1_0 : Ref sig .tc := ⟨.vmem, 364, rfl⟩
abbrev cc36_stg2_0 : Ref sig .tc := ⟨.vmem, 365, rfl⟩
abbrev cc36_stg3_0 : Ref sig .tc := ⟨.vmem, 366, rfl⟩
abbrev cc36_stg3_1 : Ref sig .tc := ⟨.vmem, 367, rfl⟩
abbrev cc36_stg4_0 : Ref sig .tc := ⟨.vmem, 368, rfl⟩
abbrev cc36_stg4_1 : Ref sig .tc := ⟨.vmem, 369, rfl⟩
abbrev cc36_stg5_0 : Ref sig .tc := ⟨.vmem, 370, rfl⟩
abbrev cc36_stg5_1 : Ref sig .tc := ⟨.vmem, 371, rfl⟩
abbrev cc37_stg0_0 : Ref sig .tc := ⟨.vmem, 372, rfl⟩
abbrev cc37_stg0_1 : Ref sig .tc := ⟨.vmem, 373, rfl⟩
abbrev cc37_stg1_0 : Ref sig .tc := ⟨.vmem, 374, rfl⟩
abbrev cc37_stg2_0 : Ref sig .tc := ⟨.vmem, 375, rfl⟩
abbrev cc37_stg3_0 : Ref sig .tc := ⟨.vmem, 376, rfl⟩
abbrev cc37_stg3_1 : Ref sig .tc := ⟨.vmem, 377, rfl⟩
abbrev cc37_stg4_0 : Ref sig .tc := ⟨.vmem, 378, rfl⟩
abbrev cc37_stg4_1 : Ref sig .tc := ⟨.vmem, 379, rfl⟩
abbrev cc37_stg5_0 : Ref sig .tc := ⟨.vmem, 380, rfl⟩
abbrev cc37_stg5_1 : Ref sig .tc := ⟨.vmem, 381, rfl⟩
abbrev cc38_stg0_0 : Ref sig .tc := ⟨.vmem, 382, rfl⟩
abbrev cc38_stg0_1 : Ref sig .tc := ⟨.vmem, 383, rfl⟩
abbrev cc38_stg1_0 : Ref sig .tc := ⟨.vmem, 384, rfl⟩
abbrev cc38_stg2_0 : Ref sig .tc := ⟨.vmem, 385, rfl⟩
abbrev cc38_stg3_0 : Ref sig .tc := ⟨.vmem, 386, rfl⟩
abbrev cc38_stg3_1 : Ref sig .tc := ⟨.vmem, 387, rfl⟩
abbrev cc38_stg4_0 : Ref sig .tc := ⟨.vmem, 388, rfl⟩
abbrev cc38_stg4_1 : Ref sig .tc := ⟨.vmem, 389, rfl⟩
abbrev cc38_stg5_0 : Ref sig .tc := ⟨.vmem, 390, rfl⟩
abbrev cc38_stg5_1 : Ref sig .tc := ⟨.vmem, 391, rfl⟩
abbrev cc39_stg0_0 : Ref sig .tc := ⟨.vmem, 392, rfl⟩
abbrev cc39_stg0_1 : Ref sig .tc := ⟨.vmem, 393, rfl⟩
abbrev cc39_stg1_0 : Ref sig .tc := ⟨.vmem, 394, rfl⟩
abbrev cc39_stg2_0 : Ref sig .tc := ⟨.vmem, 395, rfl⟩
abbrev cc39_stg3_0 : Ref sig .tc := ⟨.vmem, 396, rfl⟩
abbrev cc39_stg3_1 : Ref sig .tc := ⟨.vmem, 397, rfl⟩
abbrev cc39_stg4_0 : Ref sig .tc := ⟨.vmem, 398, rfl⟩
abbrev cc39_stg4_1 : Ref sig .tc := ⟨.vmem, 399, rfl⟩
abbrev cc39_stg5_0 : Ref sig .tc := ⟨.vmem, 400, rfl⟩
abbrev cc39_stg5_1 : Ref sig .tc := ⟨.vmem, 401, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc5_sem5_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem3_1 : DmaSem sig := 67
abbrev cc6_sem4_0 : DmaSem sig := 68
abbrev cc6_sem4_1 : DmaSem sig := 69
abbrev cc6_sem5_0 : DmaSem sig := 70
abbrev cc6_sem5_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem3_1 : DmaSem sig := 77
abbrev cc7_sem4_0 : DmaSem sig := 78
abbrev cc7_sem4_1 : DmaSem sig := 79
abbrev cc7_sem5_0 : DmaSem sig := 80
abbrev cc7_sem5_1 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem3_1 : DmaSem sig := 87
abbrev cc8_sem4_0 : DmaSem sig := 88
abbrev cc8_sem4_1 : DmaSem sig := 89
abbrev cc8_sem5_0 : DmaSem sig := 90
abbrev cc8_sem5_1 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem3_1 : DmaSem sig := 97
abbrev cc9_sem4_0 : DmaSem sig := 98
abbrev cc9_sem4_1 : DmaSem sig := 99
abbrev cc9_sem5_0 : DmaSem sig := 100
abbrev cc9_sem5_1 : DmaSem sig := 101
abbrev cc10_sem0_0 : DmaSem sig := 102
abbrev cc10_sem0_1 : DmaSem sig := 103
abbrev cc10_sem1_0 : DmaSem sig := 104
abbrev cc10_sem2_0 : DmaSem sig := 105
abbrev cc10_sem3_0 : DmaSem sig := 106
abbrev cc10_sem3_1 : DmaSem sig := 107
abbrev cc10_sem4_0 : DmaSem sig := 108
abbrev cc10_sem4_1 : DmaSem sig := 109
abbrev cc10_sem5_0 : DmaSem sig := 110
abbrev cc10_sem5_1 : DmaSem sig := 111
abbrev cc11_sem0_0 : DmaSem sig := 112
abbrev cc11_sem0_1 : DmaSem sig := 113
abbrev cc11_sem1_0 : DmaSem sig := 114
abbrev cc11_sem2_0 : DmaSem sig := 115
abbrev cc11_sem3_0 : DmaSem sig := 116
abbrev cc11_sem3_1 : DmaSem sig := 117
abbrev cc11_sem4_0 : DmaSem sig := 118
abbrev cc11_sem4_1 : DmaSem sig := 119
abbrev cc11_sem5_0 : DmaSem sig := 120
abbrev cc11_sem5_1 : DmaSem sig := 121
abbrev cc12_sem0_0 : DmaSem sig := 122
abbrev cc12_sem0_1 : DmaSem sig := 123
abbrev cc12_sem1_0 : DmaSem sig := 124
abbrev cc12_sem2_0 : DmaSem sig := 125
abbrev cc12_sem3_0 : DmaSem sig := 126
abbrev cc12_sem3_1 : DmaSem sig := 127
abbrev cc12_sem4_0 : DmaSem sig := 128
abbrev cc12_sem4_1 : DmaSem sig := 129
abbrev cc12_sem5_0 : DmaSem sig := 130
abbrev cc12_sem5_1 : DmaSem sig := 131
abbrev cc13_sem0_0 : DmaSem sig := 132
abbrev cc13_sem0_1 : DmaSem sig := 133
abbrev cc13_sem1_0 : DmaSem sig := 134
abbrev cc13_sem2_0 : DmaSem sig := 135
abbrev cc13_sem3_0 : DmaSem sig := 136
abbrev cc13_sem3_1 : DmaSem sig := 137
abbrev cc13_sem4_0 : DmaSem sig := 138
abbrev cc13_sem4_1 : DmaSem sig := 139
abbrev cc13_sem5_0 : DmaSem sig := 140
abbrev cc13_sem5_1 : DmaSem sig := 141
abbrev cc14_sem0_0 : DmaSem sig := 142
abbrev cc14_sem0_1 : DmaSem sig := 143
abbrev cc14_sem1_0 : DmaSem sig := 144
abbrev cc14_sem2_0 : DmaSem sig := 145
abbrev cc14_sem3_0 : DmaSem sig := 146
abbrev cc14_sem3_1 : DmaSem sig := 147
abbrev cc14_sem4_0 : DmaSem sig := 148
abbrev cc14_sem4_1 : DmaSem sig := 149
abbrev cc14_sem5_0 : DmaSem sig := 150
abbrev cc14_sem5_1 : DmaSem sig := 151
abbrev cc15_sem0_0 : DmaSem sig := 152
abbrev cc15_sem0_1 : DmaSem sig := 153
abbrev cc15_sem1_0 : DmaSem sig := 154
abbrev cc15_sem2_0 : DmaSem sig := 155
abbrev cc15_sem3_0 : DmaSem sig := 156
abbrev cc15_sem3_1 : DmaSem sig := 157
abbrev cc15_sem4_0 : DmaSem sig := 158
abbrev cc15_sem4_1 : DmaSem sig := 159
abbrev cc15_sem5_0 : DmaSem sig := 160
abbrev cc15_sem5_1 : DmaSem sig := 161
abbrev cc16_sem0_0 : DmaSem sig := 162
abbrev cc16_sem0_1 : DmaSem sig := 163
abbrev cc16_sem1_0 : DmaSem sig := 164
abbrev cc16_sem2_0 : DmaSem sig := 165
abbrev cc16_sem3_0 : DmaSem sig := 166
abbrev cc16_sem3_1 : DmaSem sig := 167
abbrev cc16_sem4_0 : DmaSem sig := 168
abbrev cc16_sem4_1 : DmaSem sig := 169
abbrev cc16_sem5_0 : DmaSem sig := 170
abbrev cc16_sem5_1 : DmaSem sig := 171
abbrev cc17_sem0_0 : DmaSem sig := 172
abbrev cc17_sem0_1 : DmaSem sig := 173
abbrev cc17_sem1_0 : DmaSem sig := 174
abbrev cc17_sem2_0 : DmaSem sig := 175
abbrev cc17_sem3_0 : DmaSem sig := 176
abbrev cc17_sem3_1 : DmaSem sig := 177
abbrev cc17_sem4_0 : DmaSem sig := 178
abbrev cc17_sem4_1 : DmaSem sig := 179
abbrev cc17_sem5_0 : DmaSem sig := 180
abbrev cc17_sem5_1 : DmaSem sig := 181
abbrev cc18_sem0_0 : DmaSem sig := 182
abbrev cc18_sem0_1 : DmaSem sig := 183
abbrev cc18_sem1_0 : DmaSem sig := 184
abbrev cc18_sem2_0 : DmaSem sig := 185
abbrev cc18_sem3_0 : DmaSem sig := 186
abbrev cc18_sem3_1 : DmaSem sig := 187
abbrev cc18_sem4_0 : DmaSem sig := 188
abbrev cc18_sem4_1 : DmaSem sig := 189
abbrev cc18_sem5_0 : DmaSem sig := 190
abbrev cc18_sem5_1 : DmaSem sig := 191
abbrev cc19_sem0_0 : DmaSem sig := 192
abbrev cc19_sem0_1 : DmaSem sig := 193
abbrev cc19_sem1_0 : DmaSem sig := 194
abbrev cc19_sem2_0 : DmaSem sig := 195
abbrev cc19_sem3_0 : DmaSem sig := 196
abbrev cc19_sem3_1 : DmaSem sig := 197
abbrev cc19_sem4_0 : DmaSem sig := 198
abbrev cc19_sem4_1 : DmaSem sig := 199
abbrev cc19_sem5_0 : DmaSem sig := 200
abbrev cc19_sem5_1 : DmaSem sig := 201
abbrev cc20_sem0_0 : DmaSem sig := 202
abbrev cc20_sem0_1 : DmaSem sig := 203
abbrev cc20_sem1_0 : DmaSem sig := 204
abbrev cc20_sem2_0 : DmaSem sig := 205
abbrev cc20_sem3_0 : DmaSem sig := 206
abbrev cc20_sem3_1 : DmaSem sig := 207
abbrev cc20_sem4_0 : DmaSem sig := 208
abbrev cc20_sem4_1 : DmaSem sig := 209
abbrev cc20_sem5_0 : DmaSem sig := 210
abbrev cc20_sem5_1 : DmaSem sig := 211
abbrev cc21_sem0_0 : DmaSem sig := 212
abbrev cc21_sem0_1 : DmaSem sig := 213
abbrev cc21_sem1_0 : DmaSem sig := 214
abbrev cc21_sem2_0 : DmaSem sig := 215
abbrev cc21_sem3_0 : DmaSem sig := 216
abbrev cc21_sem3_1 : DmaSem sig := 217
abbrev cc21_sem4_0 : DmaSem sig := 218
abbrev cc21_sem4_1 : DmaSem sig := 219
abbrev cc21_sem5_0 : DmaSem sig := 220
abbrev cc21_sem5_1 : DmaSem sig := 221
abbrev cc22_sem0_0 : DmaSem sig := 222
abbrev cc22_sem0_1 : DmaSem sig := 223
abbrev cc22_sem1_0 : DmaSem sig := 224
abbrev cc22_sem2_0 : DmaSem sig := 225
abbrev cc22_sem3_0 : DmaSem sig := 226
abbrev cc22_sem3_1 : DmaSem sig := 227
abbrev cc22_sem4_0 : DmaSem sig := 228
abbrev cc22_sem4_1 : DmaSem sig := 229
abbrev cc22_sem5_0 : DmaSem sig := 230
abbrev cc22_sem5_1 : DmaSem sig := 231
abbrev cc23_sem0_0 : DmaSem sig := 232
abbrev cc23_sem0_1 : DmaSem sig := 233
abbrev cc23_sem1_0 : DmaSem sig := 234
abbrev cc23_sem2_0 : DmaSem sig := 235
abbrev cc23_sem3_0 : DmaSem sig := 236
abbrev cc23_sem3_1 : DmaSem sig := 237
abbrev cc23_sem4_0 : DmaSem sig := 238
abbrev cc23_sem4_1 : DmaSem sig := 239
abbrev cc23_sem5_0 : DmaSem sig := 240
abbrev cc23_sem5_1 : DmaSem sig := 241
abbrev cc24_sem0_0 : DmaSem sig := 242
abbrev cc24_sem0_1 : DmaSem sig := 243
abbrev cc24_sem1_0 : DmaSem sig := 244
abbrev cc24_sem2_0 : DmaSem sig := 245
abbrev cc24_sem3_0 : DmaSem sig := 246
abbrev cc24_sem3_1 : DmaSem sig := 247
abbrev cc24_sem4_0 : DmaSem sig := 248
abbrev cc24_sem4_1 : DmaSem sig := 249
abbrev cc24_sem5_0 : DmaSem sig := 250
abbrev cc24_sem5_1 : DmaSem sig := 251
abbrev cc25_sem0_0 : DmaSem sig := 252
abbrev cc25_sem0_1 : DmaSem sig := 253
abbrev cc25_sem1_0 : DmaSem sig := 254
abbrev cc25_sem2_0 : DmaSem sig := 255
abbrev cc25_sem3_0 : DmaSem sig := 256
abbrev cc25_sem3_1 : DmaSem sig := 257
abbrev cc25_sem4_0 : DmaSem sig := 258
abbrev cc25_sem4_1 : DmaSem sig := 259
abbrev cc25_sem5_0 : DmaSem sig := 260
abbrev cc25_sem5_1 : DmaSem sig := 261
abbrev cc26_sem0_0 : DmaSem sig := 262
abbrev cc26_sem0_1 : DmaSem sig := 263
abbrev cc26_sem1_0 : DmaSem sig := 264
abbrev cc26_sem2_0 : DmaSem sig := 265
abbrev cc26_sem3_0 : DmaSem sig := 266
abbrev cc26_sem3_1 : DmaSem sig := 267
abbrev cc26_sem4_0 : DmaSem sig := 268
abbrev cc26_sem4_1 : DmaSem sig := 269
abbrev cc26_sem5_0 : DmaSem sig := 270
abbrev cc26_sem5_1 : DmaSem sig := 271
abbrev cc27_sem0_0 : DmaSem sig := 272
abbrev cc27_sem0_1 : DmaSem sig := 273
abbrev cc27_sem1_0 : DmaSem sig := 274
abbrev cc27_sem2_0 : DmaSem sig := 275
abbrev cc27_sem3_0 : DmaSem sig := 276
abbrev cc27_sem3_1 : DmaSem sig := 277
abbrev cc27_sem4_0 : DmaSem sig := 278
abbrev cc27_sem4_1 : DmaSem sig := 279
abbrev cc27_sem5_0 : DmaSem sig := 280
abbrev cc27_sem5_1 : DmaSem sig := 281
abbrev cc28_sem0_0 : DmaSem sig := 282
abbrev cc28_sem0_1 : DmaSem sig := 283
abbrev cc28_sem1_0 : DmaSem sig := 284
abbrev cc28_sem2_0 : DmaSem sig := 285
abbrev cc28_sem3_0 : DmaSem sig := 286
abbrev cc28_sem3_1 : DmaSem sig := 287
abbrev cc28_sem4_0 : DmaSem sig := 288
abbrev cc28_sem4_1 : DmaSem sig := 289
abbrev cc28_sem5_0 : DmaSem sig := 290
abbrev cc28_sem5_1 : DmaSem sig := 291
abbrev cc29_sem0_0 : DmaSem sig := 292
abbrev cc29_sem0_1 : DmaSem sig := 293
abbrev cc29_sem1_0 : DmaSem sig := 294
abbrev cc29_sem2_0 : DmaSem sig := 295
abbrev cc29_sem3_0 : DmaSem sig := 296
abbrev cc29_sem3_1 : DmaSem sig := 297
abbrev cc29_sem4_0 : DmaSem sig := 298
abbrev cc29_sem4_1 : DmaSem sig := 299
abbrev cc29_sem5_0 : DmaSem sig := 300
abbrev cc29_sem5_1 : DmaSem sig := 301
abbrev cc30_sem0_0 : DmaSem sig := 302
abbrev cc30_sem0_1 : DmaSem sig := 303
abbrev cc30_sem1_0 : DmaSem sig := 304
abbrev cc30_sem2_0 : DmaSem sig := 305
abbrev cc30_sem3_0 : DmaSem sig := 306
abbrev cc30_sem3_1 : DmaSem sig := 307
abbrev cc30_sem4_0 : DmaSem sig := 308
abbrev cc30_sem4_1 : DmaSem sig := 309
abbrev cc30_sem5_0 : DmaSem sig := 310
abbrev cc30_sem5_1 : DmaSem sig := 311
abbrev cc31_sem0_0 : DmaSem sig := 312
abbrev cc31_sem0_1 : DmaSem sig := 313
abbrev cc31_sem1_0 : DmaSem sig := 314
abbrev cc31_sem2_0 : DmaSem sig := 315
abbrev cc31_sem3_0 : DmaSem sig := 316
abbrev cc31_sem3_1 : DmaSem sig := 317
abbrev cc31_sem4_0 : DmaSem sig := 318
abbrev cc31_sem4_1 : DmaSem sig := 319
abbrev cc31_sem5_0 : DmaSem sig := 320
abbrev cc31_sem5_1 : DmaSem sig := 321
abbrev cc32_sem0_0 : DmaSem sig := 322
abbrev cc32_sem0_1 : DmaSem sig := 323
abbrev cc32_sem1_0 : DmaSem sig := 324
abbrev cc32_sem2_0 : DmaSem sig := 325
abbrev cc32_sem3_0 : DmaSem sig := 326
abbrev cc32_sem3_1 : DmaSem sig := 327
abbrev cc32_sem4_0 : DmaSem sig := 328
abbrev cc32_sem4_1 : DmaSem sig := 329
abbrev cc32_sem5_0 : DmaSem sig := 330
abbrev cc32_sem5_1 : DmaSem sig := 331
abbrev cc33_sem0_0 : DmaSem sig := 332
abbrev cc33_sem0_1 : DmaSem sig := 333
abbrev cc33_sem1_0 : DmaSem sig := 334
abbrev cc33_sem2_0 : DmaSem sig := 335
abbrev cc33_sem3_0 : DmaSem sig := 336
abbrev cc33_sem3_1 : DmaSem sig := 337
abbrev cc33_sem4_0 : DmaSem sig := 338
abbrev cc33_sem4_1 : DmaSem sig := 339
abbrev cc33_sem5_0 : DmaSem sig := 340
abbrev cc33_sem5_1 : DmaSem sig := 341
abbrev cc34_sem0_0 : DmaSem sig := 342
abbrev cc34_sem0_1 : DmaSem sig := 343
abbrev cc34_sem1_0 : DmaSem sig := 344
abbrev cc34_sem2_0 : DmaSem sig := 345
abbrev cc34_sem3_0 : DmaSem sig := 346
abbrev cc34_sem3_1 : DmaSem sig := 347
abbrev cc34_sem4_0 : DmaSem sig := 348
abbrev cc34_sem4_1 : DmaSem sig := 349
abbrev cc34_sem5_0 : DmaSem sig := 350
abbrev cc34_sem5_1 : DmaSem sig := 351
abbrev cc35_sem0_0 : DmaSem sig := 352
abbrev cc35_sem0_1 : DmaSem sig := 353
abbrev cc35_sem1_0 : DmaSem sig := 354
abbrev cc35_sem2_0 : DmaSem sig := 355
abbrev cc35_sem3_0 : DmaSem sig := 356
abbrev cc35_sem3_1 : DmaSem sig := 357
abbrev cc35_sem4_0 : DmaSem sig := 358
abbrev cc35_sem4_1 : DmaSem sig := 359
abbrev cc35_sem5_0 : DmaSem sig := 360
abbrev cc35_sem5_1 : DmaSem sig := 361
abbrev cc36_sem0_0 : DmaSem sig := 362
abbrev cc36_sem0_1 : DmaSem sig := 363
abbrev cc36_sem1_0 : DmaSem sig := 364
abbrev cc36_sem2_0 : DmaSem sig := 365
abbrev cc36_sem3_0 : DmaSem sig := 366
abbrev cc36_sem3_1 : DmaSem sig := 367
abbrev cc36_sem4_0 : DmaSem sig := 368
abbrev cc36_sem4_1 : DmaSem sig := 369
abbrev cc36_sem5_0 : DmaSem sig := 370
abbrev cc36_sem5_1 : DmaSem sig := 371
abbrev cc37_sem0_0 : DmaSem sig := 372
abbrev cc37_sem0_1 : DmaSem sig := 373
abbrev cc37_sem1_0 : DmaSem sig := 374
abbrev cc37_sem2_0 : DmaSem sig := 375
abbrev cc37_sem3_0 : DmaSem sig := 376
abbrev cc37_sem3_1 : DmaSem sig := 377
abbrev cc37_sem4_0 : DmaSem sig := 378
abbrev cc37_sem4_1 : DmaSem sig := 379
abbrev cc37_sem5_0 : DmaSem sig := 380
abbrev cc37_sem5_1 : DmaSem sig := 381
abbrev cc38_sem0_0 : DmaSem sig := 382
abbrev cc38_sem0_1 : DmaSem sig := 383
abbrev cc38_sem1_0 : DmaSem sig := 384
abbrev cc38_sem2_0 : DmaSem sig := 385
abbrev cc38_sem3_0 : DmaSem sig := 386
abbrev cc38_sem3_1 : DmaSem sig := 387
abbrev cc38_sem4_0 : DmaSem sig := 388
abbrev cc38_sem4_1 : DmaSem sig := 389
abbrev cc38_sem5_0 : DmaSem sig := 390
abbrev cc38_sem5_1 : DmaSem sig := 391
abbrev cc39_sem0_0 : DmaSem sig := 392
abbrev cc39_sem0_1 : DmaSem sig := 393
abbrev cc39_sem1_0 : DmaSem sig := 394
abbrev cc39_sem2_0 : DmaSem sig := 395
abbrev cc39_sem3_0 : DmaSem sig := 396
abbrev cc39_sem3_1 : DmaSem sig := 397
abbrev cc39_sem4_0 : DmaSem sig := 398
abbrev cc39_sem4_1 : DmaSem sig := 399
abbrev cc39_sem5_0 : DmaSem sig := 400
abbrev cc39_sem5_1 : DmaSem sig := 401

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x8192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S1024x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S1024x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x8192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S1024x8192 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x8192 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S1024x8192 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x8192 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S1024x8192 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x8192 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 2 → Memref sig .tc .vmem S1024x8192 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x8192 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1x1024 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S1024x8192 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x8192 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S1x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S1x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S1x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage12_0 : Fin 2 → Memref sig .tc .vmem S1024x8192 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x8192 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S1x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S1x1024 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1x1024 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 2 → Memref sig .tc .vmem S1024x8192 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x8192 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S1x1024 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S1x1024 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S1x1024 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![8], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage14_0 : Fin 2 → Memref sig .tc .vmem S1024x8192 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x8192 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S1x1024 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S1x1024 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S1x1024 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![8], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage15_0 : Fin 2 → Memref sig .tc .vmem S1024x8192 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x8192 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S1x1024 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S1x1024 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S1x1024 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![8], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage16_0 : Fin 2 → Memref sig .tc .vmem S1024x8192 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x8192 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S1x1024 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S1x1024 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S1x1024 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage17_0 : Fin 2 → Memref sig .tc .vmem S1024x8192 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x8192 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S1x1024 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S1x1024 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev stage17_5 : Fin 2 → Memref sig .tc .vmem S1x1024 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![8], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![c0_i32.toNat, arg0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![c0_i32.toNat, arg0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage18_0 : Fin 2 → Memref sig .tc .vmem S1024x8192 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x8192 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x1 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S1x1024 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S1x1024 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 2 → Memref sig .tc .vmem S1x1024 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage19_0 : Fin 2 → Memref sig .tc .vmem S1024x8192 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x8192 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x1 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S1x1024 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S1x1024 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev stage19_5 : Fin 2 → Memref sig .tc .vmem S1x1024 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![8], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

def cc20_transform_5 (i : grid20.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage20_0 : Fin 2 → Memref sig .tc .vmem S1024x8192 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x8192 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S1x1024 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev stage20_4 : Fin 2 → Memref sig .tc .vmem S1x1024 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev stage20_5 : Fin 2 → Memref sig .tc .vmem S1x1024 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![8], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![c0_i32.toNat, arg0.toNat]

def cc21_transform_4 (i : grid21.Coords) : Fin 2 → Nat :=
  let arg0 : BitVec 32 := BitVec.ofNat 32 (i 0).val
  let c0_i32 : BitVec 32 := 0#32
  let c0_i32_0 : BitVec 32 := 0#32
  ![c0_i32.toNat, arg0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage21_0 : Fin 2 → Memref sig .tc .vmem S1024x8192 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x8192 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x1 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S1x1024 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev stage21_4 : Fin 2 → Memref sig .tc .vmem S1x1024 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev stage21_5 : Fin 2 → Memref sig .tc .vmem S1x1024 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![8], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

def cc22_transform_4 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

def cc22_transform_5 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage22_0 : Fin 2 → Memref sig .tc .vmem S1024x8192 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S1x8192 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x1 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S1x1024 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev stage22_4 : Fin 2 → Memref sig .tc .vmem S1x1024 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev stage22_5 : Fin 2 → Memref sig .tc .vmem S1x1024 .f32 := fun | 0 => Memref.whole cc22_stg5_0 | 1 => Memref.whole cc22_stg5_1 | ⟨_ + 2, h⟩ => absurd h (Nat.not_lt.2 (Nat.le_add_left _ _))
abbrev sem22_5 : Fin 2 → DmaSem sig := fun | 0 => cc22_sem5_0 | 1 => cc22_sem5_1 | ⟨_ + 2, h⟩ => absurd h (Nat.not_lt.2 (Nat.le_add_left _ _))
abbrev reads22_5 : Fin grid22.rank → Bool := ![true]

abbrev grid23 : Pipeline.Grid := ⟨1, ![8], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

def cc23_transform_4 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage23_0 : Fin 2 → Memref sig .tc .vmem S1024x8192 .bf16 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x8192 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x1 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S1x1024 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev stage23_4 : Fin 2 → Memref sig .tc .vmem S1x1024 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev stage23_5 : Fin 2 → Memref sig .tc .vmem S1x1024 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev grid24 : Pipeline.Grid := ⟨1, ![8], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  ![c0_i32.toNat, arg0.toNat]

def cc24_transform_4 (i : grid24.Coords) : Fin 2 → Nat :=
  let arg0 : BitVec 32 := BitVec.ofNat 32 (i 0).val
  let c0_i32 : BitVec 32 := 0#32
  let c0_i32_0 : BitVec 32 := 0#32
  ![c0_i32.toNat, arg0.toNat]

def cc24_transform_5 (i : grid24.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage24_0 : Fin 2 → Memref sig .tc .vmem S1024x8192 .bf16 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S1x8192 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x1 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 2 → Memref sig .tc .vmem S1x1024 .f32 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![true]

abbrev stage24_4 : Fin 2 → Memref sig .tc .vmem S1x1024 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev stage24_5 : Fin 2 → Memref sig .tc .vmem S1x1024 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true]

abbrev grid25 : Pipeline.Grid := ⟨1, ![8], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  ![c0_i32.toNat, arg0.toNat]

def cc25_transform_4 (i : grid25.Coords) : Fin 2 → Nat :=
  let arg0 : BitVec 32 := BitVec.ofNat 32 (i 0).val
  let c0_i32 : BitVec 32 := 0#32
  let c0_i32_0 : BitVec 32 := 0#32
  ![c0_i32.toNat, arg0.toNat]

def cc25_transform_5 (i : grid25.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage25_0 : Fin 2 → Memref sig .tc .vmem S1024x8192 .bf16 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S1x8192 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S1x1 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 2 → Memref sig .tc .vmem S1x1024 .f32 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true]

abbrev stage25_4 : Fin 2 → Memref sig .tc .vmem S1x1024 .f32 := fun | 0 => Memref.whole cc25_stg4_0 | 1 => Memref.whole cc25_stg4_1 | ⟨_ + 2, h⟩ => absurd h (Nat.not_lt.2 (Nat.le_add_left _ _))
abbrev sem25_4 : Fin 2 → DmaSem sig := fun | 0 => cc25_sem4_0 | 1 => cc25_sem4_1 | ⟨_ + 2, h⟩ => absurd h (Nat.not_lt.2 (Nat.le_add_left _ _))
abbrev reads25_4 : Fin grid25.rank → Bool := ![true]

abbrev stage25_5 : Fin 2 → Memref sig .tc .vmem S1x1024 .f32 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev grid26 : Pipeline.Grid := ⟨1, ![8], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  ![c0_i32.toNat, arg0.toNat]

def cc26_transform_4 (i : grid26.Coords) : Fin 2 → Nat :=
  let arg0 : BitVec 32 := BitVec.ofNat 32 (i 0).val
  let c0_i32 : BitVec 32 := 0#32
  let c0_i32_0 : BitVec 32 := 0#32
  ![c0_i32.toNat, arg0.toNat]

def cc26_transform_5 (i : grid26.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage26_0 : Fin 2 → Memref sig .tc .vmem S1024x8192 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S1x8192 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S1x1 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S1x1024 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev stage26_4 : Fin 2 → Memref sig .tc .vmem S1x1024 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true]

abbrev stage26_5 : Fin 2 → Memref sig .tc .vmem S1x1024 .f32 := fun | 0 => Memref.whole cc26_stg5_0 | 1 => Memref.whole cc26_stg5_1 | ⟨_ + 2, h⟩ => absurd h (Nat.not_lt.2 (Nat.le_add_left _ _))
abbrev sem26_5 : Fin 2 → DmaSem sig := fun | 0 => cc26_sem5_0 | 1 => cc26_sem5_1 | ⟨_ + 2, h⟩ => absurd h (Nat.not_lt.2 (Nat.le_add_left _ _))
abbrev reads26_5 : Fin grid26.rank → Bool := ![true]

abbrev grid27 : Pipeline.Grid := ⟨1, ![8], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  ![c0_i32.toNat, arg0.toNat]

def cc27_transform_4 (i : grid27.Coords) : Fin 2 → Nat :=
  let arg0 : BitVec 32 := BitVec.ofNat 32 (i 0).val
  let c0_i32 : BitVec 32 := 0#32
  let c0_i32_0 : BitVec 32 := 0#32
  ![c0_i32.toNat, arg0.toNat]

def cc27_transform_5 (i : grid27.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage27_0 : Fin 2 → Memref sig .tc .vmem S1024x8192 .bf16 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S1x8192 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S1x1 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 2 → Memref sig .tc .vmem S1x1024 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

abbrev stage27_4 : Fin 2 → Memref sig .tc .vmem S1x1024 .f32 := fun | 0 => Memref.whole cc27_stg4_0 | 1 => Memref.whole cc27_stg4_1 | ⟨_ + 2, h⟩ => absurd h (Nat.not_lt.2 (Nat.le_add_left _ _))
abbrev sem27_4 : Fin 2 → DmaSem sig := fun | 0 => cc27_sem4_0 | 1 => cc27_sem4_1 | ⟨_ + 2, h⟩ => absurd h (Nat.not_lt.2 (Nat.le_add_left _ _))
abbrev reads27_4 : Fin grid27.rank → Bool := ![true]

abbrev stage27_5 : Fin 2 → Memref sig .tc .vmem S1x1024 .f32 := fun | 0 => Memref.whole cc27_stg5_0 | 1 => Memref.whole cc27_stg5_1 | ⟨_ + 2, h⟩ => absurd h (Nat.not_lt.2 (Nat.le_add_left _ _))
abbrev sem27_5 : Fin 2 → DmaSem sig := fun | 0 => cc27_sem5_0 | 1 => cc27_sem5_1 | ⟨_ + 2, h⟩ => absurd h (Nat.not_lt.2 (Nat.le_add_left _ _))
abbrev reads27_5 : Fin grid27.rank → Bool := ![true]

abbrev grid28 : Pipeline.Grid := ⟨1, ![8], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 2 → Nat :=
  let arg0 : BitVec 32 := BitVec.ofNat 32 (i 0).val
  let c0_i32 : BitVec 32 := 0#32
  let c0_i32_0 : BitVec 32 := 0#32
  ![c0_i32.toNat, arg0.toNat]

def cc28_transform_4 (i : grid28.Coords) : Fin 2 → Nat :=
  let arg0 : BitVec 32 := BitVec.ofNat 32 (i 0).val
  let c0_i32 : BitVec 32 := 0#32
  let c0_i32_0 : BitVec 32 := 0#32
  ![c0_i32.toNat, arg0.toNat]

def cc28_transform_5 (i : grid28.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage28_0 : Fin 2 → Memref sig .tc .vmem S1024x8192 .bf16 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S1x8192 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S1x1 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 2 → Memref sig .tc .vmem S1x1024 .f32 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true]

abbrev stage28_4 : Fin 2 → Memref sig .tc .vmem S1x1024 .f32 := fun | 0 => Memref.whole cc28_stg4_0 | 1 => Memref.whole cc28_stg4_1 | ⟨_ + 2, h⟩ => absurd h (Nat.not_lt.2 (Nat.le_add_left _ _))
abbrev sem28_4 : Fin 2 → DmaSem sig := fun | 0 => cc28_sem4_0 | 1 => cc28_sem4_1 | ⟨_ + 2, h⟩ => absurd h (Nat.not_lt.2 (Nat.le_add_left _ _))
abbrev reads28_4 : Fin grid28.rank → Bool := ![true]

abbrev stage28_5 : Fin 2 → Memref sig .tc .vmem S1x1024 .f32 := fun | 0 => Memref.whole cc28_stg5_0 | 1 => Memref.whole cc28_stg5_1 | ⟨_ + 2, h⟩ => absurd h (Nat.not_lt.2 (Nat.le_add_left _ _))
abbrev sem28_5 : Fin 2 → DmaSem sig := fun | 0 => cc28_sem5_0 | 1 => cc28_sem5_1 | ⟨_ + 2, h⟩ => absurd h (Nat.not_lt.2 (Nat.le_add_left _ _))
abbrev reads28_5 : Fin grid28.rank → Bool := ![true]

abbrev grid29 : Pipeline.Grid := ⟨1, ![8], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_3 (i : grid29.Coords) : Fin 2 → Nat :=
  let arg0 : BitVec 32 := BitVec.ofNat 32 (i 0).val
  let c0_i32 : BitVec 32 := 0#32
  let c0_i32_0 : BitVec 32 := 0#32
  ![c0_i32.toNat, arg0.toNat]

def cc29_transform_4 (i : grid29.Coords) : Fin 2 → Nat :=
  let arg0 : BitVec 32 := BitVec.ofNat 32 (i 0).val
  let c0_i32 : BitVec 32 := 0#32
  let c0_i32_0 : BitVec 32 := 0#32
  ![c0_i32.toNat, arg0.toNat]

def cc29_transform_5 (i : grid29.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage29_0 : Fin 2 → Memref sig .tc .vmem S1024x8192 .bf16 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 1 → Memref sig .tc .vmem S1x8192 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))
abbrev reads29_1 : Fin grid29.rank → Bool := ![false]

abbrev stage29_2 : Fin 1 → Memref sig .tc .vmem S1x1 .f32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))
abbrev reads29_2 : Fin grid29.rank → Bool := ![false]

abbrev stage29_3 : Fin 2 → Memref sig .tc .vmem S1x1024 .f32 := fun | 0 => Memref.whole cc29_stg3_0 | 1 => Memref.whole cc29_stg3_1 | ⟨_ + 2, h⟩ => absurd h (Nat.not_lt.2 (Nat.le_add_left _ _))
abbrev sem29_3 : Fin 2 → DmaSem sig := fun | 0 => cc29_sem3_0 | 1 => cc29_sem3_1 | ⟨_ + 2, h⟩ => absurd h (Nat.not_lt.2 (Nat.le_add_left _ _))
abbrev reads29_3 : Fin grid29.rank → Bool := ![true]

abbrev stage29_4 : Fin 2 → Memref sig .tc .vmem S1x1024 .f32 := fun | 0 => Memref.whole cc29_stg4_0 | 1 => Memref.whole cc29_stg4_1 | ⟨_ + 2, h⟩ => absurd h (Nat.not_lt.2 (Nat.le_add_left _ _))
abbrev sem29_4 : Fin 2 → DmaSem sig := fun | 0 => cc29_sem4_0 | 1 => cc29_sem4_1 | ⟨_ + 2, h⟩ => absurd h (Nat.not_lt.2 (Nat.le_add_left _ _))
abbrev reads29_4 : Fin grid29.rank → Bool := ![true]

abbrev stage29_5 : Fin 2 → Memref sig .tc .vmem S1x1024 .f32 := fun | 0 => Memref.whole cc29_stg5_0 | 1 => Memref.whole cc29_stg5_1 | ⟨_ + 2, h⟩ => absurd h (Nat.not_lt.2 (Nat.le_add_left _ _))
abbrev sem29_5 : Fin 2 → DmaSem sig := fun | 0 => cc29_sem5_0 | 1 => cc29_sem5_1 | ⟨_ + 2, h⟩ => absurd h (Nat.not_lt.2 (Nat.le_add_left _ _))
abbrev reads29_5 : Fin grid29.rank → Bool := ![true]

abbrev grid30 : Pipeline.Grid := ⟨1, ![8], ![false]⟩

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_2 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_3 (i : grid30.Coords) : Fin 2 → Nat :=
  let arg0 : BitVec 32 := BitVec.ofNat 32 (i 0).val
  let c0_i32 : BitVec 32 := 0#32
  let c0_i32_0 : BitVec 32 := 0#32
  ![c0_i32.toNat, arg0.toNat]

def cc30_transform_4 (i : grid30.Coords) : Fin 2 → Nat :=
  let arg0 : BitVec 32 := BitVec.ofNat 32 (i 0).val
  let c0_i32 : BitVec 32 := 0#32
  let c0_i32_0 : BitVec 32 := 0#32
  ![c0_i32.toNat, arg0.toNat]

def cc30_transform_5 (i : grid30.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage30_0 : Fin 2 → Memref sig .tc .vmem S1024x8192 .bf16 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 1 → Memref sig .tc .vmem S1x8192 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))
abbrev reads30_1 : Fin grid30.rank → Bool := ![false]

abbrev stage30_2 : Fin 1 → Memref sig .tc .vmem S1x1 .f32 := fun | 0 => Memref.whole cc30_stg2_0 | ⟨_ + 1, h⟩ => absurd h (Nat.not_lt.2 (Nat.le_add_left _ _))
abbrev sem30_2 : Fin 1 → DmaSem sig := fun | 0 => cc30_sem2_0 | ⟨_ + 1, h⟩ => absurd h (Nat.not_lt.2 (Nat.le_add_left _ _))
abbrev reads30_2 : Fin grid30.rank → Bool := ![false]

abbrev stage30_3 : Fin 2 → Memref sig .tc .vmem S1x1024 .f32 := fun | 0 => Memref.whole cc30_stg3_0 | 1 => Memref.whole cc30_stg3_1 | ⟨_ + 2, h⟩ => absurd h (Nat.not_lt.2 (Nat.le_add_left _ _))
abbrev sem30_3 : Fin 2 → DmaSem sig := fun | 0 => cc30_sem3_0 | 1 => cc30_sem3_1 | ⟨_ + 2, h⟩ => absurd h (Nat.not_lt.2 (Nat.le_add_left _ _))
abbrev reads30_3 : Fin grid30.rank → Bool := ![true]

abbrev stage30_4 : Fin 2 → Memref sig .tc .vmem S1x1024 .f32 := fun | 0 => Memref.whole cc30_stg4_0 | 1 => Memref.whole cc30_stg4_1 | ⟨_ + 2, h⟩ => absurd h (Nat.not_lt.2 (Nat.le_add_left _ _))
abbrev sem30_4 : Fin 2 → DmaSem sig := fun | 0 => cc30_sem4_0 | 1 => cc30_sem4_1 | ⟨_ + 2, h⟩ => absurd h (Nat.not_lt.2 (Nat.le_add_left _ _))
abbrev reads30_4 : Fin grid30.rank → Bool := ![true]

abbrev stage30_5 : Fin 2 → Memref sig .tc .vmem S1x1024 .f32 := fun | 0 => Memref.whole cc30_stg5_0 | 1 => Memref.whole cc30_stg5_1 | ⟨_ + 2, h⟩ => absurd h (Nat.not_lt.2 (Nat.le_add_left _ _))
abbrev sem30_5 : Fin 2 → DmaSem sig := fun | 0 => cc30_sem5_0 | 1 => cc30_sem5_1 | ⟨_ + 2, h⟩ => absurd h (Nat.not_lt.2 (Nat.le_add_left _ _))
abbrev reads30_5 : Fin grid30.rank → Bool := ![true]

abbrev grid31 : Pipeline.Grid := ⟨1, ![8], ![false]⟩

def cc31_transform_0 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_2 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_3 (i : grid31.Coords) : Fin 2 → Nat :=
  let arg0 : BitVec 32 := BitVec.ofNat 32 (i 0).val
  let c0_i32 : BitVec 32 := 0#32
  let c0_i32_0 : BitVec 32 := 0#32
  ![c0_i32.toNat, arg0.toNat]

def cc31_transform_4 (i : grid31.Coords) : Fin 2 → Nat :=
  let arg0 : BitVec 32 := BitVec.ofNat 32 (i 0).val
  let c0_i32 : BitVec 32 := 0#32
  let c0_i32_0 : BitVec 32 := 0#32
  ![c0_i32.toNat, arg0.toNat]

def cc31_transform_5 (i : grid31.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage31_0 : Fin 2 → Memref sig .tc .vmem S1024x8192 .bf16 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 1 → Memref sig .tc .vmem S1x8192 .f32 := fun | 0 => Memref.whole cc31_stg1_0 | ⟨_ + 1, h⟩ => absurd h (Nat.not_lt.2 (Nat.le_add_left _ _))
abbrev sem31_1 : Fin 1 → DmaSem sig := fun | 0 => cc31_sem1_0 | ⟨_ + 1, h⟩ => absurd h (Nat.not_lt.2 (Nat.le_add_left _ _))
abbrev reads31_1 : Fin grid31.rank → Bool := ![false]

abbrev stage31_2 : Fin 1 → Memref sig .tc .vmem S1x1 .f32 := fun | 0 => Memref.whole cc31_stg2_0 | ⟨_ + 1, h⟩ => absurd h (Nat.not_lt.2 (Nat.le_add_left _ _))
abbrev sem31_2 : Fin 1 → DmaSem sig := fun | 0 => cc31_sem2_0 | ⟨_ + 1, h⟩ => absurd h (Nat.not_lt.2 (Nat.le_add_left _ _))
abbrev reads31_2 : Fin grid31.rank → Bool := ![false]

abbrev stage31_3 : Fin 2 → Memref sig .tc .vmem S1x1024 .f32 := fun | 0 => Memref.whole cc31_stg3_0 | 1 => Memref.whole cc31_stg3_1 | ⟨_ + 2, h⟩ => absurd h (Nat.not_lt.2 (Nat.le_add_left _ _))
abbrev sem31_3 : Fin 2 → DmaSem sig := fun | 0 => cc31_sem3_0 | 1 => cc31_sem3_1 | ⟨_ + 2, h⟩ => absurd h (Nat.not_lt.2 (Nat.le_add_left _ _))
abbrev reads31_3 : Fin grid31.rank → Bool := ![true]

abbrev stage31_4 : Fin 2 → Memref sig .tc .vmem S1x1024 .f32 := fun | 0 => Memref.whole cc31_stg4_0 | 1 => Memref.whole cc31_stg4_1 | ⟨_ + 2, h⟩ => absurd h (Nat.not_lt.2 (Nat.le_add_left _ _))
abbrev sem31_4 : Fin 2 → DmaSem sig := fun | 0 => cc31_sem4_0 | 1 => cc31_sem4_1 | ⟨_ + 2, h⟩ => absurd h (Nat.not_lt.2 (Nat.le_add_left _ _))
abbrev reads31_4 : Fin grid31.rank → Bool := ![true]

abbrev stage31_5 : Fin 2 → Memref sig .tc .vmem S1x1024 .f32 := fun | 0 => Memref.whole cc31_stg5_0 | 1 => Memref.whole cc31_stg5_1 | ⟨_ + 2, h⟩ => absurd h (Nat.not_lt.2 (Nat.le_add_left _ _))
abbrev sem31_5 : Fin 2 → DmaSem sig := fun | 0 => cc31_sem5_0 | 1 => cc31_sem5_1 | ⟨_ + 2, h⟩ => absurd h (Nat.not_lt.2 (Nat.le_add_left _ _))
abbrev reads31_5 : Fin grid31.rank → Bool := ![true]

abbrev grid32 : Pipeline.Grid := ⟨1, ![8], ![false]⟩

def cc32_transform_0 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_2 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_3 (i : grid32.Coords) : Fin 2 → Nat :=
  let arg0 : BitVec 32 := BitVec.ofNat 32 (i 0).val
  let c0_i32 : BitVec 32 := 0#32
  let c0_i32_0 : BitVec 32 := 0#32
  ![c0_i32.toNat, arg0.toNat]

def cc32_transform_4 (i : grid32.Coords) : Fin 2 → Nat :=
  let arg0 : BitVec 32 := BitVec.ofNat 32 (i 0).val
  let c0_i32 : BitVec 32 := 0#32
  let c0_i32_0 : BitVec 32 := 0#32
  ![c0_i32.toNat, arg0.toNat]

def cc32_transform_5 (i : grid32.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage32_0 : Fin 2 → Memref sig .tc .vmem S1024x8192 .bf16 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 1 → Memref sig .tc .vmem S1x8192 .f32 := fun | 0 => Memref.whole cc32_stg1_0 | ⟨_ + 1, h⟩ => absurd h (Nat.not_lt.2 (Nat.le_add_left _ _))
abbrev sem32_1 : Fin 1 → DmaSem sig := fun | 0 => cc32_sem1_0 | ⟨_ + 1, h⟩ => absurd h (Nat.not_lt.2 (Nat.le_add_left _ _))
abbrev reads32_1 : Fin grid32.rank → Bool := ![false]

abbrev stage32_2 : Fin 1 → Memref sig .tc .vmem S1x1 .f32 := fun | 0 => Memref.whole cc32_stg2_0 | ⟨_ + 1, h⟩ => absurd h (Nat.not_lt.2 (Nat.le_add_left _ _))
abbrev sem32_2 : Fin 1 → DmaSem sig := fun | 0 => cc32_sem2_0 | ⟨_ + 1, h⟩ => absurd h (Nat.not_lt.2 (Nat.le_add_left _ _))
abbrev reads32_2 : Fin grid32.rank → Bool := ![false]

abbrev stage32_3 : Fin 2 → Memref sig .tc .vmem S1x1024 .f32 := fun | 0 => Memref.whole cc32_stg3_0 | 1 => Memref.whole cc32_stg3_1 | ⟨_ + 2, h⟩ => absurd h (Nat.not_lt.2 (Nat.le_add_left _ _))
abbrev sem32_3 : Fin 2 → DmaSem sig := fun | 0 => cc32_sem3_0 | 1 => cc32_sem3_1 | ⟨_ + 2, h⟩ => absurd h (Nat.not_lt.2 (Nat.le_add_left _ _))
abbrev reads32_3 : Fin grid32.rank → Bool := ![true]

abbrev stage32_4 : Fin 2 → Memref sig .tc .vmem S1x1024 .f32 := fun | 0 => Memref.whole cc32_stg4_0 | 1 => Memref.whole cc32_stg4_1 | ⟨_ + 2, h⟩ => absurd h (Nat.not_lt.2 (Nat.le_add_left _ _))
abbrev sem32_4 : Fin 2 → DmaSem sig := fun | 0 => cc32_sem4_0 | 1 => cc32_sem4_1 | ⟨_ + 2, h⟩ => absurd h (Nat.not_lt.2 (Nat.le_add_left _ _))
abbrev reads32_4 : Fin grid32.rank → Bool := ![true]

abbrev stage32_5 : Fin 2 → Memref sig .tc .vmem S1x1024 .f32 := fun | 0 => Memref.whole cc32_stg5_0 | 1 => Memref.whole cc32_stg5_1 | ⟨_ + 2, h⟩ => absurd h (Nat.not_lt.2 (Nat.le_add_left _ _))
abbrev sem32_5 : Fin 2 → DmaSem sig := fun | 0 => cc32_sem5_0 | 1 => cc32_sem5_1 | ⟨_ + 2, h⟩ => absurd h (Nat.not_lt.2 (Nat.le_add_left _ _))
abbrev reads32_5 : Fin grid32.rank → Bool := ![true]

abbrev grid33 : Pipeline.Grid := ⟨1, ![8], ![false]⟩

def cc33_transform_0 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

def cc33_transform_1 (i : grid33.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc33_transform_2 (i : grid33.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc33_transform_3 (i : grid33.Coords) : Fin 2 → Nat :=
  let arg0 : BitVec 32 := BitVec.ofNat 32 (i 0).val
  let c0_i32 : BitVec 32 := 0#32
  let c0_i32_0 : BitVec 32 := 0#32
  ![c0_i32.toNat, arg0.toNat]

def cc33_transform_4 (i : grid33.Coords) : Fin 2 → Nat :=
  let arg0 : BitVec 32 := BitVec.ofNat 32 (i 0).val
  let c0_i32 : BitVec 32 := 0#32
  let c0_i32_0 : BitVec 32 := 0#32
  ![c0_i32.toNat, arg0.toNat]

def cc33_transform_5 (i : grid33.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage33_0 : Fin 2 → Memref sig .tc .vmem S1024x8192 .bf16 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 1 → Memref sig .tc .vmem S1x8192 .f32 := fun | 0 => Memref.whole cc33_stg1_0 | ⟨_ + 1, h⟩ => absurd h (Nat.not_lt.2 (Nat.le_add_left _ _))
abbrev sem33_1 : Fin 1 → DmaSem sig := fun | 0 => cc33_sem1_0 | ⟨_ + 1, h⟩ => absurd h (Nat.not_lt.2 (Nat.le_add_left _ _))
abbrev reads33_1 : Fin grid33.rank → Bool := ![false]

abbrev stage33_2 : Fin 1 → Memref sig .tc .vmem S1x1 .f32 := fun | 0 => Memref.whole cc33_stg2_0 | ⟨_ + 1, h⟩ => absurd h (Nat.not_lt.2 (Nat.le_add_left _ _))
abbrev sem33_2 : Fin 1 → DmaSem sig := fun | 0 => cc33_sem2_0 | ⟨_ + 1, h⟩ => absurd h (Nat.not_lt.2 (Nat.le_add_left _ _))
abbrev reads33_2 : Fin grid33.rank → Bool := ![false]

abbrev stage33_3 : Fin 2 → Memref sig .tc .vmem S1x1024 .f32 := fun | 0 => Memref.whole cc33_stg3_0 | 1 => Memref.whole cc33_stg3_1 | ⟨_ + 2, h⟩ => absurd h (Nat.not_lt.2 (Nat.le_add_left _ _))
abbrev sem33_3 : Fin 2 → DmaSem sig := fun | 0 => cc33_sem3_0 | 1 => cc33_sem3_1 | ⟨_ + 2, h⟩ => absurd h (Nat.not_lt.2 (Nat.le_add_left _ _))
abbrev reads33_3 : Fin grid33.rank → Bool := ![true]

abbrev stage33_4 : Fin 2 → Memref sig .tc .vmem S1x1024 .f32 := fun | 0 => Memref.whole cc33_stg4_0 | 1 => Memref.whole cc33_stg4_1 | ⟨_ + 2, h⟩ => absurd h (Nat.not_lt.2 (Nat.le_add_left _ _))
abbrev sem33_4 : Fin 2 → DmaSem sig := fun | 0 => cc33_sem4_0 | 1 => cc33_sem4_1 | ⟨_ + 2, h⟩ => absurd h (Nat.not_lt.2 (Nat.le_add_left _ _))
abbrev reads33_4 : Fin grid33.rank → Bool := ![true]

abbrev stage33_5 : Fin 2 → Memref sig .tc .vmem S1x1024 .f32 := fun | 0 => Memref.whole cc33_stg5_0 | 1 => Memref.whole cc33_stg5_1 | ⟨_ + 2, h⟩ => absurd h (Nat.not_lt.2 (Nat.le_add_left _ _))
abbrev sem33_5 : Fin 2 → DmaSem sig := fun | 0 => cc33_sem5_0 | 1 => cc33_sem5_1 | ⟨_ + 2, h⟩ => absurd h (Nat.not_lt.2 (Nat.le_add_left _ _))
abbrev reads33_5 : Fin grid33.rank → Bool := ![true]

abbrev grid34 : Pipeline.Grid := ⟨1, ![8], ![false]⟩

def cc34_transform_0 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_1 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc34_transform_2 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc34_transform_3 (i : grid34.Coords) : Fin 2 → Nat :=
  let arg0 : BitVec 32 := BitVec.ofNat 32 (i 0).val
  let c0_i32 : BitVec 32 := 0#32
  let c0_i32_0 : BitVec 32 := 0#32
  ![c0_i32.toNat, arg0.toNat]

def cc34_transform_4 (i : grid34.Coords) : Fin 2 → Nat :=
  let arg0 : BitVec 32 := BitVec.ofNat 32 (i 0).val
  let c0_i32 : BitVec 32 := 0#32
  let c0_i32_0 : BitVec 32 := 0#32
  ![c0_i32.toNat, arg0.toNat]

def cc34_transform_5 (i : grid34.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage34_0 : Fin 2 → Memref sig .tc .vmem S1024x8192 .bf16 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true]

abbrev stage34_1 : Fin 1 → Memref sig .tc .vmem S1x8192 .f32 := fun | 0 => Memref.whole cc34_stg1_0 | ⟨_ + 1, h⟩ => absurd h (Nat.not_lt.2 (Nat.le_add_left _ _))
abbrev sem34_1 : Fin 1 → DmaSem sig := fun | 0 => cc34_sem1_0 | ⟨_ + 1, h⟩ => absurd h (Nat.not_lt.2 (Nat.le_add_left _ _))
abbrev reads34_1 : Fin grid34.rank → Bool := ![false]

abbrev stage34_2 : Fin 1 → Memref sig .tc .vmem S1x1 .f32 := fun | 0 => Memref.whole cc34_stg2_0 | ⟨_ + 1, h⟩ => absurd h (Nat.not_lt.2 (Nat.le_add_left _ _))
abbrev sem34_2 : Fin 1 → DmaSem sig := fun | 0 => cc34_sem2_0 | ⟨_ + 1, h⟩ => absurd h (Nat.not_lt.2 (Nat.le_add_left _ _))
abbrev reads34_2 : Fin grid34.rank → Bool := ![false]

abbrev stage34_3 : Fin 2 → Memref sig .tc .vmem S1x1024 .f32 := fun | 0 => Memref.whole cc34_stg3_0 | 1 => Memref.whole cc34_stg3_1 | ⟨_ + 2, h⟩ => absurd h (Nat.not_lt.2 (Nat.le_add_left _ _))
abbrev sem34_3 : Fin 2 → DmaSem sig := fun | 0 => cc34_sem3_0 | 1 => cc34_sem3_1 | ⟨_ + 2, h⟩ => absurd h (Nat.not_lt.2 (Nat.le_add_left _ _))
abbrev reads34_3 : Fin grid34.rank → Bool := ![true]

abbrev stage34_4 : Fin 2 → Memref sig .tc .vmem S1x1024 .f32 := fun | 0 => Memref.whole cc34_stg4_0 | 1 => Memref.whole cc34_stg4_1 | ⟨_ + 2, h⟩ => absurd h (Nat.not_lt.2 (Nat.le_add_left _ _))
abbrev sem34_4 : Fin 2 → DmaSem sig := fun | 0 => cc34_sem4_0 | 1 => cc34_sem4_1 | ⟨_ + 2, h⟩ => absurd h (Nat.not_lt.2 (Nat.le_add_left _ _))
abbrev reads34_4 : Fin grid34.rank → Bool := ![true]

abbrev stage34_5 : Fin 2 → Memref sig .tc .vmem S1x1024 .f32 := fun | 0 => Memref.whole cc34_stg5_0 | 1 => Memref.whole cc34_stg5_1 | ⟨_ + 2, h⟩ => absurd h (Nat.not_lt.2 (Nat.le_add_left _ _))
abbrev sem34_5 : Fin 2 → DmaSem sig := fun | 0 => cc34_sem5_0 | 1 => cc34_sem5_1 | ⟨_ + 2, h⟩ => absurd h (Nat.not_lt.2 (Nat.le_add_left _ _))
abbrev reads34_5 : Fin grid34.rank → Bool := ![true]

abbrev grid35 : Pipeline.Grid := ⟨1, ![8], ![false]⟩

def cc35_transform_0 (i : grid35.Coords) : Fin 2 → Nat :=
  let arg0 : BitVec 32 := BitVec.ofNat 32 (i 0).val
  let c0_i32 : BitVec 32 := 0#32
  let c0_i32_0 : BitVec 32 := 0#32
  ![arg0.toNat, c0_i32.toNat]

def cc35_transform_1 (i : grid35.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc35_transform_2 (i : grid35.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc35_transform_3 (i : grid35.Coords) : Fin 2 → Nat :=
  let arg0 : BitVec 32 := BitVec.ofNat 32 (i 0).val
  let c0_i32 : BitVec 32 := 0#32
  let c0_i32_0 : BitVec 32 := 0#32
  ![c0_i32.toNat, arg0.toNat]

def cc35_transform_4 (i : grid35.Coords) : Fin 2 → Nat :=
  let arg0 : BitVec 32 := BitVec.ofNat 32 (i 0).val
  let c0_i32 : BitVec 32 := 0#32
  let c0_i32_0 : BitVec 32 := 0#32
  ![c0_i32.toNat, arg0.toNat]

def cc35_transform_5 (i : grid35.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage35_0 : Fin 2 → Memref sig .tc .vmem S1024x8192 .bf16 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true]

abbrev stage35_1 : Fin 1 → Memref sig .tc .vmem S1x8192 .f32 := fun | 0 => Memref.whole cc35_stg1_0 | ⟨_ + 1, h⟩ => absurd h (Nat.not_lt.2 (Nat.le_add_left _ _))
abbrev sem35_1 : Fin 1 → DmaSem sig := fun | 0 => cc35_sem1_0 | ⟨_ + 1, h⟩ => absurd h (Nat.not_lt.2 (Nat.le_add_left _ _))
abbrev reads35_1 : Fin grid35.rank → Bool := ![false]

abbrev stage35_2 : Fin 1 → Memref sig .tc .vmem S1x1 .f32 := fun | 0 => Memref.whole cc35_stg2_0 | ⟨_ + 1, h⟩ => absurd h (Nat.not_lt.2 (Nat.le_add_left _ _))
abbrev sem35_2 : Fin 1 → DmaSem sig := fun | 0 => cc35_sem2_0 | ⟨_ + 1, h⟩ => absurd h (Nat.not_lt.2 (Nat.le_add_left _ _))
abbrev reads35_2 : Fin grid35.rank → Bool := ![false]

abbrev stage35_3 : Fin 2 → Memref sig .tc .vmem S1x1024 .f32 := fun | 0 => Memref.whole cc35_stg3_0 | 1 => Memref.whole cc35_stg3_1 | ⟨_ + 2, h⟩ => absurd h (Nat.not_lt.2 (Nat.le_add_left _ _))
abbrev sem35_3 : Fin 2 → DmaSem sig := fun | 0 => cc35_sem3_0 | 1 => cc35_sem3_1 | ⟨_ + 2, h⟩ => absurd h (Nat.not_lt.2 (Nat.le_add_left _ _))
abbrev reads35_3 : Fin grid35.rank → Bool := ![true]

abbrev stage35_4 : Fin 2 → Memref sig .tc .vmem S1x1024 .f32 := fun | 0 => Memref.whole cc35_stg4_0 | 1 => Memref.whole cc35_stg4_1 | ⟨_ + 2, h⟩ => absurd h (Nat.not_lt.2 (Nat.le_add_left _ _))
abbrev sem35_4 : Fin 2 → DmaSem sig := fun | 0 => cc35_sem4_0 | 1 => cc35_sem4_1 | ⟨_ + 2, h⟩ => absurd h (Nat.not_lt.2 (Nat.le_add_left _ _))
abbrev reads35_4 : Fin grid35.rank → Bool := ![true]

abbrev stage35_5 : Fin 2 → Memref sig .tc .vmem S1x1024 .f32 := fun | 0 => Memref.whole cc35_stg5_0 | 1 => Memref.whole cc35_stg5_1 | ⟨_ + 2, h⟩ => absurd h (Nat.not_lt.2 (Nat.le_add_left _ _))
abbrev sem35_5 : Fin 2 → DmaSem sig := fun | 0 => cc35_sem5_0 | 1 => cc35_sem5_1 | ⟨_ + 2, h⟩ => absurd h (Nat.not_lt.2 (Nat.le_add_left _ _))
abbrev reads35_5 : Fin grid35.rank → Bool := ![true]

abbrev grid36 : Pipeline.Grid := ⟨1, ![8], ![false]⟩

def cc36_transform_0 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

def cc36_transform_1 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_2 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_3 (i : grid36.Coords) : Fin 2 → Nat :=
  let arg0 : BitVec 32 := BitVec.ofNat 32 (i 0).val
  let c0_i32 : BitVec 32 := 0#32
  let c0_i32_0 : BitVec 32 := 0#32
  ![c0_i32.toNat, arg0.toNat]

def cc36_transform_4 (i : grid36.Coords) : Fin 2 → Nat :=
  let arg0 : BitVec 32 := BitVec.ofNat 32 (i 0).val
  let c0_i32 : BitVec 32 := 0#32
  let c0_i32_0 : BitVec 32 := 0#32
  ![c0_i32.toNat, arg0.toNat]

def cc36_transform_5 (i : grid36.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage36_0 : Fin 2 → Memref sig .tc .vmem S1024x8192 .bf16 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true]

abbrev stage36_1 : Fin 1 → Memref sig .tc .vmem S1x8192 .f32 := fun | 0 => Memref.whole cc36_stg1_0 | ⟨_ + 1, h⟩ => absurd h (Nat.not_lt.2 (Nat.le_add_left _ _))
abbrev sem36_1 : Fin 1 → DmaSem sig := fun | 0 => cc36_sem1_0 | ⟨_ + 1, h⟩ => absurd h (Nat.not_lt.2 (Nat.le_add_left _ _))
abbrev reads36_1 : Fin grid36.rank → Bool := ![false]

abbrev stage36_2 : Fin 1 → Memref sig .tc .vmem S1x1 .f32 := fun | 0 => Memref.whole cc36_stg2_0 | ⟨_ + 1, h⟩ => absurd h (Nat.not_lt.2 (Nat.le_add_left _ _))
abbrev sem36_2 : Fin 1 → DmaSem sig := fun | 0 => cc36_sem2_0 | ⟨_ + 1, h⟩ => absurd h (Nat.not_lt.2 (Nat.le_add_left _ _))
abbrev reads36_2 : Fin grid36.rank → Bool := ![false]

abbrev stage36_3 : Fin 2 → Memref sig .tc .vmem S1x1024 .f32 := fun | 0 => Memref.whole cc36_stg3_0 | 1 => Memref.whole cc36_stg3_1 | ⟨_ + 2, h⟩ => absurd h (Nat.not_lt.2 (Nat.le_add_left _ _))
abbrev sem36_3 : Fin 2 → DmaSem sig := fun | 0 => cc36_sem3_0 | 1 => cc36_sem3_1 | ⟨_ + 2, h⟩ => absurd h (Nat.not_lt.2 (Nat.le_add_left _ _))
abbrev reads36_3 : Fin grid36.rank → Bool := ![true]

abbrev stage36_4 : Fin 2 → Memref sig .tc .vmem S1x1024 .f32 := fun | 0 => Memref.whole cc36_stg4_0 | 1 => Memref.whole cc36_stg4_1 | ⟨_ + 2, h⟩ => absurd h (Nat.not_lt.2 (Nat.le_add_left _ _))
abbrev sem36_4 : Fin 2 → DmaSem sig := fun | 0 => cc36_sem4_0 | 1 => cc36_sem4_1 | ⟨_ + 2, h⟩ => absurd h (Nat.not_lt.2 (Nat.le_add_left _ _))
abbrev reads36_4 : Fin grid36.rank → Bool := ![true]

abbrev stage36_5 : Fin 2 → Memref sig .tc .vmem S1x1024 .f32 := fun | 0 => Memref.whole cc36_stg5_0 | 1 => Memref.whole cc36_stg5_1 | ⟨_ + 2, h⟩ => absurd h (Nat.not_lt.2 (Nat.le_add_left _ _))
abbrev sem36_5 : Fin 2 → DmaSem sig := fun | 0 => cc36_sem5_0 | 1 => cc36_sem5_1 | ⟨_ + 2, h⟩ => absurd h (Nat.not_lt.2 (Nat.le_add_left _ _))
abbrev reads36_5 : Fin grid36.rank → Bool := ![true]

abbrev grid37 : Pipeline.Grid := ⟨1, ![8], ![false]⟩

def cc37_transform_0 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

def cc37_transform_1 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_2 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_3 (i : grid37.Coords) : Fin 2 → Nat :=
  let arg0 : BitVec 32 := BitVec.ofNat 32 (i 0).val
  let c0_i32 : BitVec 32 := 0#32
  let c0_i32_0 : BitVec 32 := 0#32
  ![c0_i32.toNat, arg0.toNat]

def cc37_transform_4 (i : grid37.Coords) : Fin 2 → Nat :=
  let arg0 : BitVec 32 := BitVec.ofNat 32 (i 0).val
  let c0_i32 : BitVec 32 := 0#32
  let c0_i32_0 : BitVec 32 := 0#32
  ![c0_i32.toNat, arg0.toNat]

def cc37_transform_5 (i : grid37.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage37_0 : Fin 2 → Memref sig .tc .vmem S1024x8192 .bf16 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true]

abbrev stage37_1 : Fin 1 → Memref sig .tc .vmem S1x8192 .f32 := fun | 0 => Memref.whole cc37_stg1_0 | ⟨_ + 1, h⟩ => absurd h (Nat.not_lt.2 (Nat.le_add_left _ _))
abbrev sem37_1 : Fin 1 → DmaSem sig := fun | 0 => cc37_sem1_0 | ⟨_ + 1, h⟩ => absurd h (Nat.not_lt.2 (Nat.le_add_left _ _))
abbrev reads37_1 : Fin grid37.rank → Bool := ![false]

abbrev stage37_2 : Fin 1 → Memref sig .tc .vmem S1x1 .f32 := fun | 0 => Memref.whole cc37_stg2_0 | ⟨_ + 1, h⟩ => absurd h (Nat.not_lt.2 (Nat.le_add_left _ _))
abbrev sem37_2 : Fin 1 → DmaSem sig := fun | 0 => cc37_sem2_0 | ⟨_ + 1, h⟩ => absurd h (Nat.not_lt.2 (Nat.le_add_left _ _))
abbrev reads37_2 : Fin grid37.rank → Bool := ![false]

abbrev stage37_3 : Fin 2 → Memref sig .tc .vmem S1x1024 .f32 := fun | 0 => Memref.whole cc37_stg3_0 | 1 => Memref.whole cc37_stg3_1 | ⟨_ + 2, h⟩ => absurd h (Nat.not_lt.2 (Nat.le_add_left _ _))
abbrev sem37_3 : Fin 2 → DmaSem sig := fun | 0 => cc37_sem3_0 | 1 => cc37_sem3_1 | ⟨_ + 2, h⟩ => absurd h (Nat.not_lt.2 (Nat.le_add_left _ _))
abbrev reads37_3 : Fin grid37.rank → Bool := ![true]

abbrev stage37_4 : Fin 2 → Memref sig .tc .vmem S1x1024 .f32 := fun | 0 => Memref.whole cc37_stg4_0 | 1 => Memref.whole cc37_stg4_1 | ⟨_ + 2, h⟩ => absurd h (Nat.not_lt.2 (Nat.le_add_left _ _))
abbrev sem37_4 : Fin 2 → DmaSem sig := fun | 0 => cc37_sem4_0 | 1 => cc37_sem4_1 | ⟨_ + 2, h⟩ => absurd h (Nat.not_lt.2 (Nat.le_add_left _ _))
abbrev reads37_4 : Fin grid37.rank → Bool := ![true]

abbrev stage37_5 : Fin 2 → Memref sig .tc .vmem S1x1024 .f32 := fun | 0 => Memref.whole cc37_stg5_0 | 1 => Memref.whole cc37_stg5_1 | ⟨_ + 2, h⟩ => absurd h (Nat.not_lt.2 (Nat.le_add_left _ _))
abbrev sem37_5 : Fin 2 → DmaSem sig := fun | 0 => cc37_sem5_0 | 1 => cc37_sem5_1 | ⟨_ + 2, h⟩ => absurd h (Nat.not_lt.2 (Nat.le_add_left _ _))
abbrev reads37_5 : Fin grid37.rank → Bool := ![true]

abbrev grid38 : Pipeline.Grid := ⟨1, ![8], ![false]⟩

def cc38_transform_0 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_1 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc38_transform_2 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc38_transform_3 (i : grid38.Coords) : Fin 2 → Nat :=
  let arg0 : BitVec 32 := BitVec.ofNat 32 (i 0).val
  let c0_i32 : BitVec 32 := 0#32
  let c0_i32_0 : BitVec 32 := 0#32
  ![c0_i32.toNat, arg0.toNat]

def cc38_transform_4 (i : grid38.Coords) : Fin 2 → Nat :=
  let arg0 : BitVec 32 := BitVec.ofNat 32 (i 0).val
  let c0_i32 : BitVec 32 := 0#32
  let c0_i32_0 : BitVec 32 := 0#32
  ![c0_i32.toNat, arg0.toNat]

def cc38_transform_5 (i : grid38.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage38_0 : Fin 2 → Memref sig .tc .vmem S1024x8192 .bf16 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true]

abbrev stage38_1 : Fin 1 → Memref sig .tc .vmem S1x8192 .f32 := fun | 0 => Memref.whole cc38_stg1_0 | ⟨_ + 1, h⟩ => absurd h (Nat.not_lt.2 (Nat.le_add_left _ _))
abbrev sem38_1 : Fin 1 → DmaSem sig := fun | 0 => cc38_sem1_0 | ⟨_ + 1, h⟩ => absurd h (Nat.not_lt.2 (Nat.le_add_left _ _))
abbrev reads38_1 : Fin grid38.rank → Bool := ![false]

abbrev stage38_2 : Fin 1 → Memref sig .tc .vmem S1x1 .f32 := fun | 0 => Memref.whole cc38_stg2_0 | ⟨_ + 1, h⟩ => absurd h (Nat.not_lt.2 (Nat.le_add_left _ _))
abbrev sem38_2 : Fin 1 → DmaSem sig := fun | 0 => cc38_sem2_0 | ⟨_ + 1, h⟩ => absurd h (Nat.not_lt.2 (Nat.le_add_left _ _))
abbrev reads38_2 : Fin grid38.rank → Bool := ![false]

abbrev stage38_3 : Fin 2 → Memref sig .tc .vmem S1x1024 .f32 := fun | 0 => Memref.whole cc38_stg3_0 | 1 => Memref.whole cc38_stg3_1 | ⟨_ + 2, h⟩ => absurd h (Nat.not_lt.2 (Nat.le_add_left _ _))
abbrev sem38_3 : Fin 2 → DmaSem sig := fun | 0 => cc38_sem3_0 | 1 => cc38_sem3_1 | ⟨_ + 2, h⟩ => absurd h (Nat.not_lt.2 (Nat.le_add_left _ _))
abbrev reads38_3 : Fin grid38.rank → Bool := ![true]

abbrev stage38_4 : Fin 2 → Memref sig .tc .vmem S1x1024 .f32 := fun | 0 => Memref.whole cc38_stg4_0 | 1 => Memref.whole cc38_stg4_1 | ⟨_ + 2, h⟩ => absurd h (Nat.not_lt.2 (Nat.le_add_left _ _))
abbrev sem38_4 : Fin 2 → DmaSem sig := fun | 0 => cc38_sem4_0 | 1 => cc38_sem4_1 | ⟨_ + 2, h⟩ => absurd h (Nat.not_lt.2 (Nat.le_add_left _ _))
abbrev reads38_4 : Fin grid38.rank → Bool := ![true]

abbrev stage38_5 : Fin 2 → Memref sig .tc .vmem S1x1024 .f32 := fun | 0 => Memref.whole cc38_stg5_0 | 1 => Memref.whole cc38_stg5_1 | ⟨_ + 2, h⟩ => absurd h (Nat.not_lt.2 (Nat.le_add_left _ _))
abbrev sem38_5 : Fin 2 → DmaSem sig := fun | 0 => cc38_sem5_0 | 1 => cc38_sem5_1 | ⟨_ + 2, h⟩ => absurd h (Nat.not_lt.2 (Nat.le_add_left _ _))
abbrev reads38_5 : Fin grid38.rank → Bool := ![true]

abbrev grid39 : Pipeline.Grid := ⟨1, ![8], ![false]⟩

def cc39_transform_0 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_1 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_2 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_3 (i : grid39.Coords) : Fin 2 → Nat :=
  let arg0 : BitVec 32 := BitVec.ofNat 32 (i 0).val
  let c0_i32 : BitVec 32 := 0#32
  let c0_i32_0 : BitVec 32 := 0#32
  ![c0_i32.toNat, arg0.toNat]

def cc39_transform_4 (i : grid39.Coords) : Fin 2 → Nat :=
  let arg0 : BitVec 32 := BitVec.ofNat 32 (i 0).val
  let c0_i32 : BitVec 32 := 0#32
  let c0_i32_0 : BitVec 32 := 0#32
  ![c0_i32.toNat, arg0.toNat]

def cc39_transform_5 (i : grid39.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage39_0 : Fin 2 → Memref sig .tc .vmem S1024x8192 .bf16 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true]

abbrev stage39_1 : Fin 1 → Memref sig .tc .vmem S1x8192 .f32 := fun | 0 => Memref.whole cc39_stg1_0 | ⟨_ + 1, h⟩ => absurd h (Nat.not_lt.2 (Nat.le_add_left _ _))
abbrev sem39_1 : Fin 1 → DmaSem sig := fun | 0 => cc39_sem1_0 | ⟨_ + 1, h⟩ => absurd h (Nat.not_lt.2 (Nat.le_add_left _ _))
abbrev reads39_1 : Fin grid39.rank → Bool := ![false]

abbrev stage39_2 : Fin 1 → Memref sig .tc .vmem S1x1 .f32 := fun | 0 => Memref.whole cc39_stg2_0 | ⟨_ + 1, h⟩ => absurd h (Nat.not_lt.2 (Nat.le_add_left _ _))
abbrev sem39_2 : Fin 1 → DmaSem sig := fun | 0 => cc39_sem2_0 | ⟨_ + 1, h⟩ => absurd h (Nat.not_lt.2 (Nat.le_add_left _ _))
abbrev reads39_2 : Fin grid39.rank → Bool := ![false]

abbrev stage39_3 : Fin 2 → Memref sig .tc .vmem S1x1024 .f32 := fun | 0 => Memref.whole cc39_stg3_0 | 1 => Memref.whole cc39_stg3_1 | ⟨_ + 2, h⟩ => absurd h (Nat.not_lt.2 (Nat.le_add_left _ _))
abbrev sem39_3 : Fin 2 → DmaSem sig := fun | 0 => cc39_sem3_0 | 1 => cc39_sem3_1 | ⟨_ + 2, h⟩ => absurd h (Nat.not_lt.2 (Nat.le_add_left _ _))
abbrev reads39_3 : Fin grid39.rank → Bool := ![true]

abbrev stage39_4 : Fin 2 → Memref sig .tc .vmem S1x1024 .f32 := fun | 0 => Memref.whole cc39_stg4_0 | 1 => Memref.whole cc39_stg4_1 | ⟨_ + 2, h⟩ => absurd h (Nat.not_lt.2 (Nat.le_add_left _ _))
abbrev sem39_4 : Fin 2 → DmaSem sig := fun | 0 => cc39_sem4_0 | 1 => cc39_sem4_1 | ⟨_ + 2, h⟩ => absurd h (Nat.not_lt.2 (Nat.le_add_left _ _))
abbrev reads39_4 : Fin grid39.rank → Bool := ![true]

abbrev stage39_5 : Fin 2 → Memref sig .tc .vmem S1x1024 .f32 := fun | 0 => Memref.whole cc39_stg5_0 | 1 => Memref.whole cc39_stg5_1 | ⟨_ + 2, h⟩ => absurd h (Nat.not_lt.2 (Nat.le_add_left _ _))
abbrev sem39_5 : Fin 2 → DmaSem sig := fun | 0 => cc39_sem5_0 | 1 => cc39_sem5_1 | ⟨_ + 2, h⟩ => absurd h (Nat.not_lt.2 (Nat.le_add_left _ _))
abbrev reads39_5 : Fin grid39.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S8192x8192.size a
  hwx0_4 : ∀ i : grid0.Coords, EltTy.bits .bf16 = 32 ∨ (Rect.block (s := S8192x8192) S256x8192.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S8192x8192.size a
  hwx1_0 : ∀ i : grid1.Coords, EltTy.bits .bf16 = 32 ∨ (Rect.block (s := S8192x8192) S1024x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .f32 = 32 ∨ (Rect.block (s := S1x8192) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x8192.size a
  hwx2_4 : ∀ i : grid2.Coords, EltTy.bits .f32 = 32 ∨ (Rect.block (s := S1x8192) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x8192.size a
  hwx2_5 : ∀ i : grid2.Coords, EltTy.bits .f32 = 32 ∨ (Rect.block (s := S1x8192) S1x1024.size (cc2_transform_5 i) (hinb2_5 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8192.size a ≤ S1x8192.size a
  hwx3_1 : ∀ i : grid3.Coords, EltTy.bits .f32 = 32 ∨ (Rect.block (s := S1x8192) S1x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x8192.size a
  hwx3_3 : ∀ i : grid3.Coords, EltTy.bits .f32 = 32 ∨ (Rect.block (s := S1x8192) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x8192.size a
  hwx3_4 : ∀ i : grid3.Coords, EltTy.bits .f32 = 32 ∨ (Rect.block (s := S1x8192) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x8192.size a
  hwx3_5 : ∀ i : grid3.Coords, EltTy.bits .f32 = 32 ∨ (Rect.block (s := S1x8192) S1x1024.size (cc3_transform_5 i) (hinb3_5 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x8192.size a ≤ S1x8192.size a
  hwx4_1 : ∀ i : grid4.Coords, EltTy.bits .f32 = 32 ∨ (Rect.block (s := S1x8192) S1x8192.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x8192.size a
  hwx4_3 : ∀ i : grid4.Coords, EltTy.bits .f32 = 32 ∨ (Rect.block (s := S1x8192) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x8192.size a
  hwx4_4 : ∀ i : grid4.Coords, EltTy.bits .f32 = 32 ∨ (Rect.block (s := S1x8192) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x8192.size a
  hwx4_5 : ∀ i : grid4.Coords, EltTy.bits .f32 = 32 ∨ (Rect.block (s := S1x8192) S1x1024.size (cc4_transform_5 i) (hinb4_5 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x8192.size a ≤ S8192x8192.size a
  hwx5_0 : ∀ i : grid5.Coords, EltTy.bits .bf16 = 32 ∨ (Rect.block (s := S8192x8192) S1024x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8192.size a ≤ S1x8192.size a
  hwx5_1 : ∀ i : grid5.Coords, EltTy.bits .f32 = 32 ∨ (Rect.block (s := S1x8192) S1x8192.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x8192.size a
  hwx5_3 : ∀ i : grid5.Coords, EltTy.bits .f32 = 32 ∨ (Rect.block (s := S1x8192) S1x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x8192.size a
  hwx5_4 : ∀ i : grid5.Coords, EltTy.bits .f32 = 32 ∨ (Rect.block (s := S1x8192) S1x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x1024.size a ≤ S1x8192.size a
  hwx5_5 : ∀ i : grid5.Coords, EltTy.bits .f32 = 32 ∨ (Rect.block (s := S1x8192) S1x1024.size (cc5_transform_5 i) (hinb5_5 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x8192.size a ≤ S8192x8192.size a
  hwx6_0 : ∀ i : grid6.Coords, EltTy.bits .bf16 = 32 ∨ (Rect.block (s := S8192x8192) S1024x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x8192.size a ≤ S1x8192.size a
  hwx6_1 : ∀ i : grid6.Coords, EltTy.bits .f32 = 32 ∨ (Rect.block (s := S1x8192) S1x8192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1024.size a ≤ S1x8192.size a
  hwx6_3 : ∀ i : grid6.Coords, EltTy.bits .f32 = 32 ∨ (Rect.block (s := S1x8192) S1x1024.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x8192.size a
  hwx6_4 : ∀ i : grid6.Coords, EltTy.bits .f32 = 32 ∨ (Rect.block (s := S1x8192) S1x1024.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x1024.size a ≤ S1x8192.size a
  hwx6_5 : ∀ i : grid6.Coords, EltTy.bits .f32 = 32 ∨ (Rect.block (s := S1x8192) S1x1024.size (cc6_transform_5 i) (hinb6_5 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x8192.size a ≤ S8192x8192.size a
  hwx7_0 : ∀ i : grid7.Coords, EltTy.bits .bf16 = 32 ∨ (Rect.block (s := S8192x8192) S1024x8192.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x8192.size a ≤ S1x8192.size a
  hwx7_1 : ∀ i : grid7.Coords, EltTy.bits .f32 = 32 ∨ (Rect.block (s := S1x8192) S1x8192.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x8192.size a
  hwx7_3 : ∀ i : grid7.Coords, EltTy.bits .f32 = 32 ∨ (Rect.block (s := S1x8192) S1x1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x8192.size a
  hwx7_4 : ∀ i : grid7.Coords, EltTy.bits .f32 = 32 ∨ (Rect.block (s := S1x8192) S1x1024.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1024.size a ≤ S1x8192.size a
  hwx7_5 : ∀ i : grid7.Coords, EltTy.bits .f32 = 32 ∨ (Rect.block (s := S1x8192) S1x1024.size (cc7_transform_5 i) (hinb7_5 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x8192.size a ≤ S8192x8192.size a
  hwx8_0 : ∀ i : grid8.Coords, EltTy.bits .bf16 = 32 ∨ (Rect.block (s := S8192x8192) S1024x8192.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x8192.size a ≤ S1x8192.size a
  hwx8_1 : ∀ i : grid8.Coords, EltTy.bits .f32 = 32 ∨ (Rect.block (s := S1x8192) S1x8192.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x1024.size a ≤ S1x8192.size a
  hwx8_3 : ∀ i : grid8.Coords, EltTy.bits .f32 = 32 ∨ (Rect.block (s := S1x8192) S1x1024.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x8192.size a
  hwx8_4 : ∀ i : grid8.Coords, EltTy.bits .f32 = 32 ∨ (Rect.block (s := S1x8192) S1x1024.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1x1024.size a ≤ S1x8192.size a
  hwx8_5 : ∀ i : grid8.Coords, EltTy.bits .f32 = 32 ∨ (Rect.block (s := S1x8192) S1x1024.size (cc8_transform_5 i) (hinb8_5 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x8192.size a ≤ S8192x8192.size a
  hwx9_0 : ∀ i : grid9.Coords, EltTy.bits .bf16 = 32 ∨ (Rect.block (s := S8192x8192) S1024x8192.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x8192.size a ≤ S1x8192.size a
  hwx9_1 : ∀ i : grid9.Coords, EltTy.bits .f32 = 32 ∨ (Rect.block (s := S1x8192) S1x8192.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x1024.size a ≤ S1x8192.size a
  hwx9_3 : ∀ i : grid9.Coords, EltTy.bits .f32 = 32 ∨ (Rect.block (s := S1x8192) S1x1024.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x1024.size a ≤ S1x8192.size a
  hwx9_4 : ∀ i : grid9.Coords, EltTy.bits .f32 = 32 ∨ (Rect.block (s := S1x8192) S1x1024.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1x1024.size a ≤ S1x8192.size a
  hwx9_5 : ∀ i : grid9.Coords, EltTy.bits .f32 = 32 ∨ (Rect.block (s := S1x8192) S1x1024.size (cc9_transform_5 i) (hinb9_5 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x8192.size a ≤ S8192x8192.size a
  hwx10_0 : ∀ i : grid10.Coords, EltTy.bits .bf16 = 32 ∨ (Rect.block (s := S8192x8192) S1024x8192.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x8192.size a ≤ S1x8192.size a
  hwx10_1 : ∀ i : grid10.Coords, EltTy.bits .f32 = 32 ∨ (Rect.block (s := S1x8192) S1x8192.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x1024.size a ≤ S1x8192.size a
  hwx10_3 : ∀ i : grid10.Coords, EltTy.bits .f32 = 32 ∨ (Rect.block (s := S1x8192) S1x1024.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x1024.size a ≤ S1x8192.size a
  hwx10_4 : ∀ i : grid10.Coords, EltTy.bits .f32 = 32 ∨ (Rect.block (s := S1x8192) S1x1024.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1x1024.size a ≤ S1x8192.size a
  hwx10_5 : ∀ i : grid10.Coords, EltTy.bits .f32 = 32 ∨ (Rect.block (s := S1x8192) S1x1024.size (cc10_transform_5 i) (hinb10_5 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x8192.size a ≤ S8192x8192.size a
  hwx11_0 : ∀ i : grid11.Coords, EltTy.bits .bf16 = 32 ∨ (Rect.block (s := S8192x8192) S1024x8192.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x8192.size a ≤ S1x8192.size a
  hwx11_1 : ∀ i : grid11.Coords, EltTy.bits .f32 = 32 ∨ (Rect.block (s := S1x8192) S1x8192.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x1024.size a ≤ S1x8192.size a
  hwx11_3 : ∀ i : grid11.Coords, EltTy.bits .f32 = 32 ∨ (Rect.block (s := S1x8192) S1x1024.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1x1024.size a ≤ S1x8192.size a
  hwx11_4 : ∀ i : grid11.Coords, EltTy.bits .f32 = 32 ∨ (Rect.block (s := S1x8192) S1x1024.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1x1024.size a ≤ S1x8192.size a
  hwx11_5 : ∀ i : grid11.Coords, EltTy.bits .f32 = 32 ∨ (Rect.block (s := S1x8192) S1x1024.size (cc11_transform_5 i) (hinb11_5 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x8192.size a ≤ S8192x8192.size a
  hwx12_0 : ∀ i : grid12.Coords, EltTy.bits .bf16 = 32 ∨ (Rect.block (s := S8192x8192) S1024x8192.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x8192.size a ≤ S1x8192.size a
  hwx12_1 : ∀ i : grid12.Coords, EltTy.bits .f32 = 32 ∨ (Rect.block (s := S1x8192) S1x8192.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1x1024.size a ≤ S1x8192.size a
  hwx12_3 : ∀ i : grid12.Coords, EltTy.bits .f32 = 32 ∨ (Rect.block (s := S1x8192) S1x1024.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1x1024.size a ≤ S1x8192.size a
  hwx12_4 : ∀ i : grid12.Coords, EltTy.bits .f32 = 32 ∨ (Rect.block (s := S1x8192) S1x1024.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1x1024.size a ≤ S1x8192.size a
  hwx12_5 : ∀ i : grid12.Coords, EltTy.bits .f32 = 32 ∨ (Rect.block (s := S1x8192) S1x1024.size (cc12_transform_5 i) (hinb12_5 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x8192.size a ≤ S8192x8192.size a
  hwx13_0 : ∀ i : grid13.Coords, EltTy.bits .bf16 = 32 ∨ (Rect.block (s := S8192x8192) S1024x8192.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x8192.size a ≤ S1x8192.size a
  hwx13_1 : ∀ i : grid13.Coords, EltTy.bits .f32 = 32 ∨ (Rect.block (s := S1x8192) S1x8192.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1x1024.size a ≤ S1x8192.size a
  hwx13_3 : ∀ i : grid13.Coords, EltTy.bits .f32 = 32 ∨ (Rect.block (s := S1x8192) S1x1024.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S1x1024.size a ≤ S1x8192.size a
  hwx13_4 : ∀ i : grid13.Coords, EltTy.bits .f32 = 32 ∨ (Rect.block (s := S1x8192) S1x1024.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S1x1024.size a ≤ S1x8192.size a
  hwx13_5 : ∀ i : grid13.Coords, EltTy.bits .f32 = 32 ∨ (Rect.block (s := S1x8192) S1x1024.size (cc13_transform_5 i) (hinb13_5 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x8192.size a ≤ S8192x8192.size a
  hwx14_0 : ∀ i : grid14.Coords, EltTy.bits .bf16 = 32 ∨ (Rect.block (s := S8192x8192) S1024x8192.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x8192.size a ≤ S1x8192.size a
  hwx14_1 : ∀ i : grid14.Coords, EltTy.bits .f32 = 32 ∨ (Rect.block (s := S1x8192) S1x8192.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1x1024.size a ≤ S1x8192.size a
  hwx14_3 : ∀ i : grid14.Coords, EltTy.bits .f32 = 32 ∨ (Rect.block (s := S1x8192) S1x1024.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x1024.size a ≤ S1x8192.size a
  hwx14_4 : ∀ i : grid14.Coords, EltTy.bits .f32 = 32 ∨ (Rect.block (s := S1x8192) S1x1024.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S1x1024.size a ≤ S1x8192.size a
  hwx14_5 : ∀ i : grid14.Coords, EltTy.bits .f32 = 32 ∨ (Rect.block (s := S1x8192) S1x1024.size (cc14_transform_5 i) (hinb14_5 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x8192.size a ≤ S8192x8192.size a
  hwx15_0 : ∀ i : grid15.Coords, EltTy.bits .bf16 = 32 ∨ (Rect.block (s := S8192x8192) S1024x8192.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x8192.size a ≤ S1x8192.size a
  hwx15_1 : ∀ i : grid15.Coords, EltTy.bits .f32 = 32 ∨ (Rect.block (s := S1x8192) S1x8192.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1x1024.size a ≤ S1x8192.size a
  hwx15_3 : ∀ i : grid15.Coords, EltTy.bits .f32 = 32 ∨ (Rect.block (s := S1x8192) S1x1024.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x1024.size a ≤ S1x8192.size a
  hwx15_4 : ∀ i : grid15.Coords, EltTy.bits .f32 = 32 ∨ (Rect.block (s := S1x8192) S1x1024.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S1x1024.size a ≤ S1x8192.size a
  hwx15_5 : ∀ i : grid15.Coords, EltTy.bits .f32 = 32 ∨ (Rect.block (s := S1x8192) S1x1024.size (cc15_transform_5 i) (hinb15_5 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1024x8192.size a ≤ S8192x8192.size a
  hwx16_0 : ∀ i : grid16.Coords, EltTy.bits .bf16 = 32 ∨ (Rect.block (s := S8192x8192) S1024x8192.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x8192.size a ≤ S1x8192.size a
  hwx16_1 : ∀ i : grid16.Coords, EltTy.bits .f32 = 32 ∨ (Rect.block (s := S1x8192) S1x8192.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1x1024.size a ≤ S1x8192.size a
  hwx16_3 : ∀ i : grid16.Coords, EltTy.bits .f32 = 32 ∨ (Rect.block (s := S1x8192) S1x1024.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S1x1024.size a ≤ S1x8192.size a
  hwx16_4 : ∀ i : grid16.Coords, EltTy.bits .f32 = 32 ∨ (Rect.block (s := S1x8192) S1x1024.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S1x1024.size a ≤ S1x8192.size a
  hwx16_5 : ∀ i : grid16.Coords, EltTy.bits .f32 = 32 ∨ (Rect.block (s := S1x8192) S1x1024.size (cc16_transform_5 i) (hinb16_5 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1024x8192.size a ≤ S8192x8192.size a
  hwx17_0 : ∀ i : grid17.Coords, EltTy.bits .bf16 = 32 ∨ (Rect.block (s := S8192x8192) S1024x8192.size (cc17_transform_0 i) (hinb17_0 i)).WholeWords (EltTy.packing .bf16)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x8192.size a ≤ S1x8192.size a
  hwx17_1 : ∀ i : grid17.Coords, EltTy.bits .f32 = 32 ∨ (Rect.block (s := S1x8192) S1x8192.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x1.size a ≤ S1x1.size a
  hwx17_2 : ∀ i : grid17.Coords, EltTy.bits .f32 = 32 ∨ (Rect.block (s := S1x1) S1x1.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S1x1024.size a ≤ S1x8192.size a
  hwx17_3 : ∀ i : grid17.Coords, EltTy.bits .f32 = 32 ∨ (Rect.block (s := S1x8192) S1x1024.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S1x1024.size a ≤ S1x8192.size a
  hwx17_4 : ∀ i : grid17.Coords, EltTy.bits .f32 = 32 ∨ (Rect.block (s := S1x8192) S1x1024.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S1x1024.size a ≤ S1x8192.size a
  hwx17_5 : ∀ i : grid17.Coords, EltTy.bits .f32 = 32 ∨ (Rect.block (s := S1x8192) S1x1024.size (cc17_transform_5 i) (hinb17_5 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1024x8192.size a ≤ S8192x8192.size a
  hwx18_0 : ∀ i : grid18.Coords, EltTy.bits .bf16 = 32 ∨ (Rect.block (s := S8192x8192) S1024x8192.size (cc18_transform_0 i) (hinb18_0 i)).WholeWords (EltTy.packing .bf16)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x8192.size a ≤ S1x8192.size a
  hwx18_1 : ∀ i : grid18.Coords, EltTy.bits .f32 = 32 ∨ (Rect.block (s := S1x8192) S1x8192.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x1.size a ≤ S1x1.size a
  hwx18_2 : ∀ i : grid18.Coords, EltTy.bits .f32 = 32 ∨ (Rect.block (s := S1x1) S1x1.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S1x1024.size a ≤ S1x8192.size a
  hwx18_3 : ∀ i : grid18.Coords, EltTy.bits .f32 = 32 ∨ (Rect.block (s := S1x8192) S1x1024.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S1x1024.size a ≤ S1x8192.size a
  hwx18_4 : ∀ i : grid18.Coords, EltTy.bits .f32 = 32 ∨ (Rect.block (s := S1x8192) S1x1024.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S1x1024.size a ≤ S1x8192.size a
  hwx18_5 : ∀ i : grid18.Coords, EltTy.bits .f32 = 32 ∨ (Rect.block (s := S1x8192) S1x1024.size (cc18_transform_5 i) (hinb18_5 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1024x8192.size a ≤ S8192x8192.size a
  hwx19_0 : ∀ i : grid19.Coords, EltTy.bits .bf16 = 32 ∨ (Rect.block (s := S8192x8192) S1024x8192.size (cc19_transform_0 i) (hinb19_0 i)).WholeWords (EltTy.packing .bf16)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x8192.size a ≤ S1x8192.size a
  hwx19_1 : ∀ i : grid19.Coords, EltTy.bits .f32 = 32 ∨ (Rect.block (s := S1x8192) S1x8192.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x1.size a ≤ S1x1.size a
  hwx19_2 : ∀ i : grid19.Coords, EltTy.bits .f32 = 32 ∨ (Rect.block (s := S1x1) S1x1.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S1x1024.size a ≤ S1x8192.size a
  hwx19_3 : ∀ i : grid19.Coords, EltTy.bits .f32 = 32 ∨ (Rect.block (s := S1x8192) S1x1024.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S1x1024.size a ≤ S1x8192.size a
  hwx19_4 : ∀ i : grid19.Coords, EltTy.bits .f32 = 32 ∨ (Rect.block (s := S1x8192) S1x1024.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S1x1024.size a ≤ S1x8192.size a
  hwx19_5 : ∀ i : grid19.Coords, EltTy.bits .f32 = 32 ∨ (Rect.block (s := S1x8192) S1x1024.size (cc19_transform_5 i) (hinb19_5 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1024x8192.size a ≤ S8192x8192.size a
  hwx20_0 : ∀ i : grid20.Coords, EltTy.bits .bf16 = 32 ∨ (Rect.block (s := S8192x8192) S1024x8192.size (cc20_transform_0 i) (hinb20_0 i)).WholeWords (EltTy.packing .bf16)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x8192.size a ≤ S1x8192.size a
  hwx20_1 : ∀ i : grid20.Coords, EltTy.bits .f32 = 32 ∨ (Rect.block (s := S1x8192) S1x8192.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x1.size a ≤ S1x1.size a
  hwx20_2 : ∀ i : grid20.Coords, EltTy.bits .f32 = 32 ∨ (Rect.block (s := S1x1) S1x1.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S1x1024.size a ≤ S1x8192.size a
  hwx20_3 : ∀ i : grid20.Coords, EltTy.bits .f32 = 32 ∨ (Rect.block (s := S1x8192) S1x1024.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S1x1024.size a ≤ S1x8192.size a
  hwx20_4 : ∀ i : grid20.Coords, EltTy.bits .f32 = 32 ∨ (Rect.block (s := S1x8192) S1x1024.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S1x1024.size a ≤ S1x8192.size a
  hwx20_5 : ∀ i : grid20.Coords, EltTy.bits .f32 = 32 ∨ (Rect.block (s := S1x8192) S1x1024.size (cc20_transform_5 i) (hinb20_5 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S1024x8192.size a ≤ S8192x8192.size a
  hwx21_0 : ∀ i : grid21.Coords, EltTy.bits .bf16 = 32 ∨ (Rect.block (s := S8192x8192) S1024x8192.size (cc21_transform_0 i) (hinb21_0 i)).WholeWords (EltTy.packing .bf16)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x8192.size a ≤ S1x8192.size a
  hwx21_1 : ∀ i : grid21.Coords, EltTy.bits .f32 = 32 ∨ (Rect.block (s := S1x8192) S1x8192.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x1.size a ≤ S1x1.size a
  hwx21_2 : ∀ i : grid21.Coords, EltTy.bits .f32 = 32 ∨ (Rect.block (s := S1x1) S1x1.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S1x1024.size a ≤ S1x8192.size a
  hwx21_3 : ∀ i : grid21.Coords, EltTy.bits .f32 = 32 ∨ (Rect.block (s := S1x8192) S1x1024.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S1x1024.size a ≤ S1x8192.size a
  hwx21_4 : ∀ i : grid21.Coords, EltTy.bits .f32 = 32 ∨ (Rect.block (s := S1x8192) S1x1024.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S1x1024.size a ≤ S1x8192.size a
  hwx21_5 : ∀ i : grid21.Coords, EltTy.bits .f32 = 32 ∨ (Rect.block (s := S1x8192) S1x1024.size (cc21_transform_5 i) (hinb21_5 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1024x8192.size a ≤ S8192x8192.size a
  hwx22_0 : ∀ i : grid22.Coords, EltTy.bits .bf16 = 32 ∨ (Rect.block (s := S8192x8192) S1024x8192.size (cc22_transform_0 i) (hinb22_0 i)).WholeWords (EltTy.packing .bf16)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S1x8192.size a ≤ S1x8192.size a
  hwx22_1 : ∀ i : grid22.Coords, EltTy.bits .f32 = 32 ∨ (Rect.block (s := S1x8192) S1x8192.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x1.size a ≤ S1x1.size a
  hwx22_2 : ∀ i : grid22.Coords, EltTy.bits .f32 = 32 ∨ (Rect.block (s := S1x1) S1x1.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S1x1024.size a ≤ S1x8192.size a
  hwx22_3 : ∀ i : grid22.Coords, EltTy.bits .f32 = 32 ∨ (Rect.block (s := S1x8192) S1x1024.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S1x1024.size a ≤ S1x8192.size a
  hwx22_4 : ∀ i : grid22.Coords, EltTy.bits .f32 = 32 ∨ (Rect.block (s := S1x8192) S1x1024.size (cc22_transform_4 i) (hinb22_4 i)).WholeWords (EltTy.packing .f32)
  hstage22_5 : ∀ j, (stage22_5 j).IsWhole
  nbuf22_5 : grid22.bufCount reads22_5 false = 2
  hreads22_5 : ∀ i i' : grid22.Coords, (∀ a, reads22_5 a = true → i a = i' a) → cc22_transform_5 i = cc22_transform_5 i'
  hinb22_5 : ∀ (i : grid22.Coords) a, (cc22_transform_5 i a + 1) * S1x1024.size a ≤ S1x8192.size a
  hwx22_5 : ∀ i : grid22.Coords, EltTy.bits .f32 = 32 ∨ (Rect.block (s := S1x8192) S1x1024.size (cc22_transform_5 i) (hinb22_5 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S1024x8192.size a ≤ S8192x8192.size a
  hwx23_0 : ∀ i : grid23.Coords, EltTy.bits .bf16 = 32 ∨ (Rect.block (s := S8192x8192) S1024x8192.size (cc23_transform_0 i) (hinb23_0 i)).WholeWords (EltTy.packing .bf16)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x8192.size a ≤ S1x8192.size a
  hwx23_1 : ∀ i : grid23.Coords, EltTy.bits .f32 = 32 ∨ (Rect.block (s := S1x8192) S1x8192.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x1.size a ≤ S1x1.size a
  hwx23_2 : ∀ i : grid23.Coords, EltTy.bits .f32 = 32 ∨ (Rect.block (s := S1x1) S1x1.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S1x1024.size a ≤ S1x8192.size a
  hwx23_3 : ∀ i : grid23.Coords, EltTy.bits .f32 = 32 ∨ (Rect.block (s := S1x8192) S1x1024.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S1x1024.size a ≤ S1x8192.size a
  hwx23_4 : ∀ i : grid23.Coords, EltTy.bits .f32 = 32 ∨ (Rect.block (s := S1x8192) S1x1024.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S1x1024.size a ≤ S1x8192.size a
  hwx23_5 : ∀ i : grid23.Coords, EltTy.bits .f32 = 32 ∨ (Rect.block (s := S1x8192) S1x1024.size (cc23_transform_5 i) (hinb23_5 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1024x8192.size a ≤ S8192x8192.size a
  hwx24_0 : ∀ i : grid24.Coords, EltTy.bits .bf16 = 32 ∨ (Rect.block (s := S8192x8192) S1024x8192.size (cc24_transform_0 i) (hinb24_0 i)).WholeWords (EltTy.packing .bf16)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S1x8192.size a ≤ S1x8192.size a
  hwx24_1 : ∀ i : grid24.Coords, EltTy.bits .f32 = 32 ∨ (Rect.block (s := S1x8192) S1x8192.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x1.size a ≤ S1x1.size a
  hwx24_2 : ∀ i : grid24.Coords, EltTy.bits .f32 = 32 ∨ (Rect.block (s := S1x1) S1x1.size (cc24_transform_2 i) (hinb24_2 i)).WholeWords (EltTy.packing .f32)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S1x1024.size a ≤ S1x8192.size a
  hwx24_3 : ∀ i : grid24.Coords, EltTy.bits .f32 = 32 ∨ (Rect.block (s := S1x8192) S1x1024.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S1x1024.size a ≤ S1x8192.size a
  hwx24_4 : ∀ i : grid24.Coords, EltTy.bits .f32 = 32 ∨ (Rect.block (s := S1x8192) S1x1024.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S1x1024.size a ≤ S1x8192.size a
  hwx24_5 : ∀ i : grid24.Coords, EltTy.bits .f32 = 32 ∨ (Rect.block (s := S1x8192) S1x1024.size (cc24_transform_5 i) (hinb24_5 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S1024x8192.size a ≤ S8192x8192.size a
  hwx25_0 : ∀ i : grid25.Coords, EltTy.bits .bf16 = 32 ∨ (Rect.block (s := S8192x8192) S1024x8192.size (cc25_transform_0 i) (hinb25_0 i)).WholeWords (EltTy.packing .bf16)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S1x8192.size a ≤ S1x8192.size a
  hwx25_1 : ∀ i : grid25.Coords, EltTy.bits .f32 = 32 ∨ (Rect.block (s := S1x8192) S1x8192.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S1x1.size a ≤ S1x1.size a
  hwx25_2 : ∀ i : grid25.Coords, EltTy.bits .f32 = 32 ∨ (Rect.block (s := S1x1) S1x1.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S1x1024.size a ≤ S1x8192.size a
  hwx25_3 : ∀ i : grid25.Coords, EltTy.bits .f32 = 32 ∨ (Rect.block (s := S1x8192) S1x1024.size (cc25_transform_3 i) (hinb25_3 i)).WholeWords (EltTy.packing .f32)
  hstage25_4 : ∀ j, (stage25_4 j).IsWhole
  nbuf25_4 : grid25.bufCount reads25_4 false = 2
  hreads25_4 : ∀ i i' : grid25.Coords, (∀ a, reads25_4 a = true → i a = i' a) → cc25_transform_4 i = cc25_transform_4 i'
  hinb25_4 : ∀ (i : grid25.Coords) a, (cc25_transform_4 i a + 1) * S1x1024.size a ≤ S1x8192.size a
  hwx25_4 : ∀ i : grid25.Coords, EltTy.bits .f32 = 32 ∨ (Rect.block (s := S1x8192) S1x1024.size (cc25_transform_4 i) (hinb25_4 i)).WholeWords (EltTy.packing .f32)
  hstage25_5 : ∀ j, (stage25_5 j).IsWhole
  nbuf25_5 : grid25.bufCount reads25_5 false = 2
  hreads25_5 : ∀ i i' : grid25.Coords, (∀ a, reads25_5 a = true → i a = i' a) → cc25_transform_5 i = cc25_transform_5 i'
  hinb25_5 : ∀ (i : grid25.Coords) a, (cc25_transform_5 i a + 1) * S1x1024.size a ≤ S1x8192.size a
  hwx25_5 : ∀ i : grid25.Coords, EltTy.bits .f32 = 32 ∨ (Rect.block (s := S1x8192) S1x1024.size (cc25_transform_5 i) (hinb25_5 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1024x8192.size a ≤ S8192x8192.size a
  hwx26_0 : ∀ i : grid26.Coords, EltTy.bits .bf16 = 32 ∨ (Rect.block (s := S8192x8192) S1024x8192.size (cc26_transform_0 i) (hinb26_0 i)).WholeWords (EltTy.packing .bf16)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S1x8192.size a ≤ S1x8192.size a
  hwx26_1 : ∀ i : grid26.Coords, EltTy.bits .f32 = 32 ∨ (Rect.block (s := S1x8192) S1x8192.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x1.size a ≤ S1x1.size a
  hwx26_2 : ∀ i : grid26.Coords, EltTy.bits .f32 = 32 ∨ (Rect.block (s := S1x1) S1x1.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S1x1024.size a ≤ S1x8192.size a
  hwx26_3 : ∀ i : grid26.Coords, EltTy.bits .f32 = 32 ∨ (Rect.block (s := S1x8192) S1x1024.size (cc26_transform_3 i) (hinb26_3 i)).WholeWords (EltTy.packing .f32)
  hstage26_4 : ∀ j, (stage26_4 j).IsWhole
  nbuf26_4 : grid26.bufCount reads26_4 false = 2
  hreads26_4 : ∀ i i' : grid26.Coords, (∀ a, reads26_4 a = true → i a = i' a) → cc26_transform_4 i = cc26_transform_4 i'
  hinb26_4 : ∀ (i : grid26.Coords) a, (cc26_transform_4 i a + 1) * S1x1024.size a ≤ S1x8192.size a
  hwx26_4 : ∀ i : grid26.Coords, EltTy.bits .f32 = 32 ∨ (Rect.block (s := S1x8192) S1x1024.size (cc26_transform_4 i) (hinb26_4 i)).WholeWords (EltTy.packing .f32)
  hstage26_5 : ∀ j, (stage26_5 j).IsWhole
  nbuf26_5 : grid26.bufCount reads26_5 false = 2
  hreads26_5 : ∀ i i' : grid26.Coords, (∀ a, reads26_5 a = true → i a = i' a) → cc26_transform_5 i = cc26_transform_5 i'
  hinb26_5 : ∀ (i : grid26.Coords) a, (cc26_transform_5 i a + 1) * S1x1024.size a ≤ S1x8192.size a
  hwx26_5 : ∀ i : grid26.Coords, EltTy.bits .f32 = 32 ∨ (Rect.block (s := S1x8192) S1x1024.size (cc26_transform_5 i) (hinb26_5 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S1024x8192.size a ≤ S8192x8192.size a
  hwx27_0 : ∀ i : grid27.Coords, EltTy.bits .bf16 = 32 ∨ (Rect.block (s := S8192x8192) S1024x8192.size (cc27_transform_0 i) (hinb27_0 i)).WholeWords (EltTy.packing .bf16)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S1x8192.size a ≤ S1x8192.size a
  hwx27_1 : ∀ i : grid27.Coords, EltTy.bits .f32 = 32 ∨ (Rect.block (s := S1x8192) S1x8192.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x1.size a ≤ S1x1.size a
  hwx27_2 : ∀ i : grid27.Coords, EltTy.bits .f32 = 32 ∨ (Rect.block (s := S1x1) S1x1.size (cc27_transform_2 i) (hinb27_2 i)).WholeWords (EltTy.packing .f32)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S1x1024.size a ≤ S1x8192.size a
  hwx27_3 : ∀ i : grid27.Coords, EltTy.bits .f32 = 32 ∨ (Rect.block (s := S1x8192) S1x1024.size (cc27_transform_3 i) (hinb27_3 i)).WholeWords (EltTy.packing .f32)
  hstage27_4 : ∀ j, (stage27_4 j).IsWhole
  nbuf27_4 : grid27.bufCount reads27_4 false = 2
  hreads27_4 : ∀ i i' : grid27.Coords, (∀ a, reads27_4 a = true → i a = i' a) → cc27_transform_4 i = cc27_transform_4 i'
  hinb27_4 : ∀ (i : grid27.Coords) a, (cc27_transform_4 i a + 1) * S1x1024.size a ≤ S1x8192.size a
  hwx27_4 : ∀ i : grid27.Coords, EltTy.bits .f32 = 32 ∨ (Rect.block (s := S1x8192) S1x1024.size (cc27_transform_4 i) (hinb27_4 i)).WholeWords (EltTy.packing .f32)
  hstage27_5 : ∀ j, (stage27_5 j).IsWhole
  nbuf27_5 : grid27.bufCount reads27_5 false = 2
  hreads27_5 : ∀ i i' : grid27.Coords, (∀ a, reads27_5 a = true → i a = i' a) → cc27_transform_5 i = cc27_transform_5 i'
  hinb27_5 : ∀ (i : grid27.Coords) a, (cc27_transform_5 i a + 1) * S1x1024.size a ≤ S1x8192.size a
  hwx27_5 : ∀ i : grid27.Coords, EltTy.bits .f32 = 32 ∨ (Rect.block (s := S1x8192) S1x1024.size (cc27_transform_5 i) (hinb27_5 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1024x8192.size a ≤ S8192x8192.size a
  hwx28_0 : ∀ i : grid28.Coords, EltTy.bits .bf16 = 32 ∨ (Rect.block (s := S8192x8192) S1024x8192.size (cc28_transform_0 i) (hinb28_0 i)).WholeWords (EltTy.packing .bf16)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S1x8192.size a ≤ S1x8192.size a
  hwx28_1 : ∀ i : grid28.Coords, EltTy.bits .f32 = 32 ∨ (Rect.block (s := S1x8192) S1x8192.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x1.size a ≤ S1x1.size a
  hwx28_2 : ∀ i : grid28.Coords, EltTy.bits .f32 = 32 ∨ (Rect.block (s := S1x1) S1x1.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S1x1024.size a ≤ S1x8192.size a
  hwx28_3 : ∀ i : grid28.Coords, EltTy.bits .f32 = 32 ∨ (Rect.block (s := S1x8192) S1x1024.size (cc28_transform_3 i) (hinb28_3 i)).WholeWords (EltTy.packing .f32)
  hstage28_4 : ∀ j, (stage28_4 j).IsWhole
  nbuf28_4 : grid28.bufCount reads28_4 false = 2
  hreads28_4 : ∀ i i' : grid28.Coords, (∀ a, reads28_4 a = true → i a = i' a) → cc28_transform_4 i = cc28_transform_4 i'
  hinb28_4 : ∀ (i : grid28.Coords) a, (cc28_transform_4 i a + 1) * S1x1024.size a ≤ S1x8192.size a
  hwx28_4 : ∀ i : grid28.Coords, EltTy.bits .f32 = 32 ∨ (Rect.block (s := S1x8192) S1x1024.size (cc28_transform_4 i) (hinb28_4 i)).WholeWords (EltTy.packing .f32)
  hstage28_5 : ∀ j, (stage28_5 j).IsWhole
  nbuf28_5 : grid28.bufCount reads28_5 false = 2
  hreads28_5 : ∀ i i' : grid28.Coords, (∀ a, reads28_5 a = true → i a = i' a) → cc28_transform_5 i = cc28_transform_5 i'
  hinb28_5 : ∀ (i : grid28.Coords) a, (cc28_transform_5 i a + 1) * S1x1024.size a ≤ S1x8192.size a
  hwx28_5 : ∀ i : grid28.Coords, EltTy.bits .f32 = 32 ∨ (Rect.block (s := S1x8192) S1x1024.size (cc28_transform_5 i) (hinb28_5 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S1024x8192.size a ≤ S8192x8192.size a
  hwx29_0 : ∀ i : grid29.Coords, EltTy.bits .bf16 = 32 ∨ (Rect.block (s := S8192x8192) S1024x8192.size (cc29_transform_0 i) (hinb29_0 i)).WholeWords (EltTy.packing .bf16)
  hstage29_1 : ∀ j, (stage29_1 j).IsWhole
  nbuf29_1 : grid29.bufCount reads29_1 true = 1
  hreads29_1 : ∀ i i' : grid29.Coords, (∀ a, reads29_1 a = true → i a = i' a) → cc29_transform_1 i = cc29_transform_1 i'
  hinb29_1 : ∀ (i : grid29.Coords) a, (cc29_transform_1 i a + 1) * S1x8192.size a ≤ S1x8192.size a
  hwx29_1 : ∀ i : grid29.Coords, EltTy.bits .f32 = 32 ∨ (Rect.block (s := S1x8192) S1x8192.size (cc29_transform_1 i) (hinb29_1 i)).WholeWords (EltTy.packing .f32)
  hstage29_2 : ∀ j, (stage29_2 j).IsWhole
  nbuf29_2 : grid29.bufCount reads29_2 true = 1
  hreads29_2 : ∀ i i' : grid29.Coords, (∀ a, reads29_2 a = true → i a = i' a) → cc29_transform_2 i = cc29_transform_2 i'
  hinb29_2 : ∀ (i : grid29.Coords) a, (cc29_transform_2 i a + 1) * S1x1.size a ≤ S1x1.size a
  hwx29_2 : ∀ i : grid29.Coords, EltTy.bits .f32 = 32 ∨ (Rect.block (s := S1x1) S1x1.size (cc29_transform_2 i) (hinb29_2 i)).WholeWords (EltTy.packing .f32)
  hstage29_3 : ∀ j, (stage29_3 j).IsWhole
  nbuf29_3 : grid29.bufCount reads29_3 false = 2
  hreads29_3 : ∀ i i' : grid29.Coords, (∀ a, reads29_3 a = true → i a = i' a) → cc29_transform_3 i = cc29_transform_3 i'
  hinb29_3 : ∀ (i : grid29.Coords) a, (cc29_transform_3 i a + 1) * S1x1024.size a ≤ S1x8192.size a
  hwx29_3 : ∀ i : grid29.Coords, EltTy.bits .f32 = 32 ∨ (Rect.block (s := S1x8192) S1x1024.size (cc29_transform_3 i) (hinb29_3 i)).WholeWords (EltTy.packing .f32)
  hstage29_4 : ∀ j, (stage29_4 j).IsWhole
  nbuf29_4 : grid29.bufCount reads29_4 false = 2
  hreads29_4 : ∀ i i' : grid29.Coords, (∀ a, reads29_4 a = true → i a = i' a) → cc29_transform_4 i = cc29_transform_4 i'
  hinb29_4 : ∀ (i : grid29.Coords) a, (cc29_transform_4 i a + 1) * S1x1024.size a ≤ S1x8192.size a
  hwx29_4 : ∀ i : grid29.Coords, EltTy.bits .f32 = 32 ∨ (Rect.block (s := S1x8192) S1x1024.size (cc29_transform_4 i) (hinb29_4 i)).WholeWords (EltTy.packing .f32)
  hstage29_5 : ∀ j, (stage29_5 j).IsWhole
  nbuf29_5 : grid29.bufCount reads29_5 false = 2
  hreads29_5 : ∀ i i' : grid29.Coords, (∀ a, reads29_5 a = true → i a = i' a) → cc29_transform_5 i = cc29_transform_5 i'
  hinb29_5 : ∀ (i : grid29.Coords) a, (cc29_transform_5 i a + 1) * S1x1024.size a ≤ S1x8192.size a
  hwx29_5 : ∀ i : grid29.Coords, EltTy.bits .f32 = 32 ∨ (Rect.block (s := S1x8192) S1x1024.size (cc29_transform_5 i) (hinb29_5 i)).WholeWords (EltTy.packing .f32)

class K30.Facts₀ : Prop where
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S1024x8192.size a ≤ S8192x8192.size a
  hwx30_0 : ∀ i : grid30.Coords, EltTy.bits .bf16 = 32 ∨ (Rect.block (s := S8192x8192) S1024x8192.size (cc30_transform_0 i) (hinb30_0 i)).WholeWords (EltTy.packing .bf16)
  hstage30_1 : ∀ j, (stage30_1 j).IsWhole
  nbuf30_1 : grid30.bufCount reads30_1 true = 1
  hreads30_1 : ∀ i i' : grid30.Coords, (∀ a, reads30_1 a = true → i a = i' a) → cc30_transform_1 i = cc30_transform_1 i'
  hinb30_1 : ∀ (i : grid30.Coords) a, (cc30_transform_1 i a + 1) * S1x8192.size a ≤ S1x8192.size a
  hwx30_1 : ∀ i : grid30.Coords, EltTy.bits .f32 = 32 ∨ (Rect.block (s := S1x8192) S1x8192.size (cc30_transform_1 i) (hinb30_1 i)).WholeWords (EltTy.packing .f32)
  hstage30_2 : ∀ j, (stage30_2 j).IsWhole
  nbuf30_2 : grid30.bufCount reads30_2 true = 1
  hreads30_2 : ∀ i i' : grid30.Coords, (∀ a, reads30_2 a = true → i a = i' a) → cc30_transform_2 i = cc30_transform_2 i'
  hinb30_2 : ∀ (i : grid30.Coords) a, (cc30_transform_2 i a + 1) * S1x1.size a ≤ S1x1.size a
  hwx30_2 : ∀ i : grid30.Coords, EltTy.bits .f32 = 32 ∨ (Rect.block (s := S1x1) S1x1.size (cc30_transform_2 i) (hinb30_2 i)).WholeWords (EltTy.packing .f32)
  hstage30_3 : ∀ j, (stage30_3 j).IsWhole
  nbuf30_3 : grid30.bufCount reads30_3 false = 2
  hreads30_3 : ∀ i i' : grid30.Coords, (∀ a, reads30_3 a = true → i a = i' a) → cc30_transform_3 i = cc30_transform_3 i'
  hinb30_3 : ∀ (i : grid30.Coords) a, (cc30_transform_3 i a + 1) * S1x1024.size a ≤ S1x8192.size a
  hwx30_3 : ∀ i : grid30.Coords, EltTy.bits .f32 = 32 ∨ (Rect.block (s := S1x8192) S1x1024.size (cc30_transform_3 i) (hinb30_3 i)).WholeWords (EltTy.packing .f32)
  hstage30_4 : ∀ j, (stage30_4 j).IsWhole
  nbuf30_4 : grid30.bufCount reads30_4 false = 2
  hreads30_4 : ∀ i i' : grid30.Coords, (∀ a, reads30_4 a = true → i a = i' a) → cc30_transform_4 i = cc30_transform_4 i'
  hinb30_4 : ∀ (i : grid30.Coords) a, (cc30_transform_4 i a + 1) * S1x1024.size a ≤ S1x8192.size a
  hwx30_4 : ∀ i : grid30.Coords, EltTy.bits .f32 = 32 ∨ (Rect.block (s := S1x8192) S1x1024.size (cc30_transform_4 i) (hinb30_4 i)).WholeWords (EltTy.packing .f32)
  hstage30_5 : ∀ j, (stage30_5 j).IsWhole
  nbuf30_5 : grid30.bufCount reads30_5 false = 2
  hreads30_5 : ∀ i i' : grid30.Coords, (∀ a, reads30_5 a = true → i a = i' a) → cc30_transform_5 i = cc30_transform_5 i'
  hinb30_5 : ∀ (i : grid30.Coords) a, (cc30_transform_5 i a + 1) * S1x1024.size a ≤ S1x8192.size a
  hwx30_5 : ∀ i : grid30.Coords, EltTy.bits .f32 = 32 ∨ (Rect.block (s := S1x8192) S1x1024.size (cc30_transform_5 i) (hinb30_5 i)).WholeWords (EltTy.packing .f32)

class K31.Facts₀ : Prop where
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S1024x8192.size a ≤ S8192x8192.size a
  hwx31_0 : ∀ i : grid31.Coords, EltTy.bits .bf16 = 32 ∨ (Rect.block (s := S8192x8192) S1024x8192.size (cc31_transform_0 i) (hinb31_0 i)).WholeWords (EltTy.packing .bf16)
  hstage31_1 : ∀ j, (stage31_1 j).IsWhole
  nbuf31_1 : grid31.bufCount reads31_1 true = 1
  hreads31_1 : ∀ i i' : grid31.Coords, (∀ a, reads31_1 a = true → i a = i' a) → cc31_transform_1 i = cc31_transform_1 i'
  hinb31_1 : ∀ (i : grid31.Coords) a, (cc31_transform_1 i a + 1) * S1x8192.size a ≤ S1x8192.size a
  hwx31_1 : ∀ i : grid31.Coords, EltTy.bits .f32 = 32 ∨ (Rect.block (s := S1x8192) S1x8192.size (cc31_transform_1 i) (hinb31_1 i)).WholeWords (EltTy.packing .f32)
  hstage31_2 : ∀ j, (stage31_2 j).IsWhole
  nbuf31_2 : grid31.bufCount reads31_2 true = 1
  hreads31_2 : ∀ i i' : grid31.Coords, (∀ a, reads31_2 a = true → i a = i' a) → cc31_transform_2 i = cc31_transform_2 i'
  hinb31_2 : ∀ (i : grid31.Coords) a, (cc31_transform_2 i a + 1) * S1x1.size a ≤ S1x1.size a
  hwx31_2 : ∀ i : grid31.Coords, EltTy.bits .f32 = 32 ∨ (Rect.block (s := S1x1) S1x1.size (cc31_transform_2 i) (hinb31_2 i)).WholeWords (EltTy.packing .f32)
  hstage31_3 : ∀ j, (stage31_3 j).IsWhole
  nbuf31_3 : grid31.bufCount reads31_3 false = 2
  hreads31_3 : ∀ i i' : grid31.Coords, (∀ a, reads31_3 a = true → i a = i' a) → cc31_transform_3 i = cc31_transform_3 i'
  hinb31_3 : ∀ (i : grid31.Coords) a, (cc31_transform_3 i a + 1) * S1x1024.size a ≤ S1x8192.size a
  hwx31_3 : ∀ i : grid31.Coords, EltTy.bits .f32 = 32 ∨ (Rect.block (s := S1x8192) S1x1024.size (cc31_transform_3 i) (hinb31_3 i)).WholeWords (EltTy.packing .f32)
  hstage31_4 : ∀ j, (stage31_4 j).IsWhole
  nbuf31_4 : grid31.bufCount reads31_4 false = 2
  hreads31_4 : ∀ i i' : grid31.Coords, (∀ a, reads31_4 a = true → i a = i' a) → cc31_transform_4 i = cc31_transform_4 i'
  hinb31_4 : ∀ (i : grid31.Coords) a, (cc31_transform_4 i a + 1) * S1x1024.size a ≤ S1x8192.size a
  hwx31_4 : ∀ i : grid31.Coords, EltTy.bits .f32 = 32 ∨ (Rect.block (s := S1x8192) S1x1024.size (cc31_transform_4 i) (hinb31_4 i)).WholeWords (EltTy.packing .f32)
  hstage31_5 : ∀ j, (stage31_5 j).IsWhole
  nbuf31_5 : grid31.bufCount reads31_5 false = 2
  hreads31_5 : ∀ i i' : grid31.Coords, (∀ a, reads31_5 a = true → i a = i' a) → cc31_transform_5 i = cc31_transform_5 i'
  hinb31_5 : ∀ (i : grid31.Coords) a, (cc31_transform_5 i a + 1) * S1x1024.size a ≤ S1x8192.size a
  hwx31_5 : ∀ i : grid31.Coords, EltTy.bits .f32 = 32 ∨ (Rect.block (s := S1x8192) S1x1024.size (cc31_transform_5 i) (hinb31_5 i)).WholeWords (EltTy.packing .f32)

class K32.Facts₀ : Prop where
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S1024x8192.size a ≤ S8192x8192.size a
  hwx32_0 : ∀ i : grid32.Coords, EltTy.bits .bf16 = 32 ∨ (Rect.block (s := S8192x8192) S1024x8192.size (cc32_transform_0 i) (hinb32_0 i)).WholeWords (EltTy.packing .bf16)
  hstage32_1 : ∀ j, (stage32_1 j).IsWhole
  nbuf32_1 : grid32.bufCount reads32_1 true = 1
  hreads32_1 : ∀ i i' : grid32.Coords, (∀ a, reads32_1 a = true → i a = i' a) → cc32_transform_1 i = cc32_transform_1 i'
  hinb32_1 : ∀ (i : grid32.Coords) a, (cc32_transform_1 i a + 1) * S1x8192.size a ≤ S1x8192.size a
  hwx32_1 : ∀ i : grid32.Coords, EltTy.bits .f32 = 32 ∨ (Rect.block (s := S1x8192) S1x8192.size (cc32_transform_1 i) (hinb32_1 i)).WholeWords (EltTy.packing .f32)
  hstage32_2 : ∀ j, (stage32_2 j).IsWhole
  nbuf32_2 : grid32.bufCount reads32_2 true = 1
  hreads32_2 : ∀ i i' : grid32.Coords, (∀ a, reads32_2 a = true → i a = i' a) → cc32_transform_2 i = cc32_transform_2 i'
  hinb32_2 : ∀ (i : grid32.Coords) a, (cc32_transform_2 i a + 1) * S1x1.size a ≤ S1x1.size a
  hwx32_2 : ∀ i : grid32.Coords, EltTy.bits .f32 = 32 ∨ (Rect.block (s := S1x1) S1x1.size (cc32_transform_2 i) (hinb32_2 i)).WholeWords (EltTy.packing .f32)
  hstage32_3 : ∀ j, (stage32_3 j).IsWhole
  nbuf32_3 : grid32.bufCount reads32_3 false = 2
  hreads32_3 : ∀ i i' : grid32.Coords, (∀ a, reads32_3 a = true → i a = i' a) → cc32_transform_3 i = cc32_transform_3 i'
  hinb32_3 : ∀ (i : grid32.Coords) a, (cc32_transform_3 i a + 1) * S1x1024.size a ≤ S1x8192.size a
  hwx32_3 : ∀ i : grid32.Coords, EltTy.bits .f32 = 32 ∨ (Rect.block (s := S1x8192) S1x1024.size (cc32_transform_3 i) (hinb32_3 i)).WholeWords (EltTy.packing .f32)
  hstage32_4 : ∀ j, (stage32_4 j).IsWhole
  nbuf32_4 : grid32.bufCount reads32_4 false = 2
  hreads32_4 : ∀ i i' : grid32.Coords, (∀ a, reads32_4 a = true → i a = i' a) → cc32_transform_4 i = cc32_transform_4 i'
  hinb32_4 : ∀ (i : grid32.Coords) a, (cc32_transform_4 i a + 1) * S1x1024.size a ≤ S1x8192.size a
  hwx32_4 : ∀ i : grid32.Coords, EltTy.bits .f32 = 32 ∨ (Rect.block (s := S1x8192) S1x1024.size (cc32_transform_4 i) (hinb32_4 i)).WholeWords (EltTy.packing .f32)
  hstage32_5 : ∀ j, (stage32_5 j).IsWhole
  nbuf32_5 : grid32.bufCount reads32_5 false = 2
  hreads32_5 : ∀ i i' : grid32.Coords, (∀ a, reads32_5 a = true → i a = i' a) → cc32_transform_5 i = cc32_transform_5 i'
  hinb32_5 : ∀ (i : grid32.Coords) a, (cc32_transform_5 i a + 1) * S1x1024.size a ≤ S1x8192.size a
  hwx32_5 : ∀ i : grid32.Coords, EltTy.bits .f32 = 32 ∨ (Rect.block (s := S1x8192) S1x1024.size (cc32_transform_5 i) (hinb32_5 i)).WholeWords (EltTy.packing .f32)

class K33.Facts₀ : Prop where
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S1024x8192.size a ≤ S8192x8192.size a
  hwx33_0 : ∀ i : grid33.Coords, EltTy.bits .bf16 = 32 ∨ (Rect.block (s := S8192x8192) S1024x8192.size (cc33_transform_0 i) (hinb33_0 i)).WholeWords (EltTy.packing .bf16)
  hstage33_1 : ∀ j, (stage33_1 j).IsWhole
  nbuf33_1 : grid33.bufCount reads33_1 true = 1
  hreads33_1 : ∀ i i' : grid33.Coords, (∀ a, reads33_1 a = true → i a = i' a) → cc33_transform_1 i = cc33_transform_1 i'
  hinb33_1 : ∀ (i : grid33.Coords) a, (cc33_transform_1 i a + 1) * S1x8192.size a ≤ S1x8192.size a
  hwx33_1 : ∀ i : grid33.Coords, EltTy.bits .f32 = 32 ∨ (Rect.block (s := S1x8192) S1x8192.size (cc33_transform_1 i) (hinb33_1 i)).WholeWords (EltTy.packing .f32)
  hstage33_2 : ∀ j, (stage33_2 j).IsWhole
  nbuf33_2 : grid33.bufCount reads33_2 true = 1
  hreads33_2 : ∀ i i' : grid33.Coords, (∀ a, reads33_2 a = true → i a = i' a) → cc33_transform_2 i = cc33_transform_2 i'
  hinb33_2 : ∀ (i : grid33.Coords) a, (cc33_transform_2 i a + 1) * S1x1.size a ≤ S1x1.size a
  hwx33_2 : ∀ i : grid33.Coords, EltTy.bits .f32 = 32 ∨ (Rect.block (s := S1x1) S1x1.size (cc33_transform_2 i) (hinb33_2 i)).WholeWords (EltTy.packing .f32)
  hstage33_3 : ∀ j, (stage33_3 j).IsWhole
  nbuf33_3 : grid33.bufCount reads33_3 false = 2
  hreads33_3 : ∀ i i' : grid33.Coords, (∀ a, reads33_3 a = true → i a = i' a) → cc33_transform_3 i = cc33_transform_3 i'
  hinb33_3 : ∀ (i : grid33.Coords) a, (cc33_transform_3 i a + 1) * S1x1024.size a ≤ S1x8192.size a
  hwx33_3 : ∀ i : grid33.Coords, EltTy.bits .f32 = 32 ∨ (Rect.block (s := S1x8192) S1x1024.size (cc33_transform_3 i) (hinb33_3 i)).WholeWords (EltTy.packing .f32)
  hstage33_4 : ∀ j, (stage33_4 j).IsWhole
  nbuf33_4 : grid33.bufCount reads33_4 false = 2
  hreads33_4 : ∀ i i' : grid33.Coords, (∀ a, reads33_4 a = true → i a = i' a) → cc33_transform_4 i = cc33_transform_4 i'
  hinb33_4 : ∀ (i : grid33.Coords) a, (cc33_transform_4 i a + 1) * S1x1024.size a ≤ S1x8192.size a
  hwx33_4 : ∀ i : grid33.Coords, EltTy.bits .f32 = 32 ∨ (Rect.block (s := S1x8192) S1x1024.size (cc33_transform_4 i) (hinb33_4 i)).WholeWords (EltTy.packing .f32)
  hstage33_5 : ∀ j, (stage33_5 j).IsWhole
  nbuf33_5 : grid33.bufCount reads33_5 false = 2
  hreads33_5 : ∀ i i' : grid33.Coords, (∀ a, reads33_5 a = true → i a = i' a) → cc33_transform_5 i = cc33_transform_5 i'
  hinb33_5 : ∀ (i : grid33.Coords) a, (cc33_transform_5 i a + 1) * S1x1024.size a ≤ S1x8192.size a
  hwx33_5 : ∀ i : grid33.Coords, EltTy.bits .f32 = 32 ∨ (Rect.block (s := S1x8192) S1x1024.size (cc33_transform_5 i) (hinb33_5 i)).WholeWords (EltTy.packing .f32)

class K34.Facts₀ : Prop where
  hrank34 : 0 < grid34.rank
  hstage34_0 : ∀ j, (stage34_0 j).IsWhole
  nbuf34_0 : grid34.bufCount reads34_0 false = 2
  hreads34_0 : ∀ i i' : grid34.Coords, (∀ a, reads34_0 a = true → i a = i' a) → cc34_transform_0 i = cc34_transform_0 i'
  hinb34_0 : ∀ (i : grid34.Coords) a, (cc34_transform_0 i a + 1) * S1024x8192.size a ≤ S8192x8192.size a
  hwx34_0 : ∀ i : grid34.Coords, EltTy.bits .bf16 = 32 ∨ (Rect.block (s := S8192x8192) S1024x8192.size (cc34_transform_0 i) (hinb34_0 i)).WholeWords (EltTy.packing .bf16)
  hstage34_1 : ∀ j, (stage34_1 j).IsWhole
  nbuf34_1 : grid34.bufCount reads34_1 true = 1
  hreads34_1 : ∀ i i' : grid34.Coords, (∀ a, reads34_1 a = true → i a = i' a) → cc34_transform_1 i = cc34_transform_1 i'
  hinb34_1 : ∀ (i : grid34.Coords) a, (cc34_transform_1 i a + 1) * S1x8192.size a ≤ S1x8192.size a
  hwx34_1 : ∀ i : grid34.Coords, EltTy.bits .f32 = 32 ∨ (Rect.block (s := S1x8192) S1x8192.size (cc34_transform_1 i) (hinb34_1 i)).WholeWords (EltTy.packing .f32)
  hstage34_2 : ∀ j, (stage34_2 j).IsWhole
  nbuf34_2 : grid34.bufCount reads34_2 true = 1
  hreads34_2 : ∀ i i' : grid34.Coords, (∀ a, reads34_2 a = true → i a = i' a) → cc34_transform_2 i = cc34_transform_2 i'
  hinb34_2 : ∀ (i : grid34.Coords) a, (cc34_transform_2 i a + 1) * S1x1.size a ≤ S1x1.size a
  hwx34_2 : ∀ i : grid34.Coords, EltTy.bits .f32 = 32 ∨ (Rect.block (s := S1x1) S1x1.size (cc34_transform_2 i) (hinb34_2 i)).WholeWords (EltTy.packing .f32)
  hstage34_3 : ∀ j, (stage34_3 j).IsWhole
  nbuf34_3 : grid34.bufCount reads34_3 false = 2
  hreads34_3 : ∀ i i' : grid34.Coords, (∀ a, reads34_3 a = true → i a = i' a) → cc34_transform_3 i = cc34_transform_3 i'
  hinb34_3 : ∀ (i : grid34.Coords) a, (cc34_transform_3 i a + 1) * S1x1024.size a ≤ S1x8192.size a
  hwx34_3 : ∀ i : grid34.Coords, EltTy.bits .f32 = 32 ∨ (Rect.block (s := S1x8192) S1x1024.size (cc34_transform_3 i) (hinb34_3 i)).WholeWords (EltTy.packing .f32)
  hstage34_4 : ∀ j, (stage34_4 j).IsWhole
  nbuf34_4 : grid34.bufCount reads34_4 false = 2
  hreads34_4 : ∀ i i' : grid34.Coords, (∀ a, reads34_4 a = true → i a = i' a) → cc34_transform_4 i = cc34_transform_4 i'
  hinb34_4 : ∀ (i : grid34.Coords) a, (cc34_transform_4 i a + 1) * S1x1024.size a ≤ S1x8192.size a
  hwx34_4 : ∀ i : grid34.Coords, EltTy.bits .f32 = 32 ∨ (Rect.block (s := S1x8192) S1x1024.size (cc34_transform_4 i) (hinb34_4 i)).WholeWords (EltTy.packing .f32)
  hstage34_5 : ∀ j, (stage34_5 j).IsWhole
  nbuf34_5 : grid34.bufCount reads34_5 false = 2
  hreads34_5 : ∀ i i' : grid34.Coords, (∀ a, reads34_5 a = true → i a = i' a) → cc34_transform_5 i = cc34_transform_5 i'
  hinb34_5 : ∀ (i : grid34.Coords) a, (cc34_transform_5 i a + 1) * S1x1024.size a ≤ S1x8192.size a
  hwx34_5 : ∀ i : grid34.Coords, EltTy.bits .f32 = 32 ∨ (Rect.block (s := S1x8192) S1x1024.size (cc34_transform_5 i) (hinb34_5 i)).WholeWords (EltTy.packing .f32)

class K35.Facts₀ : Prop where
  hrank35 : 0 < grid35.rank
  hstage35_0 : ∀ j, (stage35_0 j).IsWhole
  nbuf35_0 : grid35.bufCount reads35_0 false = 2
  hreads35_0 : ∀ i i' : grid35.Coords, (∀ a, reads35_0 a = true → i a = i' a) → cc35_transform_0 i = cc35_transform_0 i'
  hinb35_0 : ∀ (i : grid35.Coords) a, (cc35_transform_0 i a + 1) * S1024x8192.size a ≤ S8192x8192.size a
  hwx35_0 : ∀ i : grid35.Coords, EltTy.bits .bf16 = 32 ∨ (Rect.block (s := S8192x8192) S1024x8192.size (cc35_transform_0 i) (hinb35_0 i)).WholeWords (EltTy.packing .bf16)
  hstage35_1 : ∀ j, (stage35_1 j).IsWhole
  nbuf35_1 : grid35.bufCount reads35_1 true = 1
  hreads35_1 : ∀ i i' : grid35.Coords, (∀ a, reads35_1 a = true → i a = i' a) → cc35_transform_1 i = cc35_transform_1 i'
  hinb35_1 : ∀ (i : grid35.Coords) a, (cc35_transform_1 i a + 1) * S1x8192.size a ≤ S1x8192.size a
  hwx35_1 : ∀ i : grid35.Coords, EltTy.bits .f32 = 32 ∨ (Rect.block (s := S1x8192) S1x8192.size (cc35_transform_1 i) (hinb35_1 i)).WholeWords (EltTy.packing .f32)
  hstage35_2 : ∀ j, (stage35_2 j).IsWhole
  nbuf35_2 : grid35.bufCount reads35_2 true = 1
  hreads35_2 : ∀ i i' : grid35.Coords, (∀ a, reads35_2 a = true → i a = i' a) → cc35_transform_2 i = cc35_transform_2 i'
  hinb35_2 : ∀ (i : grid35.Coords) a, (cc35_transform_2 i a + 1) * S1x1.size a ≤ S1x1.size a
  hwx35_2 : ∀ i : grid35.Coords, EltTy.bits .f32 = 32 ∨ (Rect.block (s := S1x1) S1x1.size (cc35_transform_2 i) (hinb35_2 i)).WholeWords (EltTy.packing .f32)
  hstage35_3 : ∀ j, (stage35_3 j).IsWhole
  nbuf35_3 : grid35.bufCount reads35_3 false = 2
  hreads35_3 : ∀ i i' : grid35.Coords, (∀ a, reads35_3 a = true → i a = i' a) → cc35_transform_3 i = cc35_transform_3 i'
  hinb35_3 : ∀ (i : grid35.Coords) a, (cc35_transform_3 i a + 1) * S1x1024.size a ≤ S1x8192.size a
  hwx35_3 : ∀ i : grid35.Coords, EltTy.bits .f32 = 32 ∨ (Rect.block (s := S1x8192) S1x1024.size (cc35_transform_3 i) (hinb35_3 i)).WholeWords (EltTy.packing .f32)
  hstage35_4 : ∀ j, (stage35_4 j).IsWhole
  nbuf35_4 : grid35.bufCount reads35_4 false = 2
  hreads35_4 : ∀ i i' : grid35.Coords, (∀ a, reads35_4 a = true → i a = i' a) → cc35_transform_4 i = cc35_transform_4 i'
  hinb35_4 : ∀ (i : grid35.Coords) a, (cc35_transform_4 i a + 1) * S1x1024.size a ≤ S1x8192.size a
  hwx35_4 : ∀ i : grid35.Coords, EltTy.bits .f32 = 32 ∨ (Rect.block (s := S1x8192) S1x1024.size (cc35_transform_4 i) (hinb35_4 i)).WholeWords (EltTy.packing .f32)
  hstage35_5 : ∀ j, (stage35_5 j).IsWhole
  nbuf35_5 : grid35.bufCount reads35_5 false = 2
  hreads35_5 : ∀ i i' : grid35.Coords, (∀ a, reads35_5 a = true → i a = i' a) → cc35_transform_5 i = cc35_transform_5 i'
  hinb35_5 : ∀ (i : grid35.Coords) a, (cc35_transform_5 i a + 1) * S1x1024.size a ≤ S1x8192.size a
  hwx35_5 : ∀ i : grid35.Coords, EltTy.bits .f32 = 32 ∨ (Rect.block (s := S1x8192) S1x1024.size (cc35_transform_5 i) (hinb35_5 i)).WholeWords (EltTy.packing .f32)

class K36.Facts₀ : Prop where
  hrank36 : 0 < grid36.rank
  hstage36_0 : ∀ j, (stage36_0 j).IsWhole
  nbuf36_0 : grid36.bufCount reads36_0 false = 2
  hreads36_0 : ∀ i i' : grid36.Coords, (∀ a, reads36_0 a = true → i a = i' a) → cc36_transform_0 i = cc36_transform_0 i'
  hinb36_0 : ∀ (i : grid36.Coords) a, (cc36_transform_0 i a + 1) * S1024x8192.size a ≤ S8192x8192.size a
  hwx36_0 : ∀ i : grid36.Coords, EltTy.bits .bf16 = 32 ∨ (Rect.block (s := S8192x8192) S1024x8192.size (cc36_transform_0 i) (hinb36_0 i)).WholeWords (EltTy.packing .bf16)
  hstage36_1 : ∀ j, (stage36_1 j).IsWhole
  nbuf36_1 : grid36.bufCount reads36_1 true = 1
  hreads36_1 : ∀ i i' : grid36.Coords, (∀ a, reads36_1 a = true → i a = i' a) → cc36_transform_1 i = cc36_transform_1 i'
  hinb36_1 : ∀ (i : grid36.Coords) a, (cc36_transform_1 i a + 1) * S1x8192.size a ≤ S1x8192.size a
  hwx36_1 : ∀ i : grid36.Coords, EltTy.bits .f32 = 32 ∨ (Rect.block (s := S1x8192) S1x8192.size (cc36_transform_1 i) (hinb36_1 i)).WholeWords (EltTy.packing .f32)
  hstage36_2 : ∀ j, (stage36_2 j).IsWhole
  nbuf36_2 : grid36.bufCount reads36_2 true = 1
  hreads36_2 : ∀ i i' : grid36.Coords, (∀ a, reads36_2 a = true → i a = i' a) → cc36_transform_2 i = cc36_transform_2 i'
  hinb36_2 : ∀ (i : grid36.Coords) a, (cc36_transform_2 i a + 1) * S1x1.size a ≤ S1x1.size a
  hwx36_2 : ∀ i : grid36.Coords, EltTy.bits .f32 = 32 ∨ (Rect.block (s := S1x1) S1x1.size (cc36_transform_2 i) (hinb36_2 i)).WholeWords (EltTy.packing .f32)
  hstage36_3 : ∀ j, (stage36_3 j).IsWhole
  nbuf36_3 : grid36.bufCount reads36_3 false = 2
  hreads36_3 : ∀ i i' : grid36.Coords, (∀ a, reads36_3 a = true → i a = i' a) → cc36_transform_3 i = cc36_transform_3 i'
  hinb36_3 : ∀ (i : grid36.Coords) a, (cc36_transform_3 i a + 1) * S1x1024.size a ≤ S1x8192.size a
  hwx36_3 : ∀ i : grid36.Coords, EltTy.bits .f32 = 32 ∨ (Rect.block (s := S1x8192) S1x1024.size (cc36_transform_3 i) (hinb36_3 i)).WholeWords (EltTy.packing .f32)
  hstage36_4 : ∀ j, (stage36_4 j).IsWhole
  nbuf36_4 : grid36.bufCount reads36_4 false = 2
  hreads36_4 : ∀ i i' : grid36.Coords, (∀ a, reads36_4 a = true → i a = i' a) → cc36_transform_4 i = cc36_transform_4 i'
  hinb36_4 : ∀ (i : grid36.Coords) a, (cc36_transform_4 i a + 1) * S1x1024.size a ≤ S1x8192.size a
  hwx36_4 : ∀ i : grid36.Coords, EltTy.bits .f32 = 32 ∨ (Rect.block (s := S1x8192) S1x1024.size (cc36_transform_4 i) (hinb36_4 i)).WholeWords (EltTy.packing .f32)
  hstage36_5 : ∀ j, (stage36_5 j).IsWhole
  nbuf36_5 : grid36.bufCount reads36_5 false = 2
  hreads36_5 : ∀ i i' : grid36.Coords, (∀ a, reads36_5 a = true → i a = i' a) → cc36_transform_5 i = cc36_transform_5 i'
  hinb36_5 : ∀ (i : grid36.Coords) a, (cc36_transform_5 i a + 1) * S1x1024.size a ≤ S1x8192.size a
  hwx36_5 : ∀ i : grid36.Coords, EltTy.bits .f32 = 32 ∨ (Rect.block (s := S1x8192) S1x1024.size (cc36_transform_5 i) (hinb36_5 i)).WholeWords (EltTy.packing .f32)

class K37.Facts₀ : Prop where
  hrank37 : 0 < grid37.rank
  hstage37_0 : ∀ j, (stage37_0 j).IsWhole
  nbuf37_0 : grid37.bufCount reads37_0 false = 2
  hreads37_0 : ∀ i i' : grid37.Coords, (∀ a, reads37_0 a = true → i a = i' a) → cc37_transform_0 i = cc37_transform_0 i'
  hinb37_0 : ∀ (i : grid37.Coords) a, (cc37_transform_0 i a + 1) * S1024x8192.size a ≤ S8192x8192.size a
  hwx37_0 : ∀ i : grid37.Coords, EltTy.bits .bf16 = 32 ∨ (Rect.block (s := S8192x8192) S1024x8192.size (cc37_transform_0 i) (hinb37_0 i)).WholeWords (EltTy.packing .bf16)
  hstage37_1 : ∀ j, (stage37_1 j).IsWhole
  nbuf37_1 : grid37.bufCount reads37_1 true = 1
  hreads37_1 : ∀ i i' : grid37.Coords, (∀ a, reads37_1 a = true → i a = i' a) → cc37_transform_1 i = cc37_transform_1 i'
  hinb37_1 : ∀ (i : grid37.Coords) a, (cc37_transform_1 i a + 1) * S1x8192.size a ≤ S1x8192.size a
  hwx37_1 : ∀ i : grid37.Coords, EltTy.bits .f32 = 32 ∨ (Rect.block (s := S1x8192) S1x8192.size (cc37_transform_1 i) (hinb37_1 i)).WholeWords (EltTy.packing .f32)
  hstage37_2 : ∀ j, (stage37_2 j).IsWhole
  nbuf37_2 : grid37.bufCount reads37_2 true = 1
  hreads37_2 : ∀ i i' : grid37.Coords, (∀ a, reads37_2 a = true → i a = i' a) → cc37_transform_2 i = cc37_transform_2 i'
  hinb37_2 : ∀ (i : grid37.Coords) a, (cc37_transform_2 i a + 1) * S1x1.size a ≤ S1x1.size a
  hwx37_2 : ∀ i : grid37.Coords, EltTy.bits .f32 = 32 ∨ (Rect.block (s := S1x1) S1x1.size (cc37_transform_2 i) (hinb37_2 i)).WholeWords (EltTy.packing .f32)
  hstage37_3 : ∀ j, (stage37_3 j).IsWhole
  nbuf37_3 : grid37.bufCount reads37_3 false = 2
  hreads37_3 : ∀ i i' : grid37.Coords, (∀ a, reads37_3 a = true → i a = i' a) → cc37_transform_3 i = cc37_transform_3 i'
  hinb37_3 : ∀ (i : grid37.Coords) a, (cc37_transform_3 i a + 1) * S1x1024.size a ≤ S1x8192.size a
  hwx37_3 : ∀ i : grid37.Coords, EltTy.bits .f32 = 32 ∨ (Rect.block (s := S1x8192) S1x1024.size (cc37_transform_3 i) (hinb37_3 i)).WholeWords (EltTy.packing .f32)
  hstage37_4 : ∀ j, (stage37_4 j).IsWhole
  nbuf37_4 : grid37.bufCount reads37_4 false = 2
  hreads37_4 : ∀ i i' : grid37.Coords, (∀ a, reads37_4 a = true → i a = i' a) → cc37_transform_4 i = cc37_transform_4 i'
  hinb37_4 : ∀ (i : grid37.Coords) a, (cc37_transform_4 i a + 1) * S1x1024.size a ≤ S1x8192.size a
  hwx37_4 : ∀ i : grid37.Coords, EltTy.bits .f32 = 32 ∨ (Rect.block (s := S1x8192) S1x1024.size (cc37_transform_4 i) (hinb37_4 i)).WholeWords (EltTy.packing .f32)
  hstage37_5 : ∀ j, (stage37_5 j).IsWhole
  nbuf37_5 : grid37.bufCount reads37_5 false = 2
  hreads37_5 : ∀ i i' : grid37.Coords, (∀ a, reads37_5 a = true → i a = i' a) → cc37_transform_5 i = cc37_transform_5 i'
  hinb37_5 : ∀ (i : grid37.Coords) a, (cc37_transform_5 i a + 1) * S1x1024.size a ≤ S1x8192.size a
  hwx37_5 : ∀ i : grid37.Coords, EltTy.bits .f32 = 32 ∨ (Rect.block (s := S1x8192) S1x1024.size (cc37_transform_5 i) (hinb37_5 i)).WholeWords (EltTy.packing .f32)

class K38.Facts₀ : Prop where
  hrank38 : 0 < grid38.rank
  hstage38_0 : ∀ j, (stage38_0 j).IsWhole
  nbuf38_0 : grid38.bufCount reads38_0 false = 2
  hreads38_0 : ∀ i i' : grid38.Coords, (∀ a, reads38_0 a = true → i a = i' a) → cc38_transform_0 i = cc38_transform_0 i'
  hinb38_0 : ∀ (i : grid38.Coords) a, (cc38_transform_0 i a + 1) * S1024x8192.size a ≤ S8192x8192.size a
  hwx38_0 : ∀ i : grid38.Coords, EltTy.bits .bf16 = 32 ∨ (Rect.block (s := S8192x8192) S1024x8192.size (cc38_transform_0 i) (hinb38_0 i)).WholeWords (EltTy.packing .bf16)
  hstage38_1 : ∀ j, (stage38_1 j).IsWhole
  nbuf38_1 : grid38.bufCount reads38_1 true = 1
  hreads38_1 : ∀ i i' : grid38.Coords, (∀ a, reads38_1 a = true → i a = i' a) → cc38_transform_1 i = cc38_transform_1 i'
  hinb38_1 : ∀ (i : grid38.Coords) a, (cc38_transform_1 i a + 1) * S1x8192.size a ≤ S1x8192.size a
  hwx38_1 : ∀ i : grid38.Coords, EltTy.bits .f32 = 32 ∨ (Rect.block (s := S1x8192) S1x8192.size (cc38_transform_1 i) (hinb38_1 i)).WholeWords (EltTy.packing .f32)
  hstage38_2 : ∀ j, (stage38_2 j).IsWhole
  nbuf38_2 : grid38.bufCount reads38_2 true = 1
  hreads38_2 : ∀ i i' : grid38.Coords, (∀ a, reads38_2 a = true → i a = i' a) → cc38_transform_2 i = cc38_transform_2 i'
  hinb38_2 : ∀ (i : grid38.Coords) a, (cc38_transform_2 i a + 1) * S1x1.size a ≤ S1x1.size a
  hwx38_2 : ∀ i : grid38.Coords, EltTy.bits .f32 = 32 ∨ (Rect.block (s := S1x1) S1x1.size (cc38_transform_2 i) (hinb38_2 i)).WholeWords (EltTy.packing .f32)
  hstage38_3 : ∀ j, (stage38_3 j).IsWhole
  nbuf38_3 : grid38.bufCount reads38_3 false = 2
  hreads38_3 : ∀ i i' : grid38.Coords, (∀ a, reads38_3 a = true → i a = i' a) → cc38_transform_3 i = cc38_transform_3 i'
  hinb38_3 : ∀ (i : grid38.Coords) a, (cc38_transform_3 i a + 1) * S1x1024.size a ≤ S1x8192.size a
  hwx38_3 : ∀ i : grid38.Coords, EltTy.bits .f32 = 32 ∨ (Rect.block (s := S1x8192) S1x1024.size (cc38_transform_3 i) (hinb38_3 i)).WholeWords (EltTy.packing .f32)
  hstage38_4 : ∀ j, (stage38_4 j).IsWhole
  nbuf38_4 : grid38.bufCount reads38_4 false = 2
  hreads38_4 : ∀ i i' : grid38.Coords, (∀ a, reads38_4 a = true → i a = i' a) → cc38_transform_4 i = cc38_transform_4 i'
  hinb38_4 : ∀ (i : grid38.Coords) a, (cc38_transform_4 i a + 1) * S1x1024.size a ≤ S1x8192.size a
  hwx38_4 : ∀ i : grid38.Coords, EltTy.bits .f32 = 32 ∨ (Rect.block (s := S1x8192) S1x1024.size (cc38_transform_4 i) (hinb38_4 i)).WholeWords (EltTy.packing .f32)
  hstage38_5 : ∀ j, (stage38_5 j).IsWhole
  nbuf38_5 : grid38.bufCount reads38_5 false = 2
  hreads38_5 : ∀ i i' : grid38.Coords, (∀ a, reads38_5 a = true → i a = i' a) → cc38_transform_5 i = cc38_transform_5 i'
  hinb38_5 : ∀ (i : grid38.Coords) a, (cc38_transform_5 i a + 1) * S1x1024.size a ≤ S1x8192.size a
  hwx38_5 : ∀ i : grid38.Coords, EltTy.bits .f32 = 32 ∨ (Rect.block (s := S1x8192) S1x1024.size (cc38_transform_5 i) (hinb38_5 i)).WholeWords (EltTy.packing .f32)

class K39.Facts₀ : Prop where
  hrank39 : 0 < grid39.rank
  hstage39_0 : ∀ j, (stage39_0 j).IsWhole
  nbuf39_0 : grid39.bufCount reads39_0 false = 2
  hreads39_0 : ∀ i i' : grid39.Coords, (∀ a, reads39_0 a = true → i a = i' a) → cc39_transform_0 i = cc39_transform_0 i'
  hinb39_0 : ∀ (i : grid39.Coords) a, (cc39_transform_0 i a + 1) * S1024x8192.size a ≤ S8192x8192.size a
  hwx39_0 : ∀ i : grid39.Coords, EltTy.bits .bf16 = 32 ∨ (Rect.block (s := S8192x8192) S1024x8192.size (cc39_transform_0 i) (hinb39_0 i)).WholeWords (EltTy.packing .bf16)
  hstage39_1 : ∀ j, (stage39_1 j).IsWhole
  nbuf39_1 : grid39.bufCount reads39_1 true = 1
  hreads39_1 : ∀ i i' : grid39.Coords, (∀ a, reads39_1 a = true → i a = i' a) → cc39_transform_1 i = cc39_transform_1 i'
  hinb39_1 : ∀ (i : grid39.Coords) a, (cc39_transform_1 i a + 1) * S1x8192.size a ≤ S1x8192.size a
  hwx39_1 : ∀ i : grid39.Coords, EltTy.bits .f32 = 32 ∨ (Rect.block (s := S1x8192) S1x8192.size (cc39_transform_1 i) (hinb39_1 i)).WholeWords (EltTy.packing .f32)
  hstage39_2 : ∀ j, (stage39_2 j).IsWhole
  nbuf39_2 : grid39.bufCount reads39_2 true = 1
  hreads39_2 : ∀ i i' : grid39.Coords, (∀ a, reads39_2 a = true → i a = i' a) → cc39_transform_2 i = cc39_transform_2 i'
  hinb39_2 : ∀ (i : grid39.Coords) a, (cc39_transform_2 i a + 1) * S1x1.size a ≤ S1x1.size a
  hwx39_2 : ∀ i : grid39.Coords, EltTy.bits .f32 = 32 ∨ (Rect.block (s := S1x1) S1x1.size (cc39_transform_2 i) (hinb39_2 i)).WholeWords (EltTy.packing .f32)
  hstage39_3 : ∀ j, (stage39_3 j).IsWhole
  nbuf39_3 : grid39.bufCount reads39_3 false = 2
  hreads39_3 : ∀ i i' : grid39.Coords, (∀ a, reads39_3 a = true → i a = i' a) → cc39_transform_3 i = cc39_transform_3 i'
  hinb39_3 : ∀ (i : grid39.Coords) a, (cc39_transform_3 i a + 1) * S1x1024.size a ≤ S1x8192.size a
  hwx39_3 : ∀ i : grid39.Coords, EltTy.bits .f32 = 32 ∨ (Rect.block (s := S1x8192) S1x1024.size (cc39_transform_3 i) (hinb39_3 i)).WholeWords (EltTy.packing .f32)
  hstage39_4 : ∀ j, (stage39_4 j).IsWhole
  nbuf39_4 : grid39.bufCount reads39_4 false = 2
  hreads39_4 : ∀ i i' : grid39.Coords, (∀ a, reads39_4 a = true → i a = i' a) → cc39_transform_4 i = cc39_transform_4 i'
  hinb39_4 : ∀ (i : grid39.Coords) a, (cc39_transform_4 i a + 1) * S1x1024.size a ≤ S1x8192.size a
  hwx39_4 : ∀ i : grid39.Coords, EltTy.bits .f32 = 32 ∨ (Rect.block (s := S1x8192) S1x1024.size (cc39_transform_4 i) (hinb39_4 i)).WholeWords (EltTy.packing .f32)
  hstage39_5 : ∀ j, (stage39_5 j).IsWhole
  nbuf39_5 : grid39.bufCount reads39_5 false = 2
  hreads39_5 : ∀ i i' : grid39.Coords, (∀ a, reads39_5 a = true → i a = i' a) → cc39_transform_5 i = cc39_transform_5 i'
  hinb39_5 : ∀ (i : grid39.Coords) a, (cc39_transform_5 i a + 1) * S1x1024.size a ≤ S1x8192.size a
  hwx39_5 : ∀ i : grid39.Coords, EltTy.bits .f32 = 32 ∨ (Rect.block (s := S1x8192) S1x1024.size (cc39_transform_5 i) (hinb39_5 i)).WholeWords (EltTy.packing .f32)

class Shapes1.Facts₀ : Prop where
  shapeCasts_S8192x1_S8192 : S8192x1.ShapeCasts S8192
  bcast_S_S8192 : S_.BroadcastsInDim S8192 (![] : Fin 0 → Fin S8192.rank)
  shapeCasts_S8192_S1x8192 : S8192.ShapeCasts S1x8192
  slices_S2x5x5_S1x1x1_0_0_0 : S2x5x5.Slices ![0, 0, 0] S1x1x1
  shapeCasts_S1x1x1_S_ : S1x1x1.ShapeCasts S_
  bcast_S_S1x8192 : S_.BroadcastsInDim S1x8192 (![] : Fin 0 → Fin S1x8192.rank)
  slices_S2x5x5_S1x1x1_0_0_1 : S2x5x5.Slices ![0, 0, 1] S1x1x1
  shapeCasts_S_S1x1 : S_.ShapeCasts S1x1
  slices_S2x5x5_S1x1x1_0_0_2 : S2x5x5.Slices ![0, 0, 2] S1x1x1
  slices_S2x5x5_S1x1x1_0_0_3 : S2x5x5.Slices ![0, 0, 3] S1x1x1
  slices_S2x5x5_S1x1x1_0_0_4 : S2x5x5.Slices ![0, 0, 4] S1x1x1
  reducesTo_S1x8192_S_d0_1 : S1x8192.ReducesTo [0, 1] S_
  h_S_ : 0 < S_.numel
  slices_S2x5x5_S1x1x1_0_1_0 : S2x5x5.Slices ![0, 1, 0] S1x1x1
  slices_S2x5x5_S1x1x1_0_1_1 : S2x5x5.Slices ![0, 1, 1] S1x1x1
  slices_S2x5x5_S1x1x1_0_1_2 : S2x5x5.Slices ![0, 1, 2] S1x1x1
  slices_S2x5x5_S1x1x1_0_1_3 : S2x5x5.Slices ![0, 1, 3] S1x1x1
  slices_S2x5x5_S1x1x1_0_1_4 : S2x5x5.Slices ![0, 1, 4] S1x1x1
  slices_S2x5x5_S1x1x1_0_2_0 : S2x5x5.Slices ![0, 2, 0] S1x1x1
  slices_S2x5x5_S1x1x1_0_2_1 : S2x5x5.Slices ![0, 2, 1] S1x1x1
  slices_S2x5x5_S1x1x1_0_2_2 : S2x5x5.Slices ![0, 2, 2] S1x1x1
  slices_S2x5x5_S1x1x1_0_2_3 : S2x5x5.Slices ![0, 2, 3] S1x1x1
  slices_S2x5x5_S1x1x1_0_2_4 : S2x5x5.Slices ![0, 2, 4] S1x1x1
  slices_S2x5x5_S1x1x1_0_3_0 : S2x5x5.Slices ![0, 3, 0] S1x1x1
  slices_S2x5x5_S1x1x1_0_3_1 : S2x5x5.Slices ![0, 3, 1] S1x1x1
  slices_S2x5x5_S1x1x1_0_3_2 : S2x5x5.Slices ![0, 3, 2] S1x1x1
  slices_S2x5x5_S1x1x1_0_3_3 : S2x5x5.Slices ![0, 3, 3] S1x1x1
  slices_S2x5x5_S1x1x1_0_3_4 : S2x5x5.Slices ![0, 3, 4] S1x1x1
  slices_S2x5x5_S1x1x1_0_4_0 : S2x5x5.Slices ![0, 4, 0] S1x1x1
  slices_S2x5x5_S1x1x1_0_4_1 : S2x5x5.Slices ![0, 4, 1] S1x1x1
  slices_S2x5x5_S1x1x1_0_4_2 : S2x5x5.Slices ![0, 4, 2] S1x1x1
  slices_S2x5x5_S1x1x1_0_4_3 : S2x5x5.Slices ![0, 4, 3] S1x1x1
  slices_S2x5x5_S1x1x1_0_4_4 : S2x5x5.Slices ![0, 4, 4] S1x1x1
  slices_S2x5x5_S1x1x1_1_0_0 : S2x5x5.Slices ![1, 0, 0] S1x1x1
  slices_S2x5x5_S1x1x1_1_0_1 : S2x5x5.Slices ![1, 0, 1] S1x1x1
  slices_S2x5x5_S1x1x1_1_0_2 : S2x5x5.Slices ![1, 0, 2] S1x1x1
  slices_S2x5x5_S1x1x1_1_0_3 : S2x5x5.Slices ![1, 0, 3] S1x1x1
  slices_S2x5x5_S1x1x1_1_0_4 : S2x5x5.Slices ![1, 0, 4] S1x1x1
  slices_S2x5x5_S1x1x1_1_1_0 : S2x5x5.Slices ![1, 1, 0] S1x1x1
  slices_S2x5x5_S1x1x1_1_1_1 : S2x5x5.Slices ![1, 1, 1] S1x1x1
  slices_S2x5x5_S1x1x1_1_1_2 : S2x5x5.Slices ![1, 1, 2] S1x1x1
  slices_S2x5x5_S1x1x1_1_1_3 : S2x5x5.Slices ![1, 1, 3] S1x1x1
  slices_S2x5x5_S1x1x1_1_1_4 : S2x5x5.Slices ![1, 1, 4] S1x1x1
  slices_S2x5x5_S1x1x1_1_2_0 : S2x5x5.Slices ![1, 2, 0] S1x1x1
  slices_S2x5x5_S1x1x1_1_2_1 : S2x5x5.Slices ![1, 2, 1] S1x1x1
  slices_S2x5x5_S1x1x1_1_2_2 : S2x5x5.Slices ![1, 2, 2] S1x1x1
  slices_S2x5x5_S1x1x1_1_2_3 : S2x5x5.Slices ![1, 2, 3] S1x1x1
  slices_S2x5x5_S1x1x1_1_2_4 : S2x5x5.Slices ![1, 2, 4] S1x1x1
  slices_S2x5x5_S1x1x1_1_3_0 : S2x5x5.Slices ![1, 3, 0] S1x1x1
  slices_S2x5x5_S1x1x1_1_3_1 : S2x5x5.Slices ![1, 3, 1] S1x1x1
  slices_S2x5x5_S1x1x1_1_3_2 : S2x5x5.Slices ![1, 3, 2] S1x1x1
  slices_S2x5x5_S1x1x1_1_3_3 : S2x5x5.Slices ![1, 3, 3] S1x1x1
  slices_S2x5x5_S1x1x1_1_3_4 : S2x5x5.Slices ![1, 3, 4] S1x1x1
  slices_S2x5x5_S1x1x1_1_4_0 : S2x5x5.Slices ![1, 4, 0] S1x1x1
  slices_S2x5x5_S1x1x1_1_4_1 : S2x5x5.Slices ![1, 4, 1] S1x1x1
  slices_S2x5x5_S1x1x1_1_4_2 : S2x5x5.Slices ![1, 4, 2] S1x1x1
  slices_S2x5x5_S1x1x1_1_4_3 : S2x5x5.Slices ![1, 4, 3] S1x1x1
  slices_S2x5x5_S1x1x1_1_4_4 : S2x5x5.Slices ![1, 4, 4] S1x1x1
  shapeCasts_S1x8192_S8192x1 : S1x8192.ShapeCasts S8192x1
  concatenates_S8192x1_S8192x1_S8192x2_d1 : Shape.Concatenates [S8192x1, S8192x1] S8192x2 1
  bcast_S_S8192x2 : S_.BroadcastsInDim S8192x2 (![] : Fin 0 → Fin S8192x2.rank)
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S1x256_S1x256 : S1x256.ShapeCasts S1x256
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S1x8192_S256x8192_S1x256_1_1_0_0_n_n_wf : DotDims.WF S1x8192 S256x8192 S1x256 [1] [1] [0] [0] [] []
  dot_S1x8192_S1024x8192_S1x1024_1_1_0_0_n_n_wf : DotDims.WF S1x8192 S1024x8192 S1x1024 [1] [1] [0] [0] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  k33 : K33.Facts₀
  k34 : K34.Facts₀
  k35 : K35.Facts₀
  k36 : K36.Facts₀
  k37 : K37.Facts₀
  k38 : K38.Facts₀
  k39 : K39.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.k33 Facts₀.k34 Facts₀.k35 Facts₀.k36 Facts₀.k37 Facts₀.k38 Facts₀.k39 Facts₀.shapes1

variable [Facts₀]

def dot_S1x8192_S256x8192_S1x256_1_1_0_0_n_n : DotDims S1x8192 S256x8192 S1x256 where
  lhsContracting := [1]
  rhsContracting := [1]
  lhsNonContracting := [0]
  rhsNonContracting := [0]
  lhsBatch := []
  rhsBatch := []
  wf := dot_S1x8192_S256x8192_S1x256_1_1_0_0_n_n_wf
def dot_S1x8192_S1024x8192_S1x1024_1_1_0_0_n_n : DotDims S1x8192 S1024x8192 S1x1024 where
  lhsContracting := [1]
  rhsContracting := [1]
  lhsNonContracting := [0]
  rhsNonContracting := [0]
  lhsBatch := []
  rhsBatch := []
  wf := dot_S1x8192_S1024x8192_S1x1024_1_1_0_0_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13_0) S256x8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13_1) S1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v13_2) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v13_0) S1024x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v13_1) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13_2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v17_0) S1x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v17_1) S1x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v13_0) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v17_0) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v20) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v17_1) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v21_0) S1x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v21_1) S1x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v13_0) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v21_0) S1x8192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v24) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v21_1) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v25_0) S1x1024.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v25_1) S1x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v13_0) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v34) S1x8192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v41) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v38) S1x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_call0_v42_0) S1x1024.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v42_1) S1x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_call0_v13_0) S1024x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v42_0) S1x8192.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v45) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v42_1) S1x1024.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_call0_v46_0) S1x1024.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_call0_v46_1) S1x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_call0_v13_0) S1024x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v46_0) S1x8192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call0_v49) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v46_1) S1x1024.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_call0_v50_0) S1x1024.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_call0_v50_1) S1x1024.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_call0_v13_0) S1024x8192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v50_0) S1x8192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_call0_v53) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v50_1) S1x1024.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_call0_v54_0) S1x1024.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_call0_v54_1) S1x1024.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_call0_v13_0) S1024x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v63) S1x8192.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_call0_v70) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v67) S1x1024.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_call0_v71_0) S1x1024.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_call0_v71_1) S1x1024.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_call0_v13_0) S1024x8192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v71_0) S1x8192.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_call0_v74) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v71_1) S1x1024.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_call0_v75_0) S1x1024.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_call0_v75_1) S1x1024.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_call0_v13_0) S1024x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call0_v75_0) S1x8192.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_call0_v78) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_call0_v75_1) S1x1024.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_call0_v79_0) S1x1024.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_call0_v79_1) S1x1024.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_call0_v13_0) S1024x8192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_call0_v79_0) S1x8192.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_call0_v82) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_call0_v79_1) S1x1024.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_call0_v83_0) S1x1024.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_call0_v83_1) S1x1024.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_call0_v13_0) S1024x8192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_call0_v92) S1x8192.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_call0_v99) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_call0_v96) S1x1024.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_call0_v100_0) S1x1024.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_call0_v100_1) S1x1024.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_call0_v13_0) S1024x8192.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_call0_v100_0) S1x8192.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_call0_v103) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_call0_v100_1) S1x1024.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_call0_v104_0) S1x1024.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_call0_v104_1) S1x1024.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_call0_v13_0) S1024x8192.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_call0_v104_0) S1x8192.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_call0_v107) S1x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_call0_v104_1) S1x1024.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_call0_v108_0) S1x1024.size cc14_transform_4 reads14_4 true false 2 stage14_4 sem14_4
    hrank14 hreads14_4 hinb14_4 nbuf14_4 (Memref.isWhole_whole _) hwx14_4 hstage14_4

abbrev win14_5 : Pipeline.Window sig grid14 :=
  Pipeline.Window.ofSpec (Memref.whole main_call0_v108_1) S1x1024.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_call0_v13_0) S1024x8192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_call0_v108_0) S1x8192.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_call0_v111) S1x1.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_call0_v108_1) S1x1024.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_call0_v112_0) S1x1024.size cc15_transform_4 reads15_4 true false 2 stage15_4 sem15_4
    hrank15 hreads15_4 hinb15_4 nbuf15_4 (Memref.isWhole_whole _) hwx15_4 hstage15_4

abbrev win15_5 : Pipeline.Window sig grid15 :=
  Pipeline.Window.ofSpec (Memref.whole main_call0_v112_1) S1x1024.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_call0_v13_0) S1024x8192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_call0_v121) S1x8192.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_call0_v128) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_call0_v125) S1x1024.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_call0_v129_0) S1x1024.size cc16_transform_4 reads16_4 true false 2 stage16_4 sem16_4
    hrank16 hreads16_4 hinb16_4 nbuf16_4 (Memref.isWhole_whole _) hwx16_4 hstage16_4

abbrev win16_5 : Pipeline.Window sig grid16 :=
  Pipeline.Window.ofSpec (Memref.whole main_call0_v129_1) S1x1024.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_call0_v13_0) S1024x8192.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_call0_v129_0) S1x8192.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_call0_v132) S1x1.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_call0_v129_1) S1x1024.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_call0_v133_0) S1x1024.size cc17_transform_4 reads17_4 true false 2 stage17_4 sem17_4
    hrank17 hreads17_4 hinb17_4 nbuf17_4 (Memref.isWhole_whole _) hwx17_4 hstage17_4

abbrev win17_5 : Pipeline.Window sig grid17 :=
  Pipeline.Window.ofSpec (Memref.whole main_call0_v133_1) S1x1024.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_call0_v13_0) S1024x8192.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_call0_v133_0) S1x8192.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_call0_v136) S1x1.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_call0_v133_1) S1x1024.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_call0_v137_0) S1x1024.size cc18_transform_4 reads18_4 true false 2 stage18_4 sem18_4
    hrank18 hreads18_4 hinb18_4 nbuf18_4 (Memref.isWhole_whole _) hwx18_4 hstage18_4

abbrev win18_5 : Pipeline.Window sig grid18 :=
  Pipeline.Window.ofSpec (Memref.whole main_call0_v137_1) S1x1024.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_call0_v13_0) S1024x8192.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_call0_v137_0) S1x8192.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_call0_v140) S1x1.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_call0_v137_1) S1x1024.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_call0_v141_0) S1x1024.size cc19_transform_4 reads19_4 true false 2 stage19_4 sem19_4
    hrank19 hreads19_4 hinb19_4 nbuf19_4 (Memref.isWhole_whole _) hwx19_4 hstage19_4

abbrev win19_5 : Pipeline.Window sig grid19 :=
  Pipeline.Window.ofSpec (Memref.whole main_call0_v141_1) S1x1024.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_call0_v13_0) S1024x8192.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_call0_v150) S1x8192.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_call0_v157) S1x1.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_call0_v154) S1x1024.size cc20_transform_3 reads20_3 false false 2 stage20_3 sem20_3
    hrank20 hreads20_3 hinb20_3 nbuf20_3 (Memref.isWhole_whole _) hwx20_3 hstage20_3

abbrev win20_4 : Pipeline.Window sig grid20 :=
  Pipeline.Window.ofSpec (Memref.whole main_call0_v158_0) S1x1024.size cc20_transform_4 reads20_4 true false 2 stage20_4 sem20_4
    hrank20 hreads20_4 hinb20_4 nbuf20_4 (Memref.isWhole_whole _) hwx20_4 hstage20_4

abbrev win20_5 : Pipeline.Window sig grid20 :=
  Pipeline.Window.ofSpec (Memref.whole main_call0_v158_1) S1x1024.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_call0_v13_0) S1024x8192.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_call0_v158_0) S1x8192.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_call0_v161) S1x1.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_call0_v158_1) S1x1024.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_call0_v162_0) S1x1024.size cc21_transform_4 reads21_4 true false 2 stage21_4 sem21_4
    hrank21 hreads21_4 hinb21_4 nbuf21_4 (Memref.isWhole_whole _) hwx21_4 hstage21_4

abbrev win21_5 : Pipeline.Window sig grid21 :=
  Pipeline.Window.ofSpec (Memref.whole main_call0_v162_1) S1x1024.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_call0_v13_0) S1024x8192.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_call0_v162_0) S1x8192.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_call0_v165) S1x1.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_call0_v162_1) S1x1024.size cc22_transform_3 reads22_3 false false 2 stage22_3 sem22_3
    hrank22 hreads22_3 hinb22_3 nbuf22_3 (Memref.isWhole_whole _) hwx22_3 hstage22_3

abbrev win22_4 : Pipeline.Window sig grid22 :=
  Pipeline.Window.ofSpec (Memref.whole main_call0_v166_0) S1x1024.size cc22_transform_4 reads22_4 true false 2 stage22_4 sem22_4
    hrank22 hreads22_4 hinb22_4 nbuf22_4 (Memref.isWhole_whole _) hwx22_4 hstage22_4

abbrev win22_5 : Pipeline.Window sig grid22 :=
  Pipeline.Window.ofSpec (Memref.whole main_call0_v166_1) S1x1024.size cc22_transform_5 reads22_5 true false 2 stage22_5 sem22_5
    hrank22 hreads22_5 hinb22_5 nbuf22_5 (Memref.isWhole_whole _) hwx22_5 hstage22_5

abbrev win22 : Fin 6 → Pipeline.Window sig grid22 := fun | 0 => win22_0 | 1 => win22_1 | 2 => win22_2 | 3 => win22_3 | 4 => win22_4 | 5 => win22_5 | ⟨_ + 6, h⟩ => absurd h (Nat.not_lt.2 (Nat.le_add_left _ _))
abbrev spec22 : Fin 6 → Pipeline.WinSpec sig grid22.rank := fun w => (win22 w).toWinSpec

abbrev win23_0 : Pipeline.Window sig grid23 :=
  Pipeline.Window.ofSpec (Memref.whole main_call0_v13_0) S1024x8192.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_call0_v166_0) S1x8192.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_call0_v169) S1x1.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_call0_v166_1) S1x1024.size cc23_transform_3 reads23_3 false false 2 stage23_3 sem23_3
    hrank23 hreads23_3 hinb23_3 nbuf23_3 (Memref.isWhole_whole _) hwx23_3 hstage23_3

abbrev win23_4 : Pipeline.Window sig grid23 :=
  Pipeline.Window.ofSpec (Memref.whole main_call0_v170_0) S1x1024.size cc23_transform_4 reads23_4 true false 2 stage23_4 sem23_4
    hrank23 hreads23_4 hinb23_4 nbuf23_4 (Memref.isWhole_whole _) hwx23_4 hstage23_4

abbrev win23_5 : Pipeline.Window sig grid23 :=
  Pipeline.Window.ofSpec (Memref.whole main_call0_v170_1) S1x1024.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

abbrev win24_0 : Pipeline.Window sig grid24 :=
  Pipeline.Window.ofSpec (Memref.whole main_call0_v13_0) S1024x8192.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_call0_v179) S1x8192.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_call0_v186) S1x1.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_call0_v183) S1x1024.size cc24_transform_3 reads24_3 false false 2 stage24_3 sem24_3
    hrank24 hreads24_3 hinb24_3 nbuf24_3 (Memref.isWhole_whole _) hwx24_3 hstage24_3

abbrev win24_4 : Pipeline.Window sig grid24 :=
  Pipeline.Window.ofSpec (Memref.whole main_call0_v187_0) S1x1024.size cc24_transform_4 reads24_4 true false 2 stage24_4 sem24_4
    hrank24 hreads24_4 hinb24_4 nbuf24_4 (Memref.isWhole_whole _) hwx24_4 hstage24_4

abbrev win24_5 : Pipeline.Window sig grid24 :=
  Pipeline.Window.ofSpec (Memref.whole main_call0_v187_1) S1x1024.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_call0_v13_0) S1024x8192.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_call0_v187_0) S1x8192.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_call0_v190) S1x1.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_call0_v187_1) S1x1024.size cc25_transform_3 reads25_3 false false 2 stage25_3 sem25_3
    hrank25 hreads25_3 hinb25_3 nbuf25_3 (Memref.isWhole_whole _) hwx25_3 hstage25_3

abbrev win25_4 : Pipeline.Window sig grid25 :=
  Pipeline.Window.ofSpec (Memref.whole main_call0_v191_0) S1x1024.size cc25_transform_4 reads25_4 true false 2 stage25_4 sem25_4
    hrank25 hreads25_4 hinb25_4 nbuf25_4 (Memref.isWhole_whole _) hwx25_4 hstage25_4

abbrev win25_5 : Pipeline.Window sig grid25 :=
  Pipeline.Window.ofSpec (Memref.whole main_call0_v191_1) S1x1024.size cc25_transform_5 reads25_5 true false 2 stage25_5 sem25_5
    hrank25 hreads25_5 hinb25_5 nbuf25_5 (Memref.isWhole_whole _) hwx25_5 hstage25_5

abbrev win25 : Fin 6 → Pipeline.Window sig grid25 := fun | 0 => win25_0 | 1 => win25_1 | 2 => win25_2 | 3 => win25_3 | 4 => win25_4 | 5 => win25_5 | ⟨_ + 6, h⟩ => absurd h (Nat.not_lt.2 (Nat.le_add_left _ _))
abbrev spec25 : Fin 6 → Pipeline.WinSpec sig grid25.rank := fun w => (win25 w).toWinSpec

abbrev win26_0 : Pipeline.Window sig grid26 :=
  Pipeline.Window.ofSpec (Memref.whole main_call0_v13_0) S1024x8192.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_call0_v191_0) S1x8192.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_call0_v194) S1x1.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_call0_v191_1) S1x1024.size cc26_transform_3 reads26_3 false false 2 stage26_3 sem26_3
    hrank26 hreads26_3 hinb26_3 nbuf26_3 (Memref.isWhole_whole _) hwx26_3 hstage26_3

abbrev win26_4 : Pipeline.Window sig grid26 :=
  Pipeline.Window.ofSpec (Memref.whole main_call0_v195_0) S1x1024.size cc26_transform_4 reads26_4 true false 2 stage26_4 sem26_4
    hrank26 hreads26_4 hinb26_4 nbuf26_4 (Memref.isWhole_whole _) hwx26_4 hstage26_4

abbrev win26_5 : Pipeline.Window sig grid26 :=
  Pipeline.Window.ofSpec (Memref.whole main_call0_v195_1) S1x1024.size cc26_transform_5 reads26_5 true false 2 stage26_5 sem26_5
    hrank26 hreads26_5 hinb26_5 nbuf26_5 (Memref.isWhole_whole _) hwx26_5 hstage26_5

abbrev win26 : Fin 6 → Pipeline.Window sig grid26 := fun | 0 => win26_0 | 1 => win26_1 | 2 => win26_2 | 3 => win26_3 | 4 => win26_4 | 5 => win26_5 | ⟨_ + 6, h⟩ => absurd h (Nat.not_lt.2 (Nat.le_add_left _ _))
abbrev spec26 : Fin 6 → Pipeline.WinSpec sig grid26.rank := fun w => (win26 w).toWinSpec

abbrev win27_0 : Pipeline.Window sig grid27 :=
  Pipeline.Window.ofSpec (Memref.whole main_call0_v13_0) S1024x8192.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_call0_v195_0) S1x8192.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_call0_v198) S1x1.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_call0_v195_1) S1x1024.size cc27_transform_3 reads27_3 false false 2 stage27_3 sem27_3
    hrank27 hreads27_3 hinb27_3 nbuf27_3 (Memref.isWhole_whole _) hwx27_3 hstage27_3

abbrev win27_4 : Pipeline.Window sig grid27 :=
  Pipeline.Window.ofSpec (Memref.whole main_call0_v199_0) S1x1024.size cc27_transform_4 reads27_4 true false 2 stage27_4 sem27_4
    hrank27 hreads27_4 hinb27_4 nbuf27_4 (Memref.isWhole_whole _) hwx27_4 hstage27_4

abbrev win27_5 : Pipeline.Window sig grid27 :=
  Pipeline.Window.ofSpec (Memref.whole main_call0_v199_1) S1x1024.size cc27_transform_5 reads27_5 true false 2 stage27_5 sem27_5
    hrank27 hreads27_5 hinb27_5 nbuf27_5 (Memref.isWhole_whole _) hwx27_5 hstage27_5

abbrev win27 : Fin 6 → Pipeline.Window sig grid27 := fun | 0 => win27_0 | 1 => win27_1 | 2 => win27_2 | 3 => win27_3 | 4 => win27_4 | 5 => win27_5 | ⟨_ + 6, h⟩ => absurd h (Nat.not_lt.2 (Nat.le_add_left _ _))
abbrev spec27 : Fin 6 → Pipeline.WinSpec sig grid27.rank := fun w => (win27 w).toWinSpec

abbrev win28_0 : Pipeline.Window sig grid28 :=
  Pipeline.Window.ofSpec (Memref.whole main_call0_v13_0) S1024x8192.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_call0_v208) S1x8192.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_call0_v215) S1x1.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_call0_v212) S1x1024.size cc28_transform_3 reads28_3 false false 2 stage28_3 sem28_3
    hrank28 hreads28_3 hinb28_3 nbuf28_3 (Memref.isWhole_whole _) hwx28_3 hstage28_3

abbrev win28_4 : Pipeline.Window sig grid28 :=
  Pipeline.Window.ofSpec (Memref.whole main_call0_v216_0) S1x1024.size cc28_transform_4 reads28_4 true false 2 stage28_4 sem28_4
    hrank28 hreads28_4 hinb28_4 nbuf28_4 (Memref.isWhole_whole _) hwx28_4 hstage28_4

abbrev win28_5 : Pipeline.Window sig grid28 :=
  Pipeline.Window.ofSpec (Memref.whole main_call0_v216_1) S1x1024.size cc28_transform_5 reads28_5 true false 2 stage28_5 sem28_5
    hrank28 hreads28_5 hinb28_5 nbuf28_5 (Memref.isWhole_whole _) hwx28_5 hstage28_5

abbrev win28 : Fin 6 → Pipeline.Window sig grid28 := fun | 0 => win28_0 | 1 => win28_1 | 2 => win28_2 | 3 => win28_3 | 4 => win28_4 | 5 => win28_5 | ⟨_ + 6, h⟩ => absurd h (Nat.not_lt.2 (Nat.le_add_left _ _))
abbrev spec28 : Fin 6 → Pipeline.WinSpec sig grid28.rank := fun w => (win28 w).toWinSpec

abbrev win29_0 : Pipeline.Window sig grid29 :=
  Pipeline.Window.ofSpec (Memref.whole main_call0_v13_0) S1024x8192.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_call0_v216_0) S1x8192.size cc29_transform_1 reads29_1 false true 1 stage29_1 sem29_1
    hrank29 hreads29_1 hinb29_1 nbuf29_1 (Memref.isWhole_whole _) hwx29_1 hstage29_1

abbrev win29_2 : Pipeline.Window sig grid29 :=
  Pipeline.Window.ofSpec (Memref.whole main_call0_v219) S1x1.size cc29_transform_2 reads29_2 false true 1 stage29_2 sem29_2
    hrank29 hreads29_2 hinb29_2 nbuf29_2 (Memref.isWhole_whole _) hwx29_2 hstage29_2

abbrev win29_3 : Pipeline.Window sig grid29 :=
  Pipeline.Window.ofSpec (Memref.whole main_call0_v216_1) S1x1024.size cc29_transform_3 reads29_3 false false 2 stage29_3 sem29_3
    hrank29 hreads29_3 hinb29_3 nbuf29_3 (Memref.isWhole_whole _) hwx29_3 hstage29_3

abbrev win29_4 : Pipeline.Window sig grid29 :=
  Pipeline.Window.ofSpec (Memref.whole main_call0_v220_0) S1x1024.size cc29_transform_4 reads29_4 true false 2 stage29_4 sem29_4
    hrank29 hreads29_4 hinb29_4 nbuf29_4 (Memref.isWhole_whole _) hwx29_4 hstage29_4

abbrev win29_5 : Pipeline.Window sig grid29 :=
  Pipeline.Window.ofSpec (Memref.whole main_call0_v220_1) S1x1024.size cc29_transform_5 reads29_5 true false 2 stage29_5 sem29_5
    hrank29 hreads29_5 hinb29_5 nbuf29_5 (Memref.isWhole_whole _) hwx29_5 hstage29_5

abbrev win29 : Fin 6 → Pipeline.Window sig grid29 := fun | 0 => win29_0 | 1 => win29_1 | 2 => win29_2 | 3 => win29_3 | 4 => win29_4 | 5 => win29_5 | ⟨_ + 6, h⟩ => absurd h (Nat.not_lt.2 (Nat.le_add_left _ _))
abbrev spec29 : Fin 6 → Pipeline.WinSpec sig grid29.rank := fun w => (win29 w).toWinSpec

abbrev win30_0 : Pipeline.Window sig grid30 :=
  Pipeline.Window.ofSpec (Memref.whole main_call0_v13_0) S1024x8192.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_call0_v220_0) S1x8192.size cc30_transform_1 reads30_1 false true 1 stage30_1 sem30_1
    hrank30 hreads30_1 hinb30_1 nbuf30_1 (Memref.isWhole_whole _) hwx30_1 hstage30_1

abbrev win30_2 : Pipeline.Window sig grid30 :=
  Pipeline.Window.ofSpec (Memref.whole main_call0_v223) S1x1.size cc30_transform_2 reads30_2 false true 1 stage30_2 sem30_2
    hrank30 hreads30_2 hinb30_2 nbuf30_2 (Memref.isWhole_whole _) hwx30_2 hstage30_2

abbrev win30_3 : Pipeline.Window sig grid30 :=
  Pipeline.Window.ofSpec (Memref.whole main_call0_v220_1) S1x1024.size cc30_transform_3 reads30_3 false false 2 stage30_3 sem30_3
    hrank30 hreads30_3 hinb30_3 nbuf30_3 (Memref.isWhole_whole _) hwx30_3 hstage30_3

abbrev win30_4 : Pipeline.Window sig grid30 :=
  Pipeline.Window.ofSpec (Memref.whole main_call0_v224_0) S1x1024.size cc30_transform_4 reads30_4 true false 2 stage30_4 sem30_4
    hrank30 hreads30_4 hinb30_4 nbuf30_4 (Memref.isWhole_whole _) hwx30_4 hstage30_4

abbrev win30_5 : Pipeline.Window sig grid30 :=
  Pipeline.Window.ofSpec (Memref.whole main_call0_v224_1) S1x1024.size cc30_transform_5 reads30_5 true false 2 stage30_5 sem30_5
    hrank30 hreads30_5 hinb30_5 nbuf30_5 (Memref.isWhole_whole _) hwx30_5 hstage30_5

abbrev win30 : Fin 6 → Pipeline.Window sig grid30 := fun | 0 => win30_0 | 1 => win30_1 | 2 => win30_2 | 3 => win30_3 | 4 => win30_4 | 5 => win30_5 | ⟨_ + 6, h⟩ => absurd h (Nat.not_lt.2 (Nat.le_add_left _ _))
abbrev spec30 : Fin 6 → Pipeline.WinSpec sig grid30.rank := fun w => (win30 w).toWinSpec

abbrev win31_0 : Pipeline.Window sig grid31 :=
  Pipeline.Window.ofSpec (Memref.whole main_call0_v13_0) S1024x8192.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_call0_v224_0) S1x8192.size cc31_transform_1 reads31_1 false true 1 stage31_1 sem31_1
    hrank31 hreads31_1 hinb31_1 nbuf31_1 (Memref.isWhole_whole _) hwx31_1 hstage31_1

abbrev win31_2 : Pipeline.Window sig grid31 :=
  Pipeline.Window.ofSpec (Memref.whole main_call0_v227) S1x1.size cc31_transform_2 reads31_2 false true 1 stage31_2 sem31_2
    hrank31 hreads31_2 hinb31_2 nbuf31_2 (Memref.isWhole_whole _) hwx31_2 hstage31_2

abbrev win31_3 : Pipeline.Window sig grid31 :=
  Pipeline.Window.ofSpec (Memref.whole main_call0_v224_1) S1x1024.size cc31_transform_3 reads31_3 false false 2 stage31_3 sem31_3
    hrank31 hreads31_3 hinb31_3 nbuf31_3 (Memref.isWhole_whole _) hwx31_3 hstage31_3

abbrev win31_4 : Pipeline.Window sig grid31 :=
  Pipeline.Window.ofSpec (Memref.whole main_call0_v228_0) S1x1024.size cc31_transform_4 reads31_4 true false 2 stage31_4 sem31_4
    hrank31 hreads31_4 hinb31_4 nbuf31_4 (Memref.isWhole_whole _) hwx31_4 hstage31_4

abbrev win31_5 : Pipeline.Window sig grid31 :=
  Pipeline.Window.ofSpec (Memref.whole main_call0_v228_1) S1x1024.size cc31_transform_5 reads31_5 true false 2 stage31_5 sem31_5
    hrank31 hreads31_5 hinb31_5 nbuf31_5 (Memref.isWhole_whole _) hwx31_5 hstage31_5

abbrev win31 : Fin 6 → Pipeline.Window sig grid31 := fun | 0 => win31_0 | 1 => win31_1 | 2 => win31_2 | 3 => win31_3 | 4 => win31_4 | 5 => win31_5 | ⟨_ + 6, h⟩ => absurd h (Nat.not_lt.2 (Nat.le_add_left _ _))
abbrev spec31 : Fin 6 → Pipeline.WinSpec sig grid31.rank := fun w => (win31 w).toWinSpec

abbrev win32_0 : Pipeline.Window sig grid32 :=
  Pipeline.Window.ofSpec (Memref.whole main_call0_v13_0) S1024x8192.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_call0_v237) S1x8192.size cc32_transform_1 reads32_1 false true 1 stage32_1 sem32_1
    hrank32 hreads32_1 hinb32_1 nbuf32_1 (Memref.isWhole_whole _) hwx32_1 hstage32_1

abbrev win32_2 : Pipeline.Window sig grid32 :=
  Pipeline.Window.ofSpec (Memref.whole main_call0_v244) S1x1.size cc32_transform_2 reads32_2 false true 1 stage32_2 sem32_2
    hrank32 hreads32_2 hinb32_2 nbuf32_2 (Memref.isWhole_whole _) hwx32_2 hstage32_2

abbrev win32_3 : Pipeline.Window sig grid32 :=
  Pipeline.Window.ofSpec (Memref.whole main_call0_v241) S1x1024.size cc32_transform_3 reads32_3 false false 2 stage32_3 sem32_3
    hrank32 hreads32_3 hinb32_3 nbuf32_3 (Memref.isWhole_whole _) hwx32_3 hstage32_3

abbrev win32_4 : Pipeline.Window sig grid32 :=
  Pipeline.Window.ofSpec (Memref.whole main_call0_v245_0) S1x1024.size cc32_transform_4 reads32_4 true false 2 stage32_4 sem32_4
    hrank32 hreads32_4 hinb32_4 nbuf32_4 (Memref.isWhole_whole _) hwx32_4 hstage32_4

abbrev win32_5 : Pipeline.Window sig grid32 :=
  Pipeline.Window.ofSpec (Memref.whole main_call0_v245_1) S1x1024.size cc32_transform_5 reads32_5 true false 2 stage32_5 sem32_5
    hrank32 hreads32_5 hinb32_5 nbuf32_5 (Memref.isWhole_whole _) hwx32_5 hstage32_5

abbrev win32 : Fin 6 → Pipeline.Window sig grid32 := fun | 0 => win32_0 | 1 => win32_1 | 2 => win32_2 | 3 => win32_3 | 4 => win32_4 | 5 => win32_5 | ⟨_ + 6, h⟩ => absurd h (Nat.not_lt.2 (Nat.le_add_left _ _))
abbrev spec32 : Fin 6 → Pipeline.WinSpec sig grid32.rank := fun w => (win32 w).toWinSpec

abbrev win33_0 : Pipeline.Window sig grid33 :=
  Pipeline.Window.ofSpec (Memref.whole main_call0_v13_0) S1024x8192.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_call0_v245_0) S1x8192.size cc33_transform_1 reads33_1 false true 1 stage33_1 sem33_1
    hrank33 hreads33_1 hinb33_1 nbuf33_1 (Memref.isWhole_whole _) hwx33_1 hstage33_1

abbrev win33_2 : Pipeline.Window sig grid33 :=
  Pipeline.Window.ofSpec (Memref.whole main_call0_v248) S1x1.size cc33_transform_2 reads33_2 false true 1 stage33_2 sem33_2
    hrank33 hreads33_2 hinb33_2 nbuf33_2 (Memref.isWhole_whole _) hwx33_2 hstage33_2

abbrev win33_3 : Pipeline.Window sig grid33 :=
  Pipeline.Window.ofSpec (Memref.whole main_call0_v245_1) S1x1024.size cc33_transform_3 reads33_3 false false 2 stage33_3 sem33_3
    hrank33 hreads33_3 hinb33_3 nbuf33_3 (Memref.isWhole_whole _) hwx33_3 hstage33_3

abbrev win33_4 : Pipeline.Window sig grid33 :=
  Pipeline.Window.ofSpec (Memref.whole main_call0_v249_0) S1x1024.size cc33_transform_4 reads33_4 true false 2 stage33_4 sem33_4
    hrank33 hreads33_4 hinb33_4 nbuf33_4 (Memref.isWhole_whole _) hwx33_4 hstage33_4

abbrev win33_5 : Pipeline.Window sig grid33 :=
  Pipeline.Window.ofSpec (Memref.whole main_call0_v249_1) S1x1024.size cc33_transform_5 reads33_5 true false 2 stage33_5 sem33_5
    hrank33 hreads33_5 hinb33_5 nbuf33_5 (Memref.isWhole_whole _) hwx33_5 hstage33_5

abbrev win33 : Fin 6 → Pipeline.Window sig grid33 := fun | 0 => win33_0 | 1 => win33_1 | 2 => win33_2 | 3 => win33_3 | 4 => win33_4 | 5 => win33_5 | ⟨_ + 6, h⟩ => absurd h (Nat.not_lt.2 (Nat.le_add_left _ _))
abbrev spec33 : Fin 6 → Pipeline.WinSpec sig grid33.rank := fun w => (win33 w).toWinSpec

abbrev win34_0 : Pipeline.Window sig grid34 :=
  Pipeline.Window.ofSpec (Memref.whole main_call0_v13_0) S1024x8192.size cc34_transform_0 reads34_0 false false 2 stage34_0 sem34_0
    hrank34 hreads34_0 hinb34_0 nbuf34_0 (Memref.isWhole_whole _) hwx34_0 hstage34_0

abbrev win34_1 : Pipeline.Window sig grid34 :=
  Pipeline.Window.ofSpec (Memref.whole main_call0_v249_0) S1x8192.size cc34_transform_1 reads34_1 false true 1 stage34_1 sem34_1
    hrank34 hreads34_1 hinb34_1 nbuf34_1 (Memref.isWhole_whole _) hwx34_1 hstage34_1

abbrev win34_2 : Pipeline.Window sig grid34 :=
  Pipeline.Window.ofSpec (Memref.whole main_call0_v252) S1x1.size cc34_transform_2 reads34_2 false true 1 stage34_2 sem34_2
    hrank34 hreads34_2 hinb34_2 nbuf34_2 (Memref.isWhole_whole _) hwx34_2 hstage34_2

abbrev win34_3 : Pipeline.Window sig grid34 :=
  Pipeline.Window.ofSpec (Memref.whole main_call0_v249_1) S1x1024.size cc34_transform_3 reads34_3 false false 2 stage34_3 sem34_3
    hrank34 hreads34_3 hinb34_3 nbuf34_3 (Memref.isWhole_whole _) hwx34_3 hstage34_3

abbrev win34_4 : Pipeline.Window sig grid34 :=
  Pipeline.Window.ofSpec (Memref.whole main_call0_v253_0) S1x1024.size cc34_transform_4 reads34_4 true false 2 stage34_4 sem34_4
    hrank34 hreads34_4 hinb34_4 nbuf34_4 (Memref.isWhole_whole _) hwx34_4 hstage34_4

abbrev win34_5 : Pipeline.Window sig grid34 :=
  Pipeline.Window.ofSpec (Memref.whole main_call0_v253_1) S1x1024.size cc34_transform_5 reads34_5 true false 2 stage34_5 sem34_5
    hrank34 hreads34_5 hinb34_5 nbuf34_5 (Memref.isWhole_whole _) hwx34_5 hstage34_5

abbrev win34 : Fin 6 → Pipeline.Window sig grid34 := fun | 0 => win34_0 | 1 => win34_1 | 2 => win34_2 | 3 => win34_3 | 4 => win34_4 | 5 => win34_5 | ⟨_ + 6, h⟩ => absurd h (Nat.not_lt.2 (Nat.le_add_left _ _))
abbrev spec34 : Fin 6 → Pipeline.WinSpec sig grid34.rank := fun w => (win34 w).toWinSpec

abbrev win35_0 : Pipeline.Window sig grid35 :=
  Pipeline.Window.ofSpec (Memref.whole main_call0_v13_0) S1024x8192.size cc35_transform_0 reads35_0 false false 2 stage35_0 sem35_0
    hrank35 hreads35_0 hinb35_0 nbuf35_0 (Memref.isWhole_whole _) hwx35_0 hstage35_0

abbrev win35_1 : Pipeline.Window sig grid35 :=
  Pipeline.Window.ofSpec (Memref.whole main_call0_v253_0) S1x8192.size cc35_transform_1 reads35_1 false true 1 stage35_1 sem35_1
    hrank35 hreads35_1 hinb35_1 nbuf35_1 (Memref.isWhole_whole _) hwx35_1 hstage35_1

abbrev win35_2 : Pipeline.Window sig grid35 :=
  Pipeline.Window.ofSpec (Memref.whole main_call0_v256) S1x1.size cc35_transform_2 reads35_2 false true 1 stage35_2 sem35_2
    hrank35 hreads35_2 hinb35_2 nbuf35_2 (Memref.isWhole_whole _) hwx35_2 hstage35_2

abbrev win35_3 : Pipeline.Window sig grid35 :=
  Pipeline.Window.ofSpec (Memref.whole main_call0_v253_1) S1x1024.size cc35_transform_3 reads35_3 false false 2 stage35_3 sem35_3
    hrank35 hreads35_3 hinb35_3 nbuf35_3 (Memref.isWhole_whole _) hwx35_3 hstage35_3

abbrev win35_4 : Pipeline.Window sig grid35 :=
  Pipeline.Window.ofSpec (Memref.whole main_call0_v257_0) S1x1024.size cc35_transform_4 reads35_4 true false 2 stage35_4 sem35_4
    hrank35 hreads35_4 hinb35_4 nbuf35_4 (Memref.isWhole_whole _) hwx35_4 hstage35_4

abbrev win35_5 : Pipeline.Window sig grid35 :=
  Pipeline.Window.ofSpec (Memref.whole main_call0_v257_1) S1x1024.size cc35_transform_5 reads35_5 true false 2 stage35_5 sem35_5
    hrank35 hreads35_5 hinb35_5 nbuf35_5 (Memref.isWhole_whole _) hwx35_5 hstage35_5

abbrev win35 : Fin 6 → Pipeline.Window sig grid35 := fun | 0 => win35_0 | 1 => win35_1 | 2 => win35_2 | 3 => win35_3 | 4 => win35_4 | 5 => win35_5 | ⟨_ + 6, h⟩ => absurd h (Nat.not_lt.2 (Nat.le_add_left _ _))
abbrev spec35 : Fin 6 → Pipeline.WinSpec sig grid35.rank := fun w => (win35 w).toWinSpec

abbrev win36_0 : Pipeline.Window sig grid36 :=
  Pipeline.Window.ofSpec (Memref.whole main_call0_v13_0) S1024x8192.size cc36_transform_0 reads36_0 false false 2 stage36_0 sem36_0
    hrank36 hreads36_0 hinb36_0 nbuf36_0 (Memref.isWhole_whole _) hwx36_0 hstage36_0

abbrev win36_1 : Pipeline.Window sig grid36 :=
  Pipeline.Window.ofSpec (Memref.whole main_call0_v266) S1x8192.size cc36_transform_1 reads36_1 false true 1 stage36_1 sem36_1
    hrank36 hreads36_1 hinb36_1 nbuf36_1 (Memref.isWhole_whole _) hwx36_1 hstage36_1

abbrev win36_2 : Pipeline.Window sig grid36 :=
  Pipeline.Window.ofSpec (Memref.whole main_call0_v273) S1x1.size cc36_transform_2 reads36_2 false true 1 stage36_2 sem36_2
    hrank36 hreads36_2 hinb36_2 nbuf36_2 (Memref.isWhole_whole _) hwx36_2 hstage36_2

abbrev win36_3 : Pipeline.Window sig grid36 :=
  Pipeline.Window.ofSpec (Memref.whole main_call0_v270) S1x1024.size cc36_transform_3 reads36_3 false false 2 stage36_3 sem36_3
    hrank36 hreads36_3 hinb36_3 nbuf36_3 (Memref.isWhole_whole _) hwx36_3 hstage36_3

abbrev win36_4 : Pipeline.Window sig grid36 :=
  Pipeline.Window.ofSpec (Memref.whole main_call0_v274_0) S1x1024.size cc36_transform_4 reads36_4 true false 2 stage36_4 sem36_4
    hrank36 hreads36_4 hinb36_4 nbuf36_4 (Memref.isWhole_whole _) hwx36_4 hstage36_4

abbrev win36_5 : Pipeline.Window sig grid36 :=
  Pipeline.Window.ofSpec (Memref.whole main_call0_v274_1) S1x1024.size cc36_transform_5 reads36_5 true false 2 stage36_5 sem36_5
    hrank36 hreads36_5 hinb36_5 nbuf36_5 (Memref.isWhole_whole _) hwx36_5 hstage36_5

abbrev win36 : Fin 6 → Pipeline.Window sig grid36 := fun | 0 => win36_0 | 1 => win36_1 | 2 => win36_2 | 3 => win36_3 | 4 => win36_4 | 5 => win36_5 | ⟨_ + 6, h⟩ => absurd h (Nat.not_lt.2 (Nat.le_add_left _ _))
abbrev spec36 : Fin 6 → Pipeline.WinSpec sig grid36.rank := fun w => (win36 w).toWinSpec

abbrev win37_0 : Pipeline.Window sig grid37 :=
  Pipeline.Window.ofSpec (Memref.whole main_call0_v13_0) S1024x8192.size cc37_transform_0 reads37_0 false false 2 stage37_0 sem37_0
    hrank37 hreads37_0 hinb37_0 nbuf37_0 (Memref.isWhole_whole _) hwx37_0 hstage37_0

abbrev win37_1 : Pipeline.Window sig grid37 :=
  Pipeline.Window.ofSpec (Memref.whole main_call0_v274_0) S1x8192.size cc37_transform_1 reads37_1 false true 1 stage37_1 sem37_1
    hrank37 hreads37_1 hinb37_1 nbuf37_1 (Memref.isWhole_whole _) hwx37_1 hstage37_1

abbrev win37_2 : Pipeline.Window sig grid37 :=
  Pipeline.Window.ofSpec (Memref.whole main_call0_v277) S1x1.size cc37_transform_2 reads37_2 false true 1 stage37_2 sem37_2
    hrank37 hreads37_2 hinb37_2 nbuf37_2 (Memref.isWhole_whole _) hwx37_2 hstage37_2

abbrev win37_3 : Pipeline.Window sig grid37 :=
  Pipeline.Window.ofSpec (Memref.whole main_call0_v274_1) S1x1024.size cc37_transform_3 reads37_3 false false 2 stage37_3 sem37_3
    hrank37 hreads37_3 hinb37_3 nbuf37_3 (Memref.isWhole_whole _) hwx37_3 hstage37_3

abbrev win37_4 : Pipeline.Window sig grid37 :=
  Pipeline.Window.ofSpec (Memref.whole main_call0_v278_0) S1x1024.size cc37_transform_4 reads37_4 true false 2 stage37_4 sem37_4
    hrank37 hreads37_4 hinb37_4 nbuf37_4 (Memref.isWhole_whole _) hwx37_4 hstage37_4

abbrev win37_5 : Pipeline.Window sig grid37 :=
  Pipeline.Window.ofSpec (Memref.whole main_call0_v278_1) S1x1024.size cc37_transform_5 reads37_5 true false 2 stage37_5 sem37_5
    hrank37 hreads37_5 hinb37_5 nbuf37_5 (Memref.isWhole_whole _) hwx37_5 hstage37_5

abbrev win37 : Fin 6 → Pipeline.Window sig grid37 := fun | 0 => win37_0 | 1 => win37_1 | 2 => win37_2 | 3 => win37_3 | 4 => win37_4 | 5 => win37_5 | ⟨_ + 6, h⟩ => absurd h (Nat.not_lt.2 (Nat.le_add_left _ _))
abbrev spec37 : Fin 6 → Pipeline.WinSpec sig grid37.rank := fun w => (win37 w).toWinSpec

abbrev win38_0 : Pipeline.Window sig grid38 :=
  Pipeline.Window.ofSpec (Memref.whole main_call0_v13_0) S1024x8192.size cc38_transform_0 reads38_0 false false 2 stage38_0 sem38_0
    hrank38 hreads38_0 hinb38_0 nbuf38_0 (Memref.isWhole_whole _) hwx38_0 hstage38_0

abbrev win38_1 : Pipeline.Window sig grid38 :=
  Pipeline.Window.ofSpec (Memref.whole main_call0_v278_0) S1x8192.size cc38_transform_1 reads38_1 false true 1 stage38_1 sem38_1
    hrank38 hreads38_1 hinb38_1 nbuf38_1 (Memref.isWhole_whole _) hwx38_1 hstage38_1

abbrev win38_2 : Pipeline.Window sig grid38 :=
  Pipeline.Window.ofSpec (Memref.whole main_call0_v281) S1x1.size cc38_transform_2 reads38_2 false true 1 stage38_2 sem38_2
    hrank38 hreads38_2 hinb38_2 nbuf38_2 (Memref.isWhole_whole _) hwx38_2 hstage38_2

abbrev win38_3 : Pipeline.Window sig grid38 :=
  Pipeline.Window.ofSpec (Memref.whole main_call0_v278_1) S1x1024.size cc38_transform_3 reads38_3 false false 2 stage38_3 sem38_3
    hrank38 hreads38_3 hinb38_3 nbuf38_3 (Memref.isWhole_whole _) hwx38_3 hstage38_3

abbrev win38_4 : Pipeline.Window sig grid38 :=
  Pipeline.Window.ofSpec (Memref.whole main_call0_v282_0) S1x1024.size cc38_transform_4 reads38_4 true false 2 stage38_4 sem38_4
    hrank38 hreads38_4 hinb38_4 nbuf38_4 (Memref.isWhole_whole _) hwx38_4 hstage38_4

abbrev win38_5 : Pipeline.Window sig grid38 :=
  Pipeline.Window.ofSpec (Memref.whole main_call0_v282_1) S1x1024.size cc38_transform_5 reads38_5 true false 2 stage38_5 sem38_5
    hrank38 hreads38_5 hinb38_5 nbuf38_5 (Memref.isWhole_whole _) hwx38_5 hstage38_5

abbrev win38 : Fin 6 → Pipeline.Window sig grid38 := fun | 0 => win38_0 | 1 => win38_1 | 2 => win38_2 | 3 => win38_3 | 4 => win38_4 | 5 => win38_5 | ⟨_ + 6, h⟩ => absurd h (Nat.not_lt.2 (Nat.le_add_left _ _))
abbrev spec38 : Fin 6 → Pipeline.WinSpec sig grid38.rank := fun w => (win38 w).toWinSpec

abbrev win39_0 : Pipeline.Window sig grid39 :=
  Pipeline.Window.ofSpec (Memref.whole main_call0_v13_0) S1024x8192.size cc39_transform_0 reads39_0 false false 2 stage39_0 sem39_0
    hrank39 hreads39_0 hinb39_0 nbuf39_0 (Memref.isWhole_whole _) hwx39_0 hstage39_0

abbrev win39_1 : Pipeline.Window sig grid39 :=
  Pipeline.Window.ofSpec (Memref.whole main_call0_v282_0) S1x8192.size cc39_transform_1 reads39_1 false true 1 stage39_1 sem39_1
    hrank39 hreads39_1 hinb39_1 nbuf39_1 (Memref.isWhole_whole _) hwx39_1 hstage39_1

abbrev win39_2 : Pipeline.Window sig grid39 :=
  Pipeline.Window.ofSpec (Memref.whole main_call0_v285) S1x1.size cc39_transform_2 reads39_2 false true 1 stage39_2 sem39_2
    hrank39 hreads39_2 hinb39_2 nbuf39_2 (Memref.isWhole_whole _) hwx39_2 hstage39_2

abbrev win39_3 : Pipeline.Window sig grid39 :=
  Pipeline.Window.ofSpec (Memref.whole main_call0_v282_1) S1x1024.size cc39_transform_3 reads39_3 false false 2 stage39_3 sem39_3
    hrank39 hreads39_3 hinb39_3 nbuf39_3 (Memref.isWhole_whole _) hwx39_3 hstage39_3

abbrev win39_4 : Pipeline.Window sig grid39 :=
  Pipeline.Window.ofSpec (Memref.whole main_call0_v286_0) S1x1024.size cc39_transform_4 reads39_4 true false 2 stage39_4 sem39_4
    hrank39 hreads39_4 hinb39_4 nbuf39_4 (Memref.isWhole_whole _) hwx39_4 hstage39_4

abbrev win39_5 : Pipeline.Window sig grid39 :=
  Pipeline.Window.ofSpec (Memref.whole main_call0_v286_1) S1x1024.size cc39_transform_5 reads39_5 true false 2 stage39_5 sem39_5
    hrank39 hreads39_5 hinb39_5 nbuf39_5 (Memref.isWhole_whole _) hwx39_5 hstage39_5

abbrev win39 : Fin 6 → Pipeline.Window sig grid39 := fun | 0 => win39_0 | 1 => win39_1 | 2 => win39_2 | 3 => win39_3 | 4 => win39_4 | 5 => win39_5 | ⟨_ + 6, h⟩ => absurd h (Nat.not_lt.2 (Nat.le_add_left _ _))
abbrev spec39 : Fin 6 → Pipeline.WinSpec sig grid39.rank := fun w => (win39 w).toWinSpec

class Facts : Prop extends Facts₀ where
  halias0_6 : Pipeline.Aliased win0 3 6
  halias1_5 : Pipeline.Aliased win1 3 5
  halias2_5 : Pipeline.Aliased win2 3 5
  halias3_5 : Pipeline.Aliased win3 3 5
  halias4_5 : Pipeline.Aliased win4 3 5
  halias5_5 : Pipeline.Aliased win5 3 5
  halias6_5 : Pipeline.Aliased win6 3 5
  halias7_5 : Pipeline.Aliased win7 3 5
  halias8_5 : Pipeline.Aliased win8 3 5
  halias9_5 : Pipeline.Aliased win9 3 5
  halias10_5 : Pipeline.Aliased win10 3 5
  halias11_5 : Pipeline.Aliased win11 3 5
  halias12_5 : Pipeline.Aliased win12 3 5
  halias13_5 : Pipeline.Aliased win13 3 5
  halias14_5 : Pipeline.Aliased win14 3 5
  halias15_5 : Pipeline.Aliased win15 3 5
  halias16_5 : Pipeline.Aliased win16 3 5
  halias17_5 : Pipeline.Aliased win17 3 5
  halias18_5 : Pipeline.Aliased win18 3 5
  halias19_5 : Pipeline.Aliased win19 3 5
  halias20_5 : Pipeline.Aliased win20 3 5
  halias21_5 : Pipeline.Aliased win21 3 5
  halias22_5 : Pipeline.Aliased win22 3 5
  halias23_5 : Pipeline.Aliased win23 3 5
  halias24_5 : Pipeline.Aliased win24 3 5
  halias25_5 : Pipeline.Aliased win25 3 5
  halias26_5 : Pipeline.Aliased win26 3 5
  halias27_5 : Pipeline.Aliased win27 3 5
  halias28_5 : Pipeline.Aliased win28 3 5
  halias29_5 : Pipeline.Aliased win29 3 5
  halias30_5 : Pipeline.Aliased win30 3 5
  halias31_5 : Pipeline.Aliased win31 3 5
  halias32_5 : Pipeline.Aliased win32 3 5
  halias33_5 : Pipeline.Aliased win33 3 5
  halias34_5 : Pipeline.Aliased win34 3 5
  halias35_5 : Pipeline.Aliased win35 3 5
  halias36_5 : Pipeline.Aliased win36 3 5
  halias37_5 : Pipeline.Aliased win37 3 5
  halias38_5 : Pipeline.Aliased win38 3 5
  halias39_5 : Pipeline.Aliased win39 3 5

variable [Facts]
-- ==== ReferenceIdeal.lean ====
abbrev S8192x8192 : Shape := ⟨2, ![8192, 8192]⟩
abbrev S8192x1 : Shape := ⟨2, ![8192, 1]⟩
abbrev S2x5x5 : Shape := ⟨3, ![2, 5, 5]⟩
abbrev S_ : Shape := ⟨0, ![]⟩
abbrev S1x1x1 : Shape := ⟨3, ![1, 1, 1]⟩
abbrev S8192x2 : Shape := ⟨2, ![8192, 2]⟩

abbrev nBuf : Space → Nat
  | .hbm => 494
  | .vmem => 0
  | .smem => 0
  | _ => 0

abbrev hbmTy0_0 (i : Nat) : BufTy := match i % 128 with
  | 0 => ⟨S8192x8192, .f32⟩
  | 1 => ⟨S8192x1, .f32⟩
  | 2 => ⟨S2x5x5, .f32⟩
  | 3 => ⟨S_, .f32⟩
  | 4 => ⟨S8192x8192, .f32⟩
  | 5 => ⟨S8192x8192, .f32⟩
  | 6 => ⟨S_, .f32⟩
  | 7 => ⟨S8192x8192, .f32⟩
  | 8 => ⟨S8192x8192, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S1x1x1, .f32⟩
  | 16 => ⟨S_, .f32⟩
  | 17 => ⟨S8192x1, .f32⟩
  | 18 => ⟨S8192x1, .f32⟩
  | 19 => ⟨S8192x1, .f32⟩
  | 20 => ⟨S1x1x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S1x1x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S1x1x1, .f32⟩
  | 33 => ⟨S_, .f32⟩
  | 34 => ⟨S8192x1, .f32⟩
  | 35 => ⟨S8192x1, .f32⟩
  | 36 => ⟨S8192x1, .f32⟩
  | 37 => ⟨S8192x1, .f32⟩
  | 38 => ⟨S1x1x1, .f32⟩
  | 39 => ⟨S_, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .i1⟩
  | 46 => ⟨S_, .f32⟩
  | 47 => ⟨S8192x1, .f32⟩
  | 48 => ⟨S8192x1, .f32⟩
  | 49 => ⟨S8192x1, .f32⟩
  | 50 => ⟨S_, .f32⟩
  | 51 => ⟨S_, .f32⟩
  | 52 => ⟨S_, .f32⟩
  | 53 => ⟨S_, .f32⟩
  | 54 => ⟨S8192x1, .f32⟩
  | 55 => ⟨S8192x1, .f32⟩
  | 56 => ⟨S_, .f32⟩
  | 57 => ⟨S_, .f32⟩
  | 58 => ⟨S_, .f32⟩
  | 59 => ⟨S_, .f32⟩
  | 60 => ⟨S8192x1, .f32⟩
  | 61 => ⟨S8192x1, .f32⟩
  | 62 => ⟨S1x1x1, .f32⟩
  | 63 => ⟨S_, .f32⟩
  | 64 => ⟨S8192x1, .f32⟩
  | 65 => ⟨S8192x1, .f32⟩
  | 66 => ⟨S8192x1, .f32⟩
  | 67 => ⟨S1x1x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S1x1x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S1x1x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S1x1x1, .f32⟩
  | 86 => ⟨S_, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .i1⟩
  | 93 => ⟨S_, .f32⟩
  | 94 => ⟨S8192x1, .f32⟩
  | 95 => ⟨S8192x1, .f32⟩
  | 96 => ⟨S8192x1, .f32⟩
  | 97 => ⟨S_, .f32⟩
  | 98 => ⟨S_, .f32⟩
  | 99 => ⟨S_, .f32⟩
  | 100 => ⟨S_, .f32⟩
  | 101 => ⟨S8192x1, .f32⟩
  | 102 => ⟨S8192x1, .f32⟩
  | 103 => ⟨S_, .f32⟩
  | 104 => ⟨S_, .f32⟩
  | 105 => ⟨S_, .f32⟩
  | 106 => ⟨S_, .f32⟩
  | 107 => ⟨S8192x1, .f32⟩
  | 108 => ⟨S8192x1, .f32⟩
  | 109 => ⟨S1x1x1, .f32⟩
  | 110 => ⟨S_, .f32⟩
  | 111 => ⟨S8192x1, .f32⟩
  | 112 => ⟨S8192x1, .f32⟩
  | 113 => ⟨S8192x1, .f32⟩
  | 114 => ⟨S1x1x1, .f32⟩
  | 115 => ⟨S_, .f32⟩
  | 116 => ⟨S8192x1, .f32⟩
  | 117 => ⟨S8192x1, .f32⟩
  | 118 => ⟨S8192x1, .f32⟩
  | 119 => ⟨S8192x1, .f32⟩
  | 120 => ⟨S1x1x1, .f32⟩
  | 121 => ⟨S_, .f32⟩
  | 122 => ⟨S8192x1, .f32⟩
  | 123 => ⟨S8192x1, .f32⟩
  | 124 => ⟨S8192x1, .f32⟩
  | 125 => ⟨S8192x1, .f32⟩
  | 126 => ⟨S1x1x1, .f32⟩
  | 127 => ⟨S_, .f32⟩
  | _ => ⟨S8192x8192, .f32⟩

abbrev hbmTy0_1 (i : Nat) : BufTy := match i % 128 with
  | 0 => ⟨S8192x1, .f32⟩
  | 1 => ⟨S8192x1, .f32⟩
  | 2 => ⟨S8192x1, .f32⟩
  | 3 => ⟨S8192x1, .f32⟩
  | 4 => ⟨S1x1x1, .f32⟩
  | 5 => ⟨S_, .f32⟩
  | 6 => ⟨S8192x1, .f32⟩
  | 7 => ⟨S8192x1, .f32⟩
  | 8 => ⟨S8192x1, .f32⟩
  | 9 => ⟨S_, .f32⟩
  | 10 => ⟨S8192x1, .f32⟩
  | 11 => ⟨S8192x1, .i1⟩
  | 12 => ⟨S_, .f32⟩
  | 13 => ⟨S8192x1, .f32⟩
  | 14 => ⟨S8192x1, .f32⟩
  | 15 => ⟨S8192x1, .f32⟩
  | 16 => ⟨S_, .f32⟩
  | 17 => ⟨S_, .f32⟩
  | 18 => ⟨S_, .f32⟩
  | 19 => ⟨S_, .f32⟩
  | 20 => ⟨S8192x1, .f32⟩
  | 21 => ⟨S8192x1, .f32⟩
  | 22 => ⟨S_, .f32⟩
  | 23 => ⟨S_, .f32⟩
  | 24 => ⟨S_, .f32⟩
  | 25 => ⟨S_, .f32⟩
  | 26 => ⟨S8192x1, .f32⟩
  | 27 => ⟨S8192x1, .f32⟩
  | 28 => ⟨S1x1x1, .f32⟩
  | 29 => ⟨S_, .f32⟩
  | 30 => ⟨S8192x1, .f32⟩
  | 31 => ⟨S8192x1, .f32⟩
  | 32 => ⟨S8192x1, .f32⟩
  | 33 => ⟨S1x1x1, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S1x1x1, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S1x1x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S1x1x1, .f32⟩
  | 52 => ⟨S_, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .i1⟩
  | 59 => ⟨S_, .f32⟩
  | 60 => ⟨S8192x1, .f32⟩
  | 61 => ⟨S8192x1, .f32⟩
  | 62 => ⟨S8192x1, .f32⟩
  | 63 => ⟨S_, .f32⟩
  | 64 => ⟨S_, .f32⟩
  | 65 => ⟨S_, .f32⟩
  | 66 => ⟨S_, .f32⟩
  | 67 => ⟨S8192x1, .f32⟩
  | 68 => ⟨S8192x1, .f32⟩
  | 69 => ⟨S_, .f32⟩
  | 70 => ⟨S_, .f32⟩
  | 71 => ⟨S_, .f32⟩
  | 72 => ⟨S_, .f32⟩
  | 73 => ⟨S8192x1, .f32⟩
  | 74 => ⟨S8192x1, .f32⟩
  | 75 => ⟨S1x1x1, .f32⟩
  | 76 => ⟨S_, .f32⟩
  | 77 => ⟨S8192x1, .f32⟩
  | 78 => ⟨S8192x1, .f32⟩
  | 79 => ⟨S8192x1, .f32⟩
  | 80 => ⟨S1x1x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S1x1x1, .f32⟩
  | 87 => ⟨S_, .f32⟩
  | 88 => ⟨S8192x1, .f32⟩
  | 89 => ⟨S8192x1, .f32⟩
  | 90 => ⟨S8192x1, .f32⟩
  | 91 => ⟨S8192x1, .f32⟩
  | 92 => ⟨S1x1x1, .f32⟩
  | 93 => ⟨S_, .f32⟩
  | 94 => ⟨S8192x1, .f32⟩
  | 95 => ⟨S8192x1, .f32⟩
  | 96 => ⟨S8192x1, .f32⟩
  | 97 => ⟨S8192x1, .f32⟩
  | 98 => ⟨S1x1x1, .f32⟩
  | 99 => ⟨S_, .f32⟩
  | 100 => ⟨S8192x1, .f32⟩
  | 101 => ⟨S8192x1, .f32⟩
  | 102 => ⟨S8192x1, .f32⟩
  | 103 => ⟨S_, .f32⟩
  | 104 => ⟨S8192x1, .f32⟩
  | 105 => ⟨S8192x1, .i1⟩
  | 106 => ⟨S_, .f32⟩
  | 107 => ⟨S8192x1, .f32⟩
  | 108 => ⟨S8192x1, .f32⟩
  | 109 => ⟨S8192x1, .f32⟩
  | 110 => ⟨S_, .f32⟩
  | 111 => ⟨S_, .f32⟩
  | 112 => ⟨S_, .f32⟩
  | 113 => ⟨S_, .f32⟩
  | 114 => ⟨S8192x1, .f32⟩
  | 115 => ⟨S8192x1, .f32⟩
  | 116 => ⟨S_, .f32⟩
  | 117 => ⟨S_, .f32⟩
  | 118 => ⟨S_, .f32⟩
  | 119 => ⟨S_, .f32⟩
  | 120 => ⟨S8192x1, .f32⟩
  | 121 => ⟨S8192x1, .f32⟩
  | 122 => ⟨S1x1x1, .f32⟩
  | 123 => ⟨S_, .f32⟩
  | 124 => ⟨S8192x1, .f32⟩
  | 125 => ⟨S8192x1, .f32⟩
  | 126 => ⟨S8192x1, .f32⟩
  | 127 => ⟨S1x1x1, .f32⟩
  | _ => ⟨S8192x8192, .f32⟩

abbrev hbmTy0_2 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x1, .f32⟩
  | 5 => ⟨S1x1x1, .f32⟩
  | 6 => ⟨S_, .f32⟩
  | 7 => ⟨S8192x1, .f32⟩
  | 8 => ⟨S8192x1, .f32⟩
  | 9 => ⟨S8192x1, .f32⟩
  | 10 => ⟨S8192x1, .f32⟩
  | 11 => ⟨S1x1x1, .f32⟩
  | 12 => ⟨S_, .f32⟩
  | 13 => ⟨S8192x1, .f32⟩
  | 14 => ⟨S8192x1, .f32⟩
  | 15 => ⟨S8192x1, .f32⟩
  | 16 => ⟨S8192x1, .f32⟩
  | 17 => ⟨S1x1x1, .f32⟩
  | 18 => ⟨S_, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .i1⟩
  | 25 => ⟨S_, .f32⟩
  | 26 => ⟨S8192x1, .f32⟩
  | 27 => ⟨S8192x1, .f32⟩
  | 28 => ⟨S8192x1, .f32⟩
  | 29 => ⟨S_, .f32⟩
  | 30 => ⟨S_, .f32⟩
  | 31 => ⟨S_, .f32⟩
  | 32 => ⟨S_, .f32⟩
  | 33 => ⟨S8192x1, .f32⟩
  | 34 => ⟨S8192x1, .f32⟩
  | 35 => ⟨S_, .f32⟩
  | 36 => ⟨S_, .f32⟩
  | 37 => ⟨S_, .f32⟩
  | 38 => ⟨S_, .f32⟩
  | 39 => ⟨S8192x1, .f32⟩
  | 40 => ⟨S8192x1, .f32⟩
  | 41 => ⟨S1x1x1, .f32⟩
  | 42 => ⟨S_, .f32⟩
  | 43 => ⟨S8192x1, .f32⟩
  | 44 => ⟨S8192x1, .f32⟩
  | 45 => ⟨S8192x1, .f32⟩
  | 46 => ⟨S1x1x1, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S1x1x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S1x1x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S1x1x1, .f32⟩
  | 65 => ⟨S_, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .i1⟩
  | 72 => ⟨S_, .f32⟩
  | 73 => ⟨S8192x1, .f32⟩
  | 74 => ⟨S8192x1, .f32⟩
  | 75 => ⟨S8192x1, .f32⟩
  | 76 => ⟨S_, .f32⟩
  | 77 => ⟨S_, .f32⟩
  | 78 => ⟨S_, .f32⟩
  | 79 => ⟨S_, .f32⟩
  | 80 => ⟨S8192x1, .f32⟩
  | 81 => ⟨S8192x1, .f32⟩
  | 82 => ⟨S_, .f32⟩
  | 83 => ⟨S_, .f32⟩
  | 84 => ⟨S_, .f32⟩
  | 85 => ⟨S_, .f32⟩
  | 86 => ⟨S8192x1, .f32⟩
  | 87 => ⟨S8192x1, .f32⟩
  | 88 => ⟨S1x1x1, .f32⟩
  | 89 => ⟨S_, .f32⟩
  | 90 => ⟨S8192x1, .f32⟩
  | 91 => ⟨S8192x1, .f32⟩
  | 92 => ⟨S8192x1, .f32⟩
  | 93 => ⟨S1x1x1, .f32⟩
  | 94 => ⟨S_, .f32⟩
  | 95 => ⟨S8192x1, .f32⟩
  | 96 => ⟨S8192x1, .f32⟩
  | 97 => ⟨S8192x1, .f32⟩
  | 98 => ⟨S8192x1, .f32⟩
  | 99 => ⟨S1x1x1, .f32⟩
  | 100 => ⟨S_, .f32⟩
  | 101 => ⟨S8192x1, .f32⟩
  | 102 => ⟨S8192x1, .f32⟩
  | 103 => ⟨S8192x1, .f32⟩
  | 104 => ⟨S8192x1, .f32⟩
  | 105 => ⟨S1x1x1, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S1x1x1, .f32⟩
  | 112 => ⟨S_, .f32⟩
  | 113 => ⟨S8192x1, .f32⟩
  | 114 => ⟨S8192x1, .f32⟩
  | 115 => ⟨S8192x1, .f32⟩
  | 116 => ⟨S_, .f32⟩
  | 117 => ⟨S8192x1, .f32⟩
  | 118 => ⟨S8192x1, .i1⟩
  | 119 => ⟨S_, .f32⟩
  | 120 => ⟨S8192x1, .f32⟩
  | 121 => ⟨S8192x1, .f32⟩
  | 122 => ⟨S8192x1, .f32⟩
  | 123 => ⟨S_, .f32⟩
  | 124 => ⟨S_, .f32⟩
  | 125 => ⟨S_, .f32⟩
  | 126 => ⟨S_, .f32⟩
  | 127 => ⟨S8192x1, .f32⟩
  | _ => ⟨S8192x8192, .f32⟩

abbrev hbmTy0_3 (i : Nat) : BufTy := match i % 128 with
  | 0 => ⟨S8192x1, .f32⟩
  | 1 => ⟨S_, .f32⟩
  | 2 => ⟨S_, .f32⟩
  | 3 => ⟨S_, .f32⟩
  | 4 => ⟨S_, .f32⟩
  | 5 => ⟨S8192x1, .f32⟩
  | 6 => ⟨S8192x1, .f32⟩
  | 7 => ⟨S1x1x1, .f32⟩
  | 8 => ⟨S_, .f32⟩
  | 9 => ⟨S8192x1, .f32⟩
  | 10 => ⟨S8192x1, .f32⟩
  | 11 => ⟨S8192x1, .f32⟩
  | 12 => ⟨S1x1x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S1x1x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S1x1x1, .f32⟩
  | 25 => ⟨S_, .f32⟩
  | 26 => ⟨S8192x1, .f32⟩
  | 27 => ⟨S8192x1, .f32⟩
  | 28 => ⟨S8192x1, .f32⟩
  | 29 => ⟨S8192x1, .f32⟩
  | 30 => ⟨S1x1x1, .f32⟩
  | 31 => ⟨S_, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .i1⟩
  | 38 => ⟨S_, .f32⟩
  | 39 => ⟨S8192x1, .f32⟩
  | 40 => ⟨S8192x1, .f32⟩
  | 41 => ⟨S8192x1, .f32⟩
  | 42 => ⟨S_, .f32⟩
  | 43 => ⟨S_, .f32⟩
  | 44 => ⟨S_, .f32⟩
  | 45 => ⟨S_, .f32⟩
  | 46 => ⟨S8192x1, .f32⟩
  | 47 => ⟨S8192x1, .f32⟩
  | 48 => ⟨S_, .f32⟩
  | 49 => ⟨S_, .f32⟩
  | 50 => ⟨S_, .f32⟩
  | 51 => ⟨S_, .f32⟩
  | 52 => ⟨S8192x1, .f32⟩
  | 53 => ⟨S8192x1, .f32⟩
  | 54 => ⟨S1x1x1, .f32⟩
  | 55 => ⟨S_, .f32⟩
  | 56 => ⟨S8192x1, .f32⟩
  | 57 => ⟨S8192x1, .f32⟩
  | 58 => ⟨S8192x1, .f32⟩
  | 59 => ⟨S1x1x1, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S1x1x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S1x1x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S1x1x1, .f32⟩
  | 78 => ⟨S_, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .i1⟩
  | 85 => ⟨S_, .f32⟩
  | 86 => ⟨S8192x1, .f32⟩
  | 87 => ⟨S8192x1, .f32⟩
  | 88 => ⟨S8192x1, .f32⟩
  | 89 => ⟨S_, .f32⟩
  | 90 => ⟨S_, .f32⟩
  | 91 => ⟨S_, .f32⟩
  | 92 => ⟨S_, .f32⟩
  | 93 => ⟨S8192x1, .f32⟩
  | 94 => ⟨S8192x1, .f32⟩
  | 95 => ⟨S_, .f32⟩
  | 96 => ⟨S_, .f32⟩
  | 97 => ⟨S_, .f32⟩
  | 98 => ⟨S_, .f32⟩
  | 99 => ⟨S8192x1, .f32⟩
  | 100 => ⟨S8192x1, .f32⟩
  | 101 => ⟨S8192x2, .f32⟩
  | 102 => ⟨S8192x2, .f32⟩
  | 103 => ⟨S8192x2, .f32⟩
  | 104 => ⟨S_, .f32⟩
  | 105 => ⟨S8192x2, .f32⟩
  | 106 => ⟨S8192x2, .f32⟩
  | 107 => ⟨S_, .f32⟩
  | 108 => ⟨S8192x2, .f32⟩
  | 109 => ⟨S8192x2, .f32⟩
  | _ => ⟨S8192x8192, .f32⟩

abbrev hbmTy (i : Nat) : BufTy := match i / 128 with
  | 0 => hbmTy0_0 i
  | 1 => hbmTy0_1 i
  | 2 => hbmTy0_2 i
  | 3 => hbmTy0_3 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_call2_cst : Ref sig .tc := ⟨.hbm, 137, rfl⟩
abbrev main_call2_v0 : Ref sig .tc := ⟨.hbm, 138, rfl⟩
abbrev main_call2_v1 : Ref sig .tc := ⟨.hbm, 139, rfl⟩
abbrev main_call2_cst_0 : Ref sig .tc := ⟨.hbm, 140, rfl⟩
abbrev main_call2_v2 : Ref sig .tc := ⟨.hbm, 141, rfl⟩
abbrev main_call2_v3 : Ref sig .tc := ⟨.hbm, 142, rfl⟩
abbrev main_v110 : Ref sig .tc := ⟨.hbm, 143, rfl⟩
abbrev main_cst_11 : Ref sig .tc := ⟨.hbm, 144, rfl⟩
abbrev main_v111 : Ref sig .tc := ⟨.hbm, 145, rfl⟩
abbrev main_cst_12 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_13 : Ref sig .tc := ⟨.hbm, 150, rfl⟩
abbrev main_v115 : Ref sig .tc := ⟨.hbm, 151, rfl⟩
abbrev main_cst_14 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_call3_cst : Ref sig .tc := ⟨.hbm, 184, rfl⟩
abbrev main_call3_v0 : Ref sig .tc := ⟨.hbm, 185, rfl⟩
abbrev main_call3_v1 : Ref sig .tc := ⟨.hbm, 186, rfl⟩
abbrev main_call3_cst_0 : Ref sig .tc := ⟨.hbm, 187, rfl⟩
abbrev main_call3_v2 : Ref sig .tc := ⟨.hbm, 188, rfl⟩
abbrev main_call3_v3 : Ref sig .tc := ⟨.hbm, 189, rfl⟩
abbrev main_v147 : Ref sig .tc := ⟨.hbm, 190, rfl⟩
abbrev main_cst_15 : Ref sig .tc := ⟨.hbm, 191, rfl⟩
abbrev main_v148 : Ref sig .tc := ⟨.hbm, 192, rfl⟩
abbrev main_cst_16 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_17 : Ref sig .tc := ⟨.hbm, 197, rfl⟩
abbrev main_v152 : Ref sig .tc := ⟨.hbm, 198, rfl⟩
abbrev main_cst_18 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_cst_0 : Ref sig .tc := ⟨.hbm, 234, rfl⟩
abbrev main_call4_v2 : Ref sig .tc := ⟨.hbm, 235, rfl⟩
abbrev main_call4_v3 : Ref sig .tc := ⟨.hbm, 236, rfl⟩
abbrev main_v184 : Ref sig .tc := ⟨.hbm, 237, rfl⟩
abbrev main_cst_19 : Ref sig .tc := ⟨.hbm, 238, rfl⟩
abbrev main_v185 : Ref sig .tc := ⟨.hbm, 239, rfl⟩
abbrev main_cst_20 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_21 : Ref sig .tc := ⟨.hbm, 244, rfl⟩
abbrev main_v189 : Ref sig .tc := ⟨.hbm, 245, rfl⟩
abbrev main_cst_22 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_call5_cst : Ref sig .tc := ⟨.hbm, 278, rfl⟩
abbrev main_call5_v0 : Ref sig .tc := ⟨.hbm, 279, rfl⟩
abbrev main_call5_v1 : Ref sig .tc := ⟨.hbm, 280, rfl⟩
abbrev main_call5_cst_0 : Ref sig .tc := ⟨.hbm, 281, rfl⟩
abbrev main_call5_v2 : Ref sig .tc := ⟨.hbm, 282, rfl⟩
abbrev main_call5_v3 : Ref sig .tc := ⟨.hbm, 283, rfl⟩
abbrev main_v221 : Ref sig .tc := ⟨.hbm, 284, rfl⟩
abbrev main_cst_23 : Ref sig .tc := ⟨.hbm, 285, rfl⟩
abbrev main_v222 : Ref sig .tc := ⟨.hbm, 286, rfl⟩
abbrev main_cst_24 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_cst_25 : Ref sig .tc := ⟨.hbm, 291, rfl⟩
abbrev main_v226 : Ref sig .tc := ⟨.hbm, 292, rfl⟩
abbrev main_cst_26 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_call6_cst : Ref sig .tc := ⟨.hbm, 325, rfl⟩
abbrev main_call6_v0 : Ref sig .tc := ⟨.hbm, 326, rfl⟩
abbrev main_call6_v1 : Ref sig .tc := ⟨.hbm, 327, rfl⟩
abbrev main_call6_cst_0 : Ref sig .tc := ⟨.hbm, 328, rfl⟩
abbrev main_call6_v2 : Ref sig .tc := ⟨.hbm, 329, rfl⟩
abbrev main_call6_v3 : Ref sig .tc := ⟨.hbm, 330, rfl⟩
abbrev main_v258 : Ref sig .tc := ⟨.hbm, 331, rfl⟩
abbrev main_cst_27 : Ref sig .tc := ⟨.hbm, 332, rfl⟩
abbrev main_v259 : Ref sig .tc := ⟨.hbm, 333, rfl⟩
abbrev main_cst_28 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_cst_29 : Ref sig .tc := ⟨.hbm, 338, rfl⟩
abbrev main_v263 : Ref sig .tc := ⟨.hbm, 339, rfl⟩
abbrev main_cst_30 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_call7_cst : Ref sig .tc := ⟨.hbm, 372, rfl⟩
abbrev main_call7_v0 : Ref sig .tc := ⟨.hbm, 373, rfl⟩
abbrev main_call7_v1 : Ref sig .tc := ⟨.hbm, 374, rfl⟩
abbrev main_call7_cst_0 : Ref sig .tc := ⟨.hbm, 375, rfl⟩
abbrev main_call7_v2 : Ref sig .tc := ⟨.hbm, 376, rfl⟩
abbrev main_call7_v3 : Ref sig .tc := ⟨.hbm, 377, rfl⟩
abbrev main_v295 : Ref sig .tc := ⟨.hbm, 378, rfl⟩
abbrev main_cst_31 : Ref sig .tc := ⟨.hbm, 379, rfl⟩
abbrev main_v296 : Ref sig .tc := ⟨.hbm, 380, rfl⟩
abbrev main_cst_32 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_cst_33 : Ref sig .tc := ⟨.hbm, 385, rfl⟩
abbrev main_v300 : Ref sig .tc := ⟨.hbm, 386, rfl⟩
abbrev main_cst_34 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_call8_cst : Ref sig .tc := ⟨.hbm, 419, rfl⟩
abbrev main_call8_v0 : Ref sig .tc := ⟨.hbm, 420, rfl⟩
abbrev main_call8_v1 : Ref sig .tc := ⟨.hbm, 421, rfl⟩
abbrev main_call8_cst_0 : Ref sig .tc := ⟨.hbm, 422, rfl⟩
abbrev main_call8_v2 : Ref sig .tc := ⟨.hbm, 423, rfl⟩
abbrev main_call8_v3 : Ref sig .tc := ⟨.hbm, 424, rfl⟩
abbrev main_v332 : Ref sig .tc := ⟨.hbm, 425, rfl⟩
abbrev main_cst_35 : Ref sig .tc := ⟨.hbm, 426, rfl⟩
abbrev main_v333 : Ref sig .tc := ⟨.hbm, 427, rfl⟩
abbrev main_cst_36 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_cst_37 : Ref sig .tc := ⟨.hbm, 432, rfl⟩
abbrev main_v337 : Ref sig .tc := ⟨.hbm, 433, rfl⟩
abbrev main_cst_38 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_call9_cst : Ref sig .tc := ⟨.hbm, 466, rfl⟩
abbrev main_call9_v0 : Ref sig .tc := ⟨.hbm, 467, rfl⟩
abbrev main_call9_v1 : Ref sig .tc := ⟨.hbm, 468, rfl⟩
abbrev main_call9_cst_0 : Ref sig .tc := ⟨.hbm, 469, rfl⟩
abbrev main_call9_v2 : Ref sig .tc := ⟨.hbm, 470, rfl⟩
abbrev main_call9_v3 : Ref sig .tc := ⟨.hbm, 471, rfl⟩
abbrev main_v369 : Ref sig .tc := ⟨.hbm, 472, rfl⟩
abbrev main_cst_39 : Ref sig .tc := ⟨.hbm, 473, rfl⟩
abbrev main_v370 : Ref sig .tc := ⟨.hbm, 474, rfl⟩
abbrev main_cst_40 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_cst_41 : Ref sig .tc := ⟨.hbm, 479, rfl⟩
abbrev main_v374 : Ref sig .tc := ⟨.hbm, 480, rfl⟩
abbrev main_cst_42 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_cst_43 : Ref sig .tc := ⟨.hbm, 488, rfl⟩
abbrev main_v381 : Ref sig .tc := ⟨.hbm, 489, rfl⟩
abbrev main_v382 : Ref sig .tc := ⟨.hbm, 490, rfl⟩
abbrev main_cst_44 : Ref sig .tc := ⟨.hbm, 491, rfl⟩
abbrev main_v383 : Ref sig .tc := ⟨.hbm, 492, rfl⟩
abbrev main_v384 : Ref sig .tc := ⟨.hbm, 493, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192x1 : S_.BroadcastsInDim S8192x1 (![] : Fin 0 → Fin S8192x1.rank)
  slices_S2x5x5_S1x1x1_0_0_0 : S2x5x5.Slices ![0, 0, 0] S1x1x1
  shapeCasts_S1x1x1_S_ : S1x1x1.ShapeCasts S_
  slices_S2x5x5_S1x1x1_0_0_1 : S2x5x5.Slices ![0, 0, 1] S1x1x1
  slices_S2x5x5_S1x1x1_0_0_2 : S2x5x5.Slices ![0, 0, 2] S1x1x1
  slices_S2x5x5_S1x1x1_0_0_3 : S2x5x5.Slices ![0, 0, 3] S1x1x1
  slices_S2x5x5_S1x1x1_0_0_4 : S2x5x5.Slices ![0, 0, 4] S1x1x1
  reducesTo_S8192x1_S_d0_1 : S8192x1.ReducesTo [0, 1] S_
  h_S_ : 0 < S_.numel
  slices_S2x5x5_S1x1x1_0_1_0 : S2x5x5.Slices ![0, 1, 0] S1x1x1
  slices_S2x5x5_S1x1x1_0_1_1 : S2x5x5.Slices ![0, 1, 1] S1x1x1
  slices_S2x5x5_S1x1x1_0_1_2 : S2x5x5.Slices ![0, 1, 2] S1x1x1
  slices_S2x5x5_S1x1x1_0_1_3 : S2x5x5.Slices ![0, 1, 3] S1x1x1
  slices_S2x5x5_S1x1x1_0_1_4 : S2x5x5.Slices ![0, 1, 4] S1x1x1
  slices_S2x5x5_S1x1x1_0_2_0 : S2x5x5.Slices ![0, 2, 0] S1x1x1
  slices_S2x5x5_S1x1x1_0_2_1 : S2x5x5.Slices ![0, 2, 1] S1x1x1
  slices_S2x5x5_S1x1x1_0_2_2 : S2x5x5.Slices ![0, 2, 2] S1x1x1
  slices_S2x5x5_S1x1x1_0_2_3 : S2x5x5.Slices ![0, 2, 3] S1x1x1
  slices_S2x5x5_S1x1x1_0_2_4 : S2x5x5.Slices ![0, 2, 4] S1x1x1
  slices_S2x5x5_S1x1x1_0_3_0 : S2x5x5.Slices ![0, 3, 0] S1x1x1
  slices_S2x5x5_S1x1x1_0_3_1 : S2x5x5.Slices ![0, 3, 1] S1x1x1
  slices_S2x5x5_S1x1x1_0_3_2 : S2x5x5.Slices ![0, 3, 2] S1x1x1
  slices_S2x5x5_S1x1x1_0_3_3 : S2x5x5.Slices ![0, 3, 3] S1x1x1
  slices_S2x5x5_S1x1x1_0_3_4 : S2x5x5.Slices ![0, 3, 4] S1x1x1
  slices_S2x5x5_S1x1x1_0_4_0 : S2x5x5.Slices ![0, 4, 0] S1x1x1
  slices_S2x5x5_S1x1x1_0_4_1 : S2x5x5.Slices ![0, 4, 1] S1x1x1
  slices_S2x5x5_S1x1x1_0_4_2 : S2x5x5.Slices ![0, 4, 2] S1x1x1
  slices_S2x5x5_S1x1x1_0_4_3 : S2x5x5.Slices ![0, 4, 3] S1x1x1
  slices_S2x5x5_S1x1x1_0_4_4 : S2x5x5.Slices ![0, 4, 4] S1x1x1
  slices_S2x5x5_S1x1x1_1_0_0 : S2x5x5.Slices ![1, 0, 0] S1x1x1
  slices_S2x5x5_S1x1x1_1_0_1 : S2x5x5.Slices ![1, 0, 1] S1x1x1
  slices_S2x5x5_S1x1x1_1_0_2 : S2x5x5.Slices ![1, 0, 2] S1x1x1
  slices_S2x5x5_S1x1x1_1_0_3 : S2x5x5.Slices ![1, 0, 3] S1x1x1
  slices_S2x5x5_S1x1x1_1_0_4 : S2x5x5.Slices ![1, 0, 4] S1x1x1
  slices_S2x5x5_S1x1x1_1_1_0 : S2x5x5.Slices ![1, 1, 0] S1x1x1
  slices_S2x5x5_S1x1x1_1_1_1 : S2x5x5.Slices ![1, 1, 1] S1x1x1
  slices_S2x5x5_S1x1x1_1_1_2 : S2x5x5.Slices ![1, 1, 2] S1x1x1
  slices_S2x5x5_S1x1x1_1_1_3 : S2x5x5.Slices ![1, 1, 3] S1x1x1
  slices_S2x5x5_S1x1x1_1_1_4 : S2x5x5.Slices ![1, 1, 4] S1x1x1
  slices_S2x5x5_S1x1x1_1_2_0 : S2x5x5.Slices ![1, 2, 0] S1x1x1
  slices_S2x5x5_S1x1x1_1_2_1 : S2x5x5.Slices ![1, 2, 1] S1x1x1
  slices_S2x5x5_S1x1x1_1_2_2 : S2x5x5.Slices ![1, 2, 2] S1x1x1
  slices_S2x5x5_S1x1x1_1_2_3 : S2x5x5.Slices ![1, 2, 3] S1x1x1
  slices_S2x5x5_S1x1x1_1_2_4 : S2x5x5.Slices ![1, 2, 4] S1x1x1
  slices_S2x5x5_S1x1x1_1_3_0 : S2x5x5.Slices ![1, 3, 0] S1x1x1
  slices_S2x5x5_S1x1x1_1_3_1 : S2x5x5.Slices ![1, 3, 1] S1x1x1
  slices_S2x5x5_S1x1x1_1_3_2 : S2x5x5.Slices ![1, 3, 2] S1x1x1
  slices_S2x5x5_S1x1x1_1_3_3 : S2x5x5.Slices ![1, 3, 3] S1x1x1
  slices_S2x5x5_S1x1x1_1_3_4 : S2x5x5.Slices ![1, 3, 4] S1x1x1
  slices_S2x5x5_S1x1x1_1_4_0 : S2x5x5.Slices ![1, 4, 0] S1x1x1
  slices_S2x5x5_S1x1x1_1_4_1 : S2x5x5.Slices ![1, 4, 1] S1x1x1
  slices_S2x5x5_S1x1x1_1_4_2 : S2x5x5.Slices ![1, 4, 2] S1x1x1
  slices_S2x5x5_S1x1x1_1_4_3 : S2x5x5.Slices ![1, 4, 3] S1x1x1
  slices_S2x5x5_S1x1x1_1_4_4 : S2x5x5.Slices ![1, 4, 4] S1x1x1
  concatenates_S8192x1_S8192x1_S8192x2_d1 : Shape.Concatenates [S8192x1, S8192x1] S8192x2 1
  bcast_S_S8192x2 : S_.BroadcastsInDim S8192x2 (![] : Fin 0 → Fin S8192x2.rank)
  dot_S8192x8192_S8192x1_S8192x1_1_0_0_1_n_n_wf : DotDims.WF S8192x8192 S8192x1 S8192x1 [1] [0] [0] [1] [] []

variable [Facts₀]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KRun.lean ====
/-
  The kernel program's run with its RESULT read: every weakly fair execution of @main terminates without a fault, the result
  buffer ends at the last boundary's contents of the fold through the 81 segments (41 stretches of host operations, 40
  regions), and the three argument arrays end as launched. The launch over the segments is the frame certificate's; only
  the last read differs: it also reads the result buffer.
-/
import proofs.«144169_j55405078119367_2_alg».proof.Proof.GenP.KernelIdeal.Frame

set_option maxRecDepth 16384

noncomputable section

namespace Cert.KernelIdeal.GenP

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v0) = W81 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W81 m ρ c b)
    (hfin := fun c s' => by
      iintro ⟨⟨Hh, -⟩, HSI⟩
      unfold StableHlo.held
      imodintro
      iapply (pointsTo_read_all (Pipeline.ucRefs τ sig) (fun b => (((c : Thread nD τ)).1, b)) (W81 m ρ c) s')
      isplitl [Hh] <;> iassumption)
    (hQ := fun s h c =>
      ⟨h c _ (mem_uc main_v0 (by decide)),
       (h c _ (mem_uc main_arg0 (by decide))).trans (W81_main_arg0 m ρ c),
       (h c _ (mem_uc main_arg1 (by decide))).trans (W81_main_arg1 m ρ c),
       (h c _ (mem_uc main_arg2 (by decide))).trans (W81_main_arg2 m ρ c)⟩)

end Cert.KernelIdeal.GenP

end
-- ==== Proof.Spec.lean ====
/-
  The specification both programs are read against: the polynomial graph filter in COLUMN form, as one function of the
  three argument arrays, built from the host operations themselves (no index is opened here).

  With Hn = (H + 1) · 0.5 and x₀ = (x + 1) · 0.5, each of the ten layers (output dimension a, hidden layer i) maps a column x to
    y  = α₀·x + α₁·(Hn x) + α₂·(Hn² x) + α₃·(Hn³ x) + α₄·(Hn⁴ x)        (the taps v_{j+1} = Hn v_j computed one after the other),
    z  = leaky_relu y,   z' = z / mean z,   next x = z' − mean z',
  the αⱼ being the entries alpha[a, i, j]; the result is sigmoid of the two columns after layers 5 and 10, side by side.
-/
import proofs.«144169_j55405078119367_2_alg».proof.Proof.Gen.ReferenceIdeal

noncomputable section

namespace Cert.ReferenceIdeal.Spec

open Cert.ReferenceIdeal Cert.ReferenceIdeal.Gen Idealize.ShloMosaic

variable {F : FTy → Type} [FloatOps F]

/-- A scalar spread over a column. -/
abbrev bc (a : FVec F S_ .f32) : FVec F S8192x1 .f32 := broadcastInDim S8192x1 ![] bcast_S_S8192x1 a

/-- The matrix applied to a column: (Hn v)ₙ = Σₖ Hn[n,k] · v[k]. -/
def mv (Hn : FVec F S8192x8192 .f32) (v : FVec F S8192x1 .f32) : FVec F S8192x1 .f32 :=
  Host.dotGeneral dot_S8192x8192_S8192x1_S8192x1_1_0_0_1_n_n none Hn v

/-- A column scaled by a scalar coefficient. -/
def sc (a : FVec F S_ .f32) (v : FVec F S8192x1 .f32) : FVec F S8192x1 .f32 := mulf (bc a) v

/-- leaky_relu with slope 0.01: y where y ≥ 0, 0.01 · y elsewhere. -/
def leaky (y : FVec F S8192x1 .f32) : FVec F S8192x1 .f32 :=
  select (cmpf (F := F) .oge y (bc (constant S_ .f32 0x00000000#32))) y (mulf (bc (constant S_ .f32 0x3C23D70A#32)) y)

/-- The mean of a column (its sum from 0, over 8192), spread over a column. -/
def meanB (z : FVec F S8192x1 .f32) : FVec F S8192x1 .f32 :=
  bc (Host.divf (Host.reduceAdd z (constant S_ .f32 0x00000000#32) reducesTo_S8192x1_S_d0_1 h_S_) (constant S_ .f32 0x46000000#32))

/-- Divide by the mean, then subtract the new mean. -/
def norm (z : FVec F S8192x1 .f32) : FVec F S8192x1 .f32 :=
  subf (Host.divf z (meanB z)) (meanB (Host.divf z (meanB z)))

/-- The weighted sum of the five taps of a layer. -/
def taps (a0 a1 a2 a3 a4 : FVec F S_ .f32) (Hn : FVec F S8192x8192 .f32) (x : FVec F S8192x1 .f32) : FVec F S8192x1 .f32 :=
  addf (addf (addf (addf (sc a0 x) (sc a1 (mv Hn x))) (sc a2 (mv Hn (mv Hn x)))) (sc a3 (mv Hn (mv Hn (mv Hn x)))))
    (sc a4 (mv Hn (mv Hn (mv Hn (mv Hn x)))))

/-- One layer: taps, leaky_relu, the two normalisations. -/
def layer (a0 a1 a2 a3 a4 : FVec F S_ .f32) (Hn : FVec F S8192x8192 .f32) (x : FVec F S8192x1 .f32) : FVec F S8192x1 .f32 :=
  norm (leaky (taps a0 a1 a2 a3 a4 Hn x))

/-- The affine map of the matrix, (H + 1) · 0.5. -/
def Hn (H : FVec F S8192x8192 .f32) : FVec F S8192x8192 .f32 :=
  mulf (addf H (broadcastInDim S8192x8192 ![] bcast_S_S8192x8192 (constant S_ .f32 0x3F800000#32)))
    (broadcastInDim S8192x8192 ![] bcast_S_S8192x8192 (constant S_ .f32 0x3F000000#32))

/-- The affine map of the input column, (x + 1) · 0.5. -/
def x0 (x : FVec F S8192x1 .f32) : FVec F S8192x1 .f32 :=
  mulf (addf x (bc (constant S_ .f32 0x3F800000#32))) (bc (constant S_ .f32 0x3F000000#32))

/-- sigmoid of two columns side by side: 1 / (1 + exp (−·)). -/
def tail (p q : FVec F S8192x1 .f32) : FVec F S8192x2 .f32 :=
  Host.divf (broadcastInDim S8192x2 ![] bcast_S_S8192x2 (constant S_ .f32 0x3F800000#32))
    (addf (broadcastInDim S8192x2 ![] bcast_S_S8192x2 (constant S_ .f32 0x3F800000#32))
      (Host.exp (Host.negf (concatenate S8192x2 1 [⟨S8192x1, p⟩, ⟨S8192x1, q⟩] concatenates_S8192x1_S8192x1_S8192x2_d1))))

/-- The entry alpha[a, i, j] as a scalar: the one-element slice, reshaped to rank 0. -/
abbrev coef (st : Fin 3 → Nat) (h : S2x5x5.Slices st S1x1x1) (alpha : FVec F S2x5x5 .f32) : FVec F S_ .f32 :=
  shapeCast S_ (extractStridedSlice S1x1x1 st alpha h) shapeCasts_S1x1x1_S_

/-- Layer (0, 0): its five coefficients are alpha[0, 0, 0..4]. -/
def layer00 (alpha : FVec F S2x5x5 .f32) (Hn : FVec F S8192x8192 .f32) (x : FVec F S8192x1 .f32) : FVec F S8192x1 .f32 :=
  layer (coef ![0, 0, 0] slices_S2x5x5_S1x1x1_0_0_0 alpha) (coef ![0, 0, 1] slices_S2x5x5_S1x1x1_0_0_1 alpha) (coef ![0, 0, 2] slices_S2x5x5_S1x1x1_0_0_2 alpha) (coef ![0, 0, 3] slices_S2x5x5_S1x1x1_0_0_3 alpha) (coef ![0, 0, 4] slices_S2x5x5_S1x1x1_0_0_4 alpha) Hn x

/-- Layer (0, 1): its five coefficients are alpha[0, 1, 0..4]. -/
def layer01 (alpha : FVec F S2x5x5 .f32) (Hn : FVec F S8192x8192 .f32) (x : FVec F S8192x1 .f32) : FVec F S8192x1 .f32 :=
  layer (coef ![0, 1, 0] slices_S2x5x5_S1x1x1_0_1_0 alpha) (coef ![0, 1, 1] slices_S2x5x5_S1x1x1_0_1_1 alpha) (coef ![0, 1, 2] slices_S2x5x5_S1x1x1_0_1_2 alpha) (coef ![0, 1, 3] slices_S2x5x5_S1x1x1_0_1_3 alpha) (coef ![0, 1, 4] slices_S2x5x5_S1x1x1_0_1_4 alpha) Hn x

/-- Layer (0, 2): its five coefficients are alpha[0, 2, 0..4]. -/
def layer02 (alpha : FVec F S2x5x5 .f32) (Hn : FVec F S8192x8192 .f32) (x : FVec F S8192x1 .f32) : FVec F S8192x1 .f32 :=
  layer (coef ![0, 2, 0] slices_S2x5x5_S1x1x1_0_2_0 alpha) (coef ![0, 2, 1] slices_S2x5x5_S1x1x1_0_2_1 alpha) (coef ![0, 2, 2] slices_S2x5x5_S1x1x1_0_2_2 alpha) (coef ![0, 2, 3] slices_S2x5x5_S1x1x1_0_2_3 alpha) (coef ![0, 2, 4] slices_S2x5x5_S1x1x1_0_2_4 alpha) Hn x

/-- Layer (0, 3): its five coefficients are alpha[0, 3, 0..4]. -/
def layer03 (alpha : FVec F S2x5x5 .f32) (Hn : FVec F S8192x8192 .f32) (x : FVec F S8192x1 .f32) : FVec F S8192x1 .f32 :=
  layer (coef ![0, 3, 0] slices_S2x5x5_S1x1x1_0_3_0 alpha) (coef ![0, 3, 1] slices_S2x5x5_S1x1x1_0_3_1 alpha) (coef ![0, 3, 2] slices_S2x5x5_S1x1x1_0_3_2 alpha) (coef ![0, 3, 3] slices_S2x5x5_S1x1x1_0_3_3 alpha) (coef ![0, 3, 4] slices_S2x5x5_S1x1x1_0_3_4 alpha) Hn x

/-- Layer (0, 4): its five coefficients are alpha[0, 4, 0..4]. -/
def layer04 (alpha : FVec F S2x5x5 .f32) (Hn : FVec F S8192x8192 .f32) (x : FVec F S8192x1 .f32) : FVec F S8192x1 .f32 :=
  layer (coef ![0, 4, 0] slices_S2x5x5_S1x1x1_0_4_0 alpha) (coef ![0, 4, 1] slices_S2x5x5_S1x1x1_0_4_1 alpha) (coef ![0, 4, 2] slices_S2x5x5_S1x1x1_0_4_2 alpha) (coef ![0, 4, 3] slices_S2x5x5_S1x1x1_0_4_3 alpha) (coef ![0, 4, 4] slices_S2x5x5_S1x1x1_0_4_4 alpha) Hn x

/-- Layer (1, 0): its five coefficients are alpha[1, 0, 0..4]. -/
def layer10 (alpha : FVec F S2x5x5 .f32) (Hn : FVec F S8192x8192 .f32) (x : FVec F S8192x1 .f32) : FVec F S8192x1 .f32 :=
  layer (coef ![1, 0, 0] slices_S2x5x5_S1x1x1_1_0_0 alpha) (coef ![1, 0, 1] slices_S2x5x5_S1x1x1_1_0_1 alpha) (coef ![1, 0, 2] slices_S2x5x5_S1x1x1_1_0_2 alpha) (coef ![1, 0, 3] slices_S2x5x5_S1x1x1_1_0_3 alpha) (coef ![1, 0, 4] slices_S2x5x5_S1x1x1_1_0_4 alpha) Hn x

/-- Layer (1, 1): its five coefficients are alpha[1, 1, 0..4]. -/
def layer11 (alpha : FVec F S2x5x5 .f32) (Hn : FVec F S8192x8192 .f32) (x : FVec F S8192x1 .f32) : FVec F S8192x1 .f32 :=
  layer (coef ![1, 1, 0] slices_S2x5x5_S1x1x1_1_1_0 alpha) (coef ![1, 1, 1] slices_S2x5x5_S1x1x1_1_1_1 alpha) (coef ![1, 1, 2] slices_S2x5x5_S1x1x1_1_1_2 alpha) (coef ![1, 1, 3] slices_S2x5x5_S1x1x1_1_1_3 alpha) (coef ![1, 1, 4] slices_S2x5x5_S1x1x1_1_1_4 alpha) Hn x

/-- Layer (1, 2): its five coefficients are alpha[1, 2, 0..4]. -/
def layer12 (alpha : FVec F S2x5x5 .f32) (Hn : FVec F S8192x8192 .f32) (x : FVec F S8192x1 .f32) : FVec F S8192x1 .f32 :=
  layer (coef ![1, 2, 0] slices_S2x5x5_S1x1x1_1_2_0 alpha) (coef ![1, 2, 1] slices_S2x5x5_S1x1x1_1_2_1 alpha) (coef ![1, 2, 2] slices_S2x5x5_S1x1x1_1_2_2 alpha) (coef ![1, 2, 3] slices_S2x5x5_S1x1x1_1_2_3 alpha) (coef ![1, 2, 4] slices_S2x5x5_S1x1x1_1_2_4 alpha) Hn x

/-- Layer (1, 3): its five coefficients are alpha[1, 3, 0..4]. -/
def layer13 (alpha : FVec F S2x5x5 .f32) (Hn : FVec F S8192x8192 .f32) (x : FVec F S8192x1 .f32) : FVec F S8192x1 .f32 :=
  layer (coef ![1, 3, 0] slices_S2x5x5_S1x1x1_1_3_0 alpha) (coef ![1, 3, 1] slices_S2x5x5_S1x1x1_1_3_1 alpha) (coef ![1, 3, 2] slices_S2x5x5_S1x1x1_1_3_2 alpha) (coef ![1, 3, 3] slices_S2x5x5_S1x1x1_1_3_3 alpha) (coef ![1, 3, 4] slices_S2x5x5_S1x1x1_1_3_4 alpha) Hn x

/-- Layer (1, 4): its five coefficients are alpha[1, 4, 0..4]. -/
def layer14 (alpha : FVec F S2x5x5 .f32) (Hn : FVec F S8192x8192 .f32) (x : FVec F S8192x1 .f32) : FVec F S8192x1 .f32 :=
  layer (coef ![1, 4, 0] slices_S2x5x5_S1x1x1_1_4_0 alpha) (coef ![1, 4, 1] slices_S2x5x5_S1x1x1_1_4_1 alpha) (coef ![1, 4, 2] slices_S2x5x5_S1x1x1_1_4_2 alpha) (coef ![1, 4, 3] slices_S2x5x5_S1x1x1_1_4_3 alpha) (coef ![1, 4, 4] slices_S2x5x5_S1x1x1_1_4_4 alpha) Hn x

/-- The column after the five layers of output dimension 0. -/
def col0 (alpha : FVec F S2x5x5 .f32) (Hn : FVec F S8192x8192 .f32) (x : FVec F S8192x1 .f32) : FVec F S8192x1 .f32 :=
  layer04 alpha Hn (layer03 alpha Hn (layer02 alpha Hn (layer01 alpha Hn (layer00 alpha Hn x))))

/-- The column after the five layers of output dimension 1, which start from the column of output dimension 0. -/
def col1 (alpha : FVec F S2x5x5 .f32) (Hn : FVec F S8192x8192 .f32) (x : FVec F S8192x1 .f32) : FVec F S8192x1 .f32 :=
  layer14 alpha Hn (layer13 alpha Hn (layer12 alpha Hn (layer11 alpha Hn (layer10 alpha Hn x))))

/-- The whole result as one function of the three argument arrays. -/
def out (H : FVec F S8192x8192 .f32) (x : FVec F S8192x1 .f32) (alpha : FVec F S2x5x5 .f32) : FVec F S8192x2 .f32 :=
  tail (col0 alpha (Hn H) (x0 x)) (col1 alpha (Hn H) (col0 alpha (Hn H) (x0 x)))

end Cert.ReferenceIdeal.Spec

end
-- ==== Proof.KHostRow.lean ====
/-
  The host stretches of the kernel program, in ROW form. Between its regions the kernel program runs short lines of
  host operations on rows [1, 8192]: the prelude (the affine map of the input column laid out as a row, the first tap
  and the second coefficient of the first layer), between two taps of one layer the next coefficient as a one-by-one
  array and a copy of the accumulator, between two layers leaky_relu and the two normalisations of the accumulated row
  followed by the next layer's first tap and second coefficient, and at the end the sigmoid of the two result rows read
  as columns. Each lemma is at ARBITRARY contents of the buffers, and states the buffer's final contents as the row
  operations of the buffers read; the lines' own operations are those of the right-hand sides, so each is closed by
  unfolding the fold and comparing. Every stretch leaves the buffers it does not write as they were.
-/
import proofs.«144169_j55405078119367_2_alg».proof.Proof.GenP.KernelIdeal.Launch
import proofs.«144169_j55405078119367_2_alg».proof.Proof.Spec

noncomputable section

namespace Cert.KernelIdeal.KHost

open Cert.KernelIdeal Cert.KernelIdeal.Gen Cert.KernelIdeal.GenP Idealize.ShloMosaic Idealize.ShloMosaic.StableHlo
open Cert.ReferenceIdeal (Spec.bc Spec.sc Spec.leaky Spec.meanB Spec.norm Spec.x0 Spec.coef Spec.tail)

variable {F : FTy → Type} [FloatOps F]

/-- A scalar spread over a row. -/
abbrev bcR (a : FVec F S_ .f32) : FVec F S1x8192 .f32 := broadcastInDim S1x8192 ![] bcast_S_S1x8192 a

/-- A row scaled by a scalar coefficient. -/
def scR (a : FVec F S_ .f32) (v : FVec F S1x8192 .f32) : FVec F S1x8192 .f32 := mulf (bcR a) v

/-- leaky_relu with slope 0.01 on a row (the slope passes through a change of format that keeps it). -/
def leakyR (y : FVec F S1x8192 .f32) : FVec F S1x8192 .f32 :=
  select (cmpf (F := F) .oge y (bcR (constant S_ .f32 0x00000000#32))) y (mulf (bcR (id (constant S_ .f32 0x3C23D70A#32))) y)

/-- The mean of a row (its sum from 0, over 8192), spread over a row. -/
def meanBR (z : FVec F S1x8192 .f32) : FVec F S1x8192 .f32 :=
  bcR (Host.divf (Host.reduceAdd z (constant S_ .f32 0x00000000#32) reducesTo_S1x8192_S_d0_1 h_S_) (constant S_ .f32 0x46000000#32))

/-- Divide by the mean, then subtract the new mean, on a row. -/
def normR (z : FVec F S1x8192 .f32) : FVec F S1x8192 .f32 :=
  subf (Host.divf z (meanBR z)) (meanBR (Host.divf z (meanBR z)))

/-- The affine map (x + 1) · 0.5 of the input column, computed flat and laid out as a row. -/
def x0R (x : FVec F S8192x1 .f32) : FVec F S1x8192 .f32 :=
  shapeCast S1x8192
    (mulf (addf (shapeCast S8192 x shapeCasts_S8192x1_S8192) (broadcastInDim S8192 ![] bcast_S_S8192 (constant S_ .f32 0x3F800000#32)))
      (broadcastInDim S8192 ![] bcast_S_S8192 (constant S_ .f32 0x3F000000#32)))
    shapeCasts_S8192_S1x8192

/-- A scalar as a one-by-one array. -/
abbrev as11 (a : FVec F S_ .f32) : FVec F S1x1 .f32 := shapeCast S1x1 a shapeCasts_S_S1x1

/-! ### Stretch 0 -/

/-- The prelude leaves the affine map of the input column, laid out as a row, in the first input-row buffer. -/
theorem h0_x_row (W : Valuation τ sig (Elt F)) :
    after hostOps0 W (Proc.devRef .tc main_call0_v5)
      = x0R (W (Proc.devRef .tc main_arg1)) := by
  after_results_simp
  rfl

/-- The prelude leaves the first tap of layer (0, 0), the input row scaled by alpha[0, 0, 0], in the first accumulator buffer. -/
theorem h0_y0_row (W : Valuation τ sig (Elt F)) :
    after hostOps0 W (Proc.devRef .tc main_call0_v9)
      = scR (Spec.coef ![0, 0, 0] Cert.ReferenceIdeal.Gen.slices_S2x5x5_S1x1x1_0_0_0 (W (Proc.devRef .tc main_arg2))) (x0R (W (Proc.devRef .tc main_arg1))) := by
  after_results_simp
  rfl

/-- The prelude leaves alpha[0, 0, 1] as a one-by-one array in the first coefficient buffer. -/
theorem h0_a (W : Valuation τ sig (Elt F)) :
    after hostOps0 W (Proc.devRef .tc main_call0_v12)
      = as11 (Spec.coef ![0, 0, 1] Cert.ReferenceIdeal.Gen.slices_S2x5x5_S1x1x1_0_0_1 (W (Proc.devRef .tc main_arg2))) := by
  after_results_simp
  rfl

/-- The prelude's last operation copies the accumulator into the next accumulator buffer. -/
theorem h0_copy (W : Valuation τ sig (Elt F)) :
    after hostOps0 W (Proc.devRef .tc main_call0_v13_2)
      = scR (Spec.coef ![0, 0, 0] Cert.ReferenceIdeal.Gen.slices_S2x5x5_S1x1x1_0_0_0 (W (Proc.devRef .tc main_arg2))) (x0R (W (Proc.devRef .tc main_arg1))) := by
  after_results_simp
  rfl

/-- The references stretch 0 writes. -/
abbrev writes0 : List (Ref sig .tc) := [main_call0_v0, main_call0_cst, main_call0_v1, main_call0_v2, main_call0_cst_0, main_call0_v3, main_call0_v4, main_call0_v5, main_call0_v6, main_call0_v7, main_call0_v8, main_call0_v9, main_call0_v10, main_call0_v11, main_call0_v12, main_call0_v13_2]

/-- Stretch 0 leaves every buffer it does not write as it was. -/
theorem keep0 (W : Valuation τ sig (Elt F)) (b : Ref sig .tc) (hb : b ∉ writes0) :
    after hostOps0 W (Proc.devRef .tc b) = W (Proc.devRef .tc b) :=
  after_of_writes_sub hostOps0 W (W := writes0) (by
    simp only [hostOps0, writes0, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 1 -/

/-- Stretch 1 leaves alpha[0, 0, 2] as a one-by-one array in its coefficient buffer. -/
theorem h1_a (W : Valuation τ sig (Elt F)) :
    after hostOps1 W (Proc.devRef .tc main_call0_v16)
      = as11 (Spec.coef ![0, 0, 2] Cert.ReferenceIdeal.Gen.slices_S2x5x5_S1x1x1_0_0_2 (W (Proc.devRef .tc main_arg2))) := by
  after_results_simp
  rfl

/-- Stretch 1 copies the accumulator into the next accumulator buffer. -/
theorem h1_copy (W : Valuation τ sig (Elt F)) :
    after hostOps1 W (Proc.devRef .tc main_call0_v17_1)
      = W (Proc.devRef .tc main_call0_v13_2) := by
  after_results_simp
  rfl

/-- The references stretch 1 writes. -/
abbrev writes1 : List (Ref sig .tc) := [main_call0_v14, main_call0_v15, main_call0_v16, main_call0_v17_1]

/-- Stretch 1 leaves every buffer it does not write as it was. -/
theorem keep1 (W : Valuation τ sig (Elt F)) (b : Ref sig .tc) (hb : b ∉ writes1) :
    after hostOps1 W (Proc.devRef .tc b) = W (Proc.devRef .tc b) :=
  after_of_writes_sub hostOps1 W (W := writes1) (by
    simp only [hostOps1, writes1, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 2 -/

/-- Stretch 2 leaves alpha[0, 0, 3] as a one-by-one array in its coefficient buffer. -/
theorem h2_a (W : Valuation τ sig (Elt F)) :
    after hostOps2 W (Proc.devRef .tc main_call0_v20)
      = as11 (Spec.coef ![0, 0, 3] Cert.ReferenceIdeal.Gen.slices_S2x5x5_S1x1x1_0_0_3 (W (Proc.devRef .tc main_arg2))) := by
  after_results_simp
  rfl

/-- Stretch 2 copies the accumulator into the next accumulator buffer. -/
theorem h2_copy (W : Valuation τ sig (Elt F)) :
    after hostOps2 W (Proc.devRef .tc main_call0_v21_1)
      = W (Proc.devRef .tc main_call0_v17_1) := by
  after_results_simp
  rfl

/-- The references stretch 2 writes. -/
abbrev writes2 : List (Ref sig .tc) := [main_call0_v18, main_call0_v19, main_call0_v20, main_call0_v21_1]

/-- Stretch 2 leaves every buffer it does not write as it was. -/
theorem keep2 (W : Valuation τ sig (Elt F)) (b : Ref sig .tc) (hb : b ∉ writes2) :
    after hostOps2 W (Proc.devRef .tc b) = W (Proc.devRef .tc b) :=
  after_of_writes_sub hostOps2 W (W := writes2) (by
    simp only [hostOps2, writes2, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 3 -/

/-- Stretch 3 leaves alpha[0, 0, 4] as a one-by-one array in its coefficient buffer. -/
theorem h3_a (W : Valuation τ sig (Elt F)) :
    after hostOps3 W (Proc.devRef .tc main_call0_v24)
      = as11 (Spec.coef ![0, 0, 4] Cert.ReferenceIdeal.Gen.slices_S2x5x5_S1x1x1_0_0_4 (W (Proc.devRef .tc main_arg2))) := by
  after_results_simp
  rfl

/-- Stretch 3 copies the accumulator into the next accumulator buffer. -/
theorem h3_copy (W : Valuation τ sig (Elt F)) :
    after hostOps3 W (Proc.devRef .tc main_call0_v25_1)
      = W (Proc.devRef .tc main_call0_v21_1) := by
  after_results_simp
  rfl

/-- The references stretch 3 writes. -/
abbrev writes3 : List (Ref sig .tc) := [main_call0_v22, main_call0_v23, main_call0_v24, main_call0_v25_1]

/-- Stretch 3 leaves every buffer it does not write as it was. -/
theorem keep3 (W : Valuation τ sig (Elt F)) (b : Ref sig .tc) (hb : b ∉ writes3) :
    after hostOps3 W (Proc.devRef .tc b) = W (Proc.devRef .tc b) :=
  after_of_writes_sub hostOps3 W (W := writes3) (by
    simp only [hostOps3, writes3, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 4 -/

/-- Stretch 4: leaky_relu and the two normalisations of the accumulated row give the next input row. -/
theorem h4_x_row (W : Valuation τ sig (Elt F)) :
    after hostOps4 W (Proc.devRef .tc main_call0_v34)
      = normR (leakyR (W (Proc.devRef .tc main_call0_v25_1))) := by
  after_results_simp
  rfl

/-- Stretch 4: the first tap of layer (0, 1), the new input row scaled by alpha[0, 1, 0]. -/
theorem h4_y0_row (W : Valuation τ sig (Elt F)) :
    after hostOps4 W (Proc.devRef .tc main_call0_v38)
      = scR (Spec.coef ![0, 1, 0] Cert.ReferenceIdeal.Gen.slices_S2x5x5_S1x1x1_0_1_0 (W (Proc.devRef .tc main_arg2))) (normR (leakyR (W (Proc.devRef .tc main_call0_v25_1)))) := by
  after_results_simp
  rfl

/-- Stretch 4 leaves alpha[0, 1, 1] as a one-by-one array in its coefficient buffer. -/
theorem h4_a (W : Valuation τ sig (Elt F)) :
    after hostOps4 W (Proc.devRef .tc main_call0_v41)
      = as11 (Spec.coef ![0, 1, 1] Cert.ReferenceIdeal.Gen.slices_S2x5x5_S1x1x1_0_1_1 (W (Proc.devRef .tc main_arg2))) := by
  after_results_simp
  rfl

/-- Stretch 4 copies the first tap into the next accumulator buffer. -/
theorem h4_copy_row (W : Valuation τ sig (Elt F)) :
    after hostOps4 W (Proc.devRef .tc main_call0_v42_1)
      = scR (Spec.coef ![0, 1, 0] Cert.ReferenceIdeal.Gen.slices_S2x5x5_S1x1x1_0_1_0 (W (Proc.devRef .tc main_arg2))) (normR (leakyR (W (Proc.devRef .tc main_call0_v25_1)))) := by
  after_results_simp
  rfl

/-- The references stretch 4 writes. -/
abbrev writes4 : List (Ref sig .tc) := [main_call0_cst_1, main_call0_call0_cst, main_call0_call0_v0, main_call0_call0_v1, main_call0_call0_v2, main_call0_call0_v3, main_call0_call0_v4, main_call0_v26, main_call0_cst_2, main_call0_v27, main_call0_cst_3, main_call0_v28, main_call0_v29, main_call0_v30, main_call0_cst_4, main_call0_v31, main_call0_cst_5, main_call0_v32, main_call0_v33, main_call0_v34, main_call0_v35, main_call0_v36, main_call0_v37, main_call0_v38, main_call0_v39, main_call0_v40, main_call0_v41, main_call0_v42_1]

/-- Stretch 4 leaves every buffer it does not write as it was. -/
theorem keep4 (W : Valuation τ sig (Elt F)) (b : Ref sig .tc) (hb : b ∉ writes4) :
    after hostOps4 W (Proc.devRef .tc b) = W (Proc.devRef .tc b) :=
  after_of_writes_sub hostOps4 W (W := writes4) (by
    simp only [hostOps4, writes4, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 5 -/

/-- Stretch 5 leaves alpha[0, 1, 2] as a one-by-one array in its coefficient buffer. -/
theorem h5_a (W : Valuation τ sig (Elt F)) :
    after hostOps5 W (Proc.devRef .tc main_call0_v45)
      = as11 (Spec.coef ![0, 1, 2] Cert.ReferenceIdeal.Gen.slices_S2x5x5_S1x1x1_0_1_2 (W (Proc.devRef .tc main_arg2))) := by
  after_results_simp
  rfl

/-- Stretch 5 copies the accumulator into the next accumulator buffer. -/
theorem h5_copy (W : Valuation τ sig (Elt F)) :
    after hostOps5 W (Proc.devRef .tc main_call0_v46_1)
      = W (Proc.devRef .tc main_call0_v42_1) := by
  after_results_simp
  rfl

/-- The references stretch 5 writes. -/
abbrev writes5 : List (Ref sig .tc) := [main_call0_v43, main_call0_v44, main_call0_v45, main_call0_v46_1]

/-- Stretch 5 leaves every buffer it does not write as it was. -/
theorem keep5 (W : Valuation τ sig (Elt F)) (b : Ref sig .tc) (hb : b ∉ writes5) :
    after hostOps5 W (Proc.devRef .tc b) = W (Proc.devRef .tc b) :=
  after_of_writes_sub hostOps5 W (W := writes5) (by
    simp only [hostOps5, writes5, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 6 -/

/-- Stretch 6 leaves alpha[0, 1, 3] as a one-by-one array in its coefficient buffer. -/
theorem h6_a (W : Valuation τ sig (Elt F)) :
    after hostOps6 W (Proc.devRef .tc main_call0_v49)
      = as11 (Spec.coef ![0, 1, 3] Cert.ReferenceIdeal.Gen.slices_S2x5x5_S1x1x1_0_1_3 (W (Proc.devRef .tc main_arg2))) := by
  after_results_simp
  rfl

/-- Stretch 6 copies the accumulator into the next accumulator buffer. -/
theorem h6_copy (W : Valuation τ sig (Elt F)) :
    after hostOps6 W (Proc.devRef .tc main_call0_v50_1)
      = W (Proc.devRef .tc main_call0_v46_1) := by
  after_results_simp
  rfl

/-- The references stretch 6 writes. -/
abbrev writes6 : List (Ref sig .tc) := [main_call0_v47, main_call0_v48, main_call0_v49, main_call0_v50_1]

/-- Stretch 6 leaves every buffer it does not write as it was. -/
theorem keep6 (W : Valuation τ sig (Elt F)) (b : Ref sig .tc) (hb : b ∉ writes6) :
    after hostOps6 W (Proc.devRef .tc b) = W (Proc.devRef .tc b) :=
  after_of_writes_sub hostOps6 W (W := writes6) (by
    simp only [hostOps6, writes6, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 7 -/

/-- Stretch 7 leaves alpha[0, 1, 4] as a one-by-one array in its coefficient buffer. -/
theorem h7_a (W : Valuation τ sig (Elt F)) :
    after hostOps7 W (Proc.devRef .tc main_call0_v53)
      = as11 (Spec.coef ![0, 1, 4] Cert.ReferenceIdeal.Gen.slices_S2x5x5_S1x1x1_0_1_4 (W (Proc.devRef .tc main_arg2))) := by
  after_results_simp
  rfl

/-- Stretch 7 copies the accumulator into the next accumulator buffer. -/
theorem h7_copy (W : Valuation τ sig (Elt F)) :
    after hostOps7 W (Proc.devRef .tc main_call0_v54_1)
      = W (Proc.devRef .tc main_call0_v50_1) := by
  after_results_simp
  rfl

/-- The references stretch 7 writes. -/
abbrev writes7 : List (Ref sig .tc) := [main_call0_v51, main_call0_v52, main_call0_v53, main_call0_v54_1]

/-- Stretch 7 leaves every buffer it does not write as it was. -/
theorem keep7 (W : Valuation τ sig (Elt F)) (b : Ref sig .tc) (hb : b ∉ writes7) :
    after hostOps7 W (Proc.devRef .tc b) = W (Proc.devRef .tc b) :=
  after_of_writes_sub hostOps7 W (W := writes7) (by
    simp only [hostOps7, writes7, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 8 -/

/-- Stretch 8: leaky_relu and the two normalisations of the accumulated row give the next input row. -/
theorem h8_x_row (W : Valuation τ sig (Elt F)) :
    after hostOps8 W (Proc.devRef .tc main_call0_v63)
      = normR (leakyR (W (Proc.devRef .tc main_call0_v54_1))) := by
  after_results_simp
  rfl

/-- Stretch 8: the first tap of layer (0, 2), the new input row scaled by alpha[0, 2, 0]. -/
theorem h8_y0_row (W : Valuation τ sig (Elt F)) :
    after hostOps8 W (Proc.devRef .tc main_call0_v67)
      = scR (Spec.coef ![0, 2, 0] Cert.ReferenceIdeal.Gen.slices_S2x5x5_S1x1x1_0_2_0 (W (Proc.devRef .tc main_arg2))) (normR (leakyR (W (Proc.devRef .tc main_call0_v54_1)))) := by
  after_results_simp
  rfl

/-- Stretch 8 leaves alpha[0, 2, 1] as a one-by-one array in its coefficient buffer. -/
theorem h8_a (W : Valuation τ sig (Elt F)) :
    after hostOps8 W (Proc.devRef .tc main_call0_v70)
      = as11 (Spec.coef ![0, 2, 1] Cert.ReferenceIdeal.Gen.slices_S2x5x5_S1x1x1_0_2_1 (W (Proc.devRef .tc main_arg2))) := by
  after_results_simp
  rfl

/-- Stretch 8 copies the first tap into the next accumulator buffer. -/
theorem h8_copy_row (W : Valuation τ sig (Elt F)) :
    after hostOps8 W (Proc.devRef .tc main_call0_v71_1)
      = scR (Spec.coef ![0, 2, 0] Cert.ReferenceIdeal.Gen.slices_S2x5x5_S1x1x1_0_2_0 (W (Proc.devRef .tc main_arg2))) (normR (leakyR (W (Proc.devRef .tc main_call0_v54_1)))) := by
  after_results_simp
  rfl

/-- The references stretch 8 writes. -/
abbrev writes8 : List (Ref sig .tc) := [main_call0_cst_6, main_call0_call1_cst, main_call0_call1_v0, main_call0_call1_v1, main_call0_call1_v2, main_call0_call1_v3, main_call0_call1_v4, main_call0_v55, main_call0_cst_7, main_call0_v56, main_call0_cst_8, main_call0_v57, main_call0_v58, main_call0_v59, main_call0_cst_9, main_call0_v60, main_call0_cst_10, main_call0_v61, main_call0_v62, main_call0_v63, main_call0_v64, main_call0_v65, main_call0_v66, main_call0_v67, main_call0_v68, main_call0_v69, main_call0_v70, main_call0_v71_1]

/-- Stretch 8 leaves every buffer it does not write as it was. -/
theorem keep8 (W : Valuation τ sig (Elt F)) (b : Ref sig .tc) (hb : b ∉ writes8) :
    after hostOps8 W (Proc.devRef .tc b) = W (Proc.devRef .tc b) :=
  after_of_writes_sub hostOps8 W (W := writes8) (by
    simp only [hostOps8, writes8, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 9 -/

/-- Stretch 9 leaves alpha[0, 2, 2] as a one-by-one array in its coefficient buffer. -/
theorem h9_a (W : Valuation τ sig (Elt F)) :
    after hostOps9 W (Proc.devRef .tc main_call0_v74)
      = as11 (Spec.coef ![0, 2, 2] Cert.ReferenceIdeal.Gen.slices_S2x5x5_S1x1x1_0_2_2 (W (Proc.devRef .tc main_arg2))) := by
  after_results_simp
  rfl

/-- Stretch 9 copies the accumulator into the next accumulator buffer. -/
theorem h9_copy (W : Valuation τ sig (Elt F)) :
    after hostOps9 W (Proc.devRef .tc main_call0_v75_1)
      = W (Proc.devRef .tc main_call0_v71_1) := by
  after_results_simp
  rfl

/-- The references stretch 9 writes. -/
abbrev writes9 : List (Ref sig .tc) := [main_call0_v72, main_call0_v73, main_call0_v74, main_call0_v75_1]

/-- Stretch 9 leaves every buffer it does not write as it was. -/
theorem keep9 (W : Valuation τ sig (Elt F)) (b : Ref sig .tc) (hb : b ∉ writes9) :
    after hostOps9 W (Proc.devRef .tc b) = W (Proc.devRef .tc b) :=
  after_of_writes_sub hostOps9 W (W := writes9) (by
    simp only [hostOps9, writes9, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 10 -/

/-- Stretch 10 leaves alpha[0, 2, 3] as a one-by-one array in its coefficient buffer. -/
theorem h10_a (W : Valuation τ sig (Elt F)) :
    after hostOps10 W (Proc.devRef .tc main_call0_v78)
      = as11 (Spec.coef ![0, 2, 3] Cert.ReferenceIdeal.Gen.slices_S2x5x5_S1x1x1_0_2_3 (W (Proc.devRef .tc main_arg2))) := by
  after_results_simp
  rfl

/-- Stretch 10 copies the accumulator into the next accumulator buffer. -/
theorem h10_copy (W : Valuation τ sig (Elt F)) :
    after hostOps10 W (Proc.devRef .tc main_call0_v79_1)
      = W (Proc.devRef .tc main_call0_v75_1) := by
  after_results_simp
  rfl

/-- The references stretch 10 writes. -/
abbrev writes10 : List (Ref sig .tc) := [main_call0_v76, main_call0_v77, main_call0_v78, main_call0_v79_1]

/-- Stretch 10 leaves every buffer it does not write as it was. -/
theorem keep10 (W : Valuation τ sig (Elt F)) (b : Ref sig .tc) (hb : b ∉ writes10) :
    after hostOps10 W (Proc.devRef .tc b) = W (Proc.devRef .tc b) :=
  after_of_writes_sub hostOps10 W (W := writes10) (by
    simp only [hostOps10, writes10, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 11 -/

/-- Stretch 11 leaves alpha[0, 2, 4] as a one-by-one array in its coefficient buffer. -/
theorem h11_a (W : Valuation τ sig (Elt F)) :
    after hostOps11 W (Proc.devRef .tc main_call0_v82)
      = as11 (Spec.coef ![0, 2, 4] Cert.ReferenceIdeal.Gen.slices_S2x5x5_S1x1x1_0_2_4 (W (Proc.devRef .tc main_arg2))) := by
  after_results_simp
  rfl

/-- Stretch 11 copies the accumulator into the next accumulator buffer. -/
theorem h11_copy (W : Valuation τ sig (Elt F)) :
    after hostOps11 W (Proc.devRef .tc main_call0_v83_1)
      = W (Proc.devRef .tc main_call0_v79_1) := by
  after_results_simp
  rfl

/-- The references stretch 11 writes. -/
abbrev writes11 : List (Ref sig .tc) := [main_call0_v80, main_call0_v81, main_call0_v82, main_call0_v83_1]

/-- Stretch 11 leaves every buffer it does not write as it was. -/
theorem keep11 (W : Valuation τ sig (Elt F)) (b : Ref sig .tc) (hb : b ∉ writes11) :
    after hostOps11 W (Proc.devRef .tc b) = W (Proc.devRef .tc b) :=
  after_of_writes_sub hostOps11 W (W := writes11) (by
    simp only [hostOps11, writes11, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 12 -/

/-- Stretch 12: leaky_relu and the two normalisations of the accumulated row give the next input row. -/
theorem h12_x_row (W : Valuation τ sig (Elt F)) :
    after hostOps12 W (Proc.devRef .tc main_call0_v92)
      = normR (leakyR (W (Proc.devRef .tc main_call0_v83_1))) := by
  after_results_simp
  rfl

/-- Stretch 12: the first tap of layer (0, 3), the new input row scaled by alpha[0, 3, 0]. -/
theorem h12_y0_row (W : Valuation τ sig (Elt F)) :
    after hostOps12 W (Proc.devRef .tc main_call0_v96)
      = scR (Spec.coef ![0, 3, 0] Cert.ReferenceIdeal.Gen.slices_S2x5x5_S1x1x1_0_3_0 (W (Proc.devRef .tc main_arg2))) (normR (leakyR (W (Proc.devRef .tc main_call0_v83_1)))) := by
  after_results_simp
  rfl

/-- Stretch 12 leaves alpha[0, 3, 1] as a one-by-one array in its coefficient buffer. -/
theorem h12_a (W : Valuation τ sig (Elt F)) :
    after hostOps12 W (Proc.devRef .tc main_call0_v99)
      = as11 (Spec.coef ![0, 3, 1] Cert.ReferenceIdeal.Gen.slices_S2x5x5_S1x1x1_0_3_1 (W (Proc.devRef .tc main_arg2))) := by
  after_results_simp
  rfl

/-- Stretch 12 copies the first tap into the next accumulator buffer. -/
theorem h12_copy_row (W : Valuation τ sig (Elt F)) :
    after hostOps12 W (Proc.devRef .tc main_call0_v100_1)
      = scR (Spec.coef ![0, 3, 0] Cert.ReferenceIdeal.Gen.slices_S2x5x5_S1x1x1_0_3_0 (W (Proc.devRef .tc main_arg2))) (normR (leakyR (W (Proc.devRef .tc main_call0_v83_1)))) := by
  after_results_simp
  rfl

/-- The references stretch 12 writes. -/
abbrev writes12 : List (Ref sig .tc) := [main_call0_cst_11, main_call0_call2_cst, main_call0_call2_v0, main_call0_call2_v1, main_call0_call2_v2, main_call0_call2_v3, main_call0_call2_v4, main_call0_v84, main_call0_cst_12, main_call0_v85, main_call0_cst_13, main_call0_v86, main_call0_v87, main_call0_v88, main_call0_cst_14, main_call0_v89, main_call0_cst_15, main_call0_v90, main_call0_v91, main_call0_v92, main_call0_v93, main_call0_v94, main_call0_v95, main_call0_v96, main_call0_v97, main_call0_v98, main_call0_v99, main_call0_v100_1]

/-- Stretch 12 leaves every buffer it does not write as it was. -/
theorem keep12 (W : Valuation τ sig (Elt F)) (b : Ref sig .tc) (hb : b ∉ writes12) :
    after hostOps12 W (Proc.devRef .tc b) = W (Proc.devRef .tc b) :=
  after_of_writes_sub hostOps12 W (W := writes12) (by
    simp only [hostOps12, writes12, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 13 -/

/-- Stretch 13 leaves alpha[0, 3, 2] as a one-by-one array in its coefficient buffer. -/
theorem h13_a (W : Valuation τ sig (Elt F)) :
    after hostOps13 W (Proc.devRef .tc main_call0_v103)
      = as11 (Spec.coef ![0, 3, 2] Cert.ReferenceIdeal.Gen.slices_S2x5x5_S1x1x1_0_3_2 (W (Proc.devRef .tc main_arg2))) := by
  after_results_simp
  rfl

/-- Stretch 13 copies the accumulator into the next accumulator buffer. -/
theorem h13_copy (W : Valuation τ sig (Elt F)) :
    after hostOps13 W (Proc.devRef .tc main_call0_v104_1)
      = W (Proc.devRef .tc main_call0_v100_1) := by
  after_results_simp
  rfl

/-- The references stretch 13 writes. -/
abbrev writes13 : List (Ref sig .tc) := [main_call0_v101, main_call0_v102, main_call0_v103, main_call0_v104_1]

/-- Stretch 13 leaves every buffer it does not write as it was. -/
theorem keep13 (W : Valuation τ sig (Elt F)) (b : Ref sig .tc) (hb : b ∉ writes13) :
    after hostOps13 W (Proc.devRef .tc b) = W (Proc.devRef .tc b) :=
  after_of_writes_sub hostOps13 W (W := writes13) (by
    simp only [hostOps13, writes13, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 14 -/

/-- Stretch 14 leaves alpha[0, 3, 3] as a one-by-one array in its coefficient buffer. -/
theorem h14_a (W : Valuation τ sig (Elt F)) :
    after hostOps14 W (Proc.devRef .tc main_call0_v107)
      = as11 (Spec.coef ![0, 3, 3] Cert.ReferenceIdeal.Gen.slices_S2x5x5_S1x1x1_0_3_3 (W (Proc.devRef .tc main_arg2))) := by
  after_results_simp
  rfl

/-- Stretch 14 copies the accumulator into the next accumulator buffer. -/
theorem h14_copy (W : Valuation τ sig (Elt F)) :
    after hostOps14 W (Proc.devRef .tc main_call0_v108_1)
      = W (Proc.devRef .tc main_call0_v104_1) := by
  after_results_simp
  rfl

/-- The references stretch 14 writes. -/
abbrev writes14 : List (Ref sig .tc) := [main_call0_v105, main_call0_v106, main_call0_v107, main_call0_v108_1]

/-- Stretch 14 leaves every buffer it does not write as it was. -/
theorem keep14 (W : Valuation τ sig (Elt F)) (b : Ref sig .tc) (hb : b ∉ writes14) :
    after hostOps14 W (Proc.devRef .tc b) = W (Proc.devRef .tc b) :=
  after_of_writes_sub hostOps14 W (W := writes14) (by
    simp only [hostOps14, writes14, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 15 -/

/-- Stretch 15 leaves alpha[0, 3, 4] as a one-by-one array in its coefficient buffer. -/
theorem h15_a (W : Valuation τ sig (Elt F)) :
    after hostOps15 W (Proc.devRef .tc main_call0_v111)
      = as11 (Spec.coef ![0, 3, 4] Cert.ReferenceIdeal.Gen.slices_S2x5x5_S1x1x1_0_3_4 (W (Proc.devRef .tc main_arg2))) := by
  after_results_simp
  rfl

/-- Stretch 15 copies the accumulator into the next accumulator buffer. -/
theorem h15_copy (W : Valuation τ sig (Elt F)) :
    after hostOps15 W (Proc.devRef .tc main_call0_v112_1)
      = W (Proc.devRef .tc main_call0_v108_1) := by
  after_results_simp
  rfl

/-- The references stretch 15 writes. -/
abbrev writes15 : List (Ref sig .tc) := [main_call0_v109, main_call0_v110, main_call0_v111, main_call0_v112_1]

/-- Stretch 15 leaves every buffer it does not write as it was. -/
theorem keep15 (W : Valuation τ sig (Elt F)) (b : Ref sig .tc) (hb : b ∉ writes15) :
    after hostOps15 W (Proc.devRef .tc b) = W (Proc.devRef .tc b) :=
  after_of_writes_sub hostOps15 W (W := writes15) (by
    simp only [hostOps15, writes15, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 16 -/

/-- Stretch 16: leaky_relu and the two normalisations of the accumulated row give the next input row. -/
theorem h16_x_row (W : Valuation τ sig (Elt F)) :
    after hostOps16 W (Proc.devRef .tc main_call0_v121)
      = normR (leakyR (W (Proc.devRef .tc main_call0_v112_1))) := by
  after_results_simp
  rfl

/-- Stretch 16: the first tap of layer (0, 4), the new input row scaled by alpha[0, 4, 0]. -/
theorem h16_y0_row (W : Valuation τ sig (Elt F)) :
    after hostOps16 W (Proc.devRef .tc main_call0_v125)
      = scR (Spec.coef ![0, 4, 0] Cert.ReferenceIdeal.Gen.slices_S2x5x5_S1x1x1_0_4_0 (W (Proc.devRef .tc main_arg2))) (normR (leakyR (W (Proc.devRef .tc main_call0_v112_1)))) := by
  after_results_simp
  rfl

/-- Stretch 16 leaves alpha[0, 4, 1] as a one-by-one array in its coefficient buffer. -/
theorem h16_a (W : Valuation τ sig (Elt F)) :
    after hostOps16 W (Proc.devRef .tc main_call0_v128)
      = as11 (Spec.coef ![0, 4, 1] Cert.ReferenceIdeal.Gen.slices_S2x5x5_S1x1x1_0_4_1 (W (Proc.devRef .tc main_arg2))) := by
  after_results_simp
  rfl

/-- Stretch 16 copies the first tap into the next accumulator buffer. -/
theorem h16_copy_row (W : Valuation τ sig (Elt F)) :
    after hostOps16 W (Proc.devRef .tc main_call0_v129_1)
      = scR (Spec.coef ![0, 4, 0] Cert.ReferenceIdeal.Gen.slices_S2x5x5_S1x1x1_0_4_0 (W (Proc.devRef .tc main_arg2))) (normR (leakyR (W (Proc.devRef .tc main_call0_v112_1)))) := by
  after_results_simp
  rfl

/-- The references stretch 16 writes. -/
abbrev writes16 : List (Ref sig .tc) := [main_call0_cst_16, main_call0_call3_cst, main_call0_call3_v0, main_call0_call3_v1, main_call0_call3_v2, main_call0_call3_v3, main_call0_call3_v4, main_call0_v113, main_call0_cst_17, main_call0_v114, main_call0_cst_18, main_call0_v115, main_call0_v116, main_call0_v117, main_call0_cst_19, main_call0_v118, main_call0_cst_20, main_call0_v119, main_call0_v120, main_call0_v121, main_call0_v122, main_call0_v123, main_call0_v124, main_call0_v125, main_call0_v126, main_call0_v127, main_call0_v128, main_call0_v129_1]

/-- Stretch 16 leaves every buffer it does not write as it was. -/
theorem keep16 (W : Valuation τ sig (Elt F)) (b : Ref sig .tc) (hb : b ∉ writes16) :
    after hostOps16 W (Proc.devRef .tc b) = W (Proc.devRef .tc b) :=
  after_of_writes_sub hostOps16 W (W := writes16) (by
    simp only [hostOps16, writes16, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 17 -/

/-- Stretch 17 leaves alpha[0, 4, 2] as a one-by-one array in its coefficient buffer. -/
theorem h17_a (W : Valuation τ sig (Elt F)) :
    after hostOps17 W (Proc.devRef .tc main_call0_v132)
      = as11 (Spec.coef ![0, 4, 2] Cert.ReferenceIdeal.Gen.slices_S2x5x5_S1x1x1_0_4_2 (W (Proc.devRef .tc main_arg2))) := by
  after_results_simp
  rfl

/-- Stretch 17 copies the accumulator into the next accumulator buffer. -/
theorem h17_copy (W : Valuation τ sig (Elt F)) :
    after hostOps17 W (Proc.devRef .tc main_call0_v133_1)
      = W (Proc.devRef .tc main_call0_v129_1) := by
  after_results_simp
  rfl

/-- The references stretch 17 writes. -/
abbrev writes17 : List (Ref sig .tc) := [main_call0_v130, main_call0_v131, main_call0_v132, main_call0_v133_1]

/-- Stretch 17 leaves every buffer it does not write as it was. -/
theorem keep17 (W : Valuation τ sig (Elt F)) (b : Ref sig .tc) (hb : b ∉ writes17) :
    after hostOps17 W (Proc.devRef .tc b) = W (Proc.devRef .tc b) :=
  after_of_writes_sub hostOps17 W (W := writes17) (by
    simp only [hostOps17, writes17, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 18 -/

/-- Stretch 18 leaves alpha[0, 4, 3] as a one-by-one array in its coefficient buffer. -/
theorem h18_a (W : Valuation τ sig (Elt F)) :
    after hostOps18 W (Proc.devRef .tc main_call0_v136)
      = as11 (Spec.coef ![0, 4, 3] Cert.ReferenceIdeal.Gen.slices_S2x5x5_S1x1x1_0_4_3 (W (Proc.devRef .tc main_arg2))) := by
  after_results_simp
  rfl

/-- Stretch 18 copies the accumulator into the next accumulator buffer. -/
theorem h18_copy (W : Valuation τ sig (Elt F)) :
    after hostOps18 W (Proc.devRef .tc main_call0_v137_1)
      = W (Proc.devRef .tc main_call0_v133_1) := by
  after_results_simp
  rfl

/-- The references stretch 18 writes. -/
abbrev writes18 : List (Ref sig .tc) := [main_call0_v134, main_call0_v135, main_call0_v136, main_call0_v137_1]

/-- Stretch 18 leaves every buffer it does not write as it was. -/
theorem keep18 (W : Valuation τ sig (Elt F)) (b : Ref sig .tc) (hb : b ∉ writes18) :
    after hostOps18 W (Proc.devRef .tc b) = W (Proc.devRef .tc b) :=
  after_of_writes_sub hostOps18 W (W := writes18) (by
    simp only [hostOps18, writes18, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 19 -/

/-- Stretch 19 leaves alpha[0, 4, 4] as a one-by-one array in its coefficient buffer. -/
theorem h19_a (W : Valuation τ sig (Elt F)) :
    after hostOps19 W (Proc.devRef .tc main_call0_v140)
      = as11 (Spec.coef ![0, 4, 4] Cert.ReferenceIdeal.Gen.slices_S2x5x5_S1x1x1_0_4_4 (W (Proc.devRef .tc main_arg2))) := by
  after_results_simp
  rfl

/-- Stretch 19 copies the accumulator into the next accumulator buffer. -/
theorem h19_copy (W : Valuation τ sig (Elt F)) :
    after hostOps19 W (Proc.devRef .tc main_call0_v141_1)
      = W (Proc.devRef .tc main_call0_v137_1) := by
  after_results_simp
  rfl

/-- The references stretch 19 writes. -/
abbrev writes19 : List (Ref sig .tc) := [main_call0_v138, main_call0_v139, main_call0_v140, main_call0_v141_1]

/-- Stretch 19 leaves every buffer it does not write as it was. -/
theorem keep19 (W : Valuation τ sig (Elt F)) (b : Ref sig .tc) (hb : b ∉ writes19) :
    after hostOps19 W (Proc.devRef .tc b) = W (Proc.devRef .tc b) :=
  after_of_writes_sub hostOps19 W (W := writes19) (by
    simp only [hostOps19, writes19, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 20 -/

/-- Stretch 20: leaky_relu and the two normalisations of the accumulated row give the next input row. -/
theorem h20_x_row (W : Valuation τ sig (Elt F)) :
    after hostOps20 W (Proc.devRef .tc main_call0_v150)
      = normR (leakyR (W (Proc.devRef .tc main_call0_v141_1))) := by
  after_results_simp
  rfl

/-- Stretch 20: the first tap of layer (1, 0), the new input row scaled by alpha[1, 0, 0]. -/
theorem h20_y0_row (W : Valuation τ sig (Elt F)) :
    after hostOps20 W (Proc.devRef .tc main_call0_v154)
      = scR (Spec.coef ![1, 0, 0] Cert.ReferenceIdeal.Gen.slices_S2x5x5_S1x1x1_1_0_0 (W (Proc.devRef .tc main_arg2))) (normR (leakyR (W (Proc.devRef .tc main_call0_v141_1)))) := by
  after_results_simp
  rfl

/-- Stretch 20 leaves alpha[1, 0, 1] as a one-by-one array in its coefficient buffer. -/
theorem h20_a (W : Valuation τ sig (Elt F)) :
    after hostOps20 W (Proc.devRef .tc main_call0_v157)
      = as11 (Spec.coef ![1, 0, 1] Cert.ReferenceIdeal.Gen.slices_S2x5x5_S1x1x1_1_0_1 (W (Proc.devRef .tc main_arg2))) := by
  after_results_simp
  rfl

/-- Stretch 20 copies the first tap into the next accumulator buffer. -/
theorem h20_copy_row (W : Valuation τ sig (Elt F)) :
    after hostOps20 W (Proc.devRef .tc main_call0_v158_1)
      = scR (Spec.coef ![1, 0, 0] Cert.ReferenceIdeal.Gen.slices_S2x5x5_S1x1x1_1_0_0 (W (Proc.devRef .tc main_arg2))) (normR (leakyR (W (Proc.devRef .tc main_call0_v141_1)))) := by
  after_results_simp
  rfl

/-- The references stretch 20 writes. -/
abbrev writes20 : List (Ref sig .tc) := [main_call0_cst_21, main_call0_call4_cst, main_call0_call4_v0, main_call0_call4_v1, main_call0_call4_v2, main_call0_call4_v3, main_call0_call4_v4, main_call0_v142, main_call0_cst_22, main_call0_v143, main_call0_cst_23, main_call0_v144, main_call0_v145, main_call0_v146, main_call0_cst_24, main_call0_v147, main_call0_cst_25, main_call0_v148, main_call0_v149, main_call0_v150, main_call0_v151, main_call0_v152, main_call0_v153, main_call0_v154, main_call0_v155, main_call0_v156, main_call0_v157, main_call0_v158_1]

/-- Stretch 20 leaves every buffer it does not write as it was. -/
theorem keep20 (W : Valuation τ sig (Elt F)) (b : Ref sig .tc) (hb : b ∉ writes20) :
    after hostOps20 W (Proc.devRef .tc b) = W (Proc.devRef .tc b) :=
  after_of_writes_sub hostOps20 W (W := writes20) (by
    simp only [hostOps20, writes20, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 21 -/

/-- Stretch 21 leaves alpha[1, 0, 2] as a one-by-one array in its coefficient buffer. -/
theorem h21_a (W : Valuation τ sig (Elt F)) :
    after hostOps21 W (Proc.devRef .tc main_call0_v161)
      = as11 (Spec.coef ![1, 0, 2] Cert.ReferenceIdeal.Gen.slices_S2x5x5_S1x1x1_1_0_2 (W (Proc.devRef .tc main_arg2))) := by
  after_results_simp
  rfl

/-- Stretch 21 copies the accumulator into the next accumulator buffer. -/
theorem h21_copy (W : Valuation τ sig (Elt F)) :
    after hostOps21 W (Proc.devRef .tc main_call0_v162_1)
      = W (Proc.devRef .tc main_call0_v158_1) := by
  after_results_simp
  rfl

/-- The references stretch 21 writes. -/
abbrev writes21 : List (Ref sig .tc) := [main_call0_v159, main_call0_v160, main_call0_v161, main_call0_v162_1]

/-- Stretch 21 leaves every buffer it does not write as it was. -/
theorem keep21 (W : Valuation τ sig (Elt F)) (b : Ref sig .tc) (hb : b ∉ writes21) :
    after hostOps21 W (Proc.devRef .tc b) = W (Proc.devRef .tc b) :=
  after_of_writes_sub hostOps21 W (W := writes21) (by
    simp only [hostOps21, writes21, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 22 -/

/-- Stretch 22 leaves alpha[1, 0, 3] as a one-by-one array in its coefficient buffer. -/
theorem h22_a (W : Valuation τ sig (Elt F)) :
    after hostOps22 W (Proc.devRef .tc main_call0_v165)
      = as11 (Spec.coef ![1, 0, 3] Cert.ReferenceIdeal.Gen.slices_S2x5x5_S1x1x1_1_0_3 (W (Proc.devRef .tc main_arg2))) := by
  after_results_simp
  rfl

/-- Stretch 22 copies the accumulator into the next accumulator buffer. -/
theorem h22_copy (W : Valuation τ sig (Elt F)) :
    after hostOps22 W (Proc.devRef .tc main_call0_v166_1)
      = W (Proc.devRef .tc main_call0_v162_1) := by
  after_results_simp
  rfl

/-- The references stretch 22 writes. -/
abbrev writes22 : List (Ref sig .tc) := [main_call0_v163, main_call0_v164, main_call0_v165, main_call0_v166_1]

/-- Stretch 22 leaves every buffer it does not write as it was. -/
theorem keep22 (W : Valuation τ sig (Elt F)) (b : Ref sig .tc) (hb : b ∉ writes22) :
    after hostOps22 W (Proc.devRef .tc b) = W (Proc.devRef .tc b) :=
  after_of_writes_sub hostOps22 W (W := writes22) (by
    simp only [hostOps22, writes22, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 23 -/

/-- Stretch 23 leaves alpha[1, 0, 4] as a one-by-one array in its coefficient buffer. -/
theorem h23_a (W : Valuation τ sig (Elt F)) :
    after hostOps23 W (Proc.devRef .tc main_call0_v169)
      = as11 (Spec.coef ![1, 0, 4] Cert.ReferenceIdeal.Gen.slices_S2x5x5_S1x1x1_1_0_4 (W (Proc.devRef .tc main_arg2))) := by
  after_results_simp
  rfl

/-- Stretch 23 copies the accumulator into the next accumulator buffer. -/
theorem h23_copy (W : Valuation τ sig (Elt F)) :
    after hostOps23 W (Proc.devRef .tc main_call0_v170_1)
      = W (Proc.devRef .tc main_call0_v166_1) := by
  after_results_simp
  rfl

/-- The references stretch 23 writes. -/
abbrev writes23 : List (Ref sig .tc) := [main_call0_v167, main_call0_v168, main_call0_v169, main_call0_v170_1]

/-- Stretch 23 leaves every buffer it does not write as it was. -/
theorem keep23 (W : Valuation τ sig (Elt F)) (b : Ref sig .tc) (hb : b ∉ writes23) :
    after hostOps23 W (Proc.devRef .tc b) = W (Proc.devRef .tc b) :=
  after_of_writes_sub hostOps23 W (W := writes23) (by
    simp only [hostOps23, writes23, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 24 -/

/-- Stretch 24: leaky_relu and the two normalisations of the accumulated row give the next input row. -/
theorem h24_x_row (W : Valuation τ sig (Elt F)) :
    after hostOps24 W (Proc.devRef .tc main_call0_v179)
      = normR (leakyR (W (Proc.devRef .tc main_call0_v170_1))) := by
  after_results_simp
  rfl

/-- Stretch 24: the first tap of layer (1, 1), the new input row scaled by alpha[1, 1, 0]. -/
theorem h24_y0_row (W : Valuation τ sig (Elt F)) :
    after hostOps24 W (Proc.devRef .tc main_call0_v183)
      = scR (Spec.coef ![1, 1, 0] Cert.ReferenceIdeal.Gen.slices_S2x5x5_S1x1x1_1_1_0 (W (Proc.devRef .tc main_arg2))) (normR (leakyR (W (Proc.devRef .tc main_call0_v170_1)))) := by
  after_results_simp
  rfl

/-- Stretch 24 leaves alpha[1, 1, 1] as a one-by-one array in its coefficient buffer. -/
theorem h24_a (W : Valuation τ sig (Elt F)) :
    after hostOps24 W (Proc.devRef .tc main_call0_v186)
      = as11 (Spec.coef ![1, 1, 1] Cert.ReferenceIdeal.Gen.slices_S2x5x5_S1x1x1_1_1_1 (W (Proc.devRef .tc main_arg2))) := by
  after_results_simp
  rfl

/-- Stretch 24 copies the first tap into the next accumulator buffer. -/
theorem h24_copy_row (W : Valuation τ sig (Elt F)) :
    after hostOps24 W (Proc.devRef .tc main_call0_v187_1)
      = scR (Spec.coef ![1, 1, 0] Cert.ReferenceIdeal.Gen.slices_S2x5x5_S1x1x1_1_1_0 (W (Proc.devRef .tc main_arg2))) (normR (leakyR (W (Proc.devRef .tc main_call0_v170_1)))) := by
  after_results_simp
  rfl

/-- The references stretch 24 writes. -/
abbrev writes24 : List (Ref sig .tc) := [main_call0_cst_26, main_call0_call5_cst, main_call0_call5_v0, main_call0_call5_v1, main_call0_call5_v2, main_call0_call5_v3, main_call0_call5_v4, main_call0_v171, main_call0_cst_27, main_call0_v172, main_call0_cst_28, main_call0_v173, main_call0_v174, main_call0_v175, main_call0_cst_29, main_call0_v176, main_call0_cst_30, main_call0_v177, main_call0_v178, main_call0_v179, main_call0_v180, main_call0_v181, main_call0_v182, main_call0_v183, main_call0_v184, main_call0_v185, main_call0_v186, main_call0_v187_1]

/-- Stretch 24 leaves every buffer it does not write as it was. -/
theorem keep24 (W : Valuation τ sig (Elt F)) (b : Ref sig .tc) (hb : b ∉ writes24) :
    after hostOps24 W (Proc.devRef .tc b) = W (Proc.devRef .tc b) :=
  after_of_writes_sub hostOps24 W (W := writes24) (by
    simp only [hostOps24, writes24, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 25 -/

/-- Stretch 25 leaves alpha[1, 1, 2] as a one-by-one array in its coefficient buffer. -/
theorem h25_a (W : Valuation τ sig (Elt F)) :
    after hostOps25 W (Proc.devRef .tc main_call0_v190)
      = as11 (Spec.coef ![1, 1, 2] Cert.ReferenceIdeal.Gen.slices_S2x5x5_S1x1x1_1_1_2 (W (Proc.devRef .tc main_arg2))) := by
  after_results_simp
  rfl

/-- Stretch 25 copies the accumulator into the next accumulator buffer. -/
theorem h25_copy (W : Valuation τ sig (Elt F)) :
    after hostOps25 W (Proc.devRef .tc main_call0_v191_1)
      = W (Proc.devRef .tc main_call0_v187_1) := by
  after_results_simp
  rfl

/-- The references stretch 25 writes. -/
abbrev writes25 : List (Ref sig .tc) := [main_call0_v188, main_call0_v189, main_call0_v190, main_call0_v191_1]

/-- Stretch 25 leaves every buffer it does not write as it was. -/
theorem keep25 (W : Valuation τ sig (Elt F)) (b : Ref sig .tc) (hb : b ∉ writes25) :
    after hostOps25 W (Proc.devRef .tc b) = W (Proc.devRef .tc b) :=
  after_of_writes_sub hostOps25 W (W := writes25) (by
    simp only [hostOps25, writes25, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 26 -/

/-- Stretch 26 leaves alpha[1, 1, 3] as a one-by-one array in its coefficient buffer. -/
theorem h26_a (W : Valuation τ sig (Elt F)) :
    after hostOps26 W (Proc.devRef .tc main_call0_v194)
      = as11 (Spec.coef ![1, 1, 3] Cert.ReferenceIdeal.Gen.slices_S2x5x5_S1x1x1_1_1_3 (W (Proc.devRef .tc main_arg2))) := by
  after_results_simp
  rfl

/-- Stretch 26 copies the accumulator into the next accumulator buffer. -/
theorem h26_copy (W : Valuation τ sig (Elt F)) :
    after hostOps26 W (Proc.devRef .tc main_call0_v195_1)
      = W (Proc.devRef .tc main_call0_v191_1) := by
  after_results_simp
  rfl

/-- The references stretch 26 writes. -/
abbrev writes26 : List (Ref sig .tc) := [main_call0_v192, main_call0_v193, main_call0_v194, main_call0_v195_1]

/-- Stretch 26 leaves every buffer it does not write as it was. -/
theorem keep26 (W : Valuation τ sig (Elt F)) (b : Ref sig .tc) (hb : b ∉ writes26) :
    after hostOps26 W (Proc.devRef .tc b) = W (Proc.devRef .tc b) :=
  after_of_writes_sub hostOps26 W (W := writes26) (by
    simp only [hostOps26, writes26, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 27 -/

/-- Stretch 27 leaves alpha[1, 1, 4] as a one-by-one array in its coefficient buffer. -/
theorem h27_a (W : Valuation τ sig (Elt F)) :
    after hostOps27 W (Proc.devRef .tc main_call0_v198)
      = as11 (Spec.coef ![1, 1, 4] Cert.ReferenceIdeal.Gen.slices_S2x5x5_S1x1x1_1_1_4 (W (Proc.devRef .tc main_arg2))) := by
  after_results_simp
  rfl

/-- Stretch 27 copies the accumulator into the next accumulator buffer. -/
theorem h27_copy (W : Valuation τ sig (Elt F)) :
    after hostOps27 W (Proc.devRef .tc main_call0_v199_1)
      = W (Proc.devRef .tc main_call0_v195_1) := by
  after_results_simp
  rfl

/-- The references stretch 27 writes. -/
abbrev writes27 : List (Ref sig .tc) := [main_call0_v196, main_call0_v197, main_call0_v198, main_call0_v199_1]

/-- Stretch 27 leaves every buffer it does not write as it was. -/
theorem keep27 (W : Valuation τ sig (Elt F)) (b : Ref sig .tc) (hb : b ∉ writes27) :
    after hostOps27 W (Proc.devRef .tc b) = W (Proc.devRef .tc b) :=
  after_of_writes_sub hostOps27 W (W := writes27) (by
    simp only [hostOps27, writes27, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 28 -/

/-- Stretch 28: leaky_relu and the two normalisations of the accumulated row give the next input row. -/
theorem h28_x_row (W : Valuation τ sig (Elt F)) :
    after hostOps28 W (Proc.devRef .tc main_call0_v208)
      = normR (leakyR (W (Proc.devRef .tc main_call0_v199_1))) := by
  after_results_simp
  rfl

/-- Stretch 28: the first tap of layer (1, 2), the new input row scaled by alpha[1, 2, 0]. -/
theorem h28_y0_row (W : Valuation τ sig (Elt F)) :
    after hostOps28 W (Proc.devRef .tc main_call0_v212)
      = scR (Spec.coef ![1, 2, 0] Cert.ReferenceIdeal.Gen.slices_S2x5x5_S1x1x1_1_2_0 (W (Proc.devRef .tc main_arg2))) (normR (leakyR (W (Proc.devRef .tc main_call0_v199_1)))) := by
  after_results_simp
  rfl

/-- Stretch 28 leaves alpha[1, 2, 1] as a one-by-one array in its coefficient buffer. -/
theorem h28_a (W : Valuation τ sig (Elt F)) :
    after hostOps28 W (Proc.devRef .tc main_call0_v215)
      = as11 (Spec.coef ![1, 2, 1] Cert.ReferenceIdeal.Gen.slices_S2x5x5_S1x1x1_1_2_1 (W (Proc.devRef .tc main_arg2))) := by
  after_results_simp
  rfl

/-- Stretch 28 copies the first tap into the next accumulator buffer. -/
theorem h28_copy_row (W : Valuation τ sig (Elt F)) :
    after hostOps28 W (Proc.devRef .tc main_call0_v216_1)
      = scR (Spec.coef ![1, 2, 0] Cert.ReferenceIdeal.Gen.slices_S2x5x5_S1x1x1_1_2_0 (W (Proc.devRef .tc main_arg2))) (normR (leakyR (W (Proc.devRef .tc main_call0_v199_1)))) := by
  after_results_simp
  rfl

/-- The references stretch 28 writes. -/
abbrev writes28 : List (Ref sig .tc) := [main_call0_cst_31, main_call0_call6_cst, main_call0_call6_v0, main_call0_call6_v1, main_call0_call6_v2, main_call0_call6_v3, main_call0_call6_v4, main_call0_v200, main_call0_cst_32, main_call0_v201, main_call0_cst_33, main_call0_v202, main_call0_v203, main_call0_v204, main_call0_cst_34, main_call0_v205, main_call0_cst_35, main_call0_v206, main_call0_v207, main_call0_v208, main_call0_v209, main_call0_v210, main_call0_v211, main_call0_v212, main_call0_v213, main_call0_v214, main_call0_v215, main_call0_v216_1]

/-- Stretch 28 leaves every buffer it does not write as it was. -/
theorem keep28 (W : Valuation τ sig (Elt F)) (b : Ref sig .tc) (hb : b ∉ writes28) :
    after hostOps28 W (Proc.devRef .tc b) = W (Proc.devRef .tc b) :=
  after_of_writes_sub hostOps28 W (W := writes28) (by
    simp only [hostOps28, writes28, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 29 -/

/-- Stretch 29 leaves alpha[1, 2, 2] as a one-by-one array in its coefficient buffer. -/
theorem h29_a (W : Valuation τ sig (Elt F)) :
    after hostOps29 W (Proc.devRef .tc main_call0_v219)
      = as11 (Spec.coef ![1, 2, 2] Cert.ReferenceIdeal.Gen.slices_S2x5x5_S1x1x1_1_2_2 (W (Proc.devRef .tc main_arg2))) := by
  after_results_simp
  rfl

/-- Stretch 29 copies the accumulator into the next accumulator buffer. -/
theorem h29_copy (W : Valuation τ sig (Elt F)) :
    after hostOps29 W (Proc.devRef .tc main_call0_v220_1)
      = W (Proc.devRef .tc main_call0_v216_1) := by
  after_results_simp
  rfl

/-- The references stretch 29 writes. -/
abbrev writes29 : List (Ref sig .tc) := [main_call0_v217, main_call0_v218, main_call0_v219, main_call0_v220_1]

/-- Stretch 29 leaves every buffer it does not write as it was. -/
theorem keep29 (W : Valuation τ sig (Elt F)) (b : Ref sig .tc) (hb : b ∉ writes29) :
    after hostOps29 W (Proc.devRef .tc b) = W (Proc.devRef .tc b) :=
  after_of_writes_sub hostOps29 W (W := writes29) (by
    simp only [hostOps29, writes29, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 30 -/

/-- Stretch 30 leaves alpha[1, 2, 3] as a one-by-one array in its coefficient buffer. -/
theorem h30_a (W : Valuation τ sig (Elt F)) :
    after hostOps30 W (Proc.devRef .tc main_call0_v223)
      = as11 (Spec.coef ![1, 2, 3] Cert.ReferenceIdeal.Gen.slices_S2x5x5_S1x1x1_1_2_3 (W (Proc.devRef .tc main_arg2))) := by
  after_results_simp
  rfl

/-- Stretch 30 copies the accumulator into the next accumulator buffer. -/
theorem h30_copy (W : Valuation τ sig (Elt F)) :
    after hostOps30 W (Proc.devRef .tc main_call0_v224_1)
      = W (Proc.devRef .tc main_call0_v220_1) := by
  after_results_simp
  rfl

/-- The references stretch 30 writes. -/
abbrev writes30 : List (Ref sig .tc) := [main_call0_v221, main_call0_v222, main_call0_v223, main_call0_v224_1]

/-- Stretch 30 leaves every buffer it does not write as it was. -/
theorem keep30 (W : Valuation τ sig (Elt F)) (b : Ref sig .tc) (hb : b ∉ writes30) :
    after hostOps30 W (Proc.devRef .tc b) = W (Proc.devRef .tc b) :=
  after_of_writes_sub hostOps30 W (W := writes30) (by
    simp only [hostOps30, writes30, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 31 -/

/-- Stretch 31 leaves alpha[1, 2, 4] as a one-by-one array in its coefficient buffer. -/
theorem h31_a (W : Valuation τ sig (Elt F)) :
    after hostOps31 W (Proc.devRef .tc main_call0_v227)
      = as11 (Spec.coef ![1, 2, 4] Cert.ReferenceIdeal.Gen.slices_S2x5x5_S1x1x1_1_2_4 (W (Proc.devRef .tc main_arg2))) := by
  after_results_simp
  rfl

/-- Stretch 31 copies the accumulator into the next accumulator buffer. -/
theorem h31_copy (W : Valuation τ sig (Elt F)) :
    after hostOps31 W (Proc.devRef .tc main_call0_v228_1)
      = W (Proc.devRef .tc main_call0_v224_1) := by
  after_results_simp
  rfl

/-- The references stretch 31 writes. -/
abbrev writes31 : List (Ref sig .tc) := [main_call0_v225, main_call0_v226, main_call0_v227, main_call0_v228_1]

/-- Stretch 31 leaves every buffer it does not write as it was. -/
theorem keep31 (W : Valuation τ sig (Elt F)) (b : Ref sig .tc) (hb : b ∉ writes31) :
    after hostOps31 W (Proc.devRef .tc b) = W (Proc.devRef .tc b) :=
  after_of_writes_sub hostOps31 W (W := writes31) (by
    simp only [hostOps31, writes31, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 32 -/

/-- Stretch 32: leaky_relu and the two normalisations of the accumulated row give the next input row. -/
theorem h32_x_row (W : Valuation τ sig (Elt F)) :
    after hostOps32 W (Proc.devRef .tc main_call0_v237)
      = normR (leakyR (W (Proc.devRef .tc main_call0_v228_1))) := by
  after_results_simp
  rfl

/-- Stretch 32: the first tap of layer (1, 3), the new input row scaled by alpha[1, 3, 0]. -/
theorem h32_y0_row (W : Valuation τ sig (Elt F)) :
    after hostOps32 W (Proc.devRef .tc main_call0_v241)
      = scR (Spec.coef ![1, 3, 0] Cert.ReferenceIdeal.Gen.slices_S2x5x5_S1x1x1_1_3_0 (W (Proc.devRef .tc main_arg2))) (normR (leakyR (W (Proc.devRef .tc main_call0_v228_1)))) := by
  after_results_simp
  rfl

/-- Stretch 32 leaves alpha[1, 3, 1] as a one-by-one array in its coefficient buffer. -/
theorem h32_a (W : Valuation τ sig (Elt F)) :
    after hostOps32 W (Proc.devRef .tc main_call0_v244)
      = as11 (Spec.coef ![1, 3, 1] Cert.ReferenceIdeal.Gen.slices_S2x5x5_S1x1x1_1_3_1 (W (Proc.devRef .tc main_arg2))) := by
  after_results_simp
  rfl

/-- Stretch 32 copies the first tap into the next accumulator buffer. -/
theorem h32_copy_row (W : Valuation τ sig (Elt F)) :
    after hostOps32 W (Proc.devRef .tc main_call0_v245_1)
      = scR (Spec.coef ![1, 3, 0] Cert.ReferenceIdeal.Gen.slices_S2x5x5_S1x1x1_1_3_0 (W (Proc.devRef .tc main_arg2))) (normR (leakyR (W (Proc.devRef .tc main_call0_v228_1)))) := by
  after_results_simp
  rfl

/-- The references stretch 32 writes. -/
abbrev writes32 : List (Ref sig .tc) := [main_call0_cst_36, main_call0_call7_cst, main_call0_call7_v0, main_call0_call7_v1, main_call0_call7_v2, main_call0_call7_v3, main_call0_call7_v4, main_call0_v229, main_call0_cst_37, main_call0_v230, main_call0_cst_38, main_call0_v231, main_call0_v232, main_call0_v233, main_call0_cst_39, main_call0_v234, main_call0_cst_40, main_call0_v235, main_call0_v236, main_call0_v237, main_call0_v238, main_call0_v239, main_call0_v240, main_call0_v241, main_call0_v242, main_call0_v243, main_call0_v244, main_call0_v245_1]

/-- Stretch 32 leaves every buffer it does not write as it was. -/
theorem keep32 (W : Valuation τ sig (Elt F)) (b : Ref sig .tc) (hb : b ∉ writes32) :
    after hostOps32 W (Proc.devRef .tc b) = W (Proc.devRef .tc b) :=
  after_of_writes_sub hostOps32 W (W := writes32) (by
    simp only [hostOps32, writes32, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 33 -/

/-- Stretch 33 leaves alpha[1, 3, 2] as a one-by-one array in its coefficient buffer. -/
theorem h33_a (W : Valuation τ sig (Elt F)) :
    after hostOps33 W (Proc.devRef .tc main_call0_v248)
      = as11 (Spec.coef ![1, 3, 2] Cert.ReferenceIdeal.Gen.slices_S2x5x5_S1x1x1_1_3_2 (W (Proc.devRef .tc main_arg2))) := by
  after_results_simp
  rfl

/-- Stretch 33 copies the accumulator into the next accumulator buffer. -/
theorem h33_copy (W : Valuation τ sig (Elt F)) :
    after hostOps33 W (Proc.devRef .tc main_call0_v249_1)
      = W (Proc.devRef .tc main_call0_v245_1) := by
  after_results_simp
  rfl

/-- The references stretch 33 writes. -/
abbrev writes33 : List (Ref sig .tc) := [main_call0_v246, main_call0_v247, main_call0_v248, main_call0_v249_1]

/-- Stretch 33 leaves every buffer it does not write as it was. -/
theorem keep33 (W : Valuation τ sig (Elt F)) (b : Ref sig .tc) (hb : b ∉ writes33) :
    after hostOps33 W (Proc.devRef .tc b) = W (Proc.devRef .tc b) :=
  after_of_writes_sub hostOps33 W (W := writes33) (by
    simp only [hostOps33, writes33, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 34 -/

/-- Stretch 34 leaves alpha[1, 3, 3] as a one-by-one array in its coefficient buffer. -/
theorem h34_a (W : Valuation τ sig (Elt F)) :
    after hostOps34 W (Proc.devRef .tc main_call0_v252)
      = as11 (Spec.coef ![1, 3, 3] Cert.ReferenceIdeal.Gen.slices_S2x5x5_S1x1x1_1_3_3 (W (Proc.devRef .tc main_arg2))) := by
  after_results_simp
  rfl

/-- Stretch 34 copies the accumulator into the next accumulator buffer. -/
theorem h34_copy (W : Valuation τ sig (Elt F)) :
    after hostOps34 W (Proc.devRef .tc main_call0_v253_1)
      = W (Proc.devRef .tc main_call0_v249_1) := by
  after_results_simp
  rfl

/-- The references stretch 34 writes. -/
abbrev writes34 : List (Ref sig .tc) := [main_call0_v250, main_call0_v251, main_call0_v252, main_call0_v253_1]

/-- Stretch 34 leaves every buffer it does not write as it was. -/
theorem keep34 (W : Valuation τ sig (Elt F)) (b : Ref sig .tc) (hb : b ∉ writes34) :
    after hostOps34 W (Proc.devRef .tc b) = W (Proc.devRef .tc b) :=
  after_of_writes_sub hostOps34 W (W := writes34) (by
    simp only [hostOps34, writes34, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 35 -/

/-- Stretch 35 leaves alpha[1, 3, 4] as a one-by-one array in its coefficient buffer. -/
theorem h35_a (W : Valuation τ sig (Elt F)) :
    after hostOps35 W (Proc.devRef .tc main_call0_v256)
      = as11 (Spec.coef ![1, 3, 4] Cert.ReferenceIdeal.Gen.slices_S2x5x5_S1x1x1_1_3_4 (W (Proc.devRef .tc main_arg2))) := by
  after_results_simp
  rfl

/-- Stretch 35 copies the accumulator into the next accumulator buffer. -/
theorem h35_copy (W : Valuation τ sig (Elt F)) :
    after hostOps35 W (Proc.devRef .tc main_call0_v257_1)
      = W (Proc.devRef .tc main_call0_v253_1) := by
  after_results_simp
  rfl

/-- The references stretch 35 writes. -/
abbrev writes35 : List (Ref sig .tc) := [main_call0_v254, main_call0_v255, main_call0_v256, main_call0_v257_1]

/-- Stretch 35 leaves every buffer it does not write as it was. -/
theorem keep35 (W : Valuation τ sig (Elt F)) (b : Ref sig .tc) (hb : b ∉ writes35) :
    after hostOps35 W (Proc.devRef .tc b) = W (Proc.devRef .tc b) :=
  after_of_writes_sub hostOps35 W (W := writes35) (by
    simp only [hostOps35, writes35, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 36 -/

/-- Stretch 36: leaky_relu and the two normalisations of the accumulated row give the next input row. -/
theorem h36_x_row (W : Valuation τ sig (Elt F)) :
    after hostOps36 W (Proc.devRef .tc main_call0_v266)
      = normR (leakyR (W (Proc.devRef .tc main_call0_v257_1))) := by
  after_results_simp
  rfl

/-- Stretch 36: the first tap of layer (1, 4), the new input row scaled by alpha[1, 4, 0]. -/
theorem h36_y0_row (W : Valuation τ sig (Elt F)) :
    after hostOps36 W (Proc.devRef .tc main_call0_v270)
      = scR (Spec.coef ![1, 4, 0] Cert.ReferenceIdeal.Gen.slices_S2x5x5_S1x1x1_1_4_0 (W (Proc.devRef .tc main_arg2))) (normR (leakyR (W (Proc.devRef .tc main_call0_v257_1)))) := by
  after_results_simp
  rfl

/-- Stretch 36 leaves alpha[1, 4, 1] as a one-by-one array in its coefficient buffer. -/
theorem h36_a (W : Valuation τ sig (Elt F)) :
    after hostOps36 W (Proc.devRef .tc main_call0_v273)
      = as11 (Spec.coef ![1, 4, 1] Cert.ReferenceIdeal.Gen.slices_S2x5x5_S1x1x1_1_4_1 (W (Proc.devRef .tc main_arg2))) := by
  after_results_simp
  rfl

/-- Stretch 36 copies the first tap into the next accumulator buffer. -/
theorem h36_copy_row (W : Valuation τ sig (Elt F)) :
    after hostOps36 W (Proc.devRef .tc main_call0_v274_1)
      = scR (Spec.coef ![1, 4, 0] Cert.ReferenceIdeal.Gen.slices_S2x5x5_S1x1x1_1_4_0 (W (Proc.devRef .tc main_arg2))) (normR (leakyR (W (Proc.devRef .tc main_call0_v257_1)))) := by
  after_results_simp
  rfl

/-- The references stretch 36 writes. -/
abbrev writes36 : List (Ref sig .tc) := [main_call0_cst_41, main_call0_call8_cst, main_call0_call8_v0, main_call0_call8_v1, main_call0_call8_v2, main_call0_call8_v3, main_call0_call8_v4, main_call0_v258, main_call0_cst_42, main_call0_v259, main_call0_cst_43, main_call0_v260, main_call0_v261, main_call0_v262, main_call0_cst_44, main_call0_v263, main_call0_cst_45, main_call0_v264, main_call0_v265, main_call0_v266, main_call0_v267, main_call0_v268, main_call0_v269, main_call0_v270, main_call0_v271, main_call0_v272, main_call0_v273, main_call0_v274_1]

/-- Stretch 36 leaves every buffer it does not write as it was. -/
theorem keep36 (W : Valuation τ sig (Elt F)) (b : Ref sig .tc) (hb : b ∉ writes36) :
    after hostOps36 W (Proc.devRef .tc b) = W (Proc.devRef .tc b) :=
  after_of_writes_sub hostOps36 W (W := writes36) (by
    simp only [hostOps36, writes36, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 37 -/

/-- Stretch 37 leaves alpha[1, 4, 2] as a one-by-one array in its coefficient buffer. -/
theorem h37_a (W : Valuation τ sig (Elt F)) :
    after hostOps37 W (Proc.devRef .tc main_call0_v277)
      = as11 (Spec.coef ![1, 4, 2] Cert.ReferenceIdeal.Gen.slices_S2x5x5_S1x1x1_1_4_2 (W (Proc.devRef .tc main_arg2))) := by
  after_results_simp
  rfl

/-- Stretch 37 copies the accumulator into the next accumulator buffer. -/
theorem h37_copy (W : Valuation τ sig (Elt F)) :
    after hostOps37 W (Proc.devRef .tc main_call0_v278_1)
      = W (Proc.devRef .tc main_call0_v274_1) := by
  after_results_simp
  rfl

/-- The references stretch 37 writes. -/
abbrev writes37 : List (Ref sig .tc) := [main_call0_v275, main_call0_v276, main_call0_v277, main_call0_v278_1]

/-- Stretch 37 leaves every buffer it does not write as it was. -/
theorem keep37 (W : Valuation τ sig (Elt F)) (b : Ref sig .tc) (hb : b ∉ writes37) :
    after hostOps37 W (Proc.devRef .tc b) = W (Proc.devRef .tc b) :=
  after_of_writes_sub hostOps37 W (W := writes37) (by
    simp only [hostOps37, writes37, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 38 -/

/-- Stretch 38 leaves alpha[1, 4, 3] as a one-by-one array in its coefficient buffer. -/
theorem h38_a (W : Valuation τ sig (Elt F)) :
    after hostOps38 W (Proc.devRef .tc main_call0_v281)
      = as11 (Spec.coef ![1, 4, 3] Cert.ReferenceIdeal.Gen.slices_S2x5x5_S1x1x1_1_4_3 (W (Proc.devRef .tc main_arg2))) := by
  after_results_simp
  rfl

/-- Stretch 38 copies the accumulator into the next accumulator buffer. -/
theorem h38_copy (W : Valuation τ sig (Elt F)) :
    after hostOps38 W (Proc.devRef .tc main_call0_v282_1)
      = W (Proc.devRef .tc main_call0_v278_1) := by
  after_results_simp
  rfl

/-- The references stretch 38 writes. -/
abbrev writes38 : List (Ref sig .tc) := [main_call0_v279, main_call0_v280, main_call0_v281, main_call0_v282_1]

/-- Stretch 38 leaves every buffer it does not write as it was. -/
theorem keep38 (W : Valuation τ sig (Elt F)) (b : Ref sig .tc) (hb : b ∉ writes38) :
    after hostOps38 W (Proc.devRef .tc b) = W (Proc.devRef .tc b) :=
  after_of_writes_sub hostOps38 W (W := writes38) (by
    simp only [hostOps38, writes38, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 39 -/

/-- Stretch 39 leaves alpha[1, 4, 4] as a one-by-one array in its coefficient buffer. -/
theorem h39_a (W : Valuation τ sig (Elt F)) :
    after hostOps39 W (Proc.devRef .tc main_call0_v285)
      = as11 (Spec.coef ![1, 4, 4] Cert.ReferenceIdeal.Gen.slices_S2x5x5_S1x1x1_1_4_4 (W (Proc.devRef .tc main_arg2))) := by
  after_results_simp
  rfl

/-- Stretch 39 copies the accumulator into the next accumulator buffer. -/
theorem h39_copy (W : Valuation τ sig (Elt F)) :
    after hostOps39 W (Proc.devRef .tc main_call0_v286_1)
      = W (Proc.devRef .tc main_call0_v282_1) := by
  after_results_simp
  rfl

/-- The references stretch 39 writes. -/
abbrev writes39 : List (Ref sig .tc) := [main_call0_v283, main_call0_v284, main_call0_v285, main_call0_v286_1]

/-- Stretch 39 leaves every buffer it does not write as it was. -/
theorem keep39 (W : Valuation τ sig (Elt F)) (b : Ref sig .tc) (hb : b ∉ writes39) :
    after hostOps39 W (Proc.devRef .tc b) = W (Proc.devRef .tc b) :=
  after_of_writes_sub hostOps39 W (W := writes39) (by
    simp only [hostOps39, writes39, List.Forall, nullary_writes, unary_writes, binary_writes, ternary_writes, reshape_writes,
      Finset.singleton_subset_iff, List.mem_toFinset, List.map_cons, List.map_nil, List.mem_cons, List.not_mem_nil, or_false, true_or, or_true, and_self]) hb

/-! ### Stretch 40 -/

/-- The last stretch: leaky_relu and the normalisations of the last accumulated row, the two rows read as columns side by side, then 1 / (1 + exp (−·)). -/
theorem h40_row (W : Valuation τ sig (Elt F)) :
    after hostOps40 W (Proc.devRef .tc main_v0)
      = Spec.tail (shapeCast S8192x1 (W (Proc.devRef .tc main_call0_v150)) shapeCasts_S1x8192_S8192x1)
          (shapeCast S8192x1 (normR (leakyR (W (Proc.devRef .tc main_call0_v286_1)))) shapeCasts_S1x8192_S8192x1) := by
  after_results_simp
  rfl

/-- The references stretch 40 writes. -/
abbrev writes40 : List (Ref sig .tc) := [main_call0_cst_46, main_call0_call9_cst, main_call0_call9_v0, main_call0_call9_v1, main_call0_call9_v2, main_call0_call9_v3, main_call0_call9_v4, main_call0_v287, main_call0_cst_47, main_call0_v288, main_call0_cst_48, main_call0_v289, main_call0_v290, main_call0_v291, main_call0_cst_49, main_call0_v292, main_call0_cst_50, main_call0_v293, main_call0_v294, main_call0_v295, main_call0_v296, main_call0_v297, main_call0_v298, main_call0_v299, main_call0_v300, main_call0_cst_51, main_call0_v301, main_call0_v302, main_call0_cst_52, main_call0_v303, main_v0]

/-- Stretch 40 leaves every buffer it does not write as it was. -/
theorem keep40 (W : Valuation τ sig (Elt F)) (b : Ref sig .tc) (hb : b ∉ writes40) :
    after hostOps40 W (Proc.devRef .tc b) = W (Proc.devRef .tc b) :=
  after_of_writes_sub hostOps40 W (W := writes40) (by
    simp only [hostOps40, writes40, List.Forall, nullary_writes, unary_writes, binary_writes, ternary_writes, reshape_writes,
      Finset.singleton_subset_iff, List.mem_toFinset, List.map_cons, List.map_nil, List.mem_cons, List.not_mem_nil, or_false, true_or, or_true, and_self]) hb

end Cert.KernelIdeal.KHost

end
-- ==== Proof.Bridge.lean ====
/-
  Rows against columns. The kernel keeps every vector as a row [1, 8192]; the reference keeps it as a column [8192, 1].
  Read as a column (`toCol`, the reshape the kernel itself applies before it joins its two results), a row commutes with every
  pointwise operation, with the spread of a scalar, and with the sum of all entries; and the kernel's row-times-matrixᵀ product
  Σₖ v[0,k] · Hb[n,k] is the reference's matrix-times-column product Σₖ Hn[n,k] · v[k,0] (the products commute on the
  extended reals, and a change of float format is the identity there).
-/
import proofs.«144169_j55405078119367_2_alg».proof.Proof.Spec
import proofs.«144169_j55405078119367_2_alg».proof.Proof.Gen.KernelIdeal.Skeleton
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Bridge

open Cert.KernelIdeal Cert.KernelIdeal.Gen Idealize.ShloMosaic Idealize.ShloMosaic.ValueIdx
open Cert.ReferenceIdeal (Spec.bc Spec.mv Spec.sc Spec.leaky Spec.meanB Spec.norm)

section AnyF
variable {F : FTy → Type} [FloatOps F]

/-- A row read as a column: the same 8192 entries in the same order. -/
def toCol {α : Type} (r : S1x8192.Idx → α) : S8192x1.Idx → α := shapeCast S8192x1 r shapeCasts_S1x8192_S8192x1

theorem toCol_mulf (a b : FVec F S1x8192 .f32) : toCol (mulf a b) = mulf (toCol a) (toCol b) := rfl
theorem toCol_addf (a b : FVec F S1x8192 .f32) : toCol (addf a b) = addf (toCol a) (toCol b) := rfl
theorem toCol_subf (a b : FVec F S1x8192 .f32) : toCol (subf a b) = subf (toCol a) (toCol b) := rfl
theorem toCol_hdivf (a b : FVec F S1x8192 .f32) : toCol (Host.divf a b) = Host.divf (toCol a) (toCol b) := rfl
theorem toCol_cmpf (p : CmpFPredicate) (a b : FVec F S1x8192 .f32) : toCol (cmpf (F := F) p a b) = cmpf (F := F) p (toCol a) (toCol b) := rfl
theorem toCol_select (c : IVec S1x8192 1) (a b : FVec F S1x8192 .f32) : toCol (select c a b) = select (toCol c) (toCol a) (toCol b) := rfl

/-- A scalar spread over a row, read as a column, is the scalar spread over a column. -/
theorem toCol_bc (s : FVec F S_ .f32) : toCol (broadcastInDim S1x8192 ![] bcast_S_S1x8192 s) = Cert.ReferenceIdeal.Spec.bc s := by
  funext j
  unfold toCol Cert.ReferenceIdeal.Spec.bc shapeCast broadcastInDim
  exact congrArg s (funext fun a => a.elim0)

end AnyF

/-- Entry n of the column is entry n of the row. -/
theorem toCol_apply {α : Type} (r : S1x8192.Idx → α) (n : Fin 8192) : toCol r (ix2 n 0) = r (ix2 0 n) := by
  unfold toCol
  refine shapeCast_apply r shapeCasts_S1x8192_S8192x1 (ix2 n 0) (ix2 0 n) ?_
  rw [Shape.rowMajor_val_two, Shape.rowMajor_val_two]
  show (0 : Nat) * 8192 + n.val = n.val * 1 + 0
  omega

/-- The sum of all entries (from an initial value) does not see the arrangement. -/
theorem reduceAdd_toCol (r : FVec Ideal S1x8192 .f32) (init : FVec Ideal S_ .f32) :
    Host.reduceAdd r init reducesTo_S1x8192_S_d0_1 h_S_
      = Host.reduceAdd (toCol r) init Cert.ReferenceIdeal.Gen.reducesTo_S8192x1_S_d0_1 Cert.ReferenceIdeal.Gen.h_S_ := by
  funext j
  rw [hostReduceAdd_apply, hostReduceAdd_apply, Ideal.hostReduceAdd_total _ (fun b => b.elim0),
    Ideal.hostReduceAdd_total _ (fun b => b.elim0)]
  refine congrArg (init _ + ·) ?_
  exact (Equiv.sum_comp (Shape.reshapeEquiv shapeCasts_S1x8192_S8192x1) r).symm

/-- A change of float format is the identity on the extended reals. -/
theorem truncf_bf16 {s : Shape} (x : FVec Ideal s .f32) : truncf .bf16 x bitsLt_bf16_f32 = x := by
  funext i; simp [truncf]

/-- The row-times-matrixᵀ product of one block, at a column of the block. -/
def mvRow {K : Nat} (v : (⟨2, ![1, 8192]⟩ : Shape).Idx → EReal) (Hb : (⟨2, ![K, 8192]⟩ : Shape).Idx → EReal) (n : Fin K) : EReal :=
  ∑ k : Fin 8192, v (ix2 0 k) * Hb (ix2 n k)

/-! ## The kernels' payloads at an index -/

/-- A tap kernel's product: the row against one block of 1024 rows of the matrix, at a row of the block. -/
theorem pay1_apply (v : Vec Ideal S1x8192 .f32) (Hb : Vec Ideal S1024x8192 .bf16) (b : Fin 1024) :
    k1_pay1 v Hb (ix2 0 b) = mvRow v Hb b := by
  unfold k1_pay1 mvRow
  rw [shapeCast_self, shapeCast_self, truncf_bf16]
  refine (Ideal.matmul_constant_zero_apply (φ₁ := .f32) (φ₂ := .bf16) dot_S1x8192_S1024x8192_S1x1024_1_1_0_0_n_n none v Hb (ix2 0 b)).trans ?_
  rw [← Equiv.sum_comp (contrEquiv1 dot_S1x8192_S1024x8192_S1x1024_1_1_0_0_n_n 8192 rfl rfl).symm]
  refine Finset.sum_congr rfl fun i _ => ?_
  have e1 : dot_S1x8192_S1024x8192_S1x1024_1_1_0_0_n_n.lhsIdx (ix2 0 b) ((contrEquiv1 dot_S1x8192_S1024x8192_S1x1024_1_1_0_0_n_n 8192 rfl rfl).symm i) = ix2 0 i := by
    funext a; apply Fin.ext; match a with | ⟨0, _⟩ => rfl | ⟨1, _⟩ => rfl
  have e2 : dot_S1x8192_S1024x8192_S1x1024_1_1_0_0_n_n.rhsIdx (ix2 0 b) ((contrEquiv1 dot_S1x8192_S1024x8192_S1x1024_1_1_0_0_n_n 8192 rfl rfl).symm i) = ix2 b i := by
    funext a; apply Fin.ext; match a with | ⟨0, _⟩ => rfl | ⟨1, _⟩ => rfl
  rw [e1, e2]

/-- The one entry of a [1,1] block. -/
theorem extractAt_00 (a : Vec Ideal S1x1 .f32) : extractAt ![0, 0] a inpos_S1x1_p0_0 = a (ix2 0 0) := by
  unfold extractAt
  exact congrArg a (funext fun d => Fin.ext (by match d with | ⟨0, _⟩ => rfl | ⟨1, _⟩ => rfl))

/-- A tap kernel's accumulation: the incoming block of y plus the coefficient times the product. -/
theorem pay2_apply (v : Vec Ideal S1x8192 .f32) (Hb : Vec Ideal S1024x8192 .bf16) (a : Vec Ideal S1x1 .f32) (y : Vec Ideal S1x1024 .f32) (b : Fin 1024) :
    k1_pay2 v Hb a y (ix2 0 b) = y (ix2 0 b) + a (ix2 0 0) * mvRow v Hb b := by
  unfold k1_pay2
  rw [shapeCast_self]
  show y (ix2 0 b) + extractAt ![0, 0] a inpos_S1x1_p0_0 * k1_pay1 v Hb (ix2 0 b) = _
  rw [pay1_apply, extractAt_00]

/-- The first kernel's cast block: (h + 1) · 0.5 entry by entry. -/
theorem cast_apply (h : Vec Ideal S256x8192 .f32) (i : S256x8192.Idx) :
    k0_pay1 h i = (h i + Ideal.ofBits .f32 0x3F800000#32) * Ideal.ofBits .f32 0x3F000000#32 := by
  unfold k0_pay1
  rw [truncf_bf16]
  rfl

/-- The first kernel's product: the row against the freshly cast block of 256 rows. -/
theorem pay2_0_apply (h : Vec Ideal S256x8192 .f32) (v : Vec Ideal S1x8192 .f32) (b : Fin 256) :
    k0_pay2 h v (ix2 0 b) = mvRow v (k0_pay1 h) b := by
  unfold k0_pay2 mvRow
  rw [shapeCast_self, truncf_bf16]
  refine (Ideal.matmul_constant_zero_apply (φ₁ := .f32) (φ₂ := .bf16) dot_S1x8192_S256x8192_S1x256_1_1_0_0_n_n none v (k0_pay1 h) (ix2 0 b)).trans ?_
  rw [← Equiv.sum_comp (contrEquiv1 dot_S1x8192_S256x8192_S1x256_1_1_0_0_n_n 8192 rfl rfl).symm]
  refine Finset.sum_congr rfl fun i _ => ?_
  have e1 : dot_S1x8192_S256x8192_S1x256_1_1_0_0_n_n.lhsIdx (ix2 0 b) ((contrEquiv1 dot_S1x8192_S256x8192_S1x256_1_1_0_0_n_n 8192 rfl rfl).symm i) = ix2 0 i := by
    funext a; apply Fin.ext; match a with | ⟨0, _⟩ => rfl | ⟨1, _⟩ => rfl
  have e2 : dot_S1x8192_S256x8192_S1x256_1_1_0_0_n_n.rhsIdx (ix2 0 b) ((contrEquiv1 dot_S1x8192_S256x8192_S1x256_1_1_0_0_n_n 8192 rfl rfl).symm i) = ix2 b i := by
    funext a; apply Fin.ext; match a with | ⟨0, _⟩ => rfl | ⟨1, _⟩ => rfl
  rw [e1, e2]

/-- The first kernel's accumulation. -/
theorem pay3_0_apply (h : Vec Ideal S256x8192 .f32) (v : Vec Ideal S1x8192 .f32) (a : Vec Ideal S1x1 .f32) (y : Vec Ideal S1x256 .f32) (b : Fin 256) :
    k0_pay3 h v a y (ix2 0 b) = y (ix2 0 b) + a (ix2 0 0) * mvRow v (k0_pay1 h) b := by
  unfold k0_pay3
  rw [shapeCast_self]
  show y (ix2 0 b) + extractAt ![0, 0] a inpos_S1x1_p0_0 * k0_pay2 h v (ix2 0 b) = _
  rw [pay2_0_apply, extractAt_00]

/-! ## The products, as columns -/

/-- The reference's matrix-times-column product at a row. -/
theorem mv_apply (Hn : FVec Ideal Cert.ReferenceIdeal.S8192x8192 .f32) (vc : FVec Ideal Cert.ReferenceIdeal.S8192x1 .f32) (n : Fin 8192) :
    Cert.ReferenceIdeal.Spec.mv Hn vc (ix2 n 0) = ∑ k : Fin 8192, Hn (ix2 n k) * vc (ix2 k 0) := by
  unfold Cert.ReferenceIdeal.Spec.mv
  refine (Ideal.dotGeneral_apply (φ₁ := .f32) (φ₂ := .f32) Cert.ReferenceIdeal.dot_S8192x8192_S8192x1_S8192x1_1_0_0_1_n_n none _ Hn vc (ix2 n 0)).trans ?_
  rw [← Equiv.sum_comp (contrEquiv1 Cert.ReferenceIdeal.dot_S8192x8192_S8192x1_S8192x1_1_0_0_1_n_n 8192 rfl rfl).symm]
  refine Finset.sum_congr rfl fun i _ => ?_
  have e1 : Cert.ReferenceIdeal.dot_S8192x8192_S8192x1_S8192x1_1_0_0_1_n_n.lhsIdx (ix2 n 0) ((contrEquiv1 Cert.ReferenceIdeal.dot_S8192x8192_S8192x1_S8192x1_1_0_0_1_n_n 8192 rfl rfl).symm i) = ix2 n i := by
    funext a; apply Fin.ext; match a with | ⟨0, _⟩ => rfl | ⟨1, _⟩ => rfl
  have e2 : Cert.ReferenceIdeal.dot_S8192x8192_S8192x1_S8192x1_1_0_0_1_n_n.rhsIdx (ix2 n 0) ((contrEquiv1 Cert.ReferenceIdeal.dot_S8192x8192_S8192x1_S8192x1_1_0_0_1_n_n 8192 rfl rfl).symm i) = ix2 i 0 := by
    funext a; apply Fin.ext; match a with | ⟨0, _⟩ => rfl | ⟨1, _⟩ => rfl
  rw [e1, e2]

/-- THE PRODUCT IN BOTH ARRANGEMENTS: the row of products of a row v with the rows of a matrix, read as a column, is the
    matrix applied to v read as a column (the factors commute). -/
theorem toCol_mvRow (v : S1x8192.Idx → EReal) (Hb : (⟨2, ![8192, 8192]⟩ : Shape).Idx → EReal) :
    toCol (fun i : S1x8192.Idx => mvRow v Hb (i 1)) = Cert.ReferenceIdeal.Spec.mv (F := Ideal) Hb (toCol v) := by
  funext j
  obtain ⟨n, z, rfl⟩ : ∃ (n : Fin 8192) (z : Fin 1), j = ix2 n z := ⟨j 0, j 1, eq_ix2 j⟩
  obtain rfl : z = 0 := Subsingleton.elim _ _
  rw [toCol_apply, mv_apply]
  unfold mvRow
  refine Finset.sum_congr rfl fun k _ => ?_
  rw [toCol_apply, mul_comm]

end Cert.KernelIdeal.Bridge

end
-- ==== Proof.KHost.lean ====
/-
  The host stretches of the kernel program, in COLUMN language. A row [1, 8192] read as a column [8192, 1] (the reshape
  the program itself applies before it joins its two results) commutes with every pointwise operation, with the spread
  of a scalar and with the sum of all entries; so what each stretch leaves in its buffers, stated on rows in the
  companion module, is here the specification's column operations of the buffers read: the prelude the affine map of
  the input column and the first tap, each stretch between two layers the normalised leaky_relu of the accumulated
  column and the next layer's first tap, the last stretch the sigmoid of the two result columns.
-/
import proofs.«144169_j55405078119367_2_alg».proof.Proof.KHostRow
import proofs.«144169_j55405078119367_2_alg».proof.Proof.Bridge

noncomputable section

namespace Cert.KernelIdeal.KHost

open Cert.KernelIdeal Cert.KernelIdeal.Gen Cert.KernelIdeal.GenP Idealize.ShloMosaic Idealize.ShloMosaic.StableHlo Cert.KernelIdeal.Bridge
open Cert.ReferenceIdeal (Spec.bc Spec.sc Spec.leaky Spec.meanB Spec.norm Spec.x0 Spec.coef Spec.tail)

variable {F : FTy → Type} [FloatOps F]

section AnyF
variable {F : FTy → Type} [FloatOps F]

/-- A reshape commutes with a pointwise product. -/
theorem shapeCast_mulf {s t : Shape} (a b : FVec F s .f32) (h : s.ShapeCasts t) :
    shapeCast t (mulf a b) h = mulf (shapeCast t a h) (shapeCast t b h) := rfl

/-- A reshape commutes with a pointwise sum. -/
theorem shapeCast_addf {s t : Shape} (a b : FVec F s .f32) (h : s.ShapeCasts t) :
    shapeCast t (addf a b) h = addf (shapeCast t a h) (shapeCast t b h) := rfl

/-- Two reshapes one after the other are one: all keep the row-major order. -/
theorem shapeCast_comp {α : Type} {s t u : Shape} (x : s.Idx → α) (h : s.ShapeCasts t) (h' : t.ShapeCasts u) :
    shapeCast u (shapeCast t x h) h' = shapeCast u x (Eq.trans h' h) := by
  funext j
  unfold shapeCast
  exact congrArg x (Shape.reshapeEquiv_reshapeEquiv h h' j)

/-- A scalar spread over a flat vector, laid out as a row, is the scalar spread over a row. -/
theorem shapeCast_bc8192 (c : FVec F S_ .f32) :
    shapeCast S1x8192 (broadcastInDim S8192 ![] bcast_S_S8192 c) shapeCasts_S8192_S1x8192 = bcR c := by
  funext j
  unfold shapeCast broadcastInDim
  exact congrArg c (funext fun a => a.elim0)

/-- A column flattened, laid out as a row, and read as a column again is itself. -/
theorem toCol_flat (x : FVec F S8192x1 .f32) :
    toCol (shapeCast S1x8192 (shapeCast S8192 x shapeCasts_S8192x1_S8192) shapeCasts_S8192_S1x8192) = x := by
  unfold toCol
  rw [shapeCast_comp, shapeCast_comp]
  exact Idealize.ShloMosaic.shapeCast_self x _

/-- The affine map computed flat and laid out as a row, read as a column, is the affine map of the column. -/
theorem toCol_x0R (x : FVec F S8192x1 .f32) : toCol (x0R x) = Spec.x0 x := by
  unfold x0R Spec.x0
  rw [shapeCast_mulf, shapeCast_addf, shapeCast_bc8192, shapeCast_bc8192, toCol_mulf, toCol_addf, toCol_bc, toCol_bc, toCol_flat]

/-- A scaled row read as a column is the scaled column. -/
theorem toCol_scR (a : FVec F S_ .f32) (v : FVec F S1x8192 .f32) : toCol (scR a v) = Spec.sc a (toCol v) := by
  unfold scR Spec.sc
  rw [toCol_mulf, toCol_bc]

/-- leaky_relu of a row read as a column is leaky_relu of the column. -/
theorem toCol_leakyR (y : FVec F S1x8192 .f32) : toCol (leakyR y) = Spec.leaky (toCol y) := by
  unfold leakyR Spec.leaky
  rw [toCol_select, toCol_cmpf, toCol_mulf, toCol_bc, toCol_bc]
  rfl

end AnyF

/-- The mean of a row, spread over a row and read as a column, is the mean of the column spread over a column. -/
theorem toCol_meanBR (z : FVec Ideal S1x8192 .f32) : toCol (meanBR z) = Spec.meanB (toCol z) := by
  unfold meanBR Spec.meanB
  rw [toCol_bc, reduceAdd_toCol]

/-- The two normalisations of a row read as a column are those of the column. -/
theorem toCol_normR (z : FVec Ideal S1x8192 .f32) : toCol (normR z) = Spec.norm (toCol z) := by
  unfold normR Spec.norm
  simp only [toCol_subf, toCol_hdivf, toCol_meanBR]

/-! ### The stretches, in column language -/

section AnyF
variable {F : FTy → Type} [FloatOps F]

/-- The prelude's input row, read as a column, is the affine map of the argument column. -/
theorem h0_x (W : Valuation τ sig (Elt F)) :
    toCol (after hostOps0 W (Proc.devRef .tc main_call0_v5)) = Spec.x0 (F := F) (W (Proc.devRef .tc main_arg1)) := by
  rw [h0_x_row, toCol_x0R]

/-- The prelude's first tap, read as a column: the affine map of the argument column scaled by alpha[0, 0, 0]. -/
theorem h0_y0 (W : Valuation τ sig (Elt F)) :
    toCol (after hostOps0 W (Proc.devRef .tc main_call0_v9))
      = Spec.sc (F := F) (Spec.coef (F := F) ![0, 0, 0] Cert.ReferenceIdeal.Gen.slices_S2x5x5_S1x1x1_0_0_0 (W (Proc.devRef .tc main_arg2))) (Spec.x0 (F := F) (W (Proc.devRef .tc main_arg1))) := by
  rw [h0_y0_row, toCol_scR, toCol_x0R]

/-- The same in the buffer the prelude copies it to. -/
theorem h0_copy_col (W : Valuation τ sig (Elt F)) :
    toCol (after hostOps0 W (Proc.devRef .tc main_call0_v13_2))
      = Spec.sc (F := F) (Spec.coef (F := F) ![0, 0, 0] Cert.ReferenceIdeal.Gen.slices_S2x5x5_S1x1x1_0_0_0 (W (Proc.devRef .tc main_arg2))) (Spec.x0 (F := F) (W (Proc.devRef .tc main_arg1))) := by
  rw [h0_copy, toCol_scR, toCol_x0R]

end AnyF

/-- Stretch 4: the next input row, read as a column, is the normalised leaky_relu of the accumulated row read as a column. -/
theorem h4_x (W : Valuation τ sig (Elt Ideal)) :
    toCol (after hostOps4 W (Proc.devRef .tc main_call0_v34)) = Spec.norm (F := Ideal) (Spec.leaky (F := Ideal) (toCol (W (Proc.devRef .tc main_call0_v25_1)))) := by
  rw [h4_x_row, toCol_normR, toCol_leakyR]

/-- Stretch 4: the first tap of layer (0, 1), read as a column. -/
theorem h4_y0 (W : Valuation τ sig (Elt Ideal)) :
    toCol (after hostOps4 W (Proc.devRef .tc main_call0_v38))
      = Spec.sc (F := Ideal) (Spec.coef (F := Ideal) ![0, 1, 0] Cert.ReferenceIdeal.Gen.slices_S2x5x5_S1x1x1_0_1_0 (W (Proc.devRef .tc main_arg2))) (Spec.norm (F := Ideal) (Spec.leaky (F := Ideal) (toCol (W (Proc.devRef .tc main_call0_v25_1))))) := by
  rw [h4_y0_row, toCol_scR, toCol_normR, toCol_leakyR]

/-- The same in the buffer stretch 4 copies it to. -/
theorem h4_copy (W : Valuation τ sig (Elt Ideal)) :
    toCol (after hostOps4 W (Proc.devRef .tc main_call0_v42_1))
      = Spec.sc (F := Ideal) (Spec.coef (F := Ideal) ![0, 1, 0] Cert.ReferenceIdeal.Gen.slices_S2x5x5_S1x1x1_0_1_0 (W (Proc.devRef .tc main_arg2))) (Spec.norm (F := Ideal) (Spec.leaky (F := Ideal) (toCol (W (Proc.devRef .tc main_call0_v25_1))))) := by
  rw [h4_copy_row, toCol_scR, toCol_normR, toCol_leakyR]

/-- Stretch 8: the next input row, read as a column, is the normalised leaky_relu of the accumulated row read as a column. -/
theorem h8_x (W : Valuation τ sig (Elt Ideal)) :
    toCol (after hostOps8 W (Proc.devRef .tc main_call0_v63)) = Spec.norm (F := Ideal) (Spec.leaky (F := Ideal) (toCol (W (Proc.devRef .tc main_call0_v54_1)))) := by
  rw [h8_x_row, toCol_normR, toCol_leakyR]

/-- Stretch 8: the first tap of layer (0, 2), read as a column. -/
theorem h8_y0 (W : Valuation τ sig (Elt Ideal)) :
    toCol (after hostOps8 W (Proc.devRef .tc main_call0_v67))
      = Spec.sc (F := Ideal) (Spec.coef (F := Ideal) ![0, 2, 0] Cert.ReferenceIdeal.Gen.slices_S2x5x5_S1x1x1_0_2_0 (W (Proc.devRef .tc main_arg2))) (Spec.norm (F := Ideal) (Spec.leaky (F := Ideal) (toCol (W (Proc.devRef .tc main_call0_v54_1))))) := by
  rw [h8_y0_row, toCol_scR, toCol_normR, toCol_leakyR]

/-- The same in the buffer stretch 8 copies it to. -/
theorem h8_copy (W : Valuation τ sig (Elt Ideal)) :
    toCol (after hostOps8 W (Proc.devRef .tc main_call0_v71_1))
      = Spec.sc (F := Ideal) (Spec.coef (F := Ideal) ![0, 2, 0] Cert.ReferenceIdeal.Gen.slices_S2x5x5_S1x1x1_0_2_0 (W (Proc.devRef .tc main_arg2))) (Spec.norm (F := Ideal) (Spec.leaky (F := Ideal) (toCol (W (Proc.devRef .tc main_call0_v54_1))))) := by
  rw [h8_copy_row, toCol_scR, toCol_normR, toCol_leakyR]

/-- Stretch 12: the next input row, read as a column, is the normalised leaky_relu of the accumulated row read as a column. -/
theorem h12_x (W : Valuation τ sig (Elt Ideal)) :
    toCol (after hostOps12 W (Proc.devRef .tc main_call0_v92)) = Spec.norm (F := Ideal) (Spec.leaky (F := Ideal) (toCol (W (Proc.devRef .tc main_call0_v83_1)))) := by
  rw [h12_x_row, toCol_normR, toCol_leakyR]

/-- Stretch 12: the first tap of layer (0, 3), read as a column. -/
theorem h12_y0 (W : Valuation τ sig (Elt Ideal)) :
    toCol (after hostOps12 W (Proc.devRef .tc main_call0_v96))
      = Spec.sc (F := Ideal) (Spec.coef (F := Ideal) ![0, 3, 0] Cert.ReferenceIdeal.Gen.slices_S2x5x5_S1x1x1_0_3_0 (W (Proc.devRef .tc main_arg2))) (Spec.norm (F := Ideal) (Spec.leaky (F := Ideal) (toCol (W (Proc.devRef .tc main_call0_v83_1))))) := by
  rw [h12_y0_row, toCol_scR, toCol_normR, toCol_leakyR]

/-- The same in the buffer stretch 12 copies it to. -/
theorem h12_copy (W : Valuation τ sig (Elt Ideal)) :
    toCol (after hostOps12 W (Proc.devRef .tc main_call0_v100_1))
      = Spec.sc (F := Ideal) (Spec.coef (F := Ideal) ![0, 3, 0] Cert.ReferenceIdeal.Gen.slices_S2x5x5_S1x1x1_0_3_0 (W (Proc.devRef .tc main_arg2))) (Spec.norm (F := Ideal) (Spec.leaky (F := Ideal) (toCol (W (Proc.devRef .tc main_call0_v83_1))))) := by
  rw [h12_copy_row, toCol_scR, toCol_normR, toCol_leakyR]

/-- Stretch 16: the next input row, read as a column, is the normalised leaky_relu of the accumulated row read as a column. -/
theorem h16_x (W : Valuation τ sig (Elt Ideal)) :
    toCol (after hostOps16 W (Proc.devRef .tc main_call0_v121)) = Spec.norm (F := Ideal) (Spec.leaky (F := Ideal) (toCol (W (Proc.devRef .tc main_call0_v112_1)))) := by
  rw [h16_x_row, toCol_normR, toCol_leakyR]

/-- Stretch 16: the first tap of layer (0, 4), read as a column. -/
theorem h16_y0 (W : Valuation τ sig (Elt Ideal)) :
    toCol (after hostOps16 W (Proc.devRef .tc main_call0_v125))
      = Spec.sc (F := Ideal) (Spec.coef (F := Ideal) ![0, 4, 0] Cert.ReferenceIdeal.Gen.slices_S2x5x5_S1x1x1_0_4_0 (W (Proc.devRef .tc main_arg2))) (Spec.norm (F := Ideal) (Spec.leaky (F := Ideal) (toCol (W (Proc.devRef .tc main_call0_v112_1))))) := by
  rw [h16_y0_row, toCol_scR, toCol_normR, toCol_leakyR]

/-- The same in the buffer stretch 16 copies it to. -/
theorem h16_copy (W : Valuation τ sig (Elt Ideal)) :
    toCol (after hostOps16 W (Proc.devRef .tc main_call0_v129_1))
      = Spec.sc (F := Ideal) (Spec.coef (F := Ideal) ![0, 4, 0] Cert.ReferenceIdeal.Gen.slices_S2x5x5_S1x1x1_0_4_0 (W (Proc.devRef .tc main_arg2))) (Spec.norm (F := Ideal) (Spec.leaky (F := Ideal) (toCol (W (Proc.devRef .tc main_call0_v112_1))))) := by
  rw [h16_copy_row, toCol_scR, toCol_normR, toCol_leakyR]

/-- Stretch 20: the next input row, read as a column, is the normalised leaky_relu of the accumulated row read as a column. -/
theorem h20_x (W : Valuation τ sig (Elt Ideal)) :
    toCol (after hostOps20 W (Proc.devRef .tc main_call0_v150)) = Spec.norm (F := Ideal) (Spec.leaky (F := Ideal) (toCol (W (Proc.devRef .tc main_call0_v141_1)))) := by
  rw [h20_x_row, toCol_normR, toCol_leakyR]

/-- Stretch 20: the first tap of layer (1, 0), read as a column. -/
theorem h20_y0 (W : Valuation τ sig (Elt Ideal)) :
    toCol (after hostOps20 W (Proc.devRef .tc main_call0_v154))
      = Spec.sc (F := Ideal) (Spec.coef (F := Ideal) ![1, 0, 0] Cert.ReferenceIdeal.Gen.slices_S2x5x5_S1x1x1_1_0_0 (W (Proc.devRef .tc main_arg2))) (Spec.norm (F := Ideal) (Spec.leaky (F := Ideal) (toCol (W (Proc.devRef .tc main_call0_v141_1))))) := by
  rw [h20_y0_row, toCol_scR, toCol_normR, toCol_leakyR]

/-- The same in the buffer stretch 20 copies it to. -/
theorem h20_copy (W : Valuation τ sig (Elt Ideal)) :
    toCol (after hostOps20 W (Proc.devRef .tc main_call0_v158_1))
      = Spec.sc (F := Ideal) (Spec.coef (F := Ideal) ![1, 0, 0] Cert.ReferenceIdeal.Gen.slices_S2x5x5_S1x1x1_1_0_0 (W (Proc.devRef .tc main_arg2))) (Spec.norm (F := Ideal) (Spec.leaky (F := Ideal) (toCol (W (Proc.devRef .tc main_call0_v141_1))))) := by
  rw [h20_copy_row, toCol_scR, toCol_normR, toCol_leakyR]

/-- Stretch 24: the next input row, read as a column, is the normalised leaky_relu of the accumulated row read as a column. -/
theorem h24_x (W : Valuation τ sig (Elt Ideal)) :
    toCol (after hostOps24 W (Proc.devRef .tc main_call0_v179)) = Spec.norm (F := Ideal) (Spec.leaky (F := Ideal) (toCol (W (Proc.devRef .tc main_call0_v170_1)))) := by
  rw [h24_x_row, toCol_normR, toCol_leakyR]

/-- Stretch 24: the first tap of layer (1, 1), read as a column. -/
theorem h24_y0 (W : Valuation τ sig (Elt Ideal)) :
    toCol (after hostOps24 W (Proc.devRef .tc main_call0_v183))
      = Spec.sc (F := Ideal) (Spec.coef (F := Ideal) ![1, 1, 0] Cert.ReferenceIdeal.Gen.slices_S2x5x5_S1x1x1_1_1_0 (W (Proc.devRef .tc main_arg2))) (Spec.norm (F := Ideal) (Spec.leaky (F := Ideal) (toCol (W (Proc.devRef .tc main_call0_v170_1))))) := by
  rw [h24_y0_row, toCol_scR, toCol_normR, toCol_leakyR]

/-- The same in the buffer stretch 24 copies it to. -/
theorem h24_copy (W : Valuation τ sig (Elt Ideal)) :
    toCol (after hostOps24 W (Proc.devRef .tc main_call0_v187_1))
      = Spec.sc (F := Ideal) (Spec.coef (F := Ideal) ![1, 1, 0] Cert.ReferenceIdeal.Gen.slices_S2x5x5_S1x1x1_1_1_0 (W (Proc.devRef .tc main_arg2))) (Spec.norm (F := Ideal) (Spec.leaky (F := Ideal) (toCol (W (Proc.devRef .tc main_call0_v170_1))))) := by
  rw [h24_copy_row, toCol_scR, toCol_normR, toCol_leakyR]

/-- Stretch 28: the next input row, read as a column, is the normalised leaky_relu of the accumulated row read as a column. -/
theorem h28_x (W : Valuation τ sig (Elt Ideal)) :
    toCol (after hostOps28 W (Proc.devRef .tc main_call0_v208)) = Spec.norm (F := Ideal) (Spec.leaky (F := Ideal) (toCol (W (Proc.devRef .tc main_call0_v199_1)))) := by
  rw [h28_x_row, toCol_normR, toCol_leakyR]

/-- Stretch 28: the first tap of layer (1, 2), read as a column. -/
theorem h28_y0 (W : Valuation τ sig (Elt Ideal)) :
    toCol (after hostOps28 W (Proc.devRef .tc main_call0_v212))
      = Spec.sc (F := Ideal) (Spec.coef (F := Ideal) ![1, 2, 0] Cert.ReferenceIdeal.Gen.slices_S2x5x5_S1x1x1_1_2_0 (W (Proc.devRef .tc main_arg2))) (Spec.norm (F := Ideal) (Spec.leaky (F := Ideal) (toCol (W (Proc.devRef .tc main_call0_v199_1))))) := by
  rw [h28_y0_row, toCol_scR, toCol_normR, toCol_leakyR]

/-- The same in the buffer stretch 28 copies it to. -/
theorem h28_copy (W : Valuation τ sig (Elt Ideal)) :
    toCol (after hostOps28 W (Proc.devRef .tc main_call0_v216_1))
      = Spec.sc (F := Ideal) (Spec.coef (F := Ideal) ![1, 2, 0] Cert.ReferenceIdeal.Gen.slices_S2x5x5_S1x1x1_1_2_0 (W (Proc.devRef .tc main_arg2))) (Spec.norm (F := Ideal) (Spec.leaky (F := Ideal) (toCol (W (Proc.devRef .tc main_call0_v199_1))))) := by
  rw [h28_copy_row, toCol_scR, toCol_normR, toCol_leakyR]

/-- Stretch 32: the next input row, read as a column, is the normalised leaky_relu of the accumulated row read as a column. -/
theorem h32_x (W : Valuation τ sig (Elt Ideal)) :
    toCol (after hostOps32 W (Proc.devRef .tc main_call0_v237)) = Spec.norm (F := Ideal) (Spec.leaky (F := Ideal) (toCol (W (Proc.devRef .tc main_call0_v228_1)))) := by
  rw [h32_x_row, toCol_normR, toCol_leakyR]

/-- Stretch 32: the first tap of layer (1, 3), read as a column. -/
theorem h32_y0 (W : Valuation τ sig (Elt Ideal)) :
    toCol (after hostOps32 W (Proc.devRef .tc main_call0_v241))
      = Spec.sc (F := Ideal) (Spec.coef (F := Ideal) ![1, 3, 0] Cert.ReferenceIdeal.Gen.slices_S2x5x5_S1x1x1_1_3_0 (W (Proc.devRef .tc main_arg2))) (Spec.norm (F := Ideal) (Spec.leaky (F := Ideal) (toCol (W (Proc.devRef .tc main_call0_v228_1))))) := by
  rw [h32_y0_row, toCol_scR, toCol_normR, toCol_leakyR]

/-- The same in the buffer stretch 32 copies it to. -/
theorem h32_copy (W : Valuation τ sig (Elt Ideal)) :
    toCol (after hostOps32 W (Proc.devRef .tc main_call0_v245_1))
      = Spec.sc (F := Ideal) (Spec.coef (F := Ideal) ![1, 3, 0] Cert.ReferenceIdeal.Gen.slices_S2x5x5_S1x1x1_1_3_0 (W (Proc.devRef .tc main_arg2))) (Spec.norm (F := Ideal) (Spec.leaky (F := Ideal) (toCol (W (Proc.devRef .tc main_call0_v228_1))))) := by
  rw [h32_copy_row, toCol_scR, toCol_normR, toCol_leakyR]

/-- Stretch 36: the next input row, read as a column, is the normalised leaky_relu of the accumulated row read as a column. -/
theorem h36_x (W : Valuation τ sig (Elt Ideal)) :
    toCol (after hostOps36 W (Proc.devRef .tc main_call0_v266)) = Spec.norm (F := Ideal) (Spec.leaky (F := Ideal) (toCol (W (Proc.devRef .tc main_call0_v257_1)))) := by
  rw [h36_x_row, toCol_normR, toCol_leakyR]

/-- Stretch 36: the first tap of layer (1, 4), read as a column. -/
theorem h36_y0 (W : Valuation τ sig (Elt Ideal)) :
    toCol (after hostOps36 W (Proc.devRef .tc main_call0_v270))
      = Spec.sc (F := Ideal) (Spec.coef (F := Ideal) ![1, 4, 0] Cert.ReferenceIdeal.Gen.slices_S2x5x5_S1x1x1_1_4_0 (W (Proc.devRef .tc main_arg2))) (Spec.norm (F := Ideal) (Spec.leaky (F := Ideal) (toCol (W (Proc.devRef .tc main_call0_v257_1))))) := by
  rw [h36_y0_row, toCol_scR, toCol_normR, toCol_leakyR]

/-- The same in the buffer stretch 36 copies it to. -/
theorem h36_copy (W : Valuation τ sig (Elt Ideal)) :
    toCol (after hostOps36 W (Proc.devRef .tc main_call0_v274_1))
      = Spec.sc (F := Ideal) (Spec.coef (F := Ideal) ![1, 4, 0] Cert.ReferenceIdeal.Gen.slices_S2x5x5_S1x1x1_1_4_0 (W (Proc.devRef .tc main_arg2))) (Spec.norm (F := Ideal) (Spec.leaky (F := Ideal) (toCol (W (Proc.devRef .tc main_call0_v257_1))))) := by
  rw [h36_copy_row, toCol_scR, toCol_normR, toCol_leakyR]

/-- The last stretch: the result is the sigmoid of the first result row read as a column beside the normalised leaky_relu
    of the last accumulated row read as a column. -/
theorem h40_out (W : Valuation τ sig (Elt Ideal)) :
    after hostOps40 W (Proc.devRef .tc main_v0)
      = Spec.tail (F := Ideal) (toCol (W (Proc.devRef .tc main_call0_v150))) (Spec.norm (F := Ideal) (Spec.leaky (F := Ideal) (toCol (W (Proc.devRef .tc main_call0_v286_1))))) := by
  rw [h40_row, ← toCol_leakyR, ← toCol_normR]
  rfl

end Cert.KernelIdeal.KHost

end
-- ==== Proof.BridgeCol.lean ====
/-
  The two arrays a tap region leaves, read as columns: the product row is the matrix applied to the incoming column, and the
  accumulated row is the incoming accumulator column plus the coefficient times that product.
-/
import proofs.«144169_j55405078119367_2_alg».proof.Proof.Bridge

noncomputable section

namespace Cert.KernelIdeal.Bridge

open Cert.KernelIdeal Cert.KernelIdeal.Gen Idealize.ShloMosaic Idealize.ShloMosaic.ValueIdx

/-- The product row of a region. -/
def Gv (v : S1x8192.Idx → EReal) (Hb : (⟨2, ![8192, 8192]⟩ : Shape).Idx → EReal) : S1x8192.Idx → EReal := fun i => mvRow v Hb (i 1)

/-- The accumulated row of a region. -/
def Gy (v : S1x8192.Idx → EReal) (Hb : (⟨2, ![8192, 8192]⟩ : Shape).Idx → EReal) (a : S1x1.Idx → EReal) (y : S1x8192.Idx → EReal) :
    S1x8192.Idx → EReal := fun i => y i + a (ix2 0 0) * mvRow v Hb (i 1)

theorem toCol_Gv (v : S1x8192.Idx → EReal) (Hb : (⟨2, ![8192, 8192]⟩ : Shape).Idx → EReal) :
    toCol (Gv v Hb) = Cert.ReferenceIdeal.Spec.mv (F := Ideal) Hb (toCol v) := toCol_mvRow v Hb

/-- The one entry of a scalar reshaped to [1,1] is the scalar. -/
theorem as11_apply (s : FVec Ideal S_ .f32) : (shapeCast S1x1 s shapeCasts_S_S1x1 : S1x1.Idx → EReal) (ix2 0 0) = s (fun a => a.elim0) := by
  refine shapeCast_apply s shapeCasts_S_S1x1 (ix2 0 0) (fun a => a.elim0) ?_
  rw [Shape.rowMajor_val_two]
  rfl

theorem toCol_Gy (v : S1x8192.Idx → EReal) (Hb : (⟨2, ![8192, 8192]⟩ : Shape).Idx → EReal) (s : FVec Ideal S_ .f32) (y : S1x8192.Idx → EReal) :
    toCol (Gy v Hb (shapeCast S1x1 s shapeCasts_S_S1x1) y)
      = addf (F := Ideal) (toCol y) (Cert.ReferenceIdeal.Spec.sc (F := Ideal) s (Cert.ReferenceIdeal.Spec.mv (F := Ideal) Hb (toCol v))) := by
  rw [← toCol_Gv]
  funext j
  show y _ + (shapeCast S1x1 s shapeCasts_S_S1x1 : S1x1.Idx → EReal) (ix2 0 0) * mvRow v Hb _ = y _ + s _ * mvRow v Hb _
  rw [as11_apply]
  exact congrArg (fun x => _ + x * _) (congrArg s (funext fun a => a.elim0))

end Cert.KernelIdeal.Bridge

end
-- ==== Proof.Acc.lean ====
/-
  The accumulation y + α · s of one entry, named, so that the two sides of a block equation are stated with the same head.
-/
import proofs.«144169_j55405078119367_2_alg».proof.Proof.BridgeCol

noncomputable section

namespace Cert.KernelIdeal.Bridge

open Cert.KernelIdeal Cert.KernelIdeal.Gen Idealize.ShloMosaic Idealize.ShloMosaic.ValueIdx

/-- One entry of the accumulator: the incoming entry plus the coefficient times the product. -/
def accAt (y a s : EReal) : EReal := y + a * s

theorem pay2_acc (v : Vec Ideal S1x8192 .f32) (Hb : Vec Ideal S1024x8192 .bf16) (a : Vec Ideal S1x1 .f32) (y : Vec Ideal S1x1024 .f32) (b : Fin 1024) :
    k1_pay2 v Hb a y (ix2 0 b) = accAt (y (ix2 0 b)) (a (ix2 0 0)) (mvRow v Hb b) := pay2_apply v Hb a y b

theorem pay3_0_acc (h : Vec Ideal S256x8192 .f32) (v : Vec Ideal S1x8192 .f32) (a : Vec Ideal S1x1 .f32) (y : Vec Ideal S1x256 .f32) (b : Fin 256) :
    k0_pay3 h v a y (ix2 0 b) = accAt (y (ix2 0 b)) (a (ix2 0 0)) (mvRow v (k0_pay1 h) b) := pay3_0_apply h v a y b

theorem Gy_acc (v : S1x8192.Idx → EReal) (Hb : (⟨2, ![8192, 8192]⟩ : Shape).Idx → EReal) (a : S1x1.Idx → EReal) (y : S1x8192.Idx → EReal)
    (i : S1x8192.Idx) : Gy v Hb a y i = accAt (y i) (a (ix2 0 0)) (mvRow v Hb (i 1)) := rfl

end Cert.KernelIdeal.Bridge

end
-- ==== Proof.Region0.lean ====
/-
  Region 0 (the cast kernel over 32 grid points), read at ARBITRARY entry contents V: point t stages rows 256·t … 256·t + 255
  of the raw matrix H, writes back their affine image (h + 1) · 0.5 as the cast matrix, and uses that freshly cast block for its
  stretch of the first product Σₖ v[0,k] · Hn[n,k] and of the accumulator y_in[0,n] + α · that sum. Every block is written whole
  by its point; the 32 blocks tile the matrix by rows and the two rows by columns.
-/
import proofs.«144169_j55405078119367_2_alg».proof.Proof.GenP.KernelIdeal.Frame
import proofs.«144169_j55405078119367_2_alg».proof.Proof.Acc

set_option maxRecDepth 16384

noncomputable section

namespace Cert.KernelIdeal.Region0

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The affine image of the matrix, entry by entry. -/
def HnK (H : S8192x8192.Idx → EReal) : S8192x8192.Idx → EReal :=
  fun i => (H i + Ideal.ofBits .f32 0x3F800000#32) * Ideal.ofBits .f32 0x3F000000#32

/-- It is the specification's affine map. -/
theorem HnK_eq (H : S8192x8192.Idx → EReal) : HnK H = Cert.ReferenceIdeal.Spec.Hn (F := Ideal) H := by
  funext i; rfl

/-- The printed index maps over the 32 points. -/
theorem idx_facts : ∀ t : Fin cfg0.N,
      win0_0.index t (0 : Fin 2) = win0_5.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_5.index t (1 : Fin 2)
    ∧ win0_4.index t (0 : Fin 2) = win0_5.index t (1 : Fin 2) ∧ win0_4.index t (1 : Fin 2) = 0
    ∧ win0_5.index t (0 : Fin 2) = 0 ∧ win0_5.index t (1 : Fin 2) ≤ 31
    ∧ win0_6.index t (0 : Fin 2) = 0 ∧ win0_6.index t (1 : Fin 2) = win0_5.index t (1 : Fin 2) :=
  (by decide +kernel : ∀ t : Fin grid0.N, _)

/-- Every one of the 32 blocks is some point's. -/
theorem idx_onto : ∀ q : Fin 32, ∃ t : Fin cfg0.N, win0_5.index t = ![0, q.val] :=
  (by decide +kernel : ∀ q : Fin 32, ∃ t : Fin grid0.N, win0_5.index t = ![0, q.val])

theorem blk1 (c : Dev nD) (t : Fin cfg0.N) (k : Fin 8192) : iblk0 V c 1 t (ix2 0 k) = V c (Pipeline.arrRef spec0 1) (ix2 0 k) := by
  obtain ⟨e00, e01, e10, e11, e20, e21, e30, e31, e40, e41, e50, e51, e60, e61⟩ := idx_facts t
  show V c (Pipeline.arrRef spec0 1) (((cfg0.win 1).blk t).view.emb (ix2 0 k)) = V c (Pipeline.arrRef spec0 1) (ix2 0 k)
  refine congrArg _ (funext fun a => Fin.ext ?_)
  match a with
  | ⟨0, _⟩ => show win0_1.index t (0 : Fin 2) * 1 + 1 * 0 = 0; omega
  | ⟨1, _⟩ => show win0_1.index t (1 : Fin 2) * 8192 + 1 * k.val = k.val; omega

theorem blk2 (c : Dev nD) (t : Fin cfg0.N) : iblk0 V c 2 t (ix2 0 0) = V c (Pipeline.arrRef spec0 2) (ix2 0 0) := by
  obtain ⟨e00, e01, e10, e11, e20, e21, e30, e31, e40, e41, e50, e51, e60, e61⟩ := idx_facts t
  show V c (Pipeline.arrRef spec0 2) (((cfg0.win 2).blk t).view.emb (ix2 0 0)) = V c (Pipeline.arrRef spec0 2) (ix2 0 0)
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The raw matrix window's block at point t, entry (q, k), is the array's entry at the row the cast window's block puts row q. -/
theorem blk0 (c : Dev nD) (t : Fin cfg0.N) (y : S256x8192.Idx) :
    iblk0 V c 0 t y = V c (Pipeline.arrRef spec0 0) (((cfg0.win 4).blk t).view.emb y) := by
  obtain ⟨e00, e01, e10, e11, e20, e21, e30, e31, e40, e41, e50, e51, e60, e61⟩ := idx_facts t
  show V c (Pipeline.arrRef spec0 0) (((cfg0.win 0).blk t).view.emb y) = _
  refine congrArg _ (funext fun a => Fin.ext ?_)
  match a with
  | ⟨0, _⟩ => show win0_0.index t (0 : Fin 2) * 256 + 1 * (y 0).val = win0_4.index t (0 : Fin 2) * 256 + 1 * (y 0).val; omega
  | ⟨1, _⟩ => show win0_0.index t (1 : Fin 2) * 8192 + 1 * (y 1).val = win0_4.index t (1 : Fin 2) * 8192 + 1 * (y 1).val; omega

theorem blk0' (c : Dev nD) (t : Fin cfg0.N) (q : Fin 256) (k : Fin 8192) :
    iblk0 V c 0 t (ix2 q k) = V c (Pipeline.arrRef spec0 0) (ix2 ((((cfg0.win 5).blk t).view.emb (ix2 0 q)) 1) k) := by
  obtain ⟨e00, e01, e10, e11, e20, e21, e30, e31, e40, e41, e50, e51, e60, e61⟩ := idx_facts t
  show V c (Pipeline.arrRef spec0 0) (((cfg0.win 0).blk t).view.emb (ix2 q k)) = _
  refine congrArg _ (funext fun a => Fin.ext ?_)
  match a with
  | ⟨0, _⟩ => show win0_0.index t (0 : Fin 2) * 256 + 1 * q.val = win0_5.index t (1 : Fin 2) * 256 + 1 * q.val; omega
  | ⟨1, _⟩ => show win0_0.index t (1 : Fin 2) * 8192 + 1 * k.val = k.val; omega

theorem blk3 (c : Dev nD) (t : Fin cfg0.N) (q : Fin 256) :
    iblk0 V c 3 t (ix2 0 q) = V c (Pipeline.arrRef spec0 3) (((cfg0.win 6).blk t).view.emb (ix2 0 q)) := by
  obtain ⟨e00, e01, e10, e11, e20, e21, e30, e31, e40, e41, e50, e51, e60, e61⟩ := idx_facts t
  show V c (Pipeline.arrRef spec0 3) (((cfg0.win 3).blk t).view.emb (ix2 0 q)) = _
  refine congrArg _ (funext fun a => Fin.ext ?_)
  match a with
  | ⟨0, _⟩ => show win0_3.index t (0 : Fin 2) * 1 + 1 * 0 = win0_6.index t (0 : Fin 2) * 1 + 1 * 0; omega
  | ⟨1, _⟩ => show win0_3.index t (1 : Fin 2) * 256 + 1 * q.val = win0_6.index t (1 : Fin 2) * 256 + 1 * q.val; omega

/-- WHAT POINT t WRITES BACK to the cast matrix: block t of the affine image. -/
theorem flushed4_eq (c : Dev nD) (t : Fin cfg0.N) :
    (dat0 V c).flushed 4 t = ((cfg0.win 4).blk t).view.read (Elt Ideal) (HnK (V c (Pipeline.arrRef spec0 0))) := by
  show (cfg0.win 4).cut (grid0.coords t) ((dat0 V c).after 4 t) = _
  rw [after0_4]
  unfold out0_4
  rw [View.canon_unit_zero hz]
  simp only [View.ld_unit_zero (S := S256x8192) hz]
  funext j
  refine (cast_apply (iblk0 V c 0 t) j).trans ?_
  rw [blk0 V c t j]
  rfl

/-- The freshly cast block at point t is block t of the affine image. -/
theorem cast_blk (c : Dev nD) (t : Fin cfg0.N) (q : Fin 256) (k : Fin 8192) :
    k0_pay1 (iblk0 V c 0 t) (ix2 q k) = HnK (V c (Pipeline.arrRef spec0 0)) (ix2 ((((cfg0.win 5).blk t).view.emb (ix2 0 q)) 1) k) := by
  rw [cast_apply, blk0' V c t q k]
  rfl

theorem flushed5_eq (c : Dev nD) (t : Fin cfg0.N) :
    (dat0 V c).flushed 5 t = ((cfg0.win 5).blk t).view.read (Elt Ideal)
      (Gv (V c (Pipeline.arrRef spec0 1)) (HnK (V c (Pipeline.arrRef spec0 0)))) := by
  show (cfg0.win 5).cut (grid0.coords t) ((dat0 V c).after 5 t) = _
  rw [after0_5]
  unfold out0_5
  rw [View.canon_unit_zero hz]
  simp only [View.ld_unit_zero (S := S256x8192) hz, View.ld_unit_zero (S := S1x8192) hz]
  funext j
  obtain ⟨p, q, rfl⟩ : ∃ (p : Fin 1) (q : Fin 256), j = ix2 p q := ⟨j 0, j 1, eq_ix2 j⟩
  obtain rfl : p = 0 := Subsingleton.elim _ _
  refine (pay2_0_apply (iblk0 V c 0 t) (iblk0 V c 1 t) q).trans ?_
  show mvRow (iblk0 V c 1 t) (k0_pay1 (iblk0 V c 0 t)) q
    = mvRow (V c (Pipeline.arrRef spec0 1)) (HnK (V c (Pipeline.arrRef spec0 0))) ((((cfg0.win 5).blk t).view.emb (ix2 0 q)) 1)
  unfold mvRow
  refine Finset.sum_congr rfl fun k _ => ?_
  rw [blk1 V c t k, cast_blk V c t q k]

theorem flushed6_eq (c : Dev nD) (t : Fin cfg0.N) :
    (dat0 V c).flushed 6 t = ((cfg0.win 6).blk t).view.read (Elt Ideal)
      (Gy (V c (Pipeline.arrRef spec0 1)) (HnK (V c (Pipeline.arrRef spec0 0))) (V c (Pipeline.arrRef spec0 2)) (V c (Pipeline.arrRef spec0 3))) := by
  show (cfg0.win 6).cut (grid0.coords t) ((dat0 V c).after 6 t) = _
  rw [after0_6]
  unfold out0_6
  rw [View.canon_unit_zero hz]
  simp only [View.ld_unit_zero (S := S256x8192) hz, View.ld_unit_zero (S := S1x8192) hz, View.ld_unit_zero (S := S1x1) hz,
    View.ld_unit_zero (S := S1x256) hz]
  obtain ⟨e00, e01, e10, e11, e20, e21, e30, e31, e40, e41, e50, e51, e60, e61⟩ := idx_facts t
  funext j
  obtain ⟨p, q, rfl⟩ : ∃ (p : Fin 1) (q : Fin 256), j = ix2 p q := ⟨j 0, j 1, eq_ix2 j⟩
  obtain rfl : p = 0 := Subsingleton.elim _ _
  refine (pay3_0_acc (iblk0 V c 0 t) (iblk0 V c 1 t) (iblk0 V c 2 t) (iblk0 V c 3 t) q).trans ?_
  refine Eq.trans ?_ (Gy_acc (V c (Pipeline.arrRef spec0 1)) (HnK (V c (Pipeline.arrRef spec0 0))) (V c (Pipeline.arrRef spec0 2)) (V c (Pipeline.arrRef spec0 3))
    (((cfg0.win 6).blk t).view.emb (ix2 0 q))).symm
  rw [blk3 V c t q, blk2 V c t]
  refine congrArg (accAt _ _) ?_
  unfold mvRow
  refine Finset.sum_congr rfl fun k _ => ?_
  have hX : (((cfg0.win 5).blk t).view.emb (ix2 0 q)) 1 = (((cfg0.win 6).blk t).view.emb (ix2 0 q)) 1 :=
    Fin.ext (by show win0_5.index t (1 : Fin 2) * 256 + 1 * q.val = win0_6.index t (1 : Fin 2) * 256 + 1 * q.val; omega)
  rw [blk1 V c t k, cast_blk V c t q k, hX]

theorem mem_blk4 (t : Fin cfg0.N) (i : S8192x8192.Idx) :
    i ∈ ((cfg0.win 4).blk t).view.set ↔ ∀ a : Fin 2, win0_4.index t a * S256x8192.size a ≤ (i a).val ∧ (i a).val < win0_4.index t a * S256x8192.size a + S256x8192.size a := by
  show i ∈ ((View.whole main_call0_v13_0).slice (win0_4.rect t)).set ↔ _
  rw [View.set_slice_whole, Rect.mem_set_unit]
  exact Iff.rfl
theorem mem_blk5 (t : Fin cfg0.N) (i : S1x8192.Idx) :
    i ∈ ((cfg0.win 5).blk t).view.set ↔ ∀ a : Fin 2, win0_5.index t a * S1x256.size a ≤ (i a).val ∧ (i a).val < win0_5.index t a * S1x256.size a + S1x256.size a := by
  show i ∈ ((View.whole main_call0_v13_1).slice (win0_5.rect t)).set ↔ _
  rw [View.set_slice_whole, Rect.mem_set_unit]
  exact Iff.rfl
theorem mem_blk6 (t : Fin cfg0.N) (i : S1x8192.Idx) :
    i ∈ ((cfg0.win 6).blk t).view.set ↔ ∀ a : Fin 2, win0_6.index t a * S1x256.size a ≤ (i a).val ∧ (i a).val < win0_6.index t a * S1x256.size a + S1x256.size a := by
  show i ∈ ((View.whole main_call0_v13_2).slice (win0_6.rect t)).set ↔ _
  rw [View.set_slice_whole, Rect.mem_set_unit]
  exact Iff.rfl

theorem cover4 (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 256, by omega⟩
  obtain ⟨e00, e01, e10, e11, e20, e21, e30, e31, e40, e41, e50, e51, e60, e61⟩ := idx_facts t
  have q1 : win0_5.index t (1 : Fin 2) = (i 0).val / 256 := congrFun ht 1
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 8192 ≤ (i 1).val ∧ (i 1).val < win0_4.index t (1 : Fin 2) * 8192 + 8192; omega
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  obtain ⟨t, ht⟩ := idx_onto ⟨(i 1).val / 256, by omega⟩
  have q0 : win0_5.index t (0 : Fin 2) = 0 := congrFun ht 0
  have q1 : win0_5.index t (1 : Fin 2) = (i 1).val / 256 := congrFun ht 1
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 256 ≤ (i 1).val ∧ (i 1).val < win0_5.index t (1 : Fin 2) * 256 + 256; omega
theorem cover6 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  obtain ⟨t, ht⟩ := idx_onto ⟨(i 1).val / 256, by omega⟩
  obtain ⟨e00, e01, e10, e11, e20, e21, e30, e31, e40, e41, e50, e51, e60, e61⟩ := idx_facts t
  have q1 : win0_5.index t (1 : Fin 2) = (i 1).val / 256 := congrFun ht 1
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 256 ≤ (i 1).val ∧ (i 1).val < win0_6.index t (1 : Fin 2) * 256 + 256; omega

/-- THE CAST MATRIX after the region. -/
theorem final4 (c : Dev nD) : (dat0 V c).arrAt 4 cfg0.N = HnK (V c (Pipeline.arrRef spec0 0)) :=
  (dat0 V c).arrAt_eq_of_cover 4 _ (fun t _ => flushed4_eq V c t) cover4
/-- THE FIRST PRODUCT ROW after the region. -/
theorem final5 (c : Dev nD) : (dat0 V c).arrAt 5 cfg0.N = Gv (V c (Pipeline.arrRef spec0 1)) (HnK (V c (Pipeline.arrRef spec0 0))) :=
  (dat0 V c).arrAt_eq_of_cover 5 _ (fun t _ => flushed5_eq V c t) cover5
/-- THE FIRST ACCUMULATOR ROW after the region. -/
theorem final6 (c : Dev nD) : (dat0 V c).arrAt 6 cfg0.N
    = Gy (V c (Pipeline.arrRef spec0 1)) (HnK (V c (Pipeline.arrRef spec0 0))) (V c (Pipeline.arrRef spec0 2)) (V c (Pipeline.arrRef spec0 3)) :=
  (dat0 V c).arrAt_eq_of_cover 6 _ (fun t _ => flushed6_eq V c t) cover6

/-! ## The region's exit contents, buffer by buffer -/

section Exit
variable (m : (ℓ : Loc nD τ sig) → Buf (Elt Ideal) ℓ) (ρ : Dev nD → PrngReg) (c : Dev nD)

theorem exit_Hb : W2 m ρ c (Proc.devRef .tc main_call0_v13_0) = HnK (W1 m ρ c (Proc.devRef .tc main_arg0)) :=
  (W2_arr m ρ c 4).trans (final4 (V1 m ρ) c)
theorem exit_v : W2 m ρ c (Proc.devRef .tc main_call0_v13_1) = Gv (W1 m ρ c (Proc.devRef .tc main_call0_v5)) (HnK (W1 m ρ c (Proc.devRef .tc main_arg0))) :=
  (W2_arr m ρ c 5).trans (final5 (V1 m ρ) c)
theorem exit_y : W2 m ρ c (Proc.devRef .tc main_call0_v13_2)
    = Gy (W1 m ρ c (Proc.devRef .tc main_call0_v5)) (HnK (W1 m ρ c (Proc.devRef .tc main_arg0))) (W1 m ρ c (Proc.devRef .tc main_call0_v12)) (W1 m ρ c (Proc.devRef .tc main_call0_v9)) :=
  (W2_arr m ρ c 6).trans (final6 (V1 m ρ) c)
theorem exit_keep (b : Ref sig .tc) (hb : ∀ w, Pipeline.arrRef spec0 w ≠ b) :
    W2 m ρ c (Proc.devRef .tc b) = W1 m ρ c (Proc.devRef .tc b) := W2_of_ne m ρ c b hb

end Exit

end Cert.KernelIdeal.Region0

end
-- ==== Proof.Region1.lean ====
/-
  Region 1 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region1

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg1.N,
      win1_0.index t (0 : Fin 2) = win1_4.index t (1 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = win1_4.index t (1 : Fin 2)
    ∧ win1_4.index t (0 : Fin 2) = 0 ∧ win1_4.index t (1 : Fin 2) ≤ 7
    ∧ win1_5.index t (0 : Fin 2) = 0 ∧ win1_5.index t (1 : Fin 2) = win1_4.index t (1 : Fin 2) :=
  (by decide +kernel : ∀ t : Fin grid1.N, _)

/-- Every one of the eight blocks of the row is some point's. -/
theorem idx_onto : ∀ q : Fin 8, ∃ t : Fin cfg1.N, win1_4.index t = ![0, q.val] :=
  (by decide +kernel : ∀ q : Fin 8, ∃ t : Fin grid1.N, win1_4.index t = ![0, q.val])

/-- The row window's block is the whole row at every point. -/
theorem blk1 (c : Dev nD) (t : Fin cfg1.N) (k : Fin 8192) : iblk1 V c 1 t (ix2 0 k) = V c (Pipeline.arrRef spec1 1) (ix2 0 k) := by
  obtain ⟨e00, e01, e10, e11, e20, e21, e30, e31, e40, e41, e50, e51⟩ := idx_facts t
  show V c (Pipeline.arrRef spec1 1) (((cfg1.win 1).blk t).view.emb (ix2 0 k)) = V c (Pipeline.arrRef spec1 1) (ix2 0 k)
  refine congrArg _ (funext fun a => Fin.ext ?_)
  match a with
  | ⟨0, _⟩ => show win1_1.index t (0 : Fin 2) * 1 + 1 * 0 = 0; omega
  | ⟨1, _⟩ => show win1_1.index t (1 : Fin 2) * 8192 + 1 * k.val = k.val; omega

/-- The coefficient window's block is the one entry. -/
theorem blk2 (c : Dev nD) (t : Fin cfg1.N) : iblk1 V c 2 t (ix2 0 0) = V c (Pipeline.arrRef spec1 2) (ix2 0 0) := by
  obtain ⟨e00, e01, e10, e11, e20, e21, e30, e31, e40, e41, e50, e51⟩ := idx_facts t
  show V c (Pipeline.arrRef spec1 2) (((cfg1.win 2).blk t).view.emb (ix2 0 0)) = V c (Pipeline.arrRef spec1 2) (ix2 0 0)
  refine congrArg _ (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- The matrix window's block at point t is rows 1024·t … of the matrix: its row q is row (block's column position) of the array. -/
theorem blk0 (c : Dev nD) (t : Fin cfg1.N) (q : Fin 1024) (k : Fin 8192) :
    iblk1 V c 0 t (ix2 q k) = V c (Pipeline.arrRef spec1 0) (ix2 ((((cfg1.win 4).blk t).view.emb (ix2 0 q)) 1) k) := by
  obtain ⟨e00, e01, e10, e11, e20, e21, e30, e31, e40, e41, e50, e51⟩ := idx_facts t
  show V c (Pipeline.arrRef spec1 0) (((cfg1.win 0).blk t).view.emb (ix2 q k)) = _
  refine congrArg _ (funext fun a => Fin.ext ?_)
  match a with
  | ⟨0, _⟩ => show win1_0.index t (0 : Fin 2) * 1024 + 1 * q.val = win1_4.index t (1 : Fin 2) * 1024 + 1 * q.val; omega
  | ⟨1, _⟩ => show win1_0.index t (1 : Fin 2) * 8192 + 1 * k.val = k.val; omega

/-- The incoming accumulator window's block at point t is the same stretch of the row as the outgoing ones'. -/
theorem blk3 (c : Dev nD) (t : Fin cfg1.N) (q : Fin 1024) :
    iblk1 V c 3 t (ix2 0 q) = V c (Pipeline.arrRef spec1 3) (((cfg1.win 5).blk t).view.emb (ix2 0 q)) := by
  obtain ⟨e00, e01, e10, e11, e20, e21, e30, e31, e40, e41, e50, e51⟩ := idx_facts t
  show V c (Pipeline.arrRef spec1 3) (((cfg1.win 3).blk t).view.emb (ix2 0 q)) = _
  refine congrArg _ (funext fun a => Fin.ext ?_)
  match a with
  | ⟨0, _⟩ => show win1_3.index t (0 : Fin 2) * 1 + 1 * 0 = win1_5.index t (0 : Fin 2) * 1 + 1 * 0; omega
  | ⟨1, _⟩ => show win1_3.index t (1 : Fin 2) * 1024 + 1 * q.val = win1_5.index t (1 : Fin 2) * 1024 + 1 * q.val; omega

set_option maxHeartbeats 4000000 in
/-- WHAT POINT t WRITES BACK to the product window: block t of the product row. -/
theorem flushed4_eq (c : Dev nD) (t : Fin cfg1.N) :
    (dat1 V c).flushed 4 t = ((cfg1.win 4).blk t).view.read (Elt Ideal)
      (Gv (V c (Pipeline.arrRef spec1 1)) (V c (Pipeline.arrRef spec1 0))) := by
  show (cfg1.win 4).cut (grid1.coords t) ((dat1 V c).after 4 t) = _
  rw [after1_4]
  unfold out1_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk1 V c 1 t) (iblk1 V c 0 t) q).trans ?_
  show mvRow (iblk1 V c 1 t) (iblk1 V c 0 t) q
    = mvRow (V c (Pipeline.arrRef spec1 1)) (V c (Pipeline.arrRef spec1 0)) ((((cfg1.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg1.N) :
    (dat1 V c).flushed 5 t = ((cfg1.win 5).blk t).view.read (Elt Ideal)
      (Gy (V c (Pipeline.arrRef spec1 1)) (V c (Pipeline.arrRef spec1 0)) (V c (Pipeline.arrRef spec1 2)) (V c (Pipeline.arrRef spec1 3))) := by
  show (cfg1.win 5).cut (grid1.coords t) ((dat1 V c).after 5 t) = _
  rw [after1_5]
  unfold out1_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk1 V c 1 t) (iblk1 V c 0 t) (iblk1 V c 2 t) (iblk1 V c 3 t) q).trans ?_
  refine Eq.trans ?_ (Gy_acc (V c (Pipeline.arrRef spec1 1)) (V c (Pipeline.arrRef spec1 0)) (V c (Pipeline.arrRef spec1 2)) (V c (Pipeline.arrRef spec1 3))
    (((cfg1.win 5).blk t).view.emb (ix2 0 q))).symm
  rw [blk3 V c t q, blk2 V c t]
  refine congrArg (accAt _ _) ?_
  unfold mvRow
  refine Finset.sum_congr rfl fun k _ => ?_
  have hX : (((cfg1.win 4).blk t).view.emb (ix2 0 q)) 1 = (((cfg1.win 5).blk t).view.emb (ix2 0 q)) 1 :=
    Fin.ext (by show win1_4.index t (1 : Fin 2) * 1024 + 1 * q.val = win1_5.index t (1 : Fin 2) * 1024 + 1 * q.val; omega)
  rw [blk1 V c t k, blk0 V c t q k, hX]

/-- An index of a [1,8192] output array is in point t's block iff each coordinate is in the block's range. -/
theorem mem_blk4 (t : Fin cfg1.N) (i : S1x8192.Idx) :
    i ∈ ((cfg1.win 4).blk t).view.set ↔ ∀ a : Fin 2, win1_4.index t a * S1x1024.size a ≤ (i a).val ∧ (i a).val < win1_4.index t a * S1x1024.size a + S1x1024.size a := by
  show i ∈ ((View.whole main_call0_v17_0).slice (win1_4.rect t)).set ↔ _
  rw [View.set_slice_whole, Rect.mem_set_unit]
  exact Iff.rfl
theorem mem_blk5 (t : Fin cfg1.N) (i : S1x8192.Idx) :
    i ∈ ((cfg1.win 5).blk t).view.set ↔ ∀ a : Fin 2, win1_5.index t a * S1x1024.size a ≤ (i a).val ∧ (i a).val < win1_5.index t a * S1x1024.size a + S1x1024.size a := by
  show i ∈ ((View.whole main_call0_v17_1).slice (win1_5.rect t)).set ↔ _
  rw [View.set_slice_whole, Rect.mem_set_unit]
  exact Iff.rfl

/-- The eight blocks cover the row: column n is in the block of the point whose block index is n / 1024. -/
theorem cover4 (i : S1x8192.Idx) : ∃ t : Fin cfg1.N, (cfg1.win 4).flush t = true ∧ i ∈ ((cfg1.win 4).blk t).view.set := by
  have hi0 : (i 0).val < 1 := (i 0).isLt
  have hi1 : (i 1).val < 8192 := (i 1).isLt
  obtain ⟨t, ht⟩ := idx_onto ⟨(i 1).val / 1024, by omega⟩
  have q0 : win1_4.index t (0 : Fin 2) = 0 := congrFun ht 0
  have q1 : win1_4.index t (1 : Fin 2) = (i 1).val / 1024 := congrFun ht 1
  refine ⟨t, flush1_4 t, ?_⟩
  rw [mem_blk4]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 1024 ≤ (i 1).val ∧ (i 1).val < win1_4.index t (1 : Fin 2) * 1024 + 1024; omega
theorem cover5 (i : S1x8192.Idx) : ∃ t : Fin cfg1.N, (cfg1.win 5).flush t = true ∧ i ∈ ((cfg1.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win1_4.index t (1 : Fin 2) = (i 1).val / 1024 := congrFun ht 1
  refine ⟨t, flush1_5 t, ?_⟩
  rw [mem_blk5]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 1024 ≤ (i 1).val ∧ (i 1).val < win1_5.index t (1 : Fin 2) * 1024 + 1024; omega

/-- THE PRODUCT ARRAY after the region. -/
theorem final4 (c : Dev nD) : (dat1 V c).arrAt 4 cfg1.N = Gv (V c (Pipeline.arrRef spec1 1)) (V c (Pipeline.arrRef spec1 0)) :=
  (dat1 V c).arrAt_eq_of_cover 4 _ (fun t _ => flushed4_eq V c t) cover4
/-- THE ACCUMULATOR ARRAY after the region. -/
theorem final5 (c : Dev nD) : (dat1 V c).arrAt 5 cfg1.N
    = Gy (V c (Pipeline.arrRef spec1 1)) (V c (Pipeline.arrRef spec1 0)) (V c (Pipeline.arrRef spec1 2)) (V c (Pipeline.arrRef spec1 3)) :=
  (dat1 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W4 m ρ c (Proc.devRef .tc main_call0_v17_0) = Gv (W3 m ρ c (Proc.devRef .tc main_call0_v13_1)) (W3 m ρ c (Proc.devRef .tc main_call0_v13_0)) :=
  (W4_arr m ρ c 4).trans (final4 (V3 m ρ) c)
/-- The accumulator buffer after the region. -/
theorem exit_y : W4 m ρ c (Proc.devRef .tc main_call0_v17_1)
    = Gy (W3 m ρ c (Proc.devRef .tc main_call0_v13_1)) (W3 m ρ c (Proc.devRef .tc main_call0_v13_0)) (W3 m ρ c (Proc.devRef .tc main_call0_v16)) (W3 m ρ c (Proc.devRef .tc main_call0_v13_2)) :=
  (W4_arr m ρ c 5).trans (final5 (V3 m ρ) c)
/-- The matrix is only read. -/
theorem exit_H : W4 m ρ c (Proc.devRef .tc main_call0_v13_0) = W3 m ρ c (Proc.devRef .tc main_call0_v13_0) :=
  (W4_arr m ρ c 0).trans (((dat1 (V3 m ρ) c).arrAt_in 0 rfl _).trans (A_eq1 (V3 m ρ) c 0))
/-- The incoming row is only read. -/
theorem exit_vin : W4 m ρ c (Proc.devRef .tc main_call0_v13_1) = W3 m ρ c (Proc.devRef .tc main_call0_v13_1) :=
  (W4_arr m ρ c 1).trans (((dat1 (V3 m ρ) c).arrAt_in 1 rfl _).trans (A_eq1 (V3 m ρ) c 1))
/-- A buffer that is none of the region's arrays is as at entry. -/
theorem exit_keep (b : Ref sig .tc) (hb : ∀ w, Pipeline.arrRef spec1 w ≠ b) :
    W4 m ρ c (Proc.devRef .tc b) = W3 m ρ c (Proc.devRef .tc b) := W4_of_ne m ρ c b hb

end Exit

end Cert.KernelIdeal.Region1

end
-- ==== Proof.Region2.lean ====
/-
  Region 2 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region2

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg2.N,
      win2_0.index t (0 : Fin 2) = win2_4.index t (1 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = win2_4.index t (1 : Fin 2)
    ∧ win2_4.index t (0 : Fin 2) = 0 ∧ win2_4.index t (1 : Fin 2) ≤ 7
    ∧ win2_5.index t (0 : Fin 2) = 0 ∧ win2_5.index t (1 : Fin 2) = win2_4.index t (1 : Fin 2) :=
  (by decide +kernel : ∀ t : Fin grid2.N, _)

/-- Every one of the eight blocks of the row is some point's. -/
theorem idx_onto : ∀ q : Fin 8, ∃ t : Fin cfg2.N, win2_4.index t = ![0, q.val] :=
  (by decide +kernel : ∀ q : Fin 8, ∃ t : Fin grid2.N, win2_4.index t = ![0, q.val])

/-- The row window's block is the whole row at every point. -/
theorem blk1 (c : Dev nD) (t : Fin cfg2.N) (k : Fin 8192) : iblk2 V c 1 t (ix2 0 k) = V c (Pipeline.arrRef spec2 1) (ix2 0 k) := by
  obtain ⟨e00, e01, e10, e11, e20, e21, e30, e31, e40, e41, e50, e51⟩ := idx_facts t
  show V c (Pipeline.arrRef spec2 1) (((cfg2.win 1).blk t).view.emb (ix2 0 k)) = V c (Pipeline.arrRef spec2 1) (ix2 0 k)
  refine congrArg _ (funext fun a => Fin.ext ?_)
  match a with
  | ⟨0, _⟩ => show win2_1.index t (0 : Fin 2) * 1 + 1 * 0 = 0; omega
  | ⟨1, _⟩ => show win2_1.index t (1 : Fin 2) * 8192 + 1 * k.val = k.val; omega

/-- The coefficient window's block is the one entry. -/
theorem blk2 (c : Dev nD) (t : Fin cfg2.N) : iblk2 V c 2 t (ix2 0 0) = V c (Pipeline.arrRef spec2 2) (ix2 0 0) := by
  obtain ⟨e00, e01, e10, e11, e20, e21, e30, e31, e40, e41, e50, e51⟩ := idx_facts t
  show V c (Pipeline.arrRef spec2 2) (((cfg2.win 2).blk t).view.emb (ix2 0 0)) = V c (Pipeline.arrRef spec2 2) (ix2 0 0)
  refine congrArg _ (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- The matrix window's block at point t is rows 1024·t … of the matrix: its row q is row (block's column position) of the array. -/
theorem blk0 (c : Dev nD) (t : Fin cfg2.N) (q : Fin 1024) (k : Fin 8192) :
    iblk2 V c 0 t (ix2 q k) = V c (Pipeline.arrRef spec2 0) (ix2 ((((cfg2.win 4).blk t).view.emb (ix2 0 q)) 1) k) := by
  obtain ⟨e00, e01, e10, e11, e20, e21, e30, e31, e40, e41, e50, e51⟩ := idx_facts t
  show V c (Pipeline.arrRef spec2 0) (((cfg2.win 0).blk t).view.emb (ix2 q k)) = _
  refine congrArg _ (funext fun a => Fin.ext ?_)
  match a with
  | ⟨0, _⟩ => show win2_0.index t (0 : Fin 2) * 1024 + 1 * q.val = win2_4.index t (1 : Fin 2) * 1024 + 1 * q.val; omega
  | ⟨1, _⟩ => show win2_0.index t (1 : Fin 2) * 8192 + 1 * k.val = k.val; omega

/-- The incoming accumulator window's block at point t is the same stretch of the row as the outgoing ones'. -/
theorem blk3 (c : Dev nD) (t : Fin cfg2.N) (q : Fin 1024) :
    iblk2 V c 3 t (ix2 0 q) = V c (Pipeline.arrRef spec2 3) (((cfg2.win 5).blk t).view.emb (ix2 0 q)) := by
  obtain ⟨e00, e01, e10, e11, e20, e21, e30, e31, e40, e41, e50, e51⟩ := idx_facts t
  show V c (Pipeline.arrRef spec2 3) (((cfg2.win 3).blk t).view.emb (ix2 0 q)) = _
  refine congrArg _ (funext fun a => Fin.ext ?_)
  match a with
  | ⟨0, _⟩ => show win2_3.index t (0 : Fin 2) * 1 + 1 * 0 = win2_5.index t (0 : Fin 2) * 1 + 1 * 0; omega
  | ⟨1, _⟩ => show win2_3.index t (1 : Fin 2) * 1024 + 1 * q.val = win2_5.index t (1 : Fin 2) * 1024 + 1 * q.val; omega

set_option maxHeartbeats 4000000 in
/-- WHAT POINT t WRITES BACK to the product window: block t of the product row. -/
theorem flushed4_eq (c : Dev nD) (t : Fin cfg2.N) :
    (dat2 V c).flushed 4 t = ((cfg2.win 4).blk t).view.read (Elt Ideal)
      (Gv (V c (Pipeline.arrRef spec2 1)) (V c (Pipeline.arrRef spec2 0))) := by
  show (cfg2.win 4).cut (grid2.coords t) ((dat2 V c).after 4 t) = _
  rw [after2_4]
  unfold out2_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk2 V c 1 t) (iblk2 V c 0 t) q).trans ?_
  show mvRow (iblk2 V c 1 t) (iblk2 V c 0 t) q
    = mvRow (V c (Pipeline.arrRef spec2 1)) (V c (Pipeline.arrRef spec2 0)) ((((cfg2.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg2.N) :
    (dat2 V c).flushed 5 t = ((cfg2.win 5).blk t).view.read (Elt Ideal)
      (Gy (V c (Pipeline.arrRef spec2 1)) (V c (Pipeline.arrRef spec2 0)) (V c (Pipeline.arrRef spec2 2)) (V c (Pipeline.arrRef spec2 3))) := by
  show (cfg2.win 5).cut (grid2.coords t) ((dat2 V c).after 5 t) = _
  rw [after2_5]
  unfold out2_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk2 V c 1 t) (iblk2 V c 0 t) (iblk2 V c 2 t) (iblk2 V c 3 t) q).trans ?_
  refine Eq.trans ?_ (Gy_acc (V c (Pipeline.arrRef spec2 1)) (V c (Pipeline.arrRef spec2 0)) (V c (Pipeline.arrRef spec2 2)) (V c (Pipeline.arrRef spec2 3))
    (((cfg2.win 5).blk t).view.emb (ix2 0 q))).symm
  rw [blk3 V c t q, blk2 V c t]
  refine congrArg (accAt _ _) ?_
  unfold mvRow
  refine Finset.sum_congr rfl fun k _ => ?_
  have hX : (((cfg2.win 4).blk t).view.emb (ix2 0 q)) 1 = (((cfg2.win 5).blk t).view.emb (ix2 0 q)) 1 :=
    Fin.ext (by show win2_4.index t (1 : Fin 2) * 1024 + 1 * q.val = win2_5.index t (1 : Fin 2) * 1024 + 1 * q.val; omega)
  rw [blk1 V c t k, blk0 V c t q k, hX]

/-- An index of a [1,8192] output array is in point t's block iff each coordinate is in the block's range. -/
theorem mem_blk4 (t : Fin cfg2.N) (i : S1x8192.Idx) :
    i ∈ ((cfg2.win 4).blk t).view.set ↔ ∀ a : Fin 2, win2_4.index t a * S1x1024.size a ≤ (i a).val ∧ (i a).val < win2_4.index t a * S1x1024.size a + S1x1024.size a := by
  show i ∈ ((View.whole main_call0_v21_0).slice (win2_4.rect t)).set ↔ _
  rw [View.set_slice_whole, Rect.mem_set_unit]
  exact Iff.rfl
theorem mem_blk5 (t : Fin cfg2.N) (i : S1x8192.Idx) :
    i ∈ ((cfg2.win 5).blk t).view.set ↔ ∀ a : Fin 2, win2_5.index t a * S1x1024.size a ≤ (i a).val ∧ (i a).val < win2_5.index t a * S1x1024.size a + S1x1024.size a := by
  show i ∈ ((View.whole main_call0_v21_1).slice (win2_5.rect t)).set ↔ _
  rw [View.set_slice_whole, Rect.mem_set_unit]
  exact Iff.rfl

/-- The eight blocks cover the row: column n is in the block of the point whose block index is n / 1024. -/
theorem cover4 (i : S1x8192.Idx) : ∃ t : Fin cfg2.N, (cfg2.win 4).flush t = true ∧ i ∈ ((cfg2.win 4).blk t).view.set := by
  have hi0 : (i 0).val < 1 := (i 0).isLt
  have hi1 : (i 1).val < 8192 := (i 1).isLt
  obtain ⟨t, ht⟩ := idx_onto ⟨(i 1).val / 1024, by omega⟩
  have q0 : win2_4.index t (0 : Fin 2) = 0 := congrFun ht 0
  have q1 : win2_4.index t (1 : Fin 2) = (i 1).val / 1024 := congrFun ht 1
  refine ⟨t, flush2_4 t, ?_⟩
  rw [mem_blk4]
  intro a
  match a with
  | ⟨0, _⟩ => show win2_4.index t (0 : Fin 2) * 1 ≤ (i 0).val ∧ (i 0).val < win2_4.index t (0 : Fin 2) * 1 + 1; omega
  | ⟨1, _⟩ => show win2_4.index t (1 : Fin 2) * 1024 ≤ (i 1).val ∧ (i 1).val < win2_4.index t (1 : Fin 2) * 1024 + 1024; omega
theorem cover5 (i : S1x8192.Idx) : ∃ t : Fin cfg2.N, (cfg2.win 5).flush t = true ∧ i ∈ ((cfg2.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win2_4.index t (1 : Fin 2) = (i 1).val / 1024 := congrFun ht 1
  refine ⟨t, flush2_5 t, ?_⟩
  rw [mem_blk5]
  intro a
  match a with
  | ⟨0, _⟩ => show win2_5.index t (0 : Fin 2) * 1 ≤ (i 0).val ∧ (i 0).val < win2_5.index t (0 : Fin 2) * 1 + 1; omega
  | ⟨1, _⟩ => show win2_5.index t (1 : Fin 2) * 1024 ≤ (i 1).val ∧ (i 1).val < win2_5.index t (1 : Fin 2) * 1024 + 1024; omega

/-- THE PRODUCT ARRAY after the region. -/
theorem final4 (c : Dev nD) : (dat2 V c).arrAt 4 cfg2.N = Gv (V c (Pipeline.arrRef spec2 1)) (V c (Pipeline.arrRef spec2 0)) :=
  (dat2 V c).arrAt_eq_of_cover 4 _ (fun t _ => flushed4_eq V c t) cover4
/-- THE ACCUMULATOR ARRAY after the region. -/
theorem final5 (c : Dev nD) : (dat2 V c).arrAt 5 cfg2.N
    = Gy (V c (Pipeline.arrRef spec2 1)) (V c (Pipeline.arrRef spec2 0)) (V c (Pipeline.arrRef spec2 2)) (V c (Pipeline.arrRef spec2 3)) :=
  (dat2 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W6 m ρ c (Proc.devRef .tc main_call0_v21_0) = Gv (W5 m ρ c (Proc.devRef .tc main_call0_v17_0)) (W5 m ρ c (Proc.devRef .tc main_call0_v13_0)) :=
  (W6_arr m ρ c 4).trans (final4 (V5 m ρ) c)
/-- The accumulator buffer after the region. -/
theorem exit_y : W6 m ρ c (Proc.devRef .tc main_call0_v21_1)
    = Gy (W5 m ρ c (Proc.devRef .tc main_call0_v17_0)) (W5 m ρ c (Proc.devRef .tc main_call0_v13_0)) (W5 m ρ c (Proc.devRef .tc main_call0_v20)) (W5 m ρ c (Proc.devRef .tc main_call0_v17_1)) :=
  (W6_arr m ρ c 5).trans (final5 (V5 m ρ) c)
/-- The matrix is only read. -/
theorem exit_H : W6 m ρ c (Proc.devRef .tc main_call0_v13_0) = W5 m ρ c (Proc.devRef .tc main_call0_v13_0) :=
  (W6_arr m ρ c 0).trans (((dat2 (V5 m ρ) c).arrAt_in 0 rfl _).trans (A_eq2 (V5 m ρ) c 0))
/-- The incoming row is only read. -/
theorem exit_vin : W6 m ρ c (Proc.devRef .tc main_call0_v17_0) = W5 m ρ c (Proc.devRef .tc main_call0_v17_0) :=
  (W6_arr m ρ c 1).trans (((dat2 (V5 m ρ) c).arrAt_in 1 rfl _).trans (A_eq2 (V5 m ρ) c 1))
/-- A buffer that is none of the region's arrays is as at entry. -/
theorem exit_keep (b : Ref sig .tc) (hb : ∀ w, Pipeline.arrRef spec2 w ≠ b) :
    W6 m ρ c (Proc.devRef .tc b) = W5 m ρ c (Proc.devRef .tc b) := W6_of_ne m ρ c b hb

end Exit

end Cert.KernelIdeal.Region2

end
-- ==== Proof.Region3.lean ====
/-
  Region 3 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region3

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg3.N,
      win3_0.index t (0 : Fin 2) = win3_4.index t (1 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = win3_4.index t (1 : Fin 2)
    ∧ win3_4.index t (0 : Fin 2) = 0 ∧ win3_4.index t (1 : Fin 2) ≤ 7
    ∧ win3_5.index t (0 : Fin 2) = 0 ∧ win3_5.index t (1 : Fin 2) = win3_4.index t (1 : Fin 2) :=
  (by decide +kernel : ∀ t : Fin grid3.N, _)

/-- Every one of the eight blocks of the row is some point's. -/
theorem idx_onto : ∀ q : Fin 8, ∃ t : Fin cfg3.N, win3_4.index t = ![0, q.val] :=
  (by decide +kernel : ∀ q : Fin 8, ∃ t : Fin grid3.N, win3_4.index t = ![0, q.val])

/-- The row window's block is the whole row at every point. -/
theorem blk1 (c : Dev nD) (t : Fin cfg3.N) (k : Fin 8192) : iblk3 V c 1 t (ix2 0 k) = V c (Pipeline.arrRef spec3 1) (ix2 0 k) := by
  obtain ⟨e00, e01, e10, e11, e20, e21, e30, e31, e40, e41, e50, e51⟩ := idx_facts t
  show V c (Pipeline.arrRef spec3 1) (((cfg3.win 1).blk t).view.emb (ix2 0 k)) = V c (Pipeline.arrRef spec3 1) (ix2 0 k)
  refine congrArg _ (funext fun a => Fin.ext ?_)
  match a with
  | ⟨0, _⟩ => show win3_1.index t (0 : Fin 2) * 1 + 1 * 0 = 0; omega
  | ⟨1, _⟩ => show win3_1.index t (1 : Fin 2) * 8192 + 1 * k.val = k.val; omega

/-- The coefficient window's block is the one entry. -/
theorem blk2 (c : Dev nD) (t : Fin cfg3.N) : iblk3 V c 2 t (ix2 0 0) = V c (Pipeline.arrRef spec3 2) (ix2 0 0) := by
  obtain ⟨e00, e01, e10, e11, e20, e21, e30, e31, e40, e41, e50, e51⟩ := idx_facts t
  show V c (Pipeline.arrRef spec3 2) (((cfg3.win 2).blk t).view.emb (ix2 0 0)) = V c (Pipeline.arrRef spec3 2) (ix2 0 0)
  refine congrArg _ (funext fun a => Fin.ext ?_)
  match a with
  | ⟨0, _⟩ => show win3_2.index t (0 : Fin 2) * 1 + 1 * 0 = 0; omega
  | ⟨1, _⟩ => show win3_2.index t (1 : Fin 2) * 1 + 1 * 0 = 0; omega

/-- The matrix window's block at point t is rows 1024·t … of the matrix: its row q is row (block's column position) of the array. -/
theorem blk0 (c : Dev nD) (t : Fin cfg3.N) (q : Fin 1024) (k : Fin 8192) :
    iblk3 V c 0 t (ix2 q k) = V c (Pipeline.arrRef spec3 0) (ix2 ((((cfg3.win 4).blk t).view.emb (ix2 0 q)) 1) k) := by
  obtain ⟨e00, e01, e10, e11, e20, e21, e30, e31, e40, e41, e50, e51⟩ := idx_facts t
  show V c (Pipeline.arrRef spec3 0) (((cfg3.win 0).blk t).view.emb (ix2 q k)) = _
  refine congrArg _ (funext fun a => Fin.ext ?_)
  match a with
  | ⟨0, _⟩ => show win3_0.index t (0 : Fin 2) * 1024 + 1 * q.val = win3_4.index t (1 : Fin 2) * 1024 + 1 * q.val; omega
  | ⟨1, _⟩ => show win3_0.index t (1 : Fin 2) * 8192 + 1 * k.val = k.val; omega

/-- The incoming accumulator window's block at point t is the same stretch of the row as the outgoing ones'. -/
theorem blk3 (c : Dev nD) (t : Fin cfg3.N) (q : Fin 1024) :
    iblk3 V c 3 t (ix2 0 q) = V c (Pipeline.arrRef spec3 3) (((cfg3.win 5).blk t).view.emb (ix2 0 q)) := by
  obtain ⟨e00, e01, e10, e11, e20, e21, e30, e31, e40, e41, e50, e51⟩ := idx_facts t
  show V c (Pipeline.arrRef spec3 3) (((cfg3.win 3).blk t).view.emb (ix2 0 q)) = _
  refine congrArg _ (funext fun a => Fin.ext ?_)
  match a with
  | ⟨0, _⟩ => show win3_3.index t (0 : Fin 2) * 1 + 1 * 0 = win3_5.index t (0 : Fin 2) * 1 + 1 * 0; omega
  | ⟨1, _⟩ => show win3_3.index t (1 : Fin 2) * 1024 + 1 * q.val = win3_5.index t (1 : Fin 2) * 1024 + 1 * q.val; omega

set_option maxHeartbeats 4000000 in
/-- WHAT POINT t WRITES BACK to the product window: block t of the product row. -/
theorem flushed4_eq (c : Dev nD) (t : Fin cfg3.N) :
    (dat3 V c).flushed 4 t = ((cfg3.win 4).blk t).view.read (Elt Ideal)
      (Gv (V c (Pipeline.arrRef spec3 1)) (V c (Pipeline.arrRef spec3 0))) := by
  show (cfg3.win 4).cut (grid3.coords t) ((dat3 V c).after 4 t) = _
  rw [after3_4]
  unfold out3_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk3 V c 1 t) (iblk3 V c 0 t) q).trans ?_
  show mvRow (iblk3 V c 1 t) (iblk3 V c 0 t) q
    = mvRow (V c (Pipeline.arrRef spec3 1)) (V c (Pipeline.arrRef spec3 0)) ((((cfg3.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg3.N) :
    (dat3 V c).flushed 5 t = ((cfg3.win 5).blk t).view.read (Elt Ideal)
      (Gy (V c (Pipeline.arrRef spec3 1)) (V c (Pipeline.arrRef spec3 0)) (V c (Pipeline.arrRef spec3 2)) (V c (Pipeline.arrRef spec3 3))) := by
  show (cfg3.win 5).cut (grid3.coords t) ((dat3 V c).after 5 t) = _
  rw [after3_5]
  unfold out3_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk3 V c 1 t) (iblk3 V c 0 t) (iblk3 V c 2 t) (iblk3 V c 3 t) q).trans ?_
  refine Eq.trans ?_ (Gy_acc (V c (Pipeline.arrRef spec3 1)) (V c (Pipeline.arrRef spec3 0)) (V c (Pipeline.arrRef spec3 2)) (V c (Pipeline.arrRef spec3 3))
    (((cfg3.win 5).blk t).view.emb (ix2 0 q))).symm
  rw [blk3 V c t q, blk2 V c t]
  refine congrArg (accAt _ _) ?_
  unfold mvRow
  refine Finset.sum_congr rfl fun k _ => ?_
  have hX : (((cfg3.win 4).blk t).view.emb (ix2 0 q)) 1 = (((cfg3.win 5).blk t).view.emb (ix2 0 q)) 1 :=
    Fin.ext (by show win3_4.index t (1 : Fin 2) * 1024 + 1 * q.val = win3_5.index t (1 : Fin 2) * 1024 + 1 * q.val; omega)
  rw [blk1 V c t k, blk0 V c t q k, hX]

/-- An index of a [1,8192] output array is in point t's block iff each coordinate is in the block's range. -/
theorem mem_blk4 (t : Fin cfg3.N) (i : S1x8192.Idx) :
    i ∈ ((cfg3.win 4).blk t).view.set ↔ ∀ a : Fin 2, win3_4.index t a * S1x1024.size a ≤ (i a).val ∧ (i a).val < win3_4.index t a * S1x1024.size a + S1x1024.size a := by
  show i ∈ ((View.whole main_call0_v25_0).slice (win3_4.rect t)).set ↔ _
  rw [View.set_slice_whole, Rect.mem_set_unit]
  exact Iff.rfl
theorem mem_blk5 (t : Fin cfg3.N) (i : S1x8192.Idx) :
    i ∈ ((cfg3.win 5).blk t).view.set ↔ ∀ a : Fin 2, win3_5.index t a * S1x1024.size a ≤ (i a).val ∧ (i a).val < win3_5.index t a * S1x1024.size a + S1x1024.size a := by
  show i ∈ ((View.whole main_call0_v25_1).slice (win3_5.rect t)).set ↔ _
  rw [View.set_slice_whole, Rect.mem_set_unit]
  exact Iff.rfl

/-- The eight blocks cover the row: column n is in the block of the point whose block index is n / 1024. -/
theorem cover4 (i : S1x8192.Idx) : ∃ t : Fin cfg3.N, (cfg3.win 4).flush t = true ∧ i ∈ ((cfg3.win 4).blk t).view.set := by
  have hi0 : (i 0).val < 1 := (i 0).isLt
  have hi1 : (i 1).val < 8192 := (i 1).isLt
  obtain ⟨t, ht⟩ := idx_onto ⟨(i 1).val / 1024, by omega⟩
  have q0 : win3_4.index t (0 : Fin 2) = 0 := congrFun ht 0
  have q1 : win3_4.index t (1 : Fin 2) = (i 1).val / 1024 := congrFun ht 1
  refine ⟨t, flush3_4 t, ?_⟩
  rw [mem_blk4]
  intro a
  match a with
  | ⟨0, _⟩ => show win3_4.index t (0 : Fin 2) * 1 ≤ (i 0).val ∧ (i 0).val < win3_4.index t (0 : Fin 2) * 1 + 1; omega
  | ⟨1, _⟩ => show win3_4.index t (1 : Fin 2) * 1024 ≤ (i 1).val ∧ (i 1).val < win3_4.index t (1 : Fin 2) * 1024 + 1024; omega
theorem cover5 (i : S1x8192.Idx) : ∃ t : Fin cfg3.N, (cfg3.win 5).flush t = true ∧ i ∈ ((cfg3.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win3_4.index t (1 : Fin 2) = (i 1).val / 1024 := congrFun ht 1
  refine ⟨t, flush3_5 t, ?_⟩
  rw [mem_blk5]
  intro a
  match a with
  | ⟨0, _⟩ => show win3_5.index t (0 : Fin 2) * 1 ≤ (i 0).val ∧ (i 0).val < win3_5.index t (0 : Fin 2) * 1 + 1; omega
  | ⟨1, _⟩ => show win3_5.index t (1 : Fin 2) * 1024 ≤ (i 1).val ∧ (i 1).val < win3_5.index t (1 : Fin 2) * 1024 + 1024; omega

/-- THE PRODUCT ARRAY after the region. -/
theorem final4 (c : Dev nD) : (dat3 V c).arrAt 4 cfg3.N = Gv (V c (Pipeline.arrRef spec3 1)) (V c (Pipeline.arrRef spec3 0)) :=
  (dat3 V c).arrAt_eq_of_cover 4 _ (fun t _ => flushed4_eq V c t) cover4
/-- THE ACCUMULATOR ARRAY after the region. -/
theorem final5 (c : Dev nD) : (dat3 V c).arrAt 5 cfg3.N
    = Gy (V c (Pipeline.arrRef spec3 1)) (V c (Pipeline.arrRef spec3 0)) (V c (Pipeline.arrRef spec3 2)) (V c (Pipeline.arrRef spec3 3)) :=
  (dat3 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W8 m ρ c (Proc.devRef .tc main_call0_v25_0) = Gv (W7 m ρ c (Proc.devRef .tc main_call0_v21_0)) (W7 m ρ c (Proc.devRef .tc main_call0_v13_0)) :=
  (W8_arr m ρ c 4).trans (final4 (V7 m ρ) c)
/-- The accumulator buffer after the region. -/
theorem exit_y : W8 m ρ c (Proc.devRef .tc main_call0_v25_1)
    = Gy (W7 m ρ c (Proc.devRef .tc main_call0_v21_0)) (W7 m ρ c (Proc.devRef .tc main_call0_v13_0)) (W7 m ρ c (Proc.devRef .tc main_call0_v24)) (W7 m ρ c (Proc.devRef .tc main_call0_v21_1)) :=
  (W8_arr m ρ c 5).trans (final5 (V7 m ρ) c)
/-- The matrix is only read. -/
theorem exit_H : W8 m ρ c (Proc.devRef .tc main_call0_v13_0) = W7 m ρ c (Proc.devRef .tc main_call0_v13_0) :=
  (W8_arr m ρ c 0).trans (((dat3 (V7 m ρ) c).arrAt_in 0 rfl _).trans (A_eq3 (V7 m ρ) c 0))
/-- The incoming row is only read. -/
theorem exit_vin : W8 m ρ c (Proc.devRef .tc main_call0_v21_0) = W7 m ρ c (Proc.devRef .tc main_call0_v21_0) :=
  (W8_arr m ρ c 1).trans (((dat3 (V7 m ρ) c).arrAt_in 1 rfl _).trans (A_eq3 (V7 m ρ) c 1))
/-- A buffer that is none of the region's arrays is as at entry. -/
theorem exit_keep (b : Ref sig .tc) (hb : ∀ w, Pipeline.arrRef spec3 w ≠ b) :
    W8 m ρ c (Proc.devRef .tc b) = W7 m ρ c (Proc.devRef .tc b) := W8_of_ne m ρ c b hb

end Exit

end Cert.KernelIdeal.Region3

end
-- ==== Proof.KLayer0.lean ====
/-
  Layer 0 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region0
import proofs.«144169_j55405078119367_2_alg».proof.Proof.Region1
import proofs.«144169_j55405078119367_2_alg».proof.Proof.Region2
import proofs.«144169_j55405078119367_2_alg».proof.Proof.Region3

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 0 (the prelude, the cast region and three tap regions). -/
theorem layer0 :
    W9 m ρ c (Proc.devRef .tc main_arg2) = m ((c : Thread nD τ).loc main_arg2)
    ∧ (W9 m ρ c (Proc.devRef .tc main_call0_v13_0) : (⟨2, ![8192, 8192]⟩ : Shape).Idx → EReal) = Spec.Hn (F := Ideal) (m ((c : Thread nD τ).loc main_arg0))
    ∧ toCol (W9 m ρ c (Proc.devRef .tc main_call0_v34)) = Spec.layer00 (F := Ideal) (m ((c : Thread nD τ).loc main_arg2)) (Spec.Hn (F := Ideal) (m ((c : Thread nD τ).loc main_arg0))) (Spec.x0 (F := Ideal) (m ((c : Thread nD τ).loc main_arg1)))
    ∧ toCol (W9 m ρ c (Proc.devRef .tc main_call0_v38)) = Spec.sc (F := Ideal) (Spec.coef (F := Ideal) ![0, 1, 0] Cert.ReferenceIdeal.Gen.slices_S2x5x5_S1x1x1_0_1_0 (m ((c : Thread nD τ).loc main_arg2))) (Spec.layer00 (F := Ideal) (m ((c : Thread nD τ).loc main_arg2)) (Spec.Hn (F := Ideal) (m ((c : Thread nD τ).loc main_arg0))) (Spec.x0 (F := Ideal) (m ((c : Thread nD τ).loc main_arg1))))
    ∧ W9 m ρ c (Proc.devRef .tc main_call0_v41) = as11 (Spec.coef (F := Ideal) ![0, 1, 1] Cert.ReferenceIdeal.Gen.slices_S2x5x5_S1x1x1_0_1_1 (m ((c : Thread nD τ).loc main_arg2))) := by
  generalize hA : m ((c : Thread nD τ).loc main_arg2) = A
  generalize hXd : Spec.x0 (F := Ideal) (m ((c : Thread nD τ).loc main_arg1)) = X
  generalize hHd : Spec.Hn (F := Ideal) (m ((c : Thread nD τ).loc main_arg0)) = HnB
  -- the launch contents and the prelude
  have A1 : W1 m ρ c (Proc.devRef .tc main_arg2) = A := (keep0 (W0 m ρ c) main_arg2 (by decide)).trans hA
  have G1 : W1 m ρ c (Proc.devRef .tc main_arg0) = m ((c : Thread nD τ).loc main_arg0) := keep0 (W0 m ρ c) main_arg0 (by decide)
  have v1 : toCol (W1 m ρ c (Proc.devRef .tc main_call0_v5)) = X := (h0_x (W0 m ρ c)).trans hXd
  have y1 : toCol (W1 m ρ c (Proc.devRef .tc main_call0_v9)) = (Spec.sc (F := Ideal) (Spec.coef (F := Ideal) ![0, 0, 0] Cert.ReferenceIdeal.Gen.slices_S2x5x5_S1x1x1_0_0_0 A) X) := (h0_y0 (W0 m ρ c)).trans (by rw [show W0 m ρ c (Proc.devRef .tc main_arg2) = A from hA, show Spec.x0 (F := Ideal) (W0 m ρ c (Proc.devRef .tc main_arg1)) = X from hXd])
  have a1 : W1 m ρ c (Proc.devRef .tc main_call0_v12) = as11 (Spec.coef (F := Ideal) ![0, 0, 1] Cert.ReferenceIdeal.Gen.slices_S2x5x5_S1x1x1_0_0_1 A) := (h0_a (W0 m ρ c)).trans (by rw [show W0 m ρ c (Proc.devRef .tc main_arg2) = A from hA])
  -- region 0: the cast matrix, the first product, the first accumulation
  have H2 : (W2 m ρ c (Proc.devRef .tc main_call0_v13_0) : (⟨2, ![8192, 8192]⟩ : Shape).Idx → EReal) = HnB := by
    rw [Region0.exit_Hb m ρ c, G1, Region0.HnK_eq]; exact hHd
  have A2 : W2 m ρ c (Proc.devRef .tc main_arg2) = A := (Region0.exit_keep m ρ c main_arg2 (by decide)).trans A1
  have v2 : toCol (W2 m ρ c (Proc.devRef .tc main_call0_v13_1)) = (Spec.mv (F := Ideal) HnB X) := by
    rw [Region0.exit_v m ρ c, G1, Region0.HnK_eq, hHd, toCol_Gv, v1]
  have y2 : toCol (W2 m ρ c (Proc.devRef .tc main_call0_v13_2)) = (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) := by
    rw [Region0.exit_y m ρ c, G1, Region0.HnK_eq, hHd, a1, toCol_Gy, v1, y1]
  -- stretch 1: the next coefficient
  have A3 : W3 m ρ c (Proc.devRef .tc main_arg2) = A := (keep1 (W2 m ρ c) main_arg2 (by decide)).trans A2
  have H3 : (W3 m ρ c (Proc.devRef .tc main_call0_v13_0) : (⟨2, ![8192, 8192]⟩ : Shape).Idx → EReal) = HnB := (keep1 (W2 m ρ c) main_call0_v13_0 (by decide)).trans H2
  have v3 : toCol (W3 m ρ c (Proc.devRef .tc main_call0_v13_1)) = (Spec.mv (F := Ideal) HnB X) := (congrArg toCol (keep1 (W2 m ρ c) main_call0_v13_1 (by decide))).trans v2
  have y3 : toCol (W3 m ρ c (Proc.devRef .tc main_call0_v13_2)) = (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) := (congrArg toCol (keep1 (W2 m ρ c) main_call0_v13_2 (by decide))).trans y2
  have a3 : W3 m ρ c (Proc.devRef .tc main_call0_v16) = as11 (Spec.coef (F := Ideal) ![0, 0, 2] Cert.ReferenceIdeal.Gen.slices_S2x5x5_S1x1x1_0_0_2 A) := (h1_a (W2 m ρ c)).trans (by rw [A2])
  -- region 1: tap 2
  have H4 : (W4 m ρ c (Proc.devRef .tc main_call0_v13_0) : (⟨2, ![8192, 8192]⟩ : Shape).Idx → EReal) = HnB := (Region1.exit_H m ρ c).trans H3
  have A4 : W4 m ρ c (Proc.devRef .tc main_arg2) = A := (Region1.exit_keep m ρ c main_arg2 (by decide)).trans A3
  have v4 : toCol (W4 m ρ c (Proc.devRef .tc main_call0_v17_0)) = (Spec.mv (F := Ideal) HnB (Spec.mv (F := Ideal) HnB X)) := by
    rw [Region1.exit_v m ρ c, toCol_Gv, v3]; exact congrArg (fun h => Spec.mv (F := Ideal) h (Spec.mv (F := Ideal) HnB X)) H3
  have y4 : toCol (W4 m ρ c (Proc.devRef .tc main_call0_v17_1)) = (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) := by
    rw [Region1.exit_y m ρ c, a3, toCol_Gy, v3, y3]; exact congrArg (fun h => addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) h (Spec.mv (F := Ideal) HnB X)))) H3
  -- stretch 2: the next coefficient
  have A5 : W5 m ρ c (Proc.devRef .tc main_arg2) = A := (keep2 (W4 m ρ c) main_arg2 (by decide)).trans A4
  have H5 : (W5 m ρ c (Proc.devRef .tc main_call0_v13_0) : (⟨2, ![8192, 8192]⟩ : Shape).Idx → EReal) = HnB := (keep2 (W4 m ρ c) main_call0_v13_0 (by decide)).trans H4
  have v5 : toCol (W5 m ρ c (Proc.devRef .tc main_call0_v17_0)) = (Spec.mv (F := Ideal) HnB (Spec.mv (F := Ideal) HnB X)) := (congrArg toCol (keep2 (W4 m ρ c) main_call0_v17_0 (by decide))).trans v4
  have y5 : toCol (W5 m ρ c (Proc.devRef .tc main_call0_v17_1)) = (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) := (congrArg toCol (keep2 (W4 m ρ c) main_call0_v17_1 (by decide))).trans y4
  have a5 : W5 m ρ c (Proc.devRef .tc main_call0_v20) = as11 (Spec.coef (F := Ideal) ![0, 0, 3] Cert.ReferenceIdeal.Gen.slices_S2x5x5_S1x1x1_0_0_3 A) := (h2_a (W4 m ρ c)).trans (by rw [A4])
  -- region 2: tap 3
  have H6 : (W6 m ρ c (Proc.devRef .tc main_call0_v13_0) : (⟨2, ![8192, 8192]⟩ : Shape).Idx → EReal) = HnB := (Region2.exit_H m ρ c).trans H5
  have A6 : W6 m ρ c (Proc.devRef .tc main_arg2) = A := (Region2.exit_keep m ρ c main_arg2 (by decide)).trans A5
  have v6 : toCol (W6 m ρ c (Proc.devRef .tc main_call0_v21_0)) = (Spec.mv (F := Ideal) HnB (Spec.mv (F := Ideal) HnB (Spec.mv (F := Ideal) HnB X))) := by
    rw [Region2.exit_v m ρ c, toCol_Gv, v5]; exact congrArg (fun h => Spec.mv (F := Ideal) h (Spec.mv (F := Ideal) HnB (Spec.mv (F := Ideal) HnB X))) H5
  have y6 : toCol (W6 m ρ c (Proc.devRef .tc main_call0_v21_1)) = (addf (F := Ideal) (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) (Spec.sc (F := Ideal) (Spec.coef (F := Ideal) ![0, 0, 3] Cert.ReferenceIdeal.Gen.slices_S2x5x5_S1x1x1_0_0_3 A) (Spec.mv (F := Ideal) HnB (Spec.mv (F := Ideal) HnB (Spec.mv (F := Ideal) HnB X))))) := by
    rw [Region2.exit_y m ρ c, a5, toCol_Gy, v5, y5]; exact congrArg (fun h => addf (F := Ideal) (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) (Spec.sc (F := Ideal) (Spec.coef (F := Ideal) ![0, 0, 3] Cert.ReferenceIdeal.Gen.slices_S2x5x5_S1x1x1_0_0_3 A) (Spec.mv (F := Ideal) h (Spec.mv (F := Ideal) HnB (Spec.mv (F := Ideal) HnB X))))) H5
  -- stretch 3: the next coefficient
  have A7 : W7 m ρ c (Proc.devRef .tc main_arg2) = A := (keep3 (W6 m ρ c) main_arg2 (by decide)).trans A6
  have H7 : (W7 m ρ c (Proc.devRef .tc main_call0_v13_0) : (⟨2, ![8192, 8192]⟩ : Shape).Idx → EReal) = HnB := (keep3 (W6 m ρ c) main_call0_v13_0 (by decide)).trans H6
  have v7 : toCol (W7 m ρ c (Proc.devRef .tc main_call0_v21_0)) = (Spec.mv (F := Ideal) HnB (Spec.mv (F := Ideal) HnB (Spec.mv (F := Ideal) HnB X))) := (congrArg toCol (keep3 (W6 m ρ c) main_call0_v21_0 (by decide))).trans v6
  have y7 : toCol (W7 m ρ c (Proc.devRef .tc main_call0_v21_1)) = (addf (F := Ideal) (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) (Spec.sc (F := Ideal) (Spec.coef (F := Ideal) ![0, 0, 3] Cert.ReferenceIdeal.Gen.slices_S2x5x5_S1x1x1_0_0_3 A) (Spec.mv (F := Ideal) HnB (Spec.mv (F := Ideal) HnB (Spec.mv (F := Ideal) HnB X))))) := (congrArg toCol (keep3 (W6 m ρ c) main_call0_v21_1 (by decide))).trans y6
  have a7 : W7 m ρ c (Proc.devRef .tc main_call0_v24) = as11 (Spec.coef (F := Ideal) ![0, 0, 4] Cert.ReferenceIdeal.Gen.slices_S2x5x5_S1x1x1_0_0_4 A) := (h3_a (W6 m ρ c)).trans (by rw [A6])
  -- region 3: tap 4
  have H8 : (W8 m ρ c (Proc.devRef .tc main_call0_v13_0) : (⟨2, ![8192, 8192]⟩ : Shape).Idx → EReal) = HnB := (Region3.exit_H m ρ c).trans H7
  have A8 : W8 m ρ c (Proc.devRef .tc main_arg2) = A := (Region3.exit_keep m ρ c main_arg2 (by decide)).trans A7
  have v8 : toCol (W8 m ρ c (Proc.devRef .tc main_call0_v25_0)) = (Spec.mv (F := Ideal) HnB (Spec.mv (F := Ideal) HnB (Spec.mv (F := Ideal) HnB (Spec.mv (F := Ideal) HnB X)))) := by
    rw [Region3.exit_v m ρ c, toCol_Gv, v7]; exact congrArg (fun h => Spec.mv (F := Ideal) h (Spec.mv (F := Ideal) HnB (Spec.mv (F := Ideal) HnB (Spec.mv (F := Ideal) HnB X)))) H7
  have y8 : toCol (W8 m ρ c (Proc.devRef .tc main_call0_v25_1)) = (addf (F := Ideal) (addf (F := Ideal) (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) (Spec.sc (F := Ideal) (Spec.coef (F := Ideal) ![0, 0, 3] Cert.ReferenceIdeal.Gen.slices_S2x5x5_S1x1x1_0_0_3 A) (Spec.mv (F := Ideal) HnB (Spec.mv (F := Ideal) HnB (Spec.mv (F := Ideal) HnB X))))) (Spec.sc (F := Ideal) (Spec.coef (F := Ideal) ![0, 0, 4] Cert.ReferenceIdeal.Gen.slices_S2x5x5_S1x1x1_0_0_4 A) (Spec.mv (F := Ideal) HnB (Spec.mv (F := Ideal) HnB (Spec.mv (F := Ideal) HnB (Spec.mv (F := Ideal) HnB X)))))) := by
    rw [Region3.exit_y m ρ c, a7, toCol_Gy, v7, y7]; exact congrArg (fun h => addf (F := Ideal) (addf (F := Ideal) (addf (F := Ideal) (addf (F := Ideal) (Spec.sc (F := Ideal) (Spec.coef (F := Ideal) ![0, 0, 0] Cert.ReferenceIdeal.Gen.slices_S2x5x5_S1x1x1_0_0_0 A) X) (Spec.sc (F := Ideal) (Spec.coef (F := Ideal) ![0, 0, 1] Cert.ReferenceIdeal.Gen.slices_S2x5x5_S1x1x1_0_0_1 A) (Spec.mv (F := Ideal) HnB X))) (Spec.sc (F := Ideal) (Spec.coef (F := Ideal) ![0, 0, 2] Cert.ReferenceIdeal.Gen.slices_S2x5x5_S1x1x1_0_0_2 A) (Spec.mv (F := Ideal) HnB (Spec.mv (F := Ideal) HnB X)))) (Spec.sc (F := Ideal) (Spec.coef (F := Ideal) ![0, 0, 3] Cert.ReferenceIdeal.Gen.slices_S2x5x5_S1x1x1_0_0_3 A) (Spec.mv (F := Ideal) HnB (Spec.mv (F := Ideal) HnB (Spec.mv (F := Ideal) HnB X))))) (Spec.sc (F := Ideal) (Spec.coef (F := Ideal) ![0, 0, 4] Cert.ReferenceIdeal.Gen.slices_S2x5x5_S1x1x1_0_0_4 A) (Spec.mv (F := Ideal) h (Spec.mv (F := Ideal) HnB (Spec.mv (F := Ideal) HnB (Spec.mv (F := Ideal) HnB X)))))) H7
  -- stretch 4: leaky_relu, the two normalisations, the next layer's first tap and second coefficient
  have A9 : W9 m ρ c (Proc.devRef .tc main_arg2) = A := (keep4 (W8 m ρ c) main_arg2 (by decide)).trans A8
  have H9 : (W9 m ρ c (Proc.devRef .tc main_call0_v13_0) : (⟨2, ![8192, 8192]⟩ : Shape).Idx → EReal) = HnB := (keep4 (W8 m ρ c) main_call0_v13_0 (by decide)).trans H8
  have x9 : toCol (W9 m ρ c (Proc.devRef .tc main_call0_v34)) = Spec.layer00 (F := Ideal) A HnB X := (h4_x (W8 m ρ c)).trans (by rw [y8]; rfl)
  have y9 : toCol (W9 m ρ c (Proc.devRef .tc main_call0_v38)) = Spec.sc (F := Ideal) (Spec.coef (F := Ideal) ![0, 1, 0] Cert.ReferenceIdeal.Gen.slices_S2x5x5_S1x1x1_0_1_0 A) (Spec.layer00 (F := Ideal) A HnB X) := (h4_y0 (W8 m ρ c)).trans (by rw [y8, A8]; rfl)
  have a9 : W9 m ρ c (Proc.devRef .tc main_call0_v41) = as11 (Spec.coef (F := Ideal) ![0, 1, 1] Cert.ReferenceIdeal.Gen.slices_S2x5x5_S1x1x1_0_1_1 A) := (h4_a (W8 m ρ c)).trans (by rw [A8])
  subst hA hXd hHd
  exact ⟨A9, H9, x9, y9, a9⟩

end Cert.KernelIdeal.Chain

end
-- ==== Proof.Region4.lean ====
/-
  Region 4 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region4

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg4.N,
      win4_0.index t (0 : Fin 2) = win4_4.index t (1 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = win4_4.index t (1 : Fin 2)
    ∧ win4_4.index t (0 : Fin 2) = 0 ∧ win4_4.index t (1 : Fin 2) ≤ 7
    ∧ win4_5.index t (0 : Fin 2) = 0 ∧ win4_5.index t (1 : Fin 2) = win4_4.index t (1 : Fin 2) :=
  (by decide +kernel : ∀ t : Fin grid4.N, _)

/-- Every one of the eight blocks of the row is some point's. -/
theorem idx_onto : ∀ q : Fin 8, ∃ t : Fin cfg4.N, win4_4.index t = ![0, q.val] :=
  (by decide +kernel : ∀ q : Fin 8, ∃ t : Fin grid4.N, win4_4.index t = ![0, q.val])

/-- The row window's block is the whole row at every point. -/
theorem blk1 (c : Dev nD) (t : Fin cfg4.N) (k : Fin 8192) : iblk4 V c 1 t (ix2 0 k) = V c (Pipeline.arrRef spec4 1) (ix2 0 k) := by
  obtain ⟨e00, e01, e10, e11, e20, e21, e30, e31, e40, e41, e50, e51⟩ := idx_facts t
  show V c (Pipeline.arrRef spec4 1) (((cfg4.win 1).blk t).view.emb (ix2 0 k)) = V c (Pipeline.arrRef spec4 1) (ix2 0 k)
  refine congrArg _ (funext fun a => Fin.ext ?_)
  match a with
  | ⟨0, _⟩ => show win4_1.index t (0 : Fin 2) * 1 + 1 * 0 = 0; omega
  | ⟨1, _⟩ => show win4_1.index t (1 : Fin 2) * 8192 + 1 * k.val = k.val; omega

/-- The coefficient window's block is the one entry. -/
theorem blk2 (c : Dev nD) (t : Fin cfg4.N) : iblk4 V c 2 t (ix2 0 0) = V c (Pipeline.arrRef spec4 2) (ix2 0 0) := by
  obtain ⟨e00, e01, e10, e11, e20, e21, e30, e31, e40, e41, e50, e51⟩ := idx_facts t
  show V c (Pipeline.arrRef spec4 2) (((cfg4.win 2).blk t).view.emb (ix2 0 0)) = V c (Pipeline.arrRef spec4 2) (ix2 0 0)
  refine congrArg _ (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

/-- The matrix window's block at point t is rows 1024·t … of the matrix: its row q is row (block's column position) of the array. -/
theorem blk0 (c : Dev nD) (t : Fin cfg4.N) (q : Fin 1024) (k : Fin 8192) :
    iblk4 V c 0 t (ix2 q k) = V c (Pipeline.arrRef spec4 0) (ix2 ((((cfg4.win 4).blk t).view.emb (ix2 0 q)) 1) k) := by
  obtain ⟨e00, e01, e10, e11, e20, e21, e30, e31, e40, e41, e50, e51⟩ := idx_facts t
  show V c (Pipeline.arrRef spec4 0) (((cfg4.win 0).blk t).view.emb (ix2 q k)) = _
  refine congrArg _ (funext fun a => Fin.ext ?_)
  match a with
  | ⟨0, _⟩ => show win4_0.index t (0 : Fin 2) * 1024 + 1 * q.val = win4_4.index t (1 : Fin 2) * 1024 + 1 * q.val; omega
  | ⟨1, _⟩ => show win4_0.index t (1 : Fin 2) * 8192 + 1 * k.val = k.val; omega

/-- The incoming accumulator window's block at point t is the same stretch of the row as the outgoing ones'. -/
theorem blk3 (c : Dev nD) (t : Fin cfg4.N) (q : Fin 1024) :
    iblk4 V c 3 t (ix2 0 q) = V c (Pipeline.arrRef spec4 3) (((cfg4.win 5).blk t).view.emb (ix2 0 q)) := by
  obtain ⟨e00, e01, e10, e11, e20, e21, e30, e31, e40, e41, e50, e51⟩ := idx_facts t
  show V c (Pipeline.arrRef spec4 3) (((cfg4.win 3).blk t).view.emb (ix2 0 q)) = _
  refine congrArg _ (funext fun a => Fin.ext ?_)
  match a with
  | ⟨0, _⟩ => show win4_3.index t (0 : Fin 2) * 1 + 1 * 0 = win4_5.index t (0 : Fin 2) * 1 + 1 * 0; omega
  | ⟨1, _⟩ => show win4_3.index t (1 : Fin 2) * 1024 + 1 * q.val = win4_5.index t (1 : Fin 2) * 1024 + 1 * q.val; omega

set_option maxHeartbeats 4000000 in
/-- WHAT POINT t WRITES BACK to the product window: block t of the product row. -/
theorem flushed4_eq (c : Dev nD) (t : Fin cfg4.N) :
    (dat4 V c).flushed 4 t = ((cfg4.win 4).blk t).view.read (Elt Ideal)
      (Gv (V c (Pipeline.arrRef spec4 1)) (V c (Pipeline.arrRef spec4 0))) := by
  show (cfg4.win 4).cut (grid4.coords t) ((dat4 V c).after 4 t) = _
  rw [after4_4]
  unfold out4_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk4 V c 1 t) (iblk4 V c 0 t) q).trans ?_
  show mvRow (iblk4 V c 1 t) (iblk4 V c 0 t) q
    = mvRow (V c (Pipeline.arrRef spec4 1)) (V c (Pipeline.arrRef spec4 0)) ((((cfg4.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg4.N) :
    (dat4 V c).flushed 5 t = ((cfg4.win 5).blk t).view.read (Elt Ideal)
      (Gy (V c (Pipeline.arrRef spec4 1)) (V c (Pipeline.arrRef spec4 0)) (V c (Pipeline.arrRef spec4 2)) (V c (Pipeline.arrRef spec4 3))) := by
  show (cfg4.win 5).cut (grid4.coords t) ((dat4 V c).after 5 t) = _
  rw [after4_5]
  unfold out4_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk4 V c 1 t) (iblk4 V c 0 t) (iblk4 V c 2 t) (iblk4 V c 3 t) q).trans ?_
  refine Eq.trans ?_ (Gy_acc (V c (Pipeline.arrRef spec4 1)) (V c (Pipeline.arrRef spec4 0)) (V c (Pipeline.arrRef spec4 2)) (V c (Pipeline.arrRef spec4 3))
    (((cfg4.win 5).blk t).view.emb (ix2 0 q))).symm
  rw [blk3 V c t q, blk2 V c t]
  refine congrArg (accAt _ _) ?_
  unfold mvRow
  refine Finset.sum_congr rfl fun k _ => ?_
  have hX : (((cfg4.win 4).blk t).view.emb (ix2 0 q)) 1 = (((cfg4.win 5).blk t).view.emb (ix2 0 q)) 1 :=
    Fin.ext (by show win4_4.index t (1 : Fin 2) * 1024 + 1 * q.val = win4_5.index t (1 : Fin 2) * 1024 + 1 * q.val; omega)
  rw [blk1 V c t k, blk0 V c t q k, hX]

/-- An index of a [1,8192] output array is in point t's block iff each coordinate is in the block's range. -/
theorem mem_blk4 (t : Fin cfg4.N) (i : S1x8192.Idx) :
    i ∈ ((cfg4.win 4).blk t).view.set ↔ ∀ a : Fin 2, win4_4.index t a * S1x1024.size a ≤ (i a).val ∧ (i a).val < win4_4.index t a * S1x1024.size a + S1x1024.size a := by
  show i ∈ ((View.whole main_call0_v42_0).slice (win4_4.rect t)).set ↔ _
  rw [View.set_slice_whole, Rect.mem_set_unit]
  exact Iff.rfl
theorem mem_blk5 (t : Fin cfg4.N) (i : S1x8192.Idx) :
    i ∈ ((cfg4.win 5).blk t).view.set ↔ ∀ a : Fin 2, win4_5.index t a * S1x1024.size a ≤ (i a).val ∧ (i a).val < win4_5.index t a * S1x1024.size a + S1x1024.size a := by
  show i ∈ ((View.whole main_call0_v42_1).slice (win4_5.rect t)).set ↔ _
  rw [View.set_slice_whole, Rect.mem_set_unit]
  exact Iff.rfl

/-- The eight blocks cover the row: column n is in the block of the point whose block index is n / 1024. -/
theorem cover4 (i : S1x8192.Idx) : ∃ t : Fin cfg4.N, (cfg4.win 4).flush t = true ∧ i ∈ ((cfg4.win 4).blk t).view.set := by
  have hi0 : (i 0).val < 1 := (i 0).isLt
  have hi1 : (i 1).val < 8192 := (i 1).isLt
  obtain ⟨t, ht⟩ := idx_onto ⟨(i 1).val / 1024, by omega⟩
  have q0 : win4_4.index t (0 : Fin 2) = 0 := congrFun ht 0
  have q1 : win4_4.index t (1 : Fin 2) = (i 1).val / 1024 := congrFun ht 1
  refine ⟨t, flush4_4 t, ?_⟩
  rw [mem_blk4]
  intro a
  match a with
  | ⟨0, _⟩ => show win4_4.index t (0 : Fin 2) * 1 ≤ (i 0).val ∧ (i 0).val < win4_4.index t (0 : Fin 2) * 1 + 1; omega
  | ⟨1, _⟩ => show win4_4.index t (1 : Fin 2) * 1024 ≤ (i 1).val ∧ (i 1).val < win4_4.index t (1 : Fin 2) * 1024 + 1024; omega
theorem cover5 (i : S1x8192.Idx) : ∃ t : Fin cfg4.N, (cfg4.win 5).flush t = true ∧ i ∈ ((cfg4.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win4_4.index t (1 : Fin 2) = (i 1).val / 1024 := congrFun ht 1
  refine ⟨t, flush4_5 t, ?_⟩
  rw [mem_blk5]
  intro a
  match a with
  | ⟨0, _⟩ => show win4_5.index t (0 : Fin 2) * 1 ≤ (i 0).val ∧ (i 0).val < win4_5.index t (0 : Fin 2) * 1 + 1; omega
  | ⟨1, _⟩ => show win4_5.index t (1 : Fin 2) * 1024 ≤ (i 1).val ∧ (i 1).val < win4_5.index t (1 : Fin 2) * 1024 + 1024; omega

/-- THE PRODUCT ARRAY after the region. -/
theorem final4 (c : Dev nD) : (dat4 V c).arrAt 4 cfg4.N = Gv (V c (Pipeline.arrRef spec4 1)) (V c (Pipeline.arrRef spec4 0)) :=
  (dat4 V c).arrAt_eq_of_cover 4 _ (fun t _ => flushed4_eq V c t) cover4
/-- THE ACCUMULATOR ARRAY after the region. -/
theorem final5 (c : Dev nD) : (dat4 V c).arrAt 5 cfg4.N
    = Gy (V c (Pipeline.arrRef spec4 1)) (V c (Pipeline.arrRef spec4 0)) (V c (Pipeline.arrRef spec4 2)) (V c (Pipeline.arrRef spec4 3)) :=
  (dat4 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W10 m ρ c (Proc.devRef .tc main_call0_v42_0) = Gv (W9 m ρ c (Proc.devRef .tc main_call0_v34)) (W9 m ρ c (Proc.devRef .tc main_call0_v13_0)) :=
  (W10_arr m ρ c 4).trans (final4 (V9 m ρ) c)
/-- The accumulator buffer after the region. -/
theorem exit_y : W10 m ρ c (Proc.devRef .tc main_call0_v42_1)
    = Gy (W9 m ρ c (Proc.devRef .tc main_call0_v34)) (W9 m ρ c (Proc.devRef .tc main_call0_v13_0)) (W9 m ρ c (Proc.devRef .tc main_call0_v41)) (W9 m ρ c (Proc.devRef .tc main_call0_v38)) :=
  (W10_arr m ρ c 5).trans (final5 (V9 m ρ) c)
/-- The matrix is only read. -/
theorem exit_H : W10 m ρ c (Proc.devRef .tc main_call0_v13_0) = W9 m ρ c (Proc.devRef .tc main_call0_v13_0) :=
  (W10_arr m ρ c 0).trans (((dat4 (V9 m ρ) c).arrAt_in 0 rfl _).trans (A_eq4 (V9 m ρ) c 0))
/-- The incoming row is only read. -/
theorem exit_vin : W10 m ρ c (Proc.devRef .tc main_call0_v34) = W9 m ρ c (Proc.devRef .tc main_call0_v34) :=
  (W10_arr m ρ c 1).trans (((dat4 (V9 m ρ) c).arrAt_in 1 rfl _).trans (A_eq4 (V9 m ρ) c 1))
/-- A buffer that is none of the region's arrays is as at entry. -/
theorem exit_keep (b : Ref sig .tc) (hb : ∀ w, Pipeline.arrRef spec4 w ≠ b) :
    W10 m ρ c (Proc.devRef .tc b) = W9 m ρ c (Proc.devRef .tc b) := W10_of_ne m ρ c b hb

end Exit

end Cert.KernelIdeal.Region4

end
-- ==== Proof.Region5.lean ====
/-
  Region 5 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region5

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg5.N,
      win5_0.index t (0 : Fin 2) = win5_4.index t (1 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = win5_4.index t (1 : Fin 2)
    ∧ win5_4.index t (0 : Fin 2) = 0 ∧ win5_4.index t (1 : Fin 2) ≤ 7
    ∧ win5_5.index t (0 : Fin 2) = 0 ∧ win5_5.index t (1 : Fin 2) = win5_4.index t (1 : Fin 2) :=
  (by decide +kernel : ∀ t : Fin grid5.N, _)

/-- Every one of the eight blocks of the row is some point's. -/
theorem idx_onto : ∀ q : Fin 8, ∃ t : Fin cfg5.N, win5_4.index t = ![0, q.val] :=
  (by decide +kernel : ∀ q : Fin 8, ∃ t : Fin grid5.N, win5_4.index t = ![0, q.val])

/-- The row window's block is the whole row at every point. -/
theorem blk1 (c : Dev nD) (t : Fin cfg5.N) (k : Fin 8192) : iblk5 V c 1 t (ix2 0 k) = V c (Pipeline.arrRef spec5 1) (ix2 0 k) := by
  obtain ⟨e00, e01, e10, e11, e20, e21, e30, e31, e40, e41, e50, e51⟩ := idx_facts t
  show V c (Pipeline.arrRef spec5 1) (((cfg5.win 1).blk t).view.emb (ix2 0 k)) = V c (Pipeline.arrRef spec5 1) (ix2 0 k)
  refine congrArg _ (funext fun a => Fin.ext ?_)
  match a with
  | ⟨0, _⟩ => show win5_1.index t (0 : Fin 2) * 1 + 1 * 0 = 0; omega
  | ⟨1, _⟩ => show win5_1.index t (1 : Fin 2) * 8192 + 1 * k.val = k.val; omega

/-- The coefficient window's block is the one entry. -/
theorem blk2 (c : Dev nD) (t : Fin cfg5.N) : iblk5 V c 2 t (ix2 0 0) = V c (Pipeline.arrRef spec5 2) (ix2 0 0) := by
  obtain ⟨e00, e01, e10, e11, e20, e21, e30, e31, e40, e41, e50, e51⟩ := idx_facts t
  show V c (Pipeline.arrRef spec5 2) (((cfg5.win 2).blk t).view.emb (ix2 0 0)) = V c (Pipeline.arrRef spec5 2) (ix2 0 0)
  refine congrArg _ (funext fun a => Fin.ext ?_)
  match a with
  | ⟨0, _⟩ => show win5_2.index t (0 : Fin 2) * 1 + 1 * 0 = 0; omega
  | ⟨1, _⟩ => show win5_2.index t (1 : Fin 2) * 1 + 1 * 0 = 0; omega

/-- The matrix window's block at point t is rows 1024·t … of the matrix: its row q is row (block's column position) of the array. -/
theorem blk0 (c : Dev nD) (t : Fin cfg5.N) (q : Fin 1024) (k : Fin 8192) :
    iblk5 V c 0 t (ix2 q k) = V c (Pipeline.arrRef spec5 0) (ix2 ((((cfg5.win 4).blk t).view.emb (ix2 0 q)) 1) k) := by
  obtain ⟨e00, e01, e10, e11, e20, e21, e30, e31, e40, e41, e50, e51⟩ := idx_facts t
  show V c (Pipeline.arrRef spec5 0) (((cfg5.win 0).blk t).view.emb (ix2 q k)) = _
  refine congrArg _ (funext fun a => Fin.ext ?_)
  match a with
  | ⟨0, _⟩ => show win5_0.index t (0 : Fin 2) * 1024 + 1 * q.val = win5_4.index t (1 : Fin 2) * 1024 + 1 * q.val; omega
  | ⟨1, _⟩ => show win5_0.index t (1 : Fin 2) * 8192 + 1 * k.val = k.val; omega

/-- The incoming accumulator window's block at point t is the same stretch of the row as the outgoing ones'. -/
theorem blk3 (c : Dev nD) (t : Fin cfg5.N) (q : Fin 1024) :
    iblk5 V c 3 t (ix2 0 q) = V c (Pipeline.arrRef spec5 3) (((cfg5.win 5).blk t).view.emb (ix2 0 q)) := by
  obtain ⟨e00, e01, e10, e11, e20, e21, e30, e31, e40, e41, e50, e51⟩ := idx_facts t
  show V c (Pipeline.arrRef spec5 3) (((cfg5.win 3).blk t).view.emb (ix2 0 q)) = _
  refine congrArg _ (funext fun a => Fin.ext ?_)
  match a with
  | ⟨0, _⟩ => show win5_3.index t (0 : Fin 2) * 1 + 1 * 0 = win5_5.index t (0 : Fin 2) * 1 + 1 * 0; omega
  | ⟨1, _⟩ => show win5_3.index t (1 : Fin 2) * 1024 + 1 * q.val = win5_5.index t (1 : Fin 2) * 1024 + 1 * q.val; omega

set_option maxHeartbeats 4000000 in
/-- WHAT POINT t WRITES BACK to the product window: block t of the product row. -/
theorem flushed4_eq (c : Dev nD) (t : Fin cfg5.N) :
    (dat5 V c).flushed 4 t = ((cfg5.win 4).blk t).view.read (Elt Ideal)
      (Gv (V c (Pipeline.arrRef spec5 1)) (V c (Pipeline.arrRef spec5 0))) := by
  show (cfg5.win 4).cut (grid5.coords t) ((dat5 V c).after 4 t) = _
  rw [after5_4]
  unfold out5_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk5 V c 1 t) (iblk5 V c 0 t) q).trans ?_
  show mvRow (iblk5 V c 1 t) (iblk5 V c 0 t) q
    = mvRow (V c (Pipeline.arrRef spec5 1)) (V c (Pipeline.arrRef spec5 0)) ((((cfg5.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg5.N) :
    (dat5 V c).flushed 5 t = ((cfg5.win 5).blk t).view.read (Elt Ideal)
      (Gy (V c (Pipeline.arrRef spec5 1)) (V c (Pipeline.arrRef spec5 0)) (V c (Pipeline.arrRef spec5 2)) (V c (Pipeline.arrRef spec5 3))) := by
  show (cfg5.win 5).cut (grid5.coords t) ((dat5 V c).after 5 t) = _
  rw [after5_5]
  unfold out5_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk5 V c 1 t) (iblk5 V c 0 t) (iblk5 V c 2 t) (iblk5 V c 3 t) q).trans ?_
  refine Eq.trans ?_ (Gy_acc (V c (Pipeline.arrRef spec5 1)) (V c (Pipeline.arrRef spec5 0)) (V c (Pipeline.arrRef spec5 2)) (V c (Pipeline.arrRef spec5 3))
    (((cfg5.win 5).blk t).view.emb (ix2 0 q))).symm
  rw [blk3 V c t q, blk2 V c t]
  refine congrArg (accAt _ _) ?_
  unfold mvRow
  refine Finset.sum_congr rfl fun k _ => ?_
  have hX : (((cfg5.win 4).blk t).view.emb (ix2 0 q)) 1 = (((cfg5.win 5).blk t).view.emb (ix2 0 q)) 1 :=
    Fin.ext (by show win5_4.index t (1 : Fin 2) * 1024 + 1 * q.val = win5_5.index t (1 : Fin 2) * 1024 + 1 * q.val; omega)
  rw [blk1 V c t k, blk0 V c t q k, hX]

/-- An index of a [1,8192] output array is in point t's block iff each coordinate is in the block's range. -/
theorem mem_blk4 (t : Fin cfg5.N) (i : S1x8192.Idx) :
    i ∈ ((cfg5.win 4).blk t).view.set ↔ ∀ a : Fin 2, win5_4.index t a * S1x1024.size a ≤ (i a).val ∧ (i a).val < win5_4.index t a * S1x1024.size a + S1x1024.size a := by
  show i ∈ ((View.whole main_call0_v46_0).slice (win5_4.rect t)).set ↔ _
  rw [View.set_slice_whole, Rect.mem_set_unit]
  exact Iff.rfl
theorem mem_blk5 (t : Fin cfg5.N) (i : S1x8192.Idx) :
    i ∈ ((cfg5.win 5).blk t).view.set ↔ ∀ a : Fin 2, win5_5.index t a * S1x1024.size a ≤ (i a).val ∧ (i a).val < win5_5.index t a * S1x1024.size a + S1x1024.size a := by
  show i ∈ ((View.whole main_call0_v46_1).slice (win5_5.rect t)).set ↔ _
  rw [View.set_slice_whole, Rect.mem_set_unit]
  exact Iff.rfl

/-- The eight blocks cover the row: column n is in the block of the point whose block index is n / 1024. -/
theorem cover4 (i : S1x8192.Idx) : ∃ t : Fin cfg5.N, (cfg5.win 4).flush t = true ∧ i ∈ ((cfg5.win 4).blk t).view.set := by
  have hi0 : (i 0).val < 1 := (i 0).isLt
  have hi1 : (i 1).val < 8192 := (i 1).isLt
  obtain ⟨t, ht⟩ := idx_onto ⟨(i 1).val / 1024, by omega⟩
  have q0 : win5_4.index t (0 : Fin 2) = 0 := congrFun ht 0
  have q1 : win5_4.index t (1 : Fin 2) = (i 1).val / 1024 := congrFun ht 1
  refine ⟨t, flush5_4 t, ?_⟩
  rw [mem_blk4]
  intro a
  match a with
  | ⟨0, _⟩ => show win5_4.index t (0 : Fin 2) * 1 ≤ (i 0).val ∧ (i 0).val < win5_4.index t (0 : Fin 2) * 1 + 1; omega
  | ⟨1, _⟩ => show win5_4.index t (1 : Fin 2) * 1024 ≤ (i 1).val ∧ (i 1).val < win5_4.index t (1 : Fin 2) * 1024 + 1024; omega
theorem cover5 (i : S1x8192.Idx) : ∃ t : Fin cfg5.N, (cfg5.win 5).flush t = true ∧ i ∈ ((cfg5.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win5_4.index t (1 : Fin 2) = (i 1).val / 1024 := congrFun ht 1
  refine ⟨t, flush5_5 t, ?_⟩
  rw [mem_blk5]
  intro a
  match a with
  | ⟨0, _⟩ => show win5_5.index t (0 : Fin 2) * 1 ≤ (i 0).val ∧ (i 0).val < win5_5.index t (0 : Fin 2) * 1 + 1; omega
  | ⟨1, _⟩ => show win5_5.index t (1 : Fin 2) * 1024 ≤ (i 1).val ∧ (i 1).val < win5_5.index t (1 : Fin 2) * 1024 + 1024; omega

/-- THE PRODUCT ARRAY after the region. -/
theorem final4 (c : Dev nD) : (dat5 V c).arrAt 4 cfg5.N = Gv (V c (Pipeline.arrRef spec5 1)) (V c (Pipeline.arrRef spec5 0)) :=
  (dat5 V c).arrAt_eq_of_cover 4 _ (fun t _ => flushed4_eq V c t) cover4
/-- THE ACCUMULATOR ARRAY after the region. -/
theorem final5 (c : Dev nD) : (dat5 V c).arrAt 5 cfg5.N
    = Gy (V c (Pipeline.arrRef spec5 1)) (V c (Pipeline.arrRef spec5 0)) (V c (Pipeline.arrRef spec5 2)) (V c (Pipeline.arrRef spec5 3)) :=
  (dat5 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W12 m ρ c (Proc.devRef .tc main_call0_v46_0) = Gv (W11 m ρ c (Proc.devRef .tc main_call0_v42_0)) (W11 m ρ c (Proc.devRef .tc main_call0_v13_0)) :=
  (W12_arr m ρ c 4).trans (final4 (V11 m ρ) c)
/-- The accumulator buffer after the region. -/
theorem exit_y : W12 m ρ c (Proc.devRef .tc main_call0_v46_1)
    = Gy (W11 m ρ c (Proc.devRef .tc main_call0_v42_0)) (W11 m ρ c (Proc.devRef .tc main_call0_v13_0)) (W11 m ρ c (Proc.devRef .tc main_call0_v45)) (W11 m ρ c (Proc.devRef .tc main_call0_v42_1)) :=
  (W12_arr m ρ c 5).trans (final5 (V11 m ρ) c)
/-- The matrix is only read. -/
theorem exit_H : W12 m ρ c (Proc.devRef .tc main_call0_v13_0) = W11 m ρ c (Proc.devRef .tc main_call0_v13_0) :=
  (W12_arr m ρ c 0).trans (((dat5 (V11 m ρ) c).arrAt_in 0 rfl _).trans (A_eq5 (V11 m ρ) c 0))
/-- The incoming row is only read. -/
theorem exit_vin : W12 m ρ c (Proc.devRef .tc main_call0_v42_0) = W11 m ρ c (Proc.devRef .tc main_call0_v42_0) :=
  (W12_arr m ρ c 1).trans (((dat5 (V11 m ρ) c).arrAt_in 1 rfl _).trans (A_eq5 (V11 m ρ) c 1))
/-- A buffer that is none of the region's arrays is as at entry. -/
theorem exit_keep (b : Ref sig .tc) (hb : ∀ w, Pipeline.arrRef spec5 w ≠ b) :
    W12 m ρ c (Proc.devRef .tc b) = W11 m ρ c (Proc.devRef .tc b) := W12_of_ne m ρ c b hb

end Exit

end Cert.KernelIdeal.Region5

end
-- ==== Proof.Region6.lean ====
/-
  Region 6 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region6

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg6.N,
      win6_0.index t (0 : Fin 2) = win6_4.index t (1 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = win6_4.index t (1 : Fin 2)
    ∧ win6_4.index t (0 : Fin 2) = 0 ∧ win6_4.index t (1 : Fin 2) ≤ 7
    ∧ win6_5.index t (0 : Fin 2) = 0 ∧ win6_5.index t (1 : Fin 2) = win6_4.index t (1 : Fin 2) :=
  (by decide +kernel : ∀ t : Fin grid6.N, _)

/-- Every one of the eight blocks of the row is some point's. -/
theorem idx_onto : ∀ q : Fin 8, ∃ t : Fin cfg6.N, win6_4.index t = ![0, q.val] :=
  (by decide +kernel : ∀ q : Fin 8, ∃ t : Fin grid6.N, win6_4.index t = ![0, q.val])

/-- The row window's block is the whole row at every point. -/
theorem blk1 (c : Dev nD) (t : Fin cfg6.N) (k : Fin 8192) : iblk6 V c 1 t (ix2 0 k) = V c (Pipeline.arrRef spec6 1) (ix2 0 k) := by
  obtain ⟨e00, e01, e10, e11, e20, e21, e30, e31, e40, e41, e50, e51⟩ := idx_facts t
  show V c (Pipeline.arrRef spec6 1) (((cfg6.win 1).blk t).view.emb (ix2 0 k)) = V c (Pipeline.arrRef spec6 1) (ix2 0 k)
  refine congrArg _ (funext fun a => Fin.ext ?_)
  match a with
  | ⟨0, _⟩ => show win6_1.index t (0 : Fin 2) * 1 + 1 * 0 = 0; omega
  | ⟨1, _⟩ => show win6_1.index t (1 : Fin 2) * 8192 + 1 * k.val = k.val; omega

/-- The coefficient window's block is the one entry. -/
theorem blk2 (c : Dev nD) (t : Fin cfg6.N) : iblk6 V c 2 t (ix2 0 0) = V c (Pipeline.arrRef spec6 2) (ix2 0 0) := by
  obtain ⟨e00, e01, e10, e11, e20, e21, e30, e31, e40, e41, e50, e51⟩ := idx_facts t
  show V c (Pipeline.arrRef spec6 2) (((cfg6.win 2).blk t).view.emb (ix2 0 0)) = V c (Pipeline.arrRef spec6 2) (ix2 0 0)
  refine congrArg _ (funext fun a => Fin.ext ?_)
  match a with
  | ⟨0, _⟩ => show win6_2.index t (0 : Fin 2) * 1 + 1 * 0 = 0; omega
  | ⟨1, _⟩ => show win6_2.index t (1 : Fin 2) * 1 + 1 * 0 = 0; omega

/-- The matrix window's block at point t is rows 1024·t … of the matrix: its row q is row (block's column position) of the array. -/
theorem blk0 (c : Dev nD) (t : Fin cfg6.N) (q : Fin 1024) (k : Fin 8192) :
    iblk6 V c 0 t (ix2 q k) = V c (Pipeline.arrRef spec6 0) (ix2 ((((cfg6.win 4).blk t).view.emb (ix2 0 q)) 1) k) := by
  obtain ⟨e00, e01, e10, e11, e20, e21, e30, e31, e40, e41, e50, e51⟩ := idx_facts t
  show V c (Pipeline.arrRef spec6 0) (((cfg6.win 0).blk t).view.emb (ix2 q k)) = _
  refine congrArg _ (funext fun a => Fin.ext ?_)
  match a with
  | ⟨0, _⟩ => show win6_0.index t (0 : Fin 2) * 1024 + 1 * q.val = win6_4.index t (1 : Fin 2) * 1024 + 1 * q.val; omega
  | ⟨1, _⟩ => show win6_0.index t (1 : Fin 2) * 8192 + 1 * k.val = k.val; omega

/-- The incoming accumulator window's block at point t is the same stretch of the row as the outgoing ones'. -/
theorem blk3 (c : Dev nD) (t : Fin cfg6.N) (q : Fin 1024) :
    iblk6 V c 3 t (ix2 0 q) = V c (Pipeline.arrRef spec6 3) (((cfg6.win 5).blk t).view.emb (ix2 0 q)) := by
  obtain ⟨e00, e01, e10, e11, e20, e21, e30, e31, e40, e41, e50, e51⟩ := idx_facts t
  show V c (Pipeline.arrRef spec6 3) (((cfg6.win 3).blk t).view.emb (ix2 0 q)) = _
  refine congrArg _ (funext fun a => Fin.ext ?_)
  match a with
  | ⟨0, _⟩ => show win6_3.index t (0 : Fin 2) * 1 + 1 * 0 = win6_5.index t (0 : Fin 2) * 1 + 1 * 0; omega
  | ⟨1, _⟩ => show win6_3.index t (1 : Fin 2) * 1024 + 1 * q.val = win6_5.index t (1 : Fin 2) * 1024 + 1 * q.val; omega

set_option maxHeartbeats 4000000 in
/-- WHAT POINT t WRITES BACK to the product window: block t of the product row. -/
theorem flushed4_eq (c : Dev nD) (t : Fin cfg6.N) :
    (dat6 V c).flushed 4 t = ((cfg6.win 4).blk t).view.read (Elt Ideal)
      (Gv (V c (Pipeline.arrRef spec6 1)) (V c (Pipeline.arrRef spec6 0))) := by
  show (cfg6.win 4).cut (grid6.coords t) ((dat6 V c).after 4 t) = _
  rw [after6_4]
  unfold out6_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk6 V c 1 t) (iblk6 V c 0 t) q).trans ?_
  show mvRow (iblk6 V c 1 t) (iblk6 V c 0 t) q
    = mvRow (V c (Pipeline.arrRef spec6 1)) (V c (Pipeline.arrRef spec6 0)) ((((cfg6.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg6.N) :
    (dat6 V c).flushed 5 t = ((cfg6.win 5).blk t).view.read (Elt Ideal)
      (Gy (V c (Pipeline.arrRef spec6 1)) (V c (Pipeline.arrRef spec6 0)) (V c (Pipeline.arrRef spec6 2)) (V c (Pipeline.arrRef spec6 3))) := by
  show (cfg6.win 5).cut (grid6.coords t) ((dat6 V c).after 5 t) = _
  rw [after6_5]
  unfold out6_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk6 V c 1 t) (iblk6 V c 0 t) (iblk6 V c 2 t) (iblk6 V c 3 t) q).trans ?_
  refine Eq.trans ?_ (Gy_acc (V c (Pipeline.arrRef spec6 1)) (V c (Pipeline.arrRef spec6 0)) (V c (Pipeline.arrRef spec6 2)) (V c (Pipeline.arrRef spec6 3))
    (((cfg6.win 5).blk t).view.emb (ix2 0 q))).symm
  rw [blk3 V c t q, blk2 V c t]
  refine congrArg (accAt _ _) ?_
  unfold mvRow
  refine Finset.sum_congr rfl fun k _ => ?_
  have hX : (((cfg6.win 4).blk t).view.emb (ix2 0 q)) 1 = (((cfg6.win 5).blk t).view.emb (ix2 0 q)) 1 :=
    Fin.ext (by show win6_4.index t (1 : Fin 2) * 1024 + 1 * q.val = win6_5.index t (1 : Fin 2) * 1024 + 1 * q.val; omega)
  rw [blk1 V c t k, blk0 V c t q k, hX]

/-- An index of a [1,8192] output array is in point t's block iff each coordinate is in the block's range. -/
theorem mem_blk4 (t : Fin cfg6.N) (i : S1x8192.Idx) :
    i ∈ ((cfg6.win 4).blk t).view.set ↔ ∀ a : Fin 2, win6_4.index t a * S1x1024.size a ≤ (i a).val ∧ (i a).val < win6_4.index t a * S1x1024.size a + S1x1024.size a := by
  show i ∈ ((View.whole main_call0_v50_0).slice (win6_4.rect t)).set ↔ _
  rw [View.set_slice_whole, Rect.mem_set_unit]
  exact Iff.rfl
theorem mem_blk5 (t : Fin cfg6.N) (i : S1x8192.Idx) :
    i ∈ ((cfg6.win 5).blk t).view.set ↔ ∀ a : Fin 2, win6_5.index t a * S1x1024.size a ≤ (i a).val ∧ (i a).val < win6_5.index t a * S1x1024.size a + S1x1024.size a := by
  show i ∈ ((View.whole main_call0_v50_1).slice (win6_5.rect t)).set ↔ _
  rw [View.set_slice_whole, Rect.mem_set_unit]
  exact Iff.rfl

/-- The eight blocks cover the row: column n is in the block of the point whose block index is n / 1024. -/
theorem cover4 (i : S1x8192.Idx) : ∃ t : Fin cfg6.N, (cfg6.win 4).flush t = true ∧ i ∈ ((cfg6.win 4).blk t).view.set := by
  have hi0 : (i 0).val < 1 := (i 0).isLt
  have hi1 : (i 1).val < 8192 := (i 1).isLt
  obtain ⟨t, ht⟩ := idx_onto ⟨(i 1).val / 1024, by omega⟩
  have q0 : win6_4.index t (0 : Fin 2) = 0 := congrFun ht 0
  have q1 : win6_4.index t (1 : Fin 2) = (i 1).val / 1024 := congrFun ht 1
  refine ⟨t, flush6_4 t, ?_⟩
  rw [mem_blk4]
  intro a
  match a with
  | ⟨0, _⟩ => show win6_4.index t (0 : Fin 2) * 1 ≤ (i 0).val ∧ (i 0).val < win6_4.index t (0 : Fin 2) * 1 + 1; omega
  | ⟨1, _⟩ => show win6_4.index t (1 : Fin 2) * 1024 ≤ (i 1).val ∧ (i 1).val < win6_4.index t (1 : Fin 2) * 1024 + 1024; omega
theorem cover5 (i : S1x8192.Idx) : ∃ t : Fin cfg6.N, (cfg6.win 5).flush t = true ∧ i ∈ ((cfg6.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win6_4.index t (1 : Fin 2) = (i 1).val / 1024 := congrFun ht 1
  refine ⟨t, flush6_5 t, ?_⟩
  rw [mem_blk5]
  intro a
  match a with
  | ⟨0, _⟩ => show win6_5.index t (0 : Fin 2) * 1 ≤ (i 0).val ∧ (i 0).val < win6_5.index t (0 : Fin 2) * 1 + 1; omega
  | ⟨1, _⟩ => show win6_5.index t (1 : Fin 2) * 1024 ≤ (i 1).val ∧ (i 1).val < win6_5.index t (1 : Fin 2) * 1024 + 1024; omega

/-- THE PRODUCT ARRAY after the region. -/
theorem final4 (c : Dev nD) : (dat6 V c).arrAt 4 cfg6.N = Gv (V c (Pipeline.arrRef spec6 1)) (V c (Pipeline.arrRef spec6 0)) :=
  (dat6 V c).arrAt_eq_of_cover 4 _ (fun t _ => flushed4_eq V c t) cover4
/-- THE ACCUMULATOR ARRAY after the region. -/
theorem final5 (c : Dev nD) : (dat6 V c).arrAt 5 cfg6.N
    = Gy (V c (Pipeline.arrRef spec6 1)) (V c (Pipeline.arrRef spec6 0)) (V c (Pipeline.arrRef spec6 2)) (V c (Pipeline.arrRef spec6 3)) :=
  (dat6 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W14 m ρ c (Proc.devRef .tc main_call0_v50_0) = Gv (W13 m ρ c (Proc.devRef .tc main_call0_v46_0)) (W13 m ρ c (Proc.devRef .tc main_call0_v13_0)) :=
  (W14_arr m ρ c 4).trans (final4 (V13 m ρ) c)
/-- The accumulator buffer after the region. -/
theorem exit_y : W14 m ρ c (Proc.devRef .tc main_call0_v50_1)
    = Gy (W13 m ρ c (Proc.devRef .tc main_call0_v46_0)) (W13 m ρ c (Proc.devRef .tc main_call0_v13_0)) (W13 m ρ c (Proc.devRef .tc main_call0_v49)) (W13 m ρ c (Proc.devRef .tc main_call0_v46_1)) :=
  (W14_arr m ρ c 5).trans (final5 (V13 m ρ) c)
/-- The matrix is only read. -/
theorem exit_H : W14 m ρ c (Proc.devRef .tc main_call0_v13_0) = W13 m ρ c (Proc.devRef .tc main_call0_v13_0) :=
  (W14_arr m ρ c 0).trans (((dat6 (V13 m ρ) c).arrAt_in 0 rfl _).trans (A_eq6 (V13 m ρ) c 0))
/-- The incoming row is only read. -/
theorem exit_vin : W14 m ρ c (Proc.devRef .tc main_call0_v46_0) = W13 m ρ c (Proc.devRef .tc main_call0_v46_0) :=
  (W14_arr m ρ c 1).trans (((dat6 (V13 m ρ) c).arrAt_in 1 rfl _).trans (A_eq6 (V13 m ρ) c 1))
/-- A buffer that is none of the region's arrays is as at entry. -/
theorem exit_keep (b : Ref sig .tc) (hb : ∀ w, Pipeline.arrRef spec6 w ≠ b) :
    W14 m ρ c (Proc.devRef .tc b) = W13 m ρ c (Proc.devRef .tc b) := W14_of_ne m ρ c b hb

end Exit

end Cert.KernelIdeal.Region6

end
-- ==== Proof.Region7.lean ====
/-
  Region 7 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region7

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg7.N,
      win7_0.index t (0 : Fin 2) = win7_4.index t (1 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = win7_4.index t (1 : Fin 2)
    ∧ win7_4.index t (0 : Fin 2) = 0 ∧ win7_4.index t (1 : Fin 2) ≤ 7
    ∧ win7_5.index t (0 : Fin 2) = 0 ∧ win7_5.index t (1 : Fin 2) = win7_4.index t (1 : Fin 2) :=
  (by decide +kernel : ∀ t : Fin grid7.N, _)

/-- Every one of the eight blocks of the row is some point's. -/
theorem idx_onto : ∀ q : Fin 8, ∃ t : Fin cfg7.N, win7_4.index t = ![0, q.val] :=
  (by decide +kernel : ∀ q : Fin 8, ∃ t : Fin grid7.N, win7_4.index t = ![0, q.val])

/-- The row window's block is the whole row at every point. -/
theorem blk1 (c : Dev nD) (t : Fin cfg7.N) (k : Fin 8192) : iblk7 V c 1 t (ix2 0 k) = V c (Pipeline.arrRef spec7 1) (ix2 0 k) := by
  obtain ⟨e00, e01, e10, e11, e20, e21, e30, e31, e40, e41, e50, e51⟩ := idx_facts t
  show V c (Pipeline.arrRef spec7 1) (((cfg7.win 1).blk t).view.emb (ix2 0 k)) = V c (Pipeline.arrRef spec7 1) (ix2 0 k)
  refine congrArg _ (funext fun a => Fin.ext ?_)
  match a with
  | ⟨0, _⟩ => show win7_1.index t (0 : Fin 2) * 1 + 1 * 0 = 0; omega
  | ⟨1, _⟩ => show win7_1.index t (1 : Fin 2) * 8192 + 1 * k.val = k.val; omega

/-- The coefficient window's block is the one entry. -/
theorem blk2 (c : Dev nD) (t : Fin cfg7.N) : iblk7 V c 2 t (ix2 0 0) = V c (Pipeline.arrRef spec7 2) (ix2 0 0) := by
  obtain ⟨e00, e01, e10, e11, e20, e21, e30, e31, e40, e41, e50, e51⟩ := idx_facts t
  show V c (Pipeline.arrRef spec7 2) (((cfg7.win 2).blk t).view.emb (ix2 0 0)) = V c (Pipeline.arrRef spec7 2) (ix2 0 0)
  refine congrArg _ (funext fun a => Fin.ext ?_)
  match a with
  | ⟨0, _⟩ => show win7_2.index t (0 : Fin 2) * 1 + 1 * 0 = 0; omega
  | ⟨1, _⟩ => show win7_2.index t (1 : Fin 2) * 1 + 1 * 0 = 0; omega

/-- The matrix window's block at point t is rows 1024·t … of the matrix: its row q is row (block's column position) of the array. -/
theorem blk0 (c : Dev nD) (t : Fin cfg7.N) (q : Fin 1024) (k : Fin 8192) :
    iblk7 V c 0 t (ix2 q k) = V c (Pipeline.arrRef spec7 0) (ix2 ((((cfg7.win 4).blk t).view.emb (ix2 0 q)) 1) k) := by
  obtain ⟨e00, e01, e10, e11, e20, e21, e30, e31, e40, e41, e50, e51⟩ := idx_facts t
  show V c (Pipeline.arrRef spec7 0) (((cfg7.win 0).blk t).view.emb (ix2 q k)) = _
  refine congrArg _ (funext fun a => Fin.ext ?_)
  match a with
  | ⟨0, _⟩ => show win7_0.index t (0 : Fin 2) * 1024 + 1 * q.val = win7_4.index t (1 : Fin 2) * 1024 + 1 * q.val; omega
  | ⟨1, _⟩ => show win7_0.index t (1 : Fin 2) * 8192 + 1 * k.val = k.val; omega

/-- The incoming accumulator window's block at point t is the same stretch of the row as the outgoing ones'. -/
theorem blk3 (c : Dev nD) (t : Fin cfg7.N) (q : Fin 1024) :
    iblk7 V c 3 t (ix2 0 q) = V c (Pipeline.arrRef spec7 3) (((cfg7.win 5).blk t).view.emb (ix2 0 q)) := by
  obtain ⟨e00, e01, e10, e11, e20, e21, e30, e31, e40, e41, e50, e51⟩ := idx_facts t
  show V c (Pipeline.arrRef spec7 3) (((cfg7.win 3).blk t).view.emb (ix2 0 q)) = _
  refine congrArg _ (funext fun a => Fin.ext ?_)
  match a with
  | ⟨0, _⟩ => show win7_3.index t (0 : Fin 2) * 1 + 1 * 0 = win7_5.index t (0 : Fin 2) * 1 + 1 * 0; omega
  | ⟨1, _⟩ => show win7_3.index t (1 : Fin 2) * 1024 + 1 * q.val = win7_5.index t (1 : Fin 2) * 1024 + 1 * q.val; omega

set_option maxHeartbeats 4000000 in
/-- WHAT POINT t WRITES BACK to the product window: block t of the product row. -/
theorem flushed4_eq (c : Dev nD) (t : Fin cfg7.N) :
    (dat7 V c).flushed 4 t = ((cfg7.win 4).blk t).view.read (Elt Ideal)
      (Gv (V c (Pipeline.arrRef spec7 1)) (V c (Pipeline.arrRef spec7 0))) := by
  show (cfg7.win 4).cut (grid7.coords t) ((dat7 V c).after 4 t) = _
  rw [after7_4]
  unfold out7_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk7 V c 1 t) (iblk7 V c 0 t) q).trans ?_
  show mvRow (iblk7 V c 1 t) (iblk7 V c 0 t) q
    = mvRow (V c (Pipeline.arrRef spec7 1)) (V c (Pipeline.arrRef spec7 0)) ((((cfg7.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg7.N) :
    (dat7 V c).flushed 5 t = ((cfg7.win 5).blk t).view.read (Elt Ideal)
      (Gy (V c (Pipeline.arrRef spec7 1)) (V c (Pipeline.arrRef spec7 0)) (V c (Pipeline.arrRef spec7 2)) (V c (Pipeline.arrRef spec7 3))) := by
  show (cfg7.win 5).cut (grid7.coords t) ((dat7 V c).after 5 t) = _
  rw [after7_5]
  unfold out7_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk7 V c 1 t) (iblk7 V c 0 t) (iblk7 V c 2 t) (iblk7 V c 3 t) q).trans ?_
  refine Eq.trans ?_ (Gy_acc (V c (Pipeline.arrRef spec7 1)) (V c (Pipeline.arrRef spec7 0)) (V c (Pipeline.arrRef spec7 2)) (V c (Pipeline.arrRef spec7 3))
    (((cfg7.win 5).blk t).view.emb (ix2 0 q))).symm
  rw [blk3 V c t q, blk2 V c t]
  refine congrArg (accAt _ _) ?_
  unfold mvRow
  refine Finset.sum_congr rfl fun k _ => ?_
  have hX : (((cfg7.win 4).blk t).view.emb (ix2 0 q)) 1 = (((cfg7.win 5).blk t).view.emb (ix2 0 q)) 1 :=
    Fin.ext (by show win7_4.index t (1 : Fin 2) * 1024 + 1 * q.val = win7_5.index t (1 : Fin 2) * 1024 + 1 * q.val; omega)
  rw [blk1 V c t k, blk0 V c t q k, hX]

/-- An index of a [1,8192] output array is in point t's block iff each coordinate is in the block's range. -/
theorem mem_blk4 (t : Fin cfg7.N) (i : S1x8192.Idx) :
    i ∈ ((cfg7.win 4).blk t).view.set ↔ ∀ a : Fin 2, win7_4.index t a * S1x1024.size a ≤ (i a).val ∧ (i a).val < win7_4.index t a * S1x1024.size a + S1x1024.size a := by
  show i ∈ ((View.whole main_call0_v54_0).slice (win7_4.rect t)).set ↔ _
  rw [View.set_slice_whole, Rect.mem_set_unit]
  exact Iff.rfl
theorem mem_blk5 (t : Fin cfg7.N) (i : S1x8192.Idx) :
    i ∈ ((cfg7.win 5).blk t).view.set ↔ ∀ a : Fin 2, win7_5.index t a * S1x1024.size a ≤ (i a).val ∧ (i a).val < win7_5.index t a * S1x1024.size a + S1x1024.size a := by
  show i ∈ ((View.whole main_call0_v54_1).slice (win7_5.rect t)).set ↔ _
  rw [View.set_slice_whole, Rect.mem_set_unit]
  exact Iff.rfl

/-- The eight blocks cover the row: column n is in the block of the point whose block index is n / 1024. -/
theorem cover4 (i : S1x8192.Idx) : ∃ t : Fin cfg7.N, (cfg7.win 4).flush t = true ∧ i ∈ ((cfg7.win 4).blk t).view.set := by
  have hi0 : (i 0).val < 1 := (i 0).isLt
  have hi1 : (i 1).val < 8192 := (i 1).isLt
  obtain ⟨t, ht⟩ := idx_onto ⟨(i 1).val / 1024, by omega⟩
  have q0 : win7_4.index t (0 : Fin 2) = 0 := congrFun ht 0
  have q1 : win7_4.index t (1 : Fin 2) = (i 1).val / 1024 := congrFun ht 1
  refine ⟨t, flush7_4 t, ?_⟩
  rw [mem_blk4]
  intro a
  match a with
  | ⟨0, _⟩ => show win7_4.index t (0 : Fin 2) * 1 ≤ (i 0).val ∧ (i 0).val < win7_4.index t (0 : Fin 2) * 1 + 1; omega
  | ⟨1, _⟩ => show win7_4.index t (1 : Fin 2) * 1024 ≤ (i 1).val ∧ (i 1).val < win7_4.index t (1 : Fin 2) * 1024 + 1024; omega
theorem cover5 (i : S1x8192.Idx) : ∃ t : Fin cfg7.N, (cfg7.win 5).flush t = true ∧ i ∈ ((cfg7.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win7_4.index t (1 : Fin 2) = (i 1).val / 1024 := congrFun ht 1
  refine ⟨t, flush7_5 t, ?_⟩
  rw [mem_blk5]
  intro a
  match a with
  | ⟨0, _⟩ => show win7_5.index t (0 : Fin 2) * 1 ≤ (i 0).val ∧ (i 0).val < win7_5.index t (0 : Fin 2) * 1 + 1; omega
  | ⟨1, _⟩ => show win7_5.index t (1 : Fin 2) * 1024 ≤ (i 1).val ∧ (i 1).val < win7_5.index t (1 : Fin 2) * 1024 + 1024; omega

/-- THE PRODUCT ARRAY after the region. -/
theorem final4 (c : Dev nD) : (dat7 V c).arrAt 4 cfg7.N = Gv (V c (Pipeline.arrRef spec7 1)) (V c (Pipeline.arrRef spec7 0)) :=
  (dat7 V c).arrAt_eq_of_cover 4 _ (fun t _ => flushed4_eq V c t) cover4
/-- THE ACCUMULATOR ARRAY after the region. -/
theorem final5 (c : Dev nD) : (dat7 V c).arrAt 5 cfg7.N
    = Gy (V c (Pipeline.arrRef spec7 1)) (V c (Pipeline.arrRef spec7 0)) (V c (Pipeline.arrRef spec7 2)) (V c (Pipeline.arrRef spec7 3)) :=
  (dat7 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W16 m ρ c (Proc.devRef .tc main_call0_v54_0) = Gv (W15 m ρ c (Proc.devRef .tc main_call0_v50_0)) (W15 m ρ c (Proc.devRef .tc main_call0_v13_0)) :=
  (W16_arr m ρ c 4).trans (final4 (V15 m ρ) c)
/-- The accumulator buffer after the region. -/
theorem exit_y : W16 m ρ c (Proc.devRef .tc main_call0_v54_1)
    = Gy (W15 m ρ c (Proc.devRef .tc main_call0_v50_0)) (W15 m ρ c (Proc.devRef .tc main_call0_v13_0)) (W15 m ρ c (Proc.devRef .tc main_call0_v53)) (W15 m ρ c (Proc.devRef .tc main_call0_v50_1)) :=
  (W16_arr m ρ c 5).trans (final5 (V15 m ρ) c)
/-- The matrix is only read. -/
theorem exit_H : W16 m ρ c (Proc.devRef .tc main_call0_v13_0) = W15 m ρ c (Proc.devRef .tc main_call0_v13_0) :=
  (W16_arr m ρ c 0).trans (((dat7 (V15 m ρ) c).arrAt_in 0 rfl _).trans (A_eq7 (V15 m ρ) c 0))
/-- The incoming row is only read. -/
theorem exit_vin : W16 m ρ c (Proc.devRef .tc main_call0_v50_0) = W15 m ρ c (Proc.devRef .tc main_call0_v50_0) :=
  (W16_arr m ρ c 1).trans (((dat7 (V15 m ρ) c).arrAt_in 1 rfl _).trans (A_eq7 (V15 m ρ) c 1))
/-- A buffer that is none of the region's arrays is as at entry. -/
theorem exit_keep (b : Ref sig .tc) (hb : ∀ w, Pipeline.arrRef spec7 w ≠ b) :
    W16 m ρ c (Proc.devRef .tc b) = W15 m ρ c (Proc.devRef .tc b) := W16_of_ne m ρ c b hb

end Exit

end Cert.KernelIdeal.Region7

end
-- ==== Proof.KLayer1.lean ====
/-
  Layer 1 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region4
import proofs.«144169_j55405078119367_2_alg».proof.Proof.Region5
import proofs.«144169_j55405078119367_2_alg».proof.Proof.Region6
import proofs.«144169_j55405078119367_2_alg».proof.Proof.Region7

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 1 = (0, 1). -/
theorem layer1 (X : FVec Ideal Cert.ReferenceIdeal.S8192x1 .f32) (HnB : (⟨2, ![8192, 8192]⟩ : Shape).Idx → EReal)
    (A : FVec Ideal Cert.ReferenceIdeal.S2x5x5 .f32)
    (A9 : W9 m ρ c (Proc.devRef .tc main_arg2) = A)
    (H9 : (W9 m ρ c (Proc.devRef .tc main_call0_v13_0) : (⟨2, ![8192, 8192]⟩ : Shape).Idx → EReal) = HnB)
    (v9 : toCol (W9 m ρ c (Proc.devRef .tc main_call0_v34)) = X)
    (y9 : toCol (W9 m ρ c (Proc.devRef .tc main_call0_v38)) = (Spec.sc (F := Ideal) (Spec.coef (F := Ideal) ![0, 1, 0] Cert.ReferenceIdeal.Gen.slices_S2x5x5_S1x1x1_0_1_0 A) X))
    (a9 : W9 m ρ c (Proc.devRef .tc main_call0_v41) = as11 (Spec.coef (F := Ideal) ![0, 1, 1] Cert.ReferenceIdeal.Gen.slices_S2x5x5_S1x1x1_0_1_1 A)) :
    W17 m ρ c (Proc.devRef .tc main_arg2) = A
    ∧ (W17 m ρ c (Proc.devRef .tc main_call0_v13_0) : (⟨2, ![8192, 8192]⟩ : Shape).Idx → EReal) = HnB
    ∧ toCol (W17 m ρ c (Proc.devRef .tc main_call0_v63)) = (Spec.layer01 (F := Ideal) A HnB X)
    ∧ toCol (W17 m ρ c (Proc.devRef .tc main_call0_v67)) = Spec.sc (F := Ideal) (Spec.coef (F := Ideal) ![0, 2, 0] Cert.ReferenceIdeal.Gen.slices_S2x5x5_S1x1x1_0_2_0 A) (Spec.layer01 (F := Ideal) A HnB X)
    ∧ W17 m ρ c (Proc.devRef .tc main_call0_v70) = as11 (Spec.coef (F := Ideal) ![0, 2, 1] Cert.ReferenceIdeal.Gen.slices_S2x5x5_S1x1x1_0_2_1 A) := by
  -- region 4: tap 1
  have H10 : (W10 m ρ c (Proc.devRef .tc main_call0_v13_0) : (⟨2, ![8192, 8192]⟩ : Shape).Idx → EReal) = HnB := (Region4.exit_H m ρ c).trans H9
  have A10 : W10 m ρ c (Proc.devRef .tc main_arg2) = A := (Region4.exit_keep m ρ c main_arg2 (by decide)).trans A9
  have v10 : toCol (W10 m ρ c (Proc.devRef .tc main_call0_v42_0)) = (Spec.mv (F := Ideal) HnB X) := by
    rw [Region4.exit_v m ρ c, toCol_Gv, v9]; exact congrArg (fun h => Spec.mv (F := Ideal) h X) H9
  have y10 : toCol (W10 m ρ c (Proc.devRef .tc main_call0_v42_1)) = (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) := by
    rw [Region4.exit_y m ρ c, a9, toCol_Gy, v9, y9]; exact congrArg (fun h => addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) h X))) H9
  -- stretch 5: the next coefficient
  have A11 : W11 m ρ c (Proc.devRef .tc main_arg2) = A := (keep5 (W10 m ρ c) main_arg2 (by decide)).trans A10
  have H11 : (W11 m ρ c (Proc.devRef .tc main_call0_v13_0) : (⟨2, ![8192, 8192]⟩ : Shape).Idx → EReal) = HnB := (keep5 (W10 m ρ c) main_call0_v13_0 (by decide)).trans H10
  have v11 : toCol (W11 m ρ c (Proc.devRef .tc main_call0_v42_0)) = (Spec.mv (F := Ideal) HnB X) := (congrArg toCol (keep5 (W10 m ρ c) main_call0_v42_0 (by decide))).trans v10
  have y11 : toCol (W11 m ρ c (Proc.devRef .tc main_call0_v42_1)) = (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) := (congrArg toCol (keep5 (W10 m ρ c) main_call0_v42_1 (by decide))).trans y10
  have a11 : W11 m ρ c (Proc.devRef .tc main_call0_v45) = as11 (Spec.coef (F := Ideal) ![0, 1, 2] Cert.ReferenceIdeal.Gen.slices_S2x5x5_S1x1x1_0_1_2 A) := (h5_a (W10 m ρ c)).trans (by rw [A10])
  -- region 5: tap 2
  have H12 : (W12 m ρ c (Proc.devRef .tc main_call0_v13_0) : (⟨2, ![8192, 8192]⟩ : Shape).Idx → EReal) = HnB := (Region5.exit_H m ρ c).trans H11
  have A12 : W12 m ρ c (Proc.devRef .tc main_arg2) = A := (Region5.exit_keep m ρ c main_arg2 (by decide)).trans A11
  have v12 : toCol (W12 m ρ c (Proc.devRef .tc main_call0_v46_0)) = (Spec.mv (F := Ideal) HnB (Spec.mv (F := Ideal) HnB X)) := by
    rw [Region5.exit_v m ρ c, toCol_Gv, v11]; exact congrArg (fun h => Spec.mv (F := Ideal) h (Spec.mv (F := Ideal) HnB X)) H11
  have y12 : toCol (W12 m ρ c (Proc.devRef .tc main_call0_v46_1)) = (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) := by
    rw [Region5.exit_y m ρ c, a11, toCol_Gy, v11, y11]; exact congrArg (fun h => addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) h (Spec.mv (F := Ideal) HnB X)))) H11
  -- stretch 6: the next coefficient
  have A13 : W13 m ρ c (Proc.devRef .tc main_arg2) = A := (keep6 (W12 m ρ c) main_arg2 (by decide)).trans A12
  have H13 : (W13 m ρ c (Proc.devRef .tc main_call0_v13_0) : (⟨2, ![8192, 8192]⟩ : Shape).Idx → EReal) = HnB := (keep6 (W12 m ρ c) main_call0_v13_0 (by decide)).trans H12
  have v13 : toCol (W13 m ρ c (Proc.devRef .tc main_call0_v46_0)) = (Spec.mv (F := Ideal) HnB (Spec.mv (F := Ideal) HnB X)) := (congrArg toCol (keep6 (W12 m ρ c) main_call0_v46_0 (by decide))).trans v12
  have y13 : toCol (W13 m ρ c (Proc.devRef .tc main_call0_v46_1)) = (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) := (congrArg toCol (keep6 (W12 m ρ c) main_call0_v46_1 (by decide))).trans y12
  have a13 : W13 m ρ c (Proc.devRef .tc main_call0_v49) = as11 (Spec.coef (F := Ideal) ![0, 1, 3] Cert.ReferenceIdeal.Gen.slices_S2x5x5_S1x1x1_0_1_3 A) := (h6_a (W12 m ρ c)).trans (by rw [A12])
  -- region 6: tap 3
  have H14 : (W14 m ρ c (Proc.devRef .tc main_call0_v13_0) : (⟨2, ![8192, 8192]⟩ : Shape).Idx → EReal) = HnB := (Region6.exit_H m ρ c).trans H13
  have A14 : W14 m ρ c (Proc.devRef .tc main_arg2) = A := (Region6.exit_keep m ρ c main_arg2 (by decide)).trans A13
  have v14 : toCol (W14 m ρ c (Proc.devRef .tc main_call0_v50_0)) = (Spec.mv (F := Ideal) HnB (Spec.mv (F := Ideal) HnB (Spec.mv (F := Ideal) HnB X))) := by
    rw [Region6.exit_v m ρ c, toCol_Gv, v13]; exact congrArg (fun h => Spec.mv (F := Ideal) h (Spec.mv (F := Ideal) HnB (Spec.mv (F := Ideal) HnB X))) H13
  have y14 : toCol (W14 m ρ c (Proc.devRef .tc main_call0_v50_1)) = (addf (F := Ideal) (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) (Spec.sc (F := Ideal) (Spec.coef (F := Ideal) ![0, 1, 3] Cert.ReferenceIdeal.Gen.slices_S2x5x5_S1x1x1_0_1_3 A) (Spec.mv (F := Ideal) HnB (Spec.mv (F := Ideal) HnB (Spec.mv (F := Ideal) HnB X))))) := by
    rw [Region6.exit_y m ρ c, a13, toCol_Gy, v13, y13]; exact congrArg (fun h => addf (F := Ideal) (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) (Spec.sc (F := Ideal) (Spec.coef (F := Ideal) ![0, 1, 3] Cert.ReferenceIdeal.Gen.slices_S2x5x5_S1x1x1_0_1_3 A) (Spec.mv (F := Ideal) h (Spec.mv (F := Ideal) HnB (Spec.mv (F := Ideal) HnB X))))) H13
  -- stretch 7: the next coefficient
  have A15 : W15 m ρ c (Proc.devRef .tc main_arg2) = A := (keep7 (W14 m ρ c) main_arg2 (by decide)).trans A14
  have H15 : (W15 m ρ c (Proc.devRef .tc main_call0_v13_0) : (⟨2, ![8192, 8192]⟩ : Shape).Idx → EReal) = HnB := (keep7 (W14 m ρ c) main_call0_v13_0 (by decide)).trans H14
  have v15 : toCol (W15 m ρ c (Proc.devRef .tc main_call0_v50_0)) = (Spec.mv (F := Ideal) HnB (Spec.mv (F := Ideal) HnB (Spec.mv (F := Ideal) HnB X))) := (congrArg toCol (keep7 (W14 m ρ c) main_call0_v50_0 (by decide))).trans v14
  have y15 : toCol (W15 m ρ c (Proc.devRef .tc main_call0_v50_1)) = (addf (F := Ideal) (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) (Spec.sc (F := Ideal) (Spec.coef (F := Ideal) ![0, 1, 3] Cert.ReferenceIdeal.Gen.slices_S2x5x5_S1x1x1_0_1_3 A) (Spec.mv (F := Ideal) HnB (Spec.mv (F := Ideal) HnB (Spec.mv (F := Ideal) HnB X))))) := (congrArg toCol (keep7 (W14 m ρ c) main_call0_v50_1 (by decide))).trans y14
  have a15 : W15 m ρ c (Proc.devRef .tc main_call0_v53) = as11 (Spec.coef (F := Ideal) ![0, 1, 4] Cert.ReferenceIdeal.Gen.slices_S2x5x5_S1x1x1_0_1_4 A) := (h7_a (W14 m ρ c)).trans (by rw [A14])
  -- region 7: tap 4
  have H16 : (W16 m ρ c (Proc.devRef .tc main_call0_v13_0) : (⟨2, ![8192, 8192]⟩ : Shape).Idx → EReal) = HnB := (Region7.exit_H m ρ c).trans H15
  have A16 : W16 m ρ c (Proc.devRef .tc main_arg2) = A := (Region7.exit_keep m ρ c main_arg2 (by decide)).trans A15
  have v16 : toCol (W16 m ρ c (Proc.devRef .tc main_call0_v54_0)) = (Spec.mv (F := Ideal) HnB (Spec.mv (F := Ideal) HnB (Spec.mv (F := Ideal) HnB (Spec.mv (F := Ideal) HnB X)))) := by
    rw [Region7.exit_v m ρ c, toCol_Gv, v15]; exact congrArg (fun h => Spec.mv (F := Ideal) h (Spec.mv (F := Ideal) HnB (Spec.mv (F := Ideal) HnB (Spec.mv (F := Ideal) HnB X)))) H15
  have y16 : toCol (W16 m ρ c (Proc.devRef .tc main_call0_v54_1)) = (addf (F := Ideal) (addf (F := Ideal) (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) (Spec.sc (F := Ideal) (Spec.coef (F := Ideal) ![0, 1, 3] Cert.ReferenceIdeal.Gen.slices_S2x5x5_S1x1x1_0_1_3 A) (Spec.mv (F := Ideal) HnB (Spec.mv (F := Ideal) HnB (Spec.mv (F := Ideal) HnB X))))) (Spec.sc (F := Ideal) (Spec.coef (F := Ideal) ![0, 1, 4] Cert.ReferenceIdeal.Gen.slices_S2x5x5_S1x1x1_0_1_4 A) (Spec.mv (F := Ideal) HnB (Spec.mv (F := Ideal) HnB (Spec.mv (F := Ideal) HnB (Spec.mv (F := Ideal) HnB X)))))) := by
    rw [Region7.exit_y m ρ c, a15, toCol_Gy, v15, y15]; exact congrArg (fun h => addf (F := Ideal) (addf (F := Ideal) (addf (F := Ideal) (addf (F := Ideal) (Spec.sc (F := Ideal) (Spec.coef (F := Ideal) ![0, 1, 0] Cert.ReferenceIdeal.Gen.slices_S2x5x5_S1x1x1_0_1_0 A) X) (Spec.sc (F := Ideal) (Spec.coef (F := Ideal) ![0, 1, 1] Cert.ReferenceIdeal.Gen.slices_S2x5x5_S1x1x1_0_1_1 A) (Spec.mv (F := Ideal) HnB X))) (Spec.sc (F := Ideal) (Spec.coef (F := Ideal) ![0, 1, 2] Cert.ReferenceIdeal.Gen.slices_S2x5x5_S1x1x1_0_1_2 A) (Spec.mv (F := Ideal) HnB (Spec.mv (F := Ideal) HnB X)))) (Spec.sc (F := Ideal) (Spec.coef (F := Ideal) ![0, 1, 3] Cert.ReferenceIdeal.Gen.slices_S2x5x5_S1x1x1_0_1_3 A) (Spec.mv (F := Ideal) HnB (Spec.mv (F := Ideal) HnB (Spec.mv (F := Ideal) HnB X))))) (Spec.sc (F := Ideal) (Spec.coef (F := Ideal) ![0, 1, 4] Cert.ReferenceIdeal.Gen.slices_S2x5x5_S1x1x1_0_1_4 A) (Spec.mv (F := Ideal) h (Spec.mv (F := Ideal) HnB (Spec.mv (F := Ideal) HnB (Spec.mv (F := Ideal) HnB X)))))) H15
  -- stretch 8: leaky_relu, the two normalisations, the next layer's first tap and second coefficient
  have A17 : W17 m ρ c (Proc.devRef .tc main_arg2) = A := (keep8 (W16 m ρ c) main_arg2 (by decide)).trans A16
  have H17 : (W17 m ρ c (Proc.devRef .tc main_call0_v13_0) : (⟨2, ![8192, 8192]⟩ : Shape).Idx → EReal) = HnB := (keep8 (W16 m ρ c) main_call0_v13_0 (by decide)).trans H16
  have x17 : toCol (W17 m ρ c (Proc.devRef .tc main_call0_v63)) = Spec.layer01 (F := Ideal) A HnB X := (h8_x (W16 m ρ c)).trans (by rw [y16]; rfl)
  have y17 : toCol (W17 m ρ c (Proc.devRef .tc main_call0_v67)) = Spec.sc (F := Ideal) (Spec.coef (F := Ideal) ![0, 2, 0] Cert.ReferenceIdeal.Gen.slices_S2x5x5_S1x1x1_0_2_0 A) (Spec.layer01 (F := Ideal) A HnB X) := (h8_y0 (W16 m ρ c)).trans (by rw [y16, A16]; rfl)
  have a17 : W17 m ρ c (Proc.devRef .tc main_call0_v70) = as11 (Spec.coef (F := Ideal) ![0, 2, 1] Cert.ReferenceIdeal.Gen.slices_S2x5x5_S1x1x1_0_2_1 A) := (h8_a (W16 m ρ c)).trans (by rw [A16])
  exact ⟨A17, H17, x17, y17, a17⟩

end Cert.KernelIdeal.Chain

end
-- ==== Proof.Region8.lean ====
/-
  Region 8 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region8

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg8.N,
      win8_0.index t (0 : Fin 2) = win8_4.index t (1 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = win8_4.index t (1 : Fin 2)
    ∧ win8_4.index t (0 : Fin 2) = 0 ∧ win8_4.index t (1 : Fin 2) ≤ 7
    ∧ win8_5.index t (0 : Fin 2) = 0 ∧ win8_5.index t (1 : Fin 2) = win8_4.index t (1 : Fin 2) :=
  (by decide +kernel : ∀ t : Fin grid8.N, _)

/-- Every one of the eight blocks of the row is some point's. -/
theorem idx_onto : ∀ q : Fin 8, ∃ t : Fin cfg8.N, win8_4.index t = ![0, q.val] :=
  (by decide +kernel : ∀ q : Fin 8, ∃ t : Fin grid8.N, win8_4.index t = ![0, q.val])

/-- The row window's block is the whole row at every point. -/
theorem blk1 (c : Dev nD) (t : Fin cfg8.N) (k : Fin 8192) : iblk8 V c 1 t (ix2 0 k) = V c (Pipeline.arrRef spec8 1) (ix2 0 k) := by
  obtain ⟨e00, e01, e10, e11, e20, e21, e30, e31, e40, e41, e50, e51⟩ := idx_facts t
  show V c (Pipeline.arrRef spec8 1) (((cfg8.win 1).blk t).view.emb (ix2 0 k)) = V c (Pipeline.arrRef spec8 1) (ix2 0 k)
  refine congrArg _ (funext fun a => Fin.ext ?_)
  match a with
  | ⟨0, _⟩ => show win8_1.index t (0 : Fin 2) * 1 + 1 * 0 = 0; omega
  | ⟨1, _⟩ => show win8_1.index t (1 : Fin 2) * 8192 + 1 * k.val = k.val; omega

/-- The coefficient window's block is the one entry. -/
theorem blk2 (c : Dev nD) (t : Fin cfg8.N) : iblk8 V c 2 t (ix2 0 0) = V c (Pipeline.arrRef spec8 2) (ix2 0 0) := by
  obtain ⟨e00, e01, e10, e11, e20, e21, e30, e31, e40, e41, e50, e51⟩ := idx_facts t
  show V c (Pipeline.arrRef spec8 2) (((cfg8.win 2).blk t).view.emb (ix2 0 0)) = V c (Pipeline.arrRef spec8 2) (ix2 0 0)
  refine congrArg _ (funext fun a => Fin.ext ?_)
  match a with
  | ⟨0, _⟩ => show win8_2.index t (0 : Fin 2) * 1 + 1 * 0 = 0; omega
  | ⟨1, _⟩ => show win8_2.index t (1 : Fin 2) * 1 + 1 * 0 = 0; omega

/-- The matrix window's block at point t is rows 1024·t … of the matrix: its row q is row (block's column position) of the array. -/
theorem blk0 (c : Dev nD) (t : Fin cfg8.N) (q : Fin 1024) (k : Fin 8192) :
    iblk8 V c 0 t (ix2 q k) = V c (Pipeline.arrRef spec8 0) (ix2 ((((cfg8.win 4).blk t).view.emb (ix2 0 q)) 1) k) := by
  obtain ⟨e00, e01, e10, e11, e20, e21, e30, e31, e40, e41, e50, e51⟩ := idx_facts t
  show V c (Pipeline.arrRef spec8 0) (((cfg8.win 0).blk t).view.emb (ix2 q k)) = _
  refine congrArg _ (funext fun a => Fin.ext ?_)
  match a with
  | ⟨0, _⟩ => show win8_0.index t (0 : Fin 2) * 1024 + 1 * q.val = win8_4.index t (1 : Fin 2) * 1024 + 1 * q.val; omega
  | ⟨1, _⟩ => show win8_0.index t (1 : Fin 2) * 8192 + 1 * k.val = k.val; omega

/-- The incoming accumulator window's block at point t is the same stretch of the row as the outgoing ones'. -/
theorem blk3 (c : Dev nD) (t : Fin cfg8.N) (q : Fin 1024) :
    iblk8 V c 3 t (ix2 0 q) = V c (Pipeline.arrRef spec8 3) (((cfg8.win 5).blk t).view.emb (ix2 0 q)) := by
  obtain ⟨e00, e01, e10, e11, e20, e21, e30, e31, e40, e41, e50, e51⟩ := idx_facts t
  show V c (Pipeline.arrRef spec8 3) (((cfg8.win 3).blk t).view.emb (ix2 0 q)) = _
  refine congrArg _ (funext fun a => Fin.ext ?_)
  match a with
  | ⟨0, _⟩ => show win8_3.index t (0 : Fin 2) * 1 + 1 * 0 = win8_5.index t (0 : Fin 2) * 1 + 1 * 0; omega
  | ⟨1, _⟩ => show win8_3.index t (1 : Fin 2) * 1024 + 1 * q.val = win8_5.index t (1 : Fin 2) * 1024 + 1 * q.val; omega

set_option maxHeartbeats 4000000 in
/-- WHAT POINT t WRITES BACK to the product window: block t of the product row. -/
theorem flushed4_eq (c : Dev nD) (t : Fin cfg8.N) :
    (dat8 V c).flushed 4 t = ((cfg8.win 4).blk t).view.read (Elt Ideal)
      (Gv (V c (Pipeline.arrRef spec8 1)) (V c (Pipeline.arrRef spec8 0))) := by
  show (cfg8.win 4).cut (grid8.coords t) ((dat8 V c).after 4 t) = _
  rw [after8_4]
  unfold out8_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk8 V c 1 t) (iblk8 V c 0 t) q).trans ?_
  show mvRow (iblk8 V c 1 t) (iblk8 V c 0 t) q
    = mvRow (V c (Pipeline.arrRef spec8 1)) (V c (Pipeline.arrRef spec8 0)) ((((cfg8.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg8.N) :
    (dat8 V c).flushed 5 t = ((cfg8.win 5).blk t).view.read (Elt Ideal)
      (Gy (V c (Pipeline.arrRef spec8 1)) (V c (Pipeline.arrRef spec8 0)) (V c (Pipeline.arrRef spec8 2)) (V c (Pipeline.arrRef spec8 3))) := by
  show (cfg8.win 5).cut (grid8.coords t) ((dat8 V c).after 5 t) = _
  rw [after8_5]
  unfold out8_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk8 V c 1 t) (iblk8 V c 0 t) (iblk8 V c 2 t) (iblk8 V c 3 t) q).trans ?_
  refine Eq.trans ?_ (Gy_acc (V c (Pipeline.arrRef spec8 1)) (V c (Pipeline.arrRef spec8 0)) (V c (Pipeline.arrRef spec8 2)) (V c (Pipeline.arrRef spec8 3))
    (((cfg8.win 5).blk t).view.emb (ix2 0 q))).symm
  rw [blk3 V c t q, blk2 V c t]
  refine congrArg (accAt _ _) ?_
  unfold mvRow
  refine Finset.sum_congr rfl fun k _ => ?_
  have hX : (((cfg8.win 4).blk t).view.emb (ix2 0 q)) 1 = (((cfg8.win 5).blk t).view.emb (ix2 0 q)) 1 :=
    Fin.ext (by show win8_4.index t (1 : Fin 2) * 1024 + 1 * q.val = win8_5.index t (1 : Fin 2) * 1024 + 1 * q.val; omega)
  rw [blk1 V c t k, blk0 V c t q k, hX]

/-- An index of a [1,8192] output array is in point t's block iff each coordinate is in the block's range. -/
theorem mem_blk4 (t : Fin cfg8.N) (i : S1x8192.Idx) :
    i ∈ ((cfg8.win 4).blk t).view.set ↔ ∀ a : Fin 2, win8_4.index t a * S1x1024.size a ≤ (i a).val ∧ (i a).val < win8_4.index t a * S1x1024.size a + S1x1024.size a := by
  show i ∈ ((View.whole main_call0_v71_0).slice (win8_4.rect t)).set ↔ _
  rw [View.set_slice_whole, Rect.mem_set_unit]
  exact Iff.rfl
theorem mem_blk5 (t : Fin cfg8.N) (i : S1x8192.Idx) :
    i ∈ ((cfg8.win 5).blk t).view.set ↔ ∀ a : Fin 2, win8_5.index t a * S1x1024.size a ≤ (i a).val ∧ (i a).val < win8_5.index t a * S1x1024.size a + S1x1024.size a := by
  show i ∈ ((View.whole main_call0_v71_1).slice (win8_5.rect t)).set ↔ _
  rw [View.set_slice_whole, Rect.mem_set_unit]
  exact Iff.rfl

/-- The eight blocks cover the row: column n is in the block of the point whose block index is n / 1024. -/
theorem cover4 (i : S1x8192.Idx) : ∃ t : Fin cfg8.N, (cfg8.win 4).flush t = true ∧ i ∈ ((cfg8.win 4).blk t).view.set := by
  have hi0 : (i 0).val < 1 := (i 0).isLt
  have hi1 : (i 1).val < 8192 := (i 1).isLt
  obtain ⟨t, ht⟩ := idx_onto ⟨(i 1).val / 1024, by omega⟩
  have q0 : win8_4.index t (0 : Fin 2) = 0 := congrFun ht 0
  have q1 : win8_4.index t (1 : Fin 2) = (i 1).val / 1024 := congrFun ht 1
  refine ⟨t, flush8_4 t, ?_⟩
  rw [mem_blk4]
  intro a
  match a with
  | ⟨0, _⟩ => show win8_4.index t (0 : Fin 2) * 1 ≤ (i 0).val ∧ (i 0).val < win8_4.index t (0 : Fin 2) * 1 + 1; omega
  | ⟨1, _⟩ => show win8_4.index t (1 : Fin 2) * 1024 ≤ (i 1).val ∧ (i 1).val < win8_4.index t (1 : Fin 2) * 1024 + 1024; omega
theorem cover5 (i : S1x8192.Idx) : ∃ t : Fin cfg8.N, (cfg8.win 5).flush t = true ∧ i ∈ ((cfg8.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win8_4.index t (1 : Fin 2) = (i 1).val / 1024 := congrFun ht 1
  refine ⟨t, flush8_5 t, ?_⟩
  rw [mem_blk5]
  intro a
  match a with
  | ⟨0, _⟩ => show win8_5.index t (0 : Fin 2) * 1 ≤ (i 0).val ∧ (i 0).val < win8_5.index t (0 : Fin 2) * 1 + 1; omega
  | ⟨1, _⟩ => show win8_5.index t (1 : Fin 2) * 1024 ≤ (i 1).val ∧ (i 1).val < win8_5.index t (1 : Fin 2) * 1024 + 1024; omega

/-- THE PRODUCT ARRAY after the region. -/
theorem final4 (c : Dev nD) : (dat8 V c).arrAt 4 cfg8.N = Gv (V c (Pipeline.arrRef spec8 1)) (V c (Pipeline.arrRef spec8 0)) :=
  (dat8 V c).arrAt_eq_of_cover 4 _ (fun t _ => flushed4_eq V c t) cover4
/-- THE ACCUMULATOR ARRAY after the region. -/
theorem final5 (c : Dev nD) : (dat8 V c).arrAt 5 cfg8.N
    = Gy (V c (Pipeline.arrRef spec8 1)) (V c (Pipeline.arrRef spec8 0)) (V c (Pipeline.arrRef spec8 2)) (V c (Pipeline.arrRef spec8 3)) :=
  (dat8 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W18 m ρ c (Proc.devRef .tc main_call0_v71_0) = Gv (W17 m ρ c (Proc.devRef .tc main_call0_v63)) (W17 m ρ c (Proc.devRef .tc main_call0_v13_0)) :=
  (W18_arr m ρ c 4).trans (final4 (V17 m ρ) c)
/-- The accumulator buffer after the region. -/
theorem exit_y : W18 m ρ c (Proc.devRef .tc main_call0_v71_1)
    = Gy (W17 m ρ c (Proc.devRef .tc main_call0_v63)) (W17 m ρ c (Proc.devRef .tc main_call0_v13_0)) (W17 m ρ c (Proc.devRef .tc main_call0_v70)) (W17 m ρ c (Proc.devRef .tc main_call0_v67)) :=
  (W18_arr m ρ c 5).trans (final5 (V17 m ρ) c)
/-- The matrix is only read. -/
theorem exit_H : W18 m ρ c (Proc.devRef .tc main_call0_v13_0) = W17 m ρ c (Proc.devRef .tc main_call0_v13_0) :=
  (W18_arr m ρ c 0).trans (((dat8 (V17 m ρ) c).arrAt_in 0 rfl _).trans (A_eq8 (V17 m ρ) c 0))
/-- The incoming row is only read. -/
theorem exit_vin : W18 m ρ c (Proc.devRef .tc main_call0_v63) = W17 m ρ c (Proc.devRef .tc main_call0_v63) :=
  (W18_arr m ρ c 1).trans (((dat8 (V17 m ρ) c).arrAt_in 1 rfl _).trans (A_eq8 (V17 m ρ) c 1))
/-- A buffer that is none of the region's arrays is as at entry. -/
theorem exit_keep (b : Ref sig .tc) (hb : ∀ w, Pipeline.arrRef spec8 w ≠ b) :
    W18 m ρ c (Proc.devRef .tc b) = W17 m ρ c (Proc.devRef .tc b) := W18_of_ne m ρ c b hb

end Exit

end Cert.KernelIdeal.Region8

end
-- ==== Proof.Region9.lean ====
/-
  Region 9 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region9

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg9.N,
      win9_0.index t (0 : Fin 2) = win9_4.index t (1 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = win9_4.index t (1 : Fin 2)
    ∧ win9_4.index t (0 : Fin 2) = 0 ∧ win9_4.index t (1 : Fin 2) ≤ 7
    ∧ win9_5.index t (0 : Fin 2) = 0 ∧ win9_5.index t (1 : Fin 2) = win9_4.index t (1 : Fin 2) :=
  (by decide +kernel : ∀ t : Fin grid9.N, _)

/-- Every one of the eight blocks of the row is some point's. -/
theorem idx_onto : ∀ q : Fin 8, ∃ t : Fin cfg9.N, win9_4.index t = ![0, q.val] :=
  (by decide +kernel : ∀ q : Fin 8, ∃ t : Fin grid9.N, win9_4.index t = ![0, q.val])

/-- The row window's block is the whole row at every point. -/
theorem blk1 (c : Dev nD) (t : Fin cfg9.N) (k : Fin 8192) : iblk9 V c 1 t (ix2 0 k) = V c (Pipeline.arrRef spec9 1) (ix2 0 k) := by
  obtain ⟨e00, e01, e10, e11, e20, e21, e30, e31, e40, e41, e50, e51⟩ := idx_facts t
  show V c (Pipeline.arrRef spec9 1) (((cfg9.win 1).blk t).view.emb (ix2 0 k)) = V c (Pipeline.arrRef spec9 1) (ix2 0 k)
  refine congrArg _ (funext fun a => Fin.ext ?_)
  match a with
  | ⟨0, _⟩ => show win9_1.index t (0 : Fin 2) * 1 + 1 * 0 = 0; omega
  | ⟨1, _⟩ => show win9_1.index t (1 : Fin 2) * 8192 + 1 * k.val = k.val; omega

/-- The coefficient window's block is the one entry. -/
theorem blk2 (c : Dev nD) (t : Fin cfg9.N) : iblk9 V c 2 t (ix2 0 0) = V c (Pipeline.arrRef spec9 2) (ix2 0 0) := by
  obtain ⟨e00, e01, e10, e11, e20, e21, e30, e31, e40, e41, e50, e51⟩ := idx_facts t
  show V c (Pipeline.arrRef spec9 2) (((cfg9.win 2).blk t).view.emb (ix2 0 0)) = V c (Pipeline.arrRef spec9 2) (ix2 0 0)
  refine congrArg _ (funext fun a => Fin.ext ?_)
  match a with
  | ⟨0, _⟩ => show win9_2.index t (0 : Fin 2) * 1 + 1 * 0 = 0; omega
  | ⟨1, _⟩ => show win9_2.index t (1 : Fin 2) * 1 + 1 * 0 = 0; omega

/-- The matrix window's block at point t is rows 1024·t … of the matrix: its row q is row (block's column position) of the array. -/
theorem blk0 (c : Dev nD) (t : Fin cfg9.N) (q : Fin 1024) (k : Fin 8192) :
    iblk9 V c 0 t (ix2 q k) = V c (Pipeline.arrRef spec9 0) (ix2 ((((cfg9.win 4).blk t).view.emb (ix2 0 q)) 1) k) := by
  obtain ⟨e00, e01, e10, e11, e20, e21, e30, e31, e40, e41, e50, e51⟩ := idx_facts t
  show V c (Pipeline.arrRef spec9 0) (((cfg9.win 0).blk t).view.emb (ix2 q k)) = _
  refine congrArg _ (funext fun a => Fin.ext ?_)
  match a with
  | ⟨0, _⟩ => show win9_0.index t (0 : Fin 2) * 1024 + 1 * q.val = win9_4.index t (1 : Fin 2) * 1024 + 1 * q.val; omega
  | ⟨1, _⟩ => show win9_0.index t (1 : Fin 2) * 8192 + 1 * k.val = k.val; omega

/-- The incoming accumulator window's block at point t is the same stretch of the row as the outgoing ones'. -/
theorem blk3 (c : Dev nD) (t : Fin cfg9.N) (q : Fin 1024) :
    iblk9 V c 3 t (ix2 0 q) = V c (Pipeline.arrRef spec9 3) (((cfg9.win 5).blk t).view.emb (ix2 0 q)) := by
  obtain ⟨e00, e01, e10, e11, e20, e21, e30, e31, e40, e41, e50, e51⟩ := idx_facts t
  show V c (Pipeline.arrRef spec9 3) (((cfg9.win 3).blk t).view.emb (ix2 0 q)) = _
  refine congrArg _ (funext fun a => Fin.ext ?_)
  match a with
  | ⟨0, _⟩ => show win9_3.index t (0 : Fin 2) * 1 + 1 * 0 = win9_5.index t (0 : Fin 2) * 1 + 1 * 0; omega
  | ⟨1, _⟩ => show win9_3.index t (1 : Fin 2) * 1024 + 1 * q.val = win9_5.index t (1 : Fin 2) * 1024 + 1 * q.val; omega

set_option maxHeartbeats 4000000 in
/-- WHAT POINT t WRITES BACK to the product window: block t of the product row. -/
theorem flushed4_eq (c : Dev nD) (t : Fin cfg9.N) :
    (dat9 V c).flushed 4 t = ((cfg9.win 4).blk t).view.read (Elt Ideal)
      (Gv (V c (Pipeline.arrRef spec9 1)) (V c (Pipeline.arrRef spec9 0))) := by
  show (cfg9.win 4).cut (grid9.coords t) ((dat9 V c).after 4 t) = _
  rw [after9_4]
  unfold out9_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk9 V c 1 t) (iblk9 V c 0 t) q).trans ?_
  show mvRow (iblk9 V c 1 t) (iblk9 V c 0 t) q
    = mvRow (V c (Pipeline.arrRef spec9 1)) (V c (Pipeline.arrRef spec9 0)) ((((cfg9.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg9.N) :
    (dat9 V c).flushed 5 t = ((cfg9.win 5).blk t).view.read (Elt Ideal)
      (Gy (V c (Pipeline.arrRef spec9 1)) (V c (Pipeline.arrRef spec9 0)) (V c (Pipeline.arrRef spec9 2)) (V c (Pipeline.arrRef spec9 3))) := by
  show (cfg9.win 5).cut (grid9.coords t) ((dat9 V c).after 5 t) = _
  rw [after9_5]
  unfold out9_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk9 V c 1 t) (iblk9 V c 0 t) (iblk9 V c 2 t) (iblk9 V c 3 t) q).trans ?_
  refine Eq.trans ?_ (Gy_acc (V c (Pipeline.arrRef spec9 1)) (V c (Pipeline.arrRef spec9 0)) (V c (Pipeline.arrRef spec9 2)) (V c (Pipeline.arrRef spec9 3))
    (((cfg9.win 5).blk t).view.emb (ix2 0 q))).symm
  rw [blk3 V c t q, blk2 V c t]
  refine congrArg (accAt _ _) ?_
  unfold mvRow
  refine Finset.sum_congr rfl fun k _ => ?_
  have hX : (((cfg9.win 4).blk t).view.emb (ix2 0 q)) 1 = (((cfg9.win 5).blk t).view.emb (ix2 0 q)) 1 :=
    Fin.ext (by show win9_4.index t (1 : Fin 2) * 1024 + 1 * q.val = win9_5.index t (1 : Fin 2) * 1024 + 1 * q.val; omega)
  rw [blk1 V c t k, blk0 V c t q k, hX]

/-- An index of a [1,8192] output array is in point t's block iff each coordinate is in the block's range. -/
theorem mem_blk4 (t : Fin cfg9.N) (i : S1x8192.Idx) :
    i ∈ ((cfg9.win 4).blk t).view.set ↔ ∀ a : Fin 2, win9_4.index t a * S1x1024.size a ≤ (i a).val ∧ (i a).val < win9_4.index t a * S1x1024.size a + S1x1024.size a := by
  show i ∈ ((View.whole main_call0_v75_0).slice (win9_4.rect t)).set ↔ _
  rw [View.set_slice_whole, Rect.mem_set_unit]
  exact Iff.rfl
theorem mem_blk5 (t : Fin cfg9.N) (i : S1x8192.Idx) :
    i ∈ ((cfg9.win 5).blk t).view.set ↔ ∀ a : Fin 2, win9_5.index t a * S1x1024.size a ≤ (i a).val ∧ (i a).val < win9_5.index t a * S1x1024.size a + S1x1024.size a := by
  show i ∈ ((View.whole main_call0_v75_1).slice (win9_5.rect t)).set ↔ _
  rw [View.set_slice_whole, Rect.mem_set_unit]
  exact Iff.rfl

/-- The eight blocks cover the row: column n is in the block of the point whose block index is n / 1024. -/
theorem cover4 (i : S1x8192.Idx) : ∃ t : Fin cfg9.N, (cfg9.win 4).flush t = true ∧ i ∈ ((cfg9.win 4).blk t).view.set := by
  have hi0 : (i 0).val < 1 := (i 0).isLt
  have hi1 : (i 1).val < 8192 := (i 1).isLt
  obtain ⟨t, ht⟩ := idx_onto ⟨(i 1).val / 1024, by omega⟩
  have q0 : win9_4.index t (0 : Fin 2) = 0 := congrFun ht 0
  have q1 : win9_4.index t (1 : Fin 2) = (i 1).val / 1024 := congrFun ht 1
  refine ⟨t, flush9_4 t, ?_⟩
  rw [mem_blk4]
  intro a
  match a with
  | ⟨0, _⟩ => show win9_4.index t (0 : Fin 2) * 1 ≤ (i 0).val ∧ (i 0).val < win9_4.index t (0 : Fin 2) * 1 + 1; omega
  | ⟨1, _⟩ => show win9_4.index t (1 : Fin 2) * 1024 ≤ (i 1).val ∧ (i 1).val < win9_4.index t (1 : Fin 2) * 1024 + 1024; omega
theorem cover5 (i : S1x8192.Idx) : ∃ t : Fin cfg9.N, (cfg9.win 5).flush t = true ∧ i ∈ ((cfg9.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win9_4.index t (1 : Fin 2) = (i 1).val / 1024 := congrFun ht 1
  refine ⟨t, flush9_5 t, ?_⟩
  rw [mem_blk5]
  intro a
  match a with
  | ⟨0, _⟩ => show win9_5.index t (0 : Fin 2) * 1 ≤ (i 0).val ∧ (i 0).val < win9_5.index t (0 : Fin 2) * 1 + 1; omega
  | ⟨1, _⟩ => show win9_5.index t (1 : Fin 2) * 1024 ≤ (i 1).val ∧ (i 1).val < win9_5.index t (1 : Fin 2) * 1024 + 1024; omega

/-- THE PRODUCT ARRAY after the region. -/
theorem final4 (c : Dev nD) : (dat9 V c).arrAt 4 cfg9.N = Gv (V c (Pipeline.arrRef spec9 1)) (V c (Pipeline.arrRef spec9 0)) :=
  (dat9 V c).arrAt_eq_of_cover 4 _ (fun t _ => flushed4_eq V c t) cover4
/-- THE ACCUMULATOR ARRAY after the region. -/
theorem final5 (c : Dev nD) : (dat9 V c).arrAt 5 cfg9.N
    = Gy (V c (Pipeline.arrRef spec9 1)) (V c (Pipeline.arrRef spec9 0)) (V c (Pipeline.arrRef spec9 2)) (V c (Pipeline.arrRef spec9 3)) :=
  (dat9 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W20 m ρ c (Proc.devRef .tc main_call0_v75_0) = Gv (W19 m ρ c (Proc.devRef .tc main_call0_v71_0)) (W19 m ρ c (Proc.devRef .tc main_call0_v13_0)) :=
  (W20_arr m ρ c 4).trans (final4 (V19 m ρ) c)
/-- The accumulator buffer after the region. -/
theorem exit_y : W20 m ρ c (Proc.devRef .tc main_call0_v75_1)
    = Gy (W19 m ρ c (Proc.devRef .tc main_call0_v71_0)) (W19 m ρ c (Proc.devRef .tc main_call0_v13_0)) (W19 m ρ c (Proc.devRef .tc main_call0_v74)) (W19 m ρ c (Proc.devRef .tc main_call0_v71_1)) :=
  (W20_arr m ρ c 5).trans (final5 (V19 m ρ) c)
/-- The matrix is only read. -/
theorem exit_H : W20 m ρ c (Proc.devRef .tc main_call0_v13_0) = W19 m ρ c (Proc.devRef .tc main_call0_v13_0) :=
  (W20_arr m ρ c 0).trans (((dat9 (V19 m ρ) c).arrAt_in 0 rfl _).trans (A_eq9 (V19 m ρ) c 0))
/-- The incoming row is only read. -/
theorem exit_vin : W20 m ρ c (Proc.devRef .tc main_call0_v71_0) = W19 m ρ c (Proc.devRef .tc main_call0_v71_0) :=
  (W20_arr m ρ c 1).trans (((dat9 (V19 m ρ) c).arrAt_in 1 rfl _).trans (A_eq9 (V19 m ρ) c 1))
/-- A buffer that is none of the region's arrays is as at entry. -/
theorem exit_keep (b : Ref sig .tc) (hb : ∀ w, Pipeline.arrRef spec9 w ≠ b) :
    W20 m ρ c (Proc.devRef .tc b) = W19 m ρ c (Proc.devRef .tc b) := W20_of_ne m ρ c b hb

end Exit

end Cert.KernelIdeal.Region9

end
-- ==== Proof.Region10.lean ====
/-
  Region 10 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region10

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg10.N,
      win10_0.index t (0 : Fin 2) = win10_4.index t (1 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = win10_4.index t (1 : Fin 2)
    ∧ win10_4.index t (0 : Fin 2) = 0 ∧ win10_4.index t (1 : Fin 2) ≤ 7
    ∧ win10_5.index t (0 : Fin 2) = 0 ∧ win10_5.index t (1 : Fin 2) = win10_4.index t (1 : Fin 2) :=
  (by decide +kernel : ∀ t : Fin grid10.N, _)

/-- Every one of the eight blocks of the row is some point's. -/
theorem idx_onto : ∀ q : Fin 8, ∃ t : Fin cfg10.N, win10_4.index t = ![0, q.val] :=
  (by decide +kernel : ∀ q : Fin 8, ∃ t : Fin grid10.N, win10_4.index t = ![0, q.val])

/-- The row window's block is the whole row at every point. -/
theorem blk1 (c : Dev nD) (t : Fin cfg10.N) (k : Fin 8192) : iblk10 V c 1 t (ix2 0 k) = V c (Pipeline.arrRef spec10 1) (ix2 0 k) := by
  obtain ⟨e00, e01, e10, e11, e20, e21, e30, e31, e40, e41, e50, e51⟩ := idx_facts t
  show V c (Pipeline.arrRef spec10 1) (((cfg10.win 1).blk t).view.emb (ix2 0 k)) = V c (Pipeline.arrRef spec10 1) (ix2 0 k)
  refine congrArg _ (funext fun a => Fin.ext ?_)
  match a with
  | ⟨0, _⟩ => show win10_1.index t (0 : Fin 2) * 1 + 1 * 0 = 0; omega
  | ⟨1, _⟩ => show win10_1.index t (1 : Fin 2) * 8192 + 1 * k.val = k.val; omega

/-- The coefficient window's block is the one entry. -/
theorem blk2 (c : Dev nD) (t : Fin cfg10.N) : iblk10 V c 2 t (ix2 0 0) = V c (Pipeline.arrRef spec10 2) (ix2 0 0) := by
  obtain ⟨e00, e01, e10, e11, e20, e21, e30, e31, e40, e41, e50, e51⟩ := idx_facts t
  show V c (Pipeline.arrRef spec10 2) (((cfg10.win 2).blk t).view.emb (ix2 0 0)) = V c (Pipeline.arrRef spec10 2) (ix2 0 0)
  refine congrArg _ (funext fun a => Fin.ext ?_)
  match a with
  | ⟨0, _⟩ => show win10_2.index t (0 : Fin 2) * 1 + 1 * 0 = 0; omega
  | ⟨1, _⟩ => show win10_2.index t (1 : Fin 2) * 1 + 1 * 0 = 0; omega

/-- The matrix window's block at point t is rows 1024·t … of the matrix: its row q is row (block's column position) of the array. -/
theorem blk0 (c : Dev nD) (t : Fin cfg10.N) (q : Fin 1024) (k : Fin 8192) :
    iblk10 V c 0 t (ix2 q k) = V c (Pipeline.arrRef spec10 0) (ix2 ((((cfg10.win 4).blk t).view.emb (ix2 0 q)) 1) k) := by
  obtain ⟨e00, e01, e10, e11, e20, e21, e30, e31, e40, e41, e50, e51⟩ := idx_facts t
  show V c (Pipeline.arrRef spec10 0) (((cfg10.win 0).blk t).view.emb (ix2 q k)) = _
  refine congrArg _ (funext fun a => Fin.ext ?_)
  match a with
  | ⟨0, _⟩ => show win10_0.index t (0 : Fin 2) * 1024 + 1 * q.val = win10_4.index t (1 : Fin 2) * 1024 + 1 * q.val; omega
  | ⟨1, _⟩ => show win10_0.index t (1 : Fin 2) * 8192 + 1 * k.val = k.val; omega

/-- The incoming accumulator window's block at point t is the same stretch of the row as the outgoing ones'. -/
theorem blk3 (c : Dev nD) (t : Fin cfg10.N) (q : Fin 1024) :
    iblk10 V c 3 t (ix2 0 q) = V c (Pipeline.arrRef spec10 3) (((cfg10.win 5).blk t).view.emb (ix2 0 q)) := by
  obtain ⟨e00, e01, e10, e11, e20, e21, e30, e31, e40, e41, e50, e51⟩ := idx_facts t
  show V c (Pipeline.arrRef spec10 3) (((cfg10.win 3).blk t).view.emb (ix2 0 q)) = _
  refine congrArg _ (funext fun a => Fin.ext ?_)
  match a with
  | ⟨0, _⟩ => show win10_3.index t (0 : Fin 2) * 1 + 1 * 0 = win10_5.index t (0 : Fin 2) * 1 + 1 * 0; omega
  | ⟨1, _⟩ => show win10_3.index t (1 : Fin 2) * 1024 + 1 * q.val = win10_5.index t (1 : Fin 2) * 1024 + 1 * q.val; omega

set_option maxHeartbeats 4000000 in
/-- WHAT POINT t WRITES BACK to the product window: block t of the product row. -/
theorem flushed4_eq (c : Dev nD) (t : Fin cfg10.N) :
    (dat10 V c).flushed 4 t = ((cfg10.win 4).blk t).view.read (Elt Ideal)
      (Gv (V c (Pipeline.arrRef spec10 1)) (V c (Pipeline.arrRef spec10 0))) := by
  show (cfg10.win 4).cut (grid10.coords t) ((dat10 V c).after 4 t) = _
  rw [after10_4]
  unfold out10_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk10 V c 1 t) (iblk10 V c 0 t) q).trans ?_
  show mvRow (iblk10 V c 1 t) (iblk10 V c 0 t) q
    = mvRow (V c (Pipeline.arrRef spec10 1)) (V c (Pipeline.arrRef spec10 0)) ((((cfg10.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg10.N) :
    (dat10 V c).flushed 5 t = ((cfg10.win 5).blk t).view.read (Elt Ideal)
      (Gy (V c (Pipeline.arrRef spec10 1)) (V c (Pipeline.arrRef spec10 0)) (V c (Pipeline.arrRef spec10 2)) (V c (Pipeline.arrRef spec10 3))) := by
  show (cfg10.win 5).cut (grid10.coords t) ((dat10 V c).after 5 t) = _
  rw [after10_5]
  unfold out10_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk10 V c 1 t) (iblk10 V c 0 t) (iblk10 V c 2 t) (iblk10 V c 3 t) q).trans ?_
  refine Eq.trans ?_ (Gy_acc (V c (Pipeline.arrRef spec10 1)) (V c (Pipeline.arrRef spec10 0)) (V c (Pipeline.arrRef spec10 2)) (V c (Pipeline.arrRef spec10 3))
    (((cfg10.win 5).blk t).view.emb (ix2 0 q))).symm
  rw [blk3 V c t q, blk2 V c t]
  refine congrArg (accAt _ _) ?_
  unfold mvRow
  refine Finset.sum_congr rfl fun k _ => ?_
  have hX : (((cfg10.win 4).blk t).view.emb (ix2 0 q)) 1 = (((cfg10.win 5).blk t).view.emb (ix2 0 q)) 1 :=
    Fin.ext (by show win10_4.index t (1 : Fin 2) * 1024 + 1 * q.val = win10_5.index t (1 : Fin 2) * 1024 + 1 * q.val; omega)
  rw [blk1 V c t k, blk0 V c t q k, hX]

/-- An index of a [1,8192] output array is in point t's block iff each coordinate is in the block's range. -/
theorem mem_blk4 (t : Fin cfg10.N) (i : S1x8192.Idx) :
    i ∈ ((cfg10.win 4).blk t).view.set ↔ ∀ a : Fin 2, win10_4.index t a * S1x1024.size a ≤ (i a).val ∧ (i a).val < win10_4.index t a * S1x1024.size a + S1x1024.size a := by
  show i ∈ ((View.whole main_call0_v79_0).slice (win10_4.rect t)).set ↔ _
  rw [View.set_slice_whole, Rect.mem_set_unit]
  exact Iff.rfl
theorem mem_blk5 (t : Fin cfg10.N) (i : S1x8192.Idx) :
    i ∈ ((cfg10.win 5).blk t).view.set ↔ ∀ a : Fin 2, win10_5.index t a * S1x1024.size a ≤ (i a).val ∧ (i a).val < win10_5.index t a * S1x1024.size a + S1x1024.size a := by
  show i ∈ ((View.whole main_call0_v79_1).slice (win10_5.rect t)).set ↔ _
  rw [View.set_slice_whole, Rect.mem_set_unit]
  exact Iff.rfl

/-- The eight blocks cover the row: column n is in the block of the point whose block index is n / 1024. -/
theorem cover4 (i : S1x8192.Idx) : ∃ t : Fin cfg10.N, (cfg10.win 4).flush t = true ∧ i ∈ ((cfg10.win 4).blk t).view.set := by
  have hi0 : (i 0).val < 1 := (i 0).isLt
  have hi1 : (i 1).val < 8192 := (i 1).isLt
  obtain ⟨t, ht⟩ := idx_onto ⟨(i 1).val / 1024, by omega⟩
  have q0 : win10_4.index t (0 : Fin 2) = 0 := congrFun ht 0
  have q1 : win10_4.index t (1 : Fin 2) = (i 1).val / 1024 := congrFun ht 1
  refine ⟨t, flush10_4 t, ?_⟩
  rw [mem_blk4]
  intro a
  match a with
  | ⟨0, _⟩ => show win10_4.index t (0 : Fin 2) * 1 ≤ (i 0).val ∧ (i 0).val < win10_4.index t (0 : Fin 2) * 1 + 1; omega
  | ⟨1, _⟩ => show win10_4.index t (1 : Fin 2) * 1024 ≤ (i 1).val ∧ (i 1).val < win10_4.index t (1 : Fin 2) * 1024 + 1024; omega
theorem cover5 (i : S1x8192.Idx) : ∃ t : Fin cfg10.N, (cfg10.win 5).flush t = true ∧ i ∈ ((cfg10.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win10_4.index t (1 : Fin 2) = (i 1).val / 1024 := congrFun ht 1
  refine ⟨t, flush10_5 t, ?_⟩
  rw [mem_blk5]
  intro a
  match a with
  | ⟨0, _⟩ => show win10_5.index t (0 : Fin 2) * 1 ≤ (i 0).val ∧ (i 0).val < win10_5.index t (0 : Fin 2) * 1 + 1; omega
  | ⟨1, _⟩ => show win10_5.index t (1 : Fin 2) * 1024 ≤ (i 1).val ∧ (i 1).val < win10_5.index t (1 : Fin 2) * 1024 + 1024; omega

/-- THE PRODUCT ARRAY after the region. -/
theorem final4 (c : Dev nD) : (dat10 V c).arrAt 4 cfg10.N = Gv (V c (Pipeline.arrRef spec10 1)) (V c (Pipeline.arrRef spec10 0)) :=
  (dat10 V c).arrAt_eq_of_cover 4 _ (fun t _ => flushed4_eq V c t) cover4
/-- THE ACCUMULATOR ARRAY after the region. -/
theorem final5 (c : Dev nD) : (dat10 V c).arrAt 5 cfg10.N
    = Gy (V c (Pipeline.arrRef spec10 1)) (V c (Pipeline.arrRef spec10 0)) (V c (Pipeline.arrRef spec10 2)) (V c (Pipeline.arrRef spec10 3)) :=
  (dat10 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W22 m ρ c (Proc.devRef .tc main_call0_v79_0) = Gv (W21 m ρ c (Proc.devRef .tc main_call0_v75_0)) (W21 m ρ c (Proc.devRef .tc main_call0_v13_0)) :=
  (W22_arr m ρ c 4).trans (final4 (V21 m ρ) c)
/-- The accumulator buffer after the region. -/
theorem exit_y : W22 m ρ c (Proc.devRef .tc main_call0_v79_1)
    = Gy (W21 m ρ c (Proc.devRef .tc main_call0_v75_0)) (W21 m ρ c (Proc.devRef .tc main_call0_v13_0)) (W21 m ρ c (Proc.devRef .tc main_call0_v78)) (W21 m ρ c (Proc.devRef .tc main_call0_v75_1)) :=
  (W22_arr m ρ c 5).trans (final5 (V21 m ρ) c)
/-- The matrix is only read. -/
theorem exit_H : W22 m ρ c (Proc.devRef .tc main_call0_v13_0) = W21 m ρ c (Proc.devRef .tc main_call0_v13_0) :=
  (W22_arr m ρ c 0).trans (((dat10 (V21 m ρ) c).arrAt_in 0 rfl _).trans (A_eq10 (V21 m ρ) c 0))
/-- The incoming row is only read. -/
theorem exit_vin : W22 m ρ c (Proc.devRef .tc main_call0_v75_0) = W21 m ρ c (Proc.devRef .tc main_call0_v75_0) :=
  (W22_arr m ρ c 1).trans (((dat10 (V21 m ρ) c).arrAt_in 1 rfl _).trans (A_eq10 (V21 m ρ) c 1))
/-- A buffer that is none of the region's arrays is as at entry. -/
theorem exit_keep (b : Ref sig .tc) (hb : ∀ w, Pipeline.arrRef spec10 w ≠ b) :
    W22 m ρ c (Proc.devRef .tc b) = W21 m ρ c (Proc.devRef .tc b) := W22_of_ne m ρ c b hb

end Exit

end Cert.KernelIdeal.Region10

end
-- ==== Proof.Region11.lean ====
/-
  Region 11 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region11

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg11.N,
      win11_0.index t (0 : Fin 2) = win11_4.index t (1 : Fin 2) ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = win11_4.index t (1 : Fin 2)
    ∧ win11_4.index t (0 : Fin 2) = 0 ∧ win11_4.index t (1 : Fin 2) ≤ 7
    ∧ win11_5.index t (0 : Fin 2) = 0 ∧ win11_5.index t (1 : Fin 2) = win11_4.index t (1 : Fin 2) :=
  (by decide +kernel : ∀ t : Fin grid11.N, _)

/-- Every one of the eight blocks of the row is some point's. -/
theorem idx_onto : ∀ q : Fin 8, ∃ t : Fin cfg11.N, win11_4.index t = ![0, q.val] :=
  (by decide +kernel : ∀ q : Fin 8, ∃ t : Fin grid11.N, win11_4.index t = ![0, q.val])

/-- The row window's block is the whole row at every point. -/
theorem blk1 (c : Dev nD) (t : Fin cfg11.N) (k : Fin 8192) : iblk11 V c 1 t (ix2 0 k) = V c (Pipeline.arrRef spec11 1) (ix2 0 k) := by
  obtain ⟨e00, e01, e10, e11, e20, e21, e30, e31, e40, e41, e50, e51⟩ := idx_facts t
  show V c (Pipeline.arrRef spec11 1) (((cfg11.win 1).blk t).view.emb (ix2 0 k)) = V c (Pipeline.arrRef spec11 1) (ix2 0 k)
  refine congrArg _ (funext fun a => Fin.ext ?_)
  match a with
  | ⟨0, _⟩ => show win11_1.index t (0 : Fin 2) * 1 + 1 * 0 = 0; omega
  | ⟨1, _⟩ => show win11_1.index t (1 : Fin 2) * 8192 + 1 * k.val = k.val; omega

/-- The coefficient window's block is the one entry. -/
theorem blk2 (c : Dev nD) (t : Fin cfg11.N) : iblk11 V c 2 t (ix2 0 0) = V c (Pipeline.arrRef spec11 2) (ix2 0 0) := by
  obtain ⟨e00, e01, e10, e11, e20, e21, e30, e31, e40, e41, e50, e51⟩ := idx_facts t
  show V c (Pipeline.arrRef spec11 2) (((cfg11.win 2).blk t).view.emb (ix2 0 0)) = V c (Pipeline.arrRef spec11 2) (ix2 0 0)
  refine congrArg _ (funext fun a => Fin.ext ?_)
  match a with
  | ⟨0, _⟩ => show win11_2.index t (0 : Fin 2) * 1 + 1 * 0 = 0; omega
  | ⟨1, _⟩ => show win11_2.index t (1 : Fin 2) * 1 + 1 * 0 = 0; omega

/-- The matrix window's block at point t is rows 1024·t … of the matrix: its row q is row (block's column position) of the array. -/
theorem blk0 (c : Dev nD) (t : Fin cfg11.N) (q : Fin 1024) (k : Fin 8192) :
    iblk11 V c 0 t (ix2 q k) = V c (Pipeline.arrRef spec11 0) (ix2 ((((cfg11.win 4).blk t).view.emb (ix2 0 q)) 1) k) := by
  obtain ⟨e00, e01, e10, e11, e20, e21, e30, e31, e40, e41, e50, e51⟩ := idx_facts t
  show V c (Pipeline.arrRef spec11 0) (((cfg11.win 0).blk t).view.emb (ix2 q k)) = _
  refine congrArg _ (funext fun a => Fin.ext ?_)
  match a with
  | ⟨0, _⟩ => show win11_0.index t (0 : Fin 2) * 1024 + 1 * q.val = win11_4.index t (1 : Fin 2) * 1024 + 1 * q.val; omega
  | ⟨1, _⟩ => show win11_0.index t (1 : Fin 2) * 8192 + 1 * k.val = k.val; omega

/-- The incoming accumulator window's block at point t is the same stretch of the row as the outgoing ones'. -/
theorem blk3 (c : Dev nD) (t : Fin cfg11.N) (q : Fin 1024) :
    iblk11 V c 3 t (ix2 0 q) = V c (Pipeline.arrRef spec11 3) (((cfg11.win 5).blk t).view.emb (ix2 0 q)) := by
  obtain ⟨e00, e01, e10, e11, e20, e21, e30, e31, e40, e41, e50, e51⟩ := idx_facts t
  show V c (Pipeline.arrRef spec11 3) (((cfg11.win 3).blk t).view.emb (ix2 0 q)) = _
  refine congrArg _ (funext fun a => Fin.ext ?_)
  match a with
  | ⟨0, _⟩ => show win11_3.index t (0 : Fin 2) * 1 + 1 * 0 = win11_5.index t (0 : Fin 2) * 1 + 1 * 0; omega
  | ⟨1, _⟩ => show win11_3.index t (1 : Fin 2) * 1024 + 1 * q.val = win11_5.index t (1 : Fin 2) * 1024 + 1 * q.val; omega

set_option maxHeartbeats 4000000 in
/-- WHAT POINT t WRITES BACK to the product window: block t of the product row. -/
theorem flushed4_eq (c : Dev nD) (t : Fin cfg11.N) :
    (dat11 V c).flushed 4 t = ((cfg11.win 4).blk t).view.read (Elt Ideal)
      (Gv (V c (Pipeline.arrRef spec11 1)) (V c (Pipeline.arrRef spec11 0))) := by
  show (cfg11.win 4).cut (grid11.coords t) ((dat11 V c).after 4 t) = _
  rw [after11_4]
  unfold out11_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk11 V c 1 t) (iblk11 V c 0 t) q).trans ?_
  show mvRow (iblk11 V c 1 t) (iblk11 V c 0 t) q
    = mvRow (V c (Pipeline.arrRef spec11 1)) (V c (Pipeline.arrRef spec11 0)) ((((cfg11.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg11.N) :
    (dat11 V c).flushed 5 t = ((cfg11.win 5).blk t).view.read (Elt Ideal)
      (Gy (V c (Pipeline.arrRef spec11 1)) (V c (Pipeline.arrRef spec11 0)) (V c (Pipeline.arrRef spec11 2)) (V c (Pipeline.arrRef spec11 3))) := by
  show (cfg11.win 5).cut (grid11.coords t) ((dat11 V c).after 5 t) = _
  rw [after11_5]
  unfold out11_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk11 V c 1 t) (iblk11 V c 0 t) (iblk11 V c 2 t) (iblk11 V c 3 t) q).trans ?_
  refine Eq.trans ?_ (Gy_acc (V c (Pipeline.arrRef spec11 1)) (V c (Pipeline.arrRef spec11 0)) (V c (Pipeline.arrRef spec11 2)) (V c (Pipeline.arrRef spec11 3))
    (((cfg11.win 5).blk t).view.emb (ix2 0 q))).symm
  rw [blk3 V c t q, blk2 V c t]
  refine congrArg (accAt _ _) ?_
  unfold mvRow
  refine Finset.sum_congr rfl fun k _ => ?_
  have hX : (((cfg11.win 4).blk t).view.emb (ix2 0 q)) 1 = (((cfg11.win 5).blk t).view.emb (ix2 0 q)) 1 :=
    Fin.ext (by show win11_4.index t (1 : Fin 2) * 1024 + 1 * q.val = win11_5.index t (1 : Fin 2) * 1024 + 1 * q.val; omega)
  rw [blk1 V c t k, blk0 V c t q k, hX]

/-- An index of a [1,8192] output array is in point t's block iff each coordinate is in the block's range. -/
theorem mem_blk4 (t : Fin cfg11.N) (i : S1x8192.Idx) :
    i ∈ ((cfg11.win 4).blk t).view.set ↔ ∀ a : Fin 2, win11_4.index t a * S1x1024.size a ≤ (i a).val ∧ (i a).val < win11_4.index t a * S1x1024.size a + S1x1024.size a := by
  show i ∈ ((View.whole main_call0_v83_0).slice (win11_4.rect t)).set ↔ _
  rw [View.set_slice_whole, Rect.mem_set_unit]
  exact Iff.rfl
theorem mem_blk5 (t : Fin cfg11.N) (i : S1x8192.Idx) :
    i ∈ ((cfg11.win 5).blk t).view.set ↔ ∀ a : Fin 2, win11_5.index t a * S1x1024.size a ≤ (i a).val ∧ (i a).val < win11_5.index t a * S1x1024.size a + S1x1024.size a := by
  show i ∈ ((View.whole main_call0_v83_1).slice (win11_5.rect t)).set ↔ _
  rw [View.set_slice_whole, Rect.mem_set_unit]
  exact Iff.rfl

/-- The eight blocks cover the row: column n is in the block of the point whose block index is n / 1024. -/
theorem cover4 (i : S1x8192.Idx) : ∃ t : Fin cfg11.N, (cfg11.win 4).flush t = true ∧ i ∈ ((cfg11.win 4).blk t).view.set := by
  have hi0 : (i 0).val < 1 := (i 0).isLt
  have hi1 : (i 1).val < 8192 := (i 1).isLt
  obtain ⟨t, ht⟩ := idx_onto ⟨(i 1).val / 1024, by omega⟩
  have q0 : win11_4.index t (0 : Fin 2) = 0 := congrFun ht 0
  have q1 : win11_4.index t (1 : Fin 2) = (i 1).val / 1024 := congrFun ht 1
  refine ⟨t, flush11_4 t, ?_⟩
  rw [mem_blk4]
  intro a
  match a with
  | ⟨0, _⟩ => show win11_4.index t (0 : Fin 2) * 1 ≤ (i 0).val ∧ (i 0).val < win11_4.index t (0 : Fin 2) * 1 + 1; omega
  | ⟨1, _⟩ => show win11_4.index t (1 : Fin 2) * 1024 ≤ (i 1).val ∧ (i 1).val < win11_4.index t (1 : Fin 2) * 1024 + 1024; omega
theorem cover5 (i : S1x8192.Idx) : ∃ t : Fin cfg11.N, (cfg11.win 5).flush t = true ∧ i ∈ ((cfg11.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win11_4.index t (1 : Fin 2) = (i 1).val / 1024 := congrFun ht 1
  refine ⟨t, flush11_5 t, ?_⟩
  rw [mem_blk5]
  intro a
  match a with
  | ⟨0, _⟩ => show win11_5.index t (0 : Fin 2) * 1 ≤ (i 0).val ∧ (i 0).val < win11_5.index t (0 : Fin 2) * 1 + 1; omega
  | ⟨1, _⟩ => show win11_5.index t (1 : Fin 2) * 1024 ≤ (i 1).val ∧ (i 1).val < win11_5.index t (1 : Fin 2) * 1024 + 1024; omega

/-- THE PRODUCT ARRAY after the region. -/
theorem final4 (c : Dev nD) : (dat11 V c).arrAt 4 cfg11.N = Gv (V c (Pipeline.arrRef spec11 1)) (V c (Pipeline.arrRef spec11 0)) :=
  (dat11 V c).arrAt_eq_of_cover 4 _ (fun t _ => flushed4_eq V c t) cover4
/-- THE ACCUMULATOR ARRAY after the region. -/
theorem final5 (c : Dev nD) : (dat11 V c).arrAt 5 cfg11.N
    = Gy (V c (Pipeline.arrRef spec11 1)) (V c (Pipeline.arrRef spec11 0)) (V c (Pipeline.arrRef spec11 2)) (V c (Pipeline.arrRef spec11 3)) :=
  (dat11 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W24 m ρ c (Proc.devRef .tc main_call0_v83_0) = Gv (W23 m ρ c (Proc.devRef .tc main_call0_v79_0)) (W23 m ρ c (Proc.devRef .tc main_call0_v13_0)) :=
  (W24_arr m ρ c 4).trans (final4 (V23 m ρ) c)
/-- The accumulator buffer after the region. -/
theorem exit_y : W24 m ρ c (Proc.devRef .tc main_call0_v83_1)
    = Gy (W23 m ρ c (Proc.devRef .tc main_call0_v79_0)) (W23 m ρ c (Proc.devRef .tc main_call0_v13_0)) (W23 m ρ c (Proc.devRef .tc main_call0_v82)) (W23 m ρ c (Proc.devRef .tc main_call0_v79_1)) :=
  (W24_arr m ρ c 5).trans (final5 (V23 m ρ) c)
/-- The matrix is only read. -/
theorem exit_H : W24 m ρ c (Proc.devRef .tc main_call0_v13_0) = W23 m ρ c (Proc.devRef .tc main_call0_v13_0) :=
  (W24_arr m ρ c 0).trans (((dat11 (V23 m ρ) c).arrAt_in 0 rfl _).trans (A_eq11 (V23 m ρ) c 0))
/-- The incoming row is only read. -/
theorem exit_vin : W24 m ρ c (Proc.devRef .tc main_call0_v79_0) = W23 m ρ c (Proc.devRef .tc main_call0_v79_0) :=
  (W24_arr m ρ c 1).trans (((dat11 (V23 m ρ) c).arrAt_in 1 rfl _).trans (A_eq11 (V23 m ρ) c 1))
/-- A buffer that is none of the region's arrays is as at entry. -/
theorem exit_keep (b : Ref sig .tc) (hb : ∀ w, Pipeline.arrRef spec11 w ≠ b) :
    W24 m ρ c (Proc.devRef .tc b) = W23 m ρ c (Proc.devRef .tc b) := W24_of_ne m ρ c b hb

end Exit

end Cert.KernelIdeal.Region11

end
-- ==== Proof.KLayer2.lean ====
/-
  Layer 2 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region8
import proofs.«144169_j55405078119367_2_alg».proof.Proof.Region9
import proofs.«144169_j55405078119367_2_alg».proof.Proof.Region10
import proofs.«144169_j55405078119367_2_alg».proof.Proof.Region11

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 2 = (0, 2). -/
theorem layer2 (X : FVec Ideal Cert.ReferenceIdeal.S8192x1 .f32) (HnB : (⟨2, ![8192, 8192]⟩ : Shape).Idx → EReal)
    (A : FVec Ideal Cert.ReferenceIdeal.S2x5x5 .f32)
    (A17 : W17 m ρ c (Proc.devRef .tc main_arg2) = A)
    (H17 : (W17 m ρ c (Proc.devRef .tc main_call0_v13_0) : (⟨2, ![8192, 8192]⟩ : Shape).Idx → EReal) = HnB)
    (v17 : toCol (W17 m ρ c (Proc.devRef .tc main_call0_v63)) = X)
    (y17 : toCol (W17 m ρ c (Proc.devRef .tc main_call0_v67)) = (Spec.sc (F := Ideal) (Spec.coef (F := Ideal) ![0, 2, 0] Cert.ReferenceIdeal.Gen.slices_S2x5x5_S1x1x1_0_2_0 A) X))
    (a17 : W17 m ρ c (Proc.devRef .tc main_call0_v70) = as11 (Spec.coef (F := Ideal) ![0, 2, 1] Cert.ReferenceIdeal.Gen.slices_S2x5x5_S1x1x1_0_2_1 A)) :
    W25 m ρ c (Proc.devRef .tc main_arg2) = A
    ∧ (W25 m ρ c (Proc.devRef .tc main_call0_v13_0) : (⟨2, ![8192, 8192]⟩ : Shape).Idx → EReal) = HnB
    ∧ toCol (W25 m ρ c (Proc.devRef .tc main_call0_v92)) = (Spec.layer02 (F := Ideal) A HnB X)
    ∧ toCol (W25 m ρ c (Proc.devRef .tc main_call0_v96)) = Spec.sc (F := Ideal) (Spec.coef (F := Ideal) ![0, 3, 0] Cert.ReferenceIdeal.Gen.slices_S2x5x5_S1x1x1_0_3_0 A) (Spec.layer02 (F := Ideal) A HnB X)
    ∧ W25 m ρ c (Proc.devRef .tc main_call0_v99) = as11 (Spec.coef (F := Ideal) ![0, 3, 1] Cert.ReferenceIdeal.Gen.slices_S2x5x5_S1x1x1_0_3_1 A) := by
  -- region 8: tap 1
  have H18 : (W18 m ρ c (Proc.devRef .tc main_call0_v13_0) : (⟨2, ![8192, 8192]⟩ : Shape).Idx → EReal) = HnB := (Region8.exit_H m ρ c).trans H17
  have A18 : W18 m ρ c (Proc.devRef .tc main_arg2) = A := (Region8.exit_keep m ρ c main_arg2 (by decide)).trans A17
  have v18 : toCol (W18 m ρ c (Proc.devRef .tc main_call0_v71_0)) = (Spec.mv (F := Ideal) HnB X) := by
    rw [Region8.exit_v m ρ c, toCol_Gv, v17]; exact congrArg (fun h => Spec.mv (F := Ideal) h X) H17
  have y18 : toCol (W18 m ρ c (Proc.devRef .tc main_call0_v71_1)) = (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) := by
    rw [Region8.exit_y m ρ c, a17, toCol_Gy, v17, y17]; exact congrArg (fun h => addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) h X))) H17
  -- stretch 9: the next coefficient
  have A19 : W19 m ρ c (Proc.devRef .tc main_arg2) = A := (keep9 (W18 m ρ c) main_arg2 (by decide)).trans A18
  have H19 : (W19 m ρ c (Proc.devRef .tc main_call0_v13_0) : (⟨2, ![8192, 8192]⟩ : Shape).Idx → EReal) = HnB := (keep9 (W18 m ρ c) main_call0_v13_0 (by decide)).trans H18
  have v19 : toCol (W19 m ρ c (Proc.devRef .tc main_call0_v71_0)) = (Spec.mv (F := Ideal) HnB X) := (congrArg toCol (keep9 (W18 m ρ c) main_call0_v71_0 (by decide))).trans v18
  have y19 : toCol (W19 m ρ c (Proc.devRef .tc main_call0_v71_1)) = (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) := (congrArg toCol (keep9 (W18 m ρ c) main_call0_v71_1 (by decide))).trans y18
  have a19 : W19 m ρ c (Proc.devRef .tc main_call0_v74) = as11 (Spec.coef (F := Ideal) ![0, 2, 2] Cert.ReferenceIdeal.Gen.slices_S2x5x5_S1x1x1_0_2_2 A) := (h9_a (W18 m ρ c)).trans (by rw [A18])
  -- region 9: tap 2
  have H20 : (W20 m ρ c (Proc.devRef .tc main_call0_v13_0) : (⟨2, ![8192, 8192]⟩ : Shape).Idx → EReal) = HnB := (Region9.exit_H m ρ c).trans H19
  have A20 : W20 m ρ c (Proc.devRef .tc main_arg2) = A := (Region9.exit_keep m ρ c main_arg2 (by decide)).trans A19
  have v20 : toCol (W20 m ρ c (Proc.devRef .tc main_call0_v75_0)) = (Spec.mv (F := Ideal) HnB (Spec.mv (F := Ideal) HnB X)) := by
    rw [Region9.exit_v m ρ c, toCol_Gv, v19]; exact congrArg (fun h => Spec.mv (F := Ideal) h (Spec.mv (F := Ideal) HnB X)) H19
  have y20 : toCol (W20 m ρ c (Proc.devRef .tc main_call0_v75_1)) = (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) := by
    rw [Region9.exit_y m ρ c, a19, toCol_Gy, v19, y19]; exact congrArg (fun h => addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) h (Spec.mv (F := Ideal) HnB X)))) H19
  -- stretch 10: the next coefficient
  have A21 : W21 m ρ c (Proc.devRef .tc main_arg2) = A := (keep10 (W20 m ρ c) main_arg2 (by decide)).trans A20
  have H21 : (W21 m ρ c (Proc.devRef .tc main_call0_v13_0) : (⟨2, ![8192, 8192]⟩ : Shape).Idx → EReal) = HnB := (keep10 (W20 m ρ c) main_call0_v13_0 (by decide)).trans H20
  have v21 : toCol (W21 m ρ c (Proc.devRef .tc main_call0_v75_0)) = (Spec.mv (F := Ideal) HnB (Spec.mv (F := Ideal) HnB X)) := (congrArg toCol (keep10 (W20 m ρ c) main_call0_v75_0 (by decide))).trans v20
  have y21 : toCol (W21 m ρ c (Proc.devRef .tc main_call0_v75_1)) = (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) := (congrArg toCol (keep10 (W20 m ρ c) main_call0_v75_1 (by decide))).trans y20
  have a21 : W21 m ρ c (Proc.devRef .tc main_call0_v78) = as11 (Spec.coef (F := Ideal) ![0, 2, 3] Cert.ReferenceIdeal.Gen.slices_S2x5x5_S1x1x1_0_2_3 A) := (h10_a (W20 m ρ c)).trans (by rw [A20])
  -- region 10: tap 3
  have H22 : (W22 m ρ c (Proc.devRef .tc main_call0_v13_0) : (⟨2, ![8192, 8192]⟩ : Shape).Idx → EReal) = HnB := (Region10.exit_H m ρ c).trans H21
  have A22 : W22 m ρ c (Proc.devRef .tc main_arg2) = A := (Region10.exit_keep m ρ c main_arg2 (by decide)).trans A21
  have v22 : toCol (W22 m ρ c (Proc.devRef .tc main_call0_v79_0)) = (Spec.mv (F := Ideal) HnB (Spec.mv (F := Ideal) HnB (Spec.mv (F := Ideal) HnB X))) := by
    rw [Region10.exit_v m ρ c, toCol_Gv, v21]; exact congrArg (fun h => Spec.mv (F := Ideal) h (Spec.mv (F := Ideal) HnB (Spec.mv (F := Ideal) HnB X))) H21
  have y22 : toCol (W22 m ρ c (Proc.devRef .tc main_call0_v79_1)) = (addf (F := Ideal) (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) (Spec.sc (F := Ideal) (Spec.coef (F := Ideal) ![0, 2, 3] Cert.ReferenceIdeal.Gen.slices_S2x5x5_S1x1x1_0_2_3 A) (Spec.mv (F := Ideal) HnB (Spec.mv (F := Ideal) HnB (Spec.mv (F := Ideal) HnB X))))) := by
    rw [Region10.exit_y m ρ c, a21, toCol_Gy, v21, y21]; exact congrArg (fun h => addf (F := Ideal) (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) (Spec.sc (F := Ideal) (Spec.coef (F := Ideal) ![0, 2, 3] Cert.ReferenceIdeal.Gen.slices_S2x5x5_S1x1x1_0_2_3 A) (Spec.mv (F := Ideal) h (Spec.mv (F := Ideal) HnB (Spec.mv (F := Ideal) HnB X))))) H21
  -- stretch 11: the next coefficient
  have A23 : W23 m ρ c (Proc.devRef .tc main_arg2) = A := (keep11 (W22 m ρ c) main_arg2 (by decide)).trans A22
  have H23 : (W23 m ρ c (Proc.devRef .tc main_call0_v13_0) : (⟨2, ![8192, 8192]⟩ : Shape).Idx → EReal) = HnB := (keep11 (W22 m ρ c) main_call0_v13_0 (by decide)).trans H22
  have v23 : toCol (W23 m ρ c (Proc.devRef .tc main_call0_v79_0)) = (Spec.mv (F := Ideal) HnB (Spec.mv (F := Ideal) HnB (Spec.mv (F := Ideal) HnB X))) := (congrArg toCol (keep11 (W22 m ρ c) main_call0_v79_0 (by decide))).trans v22
  have y23 : toCol (W23 m ρ c (Proc.devRef .tc main_call0_v79_1)) = (addf (F := Ideal) (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) (Spec.sc (F := Ideal) (Spec.coef (F := Ideal) ![0, 2, 3] Cert.ReferenceIdeal.Gen.slices_S2x5x5_S1x1x1_0_2_3 A) (Spec.mv (F := Ideal) HnB (Spec.mv (F := Ideal) HnB (Spec.mv (F := Ideal) HnB X))))) := (congrArg toCol (keep11 (W22 m ρ c) main_call0_v79_1 (by decide))).trans y22
  have a23 : W23 m ρ c (Proc.devRef .tc main_call0_v82) = as11 (Spec.coef (F := Ideal) ![0, 2, 4] Cert.ReferenceIdeal.Gen.slices_S2x5x5_S1x1x1_0_2_4 A) := (h11_a (W22 m ρ c)).trans (by rw [A22])
  -- region 11: tap 4
  have H24 : (W24 m ρ c (Proc.devRef .tc main_call0_v13_0) : (⟨2, ![8192, 8192]⟩ : Shape).Idx → EReal) = HnB := (Region11.exit_H m ρ c).trans H23
  have A24 : W24 m ρ c (Proc.devRef .tc main_arg2) = A := (Region11.exit_keep m ρ c main_arg2 (by decide)).trans A23
  have v24 : toCol (W24 m ρ c (Proc.devRef .tc main_call0_v83_0)) = (Spec.mv (F := Ideal) HnB (Spec.mv (F := Ideal) HnB (Spec.mv (F := Ideal) HnB (Spec.mv (F := Ideal) HnB X)))) := by
    rw [Region11.exit_v m ρ c, toCol_Gv, v23]; exact congrArg (fun h => Spec.mv (F := Ideal) h (Spec.mv (F := Ideal) HnB (Spec.mv (F := Ideal) HnB (Spec.mv (F := Ideal) HnB X)))) H23
  have y24 : toCol (W24 m ρ c (Proc.devRef .tc main_call0_v83_1)) = (addf (F := Ideal) (addf (F := Ideal) (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) (Spec.sc (F := Ideal) (Spec.coef (F := Ideal) ![0, 2, 3] Cert.ReferenceIdeal.Gen.slices_S2x5x5_S1x1x1_0_2_3 A) (Spec.mv (F := Ideal) HnB (Spec.mv (F := Ideal) HnB (Spec.mv (F := Ideal) HnB X))))) (Spec.sc (F := Ideal) (Spec.coef (F := Ideal) ![0, 2, 4] Cert.ReferenceIdeal.Gen.slices_S2x5x5_S1x1x1_0_2_4 A) (Spec.mv (F := Ideal) HnB (Spec.mv (F := Ideal) HnB (Spec.mv (F := Ideal) HnB (Spec.mv (F := Ideal) HnB X)))))) := by
    rw [Region11.exit_y m ρ c, a23, toCol_Gy, v23, y23]; exact congrArg (fun h => addf (F := Ideal) (addf (F := Ideal) (addf (F := Ideal) (addf (F := Ideal) (Spec.sc (F := Ideal) (Spec.coef (F := Ideal) ![0, 2, 0] Cert.ReferenceIdeal.Gen.slices_S2x5x5_S1x1x1_0_2_0 A) X) (Spec.sc (F := Ideal) (Spec.coef (F := Ideal) ![0, 2, 1] Cert.ReferenceIdeal.Gen.slices_S2x5x5_S1x1x1_0_2_1 A) (Spec.mv (F := Ideal) HnB X))) (Spec.sc (F := Ideal) (Spec.coef (F := Ideal) ![0, 2, 2] Cert.ReferenceIdeal.Gen.slices_S2x5x5_S1x1x1_0_2_2 A) (Spec.mv (F := Ideal) HnB (Spec.mv (F := Ideal) HnB X)))) (Spec.sc (F := Ideal) (Spec.coef (F := Ideal) ![0, 2, 3] Cert.ReferenceIdeal.Gen.slices_S2x5x5_S1x1x1_0_2_3 A) (Spec.mv (F := Ideal) HnB (Spec.mv (F := Ideal) HnB (Spec.mv (F := Ideal) HnB X))))) (Spec.sc (F := Ideal) (Spec.coef (F := Ideal) ![0, 2, 4] Cert.ReferenceIdeal.Gen.slices_S2x5x5_S1x1x1_0_2_4 A) (Spec.mv (F := Ideal) h (Spec.mv (F := Ideal) HnB (Spec.mv (F := Ideal) HnB (Spec.mv (F := Ideal) HnB X)))))) H23
  -- stretch 12: leaky_relu, the two normalisations, the next layer's first tap and second coefficient
  have A25 : W25 m ρ c (Proc.devRef .tc main_arg2) = A := (keep12 (W24 m ρ c) main_arg2 (by decide)).trans A24
  have H25 : (W25 m ρ c (Proc.devRef .tc main_call0_v13_0) : (⟨2, ![8192, 8192]⟩ : Shape).Idx → EReal) = HnB := (keep12 (W24 m ρ c) main_call0_v13_0 (by decide)).trans H24
  have x25 : toCol (W25 m ρ c (Proc.devRef .tc main_call0_v92)) = Spec.layer02 (F := Ideal) A HnB X := (h12_x (W24 m ρ c)).trans (by rw [y24]; rfl)
  have y25 : toCol (W25 m ρ c (Proc.devRef .tc main_call0_v96)) = Spec.sc (F := Ideal) (Spec.coef (F := Ideal) ![0, 3, 0] Cert.ReferenceIdeal.Gen.slices_S2x5x5_S1x1x1_0_3_0 A) (Spec.layer02 (F := Ideal) A HnB X) := (h12_y0 (W24 m ρ c)).trans (by rw [y24, A24]; rfl)
  have a25 : W25 m ρ c (Proc.devRef .tc main_call0_v99) = as11 (Spec.coef (F := Ideal) ![0, 3, 1] Cert.ReferenceIdeal.Gen.slices_S2x5x5_S1x1x1_0_3_1 A) := (h12_a (W24 m ρ c)).trans (by rw [A24])
  exact ⟨A25, H25, x25, y25, a25⟩

end Cert.KernelIdeal.Chain

end
-- ==== Proof.Region12.lean ====
/-
  Region 12 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region12

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg12.N,
      win12_0.index t (0 : Fin 2) = win12_4.index t (1 : Fin 2) ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = win12_4.index t (1 : Fin 2)
    ∧ win12_4.index t (0 : Fin 2) = 0 ∧ win12_4.index t (1 : Fin 2) ≤ 7
    ∧ win12_5.index t (0 : Fin 2) = 0 ∧ win12_5.index t (1 : Fin 2) = win12_4.index t (1 : Fin 2) :=
  (by decide +kernel : ∀ t : Fin grid12.N, _)

/-- Every one of the eight blocks of the row is some point's. -/
theorem idx_onto : ∀ q : Fin 8, ∃ t : Fin cfg12.N, win12_4.index t = ![0, q.val] :=
  (by decide +kernel : ∀ q : Fin 8, ∃ t : Fin grid12.N, win12_4.index t = ![0, q.val])

/-- The row window's block is the whole row at every point. -/
theorem blk1 (c : Dev nD) (t : Fin cfg12.N) (k : Fin 8192) : iblk12 V c 1 t (ix2 0 k) = V c (Pipeline.arrRef spec12 1) (ix2 0 k) := by
  obtain ⟨e00, e01, e10, e11, e20, e21, e30, e31, e40, e41, e50, e51⟩ := idx_facts t
  show V c (Pipeline.arrRef spec12 1) (((cfg12.win 1).blk t).view.emb (ix2 0 k)) = V c (Pipeline.arrRef spec12 1) (ix2 0 k)
  refine congrArg _ (funext fun a => Fin.ext ?_)
  match a with
  | ⟨0, _⟩ => show win12_1.index t (0 : Fin 2) * 1 + 1 * 0 = 0; omega
  | ⟨1, _⟩ => show win12_1.index t (1 : Fin 2) * 8192 + 1 * k.val = k.val; omega

/-- The coefficient window's block is the one entry. -/
theorem blk2 (c : Dev nD) (t : Fin cfg12.N) : iblk12 V c 2 t (ix2 0 0) = V c (Pipeline.arrRef spec12 2) (ix2 0 0) := by
  obtain ⟨e00, e01, e10, e11, e20, e21, e30, e31, e40, e41, e50, e51⟩ := idx_facts t
  show V c (Pipeline.arrRef spec12 2) (((cfg12.win 2).blk t).view.emb (ix2 0 0)) = V c (Pipeline.arrRef spec12 2) (ix2 0 0)
  refine congrArg _ (funext fun a => Fin.ext ?_)
  match a with
  | ⟨0, _⟩ => show win12_2.index t (0 : Fin 2) * 1 + 1 * 0 = 0; omega
  | ⟨1, _⟩ => show win12_2.index t (1 : Fin 2) * 1 + 1 * 0 = 0; omega

/-- The matrix window's block at point t is rows 1024·t … of the matrix: its row q is row (block's column position) of the array. -/
theorem blk0 (c : Dev nD) (t : Fin cfg12.N) (q : Fin 1024) (k : Fin 8192) :
    iblk12 V c 0 t (ix2 q k) = V c (Pipeline.arrRef spec12 0) (ix2 ((((cfg12.win 4).blk t).view.emb (ix2 0 q)) 1) k) := by
  obtain ⟨e00, e01, e10, e11, e20, e21, e30, e31, e40, e41, e50, e51⟩ := idx_facts t
  show V c (Pipeline.arrRef spec12 0) (((cfg12.win 0).blk t).view.emb (ix2 q k)) = _
  refine congrArg _ (funext fun a => Fin.ext ?_)
  match a with
  | ⟨0, _⟩ => show win12_0.index t (0 : Fin 2) * 1024 + 1 * q.val = win12_4.index t (1 : Fin 2) * 1024 + 1 * q.val; omega
  | ⟨1, _⟩ => show win12_0.index t (1 : Fin 2) * 8192 + 1 * k.val = k.val; omega

/-- The incoming accumulator window's block at point t is the same stretch of the row as the outgoing ones'. -/
theorem blk3 (c : Dev nD) (t : Fin cfg12.N) (q : Fin 1024) :
    iblk12 V c 3 t (ix2 0 q) = V c (Pipeline.arrRef spec12 3) (((cfg12.win 5).blk t).view.emb (ix2 0 q)) := by
  obtain ⟨e00, e01, e10, e11, e20, e21, e30, e31, e40, e41, e50, e51⟩ := idx_facts t
  show V c (Pipeline.arrRef spec12 3) (((cfg12.win 3).blk t).view.emb (ix2 0 q)) = _
  refine congrArg _ (funext fun a => Fin.ext ?_)
  match a with
  | ⟨0, _⟩ => show win12_3.index t (0 : Fin 2) * 1 + 1 * 0 = win12_5.index t (0 : Fin 2) * 1 + 1 * 0; omega
  | ⟨1, _⟩ => show win12_3.index t (1 : Fin 2) * 1024 + 1 * q.val = win12_5.index t (1 : Fin 2) * 1024 + 1 * q.val; omega

set_option maxHeartbeats 4000000 in
/-- WHAT POINT t WRITES BACK to the product window: block t of the product row. -/
theorem flushed4_eq (c : Dev nD) (t : Fin cfg12.N) :
    (dat12 V c).flushed 4 t = ((cfg12.win 4).blk t).view.read (Elt Ideal)
      (Gv (V c (Pipeline.arrRef spec12 1)) (V c (Pipeline.arrRef spec12 0))) := by
  show (cfg12.win 4).cut (grid12.coords t) ((dat12 V c).after 4 t) = _
  rw [after12_4]
  unfold out12_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk12 V c 1 t) (iblk12 V c 0 t) q).trans ?_
  show mvRow (iblk12 V c 1 t) (iblk12 V c 0 t) q
    = mvRow (V c (Pipeline.arrRef spec12 1)) (V c (Pipeline.arrRef spec12 0)) ((((cfg12.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg12.N) :
    (dat12 V c).flushed 5 t = ((cfg12.win 5).blk t).view.read (Elt Ideal)
      (Gy (V c (Pipeline.arrRef spec12 1)) (V c (Pipeline.arrRef spec12 0)) (V c (Pipeline.arrRef spec12 2)) (V c (Pipeline.arrRef spec12 3))) := by
  show (cfg12.win 5).cut (grid12.coords t) ((dat12 V c).after 5 t) = _
  rw [after12_5]
  unfold out12_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk12 V c 1 t) (iblk12 V c 0 t) (iblk12 V c 2 t) (iblk12 V c 3 t) q).trans ?_
  refine Eq.trans ?_ (Gy_acc (V c (Pipeline.arrRef spec12 1)) (V c (Pipeline.arrRef spec12 0)) (V c (Pipeline.arrRef spec12 2)) (V c (Pipeline.arrRef spec12 3))
    (((cfg12.win 5).blk t).view.emb (ix2 0 q))).symm
  rw [blk3 V c t q, blk2 V c t]
  refine congrArg (accAt _ _) ?_
  unfold mvRow
  refine Finset.sum_congr rfl fun k _ => ?_
  have hX : (((cfg12.win 4).blk t).view.emb (ix2 0 q)) 1 = (((cfg12.win 5).blk t).view.emb (ix2 0 q)) 1 :=
    Fin.ext (by show win12_4.index t (1 : Fin 2) * 1024 + 1 * q.val = win12_5.index t (1 : Fin 2) * 1024 + 1 * q.val; omega)
  rw [blk1 V c t k, blk0 V c t q k, hX]

/-- An index of a [1,8192] output array is in point t's block iff each coordinate is in the block's range. -/
theorem mem_blk4 (t : Fin cfg12.N) (i : S1x8192.Idx) :
    i ∈ ((cfg12.win 4).blk t).view.set ↔ ∀ a : Fin 2, win12_4.index t a * S1x1024.size a ≤ (i a).val ∧ (i a).val < win12_4.index t a * S1x1024.size a + S1x1024.size a := by
  show i ∈ ((View.whole main_call0_v100_0).slice (win12_4.rect t)).set ↔ _
  rw [View.set_slice_whole, Rect.mem_set_unit]
  exact Iff.rfl
theorem mem_blk5 (t : Fin cfg12.N) (i : S1x8192.Idx) :
    i ∈ ((cfg12.win 5).blk t).view.set ↔ ∀ a : Fin 2, win12_5.index t a * S1x1024.size a ≤ (i a).val ∧ (i a).val < win12_5.index t a * S1x1024.size a + S1x1024.size a := by
  show i ∈ ((View.whole main_call0_v100_1).slice (win12_5.rect t)).set ↔ _
  rw [View.set_slice_whole, Rect.mem_set_unit]
  exact Iff.rfl

/-- The eight blocks cover the row: column n is in the block of the point whose block index is n / 1024. -/
theorem cover4 (i : S1x8192.Idx) : ∃ t : Fin cfg12.N, (cfg12.win 4).flush t = true ∧ i ∈ ((cfg12.win 4).blk t).view.set := by
  have hi0 : (i 0).val < 1 := (i 0).isLt
  have hi1 : (i 1).val < 8192 := (i 1).isLt
  obtain ⟨t, ht⟩ := idx_onto ⟨(i 1).val / 1024, by omega⟩
  have q0 : win12_4.index t (0 : Fin 2) = 0 := congrFun ht 0
  have q1 : win12_4.index t (1 : Fin 2) = (i 1).val / 1024 := congrFun ht 1
  refine ⟨t, flush12_4 t, ?_⟩
  rw [mem_blk4]
  intro a
  match a with
  | ⟨0, _⟩ => show win12_4.index t (0 : Fin 2) * 1 ≤ (i 0).val ∧ (i 0).val < win12_4.index t (0 : Fin 2) * 1 + 1; omega
  | ⟨1, _⟩ => show win12_4.index t (1 : Fin 2) * 1024 ≤ (i 1).val ∧ (i 1).val < win12_4.index t (1 : Fin 2) * 1024 + 1024; omega
theorem cover5 (i : S1x8192.Idx) : ∃ t : Fin cfg12.N, (cfg12.win 5).flush t = true ∧ i ∈ ((cfg12.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win12_4.index t (1 : Fin 2) = (i 1).val / 1024 := congrFun ht 1
  refine ⟨t, flush12_5 t, ?_⟩
  rw [mem_blk5]
  intro a
  match a with
  | ⟨0, _⟩ => show win12_5.index t (0 : Fin 2) * 1 ≤ (i 0).val ∧ (i 0).val < win12_5.index t (0 : Fin 2) * 1 + 1; omega
  | ⟨1, _⟩ => show win12_5.index t (1 : Fin 2) * 1024 ≤ (i 1).val ∧ (i 1).val < win12_5.index t (1 : Fin 2) * 1024 + 1024; omega

/-- THE PRODUCT ARRAY after the region. -/
theorem final4 (c : Dev nD) : (dat12 V c).arrAt 4 cfg12.N = Gv (V c (Pipeline.arrRef spec12 1)) (V c (Pipeline.arrRef spec12 0)) :=
  (dat12 V c).arrAt_eq_of_cover 4 _ (fun t _ => flushed4_eq V c t) cover4
/-- THE ACCUMULATOR ARRAY after the region. -/
theorem final5 (c : Dev nD) : (dat12 V c).arrAt 5 cfg12.N
    = Gy (V c (Pipeline.arrRef spec12 1)) (V c (Pipeline.arrRef spec12 0)) (V c (Pipeline.arrRef spec12 2)) (V c (Pipeline.arrRef spec12 3)) :=
  (dat12 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W26 m ρ c (Proc.devRef .tc main_call0_v100_0) = Gv (W25 m ρ c (Proc.devRef .tc main_call0_v92)) (W25 m ρ c (Proc.devRef .tc main_call0_v13_0)) :=
  (W26_arr m ρ c 4).trans (final4 (V25 m ρ) c)
/-- The accumulator buffer after the region. -/
theorem exit_y : W26 m ρ c (Proc.devRef .tc main_call0_v100_1)
    = Gy (W25 m ρ c (Proc.devRef .tc main_call0_v92)) (W25 m ρ c (Proc.devRef .tc main_call0_v13_0)) (W25 m ρ c (Proc.devRef .tc main_call0_v99)) (W25 m ρ c (Proc.devRef .tc main_call0_v96)) :=
  (W26_arr m ρ c 5).trans (final5 (V25 m ρ) c)
/-- The matrix is only read. -/
theorem exit_H : W26 m ρ c (Proc.devRef .tc main_call0_v13_0) = W25 m ρ c (Proc.devRef .tc main_call0_v13_0) :=
  (W26_arr m ρ c 0).trans (((dat12 (V25 m ρ) c).arrAt_in 0 rfl _).trans (A_eq12 (V25 m ρ) c 0))
/-- The incoming row is only read. -/
theorem exit_vin : W26 m ρ c (Proc.devRef .tc main_call0_v92) = W25 m ρ c (Proc.devRef .tc main_call0_v92) :=
  (W26_arr m ρ c 1).trans (((dat12 (V25 m ρ) c).arrAt_in 1 rfl _).trans (A_eq12 (V25 m ρ) c 1))
/-- A buffer that is none of the region's arrays is as at entry. -/
theorem exit_keep (b : Ref sig .tc) (hb : ∀ w, Pipeline.arrRef spec12 w ≠ b) :
    W26 m ρ c (Proc.devRef .tc b) = W25 m ρ c (Proc.devRef .tc b) := W26_of_ne m ρ c b hb

end Exit

end Cert.KernelIdeal.Region12

end
-- ==== Proof.Region13.lean ====
/-
  Region 13 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region13

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg13.N,
      win13_0.index t (0 : Fin 2) = win13_4.index t (1 : Fin 2) ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = win13_4.index t (1 : Fin 2)
    ∧ win13_4.index t (0 : Fin 2) = 0 ∧ win13_4.index t (1 : Fin 2) ≤ 7
    ∧ win13_5.index t (0 : Fin 2) = 0 ∧ win13_5.index t (1 : Fin 2) = win13_4.index t (1 : Fin 2) :=
  (by decide +kernel : ∀ t : Fin grid13.N, _)

/-- Every one of the eight blocks of the row is some point's. -/
theorem idx_onto : ∀ q : Fin 8, ∃ t : Fin cfg13.N, win13_4.index t = ![0, q.val] :=
  (by decide +kernel : ∀ q : Fin 8, ∃ t : Fin grid13.N, win13_4.index t = ![0, q.val])

/-- The row window's block is the whole row at every point. -/
theorem blk1 (c : Dev nD) (t : Fin cfg13.N) (k : Fin 8192) : iblk13 V c 1 t (ix2 0 k) = V c (Pipeline.arrRef spec13 1) (ix2 0 k) := by
  obtain ⟨e00, e01, e10, e11, e20, e21, e30, e31, e40, e41, e50, e51⟩ := idx_facts t
  show V c (Pipeline.arrRef spec13 1) (((cfg13.win 1).blk t).view.emb (ix2 0 k)) = V c (Pipeline.arrRef spec13 1) (ix2 0 k)
  refine congrArg _ (funext fun a => Fin.ext ?_)
  match a with
  | ⟨0, _⟩ => show win13_1.index t (0 : Fin 2) * 1 + 1 * 0 = 0; omega
  | ⟨1, _⟩ => show win13_1.index t (1 : Fin 2) * 8192 + 1 * k.val = k.val; omega

/-- The coefficient window's block is the one entry. -/
theorem blk2 (c : Dev nD) (t : Fin cfg13.N) : iblk13 V c 2 t (ix2 0 0) = V c (Pipeline.arrRef spec13 2) (ix2 0 0) := by
  obtain ⟨e00, e01, e10, e11, e20, e21, e30, e31, e40, e41, e50, e51⟩ := idx_facts t
  show V c (Pipeline.arrRef spec13 2) (((cfg13.win 2).blk t).view.emb (ix2 0 0)) = V c (Pipeline.arrRef spec13 2) (ix2 0 0)
  refine congrArg _ (funext fun a => Fin.ext ?_)
  match a with
  | ⟨0, _⟩ => show win13_2.index t (0 : Fin 2) * 1 + 1 * 0 = 0; omega
  | ⟨1, _⟩ => show win13_2.index t (1 : Fin 2) * 1 + 1 * 0 = 0; omega

/-- The matrix window's block at point t is rows 1024·t … of the matrix: its row q is row (block's column position) of the array. -/
theorem blk0 (c : Dev nD) (t : Fin cfg13.N) (q : Fin 1024) (k : Fin 8192) :
    iblk13 V c 0 t (ix2 q k) = V c (Pipeline.arrRef spec13 0) (ix2 ((((cfg13.win 4).blk t).view.emb (ix2 0 q)) 1) k) := by
  obtain ⟨e00, e01, e10, e11, e20, e21, e30, e31, e40, e41, e50, e51⟩ := idx_facts t
  show V c (Pipeline.arrRef spec13 0) (((cfg13.win 0).blk t).view.emb (ix2 q k)) = _
  refine congrArg _ (funext fun a => Fin.ext ?_)
  match a with
  | ⟨0, _⟩ => show win13_0.index t (0 : Fin 2) * 1024 + 1 * q.val = win13_4.index t (1 : Fin 2) * 1024 + 1 * q.val; omega
  | ⟨1, _⟩ => show win13_0.index t (1 : Fin 2) * 8192 + 1 * k.val = k.val; omega

/-- The incoming accumulator window's block at point t is the same stretch of the row as the outgoing ones'. -/
theorem blk3 (c : Dev nD) (t : Fin cfg13.N) (q : Fin 1024) :
    iblk13 V c 3 t (ix2 0 q) = V c (Pipeline.arrRef spec13 3) (((cfg13.win 5).blk t).view.emb (ix2 0 q)) := by
  obtain ⟨e00, e01, e10, e11, e20, e21, e30, e31, e40, e41, e50, e51⟩ := idx_facts t
  show V c (Pipeline.arrRef spec13 3) (((cfg13.win 3).blk t).view.emb (ix2 0 q)) = _
  refine congrArg _ (funext fun a => Fin.ext ?_)
  match a with
  | ⟨0, _⟩ => show win13_3.index t (0 : Fin 2) * 1 + 1 * 0 = win13_5.index t (0 : Fin 2) * 1 + 1 * 0; omega
  | ⟨1, _⟩ => show win13_3.index t (1 : Fin 2) * 1024 + 1 * q.val = win13_5.index t (1 : Fin 2) * 1024 + 1 * q.val; omega

set_option maxHeartbeats 4000000 in
/-- WHAT POINT t WRITES BACK to the product window: block t of the product row. -/
theorem flushed4_eq (c : Dev nD) (t : Fin cfg13.N) :
    (dat13 V c).flushed 4 t = ((cfg13.win 4).blk t).view.read (Elt Ideal)
      (Gv (V c (Pipeline.arrRef spec13 1)) (V c (Pipeline.arrRef spec13 0))) := by
  show (cfg13.win 4).cut (grid13.coords t) ((dat13 V c).after 4 t) = _
  rw [after13_4]
  unfold out13_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk13 V c 1 t) (iblk13 V c 0 t) q).trans ?_
  show mvRow (iblk13 V c 1 t) (iblk13 V c 0 t) q
    = mvRow (V c (Pipeline.arrRef spec13 1)) (V c (Pipeline.arrRef spec13 0)) ((((cfg13.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg13.N) :
    (dat13 V c).flushed 5 t = ((cfg13.win 5).blk t).view.read (Elt Ideal)
      (Gy (V c (Pipeline.arrRef spec13 1)) (V c (Pipeline.arrRef spec13 0)) (V c (Pipeline.arrRef spec13 2)) (V c (Pipeline.arrRef spec13 3))) := by
  show (cfg13.win 5).cut (grid13.coords t) ((dat13 V c).after 5 t) = _
  rw [after13_5]
  unfold out13_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk13 V c 1 t) (iblk13 V c 0 t) (iblk13 V c 2 t) (iblk13 V c 3 t) q).trans ?_
  refine Eq.trans ?_ (Gy_acc (V c (Pipeline.arrRef spec13 1)) (V c (Pipeline.arrRef spec13 0)) (V c (Pipeline.arrRef spec13 2)) (V c (Pipeline.arrRef spec13 3))
    (((cfg13.win 5).blk t).view.emb (ix2 0 q))).symm
  rw [blk3 V c t q, blk2 V c t]
  refine congrArg (accAt _ _) ?_
  unfold mvRow
  refine Finset.sum_congr rfl fun k _ => ?_
  have hX : (((cfg13.win 4).blk t).view.emb (ix2 0 q)) 1 = (((cfg13.win 5).blk t).view.emb (ix2 0 q)) 1 :=
    Fin.ext (by show win13_4.index t (1 : Fin 2) * 1024 + 1 * q.val = win13_5.index t (1 : Fin 2) * 1024 + 1 * q.val; omega)
  rw [blk1 V c t k, blk0 V c t q k, hX]

/-- An index of a [1,8192] output array is in point t's block iff each coordinate is in the block's range. -/
theorem mem_blk4 (t : Fin cfg13.N) (i : S1x8192.Idx) :
    i ∈ ((cfg13.win 4).blk t).view.set ↔ ∀ a : Fin 2, win13_4.index t a * S1x1024.size a ≤ (i a).val ∧ (i a).val < win13_4.index t a * S1x1024.size a + S1x1024.size a := by
  show i ∈ ((View.whole main_call0_v104_0).slice (win13_4.rect t)).set ↔ _
  rw [View.set_slice_whole, Rect.mem_set_unit]
  exact Iff.rfl
theorem mem_blk5 (t : Fin cfg13.N) (i : S1x8192.Idx) :
    i ∈ ((cfg13.win 5).blk t).view.set ↔ ∀ a : Fin 2, win13_5.index t a * S1x1024.size a ≤ (i a).val ∧ (i a).val < win13_5.index t a * S1x1024.size a + S1x1024.size a := by
  show i ∈ ((View.whole main_call0_v104_1).slice (win13_5.rect t)).set ↔ _
  rw [View.set_slice_whole, Rect.mem_set_unit]
  exact Iff.rfl

/-- The eight blocks cover the row: column n is in the block of the point whose block index is n / 1024. -/
theorem cover4 (i : S1x8192.Idx) : ∃ t : Fin cfg13.N, (cfg13.win 4).flush t = true ∧ i ∈ ((cfg13.win 4).blk t).view.set := by
  have hi0 : (i 0).val < 1 := (i 0).isLt
  have hi1 : (i 1).val < 8192 := (i 1).isLt
  obtain ⟨t, ht⟩ := idx_onto ⟨(i 1).val / 1024, by omega⟩
  have q0 : win13_4.index t (0 : Fin 2) = 0 := congrFun ht 0
  have q1 : win13_4.index t (1 : Fin 2) = (i 1).val / 1024 := congrFun ht 1
  refine ⟨t, flush13_4 t, ?_⟩
  rw [mem_blk4]
  intro a
  match a with
  | ⟨0, _⟩ => show win13_4.index t (0 : Fin 2) * 1 ≤ (i 0).val ∧ (i 0).val < win13_4.index t (0 : Fin 2) * 1 + 1; omega
  | ⟨1, _⟩ => show win13_4.index t (1 : Fin 2) * 1024 ≤ (i 1).val ∧ (i 1).val < win13_4.index t (1 : Fin 2) * 1024 + 1024; omega
theorem cover5 (i : S1x8192.Idx) : ∃ t : Fin cfg13.N, (cfg13.win 5).flush t = true ∧ i ∈ ((cfg13.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win13_4.index t (1 : Fin 2) = (i 1).val / 1024 := congrFun ht 1
  refine ⟨t, flush13_5 t, ?_⟩
  rw [mem_blk5]
  intro a
  match a with
  | ⟨0, _⟩ => show win13_5.index t (0 : Fin 2) * 1 ≤ (i 0).val ∧ (i 0).val < win13_5.index t (0 : Fin 2) * 1 + 1; omega
  | ⟨1, _⟩ => show win13_5.index t (1 : Fin 2) * 1024 ≤ (i 1).val ∧ (i 1).val < win13_5.index t (1 : Fin 2) * 1024 + 1024; omega

/-- THE PRODUCT ARRAY after the region. -/
theorem final4 (c : Dev nD) : (dat13 V c).arrAt 4 cfg13.N = Gv (V c (Pipeline.arrRef spec13 1)) (V c (Pipeline.arrRef spec13 0)) :=
  (dat13 V c).arrAt_eq_of_cover 4 _ (fun t _ => flushed4_eq V c t) cover4
/-- THE ACCUMULATOR ARRAY after the region. -/
theorem final5 (c : Dev nD) : (dat13 V c).arrAt 5 cfg13.N
    = Gy (V c (Pipeline.arrRef spec13 1)) (V c (Pipeline.arrRef spec13 0)) (V c (Pipeline.arrRef spec13 2)) (V c (Pipeline.arrRef spec13 3)) :=
  (dat13 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W28 m ρ c (Proc.devRef .tc main_call0_v104_0) = Gv (W27 m ρ c (Proc.devRef .tc main_call0_v100_0)) (W27 m ρ c (Proc.devRef .tc main_call0_v13_0)) :=
  (W28_arr m ρ c 4).trans (final4 (V27 m ρ) c)
/-- The accumulator buffer after the region. -/
theorem exit_y : W28 m ρ c (Proc.devRef .tc main_call0_v104_1)
    = Gy (W27 m ρ c (Proc.devRef .tc main_call0_v100_0)) (W27 m ρ c (Proc.devRef .tc main_call0_v13_0)) (W27 m ρ c (Proc.devRef .tc main_call0_v103)) (W27 m ρ c (Proc.devRef .tc main_call0_v100_1)) :=
  (W28_arr m ρ c 5).trans (final5 (V27 m ρ) c)
/-- The matrix is only read. -/
theorem exit_H : W28 m ρ c (Proc.devRef .tc main_call0_v13_0) = W27 m ρ c (Proc.devRef .tc main_call0_v13_0) :=
  (W28_arr m ρ c 0).trans (((dat13 (V27 m ρ) c).arrAt_in 0 rfl _).trans (A_eq13 (V27 m ρ) c 0))
/-- The incoming row is only read. -/
theorem exit_vin : W28 m ρ c (Proc.devRef .tc main_call0_v100_0) = W27 m ρ c (Proc.devRef .tc main_call0_v100_0) :=
  (W28_arr m ρ c 1).trans (((dat13 (V27 m ρ) c).arrAt_in 1 rfl _).trans (A_eq13 (V27 m ρ) c 1))
/-- A buffer that is none of the region's arrays is as at entry. -/
theorem exit_keep (b : Ref sig .tc) (hb : ∀ w, Pipeline.arrRef spec13 w ≠ b) :
    W28 m ρ c (Proc.devRef .tc b) = W27 m ρ c (Proc.devRef .tc b) := W28_of_ne m ρ c b hb

end Exit

end Cert.KernelIdeal.Region13

end
-- ==== Proof.Region14.lean ====
/-
  Region 14 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region14

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg14.N,
      win14_0.index t (0 : Fin 2) = win14_4.index t (1 : Fin 2) ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = win14_4.index t (1 : Fin 2)
    ∧ win14_4.index t (0 : Fin 2) = 0 ∧ win14_4.index t (1 : Fin 2) ≤ 7
    ∧ win14_5.index t (0 : Fin 2) = 0 ∧ win14_5.index t (1 : Fin 2) = win14_4.index t (1 : Fin 2) :=
  (by decide +kernel : ∀ t : Fin grid14.N, _)

/-- Every one of the eight blocks of the row is some point's. -/
theorem idx_onto : ∀ q : Fin 8, ∃ t : Fin cfg14.N, win14_4.index t = ![0, q.val] :=
  (by decide +kernel : ∀ q : Fin 8, ∃ t : Fin grid14.N, win14_4.index t = ![0, q.val])

/-- The row window's block is the whole row at every point. -/
theorem blk1 (c : Dev nD) (t : Fin cfg14.N) (k : Fin 8192) : iblk14 V c 1 t (ix2 0 k) = V c (Pipeline.arrRef spec14 1) (ix2 0 k) := by
  obtain ⟨e00, e01, e10, e11, e20, e21, e30, e31, e40, e41, e50, e51⟩ := idx_facts t
  show V c (Pipeline.arrRef spec14 1) (((cfg14.win 1).blk t).view.emb (ix2 0 k)) = V c (Pipeline.arrRef spec14 1) (ix2 0 k)
  refine congrArg _ (funext fun a => Fin.ext ?_)
  match a with
  | ⟨0, _⟩ => show win14_1.index t (0 : Fin 2) * 1 + 1 * 0 = 0; omega
  | ⟨1, _⟩ => show win14_1.index t (1 : Fin 2) * 8192 + 1 * k.val = k.val; omega

/-- The coefficient window's block is the one entry. -/
theorem blk2 (c : Dev nD) (t : Fin cfg14.N) : iblk14 V c 2 t (ix2 0 0) = V c (Pipeline.arrRef spec14 2) (ix2 0 0) := by
  obtain ⟨e00, e01, e10, e11, e20, e21, e30, e31, e40, e41, e50, e51⟩ := idx_facts t
  show V c (Pipeline.arrRef spec14 2) (((cfg14.win 2).blk t).view.emb (ix2 0 0)) = V c (Pipeline.arrRef spec14 2) (ix2 0 0)
  refine congrArg _ (funext fun a => Fin.ext ?_)
  match a with
  | ⟨0, _⟩ => show win14_2.index t (0 : Fin 2) * 1 + 1 * 0 = 0; omega
  | ⟨1, _⟩ => show win14_2.index t (1 : Fin 2) * 1 + 1 * 0 = 0; omega

/-- The matrix window's block at point t is rows 1024·t … of the matrix: its row q is row (block's column position) of the array. -/
theorem blk0 (c : Dev nD) (t : Fin cfg14.N) (q : Fin 1024) (k : Fin 8192) :
    iblk14 V c 0 t (ix2 q k) = V c (Pipeline.arrRef spec14 0) (ix2 ((((cfg14.win 4).blk t).view.emb (ix2 0 q)) 1) k) := by
  obtain ⟨e00, e01, e10, e11, e20, e21, e30, e31, e40, e41, e50, e51⟩ := idx_facts t
  show V c (Pipeline.arrRef spec14 0) (((cfg14.win 0).blk t).view.emb (ix2 q k)) = _
  refine congrArg _ (funext fun a => Fin.ext ?_)
  match a with
  | ⟨0, _⟩ => show win14_0.index t (0 : Fin 2) * 1024 + 1 * q.val = win14_4.index t (1 : Fin 2) * 1024 + 1 * q.val; omega
  | ⟨1, _⟩ => show win14_0.index t (1 : Fin 2) * 8192 + 1 * k.val = k.val; omega

/-- The incoming accumulator window's block at point t is the same stretch of the row as the outgoing ones'. -/
theorem blk3 (c : Dev nD) (t : Fin cfg14.N) (q : Fin 1024) :
    iblk14 V c 3 t (ix2 0 q) = V c (Pipeline.arrRef spec14 3) (((cfg14.win 5).blk t).view.emb (ix2 0 q)) := by
  obtain ⟨e00, e01, e10, e11, e20, e21, e30, e31, e40, e41, e50, e51⟩ := idx_facts t
  show V c (Pipeline.arrRef spec14 3) (((cfg14.win 3).blk t).view.emb (ix2 0 q)) = _
  refine congrArg _ (funext fun a => Fin.ext ?_)
  match a with
  | ⟨0, _⟩ => show win14_3.index t (0 : Fin 2) * 1 + 1 * 0 = win14_5.index t (0 : Fin 2) * 1 + 1 * 0; omega
  | ⟨1, _⟩ => show win14_3.index t (1 : Fin 2) * 1024 + 1 * q.val = win14_5.index t (1 : Fin 2) * 1024 + 1 * q.val; omega

set_option maxHeartbeats 4000000 in
/-- WHAT POINT t WRITES BACK to the product window: block t of the product row. -/
theorem flushed4_eq (c : Dev nD) (t : Fin cfg14.N) :
    (dat14 V c).flushed 4 t = ((cfg14.win 4).blk t).view.read (Elt Ideal)
      (Gv (V c (Pipeline.arrRef spec14 1)) (V c (Pipeline.arrRef spec14 0))) := by
  show (cfg14.win 4).cut (grid14.coords t) ((dat14 V c).after 4 t) = _
  rw [after14_4]
  unfold out14_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk14 V c 1 t) (iblk14 V c 0 t) q).trans ?_
  show mvRow (iblk14 V c 1 t) (iblk14 V c 0 t) q
    = mvRow (V c (Pipeline.arrRef spec14 1)) (V c (Pipeline.arrRef spec14 0)) ((((cfg14.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg14.N) :
    (dat14 V c).flushed 5 t = ((cfg14.win 5).blk t).view.read (Elt Ideal)
      (Gy (V c (Pipeline.arrRef spec14 1)) (V c (Pipeline.arrRef spec14 0)) (V c (Pipeline.arrRef spec14 2)) (V c (Pipeline.arrRef spec14 3))) := by
  show (cfg14.win 5).cut (grid14.coords t) ((dat14 V c).after 5 t) = _
  rw [after14_5]
  unfold out14_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk14 V c 1 t) (iblk14 V c 0 t) (iblk14 V c 2 t) (iblk14 V c 3 t) q).trans ?_
  refine Eq.trans ?_ (Gy_acc (V c (Pipeline.arrRef spec14 1)) (V c (Pipeline.arrRef spec14 0)) (V c (Pipeline.arrRef spec14 2)) (V c (Pipeline.arrRef spec14 3))
    (((cfg14.win 5).blk t).view.emb (ix2 0 q))).symm
  rw [blk3 V c t q, blk2 V c t]
  refine congrArg (accAt _ _) ?_
  unfold mvRow
  refine Finset.sum_congr rfl fun k _ => ?_
  have hX : (((cfg14.win 4).blk t).view.emb (ix2 0 q)) 1 = (((cfg14.win 5).blk t).view.emb (ix2 0 q)) 1 :=
    Fin.ext (by show win14_4.index t (1 : Fin 2) * 1024 + 1 * q.val = win14_5.index t (1 : Fin 2) * 1024 + 1 * q.val; omega)
  rw [blk1 V c t k, blk0 V c t q k, hX]

/-- An index of a [1,8192] output array is in point t's block iff each coordinate is in the block's range. -/
theorem mem_blk4 (t : Fin cfg14.N) (i : S1x8192.Idx) :
    i ∈ ((cfg14.win 4).blk t).view.set ↔ ∀ a : Fin 2, win14_4.index t a * S1x1024.size a ≤ (i a).val ∧ (i a).val < win14_4.index t a * S1x1024.size a + S1x1024.size a := by
  show i ∈ ((View.whole main_call0_v108_0).slice (win14_4.rect t)).set ↔ _
  rw [View.set_slice_whole, Rect.mem_set_unit]
  exact Iff.rfl
theorem mem_blk5 (t : Fin cfg14.N) (i : S1x8192.Idx) :
    i ∈ ((cfg14.win 5).blk t).view.set ↔ ∀ a : Fin 2, win14_5.index t a * S1x1024.size a ≤ (i a).val ∧ (i a).val < win14_5.index t a * S1x1024.size a + S1x1024.size a := by
  show i ∈ ((View.whole main_call0_v108_1).slice (win14_5.rect t)).set ↔ _
  rw [View.set_slice_whole, Rect.mem_set_unit]
  exact Iff.rfl

/-- The eight blocks cover the row: column n is in the block of the point whose block index is n / 1024. -/
theorem cover4 (i : S1x8192.Idx) : ∃ t : Fin cfg14.N, (cfg14.win 4).flush t = true ∧ i ∈ ((cfg14.win 4).blk t).view.set := by
  have hi0 : (i 0).val < 1 := (i 0).isLt
  have hi1 : (i 1).val < 8192 := (i 1).isLt
  obtain ⟨t, ht⟩ := idx_onto ⟨(i 1).val / 1024, by omega⟩
  have q0 : win14_4.index t (0 : Fin 2) = 0 := congrFun ht 0
  have q1 : win14_4.index t (1 : Fin 2) = (i 1).val / 1024 := congrFun ht 1
  refine ⟨t, flush14_4 t, ?_⟩
  rw [mem_blk4]
  intro a
  match a with
  | ⟨0, _⟩ => show win14_4.index t (0 : Fin 2) * 1 ≤ (i 0).val ∧ (i 0).val < win14_4.index t (0 : Fin 2) * 1 + 1; omega
  | ⟨1, _⟩ => show win14_4.index t (1 : Fin 2) * 1024 ≤ (i 1).val ∧ (i 1).val < win14_4.index t (1 : Fin 2) * 1024 + 1024; omega
theorem cover5 (i : S1x8192.Idx) : ∃ t : Fin cfg14.N, (cfg14.win 5).flush t = true ∧ i ∈ ((cfg14.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win14_4.index t (1 : Fin 2) = (i 1).val / 1024 := congrFun ht 1
  refine ⟨t, flush14_5 t, ?_⟩
  rw [mem_blk5]
  intro a
  match a with
  | ⟨0, _⟩ => show win14_5.index t (0 : Fin 2) * 1 ≤ (i 0).val ∧ (i 0).val < win14_5.index t (0 : Fin 2) * 1 + 1; omega
  | ⟨1, _⟩ => show win14_5.index t (1 : Fin 2) * 1024 ≤ (i 1).val ∧ (i 1).val < win14_5.index t (1 : Fin 2) * 1024 + 1024; omega

/-- THE PRODUCT ARRAY after the region. -/
theorem final4 (c : Dev nD) : (dat14 V c).arrAt 4 cfg14.N = Gv (V c (Pipeline.arrRef spec14 1)) (V c (Pipeline.arrRef spec14 0)) :=
  (dat14 V c).arrAt_eq_of_cover 4 _ (fun t _ => flushed4_eq V c t) cover4
/-- THE ACCUMULATOR ARRAY after the region. -/
theorem final5 (c : Dev nD) : (dat14 V c).arrAt 5 cfg14.N
    = Gy (V c (Pipeline.arrRef spec14 1)) (V c (Pipeline.arrRef spec14 0)) (V c (Pipeline.arrRef spec14 2)) (V c (Pipeline.arrRef spec14 3)) :=
  (dat14 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W30 m ρ c (Proc.devRef .tc main_call0_v108_0) = Gv (W29 m ρ c (Proc.devRef .tc main_call0_v104_0)) (W29 m ρ c (Proc.devRef .tc main_call0_v13_0)) :=
  (W30_arr m ρ c 4).trans (final4 (V29 m ρ) c)
/-- The accumulator buffer after the region. -/
theorem exit_y : W30 m ρ c (Proc.devRef .tc main_call0_v108_1)
    = Gy (W29 m ρ c (Proc.devRef .tc main_call0_v104_0)) (W29 m ρ c (Proc.devRef .tc main_call0_v13_0)) (W29 m ρ c (Proc.devRef .tc main_call0_v107)) (W29 m ρ c (Proc.devRef .tc main_call0_v104_1)) :=
  (W30_arr m ρ c 5).trans (final5 (V29 m ρ) c)
/-- The matrix is only read. -/
theorem exit_H : W30 m ρ c (Proc.devRef .tc main_call0_v13_0) = W29 m ρ c (Proc.devRef .tc main_call0_v13_0) :=
  (W30_arr m ρ c 0).trans (((dat14 (V29 m ρ) c).arrAt_in 0 rfl _).trans (A_eq14 (V29 m ρ) c 0))
/-- The incoming row is only read. -/
theorem exit_vin : W30 m ρ c (Proc.devRef .tc main_call0_v104_0) = W29 m ρ c (Proc.devRef .tc main_call0_v104_0) :=
  (W30_arr m ρ c 1).trans (((dat14 (V29 m ρ) c).arrAt_in 1 rfl _).trans (A_eq14 (V29 m ρ) c 1))
/-- A buffer that is none of the region's arrays is as at entry. -/
theorem exit_keep (b : Ref sig .tc) (hb : ∀ w, Pipeline.arrRef spec14 w ≠ b) :
    W30 m ρ c (Proc.devRef .tc b) = W29 m ρ c (Proc.devRef .tc b) := W30_of_ne m ρ c b hb

end Exit

end Cert.KernelIdeal.Region14

end
-- ==== Proof.Region15.lean ====
/-
  Region 15 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region15

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg15.N,
      win15_0.index t (0 : Fin 2) = win15_4.index t (1 : Fin 2) ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = win15_4.index t (1 : Fin 2)
    ∧ win15_4.index t (0 : Fin 2) = 0 ∧ win15_4.index t (1 : Fin 2) ≤ 7
    ∧ win15_5.index t (0 : Fin 2) = 0 ∧ win15_5.index t (1 : Fin 2) = win15_4.index t (1 : Fin 2) :=
  (by decide +kernel : ∀ t : Fin grid15.N, _)

/-- Every one of the eight blocks of the row is some point's. -/
theorem idx_onto : ∀ q : Fin 8, ∃ t : Fin cfg15.N, win15_4.index t = ![0, q.val] :=
  (by decide +kernel : ∀ q : Fin 8, ∃ t : Fin grid15.N, win15_4.index t = ![0, q.val])

/-- The row window's block is the whole row at every point. -/
theorem blk1 (c : Dev nD) (t : Fin cfg15.N) (k : Fin 8192) : iblk15 V c 1 t (ix2 0 k) = V c (Pipeline.arrRef spec15 1) (ix2 0 k) := by
  obtain ⟨e00, e01, e10, e11, e20, e21, e30, e31, e40, e41, e50, e51⟩ := idx_facts t
  show V c (Pipeline.arrRef spec15 1) (((cfg15.win 1).blk t).view.emb (ix2 0 k)) = V c (Pipeline.arrRef spec15 1) (ix2 0 k)
  refine congrArg _ (funext fun a => Fin.ext ?_)
  match a with
  | ⟨0, _⟩ => show win15_1.index t (0 : Fin 2) * 1 + 1 * 0 = 0; omega
  | ⟨1, _⟩ => show win15_1.index t (1 : Fin 2) * 8192 + 1 * k.val = k.val; omega

/-- The coefficient window's block is the one entry. -/
theorem blk2 (c : Dev nD) (t : Fin cfg15.N) : iblk15 V c 2 t (ix2 0 0) = V c (Pipeline.arrRef spec15 2) (ix2 0 0) := by
  obtain ⟨e00, e01, e10, e11, e20, e21, e30, e31, e40, e41, e50, e51⟩ := idx_facts t
  show V c (Pipeline.arrRef spec15 2) (((cfg15.win 2).blk t).view.emb (ix2 0 0)) = V c (Pipeline.arrRef spec15 2) (ix2 0 0)
  refine congrArg _ (funext fun a => Fin.ext ?_)
  match a with
  | ⟨0, _⟩ => show win15_2.index t (0 : Fin 2) * 1 + 1 * 0 = 0; omega
  | ⟨1, _⟩ => show win15_2.index t (1 : Fin 2) * 1 + 1 * 0 = 0; omega

/-- The matrix window's block at point t is rows 1024·t … of the matrix: its row q is row (block's column position) of the array. -/
theorem blk0 (c : Dev nD) (t : Fin cfg15.N) (q : Fin 1024) (k : Fin 8192) :
    iblk15 V c 0 t (ix2 q k) = V c (Pipeline.arrRef spec15 0) (ix2 ((((cfg15.win 4).blk t).view.emb (ix2 0 q)) 1) k) := by
  obtain ⟨e00, e01, e10, e11, e20, e21, e30, e31, e40, e41, e50, e51⟩ := idx_facts t
  show V c (Pipeline.arrRef spec15 0) (((cfg15.win 0).blk t).view.emb (ix2 q k)) = _
  refine congrArg _ (funext fun a => Fin.ext ?_)
  match a with
  | ⟨0, _⟩ => show win15_0.index t (0 : Fin 2) * 1024 + 1 * q.val = win15_4.index t (1 : Fin 2) * 1024 + 1 * q.val; omega
  | ⟨1, _⟩ => show win15_0.index t (1 : Fin 2) * 8192 + 1 * k.val = k.val; omega

/-- The incoming accumulator window's block at point t is the same stretch of the row as the outgoing ones'. -/
theorem blk3 (c : Dev nD) (t : Fin cfg15.N) (q : Fin 1024) :
    iblk15 V c 3 t (ix2 0 q) = V c (Pipeline.arrRef spec15 3) (((cfg15.win 5).blk t).view.emb (ix2 0 q)) := by
  obtain ⟨e00, e01, e10, e11, e20, e21, e30, e31, e40, e41, e50, e51⟩ := idx_facts t
  show V c (Pipeline.arrRef spec15 3) (((cfg15.win 3).blk t).view.emb (ix2 0 q)) = _
  refine congrArg _ (funext fun a => Fin.ext ?_)
  match a with
  | ⟨0, _⟩ => show win15_3.index t (0 : Fin 2) * 1 + 1 * 0 = win15_5.index t (0 : Fin 2) * 1 + 1 * 0; omega
  | ⟨1, _⟩ => show win15_3.index t (1 : Fin 2) * 1024 + 1 * q.val = win15_5.index t (1 : Fin 2) * 1024 + 1 * q.val; omega

set_option maxHeartbeats 4000000 in
/-- WHAT POINT t WRITES BACK to the product window: block t of the product row. -/
theorem flushed4_eq (c : Dev nD) (t : Fin cfg15.N) :
    (dat15 V c).flushed 4 t = ((cfg15.win 4).blk t).view.read (Elt Ideal)
      (Gv (V c (Pipeline.arrRef spec15 1)) (V c (Pipeline.arrRef spec15 0))) := by
  show (cfg15.win 4).cut (grid15.coords t) ((dat15 V c).after 4 t) = _
  rw [after15_4]
  unfold out15_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk15 V c 1 t) (iblk15 V c 0 t) q).trans ?_
  show mvRow (iblk15 V c 1 t) (iblk15 V c 0 t) q
    = mvRow (V c (Pipeline.arrRef spec15 1)) (V c (Pipeline.arrRef spec15 0)) ((((cfg15.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg15.N) :
    (dat15 V c).flushed 5 t = ((cfg15.win 5).blk t).view.read (Elt Ideal)
      (Gy (V c (Pipeline.arrRef spec15 1)) (V c (Pipeline.arrRef spec15 0)) (V c (Pipeline.arrRef spec15 2)) (V c (Pipeline.arrRef spec15 3))) := by
  show (cfg15.win 5).cut (grid15.coords t) ((dat15 V c).after 5 t) = _
  rw [after15_5]
  unfold out15_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk15 V c 1 t) (iblk15 V c 0 t) (iblk15 V c 2 t) (iblk15 V c 3 t) q).trans ?_
  refine Eq.trans ?_ (Gy_acc (V c (Pipeline.arrRef spec15 1)) (V c (Pipeline.arrRef spec15 0)) (V c (Pipeline.arrRef spec15 2)) (V c (Pipeline.arrRef spec15 3))
    (((cfg15.win 5).blk t).view.emb (ix2 0 q))).symm
  rw [blk3 V c t q, blk2 V c t]
  refine congrArg (accAt _ _) ?_
  unfold mvRow
  refine Finset.sum_congr rfl fun k _ => ?_
  have hX : (((cfg15.win 4).blk t).view.emb (ix2 0 q)) 1 = (((cfg15.win 5).blk t).view.emb (ix2 0 q)) 1 :=
    Fin.ext (by show win15_4.index t (1 : Fin 2) * 1024 + 1 * q.val = win15_5.index t (1 : Fin 2) * 1024 + 1 * q.val; omega)
  rw [blk1 V c t k, blk0 V c t q k, hX]

/-- An index of a [1,8192] output array is in point t's block iff each coordinate is in the block's range. -/
theorem mem_blk4 (t : Fin cfg15.N) (i : S1x8192.Idx) :
    i ∈ ((cfg15.win 4).blk t).view.set ↔ ∀ a : Fin 2, win15_4.index t a * S1x1024.size a ≤ (i a).val ∧ (i a).val < win15_4.index t a * S1x1024.size a + S1x1024.size a := by
  show i ∈ ((View.whole main_call0_v112_0).slice (win15_4.rect t)).set ↔ _
  rw [View.set_slice_whole, Rect.mem_set_unit]
  exact Iff.rfl
theorem mem_blk5 (t : Fin cfg15.N) (i : S1x8192.Idx) :
    i ∈ ((cfg15.win 5).blk t).view.set ↔ ∀ a : Fin 2, win15_5.index t a * S1x1024.size a ≤ (i a).val ∧ (i a).val < win15_5.index t a * S1x1024.size a + S1x1024.size a := by
  show i ∈ ((View.whole main_call0_v112_1).slice (win15_5.rect t)).set ↔ _
  rw [View.set_slice_whole, Rect.mem_set_unit]
  exact Iff.rfl

/-- The eight blocks cover the row: column n is in the block of the point whose block index is n / 1024. -/
theorem cover4 (i : S1x8192.Idx) : ∃ t : Fin cfg15.N, (cfg15.win 4).flush t = true ∧ i ∈ ((cfg15.win 4).blk t).view.set := by
  have hi0 : (i 0).val < 1 := (i 0).isLt
  have hi1 : (i 1).val < 8192 := (i 1).isLt
  obtain ⟨t, ht⟩ := idx_onto ⟨(i 1).val / 1024, by omega⟩
  have q0 : win15_4.index t (0 : Fin 2) = 0 := congrFun ht 0
  have q1 : win15_4.index t (1 : Fin 2) = (i 1).val / 1024 := congrFun ht 1
  refine ⟨t, flush15_4 t, ?_⟩
  rw [mem_blk4]
  intro a
  match a with
  | ⟨0, _⟩ => show win15_4.index t (0 : Fin 2) * 1 ≤ (i 0).val ∧ (i 0).val < win15_4.index t (0 : Fin 2) * 1 + 1; omega
  | ⟨1, _⟩ => show win15_4.index t (1 : Fin 2) * 1024 ≤ (i 1).val ∧ (i 1).val < win15_4.index t (1 : Fin 2) * 1024 + 1024; omega
theorem cover5 (i : S1x8192.Idx) : ∃ t : Fin cfg15.N, (cfg15.win 5).flush t = true ∧ i ∈ ((cfg15.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win15_4.index t (1 : Fin 2) = (i 1).val / 1024 := congrFun ht 1
  refine ⟨t, flush15_5 t, ?_⟩
  rw [mem_blk5]
  intro a
  match a with
  | ⟨0, _⟩ => show win15_5.index t (0 : Fin 2) * 1 ≤ (i 0).val ∧ (i 0).val < win15_5.index t (0 : Fin 2) * 1 + 1; omega
  | ⟨1, _⟩ => show win15_5.index t (1 : Fin 2) * 1024 ≤ (i 1).val ∧ (i 1).val < win15_5.index t (1 : Fin 2) * 1024 + 1024; omega

/-- THE PRODUCT ARRAY after the region. -/
theorem final4 (c : Dev nD) : (dat15 V c).arrAt 4 cfg15.N = Gv (V c (Pipeline.arrRef spec15 1)) (V c (Pipeline.arrRef spec15 0)) :=
  (dat15 V c).arrAt_eq_of_cover 4 _ (fun t _ => flushed4_eq V c t) cover4
/-- THE ACCUMULATOR ARRAY after the region. -/
theorem final5 (c : Dev nD) : (dat15 V c).arrAt 5 cfg15.N
    = Gy (V c (Pipeline.arrRef spec15 1)) (V c (Pipeline.arrRef spec15 0)) (V c (Pipeline.arrRef spec15 2)) (V c (Pipeline.arrRef spec15 3)) :=
  (dat15 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W32 m ρ c (Proc.devRef .tc main_call0_v112_0) = Gv (W31 m ρ c (Proc.devRef .tc main_call0_v108_0)) (W31 m ρ c (Proc.devRef .tc main_call0_v13_0)) :=
  (W32_arr m ρ c 4).trans (final4 (V31 m ρ) c)
/-- The accumulator buffer after the region. -/
theorem exit_y : W32 m ρ c (Proc.devRef .tc main_call0_v112_1)
    = Gy (W31 m ρ c (Proc.devRef .tc main_call0_v108_0)) (W31 m ρ c (Proc.devRef .tc main_call0_v13_0)) (W31 m ρ c (Proc.devRef .tc main_call0_v111)) (W31 m ρ c (Proc.devRef .tc main_call0_v108_1)) :=
  (W32_arr m ρ c 5).trans (final5 (V31 m ρ) c)
/-- The matrix is only read. -/
theorem exit_H : W32 m ρ c (Proc.devRef .tc main_call0_v13_0) = W31 m ρ c (Proc.devRef .tc main_call0_v13_0) :=
  (W32_arr m ρ c 0).trans (((dat15 (V31 m ρ) c).arrAt_in 0 rfl _).trans (A_eq15 (V31 m ρ) c 0))
/-- The incoming row is only read. -/
theorem exit_vin : W32 m ρ c (Proc.devRef .tc main_call0_v108_0) = W31 m ρ c (Proc.devRef .tc main_call0_v108_0) :=
  (W32_arr m ρ c 1).trans (((dat15 (V31 m ρ) c).arrAt_in 1 rfl _).trans (A_eq15 (V31 m ρ) c 1))
/-- A buffer that is none of the region's arrays is as at entry. -/
theorem exit_keep (b : Ref sig .tc) (hb : ∀ w, Pipeline.arrRef spec15 w ≠ b) :
    W32 m ρ c (Proc.devRef .tc b) = W31 m ρ c (Proc.devRef .tc b) := W32_of_ne m ρ c b hb

end Exit

end Cert.KernelIdeal.Region15

end
-- ==== Proof.KLayer3.lean ====
/-
  Layer 3 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region12
import proofs.«144169_j55405078119367_2_alg».proof.Proof.Region13
import proofs.«144169_j55405078119367_2_alg».proof.Proof.Region14
import proofs.«144169_j55405078119367_2_alg».proof.Proof.Region15

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 3 = (0, 3). -/
theorem layer3 (X : FVec Ideal Cert.ReferenceIdeal.S8192x1 .f32) (HnB : (⟨2, ![8192, 8192]⟩ : Shape).Idx → EReal)
    (A : FVec Ideal Cert.ReferenceIdeal.S2x5x5 .f32)
    (A25 : W25 m ρ c (Proc.devRef .tc main_arg2) = A)
    (H25 : (W25 m ρ c (Proc.devRef .tc main_call0_v13_0) : (⟨2, ![8192, 8192]⟩ : Shape).Idx → EReal) = HnB)
    (v25 : toCol (W25 m ρ c (Proc.devRef .tc main_call0_v92)) = X)
    (y25 : toCol (W25 m ρ c (Proc.devRef .tc main_call0_v96)) = (Spec.sc (F := Ideal) (Spec.coef (F := Ideal) ![0, 3, 0] Cert.ReferenceIdeal.Gen.slices_S2x5x5_S1x1x1_0_3_0 A) X))
    (a25 : W25 m ρ c (Proc.devRef .tc main_call0_v99) = as11 (Spec.coef (F := Ideal) ![0, 3, 1] Cert.ReferenceIdeal.Gen.slices_S2x5x5_S1x1x1_0_3_1 A)) :
    W33 m ρ c (Proc.devRef .tc main_arg2) = A
    ∧ (W33 m ρ c (Proc.devRef .tc main_call0_v13_0) : (⟨2, ![8192, 8192]⟩ : Shape).Idx → EReal) = HnB
    ∧ toCol (W33 m ρ c (Proc.devRef .tc main_call0_v121)) = (Spec.layer03 (F := Ideal) A HnB X)
    ∧ toCol (W33 m ρ c (Proc.devRef .tc main_call0_v125)) = Spec.sc (F := Ideal) (Spec.coef (F := Ideal) ![0, 4, 0] Cert.ReferenceIdeal.Gen.slices_S2x5x5_S1x1x1_0_4_0 A) (Spec.layer03 (F := Ideal) A HnB X)
    ∧ W33 m ρ c (Proc.devRef .tc main_call0_v128) = as11 (Spec.coef (F := Ideal) ![0, 4, 1] Cert.ReferenceIdeal.Gen.slices_S2x5x5_S1x1x1_0_4_1 A) := by
  -- region 12: tap 1
  have H26 : (W26 m ρ c (Proc.devRef .tc main_call0_v13_0) : (⟨2, ![8192, 8192]⟩ : Shape).Idx → EReal) = HnB := (Region12.exit_H m ρ c).trans H25
  have A26 : W26 m ρ c (Proc.devRef .tc main_arg2) = A := (Region12.exit_keep m ρ c main_arg2 (by decide)).trans A25
  have v26 : toCol (W26 m ρ c (Proc.devRef .tc main_call0_v100_0)) = (Spec.mv (F := Ideal) HnB X) := by
    rw [Region12.exit_v m ρ c, toCol_Gv, v25]; exact congrArg (fun h => Spec.mv (F := Ideal) h X) H25
  have y26 : toCol (W26 m ρ c (Proc.devRef .tc main_call0_v100_1)) = (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) := by
    rw [Region12.exit_y m ρ c, a25, toCol_Gy, v25, y25]; exact congrArg (fun h => addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) h X))) H25
  -- stretch 13: the next coefficient
  have A27 : W27 m ρ c (Proc.devRef .tc main_arg2) = A := (keep13 (W26 m ρ c) main_arg2 (by decide)).trans A26
  have H27 : (W27 m ρ c (Proc.devRef .tc main_call0_v13_0) : (⟨2, ![8192, 8192]⟩ : Shape).Idx → EReal) = HnB := (keep13 (W26 m ρ c) main_call0_v13_0 (by decide)).trans H26
  have v27 : toCol (W27 m ρ c (Proc.devRef .tc main_call0_v100_0)) = (Spec.mv (F := Ideal) HnB X) := (congrArg toCol (keep13 (W26 m ρ c) main_call0_v100_0 (by decide))).trans v26
  have y27 : toCol (W27 m ρ c (Proc.devRef .tc main_call0_v100_1)) = (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) := (congrArg toCol (keep13 (W26 m ρ c) main_call0_v100_1 (by decide))).trans y26
  have a27 : W27 m ρ c (Proc.devRef .tc main_call0_v103) = as11 (Spec.coef (F := Ideal) ![0, 3, 2] Cert.ReferenceIdeal.Gen.slices_S2x5x5_S1x1x1_0_3_2 A) := (h13_a (W26 m ρ c)).trans (by rw [A26])
  -- region 13: tap 2
  have H28 : (W28 m ρ c (Proc.devRef .tc main_call0_v13_0) : (⟨2, ![8192, 8192]⟩ : Shape).Idx → EReal) = HnB := (Region13.exit_H m ρ c).trans H27
  have A28 : W28 m ρ c (Proc.devRef .tc main_arg2) = A := (Region13.exit_keep m ρ c main_arg2 (by decide)).trans A27
  have v28 : toCol (W28 m ρ c (Proc.devRef .tc main_call0_v104_0)) = (Spec.mv (F := Ideal) HnB (Spec.mv (F := Ideal) HnB X)) := by
    rw [Region13.exit_v m ρ c, toCol_Gv, v27]; exact congrArg (fun h => Spec.mv (F := Ideal) h (Spec.mv (F := Ideal) HnB X)) H27
  have y28 : toCol (W28 m ρ c (Proc.devRef .tc main_call0_v104_1)) = (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) := by
    rw [Region13.exit_y m ρ c, a27, toCol_Gy, v27, y27]; exact congrArg (fun h => addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) h (Spec.mv (F := Ideal) HnB X)))) H27
  -- stretch 14: the next coefficient
  have A29 : W29 m ρ c (Proc.devRef .tc main_arg2) = A := (keep14 (W28 m ρ c) main_arg2 (by decide)).trans A28
  have H29 : (W29 m ρ c (Proc.devRef .tc main_call0_v13_0) : (⟨2, ![8192, 8192]⟩ : Shape).Idx → EReal) = HnB := (keep14 (W28 m ρ c) main_call0_v13_0 (by decide)).trans H28
  have v29 : toCol (W29 m ρ c (Proc.devRef .tc main_call0_v104_0)) = (Spec.mv (F := Ideal) HnB (Spec.mv (F := Ideal) HnB X)) := (congrArg toCol (keep14 (W28 m ρ c) main_call0_v104_0 (by decide))).trans v28
  have y29 : toCol (W29 m ρ c (Proc.devRef .tc main_call0_v104_1)) = (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) := (congrArg toCol (keep14 (W28 m ρ c) main_call0_v104_1 (by decide))).trans y28
  have a29 : W29 m ρ c (Proc.devRef .tc main_call0_v107) = as11 (Spec.coef (F := Ideal) ![0, 3, 3] Cert.ReferenceIdeal.Gen.slices_S2x5x5_S1x1x1_0_3_3 A) := (h14_a (W28 m ρ c)).trans (by rw [A28])
  -- region 14: tap 3
  have H30 : (W30 m ρ c (Proc.devRef .tc main_call0_v13_0) : (⟨2, ![8192, 8192]⟩ : Shape).Idx → EReal) = HnB := (Region14.exit_H m ρ c).trans H29
  have A30 : W30 m ρ c (Proc.devRef .tc main_arg2) = A := (Region14.exit_keep m ρ c main_arg2 (by decide)).trans A29
  have v30 : toCol (W30 m ρ c (Proc.devRef .tc main_call0_v108_0)) = (Spec.mv (F := Ideal) HnB (Spec.mv (F := Ideal) HnB (Spec.mv (F := Ideal) HnB X))) := by
    rw [Region14.exit_v m ρ c, toCol_Gv, v29]; exact congrArg (fun h => Spec.mv (F := Ideal) h (Spec.mv (F := Ideal) HnB (Spec.mv (F := Ideal) HnB X))) H29
  have y30 : toCol (W30 m ρ c (Proc.devRef .tc main_call0_v108_1)) = (addf (F := Ideal) (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) (Spec.sc (F := Ideal) (Spec.coef (F := Ideal) ![0, 3, 3] Cert.ReferenceIdeal.Gen.slices_S2x5x5_S1x1x1_0_3_3 A) (Spec.mv (F := Ideal) HnB (Spec.mv (F := Ideal) HnB (Spec.mv (F := Ideal) HnB X))))) := by
    rw [Region14.exit_y m ρ c, a29, toCol_Gy, v29, y29]; exact congrArg (fun h => addf (F := Ideal) (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) (Spec.sc (F := Ideal) (Spec.coef (F := Ideal) ![0, 3, 3] Cert.ReferenceIdeal.Gen.slices_S2x5x5_S1x1x1_0_3_3 A) (Spec.mv (F := Ideal) h (Spec.mv (F := Ideal) HnB (Spec.mv (F := Ideal) HnB X))))) H29
  -- stretch 15: the next coefficient
  have A31 : W31 m ρ c (Proc.devRef .tc main_arg2) = A := (keep15 (W30 m ρ c) main_arg2 (by decide)).trans A30
  have H31 : (W31 m ρ c (Proc.devRef .tc main_call0_v13_0) : (⟨2, ![8192, 8192]⟩ : Shape).Idx → EReal) = HnB := (keep15 (W30 m ρ c) main_call0_v13_0 (by decide)).trans H30
  have v31 : toCol (W31 m ρ c (Proc.devRef .tc main_call0_v108_0)) = (Spec.mv (F := Ideal) HnB (Spec.mv (F := Ideal) HnB (Spec.mv (F := Ideal) HnB X))) := (congrArg toCol (keep15 (W30 m ρ c) main_call0_v108_0 (by decide))).trans v30
  have y31 : toCol (W31 m ρ c (Proc.devRef .tc main_call0_v108_1)) = (addf (F := Ideal) (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) (Spec.sc (F := Ideal) (Spec.coef (F := Ideal) ![0, 3, 3] Cert.ReferenceIdeal.Gen.slices_S2x5x5_S1x1x1_0_3_3 A) (Spec.mv (F := Ideal) HnB (Spec.mv (F := Ideal) HnB (Spec.mv (F := Ideal) HnB X))))) := (congrArg toCol (keep15 (W30 m ρ c) main_call0_v108_1 (by decide))).trans y30
  have a31 : W31 m ρ c (Proc.devRef .tc main_call0_v111) = as11 (Spec.coef (F := Ideal) ![0, 3, 4] Cert.ReferenceIdeal.Gen.slices_S2x5x5_S1x1x1_0_3_4 A) := (h15_a (W30 m ρ c)).trans (by rw [A30])
  -- region 15: tap 4
  have H32 : (W32 m ρ c (Proc.devRef .tc main_call0_v13_0) : (⟨2, ![8192, 8192]⟩ : Shape).Idx → EReal) = HnB := (Region15.exit_H m ρ c).trans H31
  have A32 : W32 m ρ c (Proc.devRef .tc main_arg2) = A := (Region15.exit_keep m ρ c main_arg2 (by decide)).trans A31
  have v32 : toCol (W32 m ρ c (Proc.devRef .tc main_call0_v112_0)) = (Spec.mv (F := Ideal) HnB (Spec.mv (F := Ideal) HnB (Spec.mv (F := Ideal) HnB (Spec.mv (F := Ideal) HnB X)))) := by
    rw [Region15.exit_v m ρ c, toCol_Gv, v31]; exact congrArg (fun h => Spec.mv (F := Ideal) h (Spec.mv (F := Ideal) HnB (Spec.mv (F := Ideal) HnB (Spec.mv (F := Ideal) HnB X)))) H31
  have y32 : toCol (W32 m ρ c (Proc.devRef .tc main_call0_v112_1)) = (addf (F := Ideal) (addf (F := Ideal) (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) (Spec.sc (F := Ideal) (Spec.coef (F := Ideal) ![0, 3, 3] Cert.ReferenceIdeal.Gen.slices_S2x5x5_S1x1x1_0_3_3 A) (Spec.mv (F := Ideal) HnB (Spec.mv (F := Ideal) HnB (Spec.mv (F := Ideal) HnB X))))) (Spec.sc (F := Ideal) (Spec.coef (F := Ideal) ![0, 3, 4] Cert.ReferenceIdeal.Gen.slices_S2x5x5_S1x1x1_0_3_4 A) (Spec.mv (F := Ideal) HnB (Spec.mv (F := Ideal) HnB (Spec.mv (F := Ideal) HnB (Spec.mv (F := Ideal) HnB X)))))) := by
    rw [Region15.exit_y m ρ c, a31, toCol_Gy, v31, y31]; exact congrArg (fun h => addf (F := Ideal) (addf (F := Ideal) (addf (F := Ideal) (addf (F := Ideal) (Spec.sc (F := Ideal) (Spec.coef (F := Ideal) ![0, 3, 0] Cert.ReferenceIdeal.Gen.slices_S2x5x5_S1x1x1_0_3_0 A) X) (Spec.sc (F := Ideal) (Spec.coef (F := Ideal) ![0, 3, 1] Cert.ReferenceIdeal.Gen.slices_S2x5x5_S1x1x1_0_3_1 A) (Spec.mv (F := Ideal) HnB X))) (Spec.sc (F := Ideal) (Spec.coef (F := Ideal) ![0, 3, 2] Cert.ReferenceIdeal.Gen.slices_S2x5x5_S1x1x1_0_3_2 A) (Spec.mv (F := Ideal) HnB (Spec.mv (F := Ideal) HnB X)))) (Spec.sc (F := Ideal) (Spec.coef (F := Ideal) ![0, 3, 3] Cert.ReferenceIdeal.Gen.slices_S2x5x5_S1x1x1_0_3_3 A) (Spec.mv (F := Ideal) HnB (Spec.mv (F := Ideal) HnB (Spec.mv (F := Ideal) HnB X))))) (Spec.sc (F := Ideal) (Spec.coef (F := Ideal) ![0, 3, 4] Cert.ReferenceIdeal.Gen.slices_S2x5x5_S1x1x1_0_3_4 A) (Spec.mv (F := Ideal) h (Spec.mv (F := Ideal) HnB (Spec.mv (F := Ideal) HnB (Spec.mv (F := Ideal) HnB X)))))) H31
  -- stretch 16: leaky_relu, the two normalisations, the next layer's first tap and second coefficient
  have A33 : W33 m ρ c (Proc.devRef .tc main_arg2) = A := (keep16 (W32 m ρ c) main_arg2 (by decide)).trans A32
  have H33 : (W33 m ρ c (Proc.devRef .tc main_call0_v13_0) : (⟨2, ![8192, 8192]⟩ : Shape).Idx → EReal) = HnB := (keep16 (W32 m ρ c) main_call0_v13_0 (by decide)).trans H32
  have x33 : toCol (W33 m ρ c (Proc.devRef .tc main_call0_v121)) = Spec.layer03 (F := Ideal) A HnB X := (h16_x (W32 m ρ c)).trans (by rw [y32]; rfl)
  have y33 : toCol (W33 m ρ c (Proc.devRef .tc main_call0_v125)) = Spec.sc (F := Ideal) (Spec.coef (F := Ideal) ![0, 4, 0] Cert.ReferenceIdeal.Gen.slices_S2x5x5_S1x1x1_0_4_0 A) (Spec.layer03 (F := Ideal) A HnB X) := (h16_y0 (W32 m ρ c)).trans (by rw [y32, A32]; rfl)
  have a33 : W33 m ρ c (Proc.devRef .tc main_call0_v128) = as11 (Spec.coef (F := Ideal) ![0, 4, 1] Cert.ReferenceIdeal.Gen.slices_S2x5x5_S1x1x1_0_4_1 A) := (h16_a (W32 m ρ c)).trans (by rw [A32])
  exact ⟨A33, H33, x33, y33, a33⟩

end Cert.KernelIdeal.Chain

end
-- ==== Proof.Region16.lean ====
/-
  Region 16 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region16

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg16.N,
      win16_0.index t (0 : Fin 2) = win16_4.index t (1 : Fin 2) ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = win16_4.index t (1 : Fin 2)
    ∧ win16_4.index t (0 : Fin 2) = 0 ∧ win16_4.index t (1 : Fin 2) ≤ 7
    ∧ win16_5.index t (0 : Fin 2) = 0 ∧ win16_5.index t (1 : Fin 2) = win16_4.index t (1 : Fin 2) :=
  (by decide +kernel : ∀ t : Fin grid16.N, _)

/-- Every one of the eight blocks of the row is some point's. -/
theorem idx_onto : ∀ q : Fin 8, ∃ t : Fin cfg16.N, win16_4.index t = ![0, q.val] :=
  (by decide +kernel : ∀ q : Fin 8, ∃ t : Fin grid16.N, win16_4.index t = ![0, q.val])

/-- The row window's block is the whole row at every point. -/
theorem blk1 (c : Dev nD) (t : Fin cfg16.N) (k : Fin 8192) : iblk16 V c 1 t (ix2 0 k) = V c (Pipeline.arrRef spec16 1) (ix2 0 k) := by
  obtain ⟨e00, e01, e10, e11, e20, e21, e30, e31, e40, e41, e50, e51⟩ := idx_facts t
  show V c (Pipeline.arrRef spec16 1) (((cfg16.win 1).blk t).view.emb (ix2 0 k)) = V c (Pipeline.arrRef spec16 1) (ix2 0 k)
  refine congrArg _ (funext fun a => Fin.ext ?_)
  match a with
  | ⟨0, _⟩ => show win16_1.index t (0 : Fin 2) * 1 + 1 * 0 = 0; omega
  | ⟨1, _⟩ => show win16_1.index t (1 : Fin 2) * 8192 + 1 * k.val = k.val; omega

/-- The coefficient window's block is the one entry. -/
theorem blk2 (c : Dev nD) (t : Fin cfg16.N) : iblk16 V c 2 t (ix2 0 0) = V c (Pipeline.arrRef spec16 2) (ix2 0 0) := by
  obtain ⟨e00, e01, e10, e11, e20, e21, e30, e31, e40, e41, e50, e51⟩ := idx_facts t
  show V c (Pipeline.arrRef spec16 2) (((cfg16.win 2).blk t).view.emb (ix2 0 0)) = V c (Pipeline.arrRef spec16 2) (ix2 0 0)
  refine congrArg _ (funext fun a => Fin.ext ?_)
  match a with
  | ⟨0, _⟩ => show win16_2.index t (0 : Fin 2) * 1 + 1 * 0 = 0; omega
  | ⟨1, _⟩ => show win16_2.index t (1 : Fin 2) * 1 + 1 * 0 = 0; omega

/-- The matrix window's block at point t is rows 1024·t … of the matrix: its row q is row (block's column position) of the array. -/
theorem blk0 (c : Dev nD) (t : Fin cfg16.N) (q : Fin 1024) (k : Fin 8192) :
    iblk16 V c 0 t (ix2 q k) = V c (Pipeline.arrRef spec16 0) (ix2 ((((cfg16.win 4).blk t).view.emb (ix2 0 q)) 1) k) := by
  obtain ⟨e00, e01, e10, e11, e20, e21, e30, e31, e40, e41, e50, e51⟩ := idx_facts t
  show V c (Pipeline.arrRef spec16 0) (((cfg16.win 0).blk t).view.emb (ix2 q k)) = _
  refine congrArg _ (funext fun a => Fin.ext ?_)
  match a with
  | ⟨0, _⟩ => show win16_0.index t (0 : Fin 2) * 1024 + 1 * q.val = win16_4.index t (1 : Fin 2) * 1024 + 1 * q.val; omega
  | ⟨1, _⟩ => show win16_0.index t (1 : Fin 2) * 8192 + 1 * k.val = k.val; omega

/-- The incoming accumulator window's block at point t is the same stretch of the row as the outgoing ones'. -/
theorem blk3 (c : Dev nD) (t : Fin cfg16.N) (q : Fin 1024) :
    iblk16 V c 3 t (ix2 0 q) = V c (Pipeline.arrRef spec16 3) (((cfg16.win 5).blk t).view.emb (ix2 0 q)) := by
  obtain ⟨e00, e01, e10, e11, e20, e21, e30, e31, e40, e41, e50, e51⟩ := idx_facts t
  show V c (Pipeline.arrRef spec16 3) (((cfg16.win 3).blk t).view.emb (ix2 0 q)) = _
  refine congrArg _ (funext fun a => Fin.ext ?_)
  match a with
  | ⟨0, _⟩ => show win16_3.index t (0 : Fin 2) * 1 + 1 * 0 = win16_5.index t (0 : Fin 2) * 1 + 1 * 0; omega
  | ⟨1, _⟩ => show win16_3.index t (1 : Fin 2) * 1024 + 1 * q.val = win16_5.index t (1 : Fin 2) * 1024 + 1 * q.val; omega

set_option maxHeartbeats 4000000 in
/-- WHAT POINT t WRITES BACK to the product window: block t of the product row. -/
theorem flushed4_eq (c : Dev nD) (t : Fin cfg16.N) :
    (dat16 V c).flushed 4 t = ((cfg16.win 4).blk t).view.read (Elt Ideal)
      (Gv (V c (Pipeline.arrRef spec16 1)) (V c (Pipeline.arrRef spec16 0))) := by
  show (cfg16.win 4).cut (grid16.coords t) ((dat16 V c).after 4 t) = _
  rw [after16_4]
  unfold out16_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk16 V c 1 t) (iblk16 V c 0 t) q).trans ?_
  show mvRow (iblk16 V c 1 t) (iblk16 V c 0 t) q
    = mvRow (V c (Pipeline.arrRef spec16 1)) (V c (Pipeline.arrRef spec16 0)) ((((cfg16.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg16.N) :
    (dat16 V c).flushed 5 t = ((cfg16.win 5).blk t).view.read (Elt Ideal)
      (Gy (V c (Pipeline.arrRef spec16 1)) (V c (Pipeline.arrRef spec16 0)) (V c (Pipeline.arrRef spec16 2)) (V c (Pipeline.arrRef spec16 3))) := by
  show (cfg16.win 5).cut (grid16.coords t) ((dat16 V c).after 5 t) = _
  rw [after16_5]
  unfold out16_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk16 V c 1 t) (iblk16 V c 0 t) (iblk16 V c 2 t) (iblk16 V c 3 t) q).trans ?_
  refine Eq.trans ?_ (Gy_acc (V c (Pipeline.arrRef spec16 1)) (V c (Pipeline.arrRef spec16 0)) (V c (Pipeline.arrRef spec16 2)) (V c (Pipeline.arrRef spec16 3))
    (((cfg16.win 5).blk t).view.emb (ix2 0 q))).symm
  rw [blk3 V c t q, blk2 V c t]
  refine congrArg (accAt _ _) ?_
  unfold mvRow
  refine Finset.sum_congr rfl fun k _ => ?_
  have hX : (((cfg16.win 4).blk t).view.emb (ix2 0 q)) 1 = (((cfg16.win 5).blk t).view.emb (ix2 0 q)) 1 :=
    Fin.ext (by show win16_4.index t (1 : Fin 2) * 1024 + 1 * q.val = win16_5.index t (1 : Fin 2) * 1024 + 1 * q.val; omega)
  rw [blk1 V c t k, blk0 V c t q k, hX]

/-- An index of a [1,8192] output array is in point t's block iff each coordinate is in the block's range. -/
theorem mem_blk4 (t : Fin cfg16.N) (i : S1x8192.Idx) :
    i ∈ ((cfg16.win 4).blk t).view.set ↔ ∀ a : Fin 2, win16_4.index t a * S1x1024.size a ≤ (i a).val ∧ (i a).val < win16_4.index t a * S1x1024.size a + S1x1024.size a := by
  show i ∈ ((View.whole main_call0_v129_0).slice (win16_4.rect t)).set ↔ _
  rw [View.set_slice_whole, Rect.mem_set_unit]
  exact Iff.rfl
theorem mem_blk5 (t : Fin cfg16.N) (i : S1x8192.Idx) :
    i ∈ ((cfg16.win 5).blk t).view.set ↔ ∀ a : Fin 2, win16_5.index t a * S1x1024.size a ≤ (i a).val ∧ (i a).val < win16_5.index t a * S1x1024.size a + S1x1024.size a := by
  show i ∈ ((View.whole main_call0_v129_1).slice (win16_5.rect t)).set ↔ _
  rw [View.set_slice_whole, Rect.mem_set_unit]
  exact Iff.rfl

/-- The eight blocks cover the row: column n is in the block of the point whose block index is n / 1024. -/
theorem cover4 (i : S1x8192.Idx) : ∃ t : Fin cfg16.N, (cfg16.win 4).flush t = true ∧ i ∈ ((cfg16.win 4).blk t).view.set := by
  have hi0 : (i 0).val < 1 := (i 0).isLt
  have hi1 : (i 1).val < 8192 := (i 1).isLt
  obtain ⟨t, ht⟩ := idx_onto ⟨(i 1).val / 1024, by omega⟩
  have q0 : win16_4.index t (0 : Fin 2) = 0 := congrFun ht 0
  have q1 : win16_4.index t (1 : Fin 2) = (i 1).val / 1024 := congrFun ht 1
  refine ⟨t, flush16_4 t, ?_⟩
  rw [mem_blk4]
  intro a
  match a with
  | ⟨0, _⟩ => show win16_4.index t (0 : Fin 2) * 1 ≤ (i 0).val ∧ (i 0).val < win16_4.index t (0 : Fin 2) * 1 + 1; omega
  | ⟨1, _⟩ => show win16_4.index t (1 : Fin 2) * 1024 ≤ (i 1).val ∧ (i 1).val < win16_4.index t (1 : Fin 2) * 1024 + 1024; omega
theorem cover5 (i : S1x8192.Idx) : ∃ t : Fin cfg16.N, (cfg16.win 5).flush t = true ∧ i ∈ ((cfg16.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win16_4.index t (1 : Fin 2) = (i 1).val / 1024 := congrFun ht 1
  refine ⟨t, flush16_5 t, ?_⟩
  rw [mem_blk5]
  intro a
  match a with
  | ⟨0, _⟩ => show win16_5.index t (0 : Fin 2) * 1 ≤ (i 0).val ∧ (i 0).val < win16_5.index t (0 : Fin 2) * 1 + 1; omega
  | ⟨1, _⟩ => show win16_5.index t (1 : Fin 2) * 1024 ≤ (i 1).val ∧ (i 1).val < win16_5.index t (1 : Fin 2) * 1024 + 1024; omega

/-- THE PRODUCT ARRAY after the region. -/
theorem final4 (c : Dev nD) : (dat16 V c).arrAt 4 cfg16.N = Gv (V c (Pipeline.arrRef spec16 1)) (V c (Pipeline.arrRef spec16 0)) :=
  (dat16 V c).arrAt_eq_of_cover 4 _ (fun t _ => flushed4_eq V c t) cover4
/-- THE ACCUMULATOR ARRAY after the region. -/
theorem final5 (c : Dev nD) : (dat16 V c).arrAt 5 cfg16.N
    = Gy (V c (Pipeline.arrRef spec16 1)) (V c (Pipeline.arrRef spec16 0)) (V c (Pipeline.arrRef spec16 2)) (V c (Pipeline.arrRef spec16 3)) :=
  (dat16 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W34 m ρ c (Proc.devRef .tc main_call0_v129_0) = Gv (W33 m ρ c (Proc.devRef .tc main_call0_v121)) (W33 m ρ c (Proc.devRef .tc main_call0_v13_0)) :=
  (W34_arr m ρ c 4).trans (final4 (V33 m ρ) c)
/-- The accumulator buffer after the region. -/
theorem exit_y : W34 m ρ c (Proc.devRef .tc main_call0_v129_1)
    = Gy (W33 m ρ c (Proc.devRef .tc main_call0_v121)) (W33 m ρ c (Proc.devRef .tc main_call0_v13_0)) (W33 m ρ c (Proc.devRef .tc main_call0_v128)) (W33 m ρ c (Proc.devRef .tc main_call0_v125)) :=
  (W34_arr m ρ c 5).trans (final5 (V33 m ρ) c)
/-- The matrix is only read. -/
theorem exit_H : W34 m ρ c (Proc.devRef .tc main_call0_v13_0) = W33 m ρ c (Proc.devRef .tc main_call0_v13_0) :=
  (W34_arr m ρ c 0).trans (((dat16 (V33 m ρ) c).arrAt_in 0 rfl _).trans (A_eq16 (V33 m ρ) c 0))
/-- The incoming row is only read. -/
theorem exit_vin : W34 m ρ c (Proc.devRef .tc main_call0_v121) = W33 m ρ c (Proc.devRef .tc main_call0_v121) :=
  (W34_arr m ρ c 1).trans (((dat16 (V33 m ρ) c).arrAt_in 1 rfl _).trans (A_eq16 (V33 m ρ) c 1))
/-- A buffer that is none of the region's arrays is as at entry. -/
theorem exit_keep (b : Ref sig .tc) (hb : ∀ w, Pipeline.arrRef spec16 w ≠ b) :
    W34 m ρ c (Proc.devRef .tc b) = W33 m ρ c (Proc.devRef .tc b) := W34_of_ne m ρ c b hb

end Exit

end Cert.KernelIdeal.Region16

end
-- ==== Proof.Region17.lean ====
/-
  Region 17 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region17

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg17.N,
      win17_0.index t (0 : Fin 2) = win17_4.index t (1 : Fin 2) ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = win17_4.index t (1 : Fin 2)
    ∧ win17_4.index t (0 : Fin 2) = 0 ∧ win17_4.index t (1 : Fin 2) ≤ 7
    ∧ win17_5.index t (0 : Fin 2) = 0 ∧ win17_5.index t (1 : Fin 2) = win17_4.index t (1 : Fin 2) :=
  (by decide +kernel : ∀ t : Fin grid17.N, _)

/-- Every one of the eight blocks of the row is some point's. -/
theorem idx_onto : ∀ q : Fin 8, ∃ t : Fin cfg17.N, win17_4.index t = ![0, q.val] :=
  (by decide +kernel : ∀ q : Fin 8, ∃ t : Fin grid17.N, win17_4.index t = ![0, q.val])

/-- The row window's block is the whole row at every point. -/
theorem blk1 (c : Dev nD) (t : Fin cfg17.N) (k : Fin 8192) : iblk17 V c 1 t (ix2 0 k) = V c (Pipeline.arrRef spec17 1) (ix2 0 k) := by
  obtain ⟨e00, e01, e10, e11, e20, e21, e30, e31, e40, e41, e50, e51⟩ := idx_facts t
  show V c (Pipeline.arrRef spec17 1) (((cfg17.win 1).blk t).view.emb (ix2 0 k)) = V c (Pipeline.arrRef spec17 1) (ix2 0 k)
  refine congrArg _ (funext fun a => Fin.ext ?_)
  match a with
  | ⟨0, _⟩ => show win17_1.index t (0 : Fin 2) * 1 + 1 * 0 = 0; omega
  | ⟨1, _⟩ => show win17_1.index t (1 : Fin 2) * 8192 + 1 * k.val = k.val; omega

/-- The coefficient window's block is the one entry. -/
theorem blk2 (c : Dev nD) (t : Fin cfg17.N) : iblk17 V c 2 t (ix2 0 0) = V c (Pipeline.arrRef spec17 2) (ix2 0 0) := by
  obtain ⟨e00, e01, e10, e11, e20, e21, e30, e31, e40, e41, e50, e51⟩ := idx_facts t
  show V c (Pipeline.arrRef spec17 2) (((cfg17.win 2).blk t).view.emb (ix2 0 0)) = V c (Pipeline.arrRef spec17 2) (ix2 0 0)
  refine congrArg _ (funext fun a => Fin.ext ?_)
  match a with
  | ⟨0, _⟩ => show win17_2.index t (0 : Fin 2) * 1 + 1 * 0 = 0; omega
  | ⟨1, _⟩ => show win17_2.index t (1 : Fin 2) * 1 + 1 * 0 = 0; omega

/-- The matrix window's block at point t is rows 1024·t … of the matrix: its row q is row (block's column position) of the array. -/
theorem blk0 (c : Dev nD) (t : Fin cfg17.N) (q : Fin 1024) (k : Fin 8192) :
    iblk17 V c 0 t (ix2 q k) = V c (Pipeline.arrRef spec17 0) (ix2 ((((cfg17.win 4).blk t).view.emb (ix2 0 q)) 1) k) := by
  obtain ⟨e00, e01, e10, e11, e20, e21, e30, e31, e40, e41, e50, e51⟩ := idx_facts t
  show V c (Pipeline.arrRef spec17 0) (((cfg17.win 0).blk t).view.emb (ix2 q k)) = _
  refine congrArg _ (funext fun a => Fin.ext ?_)
  match a with
  | ⟨0, _⟩ => show win17_0.index t (0 : Fin 2) * 1024 + 1 * q.val = win17_4.index t (1 : Fin 2) * 1024 + 1 * q.val; omega
  | ⟨1, _⟩ => show win17_0.index t (1 : Fin 2) * 8192 + 1 * k.val = k.val; omega

/-- The incoming accumulator window's block at point t is the same stretch of the row as the outgoing ones'. -/
theorem blk3 (c : Dev nD) (t : Fin cfg17.N) (q : Fin 1024) :
    iblk17 V c 3 t (ix2 0 q) = V c (Pipeline.arrRef spec17 3) (((cfg17.win 5).blk t).view.emb (ix2 0 q)) := by
  obtain ⟨e00, e01, e10, e11, e20, e21, e30, e31, e40, e41, e50, e51⟩ := idx_facts t
  show V c (Pipeline.arrRef spec17 3) (((cfg17.win 3).blk t).view.emb (ix2 0 q)) = _
  refine congrArg _ (funext fun a => Fin.ext ?_)
  match a with
  | ⟨0, _⟩ => show win17_3.index t (0 : Fin 2) * 1 + 1 * 0 = win17_5.index t (0 : Fin 2) * 1 + 1 * 0; omega
  | ⟨1, _⟩ => show win17_3.index t (1 : Fin 2) * 1024 + 1 * q.val = win17_5.index t (1 : Fin 2) * 1024 + 1 * q.val; omega

set_option maxHeartbeats 4000000 in
/-- WHAT POINT t WRITES BACK to the product window: block t of the product row. -/
theorem flushed4_eq (c : Dev nD) (t : Fin cfg17.N) :
    (dat17 V c).flushed 4 t = ((cfg17.win 4).blk t).view.read (Elt Ideal)
      (Gv (V c (Pipeline.arrRef spec17 1)) (V c (Pipeline.arrRef spec17 0))) := by
  show (cfg17.win 4).cut (grid17.coords t) ((dat17 V c).after 4 t) = _
  rw [after17_4]
  unfold out17_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk17 V c 1 t) (iblk17 V c 0 t) q).trans ?_
  show mvRow (iblk17 V c 1 t) (iblk17 V c 0 t) q
    = mvRow (V c (Pipeline.arrRef spec17 1)) (V c (Pipeline.arrRef spec17 0)) ((((cfg17.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg17.N) :
    (dat17 V c).flushed 5 t = ((cfg17.win 5).blk t).view.read (Elt Ideal)
      (Gy (V c (Pipeline.arrRef spec17 1)) (V c (Pipeline.arrRef spec17 0)) (V c (Pipeline.arrRef spec17 2)) (V c (Pipeline.arrRef spec17 3))) := by
  show (cfg17.win 5).cut (grid17.coords t) ((dat17 V c).after 5 t) = _
  rw [after17_5]
  unfold out17_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk17 V c 1 t) (iblk17 V c 0 t) (iblk17 V c 2 t) (iblk17 V c 3 t) q).trans ?_
  refine Eq.trans ?_ (Gy_acc (V c (Pipeline.arrRef spec17 1)) (V c (Pipeline.arrRef spec17 0)) (V c (Pipeline.arrRef spec17 2)) (V c (Pipeline.arrRef spec17 3))
    (((cfg17.win 5).blk t).view.emb (ix2 0 q))).symm
  rw [blk3 V c t q, blk2 V c t]
  refine congrArg (accAt _ _) ?_
  unfold mvRow
  refine Finset.sum_congr rfl fun k _ => ?_
  have hX : (((cfg17.win 4).blk t).view.emb (ix2 0 q)) 1 = (((cfg17.win 5).blk t).view.emb (ix2 0 q)) 1 :=
    Fin.ext (by show win17_4.index t (1 : Fin 2) * 1024 + 1 * q.val = win17_5.index t (1 : Fin 2) * 1024 + 1 * q.val; omega)
  rw [blk1 V c t k, blk0 V c t q k, hX]

/-- An index of a [1,8192] output array is in point t's block iff each coordinate is in the block's range. -/
theorem mem_blk4 (t : Fin cfg17.N) (i : S1x8192.Idx) :
    i ∈ ((cfg17.win 4).blk t).view.set ↔ ∀ a : Fin 2, win17_4.index t a * S1x1024.size a ≤ (i a).val ∧ (i a).val < win17_4.index t a * S1x1024.size a + S1x1024.size a := by
  show i ∈ ((View.whole main_call0_v133_0).slice (win17_4.rect t)).set ↔ _
  rw [View.set_slice_whole, Rect.mem_set_unit]
  exact Iff.rfl
theorem mem_blk5 (t : Fin cfg17.N) (i : S1x8192.Idx) :
    i ∈ ((cfg17.win 5).blk t).view.set ↔ ∀ a : Fin 2, win17_5.index t a * S1x1024.size a ≤ (i a).val ∧ (i a).val < win17_5.index t a * S1x1024.size a + S1x1024.size a := by
  show i ∈ ((View.whole main_call0_v133_1).slice (win17_5.rect t)).set ↔ _
  rw [View.set_slice_whole, Rect.mem_set_unit]
  exact Iff.rfl

/-- The eight blocks cover the row: column n is in the block of the point whose block index is n / 1024. -/
theorem cover4 (i : S1x8192.Idx) : ∃ t : Fin cfg17.N, (cfg17.win 4).flush t = true ∧ i ∈ ((cfg17.win 4).blk t).view.set := by
  have hi0 : (i 0).val < 1 := (i 0).isLt
  have hi1 : (i 1).val < 8192 := (i 1).isLt
  obtain ⟨t, ht⟩ := idx_onto ⟨(i 1).val / 1024, by omega⟩
  have q0 : win17_4.index t (0 : Fin 2) = 0 := congrFun ht 0
  have q1 : win17_4.index t (1 : Fin 2) = (i 1).val / 1024 := congrFun ht 1
  refine ⟨t, flush17_4 t, ?_⟩
  rw [mem_blk4]
  intro a
  match a with
  | ⟨0, _⟩ => show win17_4.index t (0 : Fin 2) * 1 ≤ (i 0).val ∧ (i 0).val < win17_4.index t (0 : Fin 2) * 1 + 1; omega
  | ⟨1, _⟩ => show win17_4.index t (1 : Fin 2) * 1024 ≤ (i 1).val ∧ (i 1).val < win17_4.index t (1 : Fin 2) * 1024 + 1024; omega
theorem cover5 (i : S1x8192.Idx) : ∃ t : Fin cfg17.N, (cfg17.win 5).flush t = true ∧ i ∈ ((cfg17.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win17_4.index t (1 : Fin 2) = (i 1).val / 1024 := congrFun ht 1
  refine ⟨t, flush17_5 t, ?_⟩
  rw [mem_blk5]
  intro a
  match a with
  | ⟨0, _⟩ => show win17_5.index t (0 : Fin 2) * 1 ≤ (i 0).val ∧ (i 0).val < win17_5.index t (0 : Fin 2) * 1 + 1; omega
  | ⟨1, _⟩ => show win17_5.index t (1 : Fin 2) * 1024 ≤ (i 1).val ∧ (i 1).val < win17_5.index t (1 : Fin 2) * 1024 + 1024; omega

/-- THE PRODUCT ARRAY after the region. -/
theorem final4 (c : Dev nD) : (dat17 V c).arrAt 4 cfg17.N = Gv (V c (Pipeline.arrRef spec17 1)) (V c (Pipeline.arrRef spec17 0)) :=
  (dat17 V c).arrAt_eq_of_cover 4 _ (fun t _ => flushed4_eq V c t) cover4
/-- THE ACCUMULATOR ARRAY after the region. -/
theorem final5 (c : Dev nD) : (dat17 V c).arrAt 5 cfg17.N
    = Gy (V c (Pipeline.arrRef spec17 1)) (V c (Pipeline.arrRef spec17 0)) (V c (Pipeline.arrRef spec17 2)) (V c (Pipeline.arrRef spec17 3)) :=
  (dat17 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W36 m ρ c (Proc.devRef .tc main_call0_v133_0) = Gv (W35 m ρ c (Proc.devRef .tc main_call0_v129_0)) (W35 m ρ c (Proc.devRef .tc main_call0_v13_0)) :=
  (W36_arr m ρ c 4).trans (final4 (V35 m ρ) c)
/-- The accumulator buffer after the region. -/
theorem exit_y : W36 m ρ c (Proc.devRef .tc main_call0_v133_1)
    = Gy (W35 m ρ c (Proc.devRef .tc main_call0_v129_0)) (W35 m ρ c (Proc.devRef .tc main_call0_v13_0)) (W35 m ρ c (Proc.devRef .tc main_call0_v132)) (W35 m ρ c (Proc.devRef .tc main_call0_v129_1)) :=
  (W36_arr m ρ c 5).trans (final5 (V35 m ρ) c)
/-- The matrix is only read. -/
theorem exit_H : W36 m ρ c (Proc.devRef .tc main_call0_v13_0) = W35 m ρ c (Proc.devRef .tc main_call0_v13_0) :=
  (W36_arr m ρ c 0).trans (((dat17 (V35 m ρ) c).arrAt_in 0 rfl _).trans (A_eq17 (V35 m ρ) c 0))
/-- The incoming row is only read. -/
theorem exit_vin : W36 m ρ c (Proc.devRef .tc main_call0_v129_0) = W35 m ρ c (Proc.devRef .tc main_call0_v129_0) :=
  (W36_arr m ρ c 1).trans (((dat17 (V35 m ρ) c).arrAt_in 1 rfl _).trans (A_eq17 (V35 m ρ) c 1))
/-- A buffer that is none of the region's arrays is as at entry. -/
theorem exit_keep (b : Ref sig .tc) (hb : ∀ w, Pipeline.arrRef spec17 w ≠ b) :
    W36 m ρ c (Proc.devRef .tc b) = W35 m ρ c (Proc.devRef .tc b) := W36_of_ne m ρ c b hb

end Exit

end Cert.KernelIdeal.Region17

end
-- ==== Proof.Region18.lean ====
/-
  Region 18 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region18

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg18.N,
      win18_0.index t (0 : Fin 2) = win18_4.index t (1 : Fin 2) ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = 0 ∧ win18_3.index t (1 : Fin 2) = win18_4.index t (1 : Fin 2)
    ∧ win18_4.index t (0 : Fin 2) = 0 ∧ win18_4.index t (1 : Fin 2) ≤ 7
    ∧ win18_5.index t (0 : Fin 2) = 0 ∧ win18_5.index t (1 : Fin 2) = win18_4.index t (1 : Fin 2) :=
  (by decide +kernel : ∀ t : Fin grid18.N, _)

/-- Every one of the eight blocks of the row is some point's. -/
theorem idx_onto : ∀ q : Fin 8, ∃ t : Fin cfg18.N, win18_4.index t = ![0, q.val] :=
  (by decide +kernel : ∀ q : Fin 8, ∃ t : Fin grid18.N, win18_4.index t = ![0, q.val])

/-- The row window's block is the whole row at every point. -/
theorem blk1 (c : Dev nD) (t : Fin cfg18.N) (k : Fin 8192) : iblk18 V c 1 t (ix2 0 k) = V c (Pipeline.arrRef spec18 1) (ix2 0 k) := by
  obtain ⟨e00, e01, e10, e11, e20, e21, e30, e31, e40, e41, e50, e51⟩ := idx_facts t
  show V c (Pipeline.arrRef spec18 1) (((cfg18.win 1).blk t).view.emb (ix2 0 k)) = V c (Pipeline.arrRef spec18 1) (ix2 0 k)
  refine congrArg _ (funext fun a => Fin.ext ?_)
  match a with
  | ⟨0, _⟩ => show win18_1.index t (0 : Fin 2) * 1 + 1 * 0 = 0; omega
  | ⟨1, _⟩ => show win18_1.index t (1 : Fin 2) * 8192 + 1 * k.val = k.val; omega

/-- The coefficient window's block is the one entry. -/
theorem blk2 (c : Dev nD) (t : Fin cfg18.N) : iblk18 V c 2 t (ix2 0 0) = V c (Pipeline.arrRef spec18 2) (ix2 0 0) := by
  obtain ⟨e00, e01, e10, e11, e20, e21, e30, e31, e40, e41, e50, e51⟩ := idx_facts t
  show V c (Pipeline.arrRef spec18 2) (((cfg18.win 2).blk t).view.emb (ix2 0 0)) = V c (Pipeline.arrRef spec18 2) (ix2 0 0)
  refine congrArg _ (funext fun a => Fin.ext ?_)
  match a with
  | ⟨0, _⟩ => show win18_2.index t (0 : Fin 2) * 1 + 1 * 0 = 0; omega
  | ⟨1, _⟩ => show win18_2.index t (1 : Fin 2) * 1 + 1 * 0 = 0; omega

/-- The matrix window's block at point t is rows 1024·t … of the matrix: its row q is row (block's column position) of the array. -/
theorem blk0 (c : Dev nD) (t : Fin cfg18.N) (q : Fin 1024) (k : Fin 8192) :
    iblk18 V c 0 t (ix2 q k) = V c (Pipeline.arrRef spec18 0) (ix2 ((((cfg18.win 4).blk t).view.emb (ix2 0 q)) 1) k) := by
  obtain ⟨e00, e01, e10, e11, e20, e21, e30, e31, e40, e41, e50, e51⟩ := idx_facts t
  show V c (Pipeline.arrRef spec18 0) (((cfg18.win 0).blk t).view.emb (ix2 q k)) = _
  refine congrArg _ (funext fun a => Fin.ext ?_)
  match a with
  | ⟨0, _⟩ => show win18_0.index t (0 : Fin 2) * 1024 + 1 * q.val = win18_4.index t (1 : Fin 2) * 1024 + 1 * q.val; omega
  | ⟨1, _⟩ => show win18_0.index t (1 : Fin 2) * 8192 + 1 * k.val = k.val; omega

/-- The incoming accumulator window's block at point t is the same stretch of the row as the outgoing ones'. -/
theorem blk3 (c : Dev nD) (t : Fin cfg18.N) (q : Fin 1024) :
    iblk18 V c 3 t (ix2 0 q) = V c (Pipeline.arrRef spec18 3) (((cfg18.win 5).blk t).view.emb (ix2 0 q)) := by
  obtain ⟨e00, e01, e10, e11, e20, e21, e30, e31, e40, e41, e50, e51⟩ := idx_facts t
  show V c (Pipeline.arrRef spec18 3) (((cfg18.win 3).blk t).view.emb (ix2 0 q)) = _
  refine congrArg _ (funext fun a => Fin.ext ?_)
  match a with
  | ⟨0, _⟩ => show win18_3.index t (0 : Fin 2) * 1 + 1 * 0 = win18_5.index t (0 : Fin 2) * 1 + 1 * 0; omega
  | ⟨1, _⟩ => show win18_3.index t (1 : Fin 2) * 1024 + 1 * q.val = win18_5.index t (1 : Fin 2) * 1024 + 1 * q.val; omega

set_option maxHeartbeats 4000000 in
/-- WHAT POINT t WRITES BACK to the product window: block t of the product row. -/
theorem flushed4_eq (c : Dev nD) (t : Fin cfg18.N) :
    (dat18 V c).flushed 4 t = ((cfg18.win 4).blk t).view.read (Elt Ideal)
      (Gv (V c (Pipeline.arrRef spec18 1)) (V c (Pipeline.arrRef spec18 0))) := by
  show (cfg18.win 4).cut (grid18.coords t) ((dat18 V c).after 4 t) = _
  rw [after18_4]
  unfold out18_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk18 V c 1 t) (iblk18 V c 0 t) q).trans ?_
  show mvRow (iblk18 V c 1 t) (iblk18 V c 0 t) q
    = mvRow (V c (Pipeline.arrRef spec18 1)) (V c (Pipeline.arrRef spec18 0)) ((((cfg18.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg18.N) :
    (dat18 V c).flushed 5 t = ((cfg18.win 5).blk t).view.read (Elt Ideal)
      (Gy (V c (Pipeline.arrRef spec18 1)) (V c (Pipeline.arrRef spec18 0)) (V c (Pipeline.arrRef spec18 2)) (V c (Pipeline.arrRef spec18 3))) := by
  show (cfg18.win 5).cut (grid18.coords t) ((dat18 V c).after 5 t) = _
  rw [after18_5]
  unfold out18_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk18 V c 1 t) (iblk18 V c 0 t) (iblk18 V c 2 t) (iblk18 V c 3 t) q).trans ?_
  refine Eq.trans ?_ (Gy_acc (V c (Pipeline.arrRef spec18 1)) (V c (Pipeline.arrRef spec18 0)) (V c (Pipeline.arrRef spec18 2)) (V c (Pipeline.arrRef spec18 3))
    (((cfg18.win 5).blk t).view.emb (ix2 0 q))).symm
  rw [blk3 V c t q, blk2 V c t]
  refine congrArg (accAt _ _) ?_
  unfold mvRow
  refine Finset.sum_congr rfl fun k _ => ?_
  have hX : (((cfg18.win 4).blk t).view.emb (ix2 0 q)) 1 = (((cfg18.win 5).blk t).view.emb (ix2 0 q)) 1 :=
    Fin.ext (by show win18_4.index t (1 : Fin 2) * 1024 + 1 * q.val = win18_5.index t (1 : Fin 2) * 1024 + 1 * q.val; omega)
  rw [blk1 V c t k, blk0 V c t q k, hX]

/-- An index of a [1,8192] output array is in point t's block iff each coordinate is in the block's range. -/
theorem mem_blk4 (t : Fin cfg18.N) (i : S1x8192.Idx) :
    i ∈ ((cfg18.win 4).blk t).view.set ↔ ∀ a : Fin 2, win18_4.index t a * S1x1024.size a ≤ (i a).val ∧ (i a).val < win18_4.index t a * S1x1024.size a + S1x1024.size a := by
  show i ∈ ((View.whole main_call0_v137_0).slice (win18_4.rect t)).set ↔ _
  rw [View.set_slice_whole, Rect.mem_set_unit]
  exact Iff.rfl
theorem mem_blk5 (t : Fin cfg18.N) (i : S1x8192.Idx) :
    i ∈ ((cfg18.win 5).blk t).view.set ↔ ∀ a : Fin 2, win18_5.index t a * S1x1024.size a ≤ (i a).val ∧ (i a).val < win18_5.index t a * S1x1024.size a + S1x1024.size a := by
  show i ∈ ((View.whole main_call0_v137_1).slice (win18_5.rect t)).set ↔ _
  rw [View.set_slice_whole, Rect.mem_set_unit]
  exact Iff.rfl

/-- The eight blocks cover the row: column n is in the block of the point whose block index is n / 1024. -/
theorem cover4 (i : S1x8192.Idx) : ∃ t : Fin cfg18.N, (cfg18.win 4).flush t = true ∧ i ∈ ((cfg18.win 4).blk t).view.set := by
  have hi0 : (i 0).val < 1 := (i 0).isLt
  have hi1 : (i 1).val < 8192 := (i 1).isLt
  obtain ⟨t, ht⟩ := idx_onto ⟨(i 1).val / 1024, by omega⟩
  have q0 : win18_4.index t (0 : Fin 2) = 0 := congrFun ht 0
  have q1 : win18_4.index t (1 : Fin 2) = (i 1).val / 1024 := congrFun ht 1
  refine ⟨t, flush18_4 t, ?_⟩
  rw [mem_blk4]
  intro a
  match a with
  | ⟨0, _⟩ => show win18_4.index t (0 : Fin 2) * 1 ≤ (i 0).val ∧ (i 0).val < win18_4.index t (0 : Fin 2) * 1 + 1; omega
  | ⟨1, _⟩ => show win18_4.index t (1 : Fin 2) * 1024 ≤ (i 1).val ∧ (i 1).val < win18_4.index t (1 : Fin 2) * 1024 + 1024; omega
theorem cover5 (i : S1x8192.Idx) : ∃ t : Fin cfg18.N, (cfg18.win 5).flush t = true ∧ i ∈ ((cfg18.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win18_4.index t (1 : Fin 2) = (i 1).val / 1024 := congrFun ht 1
  refine ⟨t, flush18_5 t, ?_⟩
  rw [mem_blk5]
  intro a
  match a with
  | ⟨0, _⟩ => show win18_5.index t (0 : Fin 2) * 1 ≤ (i 0).val ∧ (i 0).val < win18_5.index t (0 : Fin 2) * 1 + 1; omega
  | ⟨1, _⟩ => show win18_5.index t (1 : Fin 2) * 1024 ≤ (i 1).val ∧ (i 1).val < win18_5.index t (1 : Fin 2) * 1024 + 1024; omega

/-- THE PRODUCT ARRAY after the region. -/
theorem final4 (c : Dev nD) : (dat18 V c).arrAt 4 cfg18.N = Gv (V c (Pipeline.arrRef spec18 1)) (V c (Pipeline.arrRef spec18 0)) :=
  (dat18 V c).arrAt_eq_of_cover 4 _ (fun t _ => flushed4_eq V c t) cover4
/-- THE ACCUMULATOR ARRAY after the region. -/
theorem final5 (c : Dev nD) : (dat18 V c).arrAt 5 cfg18.N
    = Gy (V c (Pipeline.arrRef spec18 1)) (V c (Pipeline.arrRef spec18 0)) (V c (Pipeline.arrRef spec18 2)) (V c (Pipeline.arrRef spec18 3)) :=
  (dat18 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W38 m ρ c (Proc.devRef .tc main_call0_v137_0) = Gv (W37 m ρ c (Proc.devRef .tc main_call0_v133_0)) (W37 m ρ c (Proc.devRef .tc main_call0_v13_0)) :=
  (W38_arr m ρ c 4).trans (final4 (V37 m ρ) c)
/-- The accumulator buffer after the region. -/
theorem exit_y : W38 m ρ c (Proc.devRef .tc main_call0_v137_1)
    = Gy (W37 m ρ c (Proc.devRef .tc main_call0_v133_0)) (W37 m ρ c (Proc.devRef .tc main_call0_v13_0)) (W37 m ρ c (Proc.devRef .tc main_call0_v136)) (W37 m ρ c (Proc.devRef .tc main_call0_v133_1)) :=
  (W38_arr m ρ c 5).trans (final5 (V37 m ρ) c)
/-- The matrix is only read. -/
theorem exit_H : W38 m ρ c (Proc.devRef .tc main_call0_v13_0) = W37 m ρ c (Proc.devRef .tc main_call0_v13_0) :=
  (W38_arr m ρ c 0).trans (((dat18 (V37 m ρ) c).arrAt_in 0 rfl _).trans (A_eq18 (V37 m ρ) c 0))
/-- The incoming row is only read. -/
theorem exit_vin : W38 m ρ c (Proc.devRef .tc main_call0_v133_0) = W37 m ρ c (Proc.devRef .tc main_call0_v133_0) :=
  (W38_arr m ρ c 1).trans (((dat18 (V37 m ρ) c).arrAt_in 1 rfl _).trans (A_eq18 (V37 m ρ) c 1))
/-- A buffer that is none of the region's arrays is as at entry. -/
theorem exit_keep (b : Ref sig .tc) (hb : ∀ w, Pipeline.arrRef spec18 w ≠ b) :
    W38 m ρ c (Proc.devRef .tc b) = W37 m ρ c (Proc.devRef .tc b) := W38_of_ne m ρ c b hb

end Exit

end Cert.KernelIdeal.Region18

end
-- ==== Proof.Region19.lean ====
/-
  Region 19 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region19

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg19.N,
      win19_0.index t (0 : Fin 2) = win19_4.index t (1 : Fin 2) ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = win19_4.index t (1 : Fin 2)
    ∧ win19_4.index t (0 : Fin 2) = 0 ∧ win19_4.index t (1 : Fin 2) ≤ 7
    ∧ win19_5.index t (0 : Fin 2) = 0 ∧ win19_5.index t (1 : Fin 2) = win19_4.index t (1 : Fin 2) :=
  (by decide +kernel : ∀ t : Fin grid19.N, _)

/-- Every one of the eight blocks of the row is some point's. -/
theorem idx_onto : ∀ q : Fin 8, ∃ t : Fin cfg19.N, win19_4.index t = ![0, q.val] :=
  (by decide +kernel : ∀ q : Fin 8, ∃ t : Fin grid19.N, win19_4.index t = ![0, q.val])

/-- The row window's block is the whole row at every point. -/
theorem blk1 (c : Dev nD) (t : Fin cfg19.N) (k : Fin 8192) : iblk19 V c 1 t (ix2 0 k) = V c (Pipeline.arrRef spec19 1) (ix2 0 k) := by
  obtain ⟨e00, e01, e10, e11, e20, e21, e30, e31, e40, e41, e50, e51⟩ := idx_facts t
  show V c (Pipeline.arrRef spec19 1) (((cfg19.win 1).blk t).view.emb (ix2 0 k)) = V c (Pipeline.arrRef spec19 1) (ix2 0 k)
  refine congrArg _ (funext fun a => Fin.ext ?_)
  match a with
  | ⟨0, _⟩ => show win19_1.index t (0 : Fin 2) * 1 + 1 * 0 = 0; omega
  | ⟨1, _⟩ => show win19_1.index t (1 : Fin 2) * 8192 + 1 * k.val = k.val; omega

/-- The coefficient window's block is the one entry. -/
theorem blk2 (c : Dev nD) (t : Fin cfg19.N) : iblk19 V c 2 t (ix2 0 0) = V c (Pipeline.arrRef spec19 2) (ix2 0 0) := by
  obtain ⟨e00, e01, e10, e11, e20, e21, e30, e31, e40, e41, e50, e51⟩ := idx_facts t
  show V c (Pipeline.arrRef spec19 2) (((cfg19.win 2).blk t).view.emb (ix2 0 0)) = V c (Pipeline.arrRef spec19 2) (ix2 0 0)
  refine congrArg _ (funext fun a => Fin.ext ?_)
  match a with
  | ⟨0, _⟩ => show win19_2.index t (0 : Fin 2) * 1 + 1 * 0 = 0; omega
  | ⟨1, _⟩ => show win19_2.index t (1 : Fin 2) * 1 + 1 * 0 = 0; omega

/-- The matrix window's block at point t is rows 1024·t … of the matrix: its row q is row (block's column position) of the array. -/
theorem blk0 (c : Dev nD) (t : Fin cfg19.N) (q : Fin 1024) (k : Fin 8192) :
    iblk19 V c 0 t (ix2 q k) = V c (Pipeline.arrRef spec19 0) (ix2 ((((cfg19.win 4).blk t).view.emb (ix2 0 q)) 1) k) := by
  obtain ⟨e00, e01, e10, e11, e20, e21, e30, e31, e40, e41, e50, e51⟩ := idx_facts t
  show V c (Pipeline.arrRef spec19 0) (((cfg19.win 0).blk t).view.emb (ix2 q k)) = _
  refine congrArg _ (funext fun a => Fin.ext ?_)
  match a with
  | ⟨0, _⟩ => show win19_0.index t (0 : Fin 2) * 1024 + 1 * q.val = win19_4.index t (1 : Fin 2) * 1024 + 1 * q.val; omega
  | ⟨1, _⟩ => show win19_0.index t (1 : Fin 2) * 8192 + 1 * k.val = k.val; omega

/-- The incoming accumulator window's block at point t is the same stretch of the row as the outgoing ones'. -/
theorem blk3 (c : Dev nD) (t : Fin cfg19.N) (q : Fin 1024) :
    iblk19 V c 3 t (ix2 0 q) = V c (Pipeline.arrRef spec19 3) (((cfg19.win 5).blk t).view.emb (ix2 0 q)) := by
  obtain ⟨e00, e01, e10, e11, e20, e21, e30, e31, e40, e41, e50, e51⟩ := idx_facts t
  show V c (Pipeline.arrRef spec19 3) (((cfg19.win 3).blk t).view.emb (ix2 0 q)) = _
  refine congrArg _ (funext fun a => Fin.ext ?_)
  match a with
  | ⟨0, _⟩ => show win19_3.index t (0 : Fin 2) * 1 + 1 * 0 = win19_5.index t (0 : Fin 2) * 1 + 1 * 0; omega
  | ⟨1, _⟩ => show win19_3.index t (1 : Fin 2) * 1024 + 1 * q.val = win19_5.index t (1 : Fin 2) * 1024 + 1 * q.val; omega

set_option maxHeartbeats 4000000 in
/-- WHAT POINT t WRITES BACK to the product window: block t of the product row. -/
theorem flushed4_eq (c : Dev nD) (t : Fin cfg19.N) :
    (dat19 V c).flushed 4 t = ((cfg19.win 4).blk t).view.read (Elt Ideal)
      (Gv (V c (Pipeline.arrRef spec19 1)) (V c (Pipeline.arrRef spec19 0))) := by
  show (cfg19.win 4).cut (grid19.coords t) ((dat19 V c).after 4 t) = _
  rw [after19_4]
  unfold out19_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk19 V c 1 t) (iblk19 V c 0 t) q).trans ?_
  show mvRow (iblk19 V c 1 t) (iblk19 V c 0 t) q
    = mvRow (V c (Pipeline.arrRef spec19 1)) (V c (Pipeline.arrRef spec19 0)) ((((cfg19.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg19.N) :
    (dat19 V c).flushed 5 t = ((cfg19.win 5).blk t).view.read (Elt Ideal)
      (Gy (V c (Pipeline.arrRef spec19 1)) (V c (Pipeline.arrRef spec19 0)) (V c (Pipeline.arrRef spec19 2)) (V c (Pipeline.arrRef spec19 3))) := by
  show (cfg19.win 5).cut (grid19.coords t) ((dat19 V c).after 5 t) = _
  rw [after19_5]
  unfold out19_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk19 V c 1 t) (iblk19 V c 0 t) (iblk19 V c 2 t) (iblk19 V c 3 t) q).trans ?_
  refine Eq.trans ?_ (Gy_acc (V c (Pipeline.arrRef spec19 1)) (V c (Pipeline.arrRef spec19 0)) (V c (Pipeline.arrRef spec19 2)) (V c (Pipeline.arrRef spec19 3))
    (((cfg19.win 5).blk t).view.emb (ix2 0 q))).symm
  rw [blk3 V c t q, blk2 V c t]
  refine congrArg (accAt _ _) ?_
  unfold mvRow
  refine Finset.sum_congr rfl fun k _ => ?_
  have hX : (((cfg19.win 4).blk t).view.emb (ix2 0 q)) 1 = (((cfg19.win 5).blk t).view.emb (ix2 0 q)) 1 :=
    Fin.ext (by show win19_4.index t (1 : Fin 2) * 1024 + 1 * q.val = win19_5.index t (1 : Fin 2) * 1024 + 1 * q.val; omega)
  rw [blk1 V c t k, blk0 V c t q k, hX]

/-- An index of a [1,8192] output array is in point t's block iff each coordinate is in the block's range. -/
theorem mem_blk4 (t : Fin cfg19.N) (i : S1x8192.Idx) :
    i ∈ ((cfg19.win 4).blk t).view.set ↔ ∀ a : Fin 2, win19_4.index t a * S1x1024.size a ≤ (i a).val ∧ (i a).val < win19_4.index t a * S1x1024.size a + S1x1024.size a := by
  show i ∈ ((View.whole main_call0_v141_0).slice (win19_4.rect t)).set ↔ _
  rw [View.set_slice_whole, Rect.mem_set_unit]
  exact Iff.rfl
theorem mem_blk5 (t : Fin cfg19.N) (i : S1x8192.Idx) :
    i ∈ ((cfg19.win 5).blk t).view.set ↔ ∀ a : Fin 2, win19_5.index t a * S1x1024.size a ≤ (i a).val ∧ (i a).val < win19_5.index t a * S1x1024.size a + S1x1024.size a := by
  show i ∈ ((View.whole main_call0_v141_1).slice (win19_5.rect t)).set ↔ _
  rw [View.set_slice_whole, Rect.mem_set_unit]
  exact Iff.rfl

/-- The eight blocks cover the row: column n is in the block of the point whose block index is n / 1024. -/
theorem cover4 (i : S1x8192.Idx) : ∃ t : Fin cfg19.N, (cfg19.win 4).flush t = true ∧ i ∈ ((cfg19.win 4).blk t).view.set := by
  have hi0 : (i 0).val < 1 := (i 0).isLt
  have hi1 : (i 1).val < 8192 := (i 1).isLt
  obtain ⟨t, ht⟩ := idx_onto ⟨(i 1).val / 1024, by omega⟩
  have q0 : win19_4.index t (0 : Fin 2) = 0 := congrFun ht 0
  have q1 : win19_4.index t (1 : Fin 2) = (i 1).val / 1024 := congrFun ht 1
  refine ⟨t, flush19_4 t, ?_⟩
  rw [mem_blk4]
  intro a
  match a with
  | ⟨0, _⟩ => show win19_4.index t (0 : Fin 2) * 1 ≤ (i 0).val ∧ (i 0).val < win19_4.index t (0 : Fin 2) * 1 + 1; omega
  | ⟨1, _⟩ => show win19_4.index t (1 : Fin 2) * 1024 ≤ (i 1).val ∧ (i 1).val < win19_4.index t (1 : Fin 2) * 1024 + 1024; omega
theorem cover5 (i : S1x8192.Idx) : ∃ t : Fin cfg19.N, (cfg19.win 5).flush t = true ∧ i ∈ ((cfg19.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win19_4.index t (1 : Fin 2) = (i 1).val / 1024 := congrFun ht 1
  refine ⟨t, flush19_5 t, ?_⟩
  rw [mem_blk5]
  intro a
  match a with
  | ⟨0, _⟩ => show win19_5.index t (0 : Fin 2) * 1 ≤ (i 0).val ∧ (i 0).val < win19_5.index t (0 : Fin 2) * 1 + 1; omega
  | ⟨1, _⟩ => show win19_5.index t (1 : Fin 2) * 1024 ≤ (i 1).val ∧ (i 1).val < win19_5.index t (1 : Fin 2) * 1024 + 1024; omega

/-- THE PRODUCT ARRAY after the region. -/
theorem final4 (c : Dev nD) : (dat19 V c).arrAt 4 cfg19.N = Gv (V c (Pipeline.arrRef spec19 1)) (V c (Pipeline.arrRef spec19 0)) :=
  (dat19 V c).arrAt_eq_of_cover 4 _ (fun t _ => flushed4_eq V c t) cover4
/-- THE ACCUMULATOR ARRAY after the region. -/
theorem final5 (c : Dev nD) : (dat19 V c).arrAt 5 cfg19.N
    = Gy (V c (Pipeline.arrRef spec19 1)) (V c (Pipeline.arrRef spec19 0)) (V c (Pipeline.arrRef spec19 2)) (V c (Pipeline.arrRef spec19 3)) :=
  (dat19 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W40 m ρ c (Proc.devRef .tc main_call0_v141_0) = Gv (W39 m ρ c (Proc.devRef .tc main_call0_v137_0)) (W39 m ρ c (Proc.devRef .tc main_call0_v13_0)) :=
  (W40_arr m ρ c 4).trans (final4 (V39 m ρ) c)
/-- The accumulator buffer after the region. -/
theorem exit_y : W40 m ρ c (Proc.devRef .tc main_call0_v141_1)
    = Gy (W39 m ρ c (Proc.devRef .tc main_call0_v137_0)) (W39 m ρ c (Proc.devRef .tc main_call0_v13_0)) (W39 m ρ c (Proc.devRef .tc main_call0_v140)) (W39 m ρ c (Proc.devRef .tc main_call0_v137_1)) :=
  (W40_arr m ρ c 5).trans (final5 (V39 m ρ) c)
/-- The matrix is only read. -/
theorem exit_H : W40 m ρ c (Proc.devRef .tc main_call0_v13_0) = W39 m ρ c (Proc.devRef .tc main_call0_v13_0) :=
  (W40_arr m ρ c 0).trans (((dat19 (V39 m ρ) c).arrAt_in 0 rfl _).trans (A_eq19 (V39 m ρ) c 0))
/-- The incoming row is only read. -/
theorem exit_vin : W40 m ρ c (Proc.devRef .tc main_call0_v137_0) = W39 m ρ c (Proc.devRef .tc main_call0_v137_0) :=
  (W40_arr m ρ c 1).trans (((dat19 (V39 m ρ) c).arrAt_in 1 rfl _).trans (A_eq19 (V39 m ρ) c 1))
/-- A buffer that is none of the region's arrays is as at entry. -/
theorem exit_keep (b : Ref sig .tc) (hb : ∀ w, Pipeline.arrRef spec19 w ≠ b) :
    W40 m ρ c (Proc.devRef .tc b) = W39 m ρ c (Proc.devRef .tc b) := W40_of_ne m ρ c b hb

end Exit

end Cert.KernelIdeal.Region19

end
-- ==== Proof.KLayer4.lean ====
/-
  Layer 4 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region16
import proofs.«144169_j55405078119367_2_alg».proof.Proof.Region17
import proofs.«144169_j55405078119367_2_alg».proof.Proof.Region18
import proofs.«144169_j55405078119367_2_alg».proof.Proof.Region19

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 4 = (0, 4). -/
theorem layer4 (X : FVec Ideal Cert.ReferenceIdeal.S8192x1 .f32) (HnB : (⟨2, ![8192, 8192]⟩ : Shape).Idx → EReal)
    (A : FVec Ideal Cert.ReferenceIdeal.S2x5x5 .f32)
    (A33 : W33 m ρ c (Proc.devRef .tc main_arg2) = A)
    (H33 : (W33 m ρ c (Proc.devRef .tc main_call0_v13_0) : (⟨2, ![8192, 8192]⟩ : Shape).Idx → EReal) = HnB)
    (v33 : toCol (W33 m ρ c (Proc.devRef .tc main_call0_v121)) = X)
    (y33 : toCol (W33 m ρ c (Proc.devRef .tc main_call0_v125)) = (Spec.sc (F := Ideal) (Spec.coef (F := Ideal) ![0, 4, 0] Cert.ReferenceIdeal.Gen.slices_S2x5x5_S1x1x1_0_4_0 A) X))
    (a33 : W33 m ρ c (Proc.devRef .tc main_call0_v128) = as11 (Spec.coef (F := Ideal) ![0, 4, 1] Cert.ReferenceIdeal.Gen.slices_S2x5x5_S1x1x1_0_4_1 A)) :
    W41 m ρ c (Proc.devRef .tc main_arg2) = A
    ∧ (W41 m ρ c (Proc.devRef .tc main_call0_v13_0) : (⟨2, ![8192, 8192]⟩ : Shape).Idx → EReal) = HnB
    ∧ toCol (W41 m ρ c (Proc.devRef .tc main_call0_v150)) = (Spec.layer04 (F := Ideal) A HnB X)
    ∧ toCol (W41 m ρ c (Proc.devRef .tc main_call0_v154)) = Spec.sc (F := Ideal) (Spec.coef (F := Ideal) ![1, 0, 0] Cert.ReferenceIdeal.Gen.slices_S2x5x5_S1x1x1_1_0_0 A) (Spec.layer04 (F := Ideal) A HnB X)
    ∧ W41 m ρ c (Proc.devRef .tc main_call0_v157) = as11 (Spec.coef (F := Ideal) ![1, 0, 1] Cert.ReferenceIdeal.Gen.slices_S2x5x5_S1x1x1_1_0_1 A) := by
  -- region 16: tap 1
  have H34 : (W34 m ρ c (Proc.devRef .tc main_call0_v13_0) : (⟨2, ![8192, 8192]⟩ : Shape).Idx → EReal) = HnB := (Region16.exit_H m ρ c).trans H33
  have A34 : W34 m ρ c (Proc.devRef .tc main_arg2) = A := (Region16.exit_keep m ρ c main_arg2 (by decide)).trans A33
  have v34 : toCol (W34 m ρ c (Proc.devRef .tc main_call0_v129_0)) = (Spec.mv (F := Ideal) HnB X) := by
    rw [Region16.exit_v m ρ c, toCol_Gv, v33]; exact congrArg (fun h => Spec.mv (F := Ideal) h X) H33
  have y34 : toCol (W34 m ρ c (Proc.devRef .tc main_call0_v129_1)) = (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) := by
    rw [Region16.exit_y m ρ c, a33, toCol_Gy, v33, y33]; exact congrArg (fun h => addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) h X))) H33
  -- stretch 17: the next coefficient
  have A35 : W35 m ρ c (Proc.devRef .tc main_arg2) = A := (keep17 (W34 m ρ c) main_arg2 (by decide)).trans A34
  have H35 : (W35 m ρ c (Proc.devRef .tc main_call0_v13_0) : (⟨2, ![8192, 8192]⟩ : Shape).Idx → EReal) = HnB := (keep17 (W34 m ρ c) main_call0_v13_0 (by decide)).trans H34
  have v35 : toCol (W35 m ρ c (Proc.devRef .tc main_call0_v129_0)) = (Spec.mv (F := Ideal) HnB X) := (congrArg toCol (keep17 (W34 m ρ c) main_call0_v129_0 (by decide))).trans v34
  have y35 : toCol (W35 m ρ c (Proc.devRef .tc main_call0_v129_1)) = (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) := (congrArg toCol (keep17 (W34 m ρ c) main_call0_v129_1 (by decide))).trans y34
  have a35 : W35 m ρ c (Proc.devRef .tc main_call0_v132) = as11 (Spec.coef (F := Ideal) ![0, 4, 2] Cert.ReferenceIdeal.Gen.slices_S2x5x5_S1x1x1_0_4_2 A) := (h17_a (W34 m ρ c)).trans (by rw [A34])
  -- region 17: tap 2
  have H36 : (W36 m ρ c (Proc.devRef .tc main_call0_v13_0) : (⟨2, ![8192, 8192]⟩ : Shape).Idx → EReal) = HnB := (Region17.exit_H m ρ c).trans H35
  have A36 : W36 m ρ c (Proc.devRef .tc main_arg2) = A := (Region17.exit_keep m ρ c main_arg2 (by decide)).trans A35
  have v36 : toCol (W36 m ρ c (Proc.devRef .tc main_call0_v133_0)) = (Spec.mv (F := Ideal) HnB (Spec.mv (F := Ideal) HnB X)) := by
    rw [Region17.exit_v m ρ c, toCol_Gv, v35]; exact congrArg (fun h => Spec.mv (F := Ideal) h (Spec.mv (F := Ideal) HnB X)) H35
  have y36 : toCol (W36 m ρ c (Proc.devRef .tc main_call0_v133_1)) = (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) := by
    rw [Region17.exit_y m ρ c, a35, toCol_Gy, v35, y35]; exact congrArg (fun h => addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) h (Spec.mv (F := Ideal) HnB X)))) H35
  -- stretch 18: the next coefficient
  have A37 : W37 m ρ c (Proc.devRef .tc main_arg2) = A := (keep18 (W36 m ρ c) main_arg2 (by decide)).trans A36
  have H37 : (W37 m ρ c (Proc.devRef .tc main_call0_v13_0) : (⟨2, ![8192, 8192]⟩ : Shape).Idx → EReal) = HnB := (keep18 (W36 m ρ c) main_call0_v13_0 (by decide)).trans H36
  have v37 : toCol (W37 m ρ c (Proc.devRef .tc main_call0_v133_0)) = (Spec.mv (F := Ideal) HnB (Spec.mv (F := Ideal) HnB X)) := (congrArg toCol (keep18 (W36 m ρ c) main_call0_v133_0 (by decide))).trans v36
  have y37 : toCol (W37 m ρ c (Proc.devRef .tc main_call0_v133_1)) = (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) := (congrArg toCol (keep18 (W36 m ρ c) main_call0_v133_1 (by decide))).trans y36
  have a37 : W37 m ρ c (Proc.devRef .tc main_call0_v136) = as11 (Spec.coef (F := Ideal) ![0, 4, 3] Cert.ReferenceIdeal.Gen.slices_S2x5x5_S1x1x1_0_4_3 A) := (h18_a (W36 m ρ c)).trans (by rw [A36])
  -- region 18: tap 3
  have H38 : (W38 m ρ c (Proc.devRef .tc main_call0_v13_0) : (⟨2, ![8192, 8192]⟩ : Shape).Idx → EReal) = HnB := (Region18.exit_H m ρ c).trans H37
  have A38 : W38 m ρ c (Proc.devRef .tc main_arg2) = A := (Region18.exit_keep m ρ c main_arg2 (by decide)).trans A37
  have v38 : toCol (W38 m ρ c (Proc.devRef .tc main_call0_v137_0)) = (Spec.mv (F := Ideal) HnB (Spec.mv (F := Ideal) HnB (Spec.mv (F := Ideal) HnB X))) := by
    rw [Region18.exit_v m ρ c, toCol_Gv, v37]; exact congrArg (fun h => Spec.mv (F := Ideal) h (Spec.mv (F := Ideal) HnB (Spec.mv (F := Ideal) HnB X))) H37
  have y38 : toCol (W38 m ρ c (Proc.devRef .tc main_call0_v137_1)) = (addf (F := Ideal) (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) (Spec.sc (F := Ideal) (Spec.coef (F := Ideal) ![0, 4, 3] Cert.ReferenceIdeal.Gen.slices_S2x5x5_S1x1x1_0_4_3 A) (Spec.mv (F := Ideal) HnB (Spec.mv (F := Ideal) HnB (Spec.mv (F := Ideal) HnB X))))) := by
    rw [Region18.exit_y m ρ c, a37, toCol_Gy, v37, y37]; exact congrArg (fun h => addf (F := Ideal) (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) (Spec.sc (F := Ideal) (Spec.coef (F := Ideal) ![0, 4, 3] Cert.ReferenceIdeal.Gen.slices_S2x5x5_S1x1x1_0_4_3 A) (Spec.mv (F := Ideal) h (Spec.mv (F := Ideal) HnB (Spec.mv (F := Ideal) HnB X))))) H37
  -- stretch 19: the next coefficient
  have A39 : W39 m ρ c (Proc.devRef .tc main_arg2) = A := (keep19 (W38 m ρ c) main_arg2 (by decide)).trans A38
  have H39 : (W39 m ρ c (Proc.devRef .tc main_call0_v13_0) : (⟨2, ![8192, 8192]⟩ : Shape).Idx → EReal) = HnB := (keep19 (W38 m ρ c) main_call0_v13_0 (by decide)).trans H38
  have v39 : toCol (W39 m ρ c (Proc.devRef .tc main_call0_v137_0)) = (Spec.mv (F := Ideal) HnB (Spec.mv (F := Ideal) HnB (Spec.mv (F := Ideal) HnB X))) := (congrArg toCol (keep19 (W38 m ρ c) main_call0_v137_0 (by decide))).trans v38
  have y39 : toCol (W39 m ρ c (Proc.devRef .tc main_call0_v137_1)) = (addf (F := Ideal) (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) (Spec.sc (F := Ideal) (Spec.coef (F := Ideal) ![0, 4, 3] Cert.ReferenceIdeal.Gen.slices_S2x5x5_S1x1x1_0_4_3 A) (Spec.mv (F := Ideal) HnB (Spec.mv (F := Ideal) HnB (Spec.mv (F := Ideal) HnB X))))) := (congrArg toCol (keep19 (W38 m ρ c) main_call0_v137_1 (by decide))).trans y38
  have a39 : W39 m ρ c (Proc.devRef .tc main_call0_v140) = as11 (Spec.coef (F := Ideal) ![0, 4, 4] Cert.ReferenceIdeal.Gen.slices_S2x5x5_S1x1x1_0_4_4 A) := (h19_a (W38 m ρ c)).trans (by rw [A38])
  -- region 19: tap 4
  have H40 : (W40 m ρ c (Proc.devRef .tc main_call0_v13_0) : (⟨2, ![8192, 8192]⟩ : Shape).Idx → EReal) = HnB := (Region19.exit_H m ρ c).trans H39
  have A40 : W40 m ρ c (Proc.devRef .tc main_arg2) = A := (Region19.exit_keep m ρ c main_arg2 (by decide)).trans A39
  have v40 : toCol (W40 m ρ c (Proc.devRef .tc main_call0_v141_0)) = (Spec.mv (F := Ideal) HnB (Spec.mv (F := Ideal) HnB (Spec.mv (F := Ideal) HnB (Spec.mv (F := Ideal) HnB X)))) := by
    rw [Region19.exit_v m ρ c, toCol_Gv, v39]; exact congrArg (fun h => Spec.mv (F := Ideal) h (Spec.mv (F := Ideal) HnB (Spec.mv (F := Ideal) HnB (Spec.mv (F := Ideal) HnB X)))) H39
  have y40 : toCol (W40 m ρ c (Proc.devRef .tc main_call0_v141_1)) = (addf (F := Ideal) (addf (F := Ideal) (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) (Spec.sc (F := Ideal) (Spec.coef (F := Ideal) ![0, 4, 3] Cert.ReferenceIdeal.Gen.slices_S2x5x5_S1x1x1_0_4_3 A) (Spec.mv (F := Ideal) HnB (Spec.mv (F := Ideal) HnB (Spec.mv (F := Ideal) HnB X))))) (Spec.sc (F := Ideal) (Spec.coef (F := Ideal) ![0, 4, 4] Cert.ReferenceIdeal.Gen.slices_S2x5x5_S1x1x1_0_4_4 A) (Spec.mv (F := Ideal) HnB (Spec.mv (F := Ideal) HnB (Spec.mv (F := Ideal) HnB (Spec.mv (F := Ideal) HnB X)))))) := by
    rw [Region19.exit_y m ρ c, a39, toCol_Gy, v39, y39]; exact congrArg (fun h => addf (F := Ideal) (addf (F := Ideal) (addf (F := Ideal) (addf (F := Ideal) (Spec.sc (F := Ideal) (Spec.coef (F := Ideal) ![0, 4, 0] Cert.ReferenceIdeal.Gen.slices_S2x5x5_S1x1x1_0_4_0 A) X) (Spec.sc (F := Ideal) (Spec.coef (F := Ideal) ![0, 4, 1] Cert.ReferenceIdeal.Gen.slices_S2x5x5_S1x1x1_0_4_1 A) (Spec.mv (F := Ideal) HnB X))) (Spec.sc (F := Ideal) (Spec.coef (F := Ideal) ![0, 4, 2] Cert.ReferenceIdeal.Gen.slices_S2x5x5_S1x1x1_0_4_2 A) (Spec.mv (F := Ideal) HnB (Spec.mv (F := Ideal) HnB X)))) (Spec.sc (F := Ideal) (Spec.coef (F := Ideal) ![0, 4, 3] Cert.ReferenceIdeal.Gen.slices_S2x5x5_S1x1x1_0_4_3 A) (Spec.mv (F := Ideal) HnB (Spec.mv (F := Ideal) HnB (Spec.mv (F := Ideal) HnB X))))) (Spec.sc (F := Ideal) (Spec.coef (F := Ideal) ![0, 4, 4] Cert.ReferenceIdeal.Gen.slices_S2x5x5_S1x1x1_0_4_4 A) (Spec.mv (F := Ideal) h (Spec.mv (F := Ideal) HnB (Spec.mv (F := Ideal) HnB (Spec.mv (F := Ideal) HnB X)))))) H39
  -- stretch 20: leaky_relu, the two normalisations, the next layer's first tap and second coefficient
  have A41 : W41 m ρ c (Proc.devRef .tc main_arg2) = A := (keep20 (W40 m ρ c) main_arg2 (by decide)).trans A40
  have H41 : (W41 m ρ c (Proc.devRef .tc main_call0_v13_0) : (⟨2, ![8192, 8192]⟩ : Shape).Idx → EReal) = HnB := (keep20 (W40 m ρ c) main_call0_v13_0 (by decide)).trans H40
  have x41 : toCol (W41 m ρ c (Proc.devRef .tc main_call0_v150)) = Spec.layer04 (F := Ideal) A HnB X := (h20_x (W40 m ρ c)).trans (by rw [y40]; rfl)
  have y41 : toCol (W41 m ρ c (Proc.devRef .tc main_call0_v154)) = Spec.sc (F := Ideal) (Spec.coef (F := Ideal) ![1, 0, 0] Cert.ReferenceIdeal.Gen.slices_S2x5x5_S1x1x1_1_0_0 A) (Spec.layer04 (F := Ideal) A HnB X) := (h20_y0 (W40 m ρ c)).trans (by rw [y40, A40]; rfl)
  have a41 : W41 m ρ c (Proc.devRef .tc main_call0_v157) = as11 (Spec.coef (F := Ideal) ![1, 0, 1] Cert.ReferenceIdeal.Gen.slices_S2x5x5_S1x1x1_1_0_1 A) := (h20_a (W40 m ρ c)).trans (by rw [A40])
  exact ⟨A41, H41, x41, y41, a41⟩

end Cert.KernelIdeal.Chain

end
-- ==== Proof.Region20.lean ====
/-
  Region 20 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region20

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg20.N,
      win20_0.index t (0 : Fin 2) = win20_4.index t (1 : Fin 2) ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = 0 ∧ win20_3.index t (1 : Fin 2) = win20_4.index t (1 : Fin 2)
    ∧ win20_4.index t (0 : Fin 2) = 0 ∧ win20_4.index t (1 : Fin 2) ≤ 7
    ∧ win20_5.index t (0 : Fin 2) = 0 ∧ win20_5.index t (1 : Fin 2) = win20_4.index t (1 : Fin 2) :=
  (by decide +kernel : ∀ t : Fin grid20.N, _)

/-- Every one of the eight blocks of the row is some point's. -/
theorem idx_onto : ∀ q : Fin 8, ∃ t : Fin cfg20.N, win20_4.index t = ![0, q.val] :=
  (by decide +kernel : ∀ q : Fin 8, ∃ t : Fin grid20.N, win20_4.index t = ![0, q.val])

/-- The row window's block is the whole row at every point. -/
theorem blk1 (c : Dev nD) (t : Fin cfg20.N) (k : Fin 8192) : iblk20 V c 1 t (ix2 0 k) = V c (Pipeline.arrRef spec20 1) (ix2 0 k) := by
  obtain ⟨e00, e01, e10, e11, e20, e21, e30, e31, e40, e41, e50, e51⟩ := idx_facts t
  show V c (Pipeline.arrRef spec20 1) (((cfg20.win 1).blk t).view.emb (ix2 0 k)) = V c (Pipeline.arrRef spec20 1) (ix2 0 k)
  refine congrArg _ (funext fun a => Fin.ext ?_)
  match a with
  | ⟨0, _⟩ => show win20_1.index t (0 : Fin 2) * 1 + 1 * 0 = 0; omega
  | ⟨1, _⟩ => show win20_1.index t (1 : Fin 2) * 8192 + 1 * k.val = k.val; omega

/-- The coefficient window's block is the one entry. -/
theorem blk2 (c : Dev nD) (t : Fin cfg20.N) : iblk20 V c 2 t (ix2 0 0) = V c (Pipeline.arrRef spec20 2) (ix2 0 0) := by
  obtain ⟨e00, e01, e10, e11, e20, e21, e30, e31, e40, e41, e50, e51⟩ := idx_facts t
  show V c (Pipeline.arrRef spec20 2) (((cfg20.win 2).blk t).view.emb (ix2 0 0)) = V c (Pipeline.arrRef spec20 2) (ix2 0 0)
  refine congrArg _ (funext fun a => Fin.ext ?_)
  match a with
  | ⟨0, _⟩ => show win20_2.index t (0 : Fin 2) * 1 + 1 * 0 = 0; omega
  | ⟨1, _⟩ => show win20_2.index t (1 : Fin 2) * 1 + 1 * 0 = 0; omega

/-- The matrix window's block at point t is rows 1024·t … of the matrix: its row q is row (block's column position) of the array. -/
theorem blk0 (c : Dev nD) (t : Fin cfg20.N) (q : Fin 1024) (k : Fin 8192) :
    iblk20 V c 0 t (ix2 q k) = V c (Pipeline.arrRef spec20 0) (ix2 ((((cfg20.win 4).blk t).view.emb (ix2 0 q)) 1) k) := by
  obtain ⟨e00, e01, e10, e11, e20, e21, e30, e31, e40, e41, e50, e51⟩ := idx_facts t
  show V c (Pipeline.arrRef spec20 0) (((cfg20.win 0).blk t).view.emb (ix2 q k)) = _
  refine congrArg _ (funext fun a => Fin.ext ?_)
  match a with
  | ⟨0, _⟩ => show win20_0.index t (0 : Fin 2) * 1024 + 1 * q.val = win20_4.index t (1 : Fin 2) * 1024 + 1 * q.val; omega
  | ⟨1, _⟩ => show win20_0.index t (1 : Fin 2) * 8192 + 1 * k.val = k.val; omega

/-- The incoming accumulator window's block at point t is the same stretch of the row as the outgoing ones'. -/
theorem blk3 (c : Dev nD) (t : Fin cfg20.N) (q : Fin 1024) :
    iblk20 V c 3 t (ix2 0 q) = V c (Pipeline.arrRef spec20 3) (((cfg20.win 5).blk t).view.emb (ix2 0 q)) := by
  obtain ⟨e00, e01, e10, e11, e20, e21, e30, e31, e40, e41, e50, e51⟩ := idx_facts t
  show V c (Pipeline.arrRef spec20 3) (((cfg20.win 3).blk t).view.emb (ix2 0 q)) = _
  refine congrArg _ (funext fun a => Fin.ext ?_)
  match a with
  | ⟨0, _⟩ => show win20_3.index t (0 : Fin 2) * 1 + 1 * 0 = win20_5.index t (0 : Fin 2) * 1 + 1 * 0; omega
  | ⟨1, _⟩ => show win20_3.index t (1 : Fin 2) * 1024 + 1 * q.val = win20_5.index t (1 : Fin 2) * 1024 + 1 * q.val; omega

set_option maxHeartbeats 4000000 in
/-- WHAT POINT t WRITES BACK to the product window: block t of the product row. -/
theorem flushed4_eq (c : Dev nD) (t : Fin cfg20.N) :
    (dat20 V c).flushed 4 t = ((cfg20.win 4).blk t).view.read (Elt Ideal)
      (Gv (V c (Pipeline.arrRef spec20 1)) (V c (Pipeline.arrRef spec20 0))) := by
  show (cfg20.win 4).cut (grid20.coords t) ((dat20 V c).after 4 t) = _
  rw [after20_4]
  unfold out20_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk20 V c 1 t) (iblk20 V c 0 t) q).trans ?_
  show mvRow (iblk20 V c 1 t) (iblk20 V c 0 t) q
    = mvRow (V c (Pipeline.arrRef spec20 1)) (V c (Pipeline.arrRef spec20 0)) ((((cfg20.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg20.N) :
    (dat20 V c).flushed 5 t = ((cfg20.win 5).blk t).view.read (Elt Ideal)
      (Gy (V c (Pipeline.arrRef spec20 1)) (V c (Pipeline.arrRef spec20 0)) (V c (Pipeline.arrRef spec20 2)) (V c (Pipeline.arrRef spec20 3))) := by
  show (cfg20.win 5).cut (grid20.coords t) ((dat20 V c).after 5 t) = _
  rw [after20_5]
  unfold out20_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk20 V c 1 t) (iblk20 V c 0 t) (iblk20 V c 2 t) (iblk20 V c 3 t) q).trans ?_
  refine Eq.trans ?_ (Gy_acc (V c (Pipeline.arrRef spec20 1)) (V c (Pipeline.arrRef spec20 0)) (V c (Pipeline.arrRef spec20 2)) (V c (Pipeline.arrRef spec20 3))
    (((cfg20.win 5).blk t).view.emb (ix2 0 q))).symm
  rw [blk3 V c t q, blk2 V c t]
  refine congrArg (accAt _ _) ?_
  unfold mvRow
  refine Finset.sum_congr rfl fun k _ => ?_
  have hX : (((cfg20.win 4).blk t).view.emb (ix2 0 q)) 1 = (((cfg20.win 5).blk t).view.emb (ix2 0 q)) 1 :=
    Fin.ext (by show win20_4.index t (1 : Fin 2) * 1024 + 1 * q.val = win20_5.index t (1 : Fin 2) * 1024 + 1 * q.val; omega)
  rw [blk1 V c t k, blk0 V c t q k, hX]

/-- An index of a [1,8192] output array is in point t's block iff each coordinate is in the block's range. -/
theorem mem_blk4 (t : Fin cfg20.N) (i : S1x8192.Idx) :
    i ∈ ((cfg20.win 4).blk t).view.set ↔ ∀ a : Fin 2, win20_4.index t a * S1x1024.size a ≤ (i a).val ∧ (i a).val < win20_4.index t a * S1x1024.size a + S1x1024.size a := by
  show i ∈ ((View.whole main_call0_v158_0).slice (win20_4.rect t)).set ↔ _
  rw [View.set_slice_whole, Rect.mem_set_unit]
  exact Iff.rfl
theorem mem_blk5 (t : Fin cfg20.N) (i : S1x8192.Idx) :
    i ∈ ((cfg20.win 5).blk t).view.set ↔ ∀ a : Fin 2, win20_5.index t a * S1x1024.size a ≤ (i a).val ∧ (i a).val < win20_5.index t a * S1x1024.size a + S1x1024.size a := by
  show i ∈ ((View.whole main_call0_v158_1).slice (win20_5.rect t)).set ↔ _
  rw [View.set_slice_whole, Rect.mem_set_unit]
  exact Iff.rfl

/-- The eight blocks cover the row: column n is in the block of the point whose block index is n / 1024. -/
theorem cover4 (i : S1x8192.Idx) : ∃ t : Fin cfg20.N, (cfg20.win 4).flush t = true ∧ i ∈ ((cfg20.win 4).blk t).view.set := by
  have hi0 : (i 0).val < 1 := (i 0).isLt
  have hi1 : (i 1).val < 8192 := (i 1).isLt
  obtain ⟨t, ht⟩ := idx_onto ⟨(i 1).val / 1024, by omega⟩
  have q0 : win20_4.index t (0 : Fin 2) = 0 := congrFun ht 0
  have q1 : win20_4.index t (1 : Fin 2) = (i 1).val / 1024 := congrFun ht 1
  refine ⟨t, flush20_4 t, ?_⟩
  rw [mem_blk4]
  intro a
  match a with
  | ⟨0, _⟩ => show win20_4.index t (0 : Fin 2) * 1 ≤ (i 0).val ∧ (i 0).val < win20_4.index t (0 : Fin 2) * 1 + 1; omega
  | ⟨1, _⟩ => show win20_4.index t (1 : Fin 2) * 1024 ≤ (i 1).val ∧ (i 1).val < win20_4.index t (1 : Fin 2) * 1024 + 1024; omega
theorem cover5 (i : S1x8192.Idx) : ∃ t : Fin cfg20.N, (cfg20.win 5).flush t = true ∧ i ∈ ((cfg20.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win20_4.index t (1 : Fin 2) = (i 1).val / 1024 := congrFun ht 1
  refine ⟨t, flush20_5 t, ?_⟩
  rw [mem_blk5]
  intro a
  match a with
  | ⟨0, _⟩ => show win20_5.index t (0 : Fin 2) * 1 ≤ (i 0).val ∧ (i 0).val < win20_5.index t (0 : Fin 2) * 1 + 1; omega
  | ⟨1, _⟩ => show win20_5.index t (1 : Fin 2) * 1024 ≤ (i 1).val ∧ (i 1).val < win20_5.index t (1 : Fin 2) * 1024 + 1024; omega

/-- THE PRODUCT ARRAY after the region. -/
theorem final4 (c : Dev nD) : (dat20 V c).arrAt 4 cfg20.N = Gv (V c (Pipeline.arrRef spec20 1)) (V c (Pipeline.arrRef spec20 0)) :=
  (dat20 V c).arrAt_eq_of_cover 4 _ (fun t _ => flushed4_eq V c t) cover4
/-- THE ACCUMULATOR ARRAY after the region. -/
theorem final5 (c : Dev nD) : (dat20 V c).arrAt 5 cfg20.N
    = Gy (V c (Pipeline.arrRef spec20 1)) (V c (Pipeline.arrRef spec20 0)) (V c (Pipeline.arrRef spec20 2)) (V c (Pipeline.arrRef spec20 3)) :=
  (dat20 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W42 m ρ c (Proc.devRef .tc main_call0_v158_0) = Gv (W41 m ρ c (Proc.devRef .tc main_call0_v150)) (W41 m ρ c (Proc.devRef .tc main_call0_v13_0)) :=
  (W42_arr m ρ c 4).trans (final4 (V41 m ρ) c)
/-- The accumulator buffer after the region. -/
theorem exit_y : W42 m ρ c (Proc.devRef .tc main_call0_v158_1)
    = Gy (W41 m ρ c (Proc.devRef .tc main_call0_v150)) (W41 m ρ c (Proc.devRef .tc main_call0_v13_0)) (W41 m ρ c (Proc.devRef .tc main_call0_v157)) (W41 m ρ c (Proc.devRef .tc main_call0_v154)) :=
  (W42_arr m ρ c 5).trans (final5 (V41 m ρ) c)
/-- The matrix is only read. -/
theorem exit_H : W42 m ρ c (Proc.devRef .tc main_call0_v13_0) = W41 m ρ c (Proc.devRef .tc main_call0_v13_0) :=
  (W42_arr m ρ c 0).trans (((dat20 (V41 m ρ) c).arrAt_in 0 rfl _).trans (A_eq20 (V41 m ρ) c 0))
/-- The incoming row is only read. -/
theorem exit_vin : W42 m ρ c (Proc.devRef .tc main_call0_v150) = W41 m ρ c (Proc.devRef .tc main_call0_v150) :=
  (W42_arr m ρ c 1).trans (((dat20 (V41 m ρ) c).arrAt_in 1 rfl _).trans (A_eq20 (V41 m ρ) c 1))
/-- A buffer that is none of the region's arrays is as at entry. -/
theorem exit_keep (b : Ref sig .tc) (hb : ∀ w, Pipeline.arrRef spec20 w ≠ b) :
    W42 m ρ c (Proc.devRef .tc b) = W41 m ρ c (Proc.devRef .tc b) := W42_of_ne m ρ c b hb

end Exit

end Cert.KernelIdeal.Region20

end
-- ==== Proof.Region21.lean ====
/-
  Region 21 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region21

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg21.N,
      win21_0.index t (0 : Fin 2) = win21_4.index t (1 : Fin 2) ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = win21_4.index t (1 : Fin 2)
    ∧ win21_4.index t (0 : Fin 2) = 0 ∧ win21_4.index t (1 : Fin 2) ≤ 7
    ∧ win21_5.index t (0 : Fin 2) = 0 ∧ win21_5.index t (1 : Fin 2) = win21_4.index t (1 : Fin 2) :=
  (by decide +kernel : ∀ t : Fin grid21.N, _)

/-- Every one of the eight blocks of the row is some point's. -/
theorem idx_onto : ∀ q : Fin 8, ∃ t : Fin cfg21.N, win21_4.index t = ![0, q.val] :=
  (by decide +kernel : ∀ q : Fin 8, ∃ t : Fin grid21.N, win21_4.index t = ![0, q.val])

/-- The row window's block is the whole row at every point. -/
theorem blk1 (c : Dev nD) (t : Fin cfg21.N) (k : Fin 8192) : iblk21 V c 1 t (ix2 0 k) = V c (Pipeline.arrRef spec21 1) (ix2 0 k) := by
  obtain ⟨e00, e01, e10, e11, e20, e21, e30, e31, e40, e41, e50, e51⟩ := idx_facts t
  show V c (Pipeline.arrRef spec21 1) (((cfg21.win 1).blk t).view.emb (ix2 0 k)) = V c (Pipeline.arrRef spec21 1) (ix2 0 k)
  refine congrArg _ (funext fun a => Fin.ext ?_)
  match a with
  | ⟨0, _⟩ => show win21_1.index t (0 : Fin 2) * 1 + 1 * 0 = 0; omega
  | ⟨1, _⟩ => show win21_1.index t (1 : Fin 2) * 8192 + 1 * k.val = k.val; omega

/-- The coefficient window's block is the one entry. -/
theorem blk2 (c : Dev nD) (t : Fin cfg21.N) : iblk21 V c 2 t (ix2 0 0) = V c (Pipeline.arrRef spec21 2) (ix2 0 0) := by
  obtain ⟨e00, e01, e10, e11, e20, e21, e30, e31, e40, e41, e50, e51⟩ := idx_facts t
  show V c (Pipeline.arrRef spec21 2) (((cfg21.win 2).blk t).view.emb (ix2 0 0)) = V c (Pipeline.arrRef spec21 2) (ix2 0 0)
  refine congrArg _ (funext fun a => Fin.ext ?_)
  match a with
  | ⟨0, _⟩ => show win21_2.index t (0 : Fin 2) * 1 + 1 * 0 = 0; omega
  | ⟨1, _⟩ => show win21_2.index t (1 : Fin 2) * 1 + 1 * 0 = 0; omega

/-- The matrix window's block at point t is rows 1024·t … of the matrix: its row q is row (block's column position) of the array. -/
theorem blk0 (c : Dev nD) (t : Fin cfg21.N) (q : Fin 1024) (k : Fin 8192) :
    iblk21 V c 0 t (ix2 q k) = V c (Pipeline.arrRef spec21 0) (ix2 ((((cfg21.win 4).blk t).view.emb (ix2 0 q)) 1) k) := by
  obtain ⟨e00, e01, e10, e11, e20, e21, e30, e31, e40, e41, e50, e51⟩ := idx_facts t
  show V c (Pipeline.arrRef spec21 0) (((cfg21.win 0).blk t).view.emb (ix2 q k)) = _
  refine congrArg _ (funext fun a => Fin.ext ?_)
  match a with
  | ⟨0, _⟩ => show win21_0.index t (0 : Fin 2) * 1024 + 1 * q.val = win21_4.index t (1 : Fin 2) * 1024 + 1 * q.val; omega
  | ⟨1, _⟩ => show win21_0.index t (1 : Fin 2) * 8192 + 1 * k.val = k.val; omega

/-- The incoming accumulator window's block at point t is the same stretch of the row as the outgoing ones'. -/
theorem blk3 (c : Dev nD) (t : Fin cfg21.N) (q : Fin 1024) :
    iblk21 V c 3 t (ix2 0 q) = V c (Pipeline.arrRef spec21 3) (((cfg21.win 5).blk t).view.emb (ix2 0 q)) := by
  obtain ⟨e00, e01, e10, e11, e20, e21, e30, e31, e40, e41, e50, e51⟩ := idx_facts t
  show V c (Pipeline.arrRef spec21 3) (((cfg21.win 3).blk t).view.emb (ix2 0 q)) = _
  refine congrArg _ (funext fun a => Fin.ext ?_)
  match a with
  | ⟨0, _⟩ => show win21_3.index t (0 : Fin 2) * 1 + 1 * 0 = win21_5.index t (0 : Fin 2) * 1 + 1 * 0; omega
  | ⟨1, _⟩ => show win21_3.index t (1 : Fin 2) * 1024 + 1 * q.val = win21_5.index t (1 : Fin 2) * 1024 + 1 * q.val; omega

set_option maxHeartbeats 4000000 in
/-- WHAT POINT t WRITES BACK to the product window: block t of the product row. -/
theorem flushed4_eq (c : Dev nD) (t : Fin cfg21.N) :
    (dat21 V c).flushed 4 t = ((cfg21.win 4).blk t).view.read (Elt Ideal)
      (Gv (V c (Pipeline.arrRef spec21 1)) (V c (Pipeline.arrRef spec21 0))) := by
  show (cfg21.win 4).cut (grid21.coords t) ((dat21 V c).after 4 t) = _
  rw [after21_4]
  unfold out21_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk21 V c 1 t) (iblk21 V c 0 t) q).trans ?_
  show mvRow (iblk21 V c 1 t) (iblk21 V c 0 t) q
    = mvRow (V c (Pipeline.arrRef spec21 1)) (V c (Pipeline.arrRef spec21 0)) ((((cfg21.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg21.N) :
    (dat21 V c).flushed 5 t = ((cfg21.win 5).blk t).view.read (Elt Ideal)
      (Gy (V c (Pipeline.arrRef spec21 1)) (V c (Pipeline.arrRef spec21 0)) (V c (Pipeline.arrRef spec21 2)) (V c (Pipeline.arrRef spec21 3))) := by
  show (cfg21.win 5).cut (grid21.coords t) ((dat21 V c).after 5 t) = _
  rw [after21_5]
  unfold out21_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk21 V c 1 t) (iblk21 V c 0 t) (iblk21 V c 2 t) (iblk21 V c 3 t) q).trans ?_
  refine Eq.trans ?_ (Gy_acc (V c (Pipeline.arrRef spec21 1)) (V c (Pipeline.arrRef spec21 0)) (V c (Pipeline.arrRef spec21 2)) (V c (Pipeline.arrRef spec21 3))
    (((cfg21.win 5).blk t).view.emb (ix2 0 q))).symm
  rw [blk3 V c t q, blk2 V c t]
  refine congrArg (accAt _ _) ?_
  unfold mvRow
  refine Finset.sum_congr rfl fun k _ => ?_
  have hX : (((cfg21.win 4).blk t).view.emb (ix2 0 q)) 1 = (((cfg21.win 5).blk t).view.emb (ix2 0 q)) 1 :=
    Fin.ext (by show win21_4.index t (1 : Fin 2) * 1024 + 1 * q.val = win21_5.index t (1 : Fin 2) * 1024 + 1 * q.val; omega)
  rw [blk1 V c t k, blk0 V c t q k, hX]

/-- An index of a [1,8192] output array is in point t's block iff each coordinate is in the block's range. -/
theorem mem_blk4 (t : Fin cfg21.N) (i : S1x8192.Idx) :
    i ∈ ((cfg21.win 4).blk t).view.set ↔ ∀ a : Fin 2, win21_4.index t a * S1x1024.size a ≤ (i a).val ∧ (i a).val < win21_4.index t a * S1x1024.size a + S1x1024.size a := by
  show i ∈ ((View.whole main_call0_v162_0).slice (win21_4.rect t)).set ↔ _
  rw [View.set_slice_whole, Rect.mem_set_unit]
  exact Iff.rfl
theorem mem_blk5 (t : Fin cfg21.N) (i : S1x8192.Idx) :
    i ∈ ((cfg21.win 5).blk t).view.set ↔ ∀ a : Fin 2, win21_5.index t a * S1x1024.size a ≤ (i a).val ∧ (i a).val < win21_5.index t a * S1x1024.size a + S1x1024.size a := by
  show i ∈ ((View.whole main_call0_v162_1).slice (win21_5.rect t)).set ↔ _
  rw [View.set_slice_whole, Rect.mem_set_unit]
  exact Iff.rfl

/-- The eight blocks cover the row: column n is in the block of the point whose block index is n / 1024. -/
theorem cover4 (i : S1x8192.Idx) : ∃ t : Fin cfg21.N, (cfg21.win 4).flush t = true ∧ i ∈ ((cfg21.win 4).blk t).view.set := by
  have hi0 : (i 0).val < 1 := (i 0).isLt
  have hi1 : (i 1).val < 8192 := (i 1).isLt
  obtain ⟨t, ht⟩ := idx_onto ⟨(i 1).val / 1024, by omega⟩
  have q0 : win21_4.index t (0 : Fin 2) = 0 := congrFun ht 0
  have q1 : win21_4.index t (1 : Fin 2) = (i 1).val / 1024 := congrFun ht 1
  refine ⟨t, flush21_4 t, ?_⟩
  rw [mem_blk4]
  intro a
  match a with
  | ⟨0, _⟩ => show win21_4.index t (0 : Fin 2) * 1 ≤ (i 0).val ∧ (i 0).val < win21_4.index t (0 : Fin 2) * 1 + 1; omega
  | ⟨1, _⟩ => show win21_4.index t (1 : Fin 2) * 1024 ≤ (i 1).val ∧ (i 1).val < win21_4.index t (1 : Fin 2) * 1024 + 1024; omega
theorem cover5 (i : S1x8192.Idx) : ∃ t : Fin cfg21.N, (cfg21.win 5).flush t = true ∧ i ∈ ((cfg21.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win21_4.index t (1 : Fin 2) = (i 1).val / 1024 := congrFun ht 1
  refine ⟨t, flush21_5 t, ?_⟩
  rw [mem_blk5]
  intro a
  match a with
  | ⟨0, _⟩ => show win21_5.index t (0 : Fin 2) * 1 ≤ (i 0).val ∧ (i 0).val < win21_5.index t (0 : Fin 2) * 1 + 1; omega
  | ⟨1, _⟩ => show win21_5.index t (1 : Fin 2) * 1024 ≤ (i 1).val ∧ (i 1).val < win21_5.index t (1 : Fin 2) * 1024 + 1024; omega

/-- THE PRODUCT ARRAY after the region. -/
theorem final4 (c : Dev nD) : (dat21 V c).arrAt 4 cfg21.N = Gv (V c (Pipeline.arrRef spec21 1)) (V c (Pipeline.arrRef spec21 0)) :=
  (dat21 V c).arrAt_eq_of_cover 4 _ (fun t _ => flushed4_eq V c t) cover4
/-- THE ACCUMULATOR ARRAY after the region. -/
theorem final5 (c : Dev nD) : (dat21 V c).arrAt 5 cfg21.N
    = Gy (V c (Pipeline.arrRef spec21 1)) (V c (Pipeline.arrRef spec21 0)) (V c (Pipeline.arrRef spec21 2)) (V c (Pipeline.arrRef spec21 3)) :=
  (dat21 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W44 m ρ c (Proc.devRef .tc main_call0_v162_0) = Gv (W43 m ρ c (Proc.devRef .tc main_call0_v158_0)) (W43 m ρ c (Proc.devRef .tc main_call0_v13_0)) :=
  (W44_arr m ρ c 4).trans (final4 (V43 m ρ) c)
/-- The accumulator buffer after the region. -/
theorem exit_y : W44 m ρ c (Proc.devRef .tc main_call0_v162_1)
    = Gy (W43 m ρ c (Proc.devRef .tc main_call0_v158_0)) (W43 m ρ c (Proc.devRef .tc main_call0_v13_0)) (W43 m ρ c (Proc.devRef .tc main_call0_v161)) (W43 m ρ c (Proc.devRef .tc main_call0_v158_1)) :=
  (W44_arr m ρ c 5).trans (final5 (V43 m ρ) c)
/-- The matrix is only read. -/
theorem exit_H : W44 m ρ c (Proc.devRef .tc main_call0_v13_0) = W43 m ρ c (Proc.devRef .tc main_call0_v13_0) :=
  (W44_arr m ρ c 0).trans (((dat21 (V43 m ρ) c).arrAt_in 0 rfl _).trans (A_eq21 (V43 m ρ) c 0))
/-- The incoming row is only read. -/
theorem exit_vin : W44 m ρ c (Proc.devRef .tc main_call0_v158_0) = W43 m ρ c (Proc.devRef .tc main_call0_v158_0) :=
  (W44_arr m ρ c 1).trans (((dat21 (V43 m ρ) c).arrAt_in 1 rfl _).trans (A_eq21 (V43 m ρ) c 1))
/-- A buffer that is none of the region's arrays is as at entry. -/
theorem exit_keep (b : Ref sig .tc) (hb : ∀ w, Pipeline.arrRef spec21 w ≠ b) :
    W44 m ρ c (Proc.devRef .tc b) = W43 m ρ c (Proc.devRef .tc b) := W44_of_ne m ρ c b hb

end Exit

end Cert.KernelIdeal.Region21

end
-- ==== Proof.Region22.lean ====
/-
  Region 22 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region22

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg22.N,
      win22_0.index t (0 : Fin 2) = win22_4.index t (1 : Fin 2) ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = 0 ∧ win22_3.index t (1 : Fin 2) = win22_4.index t (1 : Fin 2)
    ∧ win22_4.index t (0 : Fin 2) = 0 ∧ win22_4.index t (1 : Fin 2) ≤ 7
    ∧ win22_5.index t (0 : Fin 2) = 0 ∧ win22_5.index t (1 : Fin 2) = win22_4.index t (1 : Fin 2) :=
  (by decide +kernel : ∀ t : Fin grid22.N, _)

/-- Every one of the eight blocks of the row is some point's. -/
theorem idx_onto : ∀ q : Fin 8, ∃ t : Fin cfg22.N, win22_4.index t = ![0, q.val] :=
  (by decide +kernel : ∀ q : Fin 8, ∃ t : Fin grid22.N, win22_4.index t = ![0, q.val])

/-- The row window's block is the whole row at every point. -/
theorem blk1 (c : Dev nD) (t : Fin cfg22.N) (k : Fin 8192) : iblk22 V c 1 t (ix2 0 k) = V c (Pipeline.arrRef spec22 1) (ix2 0 k) := by
  obtain ⟨e00, e01, e10, e11, e20, e21, e30, e31, e40, e41, e50, e51⟩ := idx_facts t
  show V c (Pipeline.arrRef spec22 1) (((cfg22.win 1).blk t).view.emb (ix2 0 k)) = V c (Pipeline.arrRef spec22 1) (ix2 0 k)
  refine congrArg _ (funext fun a => Fin.ext ?_)
  match a with
  | ⟨0, _⟩ => show win22_1.index t (0 : Fin 2) * 1 + 1 * 0 = 0; omega
  | ⟨1, _⟩ => show win22_1.index t (1 : Fin 2) * 8192 + 1 * k.val = k.val; omega

/-- The coefficient window's block is the one entry. -/
theorem blk2 (c : Dev nD) (t : Fin cfg22.N) : iblk22 V c 2 t (ix2 0 0) = V c (Pipeline.arrRef spec22 2) (ix2 0 0) := by
  obtain ⟨e00, e01, e10, e11, e20, e21, e30, e31, e40, e41, e50, e51⟩ := idx_facts t
  show V c (Pipeline.arrRef spec22 2) (((cfg22.win 2).blk t).view.emb (ix2 0 0)) = V c (Pipeline.arrRef spec22 2) (ix2 0 0)
  refine congrArg _ (funext fun a => Fin.ext ?_)
  match a with
  | ⟨0, _⟩ => show win22_2.index t (0 : Fin 2) * 1 + 1 * 0 = 0; omega
  | ⟨1, _⟩ => show win22_2.index t (1 : Fin 2) * 1 + 1 * 0 = 0; omega

/-- The matrix window's block at point t is rows 1024·t … of the matrix: its row q is row (block's column position) of the array. -/
theorem blk0 (c : Dev nD) (t : Fin cfg22.N) (q : Fin 1024) (k : Fin 8192) :
    iblk22 V c 0 t (ix2 q k) = V c (Pipeline.arrRef spec22 0) (ix2 ((((cfg22.win 4).blk t).view.emb (ix2 0 q)) 1) k) := by
  obtain ⟨e00, e01, e10, e11, e20, e21, e30, e31, e40, e41, e50, e51⟩ := idx_facts t
  show V c (Pipeline.arrRef spec22 0) (((cfg22.win 0).blk t).view.emb (ix2 q k)) = _
  refine congrArg _ (funext fun a => Fin.ext ?_)
  match a with
  | ⟨0, _⟩ => show win22_0.index t (0 : Fin 2) * 1024 + 1 * q.val = win22_4.index t (1 : Fin 2) * 1024 + 1 * q.val; omega
  | ⟨1, _⟩ => show win22_0.index t (1 : Fin 2) * 8192 + 1 * k.val = k.val; omega

/-- The incoming accumulator window's block at point t is the same stretch of the row as the outgoing ones'. -/
theorem blk3 (c : Dev nD) (t : Fin cfg22.N) (q : Fin 1024) :
    iblk22 V c 3 t (ix2 0 q) = V c (Pipeline.arrRef spec22 3) (((cfg22.win 5).blk t).view.emb (ix2 0 q)) := by
  obtain ⟨e00, e01, e10, e11, e20, e21, e30, e31, e40, e41, e50, e51⟩ := idx_facts t
  show V c (Pipeline.arrRef spec22 3) (((cfg22.win 3).blk t).view.emb (ix2 0 q)) = _
  refine congrArg _ (funext fun a => Fin.ext ?_)
  match a with
  | ⟨0, _⟩ => show win22_3.index t (0 : Fin 2) * 1 + 1 * 0 = win22_5.index t (0 : Fin 2) * 1 + 1 * 0; omega
  | ⟨1, _⟩ => show win22_3.index t (1 : Fin 2) * 1024 + 1 * q.val = win22_5.index t (1 : Fin 2) * 1024 + 1 * q.val; omega

set_option maxHeartbeats 4000000 in
/-- WHAT POINT t WRITES BACK to the product window: block t of the product row. -/
theorem flushed4_eq (c : Dev nD) (t : Fin cfg22.N) :
    (dat22 V c).flushed 4 t = ((cfg22.win 4).blk t).view.read (Elt Ideal)
      (Gv (V c (Pipeline.arrRef spec22 1)) (V c (Pipeline.arrRef spec22 0))) := by
  show (cfg22.win 4).cut (grid22.coords t) ((dat22 V c).after 4 t) = _
  rw [after22_4]
  unfold out22_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk22 V c 1 t) (iblk22 V c 0 t) q).trans ?_
  show mvRow (iblk22 V c 1 t) (iblk22 V c 0 t) q
    = mvRow (V c (Pipeline.arrRef spec22 1)) (V c (Pipeline.arrRef spec22 0)) ((((cfg22.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg22.N) :
    (dat22 V c).flushed 5 t = ((cfg22.win 5).blk t).view.read (Elt Ideal)
      (Gy (V c (Pipeline.arrRef spec22 1)) (V c (Pipeline.arrRef spec22 0)) (V c (Pipeline.arrRef spec22 2)) (V c (Pipeline.arrRef spec22 3))) := by
  show (cfg22.win 5).cut (grid22.coords t) ((dat22 V c).after 5 t) = _
  rw [after22_5]
  unfold out22_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk22 V c 1 t) (iblk22 V c 0 t) (iblk22 V c 2 t) (iblk22 V c 3 t) q).trans ?_
  refine Eq.trans ?_ (Gy_acc (V c (Pipeline.arrRef spec22 1)) (V c (Pipeline.arrRef spec22 0)) (V c (Pipeline.arrRef spec22 2)) (V c (Pipeline.arrRef spec22 3))
    (((cfg22.win 5).blk t).view.emb (ix2 0 q))).symm
  rw [blk3 V c t q, blk2 V c t]
  refine congrArg (accAt _ _) ?_
  unfold mvRow
  refine Finset.sum_congr rfl fun k _ => ?_
  have hX : (((cfg22.win 4).blk t).view.emb (ix2 0 q)) 1 = (((cfg22.win 5).blk t).view.emb (ix2 0 q)) 1 :=
    Fin.ext (by show win22_4.index t (1 : Fin 2) * 1024 + 1 * q.val = win22_5.index t (1 : Fin 2) * 1024 + 1 * q.val; omega)
  rw [blk1 V c t k, blk0 V c t q k, hX]

/-- An index of a [1,8192] output array is in point t's block iff each coordinate is in the block's range. -/
theorem mem_blk4 (t : Fin cfg22.N) (i : S1x8192.Idx) :
    i ∈ ((cfg22.win 4).blk t).view.set ↔ ∀ a : Fin 2, win22_4.index t a * S1x1024.size a ≤ (i a).val ∧ (i a).val < win22_4.index t a * S1x1024.size a + S1x1024.size a := by
  show i ∈ ((View.whole main_call0_v166_0).slice (win22_4.rect t)).set ↔ _
  rw [View.set_slice_whole, Rect.mem_set_unit]
  exact Iff.rfl
theorem mem_blk5 (t : Fin cfg22.N) (i : S1x8192.Idx) :
    i ∈ ((cfg22.win 5).blk t).view.set ↔ ∀ a : Fin 2, win22_5.index t a * S1x1024.size a ≤ (i a).val ∧ (i a).val < win22_5.index t a * S1x1024.size a + S1x1024.size a := by
  show i ∈ ((View.whole main_call0_v166_1).slice (win22_5.rect t)).set ↔ _
  rw [View.set_slice_whole, Rect.mem_set_unit]
  exact Iff.rfl

/-- The eight blocks cover the row: column n is in the block of the point whose block index is n / 1024. -/
theorem cover4 (i : S1x8192.Idx) : ∃ t : Fin cfg22.N, (cfg22.win 4).flush t = true ∧ i ∈ ((cfg22.win 4).blk t).view.set := by
  have hi0 : (i 0).val < 1 := (i 0).isLt
  have hi1 : (i 1).val < 8192 := (i 1).isLt
  obtain ⟨t, ht⟩ := idx_onto ⟨(i 1).val / 1024, by omega⟩
  have q0 : win22_4.index t (0 : Fin 2) = 0 := congrFun ht 0
  have q1 : win22_4.index t (1 : Fin 2) = (i 1).val / 1024 := congrFun ht 1
  refine ⟨t, flush22_4 t, ?_⟩
  rw [mem_blk4]
  intro a
  match a with
  | ⟨0, _⟩ => show win22_4.index t (0 : Fin 2) * 1 ≤ (i 0).val ∧ (i 0).val < win22_4.index t (0 : Fin 2) * 1 + 1; omega
  | ⟨1, _⟩ => show win22_4.index t (1 : Fin 2) * 1024 ≤ (i 1).val ∧ (i 1).val < win22_4.index t (1 : Fin 2) * 1024 + 1024; omega
theorem cover5 (i : S1x8192.Idx) : ∃ t : Fin cfg22.N, (cfg22.win 5).flush t = true ∧ i ∈ ((cfg22.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win22_4.index t (1 : Fin 2) = (i 1).val / 1024 := congrFun ht 1
  refine ⟨t, flush22_5 t, ?_⟩
  rw [mem_blk5]
  intro a
  match a with
  | ⟨0, _⟩ => show win22_5.index t (0 : Fin 2) * 1 ≤ (i 0).val ∧ (i 0).val < win22_5.index t (0 : Fin 2) * 1 + 1; omega
  | ⟨1, _⟩ => show win22_5.index t (1 : Fin 2) * 1024 ≤ (i 1).val ∧ (i 1).val < win22_5.index t (1 : Fin 2) * 1024 + 1024; omega

/-- THE PRODUCT ARRAY after the region. -/
theorem final4 (c : Dev nD) : (dat22 V c).arrAt 4 cfg22.N = Gv (V c (Pipeline.arrRef spec22 1)) (V c (Pipeline.arrRef spec22 0)) :=
  (dat22 V c).arrAt_eq_of_cover 4 _ (fun t _ => flushed4_eq V c t) cover4
/-- THE ACCUMULATOR ARRAY after the region. -/
theorem final5 (c : Dev nD) : (dat22 V c).arrAt 5 cfg22.N
    = Gy (V c (Pipeline.arrRef spec22 1)) (V c (Pipeline.arrRef spec22 0)) (V c (Pipeline.arrRef spec22 2)) (V c (Pipeline.arrRef spec22 3)) :=
  (dat22 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W46 m ρ c (Proc.devRef .tc main_call0_v166_0) = Gv (W45 m ρ c (Proc.devRef .tc main_call0_v162_0)) (W45 m ρ c (Proc.devRef .tc main_call0_v13_0)) :=
  (W46_arr m ρ c 4).trans (final4 (V45 m ρ) c)
/-- The accumulator buffer after the region. -/
theorem exit_y : W46 m ρ c (Proc.devRef .tc main_call0_v166_1)
    = Gy (W45 m ρ c (Proc.devRef .tc main_call0_v162_0)) (W45 m ρ c (Proc.devRef .tc main_call0_v13_0)) (W45 m ρ c (Proc.devRef .tc main_call0_v165)) (W45 m ρ c (Proc.devRef .tc main_call0_v162_1)) :=
  (W46_arr m ρ c 5).trans (final5 (V45 m ρ) c)
/-- The matrix is only read. -/
theorem exit_H : W46 m ρ c (Proc.devRef .tc main_call0_v13_0) = W45 m ρ c (Proc.devRef .tc main_call0_v13_0) :=
  (W46_arr m ρ c 0).trans (((dat22 (V45 m ρ) c).arrAt_in 0 rfl _).trans (A_eq22 (V45 m ρ) c 0))
/-- The incoming row is only read. -/
theorem exit_vin : W46 m ρ c (Proc.devRef .tc main_call0_v162_0) = W45 m ρ c (Proc.devRef .tc main_call0_v162_0) :=
  (W46_arr m ρ c 1).trans (((dat22 (V45 m ρ) c).arrAt_in 1 rfl _).trans (A_eq22 (V45 m ρ) c 1))
/-- A buffer that is none of the region's arrays is as at entry. -/
theorem exit_keep (b : Ref sig .tc) (hb : ∀ w, Pipeline.arrRef spec22 w ≠ b) :
    W46 m ρ c (Proc.devRef .tc b) = W45 m ρ c (Proc.devRef .tc b) := W46_of_ne m ρ c b hb

end Exit

end Cert.KernelIdeal.Region22

end
-- ==== Proof.Region23.lean ====
/-
  Region 23 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region23

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg23.N,
      win23_0.index t (0 : Fin 2) = win23_4.index t (1 : Fin 2) ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = 0 ∧ win23_3.index t (1 : Fin 2) = win23_4.index t (1 : Fin 2)
    ∧ win23_4.index t (0 : Fin 2) = 0 ∧ win23_4.index t (1 : Fin 2) ≤ 7
    ∧ win23_5.index t (0 : Fin 2) = 0 ∧ win23_5.index t (1 : Fin 2) = win23_4.index t (1 : Fin 2) :=
  (by decide +kernel : ∀ t : Fin grid23.N, _)

/-- Every one of the eight blocks of the row is some point's. -/
theorem idx_onto : ∀ q : Fin 8, ∃ t : Fin cfg23.N, win23_4.index t = ![0, q.val] :=
  (by decide +kernel : ∀ q : Fin 8, ∃ t : Fin grid23.N, win23_4.index t = ![0, q.val])

/-- The row window's block is the whole row at every point. -/
theorem blk1 (c : Dev nD) (t : Fin cfg23.N) (k : Fin 8192) : iblk23 V c 1 t (ix2 0 k) = V c (Pipeline.arrRef spec23 1) (ix2 0 k) := by
  obtain ⟨e00, e01, e10, e11, e20, e21, e30, e31, e40, e41, e50, e51⟩ := idx_facts t
  show V c (Pipeline.arrRef spec23 1) (((cfg23.win 1).blk t).view.emb (ix2 0 k)) = V c (Pipeline.arrRef spec23 1) (ix2 0 k)
  refine congrArg _ (funext fun a => Fin.ext ?_)
  match a with
  | ⟨0, _⟩ => show win23_1.index t (0 : Fin 2) * 1 + 1 * 0 = 0; omega
  | ⟨1, _⟩ => show win23_1.index t (1 : Fin 2) * 8192 + 1 * k.val = k.val; omega

/-- The coefficient window's block is the one entry. -/
theorem blk2 (c : Dev nD) (t : Fin cfg23.N) : iblk23 V c 2 t (ix2 0 0) = V c (Pipeline.arrRef spec23 2) (ix2 0 0) := by
  obtain ⟨e00, e01, e10, e11, e20, e21, e30, e31, e40, e41, e50, e51⟩ := idx_facts t
  show V c (Pipeline.arrRef spec23 2) (((cfg23.win 2).blk t).view.emb (ix2 0 0)) = V c (Pipeline.arrRef spec23 2) (ix2 0 0)
  refine congrArg _ (funext fun a => Fin.ext ?_)
  match a with
  | ⟨0, _⟩ => show win23_2.index t (0 : Fin 2) * 1 + 1 * 0 = 0; omega
  | ⟨1, _⟩ => show win23_2.index t (1 : Fin 2) * 1 + 1 * 0 = 0; omega

/-- The matrix window's block at point t is rows 1024·t … of the matrix: its row q is row (block's column position) of the array. -/
theorem blk0 (c : Dev nD) (t : Fin cfg23.N) (q : Fin 1024) (k : Fin 8192) :
    iblk23 V c 0 t (ix2 q k) = V c (Pipeline.arrRef spec23 0) (ix2 ((((cfg23.win 4).blk t).view.emb (ix2 0 q)) 1) k) := by
  obtain ⟨e00, e01, e10, e11, e20, e21, e30, e31, e40, e41, e50, e51⟩ := idx_facts t
  show V c (Pipeline.arrRef spec23 0) (((cfg23.win 0).blk t).view.emb (ix2 q k)) = _
  refine congrArg _ (funext fun a => Fin.ext ?_)
  match a with
  | ⟨0, _⟩ => show win23_0.index t (0 : Fin 2) * 1024 + 1 * q.val = win23_4.index t (1 : Fin 2) * 1024 + 1 * q.val; omega
  | ⟨1, _⟩ => show win23_0.index t (1 : Fin 2) * 8192 + 1 * k.val = k.val; omega

/-- The incoming accumulator window's block at point t is the same stretch of the row as the outgoing ones'. -/
theorem blk3 (c : Dev nD) (t : Fin cfg23.N) (q : Fin 1024) :
    iblk23 V c 3 t (ix2 0 q) = V c (Pipeline.arrRef spec23 3) (((cfg23.win 5).blk t).view.emb (ix2 0 q)) := by
  obtain ⟨e00, e01, e10, e11, e20, e21, e30, e31, e40, e41, e50, e51⟩ := idx_facts t
  show V c (Pipeline.arrRef spec23 3) (((cfg23.win 3).blk t).view.emb (ix2 0 q)) = _
  refine congrArg _ (funext fun a => Fin.ext ?_)
  match a with
  | ⟨0, _⟩ => show win23_3.index t (0 : Fin 2) * 1 + 1 * 0 = win23_5.index t (0 : Fin 2) * 1 + 1 * 0; omega
  | ⟨1, _⟩ => show win23_3.index t (1 : Fin 2) * 1024 + 1 * q.val = win23_5.index t (1 : Fin 2) * 1024 + 1 * q.val; omega

set_option maxHeartbeats 4000000 in
/-- WHAT POINT t WRITES BACK to the product window: block t of the product row. -/
theorem flushed4_eq (c : Dev nD) (t : Fin cfg23.N) :
    (dat23 V c).flushed 4 t = ((cfg23.win 4).blk t).view.read (Elt Ideal)
      (Gv (V c (Pipeline.arrRef spec23 1)) (V c (Pipeline.arrRef spec23 0))) := by
  show (cfg23.win 4).cut (grid23.coords t) ((dat23 V c).after 4 t) = _
  rw [after23_4]
  unfold out23_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk23 V c 1 t) (iblk23 V c 0 t) q).trans ?_
  show mvRow (iblk23 V c 1 t) (iblk23 V c 0 t) q
    = mvRow (V c (Pipeline.arrRef spec23 1)) (V c (Pipeline.arrRef spec23 0)) ((((cfg23.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg23.N) :
    (dat23 V c).flushed 5 t = ((cfg23.win 5).blk t).view.read (Elt Ideal)
      (Gy (V c (Pipeline.arrRef spec23 1)) (V c (Pipeline.arrRef spec23 0)) (V c (Pipeline.arrRef spec23 2)) (V c (Pipeline.arrRef spec23 3))) := by
  show (cfg23.win 5).cut (grid23.coords t) ((dat23 V c).after 5 t) = _
  rw [after23_5]
  unfold out23_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk23 V c 1 t) (iblk23 V c 0 t) (iblk23 V c 2 t) (iblk23 V c 3 t) q).trans ?_
  refine Eq.trans ?_ (Gy_acc (V c (Pipeline.arrRef spec23 1)) (V c (Pipeline.arrRef spec23 0)) (V c (Pipeline.arrRef spec23 2)) (V c (Pipeline.arrRef spec23 3))
    (((cfg23.win 5).blk t).view.emb (ix2 0 q))).symm
  rw [blk3 V c t q, blk2 V c t]
  refine congrArg (accAt _ _) ?_
  unfold mvRow
  refine Finset.sum_congr rfl fun k _ => ?_
  have hX : (((cfg23.win 4).blk t).view.emb (ix2 0 q)) 1 = (((cfg23.win 5).blk t).view.emb (ix2 0 q)) 1 :=
    Fin.ext (by show win23_4.index t (1 : Fin 2) * 1024 + 1 * q.val = win23_5.index t (1 : Fin 2) * 1024 + 1 * q.val; omega)
  rw [blk1 V c t k, blk0 V c t q k, hX]

/-- An index of a [1,8192] output array is in point t's block iff each coordinate is in the block's range. -/
theorem mem_blk4 (t : Fin cfg23.N) (i : S1x8192.Idx) :
    i ∈ ((cfg23.win 4).blk t).view.set ↔ ∀ a : Fin 2, win23_4.index t a * S1x1024.size a ≤ (i a).val ∧ (i a).val < win23_4.index t a * S1x1024.size a + S1x1024.size a := by
  show i ∈ ((View.whole main_call0_v170_0).slice (win23_4.rect t)).set ↔ _
  rw [View.set_slice_whole, Rect.mem_set_unit]
  exact Iff.rfl
theorem mem_blk5 (t : Fin cfg23.N) (i : S1x8192.Idx) :
    i ∈ ((cfg23.win 5).blk t).view.set ↔ ∀ a : Fin 2, win23_5.index t a * S1x1024.size a ≤ (i a).val ∧ (i a).val < win23_5.index t a * S1x1024.size a + S1x1024.size a := by
  show i ∈ ((View.whole main_call0_v170_1).slice (win23_5.rect t)).set ↔ _
  rw [View.set_slice_whole, Rect.mem_set_unit]
  exact Iff.rfl

/-- The eight blocks cover the row: column n is in the block of the point whose block index is n / 1024. -/
theorem cover4 (i : S1x8192.Idx) : ∃ t : Fin cfg23.N, (cfg23.win 4).flush t = true ∧ i ∈ ((cfg23.win 4).blk t).view.set := by
  have hi0 : (i 0).val < 1 := (i 0).isLt
  have hi1 : (i 1).val < 8192 := (i 1).isLt
  obtain ⟨t, ht⟩ := idx_onto ⟨(i 1).val / 1024, by omega⟩
  have q0 : win23_4.index t (0 : Fin 2) = 0 := congrFun ht 0
  have q1 : win23_4.index t (1 : Fin 2) = (i 1).val / 1024 := congrFun ht 1
  refine ⟨t, flush23_4 t, ?_⟩
  rw [mem_blk4]
  intro a
  match a with
  | ⟨0, _⟩ => show win23_4.index t (0 : Fin 2) * 1 ≤ (i 0).val ∧ (i 0).val < win23_4.index t (0 : Fin 2) * 1 + 1; omega
  | ⟨1, _⟩ => show win23_4.index t (1 : Fin 2) * 1024 ≤ (i 1).val ∧ (i 1).val < win23_4.index t (1 : Fin 2) * 1024 + 1024; omega
theorem cover5 (i : S1x8192.Idx) : ∃ t : Fin cfg23.N, (cfg23.win 5).flush t = true ∧ i ∈ ((cfg23.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win23_4.index t (1 : Fin 2) = (i 1).val / 1024 := congrFun ht 1
  refine ⟨t, flush23_5 t, ?_⟩
  rw [mem_blk5]
  intro a
  match a with
  | ⟨0, _⟩ => show win23_5.index t (0 : Fin 2) * 1 ≤ (i 0).val ∧ (i 0).val < win23_5.index t (0 : Fin 2) * 1 + 1; omega
  | ⟨1, _⟩ => show win23_5.index t (1 : Fin 2) * 1024 ≤ (i 1).val ∧ (i 1).val < win23_5.index t (1 : Fin 2) * 1024 + 1024; omega

/-- THE PRODUCT ARRAY after the region. -/
theorem final4 (c : Dev nD) : (dat23 V c).arrAt 4 cfg23.N = Gv (V c (Pipeline.arrRef spec23 1)) (V c (Pipeline.arrRef spec23 0)) :=
  (dat23 V c).arrAt_eq_of_cover 4 _ (fun t _ => flushed4_eq V c t) cover4
/-- THE ACCUMULATOR ARRAY after the region. -/
theorem final5 (c : Dev nD) : (dat23 V c).arrAt 5 cfg23.N
    = Gy (V c (Pipeline.arrRef spec23 1)) (V c (Pipeline.arrRef spec23 0)) (V c (Pipeline.arrRef spec23 2)) (V c (Pipeline.arrRef spec23 3)) :=
  (dat23 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W48 m ρ c (Proc.devRef .tc main_call0_v170_0) = Gv (W47 m ρ c (Proc.devRef .tc main_call0_v166_0)) (W47 m ρ c (Proc.devRef .tc main_call0_v13_0)) :=
  (W48_arr m ρ c 4).trans (final4 (V47 m ρ) c)
/-- The accumulator buffer after the region. -/
theorem exit_y : W48 m ρ c (Proc.devRef .tc main_call0_v170_1)
    = Gy (W47 m ρ c (Proc.devRef .tc main_call0_v166_0)) (W47 m ρ c (Proc.devRef .tc main_call0_v13_0)) (W47 m ρ c (Proc.devRef .tc main_call0_v169)) (W47 m ρ c (Proc.devRef .tc main_call0_v166_1)) :=
  (W48_arr m ρ c 5).trans (final5 (V47 m ρ) c)
/-- The matrix is only read. -/
theorem exit_H : W48 m ρ c (Proc.devRef .tc main_call0_v13_0) = W47 m ρ c (Proc.devRef .tc main_call0_v13_0) :=
  (W48_arr m ρ c 0).trans (((dat23 (V47 m ρ) c).arrAt_in 0 rfl _).trans (A_eq23 (V47 m ρ) c 0))
/-- The incoming row is only read. -/
theorem exit_vin : W48 m ρ c (Proc.devRef .tc main_call0_v166_0) = W47 m ρ c (Proc.devRef .tc main_call0_v166_0) :=
  (W48_arr m ρ c 1).trans (((dat23 (V47 m ρ) c).arrAt_in 1 rfl _).trans (A_eq23 (V47 m ρ) c 1))
/-- A buffer that is none of the region's arrays is as at entry. -/
theorem exit_keep (b : Ref sig .tc) (hb : ∀ w, Pipeline.arrRef spec23 w ≠ b) :
    W48 m ρ c (Proc.devRef .tc b) = W47 m ρ c (Proc.devRef .tc b) := W48_of_ne m ρ c b hb

end Exit

end Cert.KernelIdeal.Region23

end
-- ==== Proof.KLayer5.lean ====
/-
  Layer 5 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region20
import proofs.«144169_j55405078119367_2_alg».proof.Proof.Region21
import proofs.«144169_j55405078119367_2_alg».proof.Proof.Region22
import proofs.«144169_j55405078119367_2_alg».proof.Proof.Region23

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 5 = (1, 0). -/
theorem layer5 (X : FVec Ideal Cert.ReferenceIdeal.S8192x1 .f32) (HnB : (⟨2, ![8192, 8192]⟩ : Shape).Idx → EReal)
    (A : FVec Ideal Cert.ReferenceIdeal.S2x5x5 .f32)
    (A41 : W41 m ρ c (Proc.devRef .tc main_arg2) = A)
    (H41 : (W41 m ρ c (Proc.devRef .tc main_call0_v13_0) : (⟨2, ![8192, 8192]⟩ : Shape).Idx → EReal) = HnB)
    (v41 : toCol (W41 m ρ c (Proc.devRef .tc main_call0_v150)) = X)
    (y41 : toCol (W41 m ρ c (Proc.devRef .tc main_call0_v154)) = (Spec.sc (F := Ideal) (Spec.coef (F := Ideal) ![1, 0, 0] Cert.ReferenceIdeal.Gen.slices_S2x5x5_S1x1x1_1_0_0 A) X))
    (a41 : W41 m ρ c (Proc.devRef .tc main_call0_v157) = as11 (Spec.coef (F := Ideal) ![1, 0, 1] Cert.ReferenceIdeal.Gen.slices_S2x5x5_S1x1x1_1_0_1 A)) :
    W49 m ρ c (Proc.devRef .tc main_arg2) = A
    ∧ (W49 m ρ c (Proc.devRef .tc main_call0_v13_0) : (⟨2, ![8192, 8192]⟩ : Shape).Idx → EReal) = HnB
    ∧ toCol (W49 m ρ c (Proc.devRef .tc main_call0_v179)) = (Spec.layer10 (F := Ideal) A HnB X)
    ∧ toCol (W49 m ρ c (Proc.devRef .tc main_call0_v183)) = Spec.sc (F := Ideal) (Spec.coef (F := Ideal) ![1, 1, 0] Cert.ReferenceIdeal.Gen.slices_S2x5x5_S1x1x1_1_1_0 A) (Spec.layer10 (F := Ideal) A HnB X)
    ∧ W49 m ρ c (Proc.devRef .tc main_call0_v186) = as11 (Spec.coef (F := Ideal) ![1, 1, 1] Cert.ReferenceIdeal.Gen.slices_S2x5x5_S1x1x1_1_1_1 A)
    ∧ W49 m ρ c (Proc.devRef .tc main_call0_v150) = W41 m ρ c (Proc.devRef .tc main_call0_v150) := by
  have C41 : W41 m ρ c (Proc.devRef .tc main_call0_v150) = W41 m ρ c (Proc.devRef .tc main_call0_v150) := rfl
  -- region 20: tap 1
  have H42 : (W42 m ρ c (Proc.devRef .tc main_call0_v13_0) : (⟨2, ![8192, 8192]⟩ : Shape).Idx → EReal) = HnB := (Region20.exit_H m ρ c).trans H41
  have A42 : W42 m ρ c (Proc.devRef .tc main_arg2) = A := (Region20.exit_keep m ρ c main_arg2 (by decide)).trans A41
  have v42 : toCol (W42 m ρ c (Proc.devRef .tc main_call0_v158_0)) = (Spec.mv (F := Ideal) HnB X) := by
    rw [Region20.exit_v m ρ c, toCol_Gv, v41]; exact congrArg (fun h => Spec.mv (F := Ideal) h X) H41
  have y42 : toCol (W42 m ρ c (Proc.devRef .tc main_call0_v158_1)) = (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) := by
    rw [Region20.exit_y m ρ c, a41, toCol_Gy, v41, y41]; exact congrArg (fun h => addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) h X))) H41
  have C42 : W42 m ρ c (Proc.devRef .tc main_call0_v150) = W41 m ρ c (Proc.devRef .tc main_call0_v150) := (Region20.exit_vin m ρ c).trans C41
  -- stretch 21: the next coefficient
  have A43 : W43 m ρ c (Proc.devRef .tc main_arg2) = A := (keep21 (W42 m ρ c) main_arg2 (by decide)).trans A42
  have H43 : (W43 m ρ c (Proc.devRef .tc main_call0_v13_0) : (⟨2, ![8192, 8192]⟩ : Shape).Idx → EReal) = HnB := (keep21 (W42 m ρ c) main_call0_v13_0 (by decide)).trans H42
  have v43 : toCol (W43 m ρ c (Proc.devRef .tc main_call0_v158_0)) = (Spec.mv (F := Ideal) HnB X) := (congrArg toCol (keep21 (W42 m ρ c) main_call0_v158_0 (by decide))).trans v42
  have y43 : toCol (W43 m ρ c (Proc.devRef .tc main_call0_v158_1)) = (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) := (congrArg toCol (keep21 (W42 m ρ c) main_call0_v158_1 (by decide))).trans y42
  have a43 : W43 m ρ c (Proc.devRef .tc main_call0_v161) = as11 (Spec.coef (F := Ideal) ![1, 0, 2] Cert.ReferenceIdeal.Gen.slices_S2x5x5_S1x1x1_1_0_2 A) := (h21_a (W42 m ρ c)).trans (by rw [A42])
  have C43 : W43 m ρ c (Proc.devRef .tc main_call0_v150) = W41 m ρ c (Proc.devRef .tc main_call0_v150) := (keep21 (W42 m ρ c) main_call0_v150 (by decide)).trans C42
  -- region 21: tap 2
  have H44 : (W44 m ρ c (Proc.devRef .tc main_call0_v13_0) : (⟨2, ![8192, 8192]⟩ : Shape).Idx → EReal) = HnB := (Region21.exit_H m ρ c).trans H43
  have A44 : W44 m ρ c (Proc.devRef .tc main_arg2) = A := (Region21.exit_keep m ρ c main_arg2 (by decide)).trans A43
  have v44 : toCol (W44 m ρ c (Proc.devRef .tc main_call0_v162_0)) = (Spec.mv (F := Ideal) HnB (Spec.mv (F := Ideal) HnB X)) := by
    rw [Region21.exit_v m ρ c, toCol_Gv, v43]; exact congrArg (fun h => Spec.mv (F := Ideal) h (Spec.mv (F := Ideal) HnB X)) H43
  have y44 : toCol (W44 m ρ c (Proc.devRef .tc main_call0_v162_1)) = (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) := by
    rw [Region21.exit_y m ρ c, a43, toCol_Gy, v43, y43]; exact congrArg (fun h => addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) h (Spec.mv (F := Ideal) HnB X)))) H43
  have C44 : W44 m ρ c (Proc.devRef .tc main_call0_v150) = W41 m ρ c (Proc.devRef .tc main_call0_v150) := (Region21.exit_keep m ρ c main_call0_v150 (by decide)).trans C43
  -- stretch 22: the next coefficient
  have A45 : W45 m ρ c (Proc.devRef .tc main_arg2) = A := (keep22 (W44 m ρ c) main_arg2 (by decide)).trans A44
  have H45 : (W45 m ρ c (Proc.devRef .tc main_call0_v13_0) : (⟨2, ![8192, 8192]⟩ : Shape).Idx → EReal) = HnB := (keep22 (W44 m ρ c) main_call0_v13_0 (by decide)).trans H44
  have v45 : toCol (W45 m ρ c (Proc.devRef .tc main_call0_v162_0)) = (Spec.mv (F := Ideal) HnB (Spec.mv (F := Ideal) HnB X)) := (congrArg toCol (keep22 (W44 m ρ c) main_call0_v162_0 (by decide))).trans v44
  have y45 : toCol (W45 m ρ c (Proc.devRef .tc main_call0_v162_1)) = (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) := (congrArg toCol (keep22 (W44 m ρ c) main_call0_v162_1 (by decide))).trans y44
  have a45 : W45 m ρ c (Proc.devRef .tc main_call0_v165) = as11 (Spec.coef (F := Ideal) ![1, 0, 3] Cert.ReferenceIdeal.Gen.slices_S2x5x5_S1x1x1_1_0_3 A) := (h22_a (W44 m ρ c)).trans (by rw [A44])
  have C45 : W45 m ρ c (Proc.devRef .tc main_call0_v150) = W41 m ρ c (Proc.devRef .tc main_call0_v150) := (keep22 (W44 m ρ c) main_call0_v150 (by decide)).trans C44
  -- region 22: tap 3
  have H46 : (W46 m ρ c (Proc.devRef .tc main_call0_v13_0) : (⟨2, ![8192, 8192]⟩ : Shape).Idx → EReal) = HnB := (Region22.exit_H m ρ c).trans H45
  have A46 : W46 m ρ c (Proc.devRef .tc main_arg2) = A := (Region22.exit_keep m ρ c main_arg2 (by decide)).trans A45
  have v46 : toCol (W46 m ρ c (Proc.devRef .tc main_call0_v166_0)) = (Spec.mv (F := Ideal) HnB (Spec.mv (F := Ideal) HnB (Spec.mv (F := Ideal) HnB X))) := by
    rw [Region22.exit_v m ρ c, toCol_Gv, v45]; exact congrArg (fun h => Spec.mv (F := Ideal) h (Spec.mv (F := Ideal) HnB (Spec.mv (F := Ideal) HnB X))) H45
  have y46 : toCol (W46 m ρ c (Proc.devRef .tc main_call0_v166_1)) = (addf (F := Ideal) (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) (Spec.sc (F := Ideal) (Spec.coef (F := Ideal) ![1, 0, 3] Cert.ReferenceIdeal.Gen.slices_S2x5x5_S1x1x1_1_0_3 A) (Spec.mv (F := Ideal) HnB (Spec.mv (F := Ideal) HnB (Spec.mv (F := Ideal) HnB X))))) := by
    rw [Region22.exit_y m ρ c, a45, toCol_Gy, v45, y45]; exact congrArg (fun h => addf (F := Ideal) (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) (Spec.sc (F := Ideal) (Spec.coef (F := Ideal) ![1, 0, 3] Cert.ReferenceIdeal.Gen.slices_S2x5x5_S1x1x1_1_0_3 A) (Spec.mv (F := Ideal) h (Spec.mv (F := Ideal) HnB (Spec.mv (F := Ideal) HnB X))))) H45
  have C46 : W46 m ρ c (Proc.devRef .tc main_call0_v150) = W41 m ρ c (Proc.devRef .tc main_call0_v150) := (Region22.exit_keep m ρ c main_call0_v150 (by decide)).trans C45
  -- stretch 23: the next coefficient
  have A47 : W47 m ρ c (Proc.devRef .tc main_arg2) = A := (keep23 (W46 m ρ c) main_arg2 (by decide)).trans A46
  have H47 : (W47 m ρ c (Proc.devRef .tc main_call0_v13_0) : (⟨2, ![8192, 8192]⟩ : Shape).Idx → EReal) = HnB := (keep23 (W46 m ρ c) main_call0_v13_0 (by decide)).trans H46
  have v47 : toCol (W47 m ρ c (Proc.devRef .tc main_call0_v166_0)) = (Spec.mv (F := Ideal) HnB (Spec.mv (F := Ideal) HnB (Spec.mv (F := Ideal) HnB X))) := (congrArg toCol (keep23 (W46 m ρ c) main_call0_v166_0 (by decide))).trans v46
  have y47 : toCol (W47 m ρ c (Proc.devRef .tc main_call0_v166_1)) = (addf (F := Ideal) (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) (Spec.sc (F := Ideal) (Spec.coef (F := Ideal) ![1, 0, 3] Cert.ReferenceIdeal.Gen.slices_S2x5x5_S1x1x1_1_0_3 A) (Spec.mv (F := Ideal) HnB (Spec.mv (F := Ideal) HnB (Spec.mv (F := Ideal) HnB X))))) := (congrArg toCol (keep23 (W46 m ρ c) main_call0_v166_1 (by decide))).trans y46
  have a47 : W47 m ρ c (Proc.devRef .tc main_call0_v169) = as11 (Spec.coef (F := Ideal) ![1, 0, 4] Cert.ReferenceIdeal.Gen.slices_S2x5x5_S1x1x1_1_0_4 A) := (h23_a (W46 m ρ c)).trans (by rw [A46])
  have C47 : W47 m ρ c (Proc.devRef .tc main_call0_v150) = W41 m ρ c (Proc.devRef .tc main_call0_v150) := (keep23 (W46 m ρ c) main_call0_v150 (by decide)).trans C46
  -- region 23: tap 4
  have H48 : (W48 m ρ c (Proc.devRef .tc main_call0_v13_0) : (⟨2, ![8192, 8192]⟩ : Shape).Idx → EReal) = HnB := (Region23.exit_H m ρ c).trans H47
  have A48 : W48 m ρ c (Proc.devRef .tc main_arg2) = A := (Region23.exit_keep m ρ c main_arg2 (by decide)).trans A47
  have v48 : toCol (W48 m ρ c (Proc.devRef .tc main_call0_v170_0)) = (Spec.mv (F := Ideal) HnB (Spec.mv (F := Ideal) HnB (Spec.mv (F := Ideal) HnB (Spec.mv (F := Ideal) HnB X)))) := by
    rw [Region23.exit_v m ρ c, toCol_Gv, v47]; exact congrArg (fun h => Spec.mv (F := Ideal) h (Spec.mv (F := Ideal) HnB (Spec.mv (F := Ideal) HnB (Spec.mv (F := Ideal) HnB X)))) H47
  have y48 : toCol (W48 m ρ c (Proc.devRef .tc main_call0_v170_1)) = (addf (F := Ideal) (addf (F := Ideal) (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) (Spec.sc (F := Ideal) (Spec.coef (F := Ideal) ![1, 0, 3] Cert.ReferenceIdeal.Gen.slices_S2x5x5_S1x1x1_1_0_3 A) (Spec.mv (F := Ideal) HnB (Spec.mv (F := Ideal) HnB (Spec.mv (F := Ideal) HnB X))))) (Spec.sc (F := Ideal) (Spec.coef (F := Ideal) ![1, 0, 4] Cert.ReferenceIdeal.Gen.slices_S2x5x5_S1x1x1_1_0_4 A) (Spec.mv (F := Ideal) HnB (Spec.mv (F := Ideal) HnB (Spec.mv (F := Ideal) HnB (Spec.mv (F := Ideal) HnB X)))))) := by
    rw [Region23.exit_y m ρ c, a47, toCol_Gy, v47, y47]; exact congrArg (fun h => addf (F := Ideal) (addf (F := Ideal) (addf (F := Ideal) (addf (F := Ideal) (Spec.sc (F := Ideal) (Spec.coef (F := Ideal) ![1, 0, 0] Cert.ReferenceIdeal.Gen.slices_S2x5x5_S1x1x1_1_0_0 A) X) (Spec.sc (F := Ideal) (Spec.coef (F := Ideal) ![1, 0, 1] Cert.ReferenceIdeal.Gen.slices_S2x5x5_S1x1x1_1_0_1 A) (Spec.mv (F := Ideal) HnB X))) (Spec.sc (F := Ideal) (Spec.coef (F := Ideal) ![1, 0, 2] Cert.ReferenceIdeal.Gen.slices_S2x5x5_S1x1x1_1_0_2 A) (Spec.mv (F := Ideal) HnB (Spec.mv (F := Ideal) HnB X)))) (Spec.sc (F := Ideal) (Spec.coef (F := Ideal) ![1, 0, 3] Cert.ReferenceIdeal.Gen.slices_S2x5x5_S1x1x1_1_0_3 A) (Spec.mv (F := Ideal) HnB (Spec.mv (F := Ideal) HnB (Spec.mv (F := Ideal) HnB X))))) (Spec.sc (F := Ideal) (Spec.coef (F := Ideal) ![1, 0, 4] Cert.ReferenceIdeal.Gen.slices_S2x5x5_S1x1x1_1_0_4 A) (Spec.mv (F := Ideal) h (Spec.mv (F := Ideal) HnB (Spec.mv (F := Ideal) HnB (Spec.mv (F := Ideal) HnB X)))))) H47
  have C48 : W48 m ρ c (Proc.devRef .tc main_call0_v150) = W41 m ρ c (Proc.devRef .tc main_call0_v150) := (Region23.exit_keep m ρ c main_call0_v150 (by decide)).trans C47
  -- stretch 24: leaky_relu, the two normalisations, the next layer's first tap and second coefficient
  have A49 : W49 m ρ c (Proc.devRef .tc main_arg2) = A := (keep24 (W48 m ρ c) main_arg2 (by decide)).trans A48
  have H49 : (W49 m ρ c (Proc.devRef .tc main_call0_v13_0) : (⟨2, ![8192, 8192]⟩ : Shape).Idx → EReal) = HnB := (keep24 (W48 m ρ c) main_call0_v13_0 (by decide)).trans H48
  have x49 : toCol (W49 m ρ c (Proc.devRef .tc main_call0_v179)) = Spec.layer10 (F := Ideal) A HnB X := (h24_x (W48 m ρ c)).trans (by rw [y48]; rfl)
  have y49 : toCol (W49 m ρ c (Proc.devRef .tc main_call0_v183)) = Spec.sc (F := Ideal) (Spec.coef (F := Ideal) ![1, 1, 0] Cert.ReferenceIdeal.Gen.slices_S2x5x5_S1x1x1_1_1_0 A) (Spec.layer10 (F := Ideal) A HnB X) := (h24_y0 (W48 m ρ c)).trans (by rw [y48, A48]; rfl)
  have a49 : W49 m ρ c (Proc.devRef .tc main_call0_v186) = as11 (Spec.coef (F := Ideal) ![1, 1, 1] Cert.ReferenceIdeal.Gen.slices_S2x5x5_S1x1x1_1_1_1 A) := (h24_a (W48 m ρ c)).trans (by rw [A48])
  have C49 : W49 m ρ c (Proc.devRef .tc main_call0_v150) = W41 m ρ c (Proc.devRef .tc main_call0_v150) := (keep24 (W48 m ρ c) main_call0_v150 (by decide)).trans C48
  exact ⟨A49, H49, x49, y49, a49, C49⟩

end Cert.KernelIdeal.Chain

end
-- ==== Proof.Region24.lean ====
/-
  Region 24 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region24

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg24.N,
      win24_0.index t (0 : Fin 2) = win24_4.index t (1 : Fin 2) ∧ win24_0.index t (1 : Fin 2) = 0
    ∧ win24_1.index t (0 : Fin 2) = 0 ∧ win24_1.index t (1 : Fin 2) = 0
    ∧ win24_2.index t (0 : Fin 2) = 0 ∧ win24_2.index t (1 : Fin 2) = 0
    ∧ win24_3.index t (0 : Fin 2) = 0 ∧ win24_3.index t (1 : Fin 2) = win24_4.index t (1 : Fin 2)
    ∧ win24_4.index t (0 : Fin 2) = 0 ∧ win24_4.index t (1 : Fin 2) ≤ 7
    ∧ win24_5.index t (0 : Fin 2) = 0 ∧ win24_5.index t (1 : Fin 2) = win24_4.index t (1 : Fin 2) :=
  (by decide +kernel : ∀ t : Fin grid24.N, _)

/-- Every one of the eight blocks of the row is some point's. -/
theorem idx_onto : ∀ q : Fin 8, ∃ t : Fin cfg24.N, win24_4.index t = ![0, q.val] :=
  (by decide +kernel : ∀ q : Fin 8, ∃ t : Fin grid24.N, win24_4.index t = ![0, q.val])

/-- The row window's block is the whole row at every point. -/
theorem blk1 (c : Dev nD) (t : Fin cfg24.N) (k : Fin 8192) : iblk24 V c 1 t (ix2 0 k) = V c (Pipeline.arrRef spec24 1) (ix2 0 k) := by
  obtain ⟨e00, e01, e10, e11, e20, e21, e30, e31, e40, e41, e50, e51⟩ := idx_facts t
  show V c (Pipeline.arrRef spec24 1) (((cfg24.win 1).blk t).view.emb (ix2 0 k)) = V c (Pipeline.arrRef spec24 1) (ix2 0 k)
  refine congrArg _ (funext fun a => Fin.ext ?_)
  match a with
  | ⟨0, _⟩ => show win24_1.index t (0 : Fin 2) * 1 + 1 * 0 = 0; omega
  | ⟨1, _⟩ => show win24_1.index t (1 : Fin 2) * 8192 + 1 * k.val = k.val; omega

/-- The coefficient window's block is the one entry. -/
theorem blk2 (c : Dev nD) (t : Fin cfg24.N) : iblk24 V c 2 t (ix2 0 0) = V c (Pipeline.arrRef spec24 2) (ix2 0 0) := by
  obtain ⟨e00, e01, e10, e11, e20, e21, e30, e31, e40, e41, e50, e51⟩ := idx_facts t
  show V c (Pipeline.arrRef spec24 2) (((cfg24.win 2).blk t).view.emb (ix2 0 0)) = V c (Pipeline.arrRef spec24 2) (ix2 0 0)
  refine congrArg _ (funext fun a => Fin.ext ?_)
  match a with
  | ⟨0, _⟩ => show win24_2.index t (0 : Fin 2) * 1 + 1 * 0 = 0; omega
  | ⟨1, _⟩ => show win24_2.index t (1 : Fin 2) * 1 + 1 * 0 = 0; omega

/-- The matrix window's block at point t is rows 1024·t … of the matrix: its row q is row (block's column position) of the array. -/
theorem blk0 (c : Dev nD) (t : Fin cfg24.N) (q : Fin 1024) (k : Fin 8192) :
    iblk24 V c 0 t (ix2 q k) = V c (Pipeline.arrRef spec24 0) (ix2 ((((cfg24.win 4).blk t).view.emb (ix2 0 q)) 1) k) := by
  obtain ⟨e00, e01, e10, e11, e20, e21, e30, e31, e40, e41, e50, e51⟩ := idx_facts t
  show V c (Pipeline.arrRef spec24 0) (((cfg24.win 0).blk t).view.emb (ix2 q k)) = _
  refine congrArg _ (funext fun a => Fin.ext ?_)
  match a with
  | ⟨0, _⟩ => show win24_0.index t (0 : Fin 2) * 1024 + 1 * q.val = win24_4.index t (1 : Fin 2) * 1024 + 1 * q.val; omega
  | ⟨1, _⟩ => show win24_0.index t (1 : Fin 2) * 8192 + 1 * k.val = k.val; omega

/-- The incoming accumulator window's block at point t is the same stretch of the row as the outgoing ones'. -/
theorem blk3 (c : Dev nD) (t : Fin cfg24.N) (q : Fin 1024) :
    iblk24 V c 3 t (ix2 0 q) = V c (Pipeline.arrRef spec24 3) (((cfg24.win 5).blk t).view.emb (ix2 0 q)) := by
  obtain ⟨e00, e01, e10, e11, e20, e21, e30, e31, e40, e41, e50, e51⟩ := idx_facts t
  show V c (Pipeline.arrRef spec24 3) (((cfg24.win 3).blk t).view.emb (ix2 0 q)) = _
  refine congrArg _ (funext fun a => Fin.ext ?_)
  match a with
  | ⟨0, _⟩ => show win24_3.index t (0 : Fin 2) * 1 + 1 * 0 = win24_5.index t (0 : Fin 2) * 1 + 1 * 0; omega
  | ⟨1, _⟩ => show win24_3.index t (1 : Fin 2) * 1024 + 1 * q.val = win24_5.index t (1 : Fin 2) * 1024 + 1 * q.val; omega

set_option maxHeartbeats 4000000 in
/-- WHAT POINT t WRITES BACK to the product window: block t of the product row. -/
theorem flushed4_eq (c : Dev nD) (t : Fin cfg24.N) :
    (dat24 V c).flushed 4 t = ((cfg24.win 4).blk t).view.read (Elt Ideal)
      (Gv (V c (Pipeline.arrRef spec24 1)) (V c (Pipeline.arrRef spec24 0))) := by
  show (cfg24.win 4).cut (grid24.coords t) ((dat24 V c).after 4 t) = _
  rw [after24_4]
  unfold out24_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk24 V c 1 t) (iblk24 V c 0 t) q).trans ?_
  show mvRow (iblk24 V c 1 t) (iblk24 V c 0 t) q
    = mvRow (V c (Pipeline.arrRef spec24 1)) (V c (Pipeline.arrRef spec24 0)) ((((cfg24.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg24.N) :
    (dat24 V c).flushed 5 t = ((cfg24.win 5).blk t).view.read (Elt Ideal)
      (Gy (V c (Pipeline.arrRef spec24 1)) (V c (Pipeline.arrRef spec24 0)) (V c (Pipeline.arrRef spec24 2)) (V c (Pipeline.arrRef spec24 3))) := by
  show (cfg24.win 5).cut (grid24.coords t) ((dat24 V c).after 5 t) = _
  rw [after24_5]
  unfold out24_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk24 V c 1 t) (iblk24 V c 0 t) (iblk24 V c 2 t) (iblk24 V c 3 t) q).trans ?_
  refine Eq.trans ?_ (Gy_acc (V c (Pipeline.arrRef spec24 1)) (V c (Pipeline.arrRef spec24 0)) (V c (Pipeline.arrRef spec24 2)) (V c (Pipeline.arrRef spec24 3))
    (((cfg24.win 5).blk t).view.emb (ix2 0 q))).symm
  rw [blk3 V c t q, blk2 V c t]
  refine congrArg (accAt _ _) ?_
  unfold mvRow
  refine Finset.sum_congr rfl fun k _ => ?_
  have hX : (((cfg24.win 4).blk t).view.emb (ix2 0 q)) 1 = (((cfg24.win 5).blk t).view.emb (ix2 0 q)) 1 :=
    Fin.ext (by show win24_4.index t (1 : Fin 2) * 1024 + 1 * q.val = win24_5.index t (1 : Fin 2) * 1024 + 1 * q.val; omega)
  rw [blk1 V c t k, blk0 V c t q k, hX]

/-- An index of a [1,8192] output array is in point t's block iff each coordinate is in the block's range. -/
theorem mem_blk4 (t : Fin cfg24.N) (i : S1x8192.Idx) :
    i ∈ ((cfg24.win 4).blk t).view.set ↔ ∀ a : Fin 2, win24_4.index t a * S1x1024.size a ≤ (i a).val ∧ (i a).val < win24_4.index t a * S1x1024.size a + S1x1024.size a := by
  show i ∈ ((View.whole main_call0_v187_0).slice (win24_4.rect t)).set ↔ _
  rw [View.set_slice_whole, Rect.mem_set_unit]
  exact Iff.rfl
theorem mem_blk5 (t : Fin cfg24.N) (i : S1x8192.Idx) :
    i ∈ ((cfg24.win 5).blk t).view.set ↔ ∀ a : Fin 2, win24_5.index t a * S1x1024.size a ≤ (i a).val ∧ (i a).val < win24_5.index t a * S1x1024.size a + S1x1024.size a := by
  show i ∈ ((View.whole main_call0_v187_1).slice (win24_5.rect t)).set ↔ _
  rw [View.set_slice_whole, Rect.mem_set_unit]
  exact Iff.rfl

/-- The eight blocks cover the row: column n is in the block of the point whose block index is n / 1024. -/
theorem cover4 (i : S1x8192.Idx) : ∃ t : Fin cfg24.N, (cfg24.win 4).flush t = true ∧ i ∈ ((cfg24.win 4).blk t).view.set := by
  have hi0 : (i 0).val < 1 := (i 0).isLt
  have hi1 : (i 1).val < 8192 := (i 1).isLt
  obtain ⟨t, ht⟩ := idx_onto ⟨(i 1).val / 1024, by omega⟩
  have q0 : win24_4.index t (0 : Fin 2) = 0 := congrFun ht 0
  have q1 : win24_4.index t (1 : Fin 2) = (i 1).val / 1024 := congrFun ht 1
  refine ⟨t, flush24_4 t, ?_⟩
  rw [mem_blk4]
  intro a
  match a with
  | ⟨0, _⟩ => show win24_4.index t (0 : Fin 2) * 1 ≤ (i 0).val ∧ (i 0).val < win24_4.index t (0 : Fin 2) * 1 + 1; omega
  | ⟨1, _⟩ => show win24_4.index t (1 : Fin 2) * 1024 ≤ (i 1).val ∧ (i 1).val < win24_4.index t (1 : Fin 2) * 1024 + 1024; omega
theorem cover5 (i : S1x8192.Idx) : ∃ t : Fin cfg24.N, (cfg24.win 5).flush t = true ∧ i ∈ ((cfg24.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win24_4.index t (1 : Fin 2) = (i 1).val / 1024 := congrFun ht 1
  refine ⟨t, flush24_5 t, ?_⟩
  rw [mem_blk5]
  intro a
  match a with
  | ⟨0, _⟩ => show win24_5.index t (0 : Fin 2) * 1 ≤ (i 0).val ∧ (i 0).val < win24_5.index t (0 : Fin 2) * 1 + 1; omega
  | ⟨1, _⟩ => show win24_5.index t (1 : Fin 2) * 1024 ≤ (i 1).val ∧ (i 1).val < win24_5.index t (1 : Fin 2) * 1024 + 1024; omega

/-- THE PRODUCT ARRAY after the region. -/
theorem final4 (c : Dev nD) : (dat24 V c).arrAt 4 cfg24.N = Gv (V c (Pipeline.arrRef spec24 1)) (V c (Pipeline.arrRef spec24 0)) :=
  (dat24 V c).arrAt_eq_of_cover 4 _ (fun t _ => flushed4_eq V c t) cover4
/-- THE ACCUMULATOR ARRAY after the region. -/
theorem final5 (c : Dev nD) : (dat24 V c).arrAt 5 cfg24.N
    = Gy (V c (Pipeline.arrRef spec24 1)) (V c (Pipeline.arrRef spec24 0)) (V c (Pipeline.arrRef spec24 2)) (V c (Pipeline.arrRef spec24 3)) :=
  (dat24 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W50 m ρ c (Proc.devRef .tc main_call0_v187_0) = Gv (W49 m ρ c (Proc.devRef .tc main_call0_v179)) (W49 m ρ c (Proc.devRef .tc main_call0_v13_0)) :=
  (W50_arr m ρ c 4).trans (final4 (V49 m ρ) c)
/-- The accumulator buffer after the region. -/
theorem exit_y : W50 m ρ c (Proc.devRef .tc main_call0_v187_1)
    = Gy (W49 m ρ c (Proc.devRef .tc main_call0_v179)) (W49 m ρ c (Proc.devRef .tc main_call0_v13_0)) (W49 m ρ c (Proc.devRef .tc main_call0_v186)) (W49 m ρ c (Proc.devRef .tc main_call0_v183)) :=
  (W50_arr m ρ c 5).trans (final5 (V49 m ρ) c)
/-- The matrix is only read. -/
theorem exit_H : W50 m ρ c (Proc.devRef .tc main_call0_v13_0) = W49 m ρ c (Proc.devRef .tc main_call0_v13_0) :=
  (W50_arr m ρ c 0).trans (((dat24 (V49 m ρ) c).arrAt_in 0 rfl _).trans (A_eq24 (V49 m ρ) c 0))
/-- The incoming row is only read. -/
theorem exit_vin : W50 m ρ c (Proc.devRef .tc main_call0_v179) = W49 m ρ c (Proc.devRef .tc main_call0_v179) :=
  (W50_arr m ρ c 1).trans (((dat24 (V49 m ρ) c).arrAt_in 1 rfl _).trans (A_eq24 (V49 m ρ) c 1))
/-- A buffer that is none of the region's arrays is as at entry. -/
theorem exit_keep (b : Ref sig .tc) (hb : ∀ w, Pipeline.arrRef spec24 w ≠ b) :
    W50 m ρ c (Proc.devRef .tc b) = W49 m ρ c (Proc.devRef .tc b) := W50_of_ne m ρ c b hb

end Exit

end Cert.KernelIdeal.Region24

end
-- ==== Proof.Region25.lean ====
/-
  Region 25 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region25

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg25.N,
      win25_0.index t (0 : Fin 2) = win25_4.index t (1 : Fin 2) ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = 0 ∧ win25_3.index t (1 : Fin 2) = win25_4.index t (1 : Fin 2)
    ∧ win25_4.index t (0 : Fin 2) = 0 ∧ win25_4.index t (1 : Fin 2) ≤ 7
    ∧ win25_5.index t (0 : Fin 2) = 0 ∧ win25_5.index t (1 : Fin 2) = win25_4.index t (1 : Fin 2) :=
  (by decide +kernel : ∀ t : Fin grid25.N, _)

/-- Every one of the eight blocks of the row is some point's. -/
theorem idx_onto : ∀ q : Fin 8, ∃ t : Fin cfg25.N, win25_4.index t = ![0, q.val] :=
  (by decide +kernel : ∀ q : Fin 8, ∃ t : Fin grid25.N, win25_4.index t = ![0, q.val])

/-- The row window's block is the whole row at every point. -/
theorem blk1 (c : Dev nD) (t : Fin cfg25.N) (k : Fin 8192) : iblk25 V c 1 t (ix2 0 k) = V c (Pipeline.arrRef spec25 1) (ix2 0 k) := by
  obtain ⟨e00, e01, e10, e11, e20, e21, e30, e31, e40, e41, e50, e51⟩ := idx_facts t
  show V c (Pipeline.arrRef spec25 1) (((cfg25.win 1).blk t).view.emb (ix2 0 k)) = V c (Pipeline.arrRef spec25 1) (ix2 0 k)
  refine congrArg _ (funext fun a => Fin.ext ?_)
  match a with
  | ⟨0, _⟩ => show win25_1.index t (0 : Fin 2) * 1 + 1 * 0 = 0; omega
  | ⟨1, _⟩ => show win25_1.index t (1 : Fin 2) * 8192 + 1 * k.val = k.val; omega

/-- The coefficient window's block is the one entry. -/
theorem blk2 (c : Dev nD) (t : Fin cfg25.N) : iblk25 V c 2 t (ix2 0 0) = V c (Pipeline.arrRef spec25 2) (ix2 0 0) := by
  obtain ⟨e00, e01, e10, e11, e20, e21, e30, e31, e40, e41, e50, e51⟩ := idx_facts t
  show V c (Pipeline.arrRef spec25 2) (((cfg25.win 2).blk t).view.emb (ix2 0 0)) = V c (Pipeline.arrRef spec25 2) (ix2 0 0)
  refine congrArg _ (funext fun a => Fin.ext ?_)
  match a with
  | ⟨0, _⟩ => show win25_2.index t (0 : Fin 2) * 1 + 1 * 0 = 0; omega
  | ⟨1, _⟩ => show win25_2.index t (1 : Fin 2) * 1 + 1 * 0 = 0; omega

/-- The matrix window's block at point t is rows 1024·t … of the matrix: its row q is row (block's column position) of the array. -/
theorem blk0 (c : Dev nD) (t : Fin cfg25.N) (q : Fin 1024) (k : Fin 8192) :
    iblk25 V c 0 t (ix2 q k) = V c (Pipeline.arrRef spec25 0) (ix2 ((((cfg25.win 4).blk t).view.emb (ix2 0 q)) 1) k) := by
  obtain ⟨e00, e01, e10, e11, e20, e21, e30, e31, e40, e41, e50, e51⟩ := idx_facts t
  show V c (Pipeline.arrRef spec25 0) (((cfg25.win 0).blk t).view.emb (ix2 q k)) = _
  refine congrArg _ (funext fun a => Fin.ext ?_)
  match a with
  | ⟨0, _⟩ => show win25_0.index t (0 : Fin 2) * 1024 + 1 * q.val = win25_4.index t (1 : Fin 2) * 1024 + 1 * q.val; omega
  | ⟨1, _⟩ => show win25_0.index t (1 : Fin 2) * 8192 + 1 * k.val = k.val; omega

/-- The incoming accumulator window's block at point t is the same stretch of the row as the outgoing ones'. -/
theorem blk3 (c : Dev nD) (t : Fin cfg25.N) (q : Fin 1024) :
    iblk25 V c 3 t (ix2 0 q) = V c (Pipeline.arrRef spec25 3) (((cfg25.win 5).blk t).view.emb (ix2 0 q)) := by
  obtain ⟨e00, e01, e10, e11, e20, e21, e30, e31, e40, e41, e50, e51⟩ := idx_facts t
  show V c (Pipeline.arrRef spec25 3) (((cfg25.win 3).blk t).view.emb (ix2 0 q)) = _
  refine congrArg _ (funext fun a => Fin.ext ?_)
  match a with
  | ⟨0, _⟩ => show win25_3.index t (0 : Fin 2) * 1 + 1 * 0 = win25_5.index t (0 : Fin 2) * 1 + 1 * 0; omega
  | ⟨1, _⟩ => show win25_3.index t (1 : Fin 2) * 1024 + 1 * q.val = win25_5.index t (1 : Fin 2) * 1024 + 1 * q.val; omega

set_option maxHeartbeats 4000000 in
/-- WHAT POINT t WRITES BACK to the product window: block t of the product row. -/
theorem flushed4_eq (c : Dev nD) (t : Fin cfg25.N) :
    (dat25 V c).flushed 4 t = ((cfg25.win 4).blk t).view.read (Elt Ideal)
      (Gv (V c (Pipeline.arrRef spec25 1)) (V c (Pipeline.arrRef spec25 0))) := by
  show (cfg25.win 4).cut (grid25.coords t) ((dat25 V c).after 4 t) = _
  rw [after25_4]
  unfold out25_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk25 V c 1 t) (iblk25 V c 0 t) q).trans ?_
  show mvRow (iblk25 V c 1 t) (iblk25 V c 0 t) q
    = mvRow (V c (Pipeline.arrRef spec25 1)) (V c (Pipeline.arrRef spec25 0)) ((((cfg25.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg25.N) :
    (dat25 V c).flushed 5 t = ((cfg25.win 5).blk t).view.read (Elt Ideal)
      (Gy (V c (Pipeline.arrRef spec25 1)) (V c (Pipeline.arrRef spec25 0)) (V c (Pipeline.arrRef spec25 2)) (V c (Pipeline.arrRef spec25 3))) := by
  show (cfg25.win 5).cut (grid25.coords t) ((dat25 V c).after 5 t) = _
  rw [after25_5]
  unfold out25_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk25 V c 1 t) (iblk25 V c 0 t) (iblk25 V c 2 t) (iblk25 V c 3 t) q).trans ?_
  refine Eq.trans ?_ (Gy_acc (V c (Pipeline.arrRef spec25 1)) (V c (Pipeline.arrRef spec25 0)) (V c (Pipeline.arrRef spec25 2)) (V c (Pipeline.arrRef spec25 3))
    (((cfg25.win 5).blk t).view.emb (ix2 0 q))).symm
  rw [blk3 V c t q, blk2 V c t]
  refine congrArg (accAt _ _) ?_
  unfold mvRow
  refine Finset.sum_congr rfl fun k _ => ?_
  have hX : (((cfg25.win 4).blk t).view.emb (ix2 0 q)) 1 = (((cfg25.win 5).blk t).view.emb (ix2 0 q)) 1 :=
    Fin.ext (by show win25_4.index t (1 : Fin 2) * 1024 + 1 * q.val = win25_5.index t (1 : Fin 2) * 1024 + 1 * q.val; omega)
  rw [blk1 V c t k, blk0 V c t q k, hX]

/-- An index of a [1,8192] output array is in point t's block iff each coordinate is in the block's range. -/
theorem mem_blk4 (t : Fin cfg25.N) (i : S1x8192.Idx) :
    i ∈ ((cfg25.win 4).blk t).view.set ↔ ∀ a : Fin 2, win25_4.index t a * S1x1024.size a ≤ (i a).val ∧ (i a).val < win25_4.index t a * S1x1024.size a + S1x1024.size a := by
  show i ∈ ((View.whole main_call0_v191_0).slice (win25_4.rect t)).set ↔ _
  rw [View.set_slice_whole, Rect.mem_set_unit]
  exact Iff.rfl
theorem mem_blk5 (t : Fin cfg25.N) (i : S1x8192.Idx) :
    i ∈ ((cfg25.win 5).blk t).view.set ↔ ∀ a : Fin 2, win25_5.index t a * S1x1024.size a ≤ (i a).val ∧ (i a).val < win25_5.index t a * S1x1024.size a + S1x1024.size a := by
  show i ∈ ((View.whole main_call0_v191_1).slice (win25_5.rect t)).set ↔ _
  rw [View.set_slice_whole, Rect.mem_set_unit]
  exact Iff.rfl

/-- The eight blocks cover the row: column n is in the block of the point whose block index is n / 1024. -/
theorem cover4 (i : S1x8192.Idx) : ∃ t : Fin cfg25.N, (cfg25.win 4).flush t = true ∧ i ∈ ((cfg25.win 4).blk t).view.set := by
  have hi0 : (i 0).val < 1 := (i 0).isLt
  have hi1 : (i 1).val < 8192 := (i 1).isLt
  obtain ⟨t, ht⟩ := idx_onto ⟨(i 1).val / 1024, by omega⟩
  have q0 : win25_4.index t (0 : Fin 2) = 0 := congrFun ht 0
  have q1 : win25_4.index t (1 : Fin 2) = (i 1).val / 1024 := congrFun ht 1
  refine ⟨t, flush25_4 t, ?_⟩
  rw [mem_blk4]
  intro a
  match a with
  | ⟨0, _⟩ => show win25_4.index t (0 : Fin 2) * 1 ≤ (i 0).val ∧ (i 0).val < win25_4.index t (0 : Fin 2) * 1 + 1; omega
  | ⟨1, _⟩ => show win25_4.index t (1 : Fin 2) * 1024 ≤ (i 1).val ∧ (i 1).val < win25_4.index t (1 : Fin 2) * 1024 + 1024; omega
theorem cover5 (i : S1x8192.Idx) : ∃ t : Fin cfg25.N, (cfg25.win 5).flush t = true ∧ i ∈ ((cfg25.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win25_4.index t (1 : Fin 2) = (i 1).val / 1024 := congrFun ht 1
  refine ⟨t, flush25_5 t, ?_⟩
  rw [mem_blk5]
  intro a
  match a with
  | ⟨0, _⟩ => show win25_5.index t (0 : Fin 2) * 1 ≤ (i 0).val ∧ (i 0).val < win25_5.index t (0 : Fin 2) * 1 + 1; omega
  | ⟨1, _⟩ => show win25_5.index t (1 : Fin 2) * 1024 ≤ (i 1).val ∧ (i 1).val < win25_5.index t (1 : Fin 2) * 1024 + 1024; omega

/-- THE PRODUCT ARRAY after the region. -/
theorem final4 (c : Dev nD) : (dat25 V c).arrAt 4 cfg25.N = Gv (V c (Pipeline.arrRef spec25 1)) (V c (Pipeline.arrRef spec25 0)) :=
  (dat25 V c).arrAt_eq_of_cover 4 _ (fun t _ => flushed4_eq V c t) cover4
/-- THE ACCUMULATOR ARRAY after the region. -/
theorem final5 (c : Dev nD) : (dat25 V c).arrAt 5 cfg25.N
    = Gy (V c (Pipeline.arrRef spec25 1)) (V c (Pipeline.arrRef spec25 0)) (V c (Pipeline.arrRef spec25 2)) (V c (Pipeline.arrRef spec25 3)) :=
  (dat25 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W52 m ρ c (Proc.devRef .tc main_call0_v191_0) = Gv (W51 m ρ c (Proc.devRef .tc main_call0_v187_0)) (W51 m ρ c (Proc.devRef .tc main_call0_v13_0)) :=
  (W52_arr m ρ c 4).trans (final4 (V51 m ρ) c)
/-- The accumulator buffer after the region. -/
theorem exit_y : W52 m ρ c (Proc.devRef .tc main_call0_v191_1)
    = Gy (W51 m ρ c (Proc.devRef .tc main_call0_v187_0)) (W51 m ρ c (Proc.devRef .tc main_call0_v13_0)) (W51 m ρ c (Proc.devRef .tc main_call0_v190)) (W51 m ρ c (Proc.devRef .tc main_call0_v187_1)) :=
  (W52_arr m ρ c 5).trans (final5 (V51 m ρ) c)
/-- The matrix is only read. -/
theorem exit_H : W52 m ρ c (Proc.devRef .tc main_call0_v13_0) = W51 m ρ c (Proc.devRef .tc main_call0_v13_0) :=
  (W52_arr m ρ c 0).trans (((dat25 (V51 m ρ) c).arrAt_in 0 rfl _).trans (A_eq25 (V51 m ρ) c 0))
/-- The incoming row is only read. -/
theorem exit_vin : W52 m ρ c (Proc.devRef .tc main_call0_v187_0) = W51 m ρ c (Proc.devRef .tc main_call0_v187_0) :=
  (W52_arr m ρ c 1).trans (((dat25 (V51 m ρ) c).arrAt_in 1 rfl _).trans (A_eq25 (V51 m ρ) c 1))
/-- A buffer that is none of the region's arrays is as at entry. -/
theorem exit_keep (b : Ref sig .tc) (hb : ∀ w, Pipeline.arrRef spec25 w ≠ b) :
    W52 m ρ c (Proc.devRef .tc b) = W51 m ρ c (Proc.devRef .tc b) := W52_of_ne m ρ c b hb

end Exit

end Cert.KernelIdeal.Region25

end
-- ==== Proof.Region26.lean ====
/-
  Region 26 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region26

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg26.N,
      win26_0.index t (0 : Fin 2) = win26_4.index t (1 : Fin 2) ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0
    ∧ win26_3.index t (0 : Fin 2) = 0 ∧ win26_3.index t (1 : Fin 2) = win26_4.index t (1 : Fin 2)
    ∧ win26_4.index t (0 : Fin 2) = 0 ∧ win26_4.index t (1 : Fin 2) ≤ 7
    ∧ win26_5.index t (0 : Fin 2) = 0 ∧ win26_5.index t (1 : Fin 2) = win26_4.index t (1 : Fin 2) :=
  (by decide +kernel : ∀ t : Fin grid26.N, _)

/-- Every one of the eight blocks of the row is some point's. -/
theorem idx_onto : ∀ q : Fin 8, ∃ t : Fin cfg26.N, win26_4.index t = ![0, q.val] :=
  (by decide +kernel : ∀ q : Fin 8, ∃ t : Fin grid26.N, win26_4.index t = ![0, q.val])

/-- The row window's block is the whole row at every point. -/
theorem blk1 (c : Dev nD) (t : Fin cfg26.N) (k : Fin 8192) : iblk26 V c 1 t (ix2 0 k) = V c (Pipeline.arrRef spec26 1) (ix2 0 k) := by
  obtain ⟨e00, e01, e10, e11, e20, e21, e30, e31, e40, e41, e50, e51⟩ := idx_facts t
  show V c (Pipeline.arrRef spec26 1) (((cfg26.win 1).blk t).view.emb (ix2 0 k)) = V c (Pipeline.arrRef spec26 1) (ix2 0 k)
  refine congrArg _ (funext fun a => Fin.ext ?_)
  match a with
  | ⟨0, _⟩ => show win26_1.index t (0 : Fin 2) * 1 + 1 * 0 = 0; omega
  | ⟨1, _⟩ => show win26_1.index t (1 : Fin 2) * 8192 + 1 * k.val = k.val; omega

/-- The coefficient window's block is the one entry. -/
theorem blk2 (c : Dev nD) (t : Fin cfg26.N) : iblk26 V c 2 t (ix2 0 0) = V c (Pipeline.arrRef spec26 2) (ix2 0 0) := by
  obtain ⟨e00, e01, e10, e11, e20, e21, e30, e31, e40, e41, e50, e51⟩ := idx_facts t
  show V c (Pipeline.arrRef spec26 2) (((cfg26.win 2).blk t).view.emb (ix2 0 0)) = V c (Pipeline.arrRef spec26 2) (ix2 0 0)
  refine congrArg _ (funext fun a => Fin.ext ?_)
  match a with
  | ⟨0, _⟩ => show win26_2.index t (0 : Fin 2) * 1 + 1 * 0 = 0; omega
  | ⟨1, _⟩ => show win26_2.index t (1 : Fin 2) * 1 + 1 * 0 = 0; omega

/-- The matrix window's block at point t is rows 1024·t … of the matrix: its row q is row (block's column position) of the array. -/
theorem blk0 (c : Dev nD) (t : Fin cfg26.N) (q : Fin 1024) (k : Fin 8192) :
    iblk26 V c 0 t (ix2 q k) = V c (Pipeline.arrRef spec26 0) (ix2 ((((cfg26.win 4).blk t).view.emb (ix2 0 q)) 1) k) := by
  obtain ⟨e00, e01, e10, e11, e20, e21, e30, e31, e40, e41, e50, e51⟩ := idx_facts t
  show V c (Pipeline.arrRef spec26 0) (((cfg26.win 0).blk t).view.emb (ix2 q k)) = _
  refine congrArg _ (funext fun a => Fin.ext ?_)
  match a with
  | ⟨0, _⟩ => show win26_0.index t (0 : Fin 2) * 1024 + 1 * q.val = win26_4.index t (1 : Fin 2) * 1024 + 1 * q.val; omega
  | ⟨1, _⟩ => show win26_0.index t (1 : Fin 2) * 8192 + 1 * k.val = k.val; omega

/-- The incoming accumulator window's block at point t is the same stretch of the row as the outgoing ones'. -/
theorem blk3 (c : Dev nD) (t : Fin cfg26.N) (q : Fin 1024) :
    iblk26 V c 3 t (ix2 0 q) = V c (Pipeline.arrRef spec26 3) (((cfg26.win 5).blk t).view.emb (ix2 0 q)) := by
  obtain ⟨e00, e01, e10, e11, e20, e21, e30, e31, e40, e41, e50, e51⟩ := idx_facts t
  show V c (Pipeline.arrRef spec26 3) (((cfg26.win 3).blk t).view.emb (ix2 0 q)) = _
  refine congrArg _ (funext fun a => Fin.ext ?_)
  match a with
  | ⟨0, _⟩ => show win26_3.index t (0 : Fin 2) * 1 + 1 * 0 = win26_5.index t (0 : Fin 2) * 1 + 1 * 0; omega
  | ⟨1, _⟩ => show win26_3.index t (1 : Fin 2) * 1024 + 1 * q.val = win26_5.index t (1 : Fin 2) * 1024 + 1 * q.val; omega

set_option maxHeartbeats 4000000 in
/-- WHAT POINT t WRITES BACK to the product window: block t of the product row. -/
theorem flushed4_eq (c : Dev nD) (t : Fin cfg26.N) :
    (dat26 V c).flushed 4 t = ((cfg26.win 4).blk t).view.read (Elt Ideal)
      (Gv (V c (Pipeline.arrRef spec26 1)) (V c (Pipeline.arrRef spec26 0))) := by
  show (cfg26.win 4).cut (grid26.coords t) ((dat26 V c).after 4 t) = _
  rw [after26_4]
  unfold out26_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk26 V c 1 t) (iblk26 V c 0 t) q).trans ?_
  show mvRow (iblk26 V c 1 t) (iblk26 V c 0 t) q
    = mvRow (V c (Pipeline.arrRef spec26 1)) (V c (Pipeline.arrRef spec26 0)) ((((cfg26.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg26.N) :
    (dat26 V c).flushed 5 t = ((cfg26.win 5).blk t).view.read (Elt Ideal)
      (Gy (V c (Pipeline.arrRef spec26 1)) (V c (Pipeline.arrRef spec26 0)) (V c (Pipeline.arrRef spec26 2)) (V c (Pipeline.arrRef spec26 3))) := by
  show (cfg26.win 5).cut (grid26.coords t) ((dat26 V c).after 5 t) = _
  rw [after26_5]
  unfold out26_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk26 V c 1 t) (iblk26 V c 0 t) (iblk26 V c 2 t) (iblk26 V c 3 t) q).trans ?_
  refine Eq.trans ?_ (Gy_acc (V c (Pipeline.arrRef spec26 1)) (V c (Pipeline.arrRef spec26 0)) (V c (Pipeline.arrRef spec26 2)) (V c (Pipeline.arrRef spec26 3))
    (((cfg26.win 5).blk t).view.emb (ix2 0 q))).symm
  rw [blk3 V c t q, blk2 V c t]
  refine congrArg (accAt _ _) ?_
  unfold mvRow
  refine Finset.sum_congr rfl fun k _ => ?_
  have hX : (((cfg26.win 4).blk t).view.emb (ix2 0 q)) 1 = (((cfg26.win 5).blk t).view.emb (ix2 0 q)) 1 :=
    Fin.ext (by show win26_4.index t (1 : Fin 2) * 1024 + 1 * q.val = win26_5.index t (1 : Fin 2) * 1024 + 1 * q.val; omega)
  rw [blk1 V c t k, blk0 V c t q k, hX]

/-- An index of a [1,8192] output array is in point t's block iff each coordinate is in the block's range. -/
theorem mem_blk4 (t : Fin cfg26.N) (i : S1x8192.Idx) :
    i ∈ ((cfg26.win 4).blk t).view.set ↔ ∀ a : Fin 2, win26_4.index t a * S1x1024.size a ≤ (i a).val ∧ (i a).val < win26_4.index t a * S1x1024.size a + S1x1024.size a := by
  show i ∈ ((View.whole main_call0_v195_0).slice (win26_4.rect t)).set ↔ _
  rw [View.set_slice_whole, Rect.mem_set_unit]
  exact Iff.rfl
theorem mem_blk5 (t : Fin cfg26.N) (i : S1x8192.Idx) :
    i ∈ ((cfg26.win 5).blk t).view.set ↔ ∀ a : Fin 2, win26_5.index t a * S1x1024.size a ≤ (i a).val ∧ (i a).val < win26_5.index t a * S1x1024.size a + S1x1024.size a := by
  show i ∈ ((View.whole main_call0_v195_1).slice (win26_5.rect t)).set ↔ _
  rw [View.set_slice_whole, Rect.mem_set_unit]
  exact Iff.rfl

/-- The eight blocks cover the row: column n is in the block of the point whose block index is n / 1024. -/
theorem cover4 (i : S1x8192.Idx) : ∃ t : Fin cfg26.N, (cfg26.win 4).flush t = true ∧ i ∈ ((cfg26.win 4).blk t).view.set := by
  have hi0 : (i 0).val < 1 := (i 0).isLt
  have hi1 : (i 1).val < 8192 := (i 1).isLt
  obtain ⟨t, ht⟩ := idx_onto ⟨(i 1).val / 1024, by omega⟩
  have q0 : win26_4.index t (0 : Fin 2) = 0 := congrFun ht 0
  have q1 : win26_4.index t (1 : Fin 2) = (i 1).val / 1024 := congrFun ht 1
  refine ⟨t, flush26_4 t, ?_⟩
  rw [mem_blk4]
  intro a
  match a with
  | ⟨0, _⟩ => show win26_4.index t (0 : Fin 2) * 1 ≤ (i 0).val ∧ (i 0).val < win26_4.index t (0 : Fin 2) * 1 + 1; omega
  | ⟨1, _⟩ => show win26_4.index t (1 : Fin 2) * 1024 ≤ (i 1).val ∧ (i 1).val < win26_4.index t (1 : Fin 2) * 1024 + 1024; omega
theorem cover5 (i : S1x8192.Idx) : ∃ t : Fin cfg26.N, (cfg26.win 5).flush t = true ∧ i ∈ ((cfg26.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win26_4.index t (1 : Fin 2) = (i 1).val / 1024 := congrFun ht 1
  refine ⟨t, flush26_5 t, ?_⟩
  rw [mem_blk5]
  intro a
  match a with
  | ⟨0, _⟩ => show win26_5.index t (0 : Fin 2) * 1 ≤ (i 0).val ∧ (i 0).val < win26_5.index t (0 : Fin 2) * 1 + 1; omega
  | ⟨1, _⟩ => show win26_5.index t (1 : Fin 2) * 1024 ≤ (i 1).val ∧ (i 1).val < win26_5.index t (1 : Fin 2) * 1024 + 1024; omega

/-- THE PRODUCT ARRAY after the region. -/
theorem final4 (c : Dev nD) : (dat26 V c).arrAt 4 cfg26.N = Gv (V c (Pipeline.arrRef spec26 1)) (V c (Pipeline.arrRef spec26 0)) :=
  (dat26 V c).arrAt_eq_of_cover 4 _ (fun t _ => flushed4_eq V c t) cover4
/-- THE ACCUMULATOR ARRAY after the region. -/
theorem final5 (c : Dev nD) : (dat26 V c).arrAt 5 cfg26.N
    = Gy (V c (Pipeline.arrRef spec26 1)) (V c (Pipeline.arrRef spec26 0)) (V c (Pipeline.arrRef spec26 2)) (V c (Pipeline.arrRef spec26 3)) :=
  (dat26 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W54 m ρ c (Proc.devRef .tc main_call0_v195_0) = Gv (W53 m ρ c (Proc.devRef .tc main_call0_v191_0)) (W53 m ρ c (Proc.devRef .tc main_call0_v13_0)) :=
  (W54_arr m ρ c 4).trans (final4 (V53 m ρ) c)
/-- The accumulator buffer after the region. -/
theorem exit_y : W54 m ρ c (Proc.devRef .tc main_call0_v195_1)
    = Gy (W53 m ρ c (Proc.devRef .tc main_call0_v191_0)) (W53 m ρ c (Proc.devRef .tc main_call0_v13_0)) (W53 m ρ c (Proc.devRef .tc main_call0_v194)) (W53 m ρ c (Proc.devRef .tc main_call0_v191_1)) :=
  (W54_arr m ρ c 5).trans (final5 (V53 m ρ) c)
/-- The matrix is only read. -/
theorem exit_H : W54 m ρ c (Proc.devRef .tc main_call0_v13_0) = W53 m ρ c (Proc.devRef .tc main_call0_v13_0) :=
  (W54_arr m ρ c 0).trans (((dat26 (V53 m ρ) c).arrAt_in 0 rfl _).trans (A_eq26 (V53 m ρ) c 0))
/-- The incoming row is only read. -/
theorem exit_vin : W54 m ρ c (Proc.devRef .tc main_call0_v191_0) = W53 m ρ c (Proc.devRef .tc main_call0_v191_0) :=
  (W54_arr m ρ c 1).trans (((dat26 (V53 m ρ) c).arrAt_in 1 rfl _).trans (A_eq26 (V53 m ρ) c 1))
/-- A buffer that is none of the region's arrays is as at entry. -/
theorem exit_keep (b : Ref sig .tc) (hb : ∀ w, Pipeline.arrRef spec26 w ≠ b) :
    W54 m ρ c (Proc.devRef .tc b) = W53 m ρ c (Proc.devRef .tc b) := W54_of_ne m ρ c b hb

end Exit

end Cert.KernelIdeal.Region26

end
-- ==== Proof.Region27.lean ====
/-
  Region 27 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region27

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg27.N,
      win27_0.index t (0 : Fin 2) = win27_4.index t (1 : Fin 2) ∧ win27_0.index t (1 : Fin 2) = 0
    ∧ win27_1.index t (0 : Fin 2) = 0 ∧ win27_1.index t (1 : Fin 2) = 0
    ∧ win27_2.index t (0 : Fin 2) = 0 ∧ win27_2.index t (1 : Fin 2) = 0
    ∧ win27_3.index t (0 : Fin 2) = 0 ∧ win27_3.index t (1 : Fin 2) = win27_4.index t (1 : Fin 2)
    ∧ win27_4.index t (0 : Fin 2) = 0 ∧ win27_4.index t (1 : Fin 2) ≤ 7
    ∧ win27_5.index t (0 : Fin 2) = 0 ∧ win27_5.index t (1 : Fin 2) = win27_4.index t (1 : Fin 2) :=
  (by decide +kernel : ∀ t : Fin grid27.N, _)

/-- Every one of the eight blocks of the row is some point's. -/
theorem idx_onto : ∀ q : Fin 8, ∃ t : Fin cfg27.N, win27_4.index t = ![0, q.val] :=
  (by decide +kernel : ∀ q : Fin 8, ∃ t : Fin grid27.N, win27_4.index t = ![0, q.val])

/-- The row window's block is the whole row at every point. -/
theorem blk1 (c : Dev nD) (t : Fin cfg27.N) (k : Fin 8192) : iblk27 V c 1 t (ix2 0 k) = V c (Pipeline.arrRef spec27 1) (ix2 0 k) := by
  obtain ⟨e00, e01, e10, e11, e20, e21, e30, e31, e40, e41, e50, e51⟩ := idx_facts t
  show V c (Pipeline.arrRef spec27 1) (((cfg27.win 1).blk t).view.emb (ix2 0 k)) = V c (Pipeline.arrRef spec27 1) (ix2 0 k)
  refine congrArg _ (funext fun a => Fin.ext ?_)
  match a with
  | ⟨0, _⟩ => show win27_1.index t (0 : Fin 2) * 1 + 1 * 0 = 0; omega
  | ⟨1, _⟩ => show win27_1.index t (1 : Fin 2) * 8192 + 1 * k.val = k.val; omega

/-- The coefficient window's block is the one entry. -/
theorem blk2 (c : Dev nD) (t : Fin cfg27.N) : iblk27 V c 2 t (ix2 0 0) = V c (Pipeline.arrRef spec27 2) (ix2 0 0) := by
  obtain ⟨e00, e01, e10, e11, e20, e21, e30, e31, e40, e41, e50, e51⟩ := idx_facts t
  show V c (Pipeline.arrRef spec27 2) (((cfg27.win 2).blk t).view.emb (ix2 0 0)) = V c (Pipeline.arrRef spec27 2) (ix2 0 0)
  refine congrArg _ (funext fun a => Fin.ext ?_)
  match a with
  | ⟨0, _⟩ => show win27_2.index t (0 : Fin 2) * 1 + 1 * 0 = 0; omega
  | ⟨1, _⟩ => show win27_2.index t (1 : Fin 2) * 1 + 1 * 0 = 0; omega

/-- The matrix window's block at point t is rows 1024·t … of the matrix: its row q is row (block's column position) of the array. -/
theorem blk0 (c : Dev nD) (t : Fin cfg27.N) (q : Fin 1024) (k : Fin 8192) :
    iblk27 V c 0 t (ix2 q k) = V c (Pipeline.arrRef spec27 0) (ix2 ((((cfg27.win 4).blk t).view.emb (ix2 0 q)) 1) k) := by
  obtain ⟨e00, e01, e10, e11, e20, e21, e30, e31, e40, e41, e50, e51⟩ := idx_facts t
  show V c (Pipeline.arrRef spec27 0) (((cfg27.win 0).blk t).view.emb (ix2 q k)) = _
  refine congrArg _ (funext fun a => Fin.ext ?_)
  match a with
  | ⟨0, _⟩ => show win27_0.index t (0 : Fin 2) * 1024 + 1 * q.val = win27_4.index t (1 : Fin 2) * 1024 + 1 * q.val; omega
  | ⟨1, _⟩ => show win27_0.index t (1 : Fin 2) * 8192 + 1 * k.val = k.val; omega

/-- The incoming accumulator window's block at point t is the same stretch of the row as the outgoing ones'. -/
theorem blk3 (c : Dev nD) (t : Fin cfg27.N) (q : Fin 1024) :
    iblk27 V c 3 t (ix2 0 q) = V c (Pipeline.arrRef spec27 3) (((cfg27.win 5).blk t).view.emb (ix2 0 q)) := by
  obtain ⟨e00, e01, e10, e11, e20, e21, e30, e31, e40, e41, e50, e51⟩ := idx_facts t
  show V c (Pipeline.arrRef spec27 3) (((cfg27.win 3).blk t).view.emb (ix2 0 q)) = _
  refine congrArg _ (funext fun a => Fin.ext ?_)
  match a with
  | ⟨0, _⟩ => show win27_3.index t (0 : Fin 2) * 1 + 1 * 0 = win27_5.index t (0 : Fin 2) * 1 + 1 * 0; omega
  | ⟨1, _⟩ => show win27_3.index t (1 : Fin 2) * 1024 + 1 * q.val = win27_5.index t (1 : Fin 2) * 1024 + 1 * q.val; omega

set_option maxHeartbeats 4000000 in
/-- WHAT POINT t WRITES BACK to the product window: block t of the product row. -/
theorem flushed4_eq (c : Dev nD) (t : Fin cfg27.N) :
    (dat27 V c).flushed 4 t = ((cfg27.win 4).blk t).view.read (Elt Ideal)
      (Gv (V c (Pipeline.arrRef spec27 1)) (V c (Pipeline.arrRef spec27 0))) := by
  show (cfg27.win 4).cut (grid27.coords t) ((dat27 V c).after 4 t) = _
  rw [after27_4]
  unfold out27_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk27 V c 1 t) (iblk27 V c 0 t) q).trans ?_
  show mvRow (iblk27 V c 1 t) (iblk27 V c 0 t) q
    = mvRow (V c (Pipeline.arrRef spec27 1)) (V c (Pipeline.arrRef spec27 0)) ((((cfg27.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg27.N) :
    (dat27 V c).flushed 5 t = ((cfg27.win 5).blk t).view.read (Elt Ideal)
      (Gy (V c (Pipeline.arrRef spec27 1)) (V c (Pipeline.arrRef spec27 0)) (V c (Pipeline.arrRef spec27 2)) (V c (Pipeline.arrRef spec27 3))) := by
  show (cfg27.win 5).cut (grid27.coords t) ((dat27 V c).after 5 t) = _
  rw [after27_5]
  unfold out27_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk27 V c 1 t) (iblk27 V c 0 t) (iblk27 V c 2 t) (iblk27 V c 3 t) q).trans ?_
  refine Eq.trans ?_ (Gy_acc (V c (Pipeline.arrRef spec27 1)) (V c (Pipeline.arrRef spec27 0)) (V c (Pipeline.arrRef spec27 2)) (V c (Pipeline.arrRef spec27 3))
    (((cfg27.win 5).blk t).view.emb (ix2 0 q))).symm
  rw [blk3 V c t q, blk2 V c t]
  refine congrArg (accAt _ _) ?_
  unfold mvRow
  refine Finset.sum_congr rfl fun k _ => ?_
  have hX : (((cfg27.win 4).blk t).view.emb (ix2 0 q)) 1 = (((cfg27.win 5).blk t).view.emb (ix2 0 q)) 1 :=
    Fin.ext (by show win27_4.index t (1 : Fin 2) * 1024 + 1 * q.val = win27_5.index t (1 : Fin 2) * 1024 + 1 * q.val; omega)
  rw [blk1 V c t k, blk0 V c t q k, hX]

/-- An index of a [1,8192] output array is in point t's block iff each coordinate is in the block's range. -/
theorem mem_blk4 (t : Fin cfg27.N) (i : S1x8192.Idx) :
    i ∈ ((cfg27.win 4).blk t).view.set ↔ ∀ a : Fin 2, win27_4.index t a * S1x1024.size a ≤ (i a).val ∧ (i a).val < win27_4.index t a * S1x1024.size a + S1x1024.size a := by
  show i ∈ ((View.whole main_call0_v199_0).slice (win27_4.rect t)).set ↔ _
  rw [View.set_slice_whole, Rect.mem_set_unit]
  exact Iff.rfl
theorem mem_blk5 (t : Fin cfg27.N) (i : S1x8192.Idx) :
    i ∈ ((cfg27.win 5).blk t).view.set ↔ ∀ a : Fin 2, win27_5.index t a * S1x1024.size a ≤ (i a).val ∧ (i a).val < win27_5.index t a * S1x1024.size a + S1x1024.size a := by
  show i ∈ ((View.whole main_call0_v199_1).slice (win27_5.rect t)).set ↔ _
  rw [View.set_slice_whole, Rect.mem_set_unit]
  exact Iff.rfl

/-- The eight blocks cover the row: column n is in the block of the point whose block index is n / 1024. -/
theorem cover4 (i : S1x8192.Idx) : ∃ t : Fin cfg27.N, (cfg27.win 4).flush t = true ∧ i ∈ ((cfg27.win 4).blk t).view.set := by
  have hi0 : (i 0).val < 1 := (i 0).isLt
  have hi1 : (i 1).val < 8192 := (i 1).isLt
  obtain ⟨t, ht⟩ := idx_onto ⟨(i 1).val / 1024, by omega⟩
  have q0 : win27_4.index t (0 : Fin 2) = 0 := congrFun ht 0
  have q1 : win27_4.index t (1 : Fin 2) = (i 1).val / 1024 := congrFun ht 1
  refine ⟨t, flush27_4 t, ?_⟩
  rw [mem_blk4]
  intro a
  match a with
  | ⟨0, _⟩ => show win27_4.index t (0 : Fin 2) * 1 ≤ (i 0).val ∧ (i 0).val < win27_4.index t (0 : Fin 2) * 1 + 1; omega
  | ⟨1, _⟩ => show win27_4.index t (1 : Fin 2) * 1024 ≤ (i 1).val ∧ (i 1).val < win27_4.index t (1 : Fin 2) * 1024 + 1024; omega
theorem cover5 (i : S1x8192.Idx) : ∃ t : Fin cfg27.N, (cfg27.win 5).flush t = true ∧ i ∈ ((cfg27.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win27_4.index t (1 : Fin 2) = (i 1).val / 1024 := congrFun ht 1
  refine ⟨t, flush27_5 t, ?_⟩
  rw [mem_blk5]
  intro a
  match a with
  | ⟨0, _⟩ => show win27_5.index t (0 : Fin 2) * 1 ≤ (i 0).val ∧ (i 0).val < win27_5.index t (0 : Fin 2) * 1 + 1; omega
  | ⟨1, _⟩ => show win27_5.index t (1 : Fin 2) * 1024 ≤ (i 1).val ∧ (i 1).val < win27_5.index t (1 : Fin 2) * 1024 + 1024; omega

/-- THE PRODUCT ARRAY after the region. -/
theorem final4 (c : Dev nD) : (dat27 V c).arrAt 4 cfg27.N = Gv (V c (Pipeline.arrRef spec27 1)) (V c (Pipeline.arrRef spec27 0)) :=
  (dat27 V c).arrAt_eq_of_cover 4 _ (fun t _ => flushed4_eq V c t) cover4
/-- THE ACCUMULATOR ARRAY after the region. -/
theorem final5 (c : Dev nD) : (dat27 V c).arrAt 5 cfg27.N
    = Gy (V c (Pipeline.arrRef spec27 1)) (V c (Pipeline.arrRef spec27 0)) (V c (Pipeline.arrRef spec27 2)) (V c (Pipeline.arrRef spec27 3)) :=
  (dat27 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W56 m ρ c (Proc.devRef .tc main_call0_v199_0) = Gv (W55 m ρ c (Proc.devRef .tc main_call0_v195_0)) (W55 m ρ c (Proc.devRef .tc main_call0_v13_0)) :=
  (W56_arr m ρ c 4).trans (final4 (V55 m ρ) c)
/-- The accumulator buffer after the region. -/
theorem exit_y : W56 m ρ c (Proc.devRef .tc main_call0_v199_1)
    = Gy (W55 m ρ c (Proc.devRef .tc main_call0_v195_0)) (W55 m ρ c (Proc.devRef .tc main_call0_v13_0)) (W55 m ρ c (Proc.devRef .tc main_call0_v198)) (W55 m ρ c (Proc.devRef .tc main_call0_v195_1)) :=
  (W56_arr m ρ c 5).trans (final5 (V55 m ρ) c)
/-- The matrix is only read. -/
theorem exit_H : W56 m ρ c (Proc.devRef .tc main_call0_v13_0) = W55 m ρ c (Proc.devRef .tc main_call0_v13_0) :=
  (W56_arr m ρ c 0).trans (((dat27 (V55 m ρ) c).arrAt_in 0 rfl _).trans (A_eq27 (V55 m ρ) c 0))
/-- The incoming row is only read. -/
theorem exit_vin : W56 m ρ c (Proc.devRef .tc main_call0_v195_0) = W55 m ρ c (Proc.devRef .tc main_call0_v195_0) :=
  (W56_arr m ρ c 1).trans (((dat27 (V55 m ρ) c).arrAt_in 1 rfl _).trans (A_eq27 (V55 m ρ) c 1))
/-- A buffer that is none of the region's arrays is as at entry. -/
theorem exit_keep (b : Ref sig .tc) (hb : ∀ w, Pipeline.arrRef spec27 w ≠ b) :
    W56 m ρ c (Proc.devRef .tc b) = W55 m ρ c (Proc.devRef .tc b) := W56_of_ne m ρ c b hb

end Exit

end Cert.KernelIdeal.Region27

end
-- ==== Proof.KLayer6.lean ====
/-
  Layer 6 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region24
import proofs.«144169_j55405078119367_2_alg».proof.Proof.Region25
import proofs.«144169_j55405078119367_2_alg».proof.Proof.Region26
import proofs.«144169_j55405078119367_2_alg».proof.Proof.Region27

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 6 = (1, 1). -/
theorem layer6 (X : FVec Ideal Cert.ReferenceIdeal.S8192x1 .f32) (HnB : (⟨2, ![8192, 8192]⟩ : Shape).Idx → EReal)
    (A : FVec Ideal Cert.ReferenceIdeal.S2x5x5 .f32)
    (A49 : W49 m ρ c (Proc.devRef .tc main_arg2) = A)
    (H49 : (W49 m ρ c (Proc.devRef .tc main_call0_v13_0) : (⟨2, ![8192, 8192]⟩ : Shape).Idx → EReal) = HnB)
    (v49 : toCol (W49 m ρ c (Proc.devRef .tc main_call0_v179)) = X)
    (y49 : toCol (W49 m ρ c (Proc.devRef .tc main_call0_v183)) = (Spec.sc (F := Ideal) (Spec.coef (F := Ideal) ![1, 1, 0] Cert.ReferenceIdeal.Gen.slices_S2x5x5_S1x1x1_1_1_0 A) X))
    (a49 : W49 m ρ c (Proc.devRef .tc main_call0_v186) = as11 (Spec.coef (F := Ideal) ![1, 1, 1] Cert.ReferenceIdeal.Gen.slices_S2x5x5_S1x1x1_1_1_1 A)) :
    W57 m ρ c (Proc.devRef .tc main_arg2) = A
    ∧ (W57 m ρ c (Proc.devRef .tc main_call0_v13_0) : (⟨2, ![8192, 8192]⟩ : Shape).Idx → EReal) = HnB
    ∧ toCol (W57 m ρ c (Proc.devRef .tc main_call0_v208)) = (Spec.layer11 (F := Ideal) A HnB X)
    ∧ toCol (W57 m ρ c (Proc.devRef .tc main_call0_v212)) = Spec.sc (F := Ideal) (Spec.coef (F := Ideal) ![1, 2, 0] Cert.ReferenceIdeal.Gen.slices_S2x5x5_S1x1x1_1_2_0 A) (Spec.layer11 (F := Ideal) A HnB X)
    ∧ W57 m ρ c (Proc.devRef .tc main_call0_v215) = as11 (Spec.coef (F := Ideal) ![1, 2, 1] Cert.ReferenceIdeal.Gen.slices_S2x5x5_S1x1x1_1_2_1 A)
    ∧ W57 m ρ c (Proc.devRef .tc main_call0_v150) = W49 m ρ c (Proc.devRef .tc main_call0_v150) := by
  have C49 : W49 m ρ c (Proc.devRef .tc main_call0_v150) = W49 m ρ c (Proc.devRef .tc main_call0_v150) := rfl
  -- region 24: tap 1
  have H50 : (W50 m ρ c (Proc.devRef .tc main_call0_v13_0) : (⟨2, ![8192, 8192]⟩ : Shape).Idx → EReal) = HnB := (Region24.exit_H m ρ c).trans H49
  have A50 : W50 m ρ c (Proc.devRef .tc main_arg2) = A := (Region24.exit_keep m ρ c main_arg2 (by decide)).trans A49
  have v50 : toCol (W50 m ρ c (Proc.devRef .tc main_call0_v187_0)) = (Spec.mv (F := Ideal) HnB X) := by
    rw [Region24.exit_v m ρ c, toCol_Gv, v49]; exact congrArg (fun h => Spec.mv (F := Ideal) h X) H49
  have y50 : toCol (W50 m ρ c (Proc.devRef .tc main_call0_v187_1)) = (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) := by
    rw [Region24.exit_y m ρ c, a49, toCol_Gy, v49, y49]; exact congrArg (fun h => addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) h X))) H49
  have C50 : W50 m ρ c (Proc.devRef .tc main_call0_v150) = W49 m ρ c (Proc.devRef .tc main_call0_v150) := (Region24.exit_keep m ρ c main_call0_v150 (by decide)).trans C49
  -- stretch 25: the next coefficient
  have A51 : W51 m ρ c (Proc.devRef .tc main_arg2) = A := (keep25 (W50 m ρ c) main_arg2 (by decide)).trans A50
  have H51 : (W51 m ρ c (Proc.devRef .tc main_call0_v13_0) : (⟨2, ![8192, 8192]⟩ : Shape).Idx → EReal) = HnB := (keep25 (W50 m ρ c) main_call0_v13_0 (by decide)).trans H50
  have v51 : toCol (W51 m ρ c (Proc.devRef .tc main_call0_v187_0)) = (Spec.mv (F := Ideal) HnB X) := (congrArg toCol (keep25 (W50 m ρ c) main_call0_v187_0 (by decide))).trans v50
  have y51 : toCol (W51 m ρ c (Proc.devRef .tc main_call0_v187_1)) = (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) := (congrArg toCol (keep25 (W50 m ρ c) main_call0_v187_1 (by decide))).trans y50
  have a51 : W51 m ρ c (Proc.devRef .tc main_call0_v190) = as11 (Spec.coef (F := Ideal) ![1, 1, 2] Cert.ReferenceIdeal.Gen.slices_S2x5x5_S1x1x1_1_1_2 A) := (h25_a (W50 m ρ c)).trans (by rw [A50])
  have C51 : W51 m ρ c (Proc.devRef .tc main_call0_v150) = W49 m ρ c (Proc.devRef .tc main_call0_v150) := (keep25 (W50 m ρ c) main_call0_v150 (by decide)).trans C50
  -- region 25: tap 2
  have H52 : (W52 m ρ c (Proc.devRef .tc main_call0_v13_0) : (⟨2, ![8192, 8192]⟩ : Shape).Idx → EReal) = HnB := (Region25.exit_H m ρ c).trans H51
  have A52 : W52 m ρ c (Proc.devRef .tc main_arg2) = A := (Region25.exit_keep m ρ c main_arg2 (by decide)).trans A51
  have v52 : toCol (W52 m ρ c (Proc.devRef .tc main_call0_v191_0)) = (Spec.mv (F := Ideal) HnB (Spec.mv (F := Ideal) HnB X)) := by
    rw [Region25.exit_v m ρ c, toCol_Gv, v51]; exact congrArg (fun h => Spec.mv (F := Ideal) h (Spec.mv (F := Ideal) HnB X)) H51
  have y52 : toCol (W52 m ρ c (Proc.devRef .tc main_call0_v191_1)) = (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) := by
    rw [Region25.exit_y m ρ c, a51, toCol_Gy, v51, y51]; exact congrArg (fun h => addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) h (Spec.mv (F := Ideal) HnB X)))) H51
  have C52 : W52 m ρ c (Proc.devRef .tc main_call0_v150) = W49 m ρ c (Proc.devRef .tc main_call0_v150) := (Region25.exit_keep m ρ c main_call0_v150 (by decide)).trans C51
  -- stretch 26: the next coefficient
  have A53 : W53 m ρ c (Proc.devRef .tc main_arg2) = A := (keep26 (W52 m ρ c) main_arg2 (by decide)).trans A52
  have H53 : (W53 m ρ c (Proc.devRef .tc main_call0_v13_0) : (⟨2, ![8192, 8192]⟩ : Shape).Idx → EReal) = HnB := (keep26 (W52 m ρ c) main_call0_v13_0 (by decide)).trans H52
  have v53 : toCol (W53 m ρ c (Proc.devRef .tc main_call0_v191_0)) = (Spec.mv (F := Ideal) HnB (Spec.mv (F := Ideal) HnB X)) := (congrArg toCol (keep26 (W52 m ρ c) main_call0_v191_0 (by decide))).trans v52
  have y53 : toCol (W53 m ρ c (Proc.devRef .tc main_call0_v191_1)) = (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) := (congrArg toCol (keep26 (W52 m ρ c) main_call0_v191_1 (by decide))).trans y52
  have a53 : W53 m ρ c (Proc.devRef .tc main_call0_v194) = as11 (Spec.coef (F := Ideal) ![1, 1, 3] Cert.ReferenceIdeal.Gen.slices_S2x5x5_S1x1x1_1_1_3 A) := (h26_a (W52 m ρ c)).trans (by rw [A52])
  have C53 : W53 m ρ c (Proc.devRef .tc main_call0_v150) = W49 m ρ c (Proc.devRef .tc main_call0_v150) := (keep26 (W52 m ρ c) main_call0_v150 (by decide)).trans C52
  -- region 26: tap 3
  have H54 : (W54 m ρ c (Proc.devRef .tc main_call0_v13_0) : (⟨2, ![8192, 8192]⟩ : Shape).Idx → EReal) = HnB := (Region26.exit_H m ρ c).trans H53
  have A54 : W54 m ρ c (Proc.devRef .tc main_arg2) = A := (Region26.exit_keep m ρ c main_arg2 (by decide)).trans A53
  have v54 : toCol (W54 m ρ c (Proc.devRef .tc main_call0_v195_0)) = (Spec.mv (F := Ideal) HnB (Spec.mv (F := Ideal) HnB (Spec.mv (F := Ideal) HnB X))) := by
    rw [Region26.exit_v m ρ c, toCol_Gv, v53]; exact congrArg (fun h => Spec.mv (F := Ideal) h (Spec.mv (F := Ideal) HnB (Spec.mv (F := Ideal) HnB X))) H53
  have y54 : toCol (W54 m ρ c (Proc.devRef .tc main_call0_v195_1)) = (addf (F := Ideal) (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) (Spec.sc (F := Ideal) (Spec.coef (F := Ideal) ![1, 1, 3] Cert.ReferenceIdeal.Gen.slices_S2x5x5_S1x1x1_1_1_3 A) (Spec.mv (F := Ideal) HnB (Spec.mv (F := Ideal) HnB (Spec.mv (F := Ideal) HnB X))))) := by
    rw [Region26.exit_y m ρ c, a53, toCol_Gy, v53, y53]; exact congrArg (fun h => addf (F := Ideal) (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) (Spec.sc (F := Ideal) (Spec.coef (F := Ideal) ![1, 1, 3] Cert.ReferenceIdeal.Gen.slices_S2x5x5_S1x1x1_1_1_3 A) (Spec.mv (F := Ideal) h (Spec.mv (F := Ideal) HnB (Spec.mv (F := Ideal) HnB X))))) H53
  have C54 : W54 m ρ c (Proc.devRef .tc main_call0_v150) = W49 m ρ c (Proc.devRef .tc main_call0_v150) := (Region26.exit_keep m ρ c main_call0_v150 (by decide)).trans C53
  -- stretch 27: the next coefficient
  have A55 : W55 m ρ c (Proc.devRef .tc main_arg2) = A := (keep27 (W54 m ρ c) main_arg2 (by decide)).trans A54
  have H55 : (W55 m ρ c (Proc.devRef .tc main_call0_v13_0) : (⟨2, ![8192, 8192]⟩ : Shape).Idx → EReal) = HnB := (keep27 (W54 m ρ c) main_call0_v13_0 (by decide)).trans H54
  have v55 : toCol (W55 m ρ c (Proc.devRef .tc main_call0_v195_0)) = (Spec.mv (F := Ideal) HnB (Spec.mv (F := Ideal) HnB (Spec.mv (F := Ideal) HnB X))) := (congrArg toCol (keep27 (W54 m ρ c) main_call0_v195_0 (by decide))).trans v54
  have y55 : toCol (W55 m ρ c (Proc.devRef .tc main_call0_v195_1)) = (addf (F := Ideal) (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) (Spec.sc (F := Ideal) (Spec.coef (F := Ideal) ![1, 1, 3] Cert.ReferenceIdeal.Gen.slices_S2x5x5_S1x1x1_1_1_3 A) (Spec.mv (F := Ideal) HnB (Spec.mv (F := Ideal) HnB (Spec.mv (F := Ideal) HnB X))))) := (congrArg toCol (keep27 (W54 m ρ c) main_call0_v195_1 (by decide))).trans y54
  have a55 : W55 m ρ c (Proc.devRef .tc main_call0_v198) = as11 (Spec.coef (F := Ideal) ![1, 1, 4] Cert.ReferenceIdeal.Gen.slices_S2x5x5_S1x1x1_1_1_4 A) := (h27_a (W54 m ρ c)).trans (by rw [A54])
  have C55 : W55 m ρ c (Proc.devRef .tc main_call0_v150) = W49 m ρ c (Proc.devRef .tc main_call0_v150) := (keep27 (W54 m ρ c) main_call0_v150 (by decide)).trans C54
  -- region 27: tap 4
  have H56 : (W56 m ρ c (Proc.devRef .tc main_call0_v13_0) : (⟨2, ![8192, 8192]⟩ : Shape).Idx → EReal) = HnB := (Region27.exit_H m ρ c).trans H55
  have A56 : W56 m ρ c (Proc.devRef .tc main_arg2) = A := (Region27.exit_keep m ρ c main_arg2 (by decide)).trans A55
  have v56 : toCol (W56 m ρ c (Proc.devRef .tc main_call0_v199_0)) = (Spec.mv (F := Ideal) HnB (Spec.mv (F := Ideal) HnB (Spec.mv (F := Ideal) HnB (Spec.mv (F := Ideal) HnB X)))) := by
    rw [Region27.exit_v m ρ c, toCol_Gv, v55]; exact congrArg (fun h => Spec.mv (F := Ideal) h (Spec.mv (F := Ideal) HnB (Spec.mv (F := Ideal) HnB (Spec.mv (F := Ideal) HnB X)))) H55
  have y56 : toCol (W56 m ρ c (Proc.devRef .tc main_call0_v199_1)) = (addf (F := Ideal) (addf (F := Ideal) (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) (Spec.sc (F := Ideal) (Spec.coef (F := Ideal) ![1, 1, 3] Cert.ReferenceIdeal.Gen.slices_S2x5x5_S1x1x1_1_1_3 A) (Spec.mv (F := Ideal) HnB (Spec.mv (F := Ideal) HnB (Spec.mv (F := Ideal) HnB X))))) (Spec.sc (F := Ideal) (Spec.coef (F := Ideal) ![1, 1, 4] Cert.ReferenceIdeal.Gen.slices_S2x5x5_S1x1x1_1_1_4 A) (Spec.mv (F := Ideal) HnB (Spec.mv (F := Ideal) HnB (Spec.mv (F := Ideal) HnB (Spec.mv (F := Ideal) HnB X)))))) := by
    rw [Region27.exit_y m ρ c, a55, toCol_Gy, v55, y55]; exact congrArg (fun h => addf (F := Ideal) (addf (F := Ideal) (addf (F := Ideal) (addf (F := Ideal) (Spec.sc (F := Ideal) (Spec.coef (F := Ideal) ![1, 1, 0] Cert.ReferenceIdeal.Gen.slices_S2x5x5_S1x1x1_1_1_0 A) X) (Spec.sc (F := Ideal) (Spec.coef (F := Ideal) ![1, 1, 1] Cert.ReferenceIdeal.Gen.slices_S2x5x5_S1x1x1_1_1_1 A) (Spec.mv (F := Ideal) HnB X))) (Spec.sc (F := Ideal) (Spec.coef (F := Ideal) ![1, 1, 2] Cert.ReferenceIdeal.Gen.slices_S2x5x5_S1x1x1_1_1_2 A) (Spec.mv (F := Ideal) HnB (Spec.mv (F := Ideal) HnB X)))) (Spec.sc (F := Ideal) (Spec.coef (F := Ideal) ![1, 1, 3] Cert.ReferenceIdeal.Gen.slices_S2x5x5_S1x1x1_1_1_3 A) (Spec.mv (F := Ideal) HnB (Spec.mv (F := Ideal) HnB (Spec.mv (F := Ideal) HnB X))))) (Spec.sc (F := Ideal) (Spec.coef (F := Ideal) ![1, 1, 4] Cert.ReferenceIdeal.Gen.slices_S2x5x5_S1x1x1_1_1_4 A) (Spec.mv (F := Ideal) h (Spec.mv (F := Ideal) HnB (Spec.mv (F := Ideal) HnB (Spec.mv (F := Ideal) HnB X)))))) H55
  have C56 : W56 m ρ c (Proc.devRef .tc main_call0_v150) = W49 m ρ c (Proc.devRef .tc main_call0_v150) := (Region27.exit_keep m ρ c main_call0_v150 (by decide)).trans C55
  -- stretch 28: leaky_relu, the two normalisations, the next layer's first tap and second coefficient
  have A57 : W57 m ρ c (Proc.devRef .tc main_arg2) = A := (keep28 (W56 m ρ c) main_arg2 (by decide)).trans A56
  have H57 : (W57 m ρ c (Proc.devRef .tc main_call0_v13_0) : (⟨2, ![8192, 8192]⟩ : Shape).Idx → EReal) = HnB := (keep28 (W56 m ρ c) main_call0_v13_0 (by decide)).trans H56
  have x57 : toCol (W57 m ρ c (Proc.devRef .tc main_call0_v208)) = Spec.layer11 (F := Ideal) A HnB X := (h28_x (W56 m ρ c)).trans (by rw [y56]; rfl)
  have y57 : toCol (W57 m ρ c (Proc.devRef .tc main_call0_v212)) = Spec.sc (F := Ideal) (Spec.coef (F := Ideal) ![1, 2, 0] Cert.ReferenceIdeal.Gen.slices_S2x5x5_S1x1x1_1_2_0 A) (Spec.layer11 (F := Ideal) A HnB X) := (h28_y0 (W56 m ρ c)).trans (by rw [y56, A56]; rfl)
  have a57 : W57 m ρ c (Proc.devRef .tc main_call0_v215) = as11 (Spec.coef (F := Ideal) ![1, 2, 1] Cert.ReferenceIdeal.Gen.slices_S2x5x5_S1x1x1_1_2_1 A) := (h28_a (W56 m ρ c)).trans (by rw [A56])
  have C57 : W57 m ρ c (Proc.devRef .tc main_call0_v150) = W49 m ρ c (Proc.devRef .tc main_call0_v150) := (keep28 (W56 m ρ c) main_call0_v150 (by decide)).trans C56
  exact ⟨A57, H57, x57, y57, a57, C57⟩

end Cert.KernelIdeal.Chain

end
-- ==== Proof.Region28.lean ====
/-
  Region 28 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region28

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg28.N,
      win28_0.index t (0 : Fin 2) = win28_4.index t (1 : Fin 2) ∧ win28_0.index t (1 : Fin 2) = 0
    ∧ win28_1.index t (0 : Fin 2) = 0 ∧ win28_1.index t (1 : Fin 2) = 0
    ∧ win28_2.index t (0 : Fin 2) = 0 ∧ win28_2.index t (1 : Fin 2) = 0
    ∧ win28_3.index t (0 : Fin 2) = 0 ∧ win28_3.index t (1 : Fin 2) = win28_4.index t (1 : Fin 2)
    ∧ win28_4.index t (0 : Fin 2) = 0 ∧ win28_4.index t (1 : Fin 2) ≤ 7
    ∧ win28_5.index t (0 : Fin 2) = 0 ∧ win28_5.index t (1 : Fin 2) = win28_4.index t (1 : Fin 2) :=
  (by decide +kernel : ∀ t : Fin grid28.N, _)

/-- Every one of the eight blocks of the row is some point's. -/
theorem idx_onto : ∀ q : Fin 8, ∃ t : Fin cfg28.N, win28_4.index t = ![0, q.val] :=
  (by decide +kernel : ∀ q : Fin 8, ∃ t : Fin grid28.N, win28_4.index t = ![0, q.val])

/-- The row window's block is the whole row at every point. -/
theorem blk1 (c : Dev nD) (t : Fin cfg28.N) (k : Fin 8192) : iblk28 V c 1 t (ix2 0 k) = V c (Pipeline.arrRef spec28 1) (ix2 0 k) := by
  obtain ⟨e00, e01, e10, e11, e20, e21, e30, e31, e40, e41, e50, e51⟩ := idx_facts t
  show V c (Pipeline.arrRef spec28 1) (((cfg28.win 1).blk t).view.emb (ix2 0 k)) = V c (Pipeline.arrRef spec28 1) (ix2 0 k)
  refine congrArg _ (funext fun a => Fin.ext ?_)
  match a with
  | ⟨0, _⟩ => show win28_1.index t (0 : Fin 2) * 1 + 1 * 0 = 0; omega
  | ⟨1, _⟩ => show win28_1.index t (1 : Fin 2) * 8192 + 1 * k.val = k.val; omega

/-- The coefficient window's block is the one entry. -/
theorem blk2 (c : Dev nD) (t : Fin cfg28.N) : iblk28 V c 2 t (ix2 0 0) = V c (Pipeline.arrRef spec28 2) (ix2 0 0) := by
  obtain ⟨e00, e01, e10, e11, e20, e21, e30, e31, e40, e41, e50, e51⟩ := idx_facts t
  show V c (Pipeline.arrRef spec28 2) (((cfg28.win 2).blk t).view.emb (ix2 0 0)) = V c (Pipeline.arrRef spec28 2) (ix2 0 0)
  refine congrArg _ (funext fun a => Fin.ext ?_)
  match a with
  | ⟨0, _⟩ => show win28_2.index t (0 : Fin 2) * 1 + 1 * 0 = 0; omega
  | ⟨1, _⟩ => show win28_2.index t (1 : Fin 2) * 1 + 1 * 0 = 0; omega

/-- The matrix window's block at point t is rows 1024·t … of the matrix: its row q is row (block's column position) of the array. -/
theorem blk0 (c : Dev nD) (t : Fin cfg28.N) (q : Fin 1024) (k : Fin 8192) :
    iblk28 V c 0 t (ix2 q k) = V c (Pipeline.arrRef spec28 0) (ix2 ((((cfg28.win 4).blk t).view.emb (ix2 0 q)) 1) k) := by
  obtain ⟨e00, e01, e10, e11, e20, e21, e30, e31, e40, e41, e50, e51⟩ := idx_facts t
  show V c (Pipeline.arrRef spec28 0) (((cfg28.win 0).blk t).view.emb (ix2 q k)) = _
  refine congrArg _ (funext fun a => Fin.ext ?_)
  match a with
  | ⟨0, _⟩ => show win28_0.index t (0 : Fin 2) * 1024 + 1 * q.val = win28_4.index t (1 : Fin 2) * 1024 + 1 * q.val; omega
  | ⟨1, _⟩ => show win28_0.index t (1 : Fin 2) * 8192 + 1 * k.val = k.val; omega

/-- The incoming accumulator window's block at point t is the same stretch of the row as the outgoing ones'. -/
theorem blk3 (c : Dev nD) (t : Fin cfg28.N) (q : Fin 1024) :
    iblk28 V c 3 t (ix2 0 q) = V c (Pipeline.arrRef spec28 3) (((cfg28.win 5).blk t).view.emb (ix2 0 q)) := by
  obtain ⟨e00, e01, e10, e11, e20, e21, e30, e31, e40, e41, e50, e51⟩ := idx_facts t
  show V c (Pipeline.arrRef spec28 3) (((cfg28.win 3).blk t).view.emb (ix2 0 q)) = _
  refine congrArg _ (funext fun a => Fin.ext ?_)
  match a with
  | ⟨0, _⟩ => show win28_3.index t (0 : Fin 2) * 1 + 1 * 0 = win28_5.index t (0 : Fin 2) * 1 + 1 * 0; omega
  | ⟨1, _⟩ => show win28_3.index t (1 : Fin 2) * 1024 + 1 * q.val = win28_5.index t (1 : Fin 2) * 1024 + 1 * q.val; omega

set_option maxHeartbeats 4000000 in
/-- WHAT POINT t WRITES BACK to the product window: block t of the product row. -/
theorem flushed4_eq (c : Dev nD) (t : Fin cfg28.N) :
    (dat28 V c).flushed 4 t = ((cfg28.win 4).blk t).view.read (Elt Ideal)
      (Gv (V c (Pipeline.arrRef spec28 1)) (V c (Pipeline.arrRef spec28 0))) := by
  show (cfg28.win 4).cut (grid28.coords t) ((dat28 V c).after 4 t) = _
  rw [after28_4]
  unfold out28_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk28 V c 1 t) (iblk28 V c 0 t) q).trans ?_
  show mvRow (iblk28 V c 1 t) (iblk28 V c 0 t) q
    = mvRow (V c (Pipeline.arrRef spec28 1)) (V c (Pipeline.arrRef spec28 0)) ((((cfg28.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg28.N) :
    (dat28 V c).flushed 5 t = ((cfg28.win 5).blk t).view.read (Elt Ideal)
      (Gy (V c (Pipeline.arrRef spec28 1)) (V c (Pipeline.arrRef spec28 0)) (V c (Pipeline.arrRef spec28 2)) (V c (Pipeline.arrRef spec28 3))) := by
  show (cfg28.win 5).cut (grid28.coords t) ((dat28 V c).after 5 t) = _
  rw [after28_5]
  unfold out28_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk28 V c 1 t) (iblk28 V c 0 t) (iblk28 V c 2 t) (iblk28 V c 3 t) q).trans ?_
  refine Eq.trans ?_ (Gy_acc (V c (Pipeline.arrRef spec28 1)) (V c (Pipeline.arrRef spec28 0)) (V c (Pipeline.arrRef spec28 2)) (V c (Pipeline.arrRef spec28 3))
    (((cfg28.win 5).blk t).view.emb (ix2 0 q))).symm
  rw [blk3 V c t q, blk2 V c t]
  refine congrArg (accAt _ _) ?_
  unfold mvRow
  refine Finset.sum_congr rfl fun k _ => ?_
  have hX : (((cfg28.win 4).blk t).view.emb (ix2 0 q)) 1 = (((cfg28.win 5).blk t).view.emb (ix2 0 q)) 1 :=
    Fin.ext (by show win28_4.index t (1 : Fin 2) * 1024 + 1 * q.val = win28_5.index t (1 : Fin 2) * 1024 + 1 * q.val; omega)
  rw [blk1 V c t k, blk0 V c t q k, hX]

/-- An index of a [1,8192] output array is in point t's block iff each coordinate is in the block's range. -/
theorem mem_blk4 (t : Fin cfg28.N) (i : S1x8192.Idx) :
    i ∈ ((cfg28.win 4).blk t).view.set ↔ ∀ a : Fin 2, win28_4.index t a * S1x1024.size a ≤ (i a).val ∧ (i a).val < win28_4.index t a * S1x1024.size a + S1x1024.size a := by
  show i ∈ ((View.whole main_call0_v216_0).slice (win28_4.rect t)).set ↔ _
  rw [View.set_slice_whole, Rect.mem_set_unit]
  exact Iff.rfl
theorem mem_blk5 (t : Fin cfg28.N) (i : S1x8192.Idx) :
    i ∈ ((cfg28.win 5).blk t).view.set ↔ ∀ a : Fin 2, win28_5.index t a * S1x1024.size a ≤ (i a).val ∧ (i a).val < win28_5.index t a * S1x1024.size a + S1x1024.size a := by
  show i ∈ ((View.whole main_call0_v216_1).slice (win28_5.rect t)).set ↔ _
  rw [View.set_slice_whole, Rect.mem_set_unit]
  exact Iff.rfl

/-- The eight blocks cover the row: column n is in the block of the point whose block index is n / 1024. -/
theorem cover4 (i : S1x8192.Idx) : ∃ t : Fin cfg28.N, (cfg28.win 4).flush t = true ∧ i ∈ ((cfg28.win 4).blk t).view.set := by
  have hi0 : (i 0).val < 1 := (i 0).isLt
  have hi1 : (i 1).val < 8192 := (i 1).isLt
  obtain ⟨t, ht⟩ := idx_onto ⟨(i 1).val / 1024, by omega⟩
  have q0 : win28_4.index t (0 : Fin 2) = 0 := congrFun ht 0
  have q1 : win28_4.index t (1 : Fin 2) = (i 1).val / 1024 := congrFun ht 1
  refine ⟨t, flush28_4 t, ?_⟩
  rw [mem_blk4]
  intro a
  match a with
  | ⟨0, _⟩ => show win28_4.index t (0 : Fin 2) * 1 ≤ (i 0).val ∧ (i 0).val < win28_4.index t (0 : Fin 2) * 1 + 1; omega
  | ⟨1, _⟩ => show win28_4.index t (1 : Fin 2) * 1024 ≤ (i 1).val ∧ (i 1).val < win28_4.index t (1 : Fin 2) * 1024 + 1024; omega
theorem cover5 (i : S1x8192.Idx) : ∃ t : Fin cfg28.N, (cfg28.win 5).flush t = true ∧ i ∈ ((cfg28.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win28_4.index t (1 : Fin 2) = (i 1).val / 1024 := congrFun ht 1
  refine ⟨t, flush28_5 t, ?_⟩
  rw [mem_blk5]
  intro a
  match a with
  | ⟨0, _⟩ => show win28_5.index t (0 : Fin 2) * 1 ≤ (i 0).val ∧ (i 0).val < win28_5.index t (0 : Fin 2) * 1 + 1; omega
  | ⟨1, _⟩ => show win28_5.index t (1 : Fin 2) * 1024 ≤ (i 1).val ∧ (i 1).val < win28_5.index t (1 : Fin 2) * 1024 + 1024; omega

/-- THE PRODUCT ARRAY after the region. -/
theorem final4 (c : Dev nD) : (dat28 V c).arrAt 4 cfg28.N = Gv (V c (Pipeline.arrRef spec28 1)) (V c (Pipeline.arrRef spec28 0)) :=
  (dat28 V c).arrAt_eq_of_cover 4 _ (fun t _ => flushed4_eq V c t) cover4
/-- THE ACCUMULATOR ARRAY after the region. -/
theorem final5 (c : Dev nD) : (dat28 V c).arrAt 5 cfg28.N
    = Gy (V c (Pipeline.arrRef spec28 1)) (V c (Pipeline.arrRef spec28 0)) (V c (Pipeline.arrRef spec28 2)) (V c (Pipeline.arrRef spec28 3)) :=
  (dat28 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W58 m ρ c (Proc.devRef .tc main_call0_v216_0) = Gv (W57 m ρ c (Proc.devRef .tc main_call0_v208)) (W57 m ρ c (Proc.devRef .tc main_call0_v13_0)) :=
  (W58_arr m ρ c 4).trans (final4 (V57 m ρ) c)
/-- The accumulator buffer after the region. -/
theorem exit_y : W58 m ρ c (Proc.devRef .tc main_call0_v216_1)
    = Gy (W57 m ρ c (Proc.devRef .tc main_call0_v208)) (W57 m ρ c (Proc.devRef .tc main_call0_v13_0)) (W57 m ρ c (Proc.devRef .tc main_call0_v215)) (W57 m ρ c (Proc.devRef .tc main_call0_v212)) :=
  (W58_arr m ρ c 5).trans (final5 (V57 m ρ) c)
/-- The matrix is only read. -/
theorem exit_H : W58 m ρ c (Proc.devRef .tc main_call0_v13_0) = W57 m ρ c (Proc.devRef .tc main_call0_v13_0) :=
  (W58_arr m ρ c 0).trans (((dat28 (V57 m ρ) c).arrAt_in 0 rfl _).trans (A_eq28 (V57 m ρ) c 0))
/-- The incoming row is only read. -/
theorem exit_vin : W58 m ρ c (Proc.devRef .tc main_call0_v208) = W57 m ρ c (Proc.devRef .tc main_call0_v208) :=
  (W58_arr m ρ c 1).trans (((dat28 (V57 m ρ) c).arrAt_in 1 rfl _).trans (A_eq28 (V57 m ρ) c 1))
/-- A buffer that is none of the region's arrays is as at entry. -/
theorem exit_keep (b : Ref sig .tc) (hb : ∀ w, Pipeline.arrRef spec28 w ≠ b) :
    W58 m ρ c (Proc.devRef .tc b) = W57 m ρ c (Proc.devRef .tc b) := W58_of_ne m ρ c b hb

end Exit

end Cert.KernelIdeal.Region28

end
-- ==== Proof.Region29.lean ====
/-
  Region 29 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region29

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg29.N,
      win29_0.index t (0 : Fin 2) = win29_4.index t (1 : Fin 2) ∧ win29_0.index t (1 : Fin 2) = 0
    ∧ win29_1.index t (0 : Fin 2) = 0 ∧ win29_1.index t (1 : Fin 2) = 0
    ∧ win29_2.index t (0 : Fin 2) = 0 ∧ win29_2.index t (1 : Fin 2) = 0
    ∧ win29_3.index t (0 : Fin 2) = 0 ∧ win29_3.index t (1 : Fin 2) = win29_4.index t (1 : Fin 2)
    ∧ win29_4.index t (0 : Fin 2) = 0 ∧ win29_4.index t (1 : Fin 2) ≤ 7
    ∧ win29_5.index t (0 : Fin 2) = 0 ∧ win29_5.index t (1 : Fin 2) = win29_4.index t (1 : Fin 2) :=
  (by decide +kernel : ∀ t : Fin grid29.N, _)

/-- Every one of the eight blocks of the row is some point's. -/
theorem idx_onto : ∀ q : Fin 8, ∃ t : Fin cfg29.N, win29_4.index t = ![0, q.val] :=
  (by decide +kernel : ∀ q : Fin 8, ∃ t : Fin grid29.N, win29_4.index t = ![0, q.val])

/-- The row window's block is the whole row at every point. -/
theorem blk1 (c : Dev nD) (t : Fin cfg29.N) (k : Fin 8192) : iblk29 V c 1 t (ix2 0 k) = V c (Pipeline.arrRef spec29 1) (ix2 0 k) := by
  obtain ⟨e00, e01, e10, e11, e20, e21, e30, e31, e40, e41, e50, e51⟩ := idx_facts t
  show V c (Pipeline.arrRef spec29 1) (((cfg29.win 1).blk t).view.emb (ix2 0 k)) = V c (Pipeline.arrRef spec29 1) (ix2 0 k)
  refine congrArg _ (funext fun a => Fin.ext ?_)
  match a with
  | ⟨0, _⟩ => show win29_1.index t (0 : Fin 2) * 1 + 1 * 0 = 0; omega
  | ⟨1, _⟩ => show win29_1.index t (1 : Fin 2) * 8192 + 1 * k.val = k.val; omega

/-- The coefficient window's block is the one entry. -/
theorem blk2 (c : Dev nD) (t : Fin cfg29.N) : iblk29 V c 2 t (ix2 0 0) = V c (Pipeline.arrRef spec29 2) (ix2 0 0) := by
  obtain ⟨e00, e01, e10, e11, e20, e21, e30, e31, e40, e41, e50, e51⟩ := idx_facts t
  show V c (Pipeline.arrRef spec29 2) (((cfg29.win 2).blk t).view.emb (ix2 0 0)) = V c (Pipeline.arrRef spec29 2) (ix2 0 0)
  refine congrArg _ (funext fun a => Fin.ext ?_)
  match a with
  | ⟨0, _⟩ => show win29_2.index t (0 : Fin 2) * 1 + 1 * 0 = 0; omega
  | ⟨1, _⟩ => show win29_2.index t (1 : Fin 2) * 1 + 1 * 0 = 0; omega

/-- The matrix window's block at point t is rows 1024·t … of the matrix: its row q is row (block's column position) of the array. -/
theorem blk0 (c : Dev nD) (t : Fin cfg29.N) (q : Fin 1024) (k : Fin 8192) :
    iblk29 V c 0 t (ix2 q k) = V c (Pipeline.arrRef spec29 0) (ix2 ((((cfg29.win 4).blk t).view.emb (ix2 0 q)) 1) k) := by
  obtain ⟨e00, e01, e10, e11, e20, e21, e30, e31, e40, e41, e50, e51⟩ := idx_facts t
  show V c (Pipeline.arrRef spec29 0) (((cfg29.win 0).blk t).view.emb (ix2 q k)) = _
  refine congrArg _ (funext fun a => Fin.ext ?_)
  match a with
  | ⟨0, _⟩ => show win29_0.index t (0 : Fin 2) * 1024 + 1 * q.val = win29_4.index t (1 : Fin 2) * 1024 + 1 * q.val; omega
  | ⟨1, _⟩ => show win29_0.index t (1 : Fin 2) * 8192 + 1 * k.val = k.val; omega

/-- The incoming accumulator window's block at point t is the same stretch of the row as the outgoing ones'. -/
theorem blk3 (c : Dev nD) (t : Fin cfg29.N) (q : Fin 1024) :
    iblk29 V c 3 t (ix2 0 q) = V c (Pipeline.arrRef spec29 3) (((cfg29.win 5).blk t).view.emb (ix2 0 q)) := by
  obtain ⟨e00, e01, e10, e11, e20, e21, e30, e31, e40, e41, e50, e51⟩ := idx_facts t
  show V c (Pipeline.arrRef spec29 3) (((cfg29.win 3).blk t).view.emb (ix2 0 q)) = _
  refine congrArg _ (funext fun a => Fin.ext ?_)
  match a with
  | ⟨0, _⟩ => show win29_3.index t (0 : Fin 2) * 1 + 1 * 0 = win29_5.index t (0 : Fin 2) * 1 + 1 * 0; omega
  | ⟨1, _⟩ => show win29_3.index t (1 : Fin 2) * 1024 + 1 * q.val = win29_5.index t (1 : Fin 2) * 1024 + 1 * q.val; omega

set_option maxHeartbeats 4000000 in
/-- WHAT POINT t WRITES BACK to the product window: block t of the product row. -/
theorem flushed4_eq (c : Dev nD) (t : Fin cfg29.N) :
    (dat29 V c).flushed 4 t = ((cfg29.win 4).blk t).view.read (Elt Ideal)
      (Gv (V c (Pipeline.arrRef spec29 1)) (V c (Pipeline.arrRef spec29 0))) := by
  show (cfg29.win 4).cut (grid29.coords t) ((dat29 V c).after 4 t) = _
  rw [after29_4]
  unfold out29_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk29 V c 1 t) (iblk29 V c 0 t) q).trans ?_
  show mvRow (iblk29 V c 1 t) (iblk29 V c 0 t) q
    = mvRow (V c (Pipeline.arrRef spec29 1)) (V c (Pipeline.arrRef spec29 0)) ((((cfg29.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg29.N) :
    (dat29 V c).flushed 5 t = ((cfg29.win 5).blk t).view.read (Elt Ideal)
      (Gy (V c (Pipeline.arrRef spec29 1)) (V c (Pipeline.arrRef spec29 0)) (V c (Pipeline.arrRef spec29 2)) (V c (Pipeline.arrRef spec29 3))) := by
  show (cfg29.win 5).cut (grid29.coords t) ((dat29 V c).after 5 t) = _
  rw [after29_5]
  unfold out29_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk29 V c 1 t) (iblk29 V c 0 t) (iblk29 V c 2 t) (iblk29 V c 3 t) q).trans ?_
  refine Eq.trans ?_ (Gy_acc (V c (Pipeline.arrRef spec29 1)) (V c (Pipeline.arrRef spec29 0)) (V c (Pipeline.arrRef spec29 2)) (V c (Pipeline.arrRef spec29 3))
    (((cfg29.win 5).blk t).view.emb (ix2 0 q))).symm
  rw [blk3 V c t q, blk2 V c t]
  refine congrArg (accAt _ _) ?_
  unfold mvRow
  refine Finset.sum_congr rfl fun k _ => ?_
  have hX : (((cfg29.win 4).blk t).view.emb (ix2 0 q)) 1 = (((cfg29.win 5).blk t).view.emb (ix2 0 q)) 1 :=
    Fin.ext (by show win29_4.index t (1 : Fin 2) * 1024 + 1 * q.val = win29_5.index t (1 : Fin 2) * 1024 + 1 * q.val; omega)
  rw [blk1 V c t k, blk0 V c t q k, hX]

/-- An index of a [1,8192] output array is in point t's block iff each coordinate is in the block's range. -/
theorem mem_blk4 (t : Fin cfg29.N) (i : S1x8192.Idx) :
    i ∈ ((cfg29.win 4).blk t).view.set ↔ ∀ a : Fin 2, win29_4.index t a * S1x1024.size a ≤ (i a).val ∧ (i a).val < win29_4.index t a * S1x1024.size a + S1x1024.size a := by
  show i ∈ ((View.whole main_call0_v220_0).slice (win29_4.rect t)).set ↔ _
  rw [View.set_slice_whole, Rect.mem_set_unit]
  exact Iff.rfl
theorem mem_blk5 (t : Fin cfg29.N) (i : S1x8192.Idx) :
    i ∈ ((cfg29.win 5).blk t).view.set ↔ ∀ a : Fin 2, win29_5.index t a * S1x1024.size a ≤ (i a).val ∧ (i a).val < win29_5.index t a * S1x1024.size a + S1x1024.size a := by
  show i ∈ ((View.whole main_call0_v220_1).slice (win29_5.rect t)).set ↔ _
  rw [View.set_slice_whole, Rect.mem_set_unit]
  exact Iff.rfl

/-- The eight blocks cover the row: column n is in the block of the point whose block index is n / 1024. -/
theorem cover4 (i : S1x8192.Idx) : ∃ t : Fin cfg29.N, (cfg29.win 4).flush t = true ∧ i ∈ ((cfg29.win 4).blk t).view.set := by
  have hi0 : (i 0).val < 1 := (i 0).isLt
  have hi1 : (i 1).val < 8192 := (i 1).isLt
  obtain ⟨t, ht⟩ := idx_onto ⟨(i 1).val / 1024, by omega⟩
  have q0 : win29_4.index t (0 : Fin 2) = 0 := congrFun ht 0
  have q1 : win29_4.index t (1 : Fin 2) = (i 1).val / 1024 := congrFun ht 1
  refine ⟨t, flush29_4 t, ?_⟩
  rw [mem_blk4]
  intro a
  match a with
  | ⟨0, _⟩ => show win29_4.index t (0 : Fin 2) * 1 ≤ (i 0).val ∧ (i 0).val < win29_4.index t (0 : Fin 2) * 1 + 1; omega
  | ⟨1, _⟩ => show win29_4.index t (1 : Fin 2) * 1024 ≤ (i 1).val ∧ (i 1).val < win29_4.index t (1 : Fin 2) * 1024 + 1024; omega
theorem cover5 (i : S1x8192.Idx) : ∃ t : Fin cfg29.N, (cfg29.win 5).flush t = true ∧ i ∈ ((cfg29.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win29_4.index t (1 : Fin 2) = (i 1).val / 1024 := congrFun ht 1
  refine ⟨t, flush29_5 t, ?_⟩
  rw [mem_blk5]
  intro a
  match a with
  | ⟨0, _⟩ => show win29_5.index t (0 : Fin 2) * 1 ≤ (i 0).val ∧ (i 0).val < win29_5.index t (0 : Fin 2) * 1 + 1; omega
  | ⟨1, _⟩ => show win29_5.index t (1 : Fin 2) * 1024 ≤ (i 1).val ∧ (i 1).val < win29_5.index t (1 : Fin 2) * 1024 + 1024; omega

/-- THE PRODUCT ARRAY after the region. -/
theorem final4 (c : Dev nD) : (dat29 V c).arrAt 4 cfg29.N = Gv (V c (Pipeline.arrRef spec29 1)) (V c (Pipeline.arrRef spec29 0)) :=
  (dat29 V c).arrAt_eq_of_cover 4 _ (fun t _ => flushed4_eq V c t) cover4
/-- THE ACCUMULATOR ARRAY after the region. -/
theorem final5 (c : Dev nD) : (dat29 V c).arrAt 5 cfg29.N
    = Gy (V c (Pipeline.arrRef spec29 1)) (V c (Pipeline.arrRef spec29 0)) (V c (Pipeline.arrRef spec29 2)) (V c (Pipeline.arrRef spec29 3)) :=
  (dat29 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W60 m ρ c (Proc.devRef .tc main_call0_v220_0) = Gv (W59 m ρ c (Proc.devRef .tc main_call0_v216_0)) (W59 m ρ c (Proc.devRef .tc main_call0_v13_0)) :=
  (W60_arr m ρ c 4).trans (final4 (V59 m ρ) c)
/-- The accumulator buffer after the region. -/
theorem exit_y : W60 m ρ c (Proc.devRef .tc main_call0_v220_1)
    = Gy (W59 m ρ c (Proc.devRef .tc main_call0_v216_0)) (W59 m ρ c (Proc.devRef .tc main_call0_v13_0)) (W59 m ρ c (Proc.devRef .tc main_call0_v219)) (W59 m ρ c (Proc.devRef .tc main_call0_v216_1)) :=
  (W60_arr m ρ c 5).trans (final5 (V59 m ρ) c)
/-- The matrix is only read. -/
theorem exit_H : W60 m ρ c (Proc.devRef .tc main_call0_v13_0) = W59 m ρ c (Proc.devRef .tc main_call0_v13_0) :=
  (W60_arr m ρ c 0).trans (((dat29 (V59 m ρ) c).arrAt_in 0 rfl _).trans (A_eq29 (V59 m ρ) c 0))
/-- The incoming row is only read. -/
theorem exit_vin : W60 m ρ c (Proc.devRef .tc main_call0_v216_0) = W59 m ρ c (Proc.devRef .tc main_call0_v216_0) :=
  (W60_arr m ρ c 1).trans (((dat29 (V59 m ρ) c).arrAt_in 1 rfl _).trans (A_eq29 (V59 m ρ) c 1))
/-- A buffer that is none of the region's arrays is as at entry. -/
theorem exit_keep (b : Ref sig .tc) (hb : ∀ w, Pipeline.arrRef spec29 w ≠ b) :
    W60 m ρ c (Proc.devRef .tc b) = W59 m ρ c (Proc.devRef .tc b) := W60_of_ne m ρ c b hb

end Exit

end Cert.KernelIdeal.Region29

end
-- ==== Proof.Region30.lean ====
/-
  Region 30 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region30

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg30.N,
      win30_0.index t (0 : Fin 2) = win30_4.index t (1 : Fin 2) ∧ win30_0.index t (1 : Fin 2) = 0
    ∧ win30_1.index t (0 : Fin 2) = 0 ∧ win30_1.index t (1 : Fin 2) = 0
    ∧ win30_2.index t (0 : Fin 2) = 0 ∧ win30_2.index t (1 : Fin 2) = 0
    ∧ win30_3.index t (0 : Fin 2) = 0 ∧ win30_3.index t (1 : Fin 2) = win30_4.index t (1 : Fin 2)
    ∧ win30_4.index t (0 : Fin 2) = 0 ∧ win30_4.index t (1 : Fin 2) ≤ 7
    ∧ win30_5.index t (0 : Fin 2) = 0 ∧ win30_5.index t (1 : Fin 2) = win30_4.index t (1 : Fin 2) :=
  (by decide +kernel : ∀ t : Fin grid30.N, _)

/-- Every one of the eight blocks of the row is some point's. -/
theorem idx_onto : ∀ q : Fin 8, ∃ t : Fin cfg30.N, win30_4.index t = ![0, q.val] :=
  (by decide +kernel : ∀ q : Fin 8, ∃ t : Fin grid30.N, win30_4.index t = ![0, q.val])

/-- The row window's block is the whole row at every point. -/
theorem blk1 (c : Dev nD) (t : Fin cfg30.N) (k : Fin 8192) : iblk30 V c 1 t (ix2 0 k) = V c (Pipeline.arrRef spec30 1) (ix2 0 k) := by
  obtain ⟨e00, e01, e10, e11, e20, e21, e30, e31, e40, e41, e50, e51⟩ := idx_facts t
  show V c (Pipeline.arrRef spec30 1) (((cfg30.win 1).blk t).view.emb (ix2 0 k)) = V c (Pipeline.arrRef spec30 1) (ix2 0 k)
  refine congrArg _ (funext fun a => Fin.ext ?_)
  match a with
  | ⟨0, _⟩ => show win30_1.index t (0 : Fin 2) * 1 + 1 * 0 = 0; omega
  | ⟨1, _⟩ => show win30_1.index t (1 : Fin 2) * 8192 + 1 * k.val = k.val; omega

/-- The coefficient window's block is the one entry. -/
theorem blk2 (c : Dev nD) (t : Fin cfg30.N) : iblk30 V c 2 t (ix2 0 0) = V c (Pipeline.arrRef spec30 2) (ix2 0 0) := by
  obtain ⟨e00, e01, e10, e11, e20, e21, e30, e31, e40, e41, e50, e51⟩ := idx_facts t
  show V c (Pipeline.arrRef spec30 2) (((cfg30.win 2).blk t).view.emb (ix2 0 0)) = V c (Pipeline.arrRef spec30 2) (ix2 0 0)
  refine congrArg _ (funext fun a => Fin.ext ?_)
  match a with
  | ⟨0, _⟩ => show win30_2.index t (0 : Fin 2) * 1 + 1 * 0 = 0; omega
  | ⟨1, _⟩ => show win30_2.index t (1 : Fin 2) * 1 + 1 * 0 = 0; omega

/-- The matrix window's block at point t is rows 1024·t … of the matrix: its row q is row (block's column position) of the array. -/
theorem blk0 (c : Dev nD) (t : Fin cfg30.N) (q : Fin 1024) (k : Fin 8192) :
    iblk30 V c 0 t (ix2 q k) = V c (Pipeline.arrRef spec30 0) (ix2 ((((cfg30.win 4).blk t).view.emb (ix2 0 q)) 1) k) := by
  obtain ⟨e00, e01, e10, e11, e20, e21, e30, e31, e40, e41, e50, e51⟩ := idx_facts t
  show V c (Pipeline.arrRef spec30 0) (((cfg30.win 0).blk t).view.emb (ix2 q k)) = _
  refine congrArg _ (funext fun a => Fin.ext ?_)
  match a with
  | ⟨0, _⟩ => show win30_0.index t (0 : Fin 2) * 1024 + 1 * q.val = win30_4.index t (1 : Fin 2) * 1024 + 1 * q.val; omega
  | ⟨1, _⟩ => show win30_0.index t (1 : Fin 2) * 8192 + 1 * k.val = k.val; omega

/-- The incoming accumulator window's block at point t is the same stretch of the row as the outgoing ones'. -/
theorem blk3 (c : Dev nD) (t : Fin cfg30.N) (q : Fin 1024) :
    iblk30 V c 3 t (ix2 0 q) = V c (Pipeline.arrRef spec30 3) (((cfg30.win 5).blk t).view.emb (ix2 0 q)) := by
  obtain ⟨e00, e01, e10, e11, e20, e21, e30, e31, e40, e41, e50, e51⟩ := idx_facts t
  show V c (Pipeline.arrRef spec30 3) (((cfg30.win 3).blk t).view.emb (ix2 0 q)) = _
  refine congrArg _ (funext fun a => Fin.ext ?_)
  match a with
  | ⟨0, _⟩ => show win30_3.index t (0 : Fin 2) * 1 + 1 * 0 = win30_5.index t (0 : Fin 2) * 1 + 1 * 0; omega
  | ⟨1, _⟩ => show win30_3.index t (1 : Fin 2) * 1024 + 1 * q.val = win30_5.index t (1 : Fin 2) * 1024 + 1 * q.val; omega

set_option maxHeartbeats 4000000 in
/-- WHAT POINT t WRITES BACK to the product window: block t of the product row. -/
theorem flushed4_eq (c : Dev nD) (t : Fin cfg30.N) :
    (dat30 V c).flushed 4 t = ((cfg30.win 4).blk t).view.read (Elt Ideal)
      (Gv (V c (Pipeline.arrRef spec30 1)) (V c (Pipeline.arrRef spec30 0))) := by
  show (cfg30.win 4).cut (grid30.coords t) ((dat30 V c).after 4 t) = _
  rw [after30_4]
  unfold out30_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk30 V c 1 t) (iblk30 V c 0 t) q).trans ?_
  show mvRow (iblk30 V c 1 t) (iblk30 V c 0 t) q
    = mvRow (V c (Pipeline.arrRef spec30 1)) (V c (Pipeline.arrRef spec30 0)) ((((cfg30.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg30.N) :
    (dat30 V c).flushed 5 t = ((cfg30.win 5).blk t).view.read (Elt Ideal)
      (Gy (V c (Pipeline.arrRef spec30 1)) (V c (Pipeline.arrRef spec30 0)) (V c (Pipeline.arrRef spec30 2)) (V c (Pipeline.arrRef spec30 3))) := by
  show (cfg30.win 5).cut (grid30.coords t) ((dat30 V c).after 5 t) = _
  rw [after30_5]
  unfold out30_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk30 V c 1 t) (iblk30 V c 0 t) (iblk30 V c 2 t) (iblk30 V c 3 t) q).trans ?_
  refine Eq.trans ?_ (Gy_acc (V c (Pipeline.arrRef spec30 1)) (V c (Pipeline.arrRef spec30 0)) (V c (Pipeline.arrRef spec30 2)) (V c (Pipeline.arrRef spec30 3))
    (((cfg30.win 5).blk t).view.emb (ix2 0 q))).symm
  rw [blk3 V c t q, blk2 V c t]
  refine congrArg (accAt _ _) ?_
  unfold mvRow
  refine Finset.sum_congr rfl fun k _ => ?_
  have hX : (((cfg30.win 4).blk t).view.emb (ix2 0 q)) 1 = (((cfg30.win 5).blk t).view.emb (ix2 0 q)) 1 :=
    Fin.ext (by show win30_4.index t (1 : Fin 2) * 1024 + 1 * q.val = win30_5.index t (1 : Fin 2) * 1024 + 1 * q.val; omega)
  rw [blk1 V c t k, blk0 V c t q k, hX]

/-- An index of a [1,8192] output array is in point t's block iff each coordinate is in the block's range. -/
theorem mem_blk4 (t : Fin cfg30.N) (i : S1x8192.Idx) :
    i ∈ ((cfg30.win 4).blk t).view.set ↔ ∀ a : Fin 2, win30_4.index t a * S1x1024.size a ≤ (i a).val ∧ (i a).val < win30_4.index t a * S1x1024.size a + S1x1024.size a := by
  show i ∈ ((View.whole main_call0_v224_0).slice (win30_4.rect t)).set ↔ _
  rw [View.set_slice_whole, Rect.mem_set_unit]
  exact Iff.rfl
theorem mem_blk5 (t : Fin cfg30.N) (i : S1x8192.Idx) :
    i ∈ ((cfg30.win 5).blk t).view.set ↔ ∀ a : Fin 2, win30_5.index t a * S1x1024.size a ≤ (i a).val ∧ (i a).val < win30_5.index t a * S1x1024.size a + S1x1024.size a := by
  show i ∈ ((View.whole main_call0_v224_1).slice (win30_5.rect t)).set ↔ _
  rw [View.set_slice_whole, Rect.mem_set_unit]
  exact Iff.rfl

/-- The eight blocks cover the row: column n is in the block of the point whose block index is n / 1024. -/
theorem cover4 (i : S1x8192.Idx) : ∃ t : Fin cfg30.N, (cfg30.win 4).flush t = true ∧ i ∈ ((cfg30.win 4).blk t).view.set := by
  have hi0 : (i 0).val < 1 := (i 0).isLt
  have hi1 : (i 1).val < 8192 := (i 1).isLt
  obtain ⟨t, ht⟩ := idx_onto ⟨(i 1).val / 1024, by omega⟩
  have q0 : win30_4.index t (0 : Fin 2) = 0 := congrFun ht 0
  have q1 : win30_4.index t (1 : Fin 2) = (i 1).val / 1024 := congrFun ht 1
  refine ⟨t, flush30_4 t, ?_⟩
  rw [mem_blk4]
  intro a
  match a with
  | ⟨0, _⟩ => show win30_4.index t (0 : Fin 2) * 1 ≤ (i 0).val ∧ (i 0).val < win30_4.index t (0 : Fin 2) * 1 + 1; omega
  | ⟨1, _⟩ => show win30_4.index t (1 : Fin 2) * 1024 ≤ (i 1).val ∧ (i 1).val < win30_4.index t (1 : Fin 2) * 1024 + 1024; omega
theorem cover5 (i : S1x8192.Idx) : ∃ t : Fin cfg30.N, (cfg30.win 5).flush t = true ∧ i ∈ ((cfg30.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win30_4.index t (1 : Fin 2) = (i 1).val / 1024 := congrFun ht 1
  refine ⟨t, flush30_5 t, ?_⟩
  rw [mem_blk5]
  intro a
  match a with
  | ⟨0, _⟩ => show win30_5.index t (0 : Fin 2) * 1 ≤ (i 0).val ∧ (i 0).val < win30_5.index t (0 : Fin 2) * 1 + 1; omega
  | ⟨1, _⟩ => show win30_5.index t (1 : Fin 2) * 1024 ≤ (i 1).val ∧ (i 1).val < win30_5.index t (1 : Fin 2) * 1024 + 1024; omega

/-- THE PRODUCT ARRAY after the region. -/
theorem final4 (c : Dev nD) : (dat30 V c).arrAt 4 cfg30.N = Gv (V c (Pipeline.arrRef spec30 1)) (V c (Pipeline.arrRef spec30 0)) :=
  (dat30 V c).arrAt_eq_of_cover 4 _ (fun t _ => flushed4_eq V c t) cover4
/-- THE ACCUMULATOR ARRAY after the region. -/
theorem final5 (c : Dev nD) : (dat30 V c).arrAt 5 cfg30.N
    = Gy (V c (Pipeline.arrRef spec30 1)) (V c (Pipeline.arrRef spec30 0)) (V c (Pipeline.arrRef spec30 2)) (V c (Pipeline.arrRef spec30 3)) :=
  (dat30 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W62 m ρ c (Proc.devRef .tc main_call0_v224_0) = Gv (W61 m ρ c (Proc.devRef .tc main_call0_v220_0)) (W61 m ρ c (Proc.devRef .tc main_call0_v13_0)) :=
  (W62_arr m ρ c 4).trans (final4 (V61 m ρ) c)
/-- The accumulator buffer after the region. -/
theorem exit_y : W62 m ρ c (Proc.devRef .tc main_call0_v224_1)
    = Gy (W61 m ρ c (Proc.devRef .tc main_call0_v220_0)) (W61 m ρ c (Proc.devRef .tc main_call0_v13_0)) (W61 m ρ c (Proc.devRef .tc main_call0_v223)) (W61 m ρ c (Proc.devRef .tc main_call0_v220_1)) :=
  (W62_arr m ρ c 5).trans (final5 (V61 m ρ) c)
/-- The matrix is only read. -/
theorem exit_H : W62 m ρ c (Proc.devRef .tc main_call0_v13_0) = W61 m ρ c (Proc.devRef .tc main_call0_v13_0) :=
  (W62_arr m ρ c 0).trans (((dat30 (V61 m ρ) c).arrAt_in 0 rfl _).trans (A_eq30 (V61 m ρ) c 0))
/-- The incoming row is only read. -/
theorem exit_vin : W62 m ρ c (Proc.devRef .tc main_call0_v220_0) = W61 m ρ c (Proc.devRef .tc main_call0_v220_0) :=
  (W62_arr m ρ c 1).trans (((dat30 (V61 m ρ) c).arrAt_in 1 rfl _).trans (A_eq30 (V61 m ρ) c 1))
/-- A buffer that is none of the region's arrays is as at entry. -/
theorem exit_keep (b : Ref sig .tc) (hb : ∀ w, Pipeline.arrRef spec30 w ≠ b) :
    W62 m ρ c (Proc.devRef .tc b) = W61 m ρ c (Proc.devRef .tc b) := W62_of_ne m ρ c b hb

end Exit

end Cert.KernelIdeal.Region30

end
-- ==== Proof.Region31.lean ====
/-
  Region 31 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region31

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg31.N,
      win31_0.index t (0 : Fin 2) = win31_4.index t (1 : Fin 2) ∧ win31_0.index t (1 : Fin 2) = 0
    ∧ win31_1.index t (0 : Fin 2) = 0 ∧ win31_1.index t (1 : Fin 2) = 0
    ∧ win31_2.index t (0 : Fin 2) = 0 ∧ win31_2.index t (1 : Fin 2) = 0
    ∧ win31_3.index t (0 : Fin 2) = 0 ∧ win31_3.index t (1 : Fin 2) = win31_4.index t (1 : Fin 2)
    ∧ win31_4.index t (0 : Fin 2) = 0 ∧ win31_4.index t (1 : Fin 2) ≤ 7
    ∧ win31_5.index t (0 : Fin 2) = 0 ∧ win31_5.index t (1 : Fin 2) = win31_4.index t (1 : Fin 2) :=
  (by decide +kernel : ∀ t : Fin grid31.N, _)

/-- Every one of the eight blocks of the row is some point's. -/
theorem idx_onto : ∀ q : Fin 8, ∃ t : Fin cfg31.N, win31_4.index t = ![0, q.val] :=
  (by decide +kernel : ∀ q : Fin 8, ∃ t : Fin grid31.N, win31_4.index t = ![0, q.val])

/-- The row window's block is the whole row at every point. -/
theorem blk1 (c : Dev nD) (t : Fin cfg31.N) (k : Fin 8192) : iblk31 V c 1 t (ix2 0 k) = V c (Pipeline.arrRef spec31 1) (ix2 0 k) := by
  obtain ⟨e00, e01, e10, e11, e20, e21, e30, e31, e40, e41, e50, e51⟩ := idx_facts t
  show V c (Pipeline.arrRef spec31 1) (((cfg31.win 1).blk t).view.emb (ix2 0 k)) = V c (Pipeline.arrRef spec31 1) (ix2 0 k)
  refine congrArg _ (funext fun a => Fin.ext ?_)
  match a with
  | ⟨0, _⟩ => show win31_1.index t (0 : Fin 2) * 1 + 1 * 0 = 0; omega
  | ⟨1, _⟩ => show win31_1.index t (1 : Fin 2) * 8192 + 1 * k.val = k.val; omega

/-- The coefficient window's block is the one entry. -/
theorem blk2 (c : Dev nD) (t : Fin cfg31.N) : iblk31 V c 2 t (ix2 0 0) = V c (Pipeline.arrRef spec31 2) (ix2 0 0) := by
  obtain ⟨e00, e01, e10, e11, e20, e21, e30, e31, e40, e41, e50, e51⟩ := idx_facts t
  show V c (Pipeline.arrRef spec31 2) (((cfg31.win 2).blk t).view.emb (ix2 0 0)) = V c (Pipeline.arrRef spec31 2) (ix2 0 0)
  refine congrArg _ (funext fun a => Fin.ext ?_)
  match a with
  | ⟨0, _⟩ => show win31_2.index t (0 : Fin 2) * 1 + 1 * 0 = 0; omega
  | ⟨1, _⟩ => show win31_2.index t (1 : Fin 2) * 1 + 1 * 0 = 0; omega

/-- The matrix window's block at point t is rows 1024·t … of the matrix: its row q is row (block's column position) of the array. -/
theorem blk0 (c : Dev nD) (t : Fin cfg31.N) (q : Fin 1024) (k : Fin 8192) :
    iblk31 V c 0 t (ix2 q k) = V c (Pipeline.arrRef spec31 0) (ix2 ((((cfg31.win 4).blk t).view.emb (ix2 0 q)) 1) k) := by
  obtain ⟨e00, e01, e10, e11, e20, e21, e30, e31, e40, e41, e50, e51⟩ := idx_facts t
  show V c (Pipeline.arrRef spec31 0) (((cfg31.win 0).blk t).view.emb (ix2 q k)) = _
  refine congrArg _ (funext fun a => Fin.ext ?_)
  match a with
  | ⟨0, _⟩ => show win31_0.index t (0 : Fin 2) * 1024 + 1 * q.val = win31_4.index t (1 : Fin 2) * 1024 + 1 * q.val; omega
  | ⟨1, _⟩ => show win31_0.index t (1 : Fin 2) * 8192 + 1 * k.val = k.val; omega

/-- The incoming accumulator window's block at point t is the same stretch of the row as the outgoing ones'. -/
theorem blk3 (c : Dev nD) (t : Fin cfg31.N) (q : Fin 1024) :
    iblk31 V c 3 t (ix2 0 q) = V c (Pipeline.arrRef spec31 3) (((cfg31.win 5).blk t).view.emb (ix2 0 q)) := by
  obtain ⟨e00, e01, e10, e11, e20, e21, e30, e31, e40, e41, e50, e51⟩ := idx_facts t
  show V c (Pipeline.arrRef spec31 3) (((cfg31.win 3).blk t).view.emb (ix2 0 q)) = _
  refine congrArg _ (funext fun a => Fin.ext ?_)
  match a with
  | ⟨0, _⟩ => show win31_3.index t (0 : Fin 2) * 1 + 1 * 0 = win31_5.index t (0 : Fin 2) * 1 + 1 * 0; omega
  | ⟨1, _⟩ => show win31_3.index t (1 : Fin 2) * 1024 + 1 * q.val = win31_5.index t (1 : Fin 2) * 1024 + 1 * q.val; omega

set_option maxHeartbeats 4000000 in
/-- WHAT POINT t WRITES BACK to the product window: block t of the product row. -/
theorem flushed4_eq (c : Dev nD) (t : Fin cfg31.N) :
    (dat31 V c).flushed 4 t = ((cfg31.win 4).blk t).view.read (Elt Ideal)
      (Gv (V c (Pipeline.arrRef spec31 1)) (V c (Pipeline.arrRef spec31 0))) := by
  show (cfg31.win 4).cut (grid31.coords t) ((dat31 V c).after 4 t) = _
  rw [after31_4]
  unfold out31_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk31 V c 1 t) (iblk31 V c 0 t) q).trans ?_
  show mvRow (iblk31 V c 1 t) (iblk31 V c 0 t) q
    = mvRow (V c (Pipeline.arrRef spec31 1)) (V c (Pipeline.arrRef spec31 0)) ((((cfg31.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg31.N) :
    (dat31 V c).flushed 5 t = ((cfg31.win 5).blk t).view.read (Elt Ideal)
      (Gy (V c (Pipeline.arrRef spec31 1)) (V c (Pipeline.arrRef spec31 0)) (V c (Pipeline.arrRef spec31 2)) (V c (Pipeline.arrRef spec31 3))) := by
  show (cfg31.win 5).cut (grid31.coords t) ((dat31 V c).after 5 t) = _
  rw [after31_5]
  unfold out31_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk31 V c 1 t) (iblk31 V c 0 t) (iblk31 V c 2 t) (iblk31 V c 3 t) q).trans ?_
  refine Eq.trans ?_ (Gy_acc (V c (Pipeline.arrRef spec31 1)) (V c (Pipeline.arrRef spec31 0)) (V c (Pipeline.arrRef spec31 2)) (V c (Pipeline.arrRef spec31 3))
    (((cfg31.win 5).blk t).view.emb (ix2 0 q))).symm
  rw [blk3 V c t q, blk2 V c t]
  refine congrArg (accAt _ _) ?_
  unfold mvRow
  refine Finset.sum_congr rfl fun k _ => ?_
  have hX : (((cfg31.win 4).blk t).view.emb (ix2 0 q)) 1 = (((cfg31.win 5).blk t).view.emb (ix2 0 q)) 1 :=
    Fin.ext (by show win31_4.index t (1 : Fin 2) * 1024 + 1 * q.val = win31_5.index t (1 : Fin 2) * 1024 + 1 * q.val; omega)
  rw [blk1 V c t k, blk0 V c t q k, hX]

/-- An index of a [1,8192] output array is in point t's block iff each coordinate is in the block's range. -/
theorem mem_blk4 (t : Fin cfg31.N) (i : S1x8192.Idx) :
    i ∈ ((cfg31.win 4).blk t).view.set ↔ ∀ a : Fin 2, win31_4.index t a * S1x1024.size a ≤ (i a).val ∧ (i a).val < win31_4.index t a * S1x1024.size a + S1x1024.size a := by
  show i ∈ ((View.whole main_call0_v228_0).slice (win31_4.rect t)).set ↔ _
  rw [View.set_slice_whole, Rect.mem_set_unit]
  exact Iff.rfl
theorem mem_blk5 (t : Fin cfg31.N) (i : S1x8192.Idx) :
    i ∈ ((cfg31.win 5).blk t).view.set ↔ ∀ a : Fin 2, win31_5.index t a * S1x1024.size a ≤ (i a).val ∧ (i a).val < win31_5.index t a * S1x1024.size a + S1x1024.size a := by
  show i ∈ ((View.whole main_call0_v228_1).slice (win31_5.rect t)).set ↔ _
  rw [View.set_slice_whole, Rect.mem_set_unit]
  exact Iff.rfl

/-- The eight blocks cover the row: column n is in the block of the point whose block index is n / 1024. -/
theorem cover4 (i : S1x8192.Idx) : ∃ t : Fin cfg31.N, (cfg31.win 4).flush t = true ∧ i ∈ ((cfg31.win 4).blk t).view.set := by
  have hi0 : (i 0).val < 1 := (i 0).isLt
  have hi1 : (i 1).val < 8192 := (i 1).isLt
  obtain ⟨t, ht⟩ := idx_onto ⟨(i 1).val / 1024, by omega⟩
  have q0 : win31_4.index t (0 : Fin 2) = 0 := congrFun ht 0
  have q1 : win31_4.index t (1 : Fin 2) = (i 1).val / 1024 := congrFun ht 1
  refine ⟨t, flush31_4 t, ?_⟩
  rw [mem_blk4]
  intro a
  match a with
  | ⟨0, _⟩ => show win31_4.index t (0 : Fin 2) * 1 ≤ (i 0).val ∧ (i 0).val < win31_4.index t (0 : Fin 2) * 1 + 1; omega
  | ⟨1, _⟩ => show win31_4.index t (1 : Fin 2) * 1024 ≤ (i 1).val ∧ (i 1).val < win31_4.index t (1 : Fin 2) * 1024 + 1024; omega
theorem cover5 (i : S1x8192.Idx) : ∃ t : Fin cfg31.N, (cfg31.win 5).flush t = true ∧ i ∈ ((cfg31.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win31_4.index t (1 : Fin 2) = (i 1).val / 1024 := congrFun ht 1
  refine ⟨t, flush31_5 t, ?_⟩
  rw [mem_blk5]
  intro a
  match a with
  | ⟨0, _⟩ => show win31_5.index t (0 : Fin 2) * 1 ≤ (i 0).val ∧ (i 0).val < win31_5.index t (0 : Fin 2) * 1 + 1; omega
  | ⟨1, _⟩ => show win31_5.index t (1 : Fin 2) * 1024 ≤ (i 1).val ∧ (i 1).val < win31_5.index t (1 : Fin 2) * 1024 + 1024; omega

/-- THE PRODUCT ARRAY after the region. -/
theorem final4 (c : Dev nD) : (dat31 V c).arrAt 4 cfg31.N = Gv (V c (Pipeline.arrRef spec31 1)) (V c (Pipeline.arrRef spec31 0)) :=
  (dat31 V c).arrAt_eq_of_cover 4 _ (fun t _ => flushed4_eq V c t) cover4
/-- THE ACCUMULATOR ARRAY after the region. -/
theorem final5 (c : Dev nD) : (dat31 V c).arrAt 5 cfg31.N
    = Gy (V c (Pipeline.arrRef spec31 1)) (V c (Pipeline.arrRef spec31 0)) (V c (Pipeline.arrRef spec31 2)) (V c (Pipeline.arrRef spec31 3)) :=
  (dat31 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W64 m ρ c (Proc.devRef .tc main_call0_v228_0) = Gv (W63 m ρ c (Proc.devRef .tc main_call0_v224_0)) (W63 m ρ c (Proc.devRef .tc main_call0_v13_0)) :=
  (W64_arr m ρ c 4).trans (final4 (V63 m ρ) c)
/-- The accumulator buffer after the region. -/
theorem exit_y : W64 m ρ c (Proc.devRef .tc main_call0_v228_1)
    = Gy (W63 m ρ c (Proc.devRef .tc main_call0_v224_0)) (W63 m ρ c (Proc.devRef .tc main_call0_v13_0)) (W63 m ρ c (Proc.devRef .tc main_call0_v227)) (W63 m ρ c (Proc.devRef .tc main_call0_v224_1)) :=
  (W64_arr m ρ c 5).trans (final5 (V63 m ρ) c)
/-- The matrix is only read. -/
theorem exit_H : W64 m ρ c (Proc.devRef .tc main_call0_v13_0) = W63 m ρ c (Proc.devRef .tc main_call0_v13_0) :=
  (W64_arr m ρ c 0).trans (((dat31 (V63 m ρ) c).arrAt_in 0 rfl _).trans (A_eq31 (V63 m ρ) c 0))
/-- The incoming row is only read. -/
theorem exit_vin : W64 m ρ c (Proc.devRef .tc main_call0_v224_0) = W63 m ρ c (Proc.devRef .tc main_call0_v224_0) :=
  (W64_arr m ρ c 1).trans (((dat31 (V63 m ρ) c).arrAt_in 1 rfl _).trans (A_eq31 (V63 m ρ) c 1))
/-- A buffer that is none of the region's arrays is as at entry. -/
theorem exit_keep (b : Ref sig .tc) (hb : ∀ w, Pipeline.arrRef spec31 w ≠ b) :
    W64 m ρ c (Proc.devRef .tc b) = W63 m ρ c (Proc.devRef .tc b) := W64_of_ne m ρ c b hb

end Exit

end Cert.KernelIdeal.Region31

end
-- ==== Proof.KLayer7.lean ====
/-
  Layer 7 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region28
import proofs.«144169_j55405078119367_2_alg».proof.Proof.Region29
import proofs.«144169_j55405078119367_2_alg».proof.Proof.Region30
import proofs.«144169_j55405078119367_2_alg».proof.Proof.Region31

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 7 = (1, 2). -/
theorem layer7 (X : FVec Ideal Cert.ReferenceIdeal.S8192x1 .f32) (HnB : (⟨2, ![8192, 8192]⟩ : Shape).Idx → EReal)
    (A : FVec Ideal Cert.ReferenceIdeal.S2x5x5 .f32)
    (A57 : W57 m ρ c (Proc.devRef .tc main_arg2) = A)
    (H57 : (W57 m ρ c (Proc.devRef .tc main_call0_v13_0) : (⟨2, ![8192, 8192]⟩ : Shape).Idx → EReal) = HnB)
    (v57 : toCol (W57 m ρ c (Proc.devRef .tc main_call0_v208)) = X)
    (y57 : toCol (W57 m ρ c (Proc.devRef .tc main_call0_v212)) = (Spec.sc (F := Ideal) (Spec.coef (F := Ideal) ![1, 2, 0] Cert.ReferenceIdeal.Gen.slices_S2x5x5_S1x1x1_1_2_0 A) X))
    (a57 : W57 m ρ c (Proc.devRef .tc main_call0_v215) = as11 (Spec.coef (F := Ideal) ![1, 2, 1] Cert.ReferenceIdeal.Gen.slices_S2x5x5_S1x1x1_1_2_1 A)) :
    W65 m ρ c (Proc.devRef .tc main_arg2) = A
    ∧ (W65 m ρ c (Proc.devRef .tc main_call0_v13_0) : (⟨2, ![8192, 8192]⟩ : Shape).Idx → EReal) = HnB
    ∧ toCol (W65 m ρ c (Proc.devRef .tc main_call0_v237)) = (Spec.layer12 (F := Ideal) A HnB X)
    ∧ toCol (W65 m ρ c (Proc.devRef .tc main_call0_v241)) = Spec.sc (F := Ideal) (Spec.coef (F := Ideal) ![1, 3, 0] Cert.ReferenceIdeal.Gen.slices_S2x5x5_S1x1x1_1_3_0 A) (Spec.layer12 (F := Ideal) A HnB X)
    ∧ W65 m ρ c (Proc.devRef .tc main_call0_v244) = as11 (Spec.coef (F := Ideal) ![1, 3, 1] Cert.ReferenceIdeal.Gen.slices_S2x5x5_S1x1x1_1_3_1 A)
    ∧ W65 m ρ c (Proc.devRef .tc main_call0_v150) = W57 m ρ c (Proc.devRef .tc main_call0_v150) := by
  have C57 : W57 m ρ c (Proc.devRef .tc main_call0_v150) = W57 m ρ c (Proc.devRef .tc main_call0_v150) := rfl
  -- region 28: tap 1
  have H58 : (W58 m ρ c (Proc.devRef .tc main_call0_v13_0) : (⟨2, ![8192, 8192]⟩ : Shape).Idx → EReal) = HnB := (Region28.exit_H m ρ c).trans H57
  have A58 : W58 m ρ c (Proc.devRef .tc main_arg2) = A := (Region28.exit_keep m ρ c main_arg2 (by decide)).trans A57
  have v58 : toCol (W58 m ρ c (Proc.devRef .tc main_call0_v216_0)) = (Spec.mv (F := Ideal) HnB X) := by
    rw [Region28.exit_v m ρ c, toCol_Gv, v57]; exact congrArg (fun h => Spec.mv (F := Ideal) h X) H57
  have y58 : toCol (W58 m ρ c (Proc.devRef .tc main_call0_v216_1)) = (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) := by
    rw [Region28.exit_y m ρ c, a57, toCol_Gy, v57, y57]; exact congrArg (fun h => addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) h X))) H57
  have C58 : W58 m ρ c (Proc.devRef .tc main_call0_v150) = W57 m ρ c (Proc.devRef .tc main_call0_v150) := (Region28.exit_keep m ρ c main_call0_v150 (by decide)).trans C57
  -- stretch 29: the next coefficient
  have A59 : W59 m ρ c (Proc.devRef .tc main_arg2) = A := (keep29 (W58 m ρ c) main_arg2 (by decide)).trans A58
  have H59 : (W59 m ρ c (Proc.devRef .tc main_call0_v13_0) : (⟨2, ![8192, 8192]⟩ : Shape).Idx → EReal) = HnB := (keep29 (W58 m ρ c) main_call0_v13_0 (by decide)).trans H58
  have v59 : toCol (W59 m ρ c (Proc.devRef .tc main_call0_v216_0)) = (Spec.mv (F := Ideal) HnB X) := (congrArg toCol (keep29 (W58 m ρ c) main_call0_v216_0 (by decide))).trans v58
  have y59 : toCol (W59 m ρ c (Proc.devRef .tc main_call0_v216_1)) = (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) := (congrArg toCol (keep29 (W58 m ρ c) main_call0_v216_1 (by decide))).trans y58
  have a59 : W59 m ρ c (Proc.devRef .tc main_call0_v219) = as11 (Spec.coef (F := Ideal) ![1, 2, 2] Cert.ReferenceIdeal.Gen.slices_S2x5x5_S1x1x1_1_2_2 A) := (h29_a (W58 m ρ c)).trans (by rw [A58])
  have C59 : W59 m ρ c (Proc.devRef .tc main_call0_v150) = W57 m ρ c (Proc.devRef .tc main_call0_v150) := (keep29 (W58 m ρ c) main_call0_v150 (by decide)).trans C58
  -- region 29: tap 2
  have H60 : (W60 m ρ c (Proc.devRef .tc main_call0_v13_0) : (⟨2, ![8192, 8192]⟩ : Shape).Idx → EReal) = HnB := (Region29.exit_H m ρ c).trans H59
  have A60 : W60 m ρ c (Proc.devRef .tc main_arg2) = A := (Region29.exit_keep m ρ c main_arg2 (by decide)).trans A59
  have v60 : toCol (W60 m ρ c (Proc.devRef .tc main_call0_v220_0)) = (Spec.mv (F := Ideal) HnB (Spec.mv (F := Ideal) HnB X)) := by
    rw [Region29.exit_v m ρ c, toCol_Gv, v59]; exact congrArg (fun h => Spec.mv (F := Ideal) h (Spec.mv (F := Ideal) HnB X)) H59
  have y60 : toCol (W60 m ρ c (Proc.devRef .tc main_call0_v220_1)) = (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) := by
    rw [Region29.exit_y m ρ c, a59, toCol_Gy, v59, y59]; exact congrArg (fun h => addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) h (Spec.mv (F := Ideal) HnB X)))) H59
  have C60 : W60 m ρ c (Proc.devRef .tc main_call0_v150) = W57 m ρ c (Proc.devRef .tc main_call0_v150) := (Region29.exit_keep m ρ c main_call0_v150 (by decide)).trans C59
  -- stretch 30: the next coefficient
  have A61 : W61 m ρ c (Proc.devRef .tc main_arg2) = A := (keep30 (W60 m ρ c) main_arg2 (by decide)).trans A60
  have H61 : (W61 m ρ c (Proc.devRef .tc main_call0_v13_0) : (⟨2, ![8192, 8192]⟩ : Shape).Idx → EReal) = HnB := (keep30 (W60 m ρ c) main_call0_v13_0 (by decide)).trans H60
  have v61 : toCol (W61 m ρ c (Proc.devRef .tc main_call0_v220_0)) = (Spec.mv (F := Ideal) HnB (Spec.mv (F := Ideal) HnB X)) := (congrArg toCol (keep30 (W60 m ρ c) main_call0_v220_0 (by decide))).trans v60
  have y61 : toCol (W61 m ρ c (Proc.devRef .tc main_call0_v220_1)) = (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) := (congrArg toCol (keep30 (W60 m ρ c) main_call0_v220_1 (by decide))).trans y60
  have a61 : W61 m ρ c (Proc.devRef .tc main_call0_v223) = as11 (Spec.coef (F := Ideal) ![1, 2, 3] Cert.ReferenceIdeal.Gen.slices_S2x5x5_S1x1x1_1_2_3 A) := (h30_a (W60 m ρ c)).trans (by rw [A60])
  have C61 : W61 m ρ c (Proc.devRef .tc main_call0_v150) = W57 m ρ c (Proc.devRef .tc main_call0_v150) := (keep30 (W60 m ρ c) main_call0_v150 (by decide)).trans C60
  -- region 30: tap 3
  have H62 : (W62 m ρ c (Proc.devRef .tc main_call0_v13_0) : (⟨2, ![8192, 8192]⟩ : Shape).Idx → EReal) = HnB := (Region30.exit_H m ρ c).trans H61
  have A62 : W62 m ρ c (Proc.devRef .tc main_arg2) = A := (Region30.exit_keep m ρ c main_arg2 (by decide)).trans A61
  have v62 : toCol (W62 m ρ c (Proc.devRef .tc main_call0_v224_0)) = (Spec.mv (F := Ideal) HnB (Spec.mv (F := Ideal) HnB (Spec.mv (F := Ideal) HnB X))) := by
    rw [Region30.exit_v m ρ c, toCol_Gv, v61]; exact congrArg (fun h => Spec.mv (F := Ideal) h (Spec.mv (F := Ideal) HnB (Spec.mv (F := Ideal) HnB X))) H61
  have y62 : toCol (W62 m ρ c (Proc.devRef .tc main_call0_v224_1)) = (addf (F := Ideal) (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) (Spec.sc (F := Ideal) (Spec.coef (F := Ideal) ![1, 2, 3] Cert.ReferenceIdeal.Gen.slices_S2x5x5_S1x1x1_1_2_3 A) (Spec.mv (F := Ideal) HnB (Spec.mv (F := Ideal) HnB (Spec.mv (F := Ideal) HnB X))))) := by
    rw [Region30.exit_y m ρ c, a61, toCol_Gy, v61, y61]; exact congrArg (fun h => addf (F := Ideal) (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) (Spec.sc (F := Ideal) (Spec.coef (F := Ideal) ![1, 2, 3] Cert.ReferenceIdeal.Gen.slices_S2x5x5_S1x1x1_1_2_3 A) (Spec.mv (F := Ideal) h (Spec.mv (F := Ideal) HnB (Spec.mv (F := Ideal) HnB X))))) H61
  have C62 : W62 m ρ c (Proc.devRef .tc main_call0_v150) = W57 m ρ c (Proc.devRef .tc main_call0_v150) := (Region30.exit_keep m ρ c main_call0_v150 (by decide)).trans C61
  -- stretch 31: the next coefficient
  have A63 : W63 m ρ c (Proc.devRef .tc main_arg2) = A := (keep31 (W62 m ρ c) main_arg2 (by decide)).trans A62
  have H63 : (W63 m ρ c (Proc.devRef .tc main_call0_v13_0) : (⟨2, ![8192, 8192]⟩ : Shape).Idx → EReal) = HnB := (keep31 (W62 m ρ c) main_call0_v13_0 (by decide)).trans H62
  have v63 : toCol (W63 m ρ c (Proc.devRef .tc main_call0_v224_0)) = (Spec.mv (F := Ideal) HnB (Spec.mv (F := Ideal) HnB (Spec.mv (F := Ideal) HnB X))) := (congrArg toCol (keep31 (W62 m ρ c) main_call0_v224_0 (by decide))).trans v62
  have y63 : toCol (W63 m ρ c (Proc.devRef .tc main_call0_v224_1)) = (addf (F := Ideal) (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) (Spec.sc (F := Ideal) (Spec.coef (F := Ideal) ![1, 2, 3] Cert.ReferenceIdeal.Gen.slices_S2x5x5_S1x1x1_1_2_3 A) (Spec.mv (F := Ideal) HnB (Spec.mv (F := Ideal) HnB (Spec.mv (F := Ideal) HnB X))))) := (congrArg toCol (keep31 (W62 m ρ c) main_call0_v224_1 (by decide))).trans y62
  have a63 : W63 m ρ c (Proc.devRef .tc main_call0_v227) = as11 (Spec.coef (F := Ideal) ![1, 2, 4] Cert.ReferenceIdeal.Gen.slices_S2x5x5_S1x1x1_1_2_4 A) := (h31_a (W62 m ρ c)).trans (by rw [A62])
  have C63 : W63 m ρ c (Proc.devRef .tc main_call0_v150) = W57 m ρ c (Proc.devRef .tc main_call0_v150) := (keep31 (W62 m ρ c) main_call0_v150 (by decide)).trans C62
  -- region 31: tap 4
  have H64 : (W64 m ρ c (Proc.devRef .tc main_call0_v13_0) : (⟨2, ![8192, 8192]⟩ : Shape).Idx → EReal) = HnB := (Region31.exit_H m ρ c).trans H63
  have A64 : W64 m ρ c (Proc.devRef .tc main_arg2) = A := (Region31.exit_keep m ρ c main_arg2 (by decide)).trans A63
  have v64 : toCol (W64 m ρ c (Proc.devRef .tc main_call0_v228_0)) = (Spec.mv (F := Ideal) HnB (Spec.mv (F := Ideal) HnB (Spec.mv (F := Ideal) HnB (Spec.mv (F := Ideal) HnB X)))) := by
    rw [Region31.exit_v m ρ c, toCol_Gv, v63]; exact congrArg (fun h => Spec.mv (F := Ideal) h (Spec.mv (F := Ideal) HnB (Spec.mv (F := Ideal) HnB (Spec.mv (F := Ideal) HnB X)))) H63
  have y64 : toCol (W64 m ρ c (Proc.devRef .tc main_call0_v228_1)) = (addf (F := Ideal) (addf (F := Ideal) (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) (Spec.sc (F := Ideal) (Spec.coef (F := Ideal) ![1, 2, 3] Cert.ReferenceIdeal.Gen.slices_S2x5x5_S1x1x1_1_2_3 A) (Spec.mv (F := Ideal) HnB (Spec.mv (F := Ideal) HnB (Spec.mv (F := Ideal) HnB X))))) (Spec.sc (F := Ideal) (Spec.coef (F := Ideal) ![1, 2, 4] Cert.ReferenceIdeal.Gen.slices_S2x5x5_S1x1x1_1_2_4 A) (Spec.mv (F := Ideal) HnB (Spec.mv (F := Ideal) HnB (Spec.mv (F := Ideal) HnB (Spec.mv (F := Ideal) HnB X)))))) := by
    rw [Region31.exit_y m ρ c, a63, toCol_Gy, v63, y63]; exact congrArg (fun h => addf (F := Ideal) (addf (F := Ideal) (addf (F := Ideal) (addf (F := Ideal) (Spec.sc (F := Ideal) (Spec.coef (F := Ideal) ![1, 2, 0] Cert.ReferenceIdeal.Gen.slices_S2x5x5_S1x1x1_1_2_0 A) X) (Spec.sc (F := Ideal) (Spec.coef (F := Ideal) ![1, 2, 1] Cert.ReferenceIdeal.Gen.slices_S2x5x5_S1x1x1_1_2_1 A) (Spec.mv (F := Ideal) HnB X))) (Spec.sc (F := Ideal) (Spec.coef (F := Ideal) ![1, 2, 2] Cert.ReferenceIdeal.Gen.slices_S2x5x5_S1x1x1_1_2_2 A) (Spec.mv (F := Ideal) HnB (Spec.mv (F := Ideal) HnB X)))) (Spec.sc (F := Ideal) (Spec.coef (F := Ideal) ![1, 2, 3] Cert.ReferenceIdeal.Gen.slices_S2x5x5_S1x1x1_1_2_3 A) (Spec.mv (F := Ideal) HnB (Spec.mv (F := Ideal) HnB (Spec.mv (F := Ideal) HnB X))))) (Spec.sc (F := Ideal) (Spec.coef (F := Ideal) ![1, 2, 4] Cert.ReferenceIdeal.Gen.slices_S2x5x5_S1x1x1_1_2_4 A) (Spec.mv (F := Ideal) h (Spec.mv (F := Ideal) HnB (Spec.mv (F := Ideal) HnB (Spec.mv (F := Ideal) HnB X)))))) H63
  have C64 : W64 m ρ c (Proc.devRef .tc main_call0_v150) = W57 m ρ c (Proc.devRef .tc main_call0_v150) := (Region31.exit_keep m ρ c main_call0_v150 (by decide)).trans C63
  -- stretch 32: leaky_relu, the two normalisations, the next layer's first tap and second coefficient
  have A65 : W65 m ρ c (Proc.devRef .tc main_arg2) = A := (keep32 (W64 m ρ c) main_arg2 (by decide)).trans A64
  have H65 : (W65 m ρ c (Proc.devRef .tc main_call0_v13_0) : (⟨2, ![8192, 8192]⟩ : Shape).Idx → EReal) = HnB := (keep32 (W64 m ρ c) main_call0_v13_0 (by decide)).trans H64
  have x65 : toCol (W65 m ρ c (Proc.devRef .tc main_call0_v237)) = Spec.layer12 (F := Ideal) A HnB X := (h32_x (W64 m ρ c)).trans (by rw [y64]; rfl)
  have y65 : toCol (W65 m ρ c (Proc.devRef .tc main_call0_v241)) = Spec.sc (F := Ideal) (Spec.coef (F := Ideal) ![1, 3, 0] Cert.ReferenceIdeal.Gen.slices_S2x5x5_S1x1x1_1_3_0 A) (Spec.layer12 (F := Ideal) A HnB X) := (h32_y0 (W64 m ρ c)).trans (by rw [y64, A64]; rfl)
  have a65 : W65 m ρ c (Proc.devRef .tc main_call0_v244) = as11 (Spec.coef (F := Ideal) ![1, 3, 1] Cert.ReferenceIdeal.Gen.slices_S2x5x5_S1x1x1_1_3_1 A) := (h32_a (W64 m ρ c)).trans (by rw [A64])
  have C65 : W65 m ρ c (Proc.devRef .tc main_call0_v150) = W57 m ρ c (Proc.devRef .tc main_call0_v150) := (keep32 (W64 m ρ c) main_call0_v150 (by decide)).trans C64
  exact ⟨A65, H65, x65, y65, a65, C65⟩

end Cert.KernelIdeal.Chain

end
-- ==== Proof.Region32.lean ====
/-
  Region 32 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region32

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg32.N,
      win32_0.index t (0 : Fin 2) = win32_4.index t (1 : Fin 2) ∧ win32_0.index t (1 : Fin 2) = 0
    ∧ win32_1.index t (0 : Fin 2) = 0 ∧ win32_1.index t (1 : Fin 2) = 0
    ∧ win32_2.index t (0 : Fin 2) = 0 ∧ win32_2.index t (1 : Fin 2) = 0
    ∧ win32_3.index t (0 : Fin 2) = 0 ∧ win32_3.index t (1 : Fin 2) = win32_4.index t (1 : Fin 2)
    ∧ win32_4.index t (0 : Fin 2) = 0 ∧ win32_4.index t (1 : Fin 2) ≤ 7
    ∧ win32_5.index t (0 : Fin 2) = 0 ∧ win32_5.index t (1 : Fin 2) = win32_4.index t (1 : Fin 2) :=
  (by decide +kernel : ∀ t : Fin grid32.N, _)

/-- Every one of the eight blocks of the row is some point's. -/
theorem idx_onto : ∀ q : Fin 8, ∃ t : Fin cfg32.N, win32_4.index t = ![0, q.val] :=
  (by decide +kernel : ∀ q : Fin 8, ∃ t : Fin grid32.N, win32_4.index t = ![0, q.val])

/-- The row window's block is the whole row at every point. -/
theorem blk1 (c : Dev nD) (t : Fin cfg32.N) (k : Fin 8192) : iblk32 V c 1 t (ix2 0 k) = V c (Pipeline.arrRef spec32 1) (ix2 0 k) := by
  obtain ⟨e00, e01, e10, e11, e20, e21, e30, e31, e40, e41, e50, e51⟩ := idx_facts t
  show V c (Pipeline.arrRef spec32 1) (((cfg32.win 1).blk t).view.emb (ix2 0 k)) = V c (Pipeline.arrRef spec32 1) (ix2 0 k)
  refine congrArg _ (funext fun a => Fin.ext ?_)
  match a with
  | ⟨0, _⟩ => show win32_1.index t (0 : Fin 2) * 1 + 1 * 0 = 0; omega
  | ⟨1, _⟩ => show win32_1.index t (1 : Fin 2) * 8192 + 1 * k.val = k.val; omega

/-- The coefficient window's block is the one entry. -/
theorem blk2 (c : Dev nD) (t : Fin cfg32.N) : iblk32 V c 2 t (ix2 0 0) = V c (Pipeline.arrRef spec32 2) (ix2 0 0) := by
  obtain ⟨e00, e01, e10, e11, e20, e21, e30, e31, e40, e41, e50, e51⟩ := idx_facts t
  show V c (Pipeline.arrRef spec32 2) (((cfg32.win 2).blk t).view.emb (ix2 0 0)) = V c (Pipeline.arrRef spec32 2) (ix2 0 0)
  refine congrArg _ (funext fun a => Fin.ext ?_)
  match a with
  | ⟨0, _⟩ => show win32_2.index t (0 : Fin 2) * 1 + 1 * 0 = 0; omega
  | ⟨1, _⟩ => show win32_2.index t (1 : Fin 2) * 1 + 1 * 0 = 0; omega

/-- The matrix window's block at point t is rows 1024·t … of the matrix: its row q is row (block's column position) of the array. -/
theorem blk0 (c : Dev nD) (t : Fin cfg32.N) (q : Fin 1024) (k : Fin 8192) :
    iblk32 V c 0 t (ix2 q k) = V c (Pipeline.arrRef spec32 0) (ix2 ((((cfg32.win 4).blk t).view.emb (ix2 0 q)) 1) k) := by
  obtain ⟨e00, e01, e10, e11, e20, e21, e30, e31, e40, e41, e50, e51⟩ := idx_facts t
  show V c (Pipeline.arrRef spec32 0) (((cfg32.win 0).blk t).view.emb (ix2 q k)) = _
  refine congrArg _ (funext fun a => Fin.ext ?_)
  match a with
  | ⟨0, _⟩ => show win32_0.index t (0 : Fin 2) * 1024 + 1 * q.val = win32_4.index t (1 : Fin 2) * 1024 + 1 * q.val; omega
  | ⟨1, _⟩ => show win32_0.index t (1 : Fin 2) * 8192 + 1 * k.val = k.val; omega

/-- The incoming accumulator window's block at point t is the same stretch of the row as the outgoing ones'. -/
theorem blk3 (c : Dev nD) (t : Fin cfg32.N) (q : Fin 1024) :
    iblk32 V c 3 t (ix2 0 q) = V c (Pipeline.arrRef spec32 3) (((cfg32.win 5).blk t).view.emb (ix2 0 q)) := by
  obtain ⟨e00, e01, e10, e11, e20, e21, e30, e31, e40, e41, e50, e51⟩ := idx_facts t
  show V c (Pipeline.arrRef spec32 3) (((cfg32.win 3).blk t).view.emb (ix2 0 q)) = _
  refine congrArg _ (funext fun a => Fin.ext ?_)
  match a with
  | ⟨0, _⟩ => show win32_3.index t (0 : Fin 2) * 1 + 1 * 0 = win32_5.index t (0 : Fin 2) * 1 + 1 * 0; omega
  | ⟨1, _⟩ => show win32_3.index t (1 : Fin 2) * 1024 + 1 * q.val = win32_5.index t (1 : Fin 2) * 1024 + 1 * q.val; omega

set_option maxHeartbeats 4000000 in
/-- WHAT POINT t WRITES BACK to the product window: block t of the product row. -/
theorem flushed4_eq (c : Dev nD) (t : Fin cfg32.N) :
    (dat32 V c).flushed 4 t = ((cfg32.win 4).blk t).view.read (Elt Ideal)
      (Gv (V c (Pipeline.arrRef spec32 1)) (V c (Pipeline.arrRef spec32 0))) := by
  show (cfg32.win 4).cut (grid32.coords t) ((dat32 V c).after 4 t) = _
  rw [after32_4]
  unfold out32_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk32 V c 1 t) (iblk32 V c 0 t) q).trans ?_
  show mvRow (iblk32 V c 1 t) (iblk32 V c 0 t) q
    = mvRow (V c (Pipeline.arrRef spec32 1)) (V c (Pipeline.arrRef spec32 0)) ((((cfg32.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg32.N) :
    (dat32 V c).flushed 5 t = ((cfg32.win 5).blk t).view.read (Elt Ideal)
      (Gy (V c (Pipeline.arrRef spec32 1)) (V c (Pipeline.arrRef spec32 0)) (V c (Pipeline.arrRef spec32 2)) (V c (Pipeline.arrRef spec32 3))) := by
  show (cfg32.win 5).cut (grid32.coords t) ((dat32 V c).after 5 t) = _
  rw [after32_5]
  unfold out32_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk32 V c 1 t) (iblk32 V c 0 t) (iblk32 V c 2 t) (iblk32 V c 3 t) q).trans ?_
  refine Eq.trans ?_ (Gy_acc (V c (Pipeline.arrRef spec32 1)) (V c (Pipeline.arrRef spec32 0)) (V c (Pipeline.arrRef spec32 2)) (V c (Pipeline.arrRef spec32 3))
    (((cfg32.win 5).blk t).view.emb (ix2 0 q))).symm
  rw [blk3 V c t q, blk2 V c t]
  refine congrArg (accAt _ _) ?_
  unfold mvRow
  refine Finset.sum_congr rfl fun k _ => ?_
  have hX : (((cfg32.win 4).blk t).view.emb (ix2 0 q)) 1 = (((cfg32.win 5).blk t).view.emb (ix2 0 q)) 1 :=
    Fin.ext (by show win32_4.index t (1 : Fin 2) * 1024 + 1 * q.val = win32_5.index t (1 : Fin 2) * 1024 + 1 * q.val; omega)
  rw [blk1 V c t k, blk0 V c t q k, hX]

/-- An index of a [1,8192] output array is in point t's block iff each coordinate is in the block's range. -/
theorem mem_blk4 (t : Fin cfg32.N) (i : S1x8192.Idx) :
    i ∈ ((cfg32.win 4).blk t).view.set ↔ ∀ a : Fin 2, win32_4.index t a * S1x1024.size a ≤ (i a).val ∧ (i a).val < win32_4.index t a * S1x1024.size a + S1x1024.size a := by
  show i ∈ ((View.whole main_call0_v245_0).slice (win32_4.rect t)).set ↔ _
  rw [View.set_slice_whole, Rect.mem_set_unit]
  exact Iff.rfl
theorem mem_blk5 (t : Fin cfg32.N) (i : S1x8192.Idx) :
    i ∈ ((cfg32.win 5).blk t).view.set ↔ ∀ a : Fin 2, win32_5.index t a * S1x1024.size a ≤ (i a).val ∧ (i a).val < win32_5.index t a * S1x1024.size a + S1x1024.size a := by
  show i ∈ ((View.whole main_call0_v245_1).slice (win32_5.rect t)).set ↔ _
  rw [View.set_slice_whole, Rect.mem_set_unit]
  exact Iff.rfl

/-- The eight blocks cover the row: column n is in the block of the point whose block index is n / 1024. -/
theorem cover4 (i : S1x8192.Idx) : ∃ t : Fin cfg32.N, (cfg32.win 4).flush t = true ∧ i ∈ ((cfg32.win 4).blk t).view.set := by
  have hi0 : (i 0).val < 1 := (i 0).isLt
  have hi1 : (i 1).val < 8192 := (i 1).isLt
  obtain ⟨t, ht⟩ := idx_onto ⟨(i 1).val / 1024, by omega⟩
  have q0 : win32_4.index t (0 : Fin 2) = 0 := congrFun ht 0
  have q1 : win32_4.index t (1 : Fin 2) = (i 1).val / 1024 := congrFun ht 1
  refine ⟨t, flush32_4 t, ?_⟩
  rw [mem_blk4]
  intro a
  match a with
  | ⟨0, _⟩ => show win32_4.index t (0 : Fin 2) * 1 ≤ (i 0).val ∧ (i 0).val < win32_4.index t (0 : Fin 2) * 1 + 1; omega
  | ⟨1, _⟩ => show win32_4.index t (1 : Fin 2) * 1024 ≤ (i 1).val ∧ (i 1).val < win32_4.index t (1 : Fin 2) * 1024 + 1024; omega
theorem cover5 (i : S1x8192.Idx) : ∃ t : Fin cfg32.N, (cfg32.win 5).flush t = true ∧ i ∈ ((cfg32.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win32_4.index t (1 : Fin 2) = (i 1).val / 1024 := congrFun ht 1
  refine ⟨t, flush32_5 t, ?_⟩
  rw [mem_blk5]
  intro a
  match a with
  | ⟨0, _⟩ => show win32_5.index t (0 : Fin 2) * 1 ≤ (i 0).val ∧ (i 0).val < win32_5.index t (0 : Fin 2) * 1 + 1; omega
  | ⟨1, _⟩ => show win32_5.index t (1 : Fin 2) * 1024 ≤ (i 1).val ∧ (i 1).val < win32_5.index t (1 : Fin 2) * 1024 + 1024; omega

/-- THE PRODUCT ARRAY after the region. -/
theorem final4 (c : Dev nD) : (dat32 V c).arrAt 4 cfg32.N = Gv (V c (Pipeline.arrRef spec32 1)) (V c (Pipeline.arrRef spec32 0)) :=
  (dat32 V c).arrAt_eq_of_cover 4 _ (fun t _ => flushed4_eq V c t) cover4
/-- THE ACCUMULATOR ARRAY after the region. -/
theorem final5 (c : Dev nD) : (dat32 V c).arrAt 5 cfg32.N
    = Gy (V c (Pipeline.arrRef spec32 1)) (V c (Pipeline.arrRef spec32 0)) (V c (Pipeline.arrRef spec32 2)) (V c (Pipeline.arrRef spec32 3)) :=
  (dat32 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W66 m ρ c (Proc.devRef .tc main_call0_v245_0) = Gv (W65 m ρ c (Proc.devRef .tc main_call0_v237)) (W65 m ρ c (Proc.devRef .tc main_call0_v13_0)) :=
  (W66_arr m ρ c 4).trans (final4 (V65 m ρ) c)
/-- The accumulator buffer after the region. -/
theorem exit_y : W66 m ρ c (Proc.devRef .tc main_call0_v245_1)
    = Gy (W65 m ρ c (Proc.devRef .tc main_call0_v237)) (W65 m ρ c (Proc.devRef .tc main_call0_v13_0)) (W65 m ρ c (Proc.devRef .tc main_call0_v244)) (W65 m ρ c (Proc.devRef .tc main_call0_v241)) :=
  (W66_arr m ρ c 5).trans (final5 (V65 m ρ) c)
/-- The matrix is only read. -/
theorem exit_H : W66 m ρ c (Proc.devRef .tc main_call0_v13_0) = W65 m ρ c (Proc.devRef .tc main_call0_v13_0) :=
  (W66_arr m ρ c 0).trans (((dat32 (V65 m ρ) c).arrAt_in 0 rfl _).trans (A_eq32 (V65 m ρ) c 0))
/-- The incoming row is only read. -/
theorem exit_vin : W66 m ρ c (Proc.devRef .tc main_call0_v237) = W65 m ρ c (Proc.devRef .tc main_call0_v237) :=
  (W66_arr m ρ c 1).trans (((dat32 (V65 m ρ) c).arrAt_in 1 rfl _).trans (A_eq32 (V65 m ρ) c 1))
/-- A buffer that is none of the region's arrays is as at entry. -/
theorem exit_keep (b : Ref sig .tc) (hb : ∀ w, Pipeline.arrRef spec32 w ≠ b) :
    W66 m ρ c (Proc.devRef .tc b) = W65 m ρ c (Proc.devRef .tc b) := W66_of_ne m ρ c b hb

end Exit

end Cert.KernelIdeal.Region32

end
-- ==== Proof.Region33.lean ====
/-
  Region 33 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region33

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg33.N,
      win33_0.index t (0 : Fin 2) = win33_4.index t (1 : Fin 2) ∧ win33_0.index t (1 : Fin 2) = 0
    ∧ win33_1.index t (0 : Fin 2) = 0 ∧ win33_1.index t (1 : Fin 2) = 0
    ∧ win33_2.index t (0 : Fin 2) = 0 ∧ win33_2.index t (1 : Fin 2) = 0
    ∧ win33_3.index t (0 : Fin 2) = 0 ∧ win33_3.index t (1 : Fin 2) = win33_4.index t (1 : Fin 2)
    ∧ win33_4.index t (0 : Fin 2) = 0 ∧ win33_4.index t (1 : Fin 2) ≤ 7
    ∧ win33_5.index t (0 : Fin 2) = 0 ∧ win33_5.index t (1 : Fin 2) = win33_4.index t (1 : Fin 2) :=
  (by decide +kernel : ∀ t : Fin grid33.N, _)

/-- Every one of the eight blocks of the row is some point's. -/
theorem idx_onto : ∀ q : Fin 8, ∃ t : Fin cfg33.N, win33_4.index t = ![0, q.val] :=
  (by decide +kernel : ∀ q : Fin 8, ∃ t : Fin grid33.N, win33_4.index t = ![0, q.val])

/-- The row window's block is the whole row at every point. -/
theorem blk1 (c : Dev nD) (t : Fin cfg33.N) (k : Fin 8192) : iblk33 V c 1 t (ix2 0 k) = V c (Pipeline.arrRef spec33 1) (ix2 0 k) := by
  obtain ⟨e00, e01, e10, e11, e20, e21, e30, e31, e40, e41, e50, e51⟩ := idx_facts t
  show V c (Pipeline.arrRef spec33 1) (((cfg33.win 1).blk t).view.emb (ix2 0 k)) = V c (Pipeline.arrRef spec33 1) (ix2 0 k)
  refine congrArg _ (funext fun a => Fin.ext ?_)
  match a with
  | ⟨0, _⟩ => show win33_1.index t (0 : Fin 2) * 1 + 1 * 0 = 0; omega
  | ⟨1, _⟩ => show win33_1.index t (1 : Fin 2) * 8192 + 1 * k.val = k.val; omega

/-- The coefficient window's block is the one entry. -/
theorem blk2 (c : Dev nD) (t : Fin cfg33.N) : iblk33 V c 2 t (ix2 0 0) = V c (Pipeline.arrRef spec33 2) (ix2 0 0) := by
  obtain ⟨e00, e01, e10, e11, e20, e21, e30, e31, e40, e41, e50, e51⟩ := idx_facts t
  show V c (Pipeline.arrRef spec33 2) (((cfg33.win 2).blk t).view.emb (ix2 0 0)) = V c (Pipeline.arrRef spec33 2) (ix2 0 0)
  refine congrArg _ (funext fun a => Fin.ext ?_)
  match a with
  | ⟨0, _⟩ => show win33_2.index t (0 : Fin 2) * 1 + 1 * 0 = 0; omega
  | ⟨1, _⟩ => show win33_2.index t (1 : Fin 2) * 1 + 1 * 0 = 0; omega

/-- The matrix window's block at point t is rows 1024·t … of the matrix: its row q is row (block's column position) of the array. -/
theorem blk0 (c : Dev nD) (t : Fin cfg33.N) (q : Fin 1024) (k : Fin 8192) :
    iblk33 V c 0 t (ix2 q k) = V c (Pipeline.arrRef spec33 0) (ix2 ((((cfg33.win 4).blk t).view.emb (ix2 0 q)) 1) k) := by
  obtain ⟨e00, e01, e10, e11, e20, e21, e30, e31, e40, e41, e50, e51⟩ := idx_facts t
  show V c (Pipeline.arrRef spec33 0) (((cfg33.win 0).blk t).view.emb (ix2 q k)) = _
  refine congrArg _ (funext fun a => Fin.ext ?_)
  match a with
  | ⟨0, _⟩ => show win33_0.index t (0 : Fin 2) * 1024 + 1 * q.val = win33_4.index t (1 : Fin 2) * 1024 + 1 * q.val; omega
  | ⟨1, _⟩ => show win33_0.index t (1 : Fin 2) * 8192 + 1 * k.val = k.val; omega

/-- The incoming accumulator window's block at point t is the same stretch of the row as the outgoing ones'. -/
theorem blk3 (c : Dev nD) (t : Fin cfg33.N) (q : Fin 1024) :
    iblk33 V c 3 t (ix2 0 q) = V c (Pipeline.arrRef spec33 3) (((cfg33.win 5).blk t).view.emb (ix2 0 q)) := by
  obtain ⟨e00, e01, e10, e11, e20, e21, e30, e31, e40, e41, e50, e51⟩ := idx_facts t
  show V c (Pipeline.arrRef spec33 3) (((cfg33.win 3).blk t).view.emb (ix2 0 q)) = _
  refine congrArg _ (funext fun a => Fin.ext ?_)
  match a with
  | ⟨0, _⟩ => show win33_3.index t (0 : Fin 2) * 1 + 1 * 0 = win33_5.index t (0 : Fin 2) * 1 + 1 * 0; omega
  | ⟨1, _⟩ => show win33_3.index t (1 : Fin 2) * 1024 + 1 * q.val = win33_5.index t (1 : Fin 2) * 1024 + 1 * q.val; omega

set_option maxHeartbeats 4000000 in
/-- WHAT POINT t WRITES BACK to the product window: block t of the product row. -/
theorem flushed4_eq (c : Dev nD) (t : Fin cfg33.N) :
    (dat33 V c).flushed 4 t = ((cfg33.win 4).blk t).view.read (Elt Ideal)
      (Gv (V c (Pipeline.arrRef spec33 1)) (V c (Pipeline.arrRef spec33 0))) := by
  show (cfg33.win 4).cut (grid33.coords t) ((dat33 V c).after 4 t) = _
  rw [after33_4]
  unfold out33_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk33 V c 1 t) (iblk33 V c 0 t) q).trans ?_
  show mvRow (iblk33 V c 1 t) (iblk33 V c 0 t) q
    = mvRow (V c (Pipeline.arrRef spec33 1)) (V c (Pipeline.arrRef spec33 0)) ((((cfg33.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg33.N) :
    (dat33 V c).flushed 5 t = ((cfg33.win 5).blk t).view.read (Elt Ideal)
      (Gy (V c (Pipeline.arrRef spec33 1)) (V c (Pipeline.arrRef spec33 0)) (V c (Pipeline.arrRef spec33 2)) (V c (Pipeline.arrRef spec33 3))) := by
  show (cfg33.win 5).cut (grid33.coords t) ((dat33 V c).after 5 t) = _
  rw [after33_5]
  unfold out33_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk33 V c 1 t) (iblk33 V c 0 t) (iblk33 V c 2 t) (iblk33 V c 3 t) q).trans ?_
  refine Eq.trans ?_ (Gy_acc (V c (Pipeline.arrRef spec33 1)) (V c (Pipeline.arrRef spec33 0)) (V c (Pipeline.arrRef spec33 2)) (V c (Pipeline.arrRef spec33 3))
    (((cfg33.win 5).blk t).view.emb (ix2 0 q))).symm
  rw [blk3 V c t q, blk2 V c t]
  refine congrArg (accAt _ _) ?_
  unfold mvRow
  refine Finset.sum_congr rfl fun k _ => ?_
  have hX : (((cfg33.win 4).blk t).view.emb (ix2 0 q)) 1 = (((cfg33.win 5).blk t).view.emb (ix2 0 q)) 1 :=
    Fin.ext (by show win33_4.index t (1 : Fin 2) * 1024 + 1 * q.val = win33_5.index t (1 : Fin 2) * 1024 + 1 * q.val; omega)
  rw [blk1 V c t k, blk0 V c t q k, hX]

/-- An index of a [1,8192] output array is in point t's block iff each coordinate is in the block's range. -/
theorem mem_blk4 (t : Fin cfg33.N) (i : S1x8192.Idx) :
    i ∈ ((cfg33.win 4).blk t).view.set ↔ ∀ a : Fin 2, win33_4.index t a * S1x1024.size a ≤ (i a).val ∧ (i a).val < win33_4.index t a * S1x1024.size a + S1x1024.size a := by
  show i ∈ ((View.whole main_call0_v249_0).slice (win33_4.rect t)).set ↔ _
  rw [View.set_slice_whole, Rect.mem_set_unit]
  exact Iff.rfl
theorem mem_blk5 (t : Fin cfg33.N) (i : S1x8192.Idx) :
    i ∈ ((cfg33.win 5).blk t).view.set ↔ ∀ a : Fin 2, win33_5.index t a * S1x1024.size a ≤ (i a).val ∧ (i a).val < win33_5.index t a * S1x1024.size a + S1x1024.size a := by
  show i ∈ ((View.whole main_call0_v249_1).slice (win33_5.rect t)).set ↔ _
  rw [View.set_slice_whole, Rect.mem_set_unit]
  exact Iff.rfl

/-- The eight blocks cover the row: column n is in the block of the point whose block index is n / 1024. -/
theorem cover4 (i : S1x8192.Idx) : ∃ t : Fin cfg33.N, (cfg33.win 4).flush t = true ∧ i ∈ ((cfg33.win 4).blk t).view.set := by
  have hi0 : (i 0).val < 1 := (i 0).isLt
  have hi1 : (i 1).val < 8192 := (i 1).isLt
  obtain ⟨t, ht⟩ := idx_onto ⟨(i 1).val / 1024, by omega⟩
  have q0 : win33_4.index t (0 : Fin 2) = 0 := congrFun ht 0
  have q1 : win33_4.index t (1 : Fin 2) = (i 1).val / 1024 := congrFun ht 1
  refine ⟨t, flush33_4 t, ?_⟩
  rw [mem_blk4]
  intro a
  match a with
  | ⟨0, _⟩ => show win33_4.index t (0 : Fin 2) * 1 ≤ (i 0).val ∧ (i 0).val < win33_4.index t (0 : Fin 2) * 1 + 1; omega
  | ⟨1, _⟩ => show win33_4.index t (1 : Fin 2) * 1024 ≤ (i 1).val ∧ (i 1).val < win33_4.index t (1 : Fin 2) * 1024 + 1024; omega
theorem cover5 (i : S1x8192.Idx) : ∃ t : Fin cfg33.N, (cfg33.win 5).flush t = true ∧ i ∈ ((cfg33.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win33_4.index t (1 : Fin 2) = (i 1).val / 1024 := congrFun ht 1
  refine ⟨t, flush33_5 t, ?_⟩
  rw [mem_blk5]
  intro a
  match a with
  | ⟨0, _⟩ => show win33_5.index t (0 : Fin 2) * 1 ≤ (i 0).val ∧ (i 0).val < win33_5.index t (0 : Fin 2) * 1 + 1; omega
  | ⟨1, _⟩ => show win33_5.index t (1 : Fin 2) * 1024 ≤ (i 1).val ∧ (i 1).val < win33_5.index t (1 : Fin 2) * 1024 + 1024; omega

/-- THE PRODUCT ARRAY after the region. -/
theorem final4 (c : Dev nD) : (dat33 V c).arrAt 4 cfg33.N = Gv (V c (Pipeline.arrRef spec33 1)) (V c (Pipeline.arrRef spec33 0)) :=
  (dat33 V c).arrAt_eq_of_cover 4 _ (fun t _ => flushed4_eq V c t) cover4
/-- THE ACCUMULATOR ARRAY after the region. -/
theorem final5 (c : Dev nD) : (dat33 V c).arrAt 5 cfg33.N
    = Gy (V c (Pipeline.arrRef spec33 1)) (V c (Pipeline.arrRef spec33 0)) (V c (Pipeline.arrRef spec33 2)) (V c (Pipeline.arrRef spec33 3)) :=
  (dat33 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W68 m ρ c (Proc.devRef .tc main_call0_v249_0) = Gv (W67 m ρ c (Proc.devRef .tc main_call0_v245_0)) (W67 m ρ c (Proc.devRef .tc main_call0_v13_0)) :=
  (W68_arr m ρ c 4).trans (final4 (V67 m ρ) c)
/-- The accumulator buffer after the region. -/
theorem exit_y : W68 m ρ c (Proc.devRef .tc main_call0_v249_1)
    = Gy (W67 m ρ c (Proc.devRef .tc main_call0_v245_0)) (W67 m ρ c (Proc.devRef .tc main_call0_v13_0)) (W67 m ρ c (Proc.devRef .tc main_call0_v248)) (W67 m ρ c (Proc.devRef .tc main_call0_v245_1)) :=
  (W68_arr m ρ c 5).trans (final5 (V67 m ρ) c)
/-- The matrix is only read. -/
theorem exit_H : W68 m ρ c (Proc.devRef .tc main_call0_v13_0) = W67 m ρ c (Proc.devRef .tc main_call0_v13_0) :=
  (W68_arr m ρ c 0).trans (((dat33 (V67 m ρ) c).arrAt_in 0 rfl _).trans (A_eq33 (V67 m ρ) c 0))
/-- The incoming row is only read. -/
theorem exit_vin : W68 m ρ c (Proc.devRef .tc main_call0_v245_0) = W67 m ρ c (Proc.devRef .tc main_call0_v245_0) :=
  (W68_arr m ρ c 1).trans (((dat33 (V67 m ρ) c).arrAt_in 1 rfl _).trans (A_eq33 (V67 m ρ) c 1))
/-- A buffer that is none of the region's arrays is as at entry. -/
theorem exit_keep (b : Ref sig .tc) (hb : ∀ w, Pipeline.arrRef spec33 w ≠ b) :
    W68 m ρ c (Proc.devRef .tc b) = W67 m ρ c (Proc.devRef .tc b) := W68_of_ne m ρ c b hb

end Exit

end Cert.KernelIdeal.Region33

end
-- ==== Proof.Region34.lean ====
/-
  Region 34 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region34

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg34.N,
      win34_0.index t (0 : Fin 2) = win34_4.index t (1 : Fin 2) ∧ win34_0.index t (1 : Fin 2) = 0
    ∧ win34_1.index t (0 : Fin 2) = 0 ∧ win34_1.index t (1 : Fin 2) = 0
    ∧ win34_2.index t (0 : Fin 2) = 0 ∧ win34_2.index t (1 : Fin 2) = 0
    ∧ win34_3.index t (0 : Fin 2) = 0 ∧ win34_3.index t (1 : Fin 2) = win34_4.index t (1 : Fin 2)
    ∧ win34_4.index t (0 : Fin 2) = 0 ∧ win34_4.index t (1 : Fin 2) ≤ 7
    ∧ win34_5.index t (0 : Fin 2) = 0 ∧ win34_5.index t (1 : Fin 2) = win34_4.index t (1 : Fin 2) :=
  (by decide +kernel : ∀ t : Fin grid34.N, _)

/-- Every one of the eight blocks of the row is some point's. -/
theorem idx_onto : ∀ q : Fin 8, ∃ t : Fin cfg34.N, win34_4.index t = ![0, q.val] :=
  (by decide +kernel : ∀ q : Fin 8, ∃ t : Fin grid34.N, win34_4.index t = ![0, q.val])

/-- The row window's block is the whole row at every point. -/
theorem blk1 (c : Dev nD) (t : Fin cfg34.N) (k : Fin 8192) : iblk34 V c 1 t (ix2 0 k) = V c (Pipeline.arrRef spec34 1) (ix2 0 k) := by
  obtain ⟨e00, e01, e10, e11, e20, e21, e30, e31, e40, e41, e50, e51⟩ := idx_facts t
  show V c (Pipeline.arrRef spec34 1) (((cfg34.win 1).blk t).view.emb (ix2 0 k)) = V c (Pipeline.arrRef spec34 1) (ix2 0 k)
  refine congrArg _ (funext fun a => Fin.ext ?_)
  match a with
  | ⟨0, _⟩ => show win34_1.index t (0 : Fin 2) * 1 + 1 * 0 = 0; omega
  | ⟨1, _⟩ => show win34_1.index t (1 : Fin 2) * 8192 + 1 * k.val = k.val; omega

/-- The coefficient window's block is the one entry. -/
theorem blk2 (c : Dev nD) (t : Fin cfg34.N) : iblk34 V c 2 t (ix2 0 0) = V c (Pipeline.arrRef spec34 2) (ix2 0 0) := by
  obtain ⟨e00, e01, e10, e11, e20, e21, e30, e31, e40, e41, e50, e51⟩ := idx_facts t
  show V c (Pipeline.arrRef spec34 2) (((cfg34.win 2).blk t).view.emb (ix2 0 0)) = V c (Pipeline.arrRef spec34 2) (ix2 0 0)
  refine congrArg _ (funext fun a => Fin.ext ?_)
  match a with
  | ⟨0, _⟩ => show win34_2.index t (0 : Fin 2) * 1 + 1 * 0 = 0; omega
  | ⟨1, _⟩ => show win34_2.index t (1 : Fin 2) * 1 + 1 * 0 = 0; omega

/-- The matrix window's block at point t is rows 1024·t … of the matrix: its row q is row (block's column position) of the array. -/
theorem blk0 (c : Dev nD) (t : Fin cfg34.N) (q : Fin 1024) (k : Fin 8192) :
    iblk34 V c 0 t (ix2 q k) = V c (Pipeline.arrRef spec34 0) (ix2 ((((cfg34.win 4).blk t).view.emb (ix2 0 q)) 1) k) := by
  obtain ⟨e00, e01, e10, e11, e20, e21, e30, e31, e40, e41, e50, e51⟩ := idx_facts t
  show V c (Pipeline.arrRef spec34 0) (((cfg34.win 0).blk t).view.emb (ix2 q k)) = _
  refine congrArg _ (funext fun a => Fin.ext ?_)
  match a with
  | ⟨0, _⟩ => show win34_0.index t (0 : Fin 2) * 1024 + 1 * q.val = win34_4.index t (1 : Fin 2) * 1024 + 1 * q.val; omega
  | ⟨1, _⟩ => show win34_0.index t (1 : Fin 2) * 8192 + 1 * k.val = k.val; omega

/-- The incoming accumulator window's block at point t is the same stretch of the row as the outgoing ones'. -/
theorem blk3 (c : Dev nD) (t : Fin cfg34.N) (q : Fin 1024) :
    iblk34 V c 3 t (ix2 0 q) = V c (Pipeline.arrRef spec34 3) (((cfg34.win 5).blk t).view.emb (ix2 0 q)) := by
  obtain ⟨e00, e01, e10, e11, e20, e21, e30, e31, e40, e41, e50, e51⟩ := idx_facts t
  show V c (Pipeline.arrRef spec34 3) (((cfg34.win 3).blk t).view.emb (ix2 0 q)) = _
  refine congrArg _ (funext fun a => Fin.ext ?_)
  match a with
  | ⟨0, _⟩ => show win34_3.index t (0 : Fin 2) * 1 + 1 * 0 = win34_5.index t (0 : Fin 2) * 1 + 1 * 0; omega
  | ⟨1, _⟩ => show win34_3.index t (1 : Fin 2) * 1024 + 1 * q.val = win34_5.index t (1 : Fin 2) * 1024 + 1 * q.val; omega

set_option maxHeartbeats 4000000 in
/-- WHAT POINT t WRITES BACK to the product window: block t of the product row. -/
theorem flushed4_eq (c : Dev nD) (t : Fin cfg34.N) :
    (dat34 V c).flushed 4 t = ((cfg34.win 4).blk t).view.read (Elt Ideal)
      (Gv (V c (Pipeline.arrRef spec34 1)) (V c (Pipeline.arrRef spec34 0))) := by
  show (cfg34.win 4).cut (grid34.coords t) ((dat34 V c).after 4 t) = _
  rw [after34_4]
  unfold out34_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk34 V c 1 t) (iblk34 V c 0 t) q).trans ?_
  show mvRow (iblk34 V c 1 t) (iblk34 V c 0 t) q
    = mvRow (V c (Pipeline.arrRef spec34 1)) (V c (Pipeline.arrRef spec34 0)) ((((cfg34.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg34.N) :
    (dat34 V c).flushed 5 t = ((cfg34.win 5).blk t).view.read (Elt Ideal)
      (Gy (V c (Pipeline.arrRef spec34 1)) (V c (Pipeline.arrRef spec34 0)) (V c (Pipeline.arrRef spec34 2)) (V c (Pipeline.arrRef spec34 3))) := by
  show (cfg34.win 5).cut (grid34.coords t) ((dat34 V c).after 5 t) = _
  rw [after34_5]
  unfold out34_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk34 V c 1 t) (iblk34 V c 0 t) (iblk34 V c 2 t) (iblk34 V c 3 t) q).trans ?_
  refine Eq.trans ?_ (Gy_acc (V c (Pipeline.arrRef spec34 1)) (V c (Pipeline.arrRef spec34 0)) (V c (Pipeline.arrRef spec34 2)) (V c (Pipeline.arrRef spec34 3))
    (((cfg34.win 5).blk t).view.emb (ix2 0 q))).symm
  rw [blk3 V c t q, blk2 V c t]
  refine congrArg (accAt _ _) ?_
  unfold mvRow
  refine Finset.sum_congr rfl fun k _ => ?_
  have hX : (((cfg34.win 4).blk t).view.emb (ix2 0 q)) 1 = (((cfg34.win 5).blk t).view.emb (ix2 0 q)) 1 :=
    Fin.ext (by show win34_4.index t (1 : Fin 2) * 1024 + 1 * q.val = win34_5.index t (1 : Fin 2) * 1024 + 1 * q.val; omega)
  rw [blk1 V c t k, blk0 V c t q k, hX]

/-- An index of a [1,8192] output array is in point t's block iff each coordinate is in the block's range. -/
theorem mem_blk4 (t : Fin cfg34.N) (i : S1x8192.Idx) :
    i ∈ ((cfg34.win 4).blk t).view.set ↔ ∀ a : Fin 2, win34_4.index t a * S1x1024.size a ≤ (i a).val ∧ (i a).val < win34_4.index t a * S1x1024.size a + S1x1024.size a := by
  show i ∈ ((View.whole main_call0_v253_0).slice (win34_4.rect t)).set ↔ _
  rw [View.set_slice_whole, Rect.mem_set_unit]
  exact Iff.rfl
theorem mem_blk5 (t : Fin cfg34.N) (i : S1x8192.Idx) :
    i ∈ ((cfg34.win 5).blk t).view.set ↔ ∀ a : Fin 2, win34_5.index t a * S1x1024.size a ≤ (i a).val ∧ (i a).val < win34_5.index t a * S1x1024.size a + S1x1024.size a := by
  show i ∈ ((View.whole main_call0_v253_1).slice (win34_5.rect t)).set ↔ _
  rw [View.set_slice_whole, Rect.mem_set_unit]
  exact Iff.rfl

/-- The eight blocks cover the row: column n is in the block of the point whose block index is n / 1024. -/
theorem cover4 (i : S1x8192.Idx) : ∃ t : Fin cfg34.N, (cfg34.win 4).flush t = true ∧ i ∈ ((cfg34.win 4).blk t).view.set := by
  have hi0 : (i 0).val < 1 := (i 0).isLt
  have hi1 : (i 1).val < 8192 := (i 1).isLt
  obtain ⟨t, ht⟩ := idx_onto ⟨(i 1).val / 1024, by omega⟩
  have q0 : win34_4.index t (0 : Fin 2) = 0 := congrFun ht 0
  have q1 : win34_4.index t (1 : Fin 2) = (i 1).val / 1024 := congrFun ht 1
  refine ⟨t, flush34_4 t, ?_⟩
  rw [mem_blk4]
  intro a
  match a with
  | ⟨0, _⟩ => show win34_4.index t (0 : Fin 2) * 1 ≤ (i 0).val ∧ (i 0).val < win34_4.index t (0 : Fin 2) * 1 + 1; omega
  | ⟨1, _⟩ => show win34_4.index t (1 : Fin 2) * 1024 ≤ (i 1).val ∧ (i 1).val < win34_4.index t (1 : Fin 2) * 1024 + 1024; omega
theorem cover5 (i : S1x8192.Idx) : ∃ t : Fin cfg34.N, (cfg34.win 5).flush t = true ∧ i ∈ ((cfg34.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win34_4.index t (1 : Fin 2) = (i 1).val / 1024 := congrFun ht 1
  refine ⟨t, flush34_5 t, ?_⟩
  rw [mem_blk5]
  intro a
  match a with
  | ⟨0, _⟩ => show win34_5.index t (0 : Fin 2) * 1 ≤ (i 0).val ∧ (i 0).val < win34_5.index t (0 : Fin 2) * 1 + 1; omega
  | ⟨1, _⟩ => show win34_5.index t (1 : Fin 2) * 1024 ≤ (i 1).val ∧ (i 1).val < win34_5.index t (1 : Fin 2) * 1024 + 1024; omega

/-- THE PRODUCT ARRAY after the region. -/
theorem final4 (c : Dev nD) : (dat34 V c).arrAt 4 cfg34.N = Gv (V c (Pipeline.arrRef spec34 1)) (V c (Pipeline.arrRef spec34 0)) :=
  (dat34 V c).arrAt_eq_of_cover 4 _ (fun t _ => flushed4_eq V c t) cover4
/-- THE ACCUMULATOR ARRAY after the region. -/
theorem final5 (c : Dev nD) : (dat34 V c).arrAt 5 cfg34.N
    = Gy (V c (Pipeline.arrRef spec34 1)) (V c (Pipeline.arrRef spec34 0)) (V c (Pipeline.arrRef spec34 2)) (V c (Pipeline.arrRef spec34 3)) :=
  (dat34 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W70 m ρ c (Proc.devRef .tc main_call0_v253_0) = Gv (W69 m ρ c (Proc.devRef .tc main_call0_v249_0)) (W69 m ρ c (Proc.devRef .tc main_call0_v13_0)) :=
  (W70_arr m ρ c 4).trans (final4 (V69 m ρ) c)
/-- The accumulator buffer after the region. -/
theorem exit_y : W70 m ρ c (Proc.devRef .tc main_call0_v253_1)
    = Gy (W69 m ρ c (Proc.devRef .tc main_call0_v249_0)) (W69 m ρ c (Proc.devRef .tc main_call0_v13_0)) (W69 m ρ c (Proc.devRef .tc main_call0_v252)) (W69 m ρ c (Proc.devRef .tc main_call0_v249_1)) :=
  (W70_arr m ρ c 5).trans (final5 (V69 m ρ) c)
/-- The matrix is only read. -/
theorem exit_H : W70 m ρ c (Proc.devRef .tc main_call0_v13_0) = W69 m ρ c (Proc.devRef .tc main_call0_v13_0) :=
  (W70_arr m ρ c 0).trans (((dat34 (V69 m ρ) c).arrAt_in 0 rfl _).trans (A_eq34 (V69 m ρ) c 0))
/-- The incoming row is only read. -/
theorem exit_vin : W70 m ρ c (Proc.devRef .tc main_call0_v249_0) = W69 m ρ c (Proc.devRef .tc main_call0_v249_0) :=
  (W70_arr m ρ c 1).trans (((dat34 (V69 m ρ) c).arrAt_in 1 rfl _).trans (A_eq34 (V69 m ρ) c 1))
/-- A buffer that is none of the region's arrays is as at entry. -/
theorem exit_keep (b : Ref sig .tc) (hb : ∀ w, Pipeline.arrRef spec34 w ≠ b) :
    W70 m ρ c (Proc.devRef .tc b) = W69 m ρ c (Proc.devRef .tc b) := W70_of_ne m ρ c b hb

end Exit

end Cert.KernelIdeal.Region34

end
-- ==== Proof.Region35.lean ====
/-
  Region 35 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region35

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg35.N,
      win35_0.index t (0 : Fin 2) = win35_4.index t (1 : Fin 2) ∧ win35_0.index t (1 : Fin 2) = 0
    ∧ win35_1.index t (0 : Fin 2) = 0 ∧ win35_1.index t (1 : Fin 2) = 0
    ∧ win35_2.index t (0 : Fin 2) = 0 ∧ win35_2.index t (1 : Fin 2) = 0
    ∧ win35_3.index t (0 : Fin 2) = 0 ∧ win35_3.index t (1 : Fin 2) = win35_4.index t (1 : Fin 2)
    ∧ win35_4.index t (0 : Fin 2) = 0 ∧ win35_4.index t (1 : Fin 2) ≤ 7
    ∧ win35_5.index t (0 : Fin 2) = 0 ∧ win35_5.index t (1 : Fin 2) = win35_4.index t (1 : Fin 2) :=
  (by decide +kernel : ∀ t : Fin grid35.N, _)

/-- Every one of the eight blocks of the row is some point's. -/
theorem idx_onto : ∀ q : Fin 8, ∃ t : Fin cfg35.N, win35_4.index t = ![0, q.val] :=
  (by decide +kernel : ∀ q : Fin 8, ∃ t : Fin grid35.N, win35_4.index t = ![0, q.val])

/-- The row window's block is the whole row at every point. -/
theorem blk1 (c : Dev nD) (t : Fin cfg35.N) (k : Fin 8192) : iblk35 V c 1 t (ix2 0 k) = V c (Pipeline.arrRef spec35 1) (ix2 0 k) := by
  obtain ⟨e00, e01, e10, e11, e20, e21, e30, e31, e40, e41, e50, e51⟩ := idx_facts t
  show V c (Pipeline.arrRef spec35 1) (((cfg35.win 1).blk t).view.emb (ix2 0 k)) = V c (Pipeline.arrRef spec35 1) (ix2 0 k)
  refine congrArg _ (funext fun a => Fin.ext ?_)
  match a with
  | ⟨0, _⟩ => show win35_1.index t (0 : Fin 2) * 1 + 1 * 0 = 0; omega
  | ⟨1, _⟩ => show win35_1.index t (1 : Fin 2) * 8192 + 1 * k.val = k.val; omega

/-- The coefficient window's block is the one entry. -/
theorem blk2 (c : Dev nD) (t : Fin cfg35.N) : iblk35 V c 2 t (ix2 0 0) = V c (Pipeline.arrRef spec35 2) (ix2 0 0) := by
  obtain ⟨e00, e01, e10, e11, e20, e21, e30, e31, e40, e41, e50, e51⟩ := idx_facts t
  show V c (Pipeline.arrRef spec35 2) (((cfg35.win 2).blk t).view.emb (ix2 0 0)) = V c (Pipeline.arrRef spec35 2) (ix2 0 0)
  refine congrArg _ (funext fun a => Fin.ext ?_)
  match a with
  | ⟨0, _⟩ => show win35_2.index t (0 : Fin 2) * 1 + 1 * 0 = 0; omega
  | ⟨1, _⟩ => show win35_2.index t (1 : Fin 2) * 1 + 1 * 0 = 0; omega

/-- The matrix window's block at point t is rows 1024·t … of the matrix: its row q is row (block's column position) of the array. -/
theorem blk0 (c : Dev nD) (t : Fin cfg35.N) (q : Fin 1024) (k : Fin 8192) :
    iblk35 V c 0 t (ix2 q k) = V c (Pipeline.arrRef spec35 0) (ix2 ((((cfg35.win 4).blk t).view.emb (ix2 0 q)) 1) k) := by
  obtain ⟨e00, e01, e10, e11, e20, e21, e30, e31, e40, e41, e50, e51⟩ := idx_facts t
  show V c (Pipeline.arrRef spec35 0) (((cfg35.win 0).blk t).view.emb (ix2 q k)) = _
  refine congrArg _ (funext fun a => Fin.ext ?_)
  match a with
  | ⟨0, _⟩ => show win35_0.index t (0 : Fin 2) * 1024 + 1 * q.val = win35_4.index t (1 : Fin 2) * 1024 + 1 * q.val; omega
  | ⟨1, _⟩ => show win35_0.index t (1 : Fin 2) * 8192 + 1 * k.val = k.val; omega

/-- The incoming accumulator window's block at point t is the same stretch of the row as the outgoing ones'. -/
theorem blk3 (c : Dev nD) (t : Fin cfg35.N) (q : Fin 1024) :
    iblk35 V c 3 t (ix2 0 q) = V c (Pipeline.arrRef spec35 3) (((cfg35.win 5).blk t).view.emb (ix2 0 q)) := by
  obtain ⟨e00, e01, e10, e11, e20, e21, e30, e31, e40, e41, e50, e51⟩ := idx_facts t
  show V c (Pipeline.arrRef spec35 3) (((cfg35.win 3).blk t).view.emb (ix2 0 q)) = _
  refine congrArg _ (funext fun a => Fin.ext ?_)
  match a with
  | ⟨0, _⟩ => show win35_3.index t (0 : Fin 2) * 1 + 1 * 0 = win35_5.index t (0 : Fin 2) * 1 + 1 * 0; omega
  | ⟨1, _⟩ => show win35_3.index t (1 : Fin 2) * 1024 + 1 * q.val = win35_5.index t (1 : Fin 2) * 1024 + 1 * q.val; omega

set_option maxHeartbeats 4000000 in
/-- WHAT POINT t WRITES BACK to the product window: block t of the product row. -/
theorem flushed4_eq (c : Dev nD) (t : Fin cfg35.N) :
    (dat35 V c).flushed 4 t = ((cfg35.win 4).blk t).view.read (Elt Ideal)
      (Gv (V c (Pipeline.arrRef spec35 1)) (V c (Pipeline.arrRef spec35 0))) := by
  show (cfg35.win 4).cut (grid35.coords t) ((dat35 V c).after 4 t) = _
  rw [after35_4]
  unfold out35_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk35 V c 1 t) (iblk35 V c 0 t) q).trans ?_
  show mvRow (iblk35 V c 1 t) (iblk35 V c 0 t) q
    = mvRow (V c (Pipeline.arrRef spec35 1)) (V c (Pipeline.arrRef spec35 0)) ((((cfg35.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg35.N) :
    (dat35 V c).flushed 5 t = ((cfg35.win 5).blk t).view.read (Elt Ideal)
      (Gy (V c (Pipeline.arrRef spec35 1)) (V c (Pipeline.arrRef spec35 0)) (V c (Pipeline.arrRef spec35 2)) (V c (Pipeline.arrRef spec35 3))) := by
  show (cfg35.win 5).cut (grid35.coords t) ((dat35 V c).after 5 t) = _
  rw [after35_5]
  unfold out35_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk35 V c 1 t) (iblk35 V c 0 t) (iblk35 V c 2 t) (iblk35 V c 3 t) q).trans ?_
  refine Eq.trans ?_ (Gy_acc (V c (Pipeline.arrRef spec35 1)) (V c (Pipeline.arrRef spec35 0)) (V c (Pipeline.arrRef spec35 2)) (V c (Pipeline.arrRef spec35 3))
    (((cfg35.win 5).blk t).view.emb (ix2 0 q))).symm
  rw [blk3 V c t q, blk2 V c t]
  refine congrArg (accAt _ _) ?_
  unfold mvRow
  refine Finset.sum_congr rfl fun k _ => ?_
  have hX : (((cfg35.win 4).blk t).view.emb (ix2 0 q)) 1 = (((cfg35.win 5).blk t).view.emb (ix2 0 q)) 1 :=
    Fin.ext (by show win35_4.index t (1 : Fin 2) * 1024 + 1 * q.val = win35_5.index t (1 : Fin 2) * 1024 + 1 * q.val; omega)
  rw [blk1 V c t k, blk0 V c t q k, hX]

/-- An index of a [1,8192] output array is in point t's block iff each coordinate is in the block's range. -/
theorem mem_blk4 (t : Fin cfg35.N) (i : S1x8192.Idx) :
    i ∈ ((cfg35.win 4).blk t).view.set ↔ ∀ a : Fin 2, win35_4.index t a * S1x1024.size a ≤ (i a).val ∧ (i a).val < win35_4.index t a * S1x1024.size a + S1x1024.size a := by
  show i ∈ ((View.whole main_call0_v257_0).slice (win35_4.rect t)).set ↔ _
  rw [View.set_slice_whole, Rect.mem_set_unit]
  exact Iff.rfl
theorem mem_blk5 (t : Fin cfg35.N) (i : S1x8192.Idx) :
    i ∈ ((cfg35.win 5).blk t).view.set ↔ ∀ a : Fin 2, win35_5.index t a * S1x1024.size a ≤ (i a).val ∧ (i a).val < win35_5.index t a * S1x1024.size a + S1x1024.size a := by
  show i ∈ ((View.whole main_call0_v257_1).slice (win35_5.rect t)).set ↔ _
  rw [View.set_slice_whole, Rect.mem_set_unit]
  exact Iff.rfl

/-- The eight blocks cover the row: column n is in the block of the point whose block index is n / 1024. -/
theorem cover4 (i : S1x8192.Idx) : ∃ t : Fin cfg35.N, (cfg35.win 4).flush t = true ∧ i ∈ ((cfg35.win 4).blk t).view.set := by
  have hi0 : (i 0).val < 1 := (i 0).isLt
  have hi1 : (i 1).val < 8192 := (i 1).isLt
  obtain ⟨t, ht⟩ := idx_onto ⟨(i 1).val / 1024, by omega⟩
  have q0 : win35_4.index t (0 : Fin 2) = 0 := congrFun ht 0
  have q1 : win35_4.index t (1 : Fin 2) = (i 1).val / 1024 := congrFun ht 1
  refine ⟨t, flush35_4 t, ?_⟩
  rw [mem_blk4]
  intro a
  match a with
  | ⟨0, _⟩ => show win35_4.index t (0 : Fin 2) * 1 ≤ (i 0).val ∧ (i 0).val < win35_4.index t (0 : Fin 2) * 1 + 1; omega
  | ⟨1, _⟩ => show win35_4.index t (1 : Fin 2) * 1024 ≤ (i 1).val ∧ (i 1).val < win35_4.index t (1 : Fin 2) * 1024 + 1024; omega
theorem cover5 (i : S1x8192.Idx) : ∃ t : Fin cfg35.N, (cfg35.win 5).flush t = true ∧ i ∈ ((cfg35.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win35_4.index t (1 : Fin 2) = (i 1).val / 1024 := congrFun ht 1
  refine ⟨t, flush35_5 t, ?_⟩
  rw [mem_blk5]
  intro a
  match a with
  | ⟨0, _⟩ => show win35_5.index t (0 : Fin 2) * 1 ≤ (i 0).val ∧ (i 0).val < win35_5.index t (0 : Fin 2) * 1 + 1; omega
  | ⟨1, _⟩ => show win35_5.index t (1 : Fin 2) * 1024 ≤ (i 1).val ∧ (i 1).val < win35_5.index t (1 : Fin 2) * 1024 + 1024; omega

/-- THE PRODUCT ARRAY after the region. -/
theorem final4 (c : Dev nD) : (dat35 V c).arrAt 4 cfg35.N = Gv (V c (Pipeline.arrRef spec35 1)) (V c (Pipeline.arrRef spec35 0)) :=
  (dat35 V c).arrAt_eq_of_cover 4 _ (fun t _ => flushed4_eq V c t) cover4
/-- THE ACCUMULATOR ARRAY after the region. -/
theorem final5 (c : Dev nD) : (dat35 V c).arrAt 5 cfg35.N
    = Gy (V c (Pipeline.arrRef spec35 1)) (V c (Pipeline.arrRef spec35 0)) (V c (Pipeline.arrRef spec35 2)) (V c (Pipeline.arrRef spec35 3)) :=
  (dat35 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W72 m ρ c (Proc.devRef .tc main_call0_v257_0) = Gv (W71 m ρ c (Proc.devRef .tc main_call0_v253_0)) (W71 m ρ c (Proc.devRef .tc main_call0_v13_0)) :=
  (W72_arr m ρ c 4).trans (final4 (V71 m ρ) c)
/-- The accumulator buffer after the region. -/
theorem exit_y : W72 m ρ c (Proc.devRef .tc main_call0_v257_1)
    = Gy (W71 m ρ c (Proc.devRef .tc main_call0_v253_0)) (W71 m ρ c (Proc.devRef .tc main_call0_v13_0)) (W71 m ρ c (Proc.devRef .tc main_call0_v256)) (W71 m ρ c (Proc.devRef .tc main_call0_v253_1)) :=
  (W72_arr m ρ c 5).trans (final5 (V71 m ρ) c)
/-- The matrix is only read. -/
theorem exit_H : W72 m ρ c (Proc.devRef .tc main_call0_v13_0) = W71 m ρ c (Proc.devRef .tc main_call0_v13_0) :=
  (W72_arr m ρ c 0).trans (((dat35 (V71 m ρ) c).arrAt_in 0 rfl _).trans (A_eq35 (V71 m ρ) c 0))
/-- The incoming row is only read. -/
theorem exit_vin : W72 m ρ c (Proc.devRef .tc main_call0_v253_0) = W71 m ρ c (Proc.devRef .tc main_call0_v253_0) :=
  (W72_arr m ρ c 1).trans (((dat35 (V71 m ρ) c).arrAt_in 1 rfl _).trans (A_eq35 (V71 m ρ) c 1))
/-- A buffer that is none of the region's arrays is as at entry. -/
theorem exit_keep (b : Ref sig .tc) (hb : ∀ w, Pipeline.arrRef spec35 w ≠ b) :
    W72 m ρ c (Proc.devRef .tc b) = W71 m ρ c (Proc.devRef .tc b) := W72_of_ne m ρ c b hb

end Exit

end Cert.KernelIdeal.Region35

end
-- ==== Proof.KLayer8.lean ====
/-
  Layer 8 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region32
import proofs.«144169_j55405078119367_2_alg».proof.Proof.Region33
import proofs.«144169_j55405078119367_2_alg».proof.Proof.Region34
import proofs.«144169_j55405078119367_2_alg».proof.Proof.Region35

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 8 = (1, 3). -/
theorem layer8 (X : FVec Ideal Cert.ReferenceIdeal.S8192x1 .f32) (HnB : (⟨2, ![8192, 8192]⟩ : Shape).Idx → EReal)
    (A : FVec Ideal Cert.ReferenceIdeal.S2x5x5 .f32)
    (A65 : W65 m ρ c (Proc.devRef .tc main_arg2) = A)
    (H65 : (W65 m ρ c (Proc.devRef .tc main_call0_v13_0) : (⟨2, ![8192, 8192]⟩ : Shape).Idx → EReal) = HnB)
    (v65 : toCol (W65 m ρ c (Proc.devRef .tc main_call0_v237)) = X)
    (y65 : toCol (W65 m ρ c (Proc.devRef .tc main_call0_v241)) = (Spec.sc (F := Ideal) (Spec.coef (F := Ideal) ![1, 3, 0] Cert.ReferenceIdeal.Gen.slices_S2x5x5_S1x1x1_1_3_0 A) X))
    (a65 : W65 m ρ c (Proc.devRef .tc main_call0_v244) = as11 (Spec.coef (F := Ideal) ![1, 3, 1] Cert.ReferenceIdeal.Gen.slices_S2x5x5_S1x1x1_1_3_1 A)) :
    W73 m ρ c (Proc.devRef .tc main_arg2) = A
    ∧ (W73 m ρ c (Proc.devRef .tc main_call0_v13_0) : (⟨2, ![8192, 8192]⟩ : Shape).Idx → EReal) = HnB
    ∧ toCol (W73 m ρ c (Proc.devRef .tc main_call0_v266)) = (Spec.layer13 (F := Ideal) A HnB X)
    ∧ toCol (W73 m ρ c (Proc.devRef .tc main_call0_v270)) = Spec.sc (F := Ideal) (Spec.coef (F := Ideal) ![1, 4, 0] Cert.ReferenceIdeal.Gen.slices_S2x5x5_S1x1x1_1_4_0 A) (Spec.layer13 (F := Ideal) A HnB X)
    ∧ W73 m ρ c (Proc.devRef .tc main_call0_v273) = as11 (Spec.coef (F := Ideal) ![1, 4, 1] Cert.ReferenceIdeal.Gen.slices_S2x5x5_S1x1x1_1_4_1 A)
    ∧ W73 m ρ c (Proc.devRef .tc main_call0_v150) = W65 m ρ c (Proc.devRef .tc main_call0_v150) := by
  have C65 : W65 m ρ c (Proc.devRef .tc main_call0_v150) = W65 m ρ c (Proc.devRef .tc main_call0_v150) := rfl
  -- region 32: tap 1
  have H66 : (W66 m ρ c (Proc.devRef .tc main_call0_v13_0) : (⟨2, ![8192, 8192]⟩ : Shape).Idx → EReal) = HnB := (Region32.exit_H m ρ c).trans H65
  have A66 : W66 m ρ c (Proc.devRef .tc main_arg2) = A := (Region32.exit_keep m ρ c main_arg2 (by decide)).trans A65
  have v66 : toCol (W66 m ρ c (Proc.devRef .tc main_call0_v245_0)) = (Spec.mv (F := Ideal) HnB X) := by
    rw [Region32.exit_v m ρ c, toCol_Gv, v65]; exact congrArg (fun h => Spec.mv (F := Ideal) h X) H65
  have y66 : toCol (W66 m ρ c (Proc.devRef .tc main_call0_v245_1)) = (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) := by
    rw [Region32.exit_y m ρ c, a65, toCol_Gy, v65, y65]; exact congrArg (fun h => addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) h X))) H65
  have C66 : W66 m ρ c (Proc.devRef .tc main_call0_v150) = W65 m ρ c (Proc.devRef .tc main_call0_v150) := (Region32.exit_keep m ρ c main_call0_v150 (by decide)).trans C65
  -- stretch 33: the next coefficient
  have A67 : W67 m ρ c (Proc.devRef .tc main_arg2) = A := (keep33 (W66 m ρ c) main_arg2 (by decide)).trans A66
  have H67 : (W67 m ρ c (Proc.devRef .tc main_call0_v13_0) : (⟨2, ![8192, 8192]⟩ : Shape).Idx → EReal) = HnB := (keep33 (W66 m ρ c) main_call0_v13_0 (by decide)).trans H66
  have v67 : toCol (W67 m ρ c (Proc.devRef .tc main_call0_v245_0)) = (Spec.mv (F := Ideal) HnB X) := (congrArg toCol (keep33 (W66 m ρ c) main_call0_v245_0 (by decide))).trans v66
  have y67 : toCol (W67 m ρ c (Proc.devRef .tc main_call0_v245_1)) = (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) := (congrArg toCol (keep33 (W66 m ρ c) main_call0_v245_1 (by decide))).trans y66
  have a67 : W67 m ρ c (Proc.devRef .tc main_call0_v248) = as11 (Spec.coef (F := Ideal) ![1, 3, 2] Cert.ReferenceIdeal.Gen.slices_S2x5x5_S1x1x1_1_3_2 A) := (h33_a (W66 m ρ c)).trans (by rw [A66])
  have C67 : W67 m ρ c (Proc.devRef .tc main_call0_v150) = W65 m ρ c (Proc.devRef .tc main_call0_v150) := (keep33 (W66 m ρ c) main_call0_v150 (by decide)).trans C66
  -- region 33: tap 2
  have H68 : (W68 m ρ c (Proc.devRef .tc main_call0_v13_0) : (⟨2, ![8192, 8192]⟩ : Shape).Idx → EReal) = HnB := (Region33.exit_H m ρ c).trans H67
  have A68 : W68 m ρ c (Proc.devRef .tc main_arg2) = A := (Region33.exit_keep m ρ c main_arg2 (by decide)).trans A67
  have v68 : toCol (W68 m ρ c (Proc.devRef .tc main_call0_v249_0)) = (Spec.mv (F := Ideal) HnB (Spec.mv (F := Ideal) HnB X)) := by
    rw [Region33.exit_v m ρ c, toCol_Gv, v67]; exact congrArg (fun h => Spec.mv (F := Ideal) h (Spec.mv (F := Ideal) HnB X)) H67
  have y68 : toCol (W68 m ρ c (Proc.devRef .tc main_call0_v249_1)) = (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) := by
    rw [Region33.exit_y m ρ c, a67, toCol_Gy, v67, y67]; exact congrArg (fun h => addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) h (Spec.mv (F := Ideal) HnB X)))) H67
  have C68 : W68 m ρ c (Proc.devRef .tc main_call0_v150) = W65 m ρ c (Proc.devRef .tc main_call0_v150) := (Region33.exit_keep m ρ c main_call0_v150 (by decide)).trans C67
  -- stretch 34: the next coefficient
  have A69 : W69 m ρ c (Proc.devRef .tc main_arg2) = A := (keep34 (W68 m ρ c) main_arg2 (by decide)).trans A68
  have H69 : (W69 m ρ c (Proc.devRef .tc main_call0_v13_0) : (⟨2, ![8192, 8192]⟩ : Shape).Idx → EReal) = HnB := (keep34 (W68 m ρ c) main_call0_v13_0 (by decide)).trans H68
  have v69 : toCol (W69 m ρ c (Proc.devRef .tc main_call0_v249_0)) = (Spec.mv (F := Ideal) HnB (Spec.mv (F := Ideal) HnB X)) := (congrArg toCol (keep34 (W68 m ρ c) main_call0_v249_0 (by decide))).trans v68
  have y69 : toCol (W69 m ρ c (Proc.devRef .tc main_call0_v249_1)) = (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) := (congrArg toCol (keep34 (W68 m ρ c) main_call0_v249_1 (by decide))).trans y68
  have a69 : W69 m ρ c (Proc.devRef .tc main_call0_v252) = as11 (Spec.coef (F := Ideal) ![1, 3, 3] Cert.ReferenceIdeal.Gen.slices_S2x5x5_S1x1x1_1_3_3 A) := (h34_a (W68 m ρ c)).trans (by rw [A68])
  have C69 : W69 m ρ c (Proc.devRef .tc main_call0_v150) = W65 m ρ c (Proc.devRef .tc main_call0_v150) := (keep34 (W68 m ρ c) main_call0_v150 (by decide)).trans C68
  -- region 34: tap 3
  have H70 : (W70 m ρ c (Proc.devRef .tc main_call0_v13_0) : (⟨2, ![8192, 8192]⟩ : Shape).Idx → EReal) = HnB := (Region34.exit_H m ρ c).trans H69
  have A70 : W70 m ρ c (Proc.devRef .tc main_arg2) = A := (Region34.exit_keep m ρ c main_arg2 (by decide)).trans A69
  have v70 : toCol (W70 m ρ c (Proc.devRef .tc main_call0_v253_0)) = (Spec.mv (F := Ideal) HnB (Spec.mv (F := Ideal) HnB (Spec.mv (F := Ideal) HnB X))) := by
    rw [Region34.exit_v m ρ c, toCol_Gv, v69]; exact congrArg (fun h => Spec.mv (F := Ideal) h (Spec.mv (F := Ideal) HnB (Spec.mv (F := Ideal) HnB X))) H69
  have y70 : toCol (W70 m ρ c (Proc.devRef .tc main_call0_v253_1)) = (addf (F := Ideal) (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) (Spec.sc (F := Ideal) (Spec.coef (F := Ideal) ![1, 3, 3] Cert.ReferenceIdeal.Gen.slices_S2x5x5_S1x1x1_1_3_3 A) (Spec.mv (F := Ideal) HnB (Spec.mv (F := Ideal) HnB (Spec.mv (F := Ideal) HnB X))))) := by
    rw [Region34.exit_y m ρ c, a69, toCol_Gy, v69, y69]; exact congrArg (fun h => addf (F := Ideal) (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) (Spec.sc (F := Ideal) (Spec.coef (F := Ideal) ![1, 3, 3] Cert.ReferenceIdeal.Gen.slices_S2x5x5_S1x1x1_1_3_3 A) (Spec.mv (F := Ideal) h (Spec.mv (F := Ideal) HnB (Spec.mv (F := Ideal) HnB X))))) H69
  have C70 : W70 m ρ c (Proc.devRef .tc main_call0_v150) = W65 m ρ c (Proc.devRef .tc main_call0_v150) := (Region34.exit_keep m ρ c main_call0_v150 (by decide)).trans C69
  -- stretch 35: the next coefficient
  have A71 : W71 m ρ c (Proc.devRef .tc main_arg2) = A := (keep35 (W70 m ρ c) main_arg2 (by decide)).trans A70
  have H71 : (W71 m ρ c (Proc.devRef .tc main_call0_v13_0) : (⟨2, ![8192, 8192]⟩ : Shape).Idx → EReal) = HnB := (keep35 (W70 m ρ c) main_call0_v13_0 (by decide)).trans H70
  have v71 : toCol (W71 m ρ c (Proc.devRef .tc main_call0_v253_0)) = (Spec.mv (F := Ideal) HnB (Spec.mv (F := Ideal) HnB (Spec.mv (F := Ideal) HnB X))) := (congrArg toCol (keep35 (W70 m ρ c) main_call0_v253_0 (by decide))).trans v70
  have y71 : toCol (W71 m ρ c (Proc.devRef .tc main_call0_v253_1)) = (addf (F := Ideal) (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) (Spec.sc (F := Ideal) (Spec.coef (F := Ideal) ![1, 3, 3] Cert.ReferenceIdeal.Gen.slices_S2x5x5_S1x1x1_1_3_3 A) (Spec.mv (F := Ideal) HnB (Spec.mv (F := Ideal) HnB (Spec.mv (F := Ideal) HnB X))))) := (congrArg toCol (keep35 (W70 m ρ c) main_call0_v253_1 (by decide))).trans y70
  have a71 : W71 m ρ c (Proc.devRef .tc main_call0_v256) = as11 (Spec.coef (F := Ideal) ![1, 3, 4] Cert.ReferenceIdeal.Gen.slices_S2x5x5_S1x1x1_1_3_4 A) := (h35_a (W70 m ρ c)).trans (by rw [A70])
  have C71 : W71 m ρ c (Proc.devRef .tc main_call0_v150) = W65 m ρ c (Proc.devRef .tc main_call0_v150) := (keep35 (W70 m ρ c) main_call0_v150 (by decide)).trans C70
  -- region 35: tap 4
  have H72 : (W72 m ρ c (Proc.devRef .tc main_call0_v13_0) : (⟨2, ![8192, 8192]⟩ : Shape).Idx → EReal) = HnB := (Region35.exit_H m ρ c).trans H71
  have A72 : W72 m ρ c (Proc.devRef .tc main_arg2) = A := (Region35.exit_keep m ρ c main_arg2 (by decide)).trans A71
  have v72 : toCol (W72 m ρ c (Proc.devRef .tc main_call0_v257_0)) = (Spec.mv (F := Ideal) HnB (Spec.mv (F := Ideal) HnB (Spec.mv (F := Ideal) HnB (Spec.mv (F := Ideal) HnB X)))) := by
    rw [Region35.exit_v m ρ c, toCol_Gv, v71]; exact congrArg (fun h => Spec.mv (F := Ideal) h (Spec.mv (F := Ideal) HnB (Spec.mv (F := Ideal) HnB (Spec.mv (F := Ideal) HnB X)))) H71
  have y72 : toCol (W72 m ρ c (Proc.devRef .tc main_call0_v257_1)) = (addf (F := Ideal) (addf (F := Ideal) (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) (Spec.sc (F := Ideal) (Spec.coef (F := Ideal) ![1, 3, 3] Cert.ReferenceIdeal.Gen.slices_S2x5x5_S1x1x1_1_3_3 A) (Spec.mv (F := Ideal) HnB (Spec.mv (F := Ideal) HnB (Spec.mv (F := Ideal) HnB X))))) (Spec.sc (F := Ideal) (Spec.coef (F := Ideal) ![1, 3, 4] Cert.ReferenceIdeal.Gen.slices_S2x5x5_S1x1x1_1_3_4 A) (Spec.mv (F := Ideal) HnB (Spec.mv (F := Ideal) HnB (Spec.mv (F := Ideal) HnB (Spec.mv (F := Ideal) HnB X)))))) := by
    rw [Region35.exit_y m ρ c, a71, toCol_Gy, v71, y71]; exact congrArg (fun h => addf (F := Ideal) (addf (F := Ideal) (addf (F := Ideal) (addf (F := Ideal) (Spec.sc (F := Ideal) (Spec.coef (F := Ideal) ![1, 3, 0] Cert.ReferenceIdeal.Gen.slices_S2x5x5_S1x1x1_1_3_0 A) X) (Spec.sc (F := Ideal) (Spec.coef (F := Ideal) ![1, 3, 1] Cert.ReferenceIdeal.Gen.slices_S2x5x5_S1x1x1_1_3_1 A) (Spec.mv (F := Ideal) HnB X))) (Spec.sc (F := Ideal) (Spec.coef (F := Ideal) ![1, 3, 2] Cert.ReferenceIdeal.Gen.slices_S2x5x5_S1x1x1_1_3_2 A) (Spec.mv (F := Ideal) HnB (Spec.mv (F := Ideal) HnB X)))) (Spec.sc (F := Ideal) (Spec.coef (F := Ideal) ![1, 3, 3] Cert.ReferenceIdeal.Gen.slices_S2x5x5_S1x1x1_1_3_3 A) (Spec.mv (F := Ideal) HnB (Spec.mv (F := Ideal) HnB (Spec.mv (F := Ideal) HnB X))))) (Spec.sc (F := Ideal) (Spec.coef (F := Ideal) ![1, 3, 4] Cert.ReferenceIdeal.Gen.slices_S2x5x5_S1x1x1_1_3_4 A) (Spec.mv (F := Ideal) h (Spec.mv (F := Ideal) HnB (Spec.mv (F := Ideal) HnB (Spec.mv (F := Ideal) HnB X)))))) H71
  have C72 : W72 m ρ c (Proc.devRef .tc main_call0_v150) = W65 m ρ c (Proc.devRef .tc main_call0_v150) := (Region35.exit_keep m ρ c main_call0_v150 (by decide)).trans C71
  -- stretch 36: leaky_relu, the two normalisations, the next layer's first tap and second coefficient
  have A73 : W73 m ρ c (Proc.devRef .tc main_arg2) = A := (keep36 (W72 m ρ c) main_arg2 (by decide)).trans A72
  have H73 : (W73 m ρ c (Proc.devRef .tc main_call0_v13_0) : (⟨2, ![8192, 8192]⟩ : Shape).Idx → EReal) = HnB := (keep36 (W72 m ρ c) main_call0_v13_0 (by decide)).trans H72
  have x73 : toCol (W73 m ρ c (Proc.devRef .tc main_call0_v266)) = Spec.layer13 (F := Ideal) A HnB X := (h36_x (W72 m ρ c)).trans (by rw [y72]; rfl)
  have y73 : toCol (W73 m ρ c (Proc.devRef .tc main_call0_v270)) = Spec.sc (F := Ideal) (Spec.coef (F := Ideal) ![1, 4, 0] Cert.ReferenceIdeal.Gen.slices_S2x5x5_S1x1x1_1_4_0 A) (Spec.layer13 (F := Ideal) A HnB X) := (h36_y0 (W72 m ρ c)).trans (by rw [y72, A72]; rfl)
  have a73 : W73 m ρ c (Proc.devRef .tc main_call0_v273) = as11 (Spec.coef (F := Ideal) ![1, 4, 1] Cert.ReferenceIdeal.Gen.slices_S2x5x5_S1x1x1_1_4_1 A) := (h36_a (W72 m ρ c)).trans (by rw [A72])
  have C73 : W73 m ρ c (Proc.devRef .tc main_call0_v150) = W65 m ρ c (Proc.devRef .tc main_call0_v150) := (keep36 (W72 m ρ c) main_call0_v150 (by decide)).trans C72
  exact ⟨A73, H73, x73, y73, a73, C73⟩

end Cert.KernelIdeal.Chain

end
-- ==== Proof.Region36.lean ====
/-
  Region 36 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region36

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg36.N,
      win36_0.index t (0 : Fin 2) = win36_4.index t (1 : Fin 2) ∧ win36_0.index t (1 : Fin 2) = 0
    ∧ win36_1.index t (0 : Fin 2) = 0 ∧ win36_1.index t (1 : Fin 2) = 0
    ∧ win36_2.index t (0 : Fin 2) = 0 ∧ win36_2.index t (1 : Fin 2) = 0
    ∧ win36_3.index t (0 : Fin 2) = 0 ∧ win36_3.index t (1 : Fin 2) = win36_4.index t (1 : Fin 2)
    ∧ win36_4.index t (0 : Fin 2) = 0 ∧ win36_4.index t (1 : Fin 2) ≤ 7
    ∧ win36_5.index t (0 : Fin 2) = 0 ∧ win36_5.index t (1 : Fin 2) = win36_4.index t (1 : Fin 2) :=
  (by decide +kernel : ∀ t : Fin grid36.N, _)

/-- Every one of the eight blocks of the row is some point's. -/
theorem idx_onto : ∀ q : Fin 8, ∃ t : Fin cfg36.N, win36_4.index t = ![0, q.val] :=
  (by decide +kernel : ∀ q : Fin 8, ∃ t : Fin grid36.N, win36_4.index t = ![0, q.val])

/-- The row window's block is the whole row at every point. -/
theorem blk1 (c : Dev nD) (t : Fin cfg36.N) (k : Fin 8192) : iblk36 V c 1 t (ix2 0 k) = V c (Pipeline.arrRef spec36 1) (ix2 0 k) := by
  obtain ⟨e00, e01, e10, e11, e20, e21, e30, e31, e40, e41, e50, e51⟩ := idx_facts t
  show V c (Pipeline.arrRef spec36 1) (((cfg36.win 1).blk t).view.emb (ix2 0 k)) = V c (Pipeline.arrRef spec36 1) (ix2 0 k)
  refine congrArg _ (funext fun a => Fin.ext ?_)
  match a with
  | ⟨0, _⟩ => show win36_1.index t (0 : Fin 2) * 1 + 1 * 0 = 0; omega
  | ⟨1, _⟩ => show win36_1.index t (1 : Fin 2) * 8192 + 1 * k.val = k.val; omega

/-- The coefficient window's block is the one entry. -/
theorem blk2 (c : Dev nD) (t : Fin cfg36.N) : iblk36 V c 2 t (ix2 0 0) = V c (Pipeline.arrRef spec36 2) (ix2 0 0) := by
  obtain ⟨e00, e01, e10, e11, e20, e21, e30, e31, e40, e41, e50, e51⟩ := idx_facts t
  show V c (Pipeline.arrRef spec36 2) (((cfg36.win 2).blk t).view.emb (ix2 0 0)) = V c (Pipeline.arrRef spec36 2) (ix2 0 0)
  refine congrArg _ (funext fun a => Fin.ext ?_)
  match a with
  | ⟨0, _⟩ => show win36_2.index t (0 : Fin 2) * 1 + 1 * 0 = 0; omega
  | ⟨1, _⟩ => show win36_2.index t (1 : Fin 2) * 1 + 1 * 0 = 0; omega

/-- The matrix window's block at point t is rows 1024·t … of the matrix: its row q is row (block's column position) of the array. -/
theorem blk0 (c : Dev nD) (t : Fin cfg36.N) (q : Fin 1024) (k : Fin 8192) :
    iblk36 V c 0 t (ix2 q k) = V c (Pipeline.arrRef spec36 0) (ix2 ((((cfg36.win 4).blk t).view.emb (ix2 0 q)) 1) k) := by
  obtain ⟨e00, e01, e10, e11, e20, e21, e30, e31, e40, e41, e50, e51⟩ := idx_facts t
  show V c (Pipeline.arrRef spec36 0) (((cfg36.win 0).blk t).view.emb (ix2 q k)) = _
  refine congrArg _ (funext fun a => Fin.ext ?_)
  match a with
  | ⟨0, _⟩ => show win36_0.index t (0 : Fin 2) * 1024 + 1 * q.val = win36_4.index t (1 : Fin 2) * 1024 + 1 * q.val; omega
  | ⟨1, _⟩ => show win36_0.index t (1 : Fin 2) * 8192 + 1 * k.val = k.val; omega

/-- The incoming accumulator window's block at point t is the same stretch of the row as the outgoing ones'. -/
theorem blk3 (c : Dev nD) (t : Fin cfg36.N) (q : Fin 1024) :
    iblk36 V c 3 t (ix2 0 q) = V c (Pipeline.arrRef spec36 3) (((cfg36.win 5).blk t).view.emb (ix2 0 q)) := by
  obtain ⟨e00, e01, e10, e11, e20, e21, e30, e31, e40, e41, e50, e51⟩ := idx_facts t
  show V c (Pipeline.arrRef spec36 3) (((cfg36.win 3).blk t).view.emb (ix2 0 q)) = _
  refine congrArg _ (funext fun a => Fin.ext ?_)
  match a with
  | ⟨0, _⟩ => show win36_3.index t (0 : Fin 2) * 1 + 1 * 0 = win36_5.index t (0 : Fin 2) * 1 + 1 * 0; omega
  | ⟨1, _⟩ => show win36_3.index t (1 : Fin 2) * 1024 + 1 * q.val = win36_5.index t (1 : Fin 2) * 1024 + 1 * q.val; omega

set_option maxHeartbeats 4000000 in
/-- WHAT POINT t WRITES BACK to the product window: block t of the product row. -/
theorem flushed4_eq (c : Dev nD) (t : Fin cfg36.N) :
    (dat36 V c).flushed 4 t = ((cfg36.win 4).blk t).view.read (Elt Ideal)
      (Gv (V c (Pipeline.arrRef spec36 1)) (V c (Pipeline.arrRef spec36 0))) := by
  show (cfg36.win 4).cut (grid36.coords t) ((dat36 V c).after 4 t) = _
  rw [after36_4]
  unfold out36_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk36 V c 1 t) (iblk36 V c 0 t) q).trans ?_
  show mvRow (iblk36 V c 1 t) (iblk36 V c 0 t) q
    = mvRow (V c (Pipeline.arrRef spec36 1)) (V c (Pipeline.arrRef spec36 0)) ((((cfg36.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg36.N) :
    (dat36 V c).flushed 5 t = ((cfg36.win 5).blk t).view.read (Elt Ideal)
      (Gy (V c (Pipeline.arrRef spec36 1)) (V c (Pipeline.arrRef spec36 0)) (V c (Pipeline.arrRef spec36 2)) (V c (Pipeline.arrRef spec36 3))) := by
  show (cfg36.win 5).cut (grid36.coords t) ((dat36 V c).after 5 t) = _
  rw [after36_5]
  unfold out36_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk36 V c 1 t) (iblk36 V c 0 t) (iblk36 V c 2 t) (iblk36 V c 3 t) q).trans ?_
  refine Eq.trans ?_ (Gy_acc (V c (Pipeline.arrRef spec36 1)) (V c (Pipeline.arrRef spec36 0)) (V c (Pipeline.arrRef spec36 2)) (V c (Pipeline.arrRef spec36 3))
    (((cfg36.win 5).blk t).view.emb (ix2 0 q))).symm
  rw [blk3 V c t q, blk2 V c t]
  refine congrArg (accAt _ _) ?_
  unfold mvRow
  refine Finset.sum_congr rfl fun k _ => ?_
  have hX : (((cfg36.win 4).blk t).view.emb (ix2 0 q)) 1 = (((cfg36.win 5).blk t).view.emb (ix2 0 q)) 1 :=
    Fin.ext (by show win36_4.index t (1 : Fin 2) * 1024 + 1 * q.val = win36_5.index t (1 : Fin 2) * 1024 + 1 * q.val; omega)
  rw [blk1 V c t k, blk0 V c t q k, hX]

/-- An index of a [1,8192] output array is in point t's block iff each coordinate is in the block's range. -/
theorem mem_blk4 (t : Fin cfg36.N) (i : S1x8192.Idx) :
    i ∈ ((cfg36.win 4).blk t).view.set ↔ ∀ a : Fin 2, win36_4.index t a * S1x1024.size a ≤ (i a).val ∧ (i a).val < win36_4.index t a * S1x1024.size a + S1x1024.size a := by
  show i ∈ ((View.whole main_call0_v274_0).slice (win36_4.rect t)).set ↔ _
  rw [View.set_slice_whole, Rect.mem_set_unit]
  exact Iff.rfl
theorem mem_blk5 (t : Fin cfg36.N) (i : S1x8192.Idx) :
    i ∈ ((cfg36.win 5).blk t).view.set ↔ ∀ a : Fin 2, win36_5.index t a * S1x1024.size a ≤ (i a).val ∧ (i a).val < win36_5.index t a * S1x1024.size a + S1x1024.size a := by
  show i ∈ ((View.whole main_call0_v274_1).slice (win36_5.rect t)).set ↔ _
  rw [View.set_slice_whole, Rect.mem_set_unit]
  exact Iff.rfl

/-- The eight blocks cover the row: column n is in the block of the point whose block index is n / 1024. -/
theorem cover4 (i : S1x8192.Idx) : ∃ t : Fin cfg36.N, (cfg36.win 4).flush t = true ∧ i ∈ ((cfg36.win 4).blk t).view.set := by
  have hi0 : (i 0).val < 1 := (i 0).isLt
  have hi1 : (i 1).val < 8192 := (i 1).isLt
  obtain ⟨t, ht⟩ := idx_onto ⟨(i 1).val / 1024, by omega⟩
  have q0 : win36_4.index t (0 : Fin 2) = 0 := congrFun ht 0
  have q1 : win36_4.index t (1 : Fin 2) = (i 1).val / 1024 := congrFun ht 1
  refine ⟨t, flush36_4 t, ?_⟩
  rw [mem_blk4]
  intro a
  match a with
  | ⟨0, _⟩ => show win36_4.index t (0 : Fin 2) * 1 ≤ (i 0).val ∧ (i 0).val < win36_4.index t (0 : Fin 2) * 1 + 1; omega
  | ⟨1, _⟩ => show win36_4.index t (1 : Fin 2) * 1024 ≤ (i 1).val ∧ (i 1).val < win36_4.index t (1 : Fin 2) * 1024 + 1024; omega
theorem cover5 (i : S1x8192.Idx) : ∃ t : Fin cfg36.N, (cfg36.win 5).flush t = true ∧ i ∈ ((cfg36.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win36_4.index t (1 : Fin 2) = (i 1).val / 1024 := congrFun ht 1
  refine ⟨t, flush36_5 t, ?_⟩
  rw [mem_blk5]
  intro a
  match a with
  | ⟨0, _⟩ => show win36_5.index t (0 : Fin 2) * 1 ≤ (i 0).val ∧ (i 0).val < win36_5.index t (0 : Fin 2) * 1 + 1; omega
  | ⟨1, _⟩ => show win36_5.index t (1 : Fin 2) * 1024 ≤ (i 1).val ∧ (i 1).val < win36_5.index t (1 : Fin 2) * 1024 + 1024; omega

/-- THE PRODUCT ARRAY after the region. -/
theorem final4 (c : Dev nD) : (dat36 V c).arrAt 4 cfg36.N = Gv (V c (Pipeline.arrRef spec36 1)) (V c (Pipeline.arrRef spec36 0)) :=
  (dat36 V c).arrAt_eq_of_cover 4 _ (fun t _ => flushed4_eq V c t) cover4
/-- THE ACCUMULATOR ARRAY after the region. -/
theorem final5 (c : Dev nD) : (dat36 V c).arrAt 5 cfg36.N
    = Gy (V c (Pipeline.arrRef spec36 1)) (V c (Pipeline.arrRef spec36 0)) (V c (Pipeline.arrRef spec36 2)) (V c (Pipeline.arrRef spec36 3)) :=
  (dat36 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W74 m ρ c (Proc.devRef .tc main_call0_v274_0) = Gv (W73 m ρ c (Proc.devRef .tc main_call0_v266)) (W73 m ρ c (Proc.devRef .tc main_call0_v13_0)) :=
  (W74_arr m ρ c 4).trans (final4 (V73 m ρ) c)
/-- The accumulator buffer after the region. -/
theorem exit_y : W74 m ρ c (Proc.devRef .tc main_call0_v274_1)
    = Gy (W73 m ρ c (Proc.devRef .tc main_call0_v266)) (W73 m ρ c (Proc.devRef .tc main_call0_v13_0)) (W73 m ρ c (Proc.devRef .tc main_call0_v273)) (W73 m ρ c (Proc.devRef .tc main_call0_v270)) :=
  (W74_arr m ρ c 5).trans (final5 (V73 m ρ) c)
/-- The matrix is only read. -/
theorem exit_H : W74 m ρ c (Proc.devRef .tc main_call0_v13_0) = W73 m ρ c (Proc.devRef .tc main_call0_v13_0) :=
  (W74_arr m ρ c 0).trans (((dat36 (V73 m ρ) c).arrAt_in 0 rfl _).trans (A_eq36 (V73 m ρ) c 0))
/-- The incoming row is only read. -/
theorem exit_vin : W74 m ρ c (Proc.devRef .tc main_call0_v266) = W73 m ρ c (Proc.devRef .tc main_call0_v266) :=
  (W74_arr m ρ c 1).trans (((dat36 (V73 m ρ) c).arrAt_in 1 rfl _).trans (A_eq36 (V73 m ρ) c 1))
/-- A buffer that is none of the region's arrays is as at entry. -/
theorem exit_keep (b : Ref sig .tc) (hb : ∀ w, Pipeline.arrRef spec36 w ≠ b) :
    W74 m ρ c (Proc.devRef .tc b) = W73 m ρ c (Proc.devRef .tc b) := W74_of_ne m ρ c b hb

end Exit

end Cert.KernelIdeal.Region36

end
-- ==== Proof.Region37.lean ====
/-
  Region 37 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region37

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg37.N,
      win37_0.index t (0 : Fin 2) = win37_4.index t (1 : Fin 2) ∧ win37_0.index t (1 : Fin 2) = 0
    ∧ win37_1.index t (0 : Fin 2) = 0 ∧ win37_1.index t (1 : Fin 2) = 0
    ∧ win37_2.index t (0 : Fin 2) = 0 ∧ win37_2.index t (1 : Fin 2) = 0
    ∧ win37_3.index t (0 : Fin 2) = 0 ∧ win37_3.index t (1 : Fin 2) = win37_4.index t (1 : Fin 2)
    ∧ win37_4.index t (0 : Fin 2) = 0 ∧ win37_4.index t (1 : Fin 2) ≤ 7
    ∧ win37_5.index t (0 : Fin 2) = 0 ∧ win37_5.index t (1 : Fin 2) = win37_4.index t (1 : Fin 2) :=
  (by decide +kernel : ∀ t : Fin grid37.N, _)

/-- Every one of the eight blocks of the row is some point's. -/
theorem idx_onto : ∀ q : Fin 8, ∃ t : Fin cfg37.N, win37_4.index t = ![0, q.val] :=
  (by decide +kernel : ∀ q : Fin 8, ∃ t : Fin grid37.N, win37_4.index t = ![0, q.val])

/-- The row window's block is the whole row at every point. -/
theorem blk1 (c : Dev nD) (t : Fin cfg37.N) (k : Fin 8192) : iblk37 V c 1 t (ix2 0 k) = V c (Pipeline.arrRef spec37 1) (ix2 0 k) := by
  obtain ⟨e00, e01, e10, e11, e20, e21, e30, e31, e40, e41, e50, e51⟩ := idx_facts t
  show V c (Pipeline.arrRef spec37 1) (((cfg37.win 1).blk t).view.emb (ix2 0 k)) = V c (Pipeline.arrRef spec37 1) (ix2 0 k)
  refine congrArg _ (funext fun a => Fin.ext ?_)
  match a with
  | ⟨0, _⟩ => show win37_1.index t (0 : Fin 2) * 1 + 1 * 0 = 0; omega
  | ⟨1, _⟩ => show win37_1.index t (1 : Fin 2) * 8192 + 1 * k.val = k.val; omega

/-- The coefficient window's block is the one entry. -/
theorem blk2 (c : Dev nD) (t : Fin cfg37.N) : iblk37 V c 2 t (ix2 0 0) = V c (Pipeline.arrRef spec37 2) (ix2 0 0) := by
  obtain ⟨e00, e01, e10, e11, e20, e21, e30, e31, e40, e41, e50, e51⟩ := idx_facts t
  show V c (Pipeline.arrRef spec37 2) (((cfg37.win 2).blk t).view.emb (ix2 0 0)) = V c (Pipeline.arrRef spec37 2) (ix2 0 0)
  refine congrArg _ (funext fun a => Fin.ext ?_)
  match a with
  | ⟨0, _⟩ => show win37_2.index t (0 : Fin 2) * 1 + 1 * 0 = 0; omega
  | ⟨1, _⟩ => show win37_2.index t (1 : Fin 2) * 1 + 1 * 0 = 0; omega

/-- The matrix window's block at point t is rows 1024·t … of the matrix: its row q is row (block's column position) of the array. -/
theorem blk0 (c : Dev nD) (t : Fin cfg37.N) (q : Fin 1024) (k : Fin 8192) :
    iblk37 V c 0 t (ix2 q k) = V c (Pipeline.arrRef spec37 0) (ix2 ((((cfg37.win 4).blk t).view.emb (ix2 0 q)) 1) k) := by
  obtain ⟨e00, e01, e10, e11, e20, e21, e30, e31, e40, e41, e50, e51⟩ := idx_facts t
  show V c (Pipeline.arrRef spec37 0) (((cfg37.win 0).blk t).view.emb (ix2 q k)) = _
  refine congrArg _ (funext fun a => Fin.ext ?_)
  match a with
  | ⟨0, _⟩ => show win37_0.index t (0 : Fin 2) * 1024 + 1 * q.val = win37_4.index t (1 : Fin 2) * 1024 + 1 * q.val; omega
  | ⟨1, _⟩ => show win37_0.index t (1 : Fin 2) * 8192 + 1 * k.val = k.val; omega

/-- The incoming accumulator window's block at point t is the same stretch of the row as the outgoing ones'. -/
theorem blk3 (c : Dev nD) (t : Fin cfg37.N) (q : Fin 1024) :
    iblk37 V c 3 t (ix2 0 q) = V c (Pipeline.arrRef spec37 3) (((cfg37.win 5).blk t).view.emb (ix2 0 q)) := by
  obtain ⟨e00, e01, e10, e11, e20, e21, e30, e31, e40, e41, e50, e51⟩ := idx_facts t
  show V c (Pipeline.arrRef spec37 3) (((cfg37.win 3).blk t).view.emb (ix2 0 q)) = _
  refine congrArg _ (funext fun a => Fin.ext ?_)
  match a with
  | ⟨0, _⟩ => show win37_3.index t (0 : Fin 2) * 1 + 1 * 0 = win37_5.index t (0 : Fin 2) * 1 + 1 * 0; omega
  | ⟨1, _⟩ => show win37_3.index t (1 : Fin 2) * 1024 + 1 * q.val = win37_5.index t (1 : Fin 2) * 1024 + 1 * q.val; omega

set_option maxHeartbeats 4000000 in
/-- WHAT POINT t WRITES BACK to the product window: block t of the product row. -/
theorem flushed4_eq (c : Dev nD) (t : Fin cfg37.N) :
    (dat37 V c).flushed 4 t = ((cfg37.win 4).blk t).view.read (Elt Ideal)
      (Gv (V c (Pipeline.arrRef spec37 1)) (V c (Pipeline.arrRef spec37 0))) := by
  show (cfg37.win 4).cut (grid37.coords t) ((dat37 V c).after 4 t) = _
  rw [after37_4]
  unfold out37_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk37 V c 1 t) (iblk37 V c 0 t) q).trans ?_
  show mvRow (iblk37 V c 1 t) (iblk37 V c 0 t) q
    = mvRow (V c (Pipeline.arrRef spec37 1)) (V c (Pipeline.arrRef spec37 0)) ((((cfg37.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg37.N) :
    (dat37 V c).flushed 5 t = ((cfg37.win 5).blk t).view.read (Elt Ideal)
      (Gy (V c (Pipeline.arrRef spec37 1)) (V c (Pipeline.arrRef spec37 0)) (V c (Pipeline.arrRef spec37 2)) (V c (Pipeline.arrRef spec37 3))) := by
  show (cfg37.win 5).cut (grid37.coords t) ((dat37 V c).after 5 t) = _
  rw [after37_5]
  unfold out37_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk37 V c 1 t) (iblk37 V c 0 t) (iblk37 V c 2 t) (iblk37 V c 3 t) q).trans ?_
  refine Eq.trans ?_ (Gy_acc (V c (Pipeline.arrRef spec37 1)) (V c (Pipeline.arrRef spec37 0)) (V c (Pipeline.arrRef spec37 2)) (V c (Pipeline.arrRef spec37 3))
    (((cfg37.win 5).blk t).view.emb (ix2 0 q))).symm
  rw [blk3 V c t q, blk2 V c t]
  refine congrArg (accAt _ _) ?_
  unfold mvRow
  refine Finset.sum_congr rfl fun k _ => ?_
  have hX : (((cfg37.win 4).blk t).view.emb (ix2 0 q)) 1 = (((cfg37.win 5).blk t).view.emb (ix2 0 q)) 1 :=
    Fin.ext (by show win37_4.index t (1 : Fin 2) * 1024 + 1 * q.val = win37_5.index t (1 : Fin 2) * 1024 + 1 * q.val; omega)
  rw [blk1 V c t k, blk0 V c t q k, hX]

/-- An index of a [1,8192] output array is in point t's block iff each coordinate is in the block's range. -/
theorem mem_blk4 (t : Fin cfg37.N) (i : S1x8192.Idx) :
    i ∈ ((cfg37.win 4).blk t).view.set ↔ ∀ a : Fin 2, win37_4.index t a * S1x1024.size a ≤ (i a).val ∧ (i a).val < win37_4.index t a * S1x1024.size a + S1x1024.size a := by
  show i ∈ ((View.whole main_call0_v278_0).slice (win37_4.rect t)).set ↔ _
  rw [View.set_slice_whole, Rect.mem_set_unit]
  exact Iff.rfl
theorem mem_blk5 (t : Fin cfg37.N) (i : S1x8192.Idx) :
    i ∈ ((cfg37.win 5).blk t).view.set ↔ ∀ a : Fin 2, win37_5.index t a * S1x1024.size a ≤ (i a).val ∧ (i a).val < win37_5.index t a * S1x1024.size a + S1x1024.size a := by
  show i ∈ ((View.whole main_call0_v278_1).slice (win37_5.rect t)).set ↔ _
  rw [View.set_slice_whole, Rect.mem_set_unit]
  exact Iff.rfl

/-- The eight blocks cover the row: column n is in the block of the point whose block index is n / 1024. -/
theorem cover4 (i : S1x8192.Idx) : ∃ t : Fin cfg37.N, (cfg37.win 4).flush t = true ∧ i ∈ ((cfg37.win 4).blk t).view.set := by
  have hi0 : (i 0).val < 1 := (i 0).isLt
  have hi1 : (i 1).val < 8192 := (i 1).isLt
  obtain ⟨t, ht⟩ := idx_onto ⟨(i 1).val / 1024, by omega⟩
  have q0 : win37_4.index t (0 : Fin 2) = 0 := congrFun ht 0
  have q1 : win37_4.index t (1 : Fin 2) = (i 1).val / 1024 := congrFun ht 1
  refine ⟨t, flush37_4 t, ?_⟩
  rw [mem_blk4]
  intro a
  match a with
  | ⟨0, _⟩ => show win37_4.index t (0 : Fin 2) * 1 ≤ (i 0).val ∧ (i 0).val < win37_4.index t (0 : Fin 2) * 1 + 1; omega
  | ⟨1, _⟩ => show win37_4.index t (1 : Fin 2) * 1024 ≤ (i 1).val ∧ (i 1).val < win37_4.index t (1 : Fin 2) * 1024 + 1024; omega
theorem cover5 (i : S1x8192.Idx) : ∃ t : Fin cfg37.N, (cfg37.win 5).flush t = true ∧ i ∈ ((cfg37.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win37_4.index t (1 : Fin 2) = (i 1).val / 1024 := congrFun ht 1
  refine ⟨t, flush37_5 t, ?_⟩
  rw [mem_blk5]
  intro a
  match a with
  | ⟨0, _⟩ => show win37_5.index t (0 : Fin 2) * 1 ≤ (i 0).val ∧ (i 0).val < win37_5.index t (0 : Fin 2) * 1 + 1; omega
  | ⟨1, _⟩ => show win37_5.index t (1 : Fin 2) * 1024 ≤ (i 1).val ∧ (i 1).val < win37_5.index t (1 : Fin 2) * 1024 + 1024; omega

/-- THE PRODUCT ARRAY after the region. -/
theorem final4 (c : Dev nD) : (dat37 V c).arrAt 4 cfg37.N = Gv (V c (Pipeline.arrRef spec37 1)) (V c (Pipeline.arrRef spec37 0)) :=
  (dat37 V c).arrAt_eq_of_cover 4 _ (fun t _ => flushed4_eq V c t) cover4
/-- THE ACCUMULATOR ARRAY after the region. -/
theorem final5 (c : Dev nD) : (dat37 V c).arrAt 5 cfg37.N
    = Gy (V c (Pipeline.arrRef spec37 1)) (V c (Pipeline.arrRef spec37 0)) (V c (Pipeline.arrRef spec37 2)) (V c (Pipeline.arrRef spec37 3)) :=
  (dat37 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W76 m ρ c (Proc.devRef .tc main_call0_v278_0) = Gv (W75 m ρ c (Proc.devRef .tc main_call0_v274_0)) (W75 m ρ c (Proc.devRef .tc main_call0_v13_0)) :=
  (W76_arr m ρ c 4).trans (final4 (V75 m ρ) c)
/-- The accumulator buffer after the region. -/
theorem exit_y : W76 m ρ c (Proc.devRef .tc main_call0_v278_1)
    = Gy (W75 m ρ c (Proc.devRef .tc main_call0_v274_0)) (W75 m ρ c (Proc.devRef .tc main_call0_v13_0)) (W75 m ρ c (Proc.devRef .tc main_call0_v277)) (W75 m ρ c (Proc.devRef .tc main_call0_v274_1)) :=
  (W76_arr m ρ c 5).trans (final5 (V75 m ρ) c)
/-- The matrix is only read. -/
theorem exit_H : W76 m ρ c (Proc.devRef .tc main_call0_v13_0) = W75 m ρ c (Proc.devRef .tc main_call0_v13_0) :=
  (W76_arr m ρ c 0).trans (((dat37 (V75 m ρ) c).arrAt_in 0 rfl _).trans (A_eq37 (V75 m ρ) c 0))
/-- The incoming row is only read. -/
theorem exit_vin : W76 m ρ c (Proc.devRef .tc main_call0_v274_0) = W75 m ρ c (Proc.devRef .tc main_call0_v274_0) :=
  (W76_arr m ρ c 1).trans (((dat37 (V75 m ρ) c).arrAt_in 1 rfl _).trans (A_eq37 (V75 m ρ) c 1))
/-- A buffer that is none of the region's arrays is as at entry. -/
theorem exit_keep (b : Ref sig .tc) (hb : ∀ w, Pipeline.arrRef spec37 w ≠ b) :
    W76 m ρ c (Proc.devRef .tc b) = W75 m ρ c (Proc.devRef .tc b) := W76_of_ne m ρ c b hb

end Exit

end Cert.KernelIdeal.Region37

end
-- ==== Proof.Region38.lean ====
/-
  Region 38 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region38

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg38.N,
      win38_0.index t (0 : Fin 2) = win38_4.index t (1 : Fin 2) ∧ win38_0.index t (1 : Fin 2) = 0
    ∧ win38_1.index t (0 : Fin 2) = 0 ∧ win38_1.index t (1 : Fin 2) = 0
    ∧ win38_2.index t (0 : Fin 2) = 0 ∧ win38_2.index t (1 : Fin 2) = 0
    ∧ win38_3.index t (0 : Fin 2) = 0 ∧ win38_3.index t (1 : Fin 2) = win38_4.index t (1 : Fin 2)
    ∧ win38_4.index t (0 : Fin 2) = 0 ∧ win38_4.index t (1 : Fin 2) ≤ 7
    ∧ win38_5.index t (0 : Fin 2) = 0 ∧ win38_5.index t (1 : Fin 2) = win38_4.index t (1 : Fin 2) :=
  (by decide +kernel : ∀ t : Fin grid38.N, _)

/-- Every one of the eight blocks of the row is some point's. -/
theorem idx_onto : ∀ q : Fin 8, ∃ t : Fin cfg38.N, win38_4.index t = ![0, q.val] :=
  (by decide +kernel : ∀ q : Fin 8, ∃ t : Fin grid38.N, win38_4.index t = ![0, q.val])

/-- The row window's block is the whole row at every point. -/
theorem blk1 (c : Dev nD) (t : Fin cfg38.N) (k : Fin 8192) : iblk38 V c 1 t (ix2 0 k) = V c (Pipeline.arrRef spec38 1) (ix2 0 k) := by
  obtain ⟨e00, e01, e10, e11, e20, e21, e30, e31, e40, e41, e50, e51⟩ := idx_facts t
  show V c (Pipeline.arrRef spec38 1) (((cfg38.win 1).blk t).view.emb (ix2 0 k)) = V c (Pipeline.arrRef spec38 1) (ix2 0 k)
  refine congrArg _ (funext fun a => Fin.ext ?_)
  match a with
  | ⟨0, _⟩ => show win38_1.index t (0 : Fin 2) * 1 + 1 * 0 = 0; omega
  | ⟨1, _⟩ => show win38_1.index t (1 : Fin 2) * 8192 + 1 * k.val = k.val; omega

/-- The coefficient window's block is the one entry. -/
theorem blk2 (c : Dev nD) (t : Fin cfg38.N) : iblk38 V c 2 t (ix2 0 0) = V c (Pipeline.arrRef spec38 2) (ix2 0 0) := by
  obtain ⟨e00, e01, e10, e11, e20, e21, e30, e31, e40, e41, e50, e51⟩ := idx_facts t
  show V c (Pipeline.arrRef spec38 2) (((cfg38.win 2).blk t).view.emb (ix2 0 0)) = V c (Pipeline.arrRef spec38 2) (ix2 0 0)
  refine congrArg _ (funext fun a => Fin.ext ?_)
  match a with
  | ⟨0, _⟩ => show win38_2.index t (0 : Fin 2) * 1 + 1 * 0 = 0; omega
  | ⟨1, _⟩ => show win38_2.index t (1 : Fin 2) * 1 + 1 * 0 = 0; omega

/-- The matrix window's block at point t is rows 1024·t … of the matrix: its row q is row (block's column position) of the array. -/
theorem blk0 (c : Dev nD) (t : Fin cfg38.N) (q : Fin 1024) (k : Fin 8192) :
    iblk38 V c 0 t (ix2 q k) = V c (Pipeline.arrRef spec38 0) (ix2 ((((cfg38.win 4).blk t).view.emb (ix2 0 q)) 1) k) := by
  obtain ⟨e00, e01, e10, e11, e20, e21, e30, e31, e40, e41, e50, e51⟩ := idx_facts t
  show V c (Pipeline.arrRef spec38 0) (((cfg38.win 0).blk t).view.emb (ix2 q k)) = _
  refine congrArg _ (funext fun a => Fin.ext ?_)
  match a with
  | ⟨0, _⟩ => show win38_0.index t (0 : Fin 2) * 1024 + 1 * q.val = win38_4.index t (1 : Fin 2) * 1024 + 1 * q.val; omega
  | ⟨1, _⟩ => show win38_0.index t (1 : Fin 2) * 8192 + 1 * k.val = k.val; omega

/-- The incoming accumulator window's block at point t is the same stretch of the row as the outgoing ones'. -/
theorem blk3 (c : Dev nD) (t : Fin cfg38.N) (q : Fin 1024) :
    iblk38 V c 3 t (ix2 0 q) = V c (Pipeline.arrRef spec38 3) (((cfg38.win 5).blk t).view.emb (ix2 0 q)) := by
  obtain ⟨e00, e01, e10, e11, e20, e21, e30, e31, e40, e41, e50, e51⟩ := idx_facts t
  show V c (Pipeline.arrRef spec38 3) (((cfg38.win 3).blk t).view.emb (ix2 0 q)) = _
  refine congrArg _ (funext fun a => Fin.ext ?_)
  match a with
  | ⟨0, _⟩ => show win38_3.index t (0 : Fin 2) * 1 + 1 * 0 = win38_5.index t (0 : Fin 2) * 1 + 1 * 0; omega
  | ⟨1, _⟩ => show win38_3.index t (1 : Fin 2) * 1024 + 1 * q.val = win38_5.index t (1 : Fin 2) * 1024 + 1 * q.val; omega

set_option maxHeartbeats 4000000 in
/-- WHAT POINT t WRITES BACK to the product window: block t of the product row. -/
theorem flushed4_eq (c : Dev nD) (t : Fin cfg38.N) :
    (dat38 V c).flushed 4 t = ((cfg38.win 4).blk t).view.read (Elt Ideal)
      (Gv (V c (Pipeline.arrRef spec38 1)) (V c (Pipeline.arrRef spec38 0))) := by
  show (cfg38.win 4).cut (grid38.coords t) ((dat38 V c).after 4 t) = _
  rw [after38_4]
  unfold out38_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk38 V c 1 t) (iblk38 V c 0 t) q).trans ?_
  show mvRow (iblk38 V c 1 t) (iblk38 V c 0 t) q
    = mvRow (V c (Pipeline.arrRef spec38 1)) (V c (Pipeline.arrRef spec38 0)) ((((cfg38.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg38.N) :
    (dat38 V c).flushed 5 t = ((cfg38.win 5).blk t).view.read (Elt Ideal)
      (Gy (V c (Pipeline.arrRef spec38 1)) (V c (Pipeline.arrRef spec38 0)) (V c (Pipeline.arrRef spec38 2)) (V c (Pipeline.arrRef spec38 3))) := by
  show (cfg38.win 5).cut (grid38.coords t) ((dat38 V c).after 5 t) = _
  rw [after38_5]
  unfold out38_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk38 V c 1 t) (iblk38 V c 0 t) (iblk38 V c 2 t) (iblk38 V c 3 t) q).trans ?_
  refine Eq.trans ?_ (Gy_acc (V c (Pipeline.arrRef spec38 1)) (V c (Pipeline.arrRef spec38 0)) (V c (Pipeline.arrRef spec38 2)) (V c (Pipeline.arrRef spec38 3))
    (((cfg38.win 5).blk t).view.emb (ix2 0 q))).symm
  rw [blk3 V c t q, blk2 V c t]
  refine congrArg (accAt _ _) ?_
  unfold mvRow
  refine Finset.sum_congr rfl fun k _ => ?_
  have hX : (((cfg38.win 4).blk t).view.emb (ix2 0 q)) 1 = (((cfg38.win 5).blk t).view.emb (ix2 0 q)) 1 :=
    Fin.ext (by show win38_4.index t (1 : Fin 2) * 1024 + 1 * q.val = win38_5.index t (1 : Fin 2) * 1024 + 1 * q.val; omega)
  rw [blk1 V c t k, blk0 V c t q k, hX]

/-- An index of a [1,8192] output array is in point t's block iff each coordinate is in the block's range. -/
theorem mem_blk4 (t : Fin cfg38.N) (i : S1x8192.Idx) :
    i ∈ ((cfg38.win 4).blk t).view.set ↔ ∀ a : Fin 2, win38_4.index t a * S1x1024.size a ≤ (i a).val ∧ (i a).val < win38_4.index t a * S1x1024.size a + S1x1024.size a := by
  show i ∈ ((View.whole main_call0_v282_0).slice (win38_4.rect t)).set ↔ _
  rw [View.set_slice_whole, Rect.mem_set_unit]
  exact Iff.rfl
theorem mem_blk5 (t : Fin cfg38.N) (i : S1x8192.Idx) :
    i ∈ ((cfg38.win 5).blk t).view.set ↔ ∀ a : Fin 2, win38_5.index t a * S1x1024.size a ≤ (i a).val ∧ (i a).val < win38_5.index t a * S1x1024.size a + S1x1024.size a := by
  show i ∈ ((View.whole main_call0_v282_1).slice (win38_5.rect t)).set ↔ _
  rw [View.set_slice_whole, Rect.mem_set_unit]
  exact Iff.rfl

/-- The eight blocks cover the row: column n is in the block of the point whose block index is n / 1024. -/
theorem cover4 (i : S1x8192.Idx) : ∃ t : Fin cfg38.N, (cfg38.win 4).flush t = true ∧ i ∈ ((cfg38.win 4).blk t).view.set := by
  have hi0 : (i 0).val < 1 := (i 0).isLt
  have hi1 : (i 1).val < 8192 := (i 1).isLt
  obtain ⟨t, ht⟩ := idx_onto ⟨(i 1).val / 1024, by omega⟩
  have q0 : win38_4.index t (0 : Fin 2) = 0 := congrFun ht 0
  have q1 : win38_4.index t (1 : Fin 2) = (i 1).val / 1024 := congrFun ht 1
  refine ⟨t, flush38_4 t, ?_⟩
  rw [mem_blk4]
  intro a
  match a with
  | ⟨0, _⟩ => show win38_4.index t (0 : Fin 2) * 1 ≤ (i 0).val ∧ (i 0).val < win38_4.index t (0 : Fin 2) * 1 + 1; omega
  | ⟨1, _⟩ => show win38_4.index t (1 : Fin 2) * 1024 ≤ (i 1).val ∧ (i 1).val < win38_4.index t (1 : Fin 2) * 1024 + 1024; omega
theorem cover5 (i : S1x8192.Idx) : ∃ t : Fin cfg38.N, (cfg38.win 5).flush t = true ∧ i ∈ ((cfg38.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win38_4.index t (1 : Fin 2) = (i 1).val / 1024 := congrFun ht 1
  refine ⟨t, flush38_5 t, ?_⟩
  rw [mem_blk5]
  intro a
  match a with
  | ⟨0, _⟩ => show win38_5.index t (0 : Fin 2) * 1 ≤ (i 0).val ∧ (i 0).val < win38_5.index t (0 : Fin 2) * 1 + 1; omega
  | ⟨1, _⟩ => show win38_5.index t (1 : Fin 2) * 1024 ≤ (i 1).val ∧ (i 1).val < win38_5.index t (1 : Fin 2) * 1024 + 1024; omega

/-- THE PRODUCT ARRAY after the region. -/
theorem final4 (c : Dev nD) : (dat38 V c).arrAt 4 cfg38.N = Gv (V c (Pipeline.arrRef spec38 1)) (V c (Pipeline.arrRef spec38 0)) :=
  (dat38 V c).arrAt_eq_of_cover 4 _ (fun t _ => flushed4_eq V c t) cover4
/-- THE ACCUMULATOR ARRAY after the region. -/
theorem final5 (c : Dev nD) : (dat38 V c).arrAt 5 cfg38.N
    = Gy (V c (Pipeline.arrRef spec38 1)) (V c (Pipeline.arrRef spec38 0)) (V c (Pipeline.arrRef spec38 2)) (V c (Pipeline.arrRef spec38 3)) :=
  (dat38 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W78 m ρ c (Proc.devRef .tc main_call0_v282_0) = Gv (W77 m ρ c (Proc.devRef .tc main_call0_v278_0)) (W77 m ρ c (Proc.devRef .tc main_call0_v13_0)) :=
  (W78_arr m ρ c 4).trans (final4 (V77 m ρ) c)
/-- The accumulator buffer after the region. -/
theorem exit_y : W78 m ρ c (Proc.devRef .tc main_call0_v282_1)
    = Gy (W77 m ρ c (Proc.devRef .tc main_call0_v278_0)) (W77 m ρ c (Proc.devRef .tc main_call0_v13_0)) (W77 m ρ c (Proc.devRef .tc main_call0_v281)) (W77 m ρ c (Proc.devRef .tc main_call0_v278_1)) :=
  (W78_arr m ρ c 5).trans (final5 (V77 m ρ) c)
/-- The matrix is only read. -/
theorem exit_H : W78 m ρ c (Proc.devRef .tc main_call0_v13_0) = W77 m ρ c (Proc.devRef .tc main_call0_v13_0) :=
  (W78_arr m ρ c 0).trans (((dat38 (V77 m ρ) c).arrAt_in 0 rfl _).trans (A_eq38 (V77 m ρ) c 0))
/-- The incoming row is only read. -/
theorem exit_vin : W78 m ρ c (Proc.devRef .tc main_call0_v278_0) = W77 m ρ c (Proc.devRef .tc main_call0_v278_0) :=
  (W78_arr m ρ c 1).trans (((dat38 (V77 m ρ) c).arrAt_in 1 rfl _).trans (A_eq38 (V77 m ρ) c 1))
/-- A buffer that is none of the region's arrays is as at entry. -/
theorem exit_keep (b : Ref sig .tc) (hb : ∀ w, Pipeline.arrRef spec38 w ≠ b) :
    W78 m ρ c (Proc.devRef .tc b) = W77 m ρ c (Proc.devRef .tc b) := W78_of_ne m ρ c b hb

end Exit

end Cert.KernelIdeal.Region38

end
-- ==== Proof.Region39.lean ====
/-
  Region 39 (a tap kernel over 8 grid points), read at ARBITRARY entry contents V: after the region, the product window's
  array holds, at column n, Σₖ v[0,k] · Hb[n,k] — v the whole row of window 1, Hb the matrix of window 0, of which point t
  stages rows 1024·t … 1024·t + 1023 — and the accumulator window's array holds y_in[0,n] + α · that sum. Every block is
  written whole by its point and the eight blocks tile the row.
-/
import proofs.«144169_j55405078119367_2_alg».proof.Proof.GenP.KernelIdeal.Frame
import proofs.«144169_j55405078119367_2_alg».proof.Proof.Acc

set_option maxRecDepth 16384

noncomputable section

namespace Cert.KernelIdeal.Region39

open Cert.KernelIdeal Cert.KernelIdeal.Gen Cert.KernelIdeal.GenP Cert.KernelIdeal.Bridge
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the matrix window moves down with the point, the row and the coefficient
    stay, the three [1,1024] windows move along the row together. -/
theorem idx_facts : ∀ t : Fin cfg39.N,
      win39_0.index t (0 : Fin 2) = win39_4.index t (1 : Fin 2) ∧ win39_0.index t (1 : Fin 2) = 0
    ∧ win39_1.index t (0 : Fin 2) = 0 ∧ win39_1.index t (1 : Fin 2) = 0
    ∧ win39_2.index t (0 : Fin 2) = 0 ∧ win39_2.index t (1 : Fin 2) = 0
    ∧ win39_3.index t (0 : Fin 2) = 0 ∧ win39_3.index t (1 : Fin 2) = win39_4.index t (1 : Fin 2)
    ∧ win39_4.index t (0 : Fin 2) = 0 ∧ win39_4.index t (1 : Fin 2) ≤ 7
    ∧ win39_5.index t (0 : Fin 2) = 0 ∧ win39_5.index t (1 : Fin 2) = win39_4.index t (1 : Fin 2) :=
  (by decide +kernel : ∀ t : Fin grid39.N, _)

/-- Every one of the eight blocks of the row is some point's. -/
theorem idx_onto : ∀ q : Fin 8, ∃ t : Fin cfg39.N, win39_4.index t = ![0, q.val] :=
  (by decide +kernel : ∀ q : Fin 8, ∃ t : Fin grid39.N, win39_4.index t = ![0, q.val])

/-- The row window's block is the whole row at every point. -/
theorem blk1 (c : Dev nD) (t : Fin cfg39.N) (k : Fin 8192) : iblk39 V c 1 t (ix2 0 k) = V c (Pipeline.arrRef spec39 1) (ix2 0 k) := by
  obtain ⟨e00, e01, e10, e11, e20, e21, e30, e31, e40, e41, e50, e51⟩ := idx_facts t
  show V c (Pipeline.arrRef spec39 1) (((cfg39.win 1).blk t).view.emb (ix2 0 k)) = V c (Pipeline.arrRef spec39 1) (ix2 0 k)
  refine congrArg _ (funext fun a => Fin.ext ?_)
  match a with
  | ⟨0, _⟩ => show win39_1.index t (0 : Fin 2) * 1 + 1 * 0 = 0; omega
  | ⟨1, _⟩ => show win39_1.index t (1 : Fin 2) * 8192 + 1 * k.val = k.val; omega

/-- The coefficient window's block is the one entry. -/
theorem blk2 (c : Dev nD) (t : Fin cfg39.N) : iblk39 V c 2 t (ix2 0 0) = V c (Pipeline.arrRef spec39 2) (ix2 0 0) := by
  obtain ⟨e00, e01, e10, e11, e20, e21, e30, e31, e40, e41, e50, e51⟩ := idx_facts t
  show V c (Pipeline.arrRef spec39 2) (((cfg39.win 2).blk t).view.emb (ix2 0 0)) = V c (Pipeline.arrRef spec39 2) (ix2 0 0)
  refine congrArg _ (funext fun a => Fin.ext ?_)
  match a with
  | ⟨0, _⟩ => show win39_2.index t (0 : Fin 2) * 1 + 1 * 0 = 0; omega
  | ⟨1, _⟩ => show win39_2.index t (1 : Fin 2) * 1 + 1 * 0 = 0; omega

/-- The matrix window's block at point t is rows 1024·t … of the matrix: its row q is row (block's column position) of the array. -/
theorem blk0 (c : Dev nD) (t : Fin cfg39.N) (q : Fin 1024) (k : Fin 8192) :
    iblk39 V c 0 t (ix2 q k) = V c (Pipeline.arrRef spec39 0) (ix2 ((((cfg39.win 4).blk t).view.emb (ix2 0 q)) 1) k) := by
  obtain ⟨e00, e01, e10, e11, e20, e21, e30, e31, e40, e41, e50, e51⟩ := idx_facts t
  show V c (Pipeline.arrRef spec39 0) (((cfg39.win 0).blk t).view.emb (ix2 q k)) = _
  refine congrArg _ (funext fun a => Fin.ext ?_)
  match a with
  | ⟨0, _⟩ => show win39_0.index t (0 : Fin 2) * 1024 + 1 * q.val = win39_4.index t (1 : Fin 2) * 1024 + 1 * q.val; omega
  | ⟨1, _⟩ => show win39_0.index t (1 : Fin 2) * 8192 + 1 * k.val = k.val; omega

/-- The incoming accumulator window's block at point t is the same stretch of the row as the outgoing ones'. -/
theorem blk3 (c : Dev nD) (t : Fin cfg39.N) (q : Fin 1024) :
    iblk39 V c 3 t (ix2 0 q) = V c (Pipeline.arrRef spec39 3) (((cfg39.win 5).blk t).view.emb (ix2 0 q)) := by
  obtain ⟨e00, e01, e10, e11, e20, e21, e30, e31, e40, e41, e50, e51⟩ := idx_facts t
  show V c (Pipeline.arrRef spec39 3) (((cfg39.win 3).blk t).view.emb (ix2 0 q)) = _
  refine congrArg _ (funext fun a => Fin.ext ?_)
  match a with
  | ⟨0, _⟩ => show win39_3.index t (0 : Fin 2) * 1 + 1 * 0 = win39_5.index t (0 : Fin 2) * 1 + 1 * 0; omega
  | ⟨1, _⟩ => show win39_3.index t (1 : Fin 2) * 1024 + 1 * q.val = win39_5.index t (1 : Fin 2) * 1024 + 1 * q.val; omega

set_option maxHeartbeats 4000000 in
/-- WHAT POINT t WRITES BACK to the product window: block t of the product row. -/
theorem flushed4_eq (c : Dev nD) (t : Fin cfg39.N) :
    (dat39 V c).flushed 4 t = ((cfg39.win 4).blk t).view.read (Elt Ideal)
      (Gv (V c (Pipeline.arrRef spec39 1)) (V c (Pipeline.arrRef spec39 0))) := by
  show (cfg39.win 4).cut (grid39.coords t) ((dat39 V c).after 4 t) = _
  rw [after39_4]
  unfold out39_4
  rw [View.canon_unit_zero hz]
  simp only [View.ld_unit_zero (S := S1x8192) hz, View.ld_unit_zero (S := S1024x8192) hz]
  funext j
  obtain ⟨p, q, rfl⟩ : ∃ (p : Fin 1) (q : Fin 1024), j = ix2 p q := ⟨j 0, j 1, eq_ix2 j⟩
  obtain rfl : p = 0 := Subsingleton.elim _ _
  refine (pay1_apply (iblk39 V c 1 t) (iblk39 V c 0 t) q).trans ?_
  show mvRow (iblk39 V c 1 t) (iblk39 V c 0 t) q
    = mvRow (V c (Pipeline.arrRef spec39 1)) (V c (Pipeline.arrRef spec39 0)) ((((cfg39.win 4).blk t).view.emb (ix2 0 q)) 1)
  unfold mvRow
  refine Finset.sum_congr rfl fun k _ => ?_
  rw [blk1 V c t k, blk0 V c t q k]

set_option maxHeartbeats 4000000 in
/-- WHAT POINT t WRITES BACK to the accumulator window: block t of the accumulated row. -/
theorem flushed5_eq (c : Dev nD) (t : Fin cfg39.N) :
    (dat39 V c).flushed 5 t = ((cfg39.win 5).blk t).view.read (Elt Ideal)
      (Gy (V c (Pipeline.arrRef spec39 1)) (V c (Pipeline.arrRef spec39 0)) (V c (Pipeline.arrRef spec39 2)) (V c (Pipeline.arrRef spec39 3))) := by
  show (cfg39.win 5).cut (grid39.coords t) ((dat39 V c).after 5 t) = _
  rw [after39_5]
  unfold out39_5
  rw [View.canon_unit_zero hz]
  simp only [View.ld_unit_zero (S := S1x8192) hz, View.ld_unit_zero (S := S1024x8192) hz, View.ld_unit_zero (S := S1x1) hz,
    View.ld_unit_zero (S := S1x1024) hz]
  obtain ⟨e00, e01, e10, e11, e20, e21, e30, e31, e40, e41, e50, e51⟩ := idx_facts t
  funext j
  obtain ⟨p, q, rfl⟩ : ∃ (p : Fin 1) (q : Fin 1024), j = ix2 p q := ⟨j 0, j 1, eq_ix2 j⟩
  obtain rfl : p = 0 := Subsingleton.elim _ _
  refine (pay2_acc (iblk39 V c 1 t) (iblk39 V c 0 t) (iblk39 V c 2 t) (iblk39 V c 3 t) q).trans ?_
  refine Eq.trans ?_ (Gy_acc (V c (Pipeline.arrRef spec39 1)) (V c (Pipeline.arrRef spec39 0)) (V c (Pipeline.arrRef spec39 2)) (V c (Pipeline.arrRef spec39 3))
    (((cfg39.win 5).blk t).view.emb (ix2 0 q))).symm
  rw [blk3 V c t q, blk2 V c t]
  refine congrArg (accAt _ _) ?_
  unfold mvRow
  refine Finset.sum_congr rfl fun k _ => ?_
  have hX : (((cfg39.win 4).blk t).view.emb (ix2 0 q)) 1 = (((cfg39.win 5).blk t).view.emb (ix2 0 q)) 1 :=
    Fin.ext (by show win39_4.index t (1 : Fin 2) * 1024 + 1 * q.val = win39_5.index t (1 : Fin 2) * 1024 + 1 * q.val; omega)
  rw [blk1 V c t k, blk0 V c t q k, hX]

/-- An index of a [1,8192] output array is in point t's block iff each coordinate is in the block's range. -/
theorem mem_blk4 (t : Fin cfg39.N) (i : S1x8192.Idx) :
    i ∈ ((cfg39.win 4).blk t).view.set ↔ ∀ a : Fin 2, win39_4.index t a * S1x1024.size a ≤ (i a).val ∧ (i a).val < win39_4.index t a * S1x1024.size a + S1x1024.size a := by
  show i ∈ ((View.whole main_call0_v286_0).slice (win39_4.rect t)).set ↔ _
  rw [View.set_slice_whole, Rect.mem_set_unit]
  exact Iff.rfl
theorem mem_blk5 (t : Fin cfg39.N) (i : S1x8192.Idx) :
    i ∈ ((cfg39.win 5).blk t).view.set ↔ ∀ a : Fin 2, win39_5.index t a * S1x1024.size a ≤ (i a).val ∧ (i a).val < win39_5.index t a * S1x1024.size a + S1x1024.size a := by
  show i ∈ ((View.whole main_call0_v286_1).slice (win39_5.rect t)).set ↔ _
  rw [View.set_slice_whole, Rect.mem_set_unit]
  exact Iff.rfl

/-- The eight blocks cover the row: column n is in the block of the point whose block index is n / 1024. -/
theorem cover4 (i : S1x8192.Idx) : ∃ t : Fin cfg39.N, (cfg39.win 4).flush t = true ∧ i ∈ ((cfg39.win 4).blk t).view.set := by
  have hi0 : (i 0).val < 1 := (i 0).isLt
  have hi1 : (i 1).val < 8192 := (i 1).isLt
  obtain ⟨t, ht⟩ := idx_onto ⟨(i 1).val / 1024, by omega⟩
  have q0 : win39_4.index t (0 : Fin 2) = 0 := congrFun ht 0
  have q1 : win39_4.index t (1 : Fin 2) = (i 1).val / 1024 := congrFun ht 1
  refine ⟨t, flush39_4 t, ?_⟩
  rw [mem_blk4]
  intro a
  match a with
  | ⟨0, _⟩ => show win39_4.index t (0 : Fin 2) * 1 ≤ (i 0).val ∧ (i 0).val < win39_4.index t (0 : Fin 2) * 1 + 1; omega
  | ⟨1, _⟩ => show win39_4.index t (1 : Fin 2) * 1024 ≤ (i 1).val ∧ (i 1).val < win39_4.index t (1 : Fin 2) * 1024 + 1024; omega
theorem cover5 (i : S1x8192.Idx) : ∃ t : Fin cfg39.N, (cfg39.win 5).flush t = true ∧ i ∈ ((cfg39.win 5).blk t).view.set := by
  have hi0 : (i 0).val < 1 := (i 0).isLt
  have hi1 : (i 1).val < 8192 := (i 1).isLt
  obtain ⟨t, ht⟩ := idx_onto ⟨(i 1).val / 1024, by omega⟩
  obtain ⟨e00, e01, e10, e11, e20, e21, e30, e31, e40, e41, e50, e51⟩ := idx_facts t
  have q1 : win39_4.index t (1 : Fin 2) = (i 1).val / 1024 := congrFun ht 1
  refine ⟨t, flush39_5 t, ?_⟩
  rw [mem_blk5]
  intro a
  match a with
  | ⟨0, _⟩ => show win39_5.index t (0 : Fin 2) * 1 ≤ (i 0).val ∧ (i 0).val < win39_5.index t (0 : Fin 2) * 1 + 1; omega
  | ⟨1, _⟩ => show win39_5.index t (1 : Fin 2) * 1024 ≤ (i 1).val ∧ (i 1).val < win39_5.index t (1 : Fin 2) * 1024 + 1024; omega

/-- THE PRODUCT ARRAY after the region. -/
theorem final4 (c : Dev nD) : (dat39 V c).arrAt 4 cfg39.N = Gv (V c (Pipeline.arrRef spec39 1)) (V c (Pipeline.arrRef spec39 0)) :=
  (dat39 V c).arrAt_eq_of_cover 4 _ (fun t _ => flushed4_eq V c t) cover4
/-- THE ACCUMULATOR ARRAY after the region. -/
theorem final5 (c : Dev nD) : (dat39 V c).arrAt 5 cfg39.N
    = Gy (V c (Pipeline.arrRef spec39 1)) (V c (Pipeline.arrRef spec39 0)) (V c (Pipeline.arrRef spec39 2)) (V c (Pipeline.arrRef spec39 3)) :=
  (dat39 V c).arrAt_eq_of_cover 5 _ (fun t _ => flushed5_eq V c t) cover5

/-! ## The region's exit contents, buffer by buffer -/

section Exit
variable (m : (ℓ : Loc nD τ sig) → Buf (Elt Ideal) ℓ) (ρ : Dev nD → PrngReg) (c : Dev nD)

/-- The product buffer after the region. -/
theorem exit_v : W80 m ρ c (Proc.devRef .tc main_call0_v286_0) = Gv (W79 m ρ c (Proc.devRef .tc main_call0_v282_0)) (W79 m ρ c (Proc.devRef .tc main_call0_v13_0)) :=
  (W80_arr m ρ c 4).trans (final4 (V79 m ρ) c)
/-- The accumulator buffer after the region. -/
theorem exit_y : W80 m ρ c (Proc.devRef .tc main_call0_v286_1)
    = Gy (W79 m ρ c (Proc.devRef .tc main_call0_v282_0)) (W79 m ρ c (Proc.devRef .tc main_call0_v13_0)) (W79 m ρ c (Proc.devRef .tc main_call0_v285)) (W79 m ρ c (Proc.devRef .tc main_call0_v282_1)) :=
  (W80_arr m ρ c 5).trans (final5 (V79 m ρ) c)
/-- The matrix is only read. -/
theorem exit_H : W80 m ρ c (Proc.devRef .tc main_call0_v13_0) = W79 m ρ c (Proc.devRef .tc main_call0_v13_0) :=
  (W80_arr m ρ c 0).trans (((dat39 (V79 m ρ) c).arrAt_in 0 rfl _).trans (A_eq39 (V79 m ρ) c 0))
/-- The incoming row is only read. -/
theorem exit_vin : W80 m ρ c (Proc.devRef .tc main_call0_v282_0) = W79 m ρ c (Proc.devRef .tc main_call0_v282_0) :=
  (W80_arr m ρ c 1).trans (((dat39 (V79 m ρ) c).arrAt_in 1 rfl _).trans (A_eq39 (V79 m ρ) c 1))
/-- A buffer that is none of the region's arrays is as at entry. -/
theorem exit_keep (b : Ref sig .tc) (hb : ∀ w, Pipeline.arrRef spec39 w ≠ b) :
    W80 m ρ c (Proc.devRef .tc b) = W79 m ρ c (Proc.devRef .tc b) := W80_of_ne m ρ c b hb

end Exit

end Cert.KernelIdeal.Region39

end
-- ==== Proof.KLayer9.lean ====
/-
  Layer 9 of the kernel program, boundary by boundary: from the contents at the entry of its first region (the input row,
  the first tap, the second coefficient, the cast matrix, the coefficient array) through its four regions and the stretches
  of host operations between them to the entry of the next layer's first region. Read as columns, the four products are the
  matrix applied one, two, three and four times to the input column, the accumulator is the weighted sum of the taps, and the
  closing stretch applies leaky_relu and the two normalisations: the specification's layer.
-/
import proofs.«144169_j55405078119367_2_alg».proof.Proof.KHost
import proofs.«144169_j55405078119367_2_alg».proof.Proof.Region36
import proofs.«144169_j55405078119367_2_alg».proof.Proof.Region37
import proofs.«144169_j55405078119367_2_alg».proof.Proof.Region38
import proofs.«144169_j55405078119367_2_alg».proof.Proof.Region39

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- LAYER 9 = (1, 4). -/
theorem layer9 (X : FVec Ideal Cert.ReferenceIdeal.S8192x1 .f32) (HnB : (⟨2, ![8192, 8192]⟩ : Shape).Idx → EReal)
    (A : FVec Ideal Cert.ReferenceIdeal.S2x5x5 .f32)
    (A73 : W73 m ρ c (Proc.devRef .tc main_arg2) = A)
    (H73 : (W73 m ρ c (Proc.devRef .tc main_call0_v13_0) : (⟨2, ![8192, 8192]⟩ : Shape).Idx → EReal) = HnB)
    (v73 : toCol (W73 m ρ c (Proc.devRef .tc main_call0_v266)) = X)
    (y73 : toCol (W73 m ρ c (Proc.devRef .tc main_call0_v270)) = (Spec.sc (F := Ideal) (Spec.coef (F := Ideal) ![1, 4, 0] Cert.ReferenceIdeal.Gen.slices_S2x5x5_S1x1x1_1_4_0 A) X))
    (a73 : W73 m ρ c (Proc.devRef .tc main_call0_v273) = as11 (Spec.coef (F := Ideal) ![1, 4, 1] Cert.ReferenceIdeal.Gen.slices_S2x5x5_S1x1x1_1_4_1 A)) :
    W80 m ρ c (Proc.devRef .tc main_arg2) = A
    ∧ toCol (W80 m ρ c (Proc.devRef .tc main_call0_v286_1)) = (addf (F := Ideal) (addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) HnB (Spec.mv (F := Ideal) HnB (Spec.mv (F := Ideal) HnB X))))) (Spec.sc (F := Ideal) (Spec.coef (F := Ideal) ![1, 4, 4] Cert.ReferenceIdeal.Gen.slices_S2x5x5_S1x1x1_1_4_4 A) (Spec.mv (F := Ideal) HnB (Spec.mv (F := Ideal) HnB (Spec.mv (F := Ideal) HnB (Spec.mv (F := Ideal) HnB X))))))
    ∧ W80 m ρ c (Proc.devRef .tc main_call0_v150) = W73 m ρ c (Proc.devRef .tc main_call0_v150) := by
  have C73 : W73 m ρ c (Proc.devRef .tc main_call0_v150) = W73 m ρ c (Proc.devRef .tc main_call0_v150) := rfl
  -- region 36: tap 1
  have H74 : (W74 m ρ c (Proc.devRef .tc main_call0_v13_0) : (⟨2, ![8192, 8192]⟩ : Shape).Idx → EReal) = HnB := (Region36.exit_H m ρ c).trans H73
  have A74 : W74 m ρ c (Proc.devRef .tc main_arg2) = A := (Region36.exit_keep m ρ c main_arg2 (by decide)).trans A73
  have v74 : toCol (W74 m ρ c (Proc.devRef .tc main_call0_v274_0)) = (Spec.mv (F := Ideal) HnB X) := by
    rw [Region36.exit_v m ρ c, toCol_Gv, v73]; exact congrArg (fun h => Spec.mv (F := Ideal) h X) H73
  have y74 : toCol (W74 m ρ c (Proc.devRef .tc main_call0_v274_1)) = (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) := by
    rw [Region36.exit_y m ρ c, a73, toCol_Gy, v73, y73]; exact congrArg (fun h => addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) h X))) H73
  have C74 : W74 m ρ c (Proc.devRef .tc main_call0_v150) = W73 m ρ c (Proc.devRef .tc main_call0_v150) := (Region36.exit_keep m ρ c main_call0_v150 (by decide)).trans C73
  -- stretch 37: the next coefficient
  have A75 : W75 m ρ c (Proc.devRef .tc main_arg2) = A := (keep37 (W74 m ρ c) main_arg2 (by decide)).trans A74
  have H75 : (W75 m ρ c (Proc.devRef .tc main_call0_v13_0) : (⟨2, ![8192, 8192]⟩ : Shape).Idx → EReal) = HnB := (keep37 (W74 m ρ c) main_call0_v13_0 (by decide)).trans H74
  have v75 : toCol (W75 m ρ c (Proc.devRef .tc main_call0_v274_0)) = (Spec.mv (F := Ideal) HnB X) := (congrArg toCol (keep37 (W74 m ρ c) main_call0_v274_0 (by decide))).trans v74
  have y75 : toCol (W75 m ρ c (Proc.devRef .tc main_call0_v274_1)) = (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) := (congrArg toCol (keep37 (W74 m ρ c) main_call0_v274_1 (by decide))).trans y74
  have a75 : W75 m ρ c (Proc.devRef .tc main_call0_v277) = as11 (Spec.coef (F := Ideal) ![1, 4, 2] Cert.ReferenceIdeal.Gen.slices_S2x5x5_S1x1x1_1_4_2 A) := (h37_a (W74 m ρ c)).trans (by rw [A74])
  have C75 : W75 m ρ c (Proc.devRef .tc main_call0_v150) = W73 m ρ c (Proc.devRef .tc main_call0_v150) := (keep37 (W74 m ρ c) main_call0_v150 (by decide)).trans C74
  -- region 37: tap 2
  have H76 : (W76 m ρ c (Proc.devRef .tc main_call0_v13_0) : (⟨2, ![8192, 8192]⟩ : Shape).Idx → EReal) = HnB := (Region37.exit_H m ρ c).trans H75
  have A76 : W76 m ρ c (Proc.devRef .tc main_arg2) = A := (Region37.exit_keep m ρ c main_arg2 (by decide)).trans A75
  have v76 : toCol (W76 m ρ c (Proc.devRef .tc main_call0_v278_0)) = (Spec.mv (F := Ideal) HnB (Spec.mv (F := Ideal) HnB X)) := by
    rw [Region37.exit_v m ρ c, toCol_Gv, v75]; exact congrArg (fun h => Spec.mv (F := Ideal) h (Spec.mv (F := Ideal) HnB X)) H75
  have y76 : toCol (W76 m ρ c (Proc.devRef .tc main_call0_v278_1)) = (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) := by
    rw [Region37.exit_y m ρ c, a75, toCol_Gy, v75, y75]; exact congrArg (fun h => addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) h (Spec.mv (F := Ideal) HnB X)))) H75
  have C76 : W76 m ρ c (Proc.devRef .tc main_call0_v150) = W73 m ρ c (Proc.devRef .tc main_call0_v150) := (Region37.exit_keep m ρ c main_call0_v150 (by decide)).trans C75
  -- stretch 38: the next coefficient
  have A77 : W77 m ρ c (Proc.devRef .tc main_arg2) = A := (keep38 (W76 m ρ c) main_arg2 (by decide)).trans A76
  have H77 : (W77 m ρ c (Proc.devRef .tc main_call0_v13_0) : (⟨2, ![8192, 8192]⟩ : Shape).Idx → EReal) = HnB := (keep38 (W76 m ρ c) main_call0_v13_0 (by decide)).trans H76
  have v77 : toCol (W77 m ρ c (Proc.devRef .tc main_call0_v278_0)) = (Spec.mv (F := Ideal) HnB (Spec.mv (F := Ideal) HnB X)) := (congrArg toCol (keep38 (W76 m ρ c) main_call0_v278_0 (by decide))).trans v76
  have y77 : toCol (W77 m ρ c (Proc.devRef .tc main_call0_v278_1)) = (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) := (congrArg toCol (keep38 (W76 m ρ c) main_call0_v278_1 (by decide))).trans y76
  have a77 : W77 m ρ c (Proc.devRef .tc main_call0_v281) = as11 (Spec.coef (F := Ideal) ![1, 4, 3] Cert.ReferenceIdeal.Gen.slices_S2x5x5_S1x1x1_1_4_3 A) := (h38_a (W76 m ρ c)).trans (by rw [A76])
  have C77 : W77 m ρ c (Proc.devRef .tc main_call0_v150) = W73 m ρ c (Proc.devRef .tc main_call0_v150) := (keep38 (W76 m ρ c) main_call0_v150 (by decide)).trans C76
  -- region 38: tap 3
  have H78 : (W78 m ρ c (Proc.devRef .tc main_call0_v13_0) : (⟨2, ![8192, 8192]⟩ : Shape).Idx → EReal) = HnB := (Region38.exit_H m ρ c).trans H77
  have A78 : W78 m ρ c (Proc.devRef .tc main_arg2) = A := (Region38.exit_keep m ρ c main_arg2 (by decide)).trans A77
  have v78 : toCol (W78 m ρ c (Proc.devRef .tc main_call0_v282_0)) = (Spec.mv (F := Ideal) HnB (Spec.mv (F := Ideal) HnB (Spec.mv (F := Ideal) HnB X))) := by
    rw [Region38.exit_v m ρ c, toCol_Gv, v77]; exact congrArg (fun h => Spec.mv (F := Ideal) h (Spec.mv (F := Ideal) HnB (Spec.mv (F := Ideal) HnB X))) H77
  have y78 : toCol (W78 m ρ c (Proc.devRef .tc main_call0_v282_1)) = (addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) HnB (Spec.mv (F := Ideal) HnB (Spec.mv (F := Ideal) HnB X))))) := by
    rw [Region38.exit_y m ρ c, a77, toCol_Gy, v77, y77]; exact congrArg (fun h => addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) h (Spec.mv (F := Ideal) HnB (Spec.mv (F := Ideal) HnB X))))) H77
  have C78 : W78 m ρ c (Proc.devRef .tc main_call0_v150) = W73 m ρ c (Proc.devRef .tc main_call0_v150) := (Region38.exit_keep m ρ c main_call0_v150 (by decide)).trans C77
  -- stretch 39: the next coefficient
  have A79 : W79 m ρ c (Proc.devRef .tc main_arg2) = A := (keep39 (W78 m ρ c) main_arg2 (by decide)).trans A78
  have H79 : (W79 m ρ c (Proc.devRef .tc main_call0_v13_0) : (⟨2, ![8192, 8192]⟩ : Shape).Idx → EReal) = HnB := (keep39 (W78 m ρ c) main_call0_v13_0 (by decide)).trans H78
  have v79 : toCol (W79 m ρ c (Proc.devRef .tc main_call0_v282_0)) = (Spec.mv (F := Ideal) HnB (Spec.mv (F := Ideal) HnB (Spec.mv (F := Ideal) HnB X))) := (congrArg toCol (keep39 (W78 m ρ c) main_call0_v282_0 (by decide))).trans v78
  have y79 : toCol (W79 m ρ c (Proc.devRef .tc main_call0_v282_1)) = (addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) HnB (Spec.mv (F := Ideal) HnB (Spec.mv (F := Ideal) HnB X))))) := (congrArg toCol (keep39 (W78 m ρ c) main_call0_v282_1 (by decide))).trans y78
  have a79 : W79 m ρ c (Proc.devRef .tc main_call0_v285) = as11 (Spec.coef (F := Ideal) ![1, 4, 4] Cert.ReferenceIdeal.Gen.slices_S2x5x5_S1x1x1_1_4_4 A) := (h39_a (W78 m ρ c)).trans (by rw [A78])
  have C79 : W79 m ρ c (Proc.devRef .tc main_call0_v150) = W73 m ρ c (Proc.devRef .tc main_call0_v150) := (keep39 (W78 m ρ c) main_call0_v150 (by decide)).trans C78
  -- region 39: tap 4
  have H80 : (W80 m ρ c (Proc.devRef .tc main_call0_v13_0) : (⟨2, ![8192, 8192]⟩ : Shape).Idx → EReal) = HnB := (Region39.exit_H m ρ c).trans H79
  have A80 : W80 m ρ c (Proc.devRef .tc main_arg2) = A := (Region39.exit_keep m ρ c main_arg2 (by decide)).trans A79
  have v80 : toCol (W80 m ρ c (Proc.devRef .tc main_call0_v286_0)) = (Spec.mv (F := Ideal) HnB (Spec.mv (F := Ideal) HnB (Spec.mv (F := Ideal) HnB (Spec.mv (F := Ideal) HnB X)))) := by
    rw [Region39.exit_v m ρ c, toCol_Gv, v79]; exact congrArg (fun h => Spec.mv (F := Ideal) h (Spec.mv (F := Ideal) HnB (Spec.mv (F := Ideal) HnB (Spec.mv (F := Ideal) HnB X)))) H79
  have y80 : toCol (W80 m ρ c (Proc.devRef .tc main_call0_v286_1)) = (addf (F := Ideal) (addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) HnB (Spec.mv (F := Ideal) HnB (Spec.mv (F := Ideal) HnB X))))) (Spec.sc (F := Ideal) (Spec.coef (F := Ideal) ![1, 4, 4] Cert.ReferenceIdeal.Gen.slices_S2x5x5_S1x1x1_1_4_4 A) (Spec.mv (F := Ideal) HnB (Spec.mv (F := Ideal) HnB (Spec.mv (F := Ideal) HnB (Spec.mv (F := Ideal) HnB X)))))) := by
    rw [Region39.exit_y m ρ c, a79, toCol_Gy, v79, y79]; exact congrArg (fun h => addf (F := Ideal) (addf (F := Ideal) (addf (F := Ideal) (addf (F := Ideal) (Spec.sc (F := Ideal) (Spec.coef (F := Ideal) ![1, 4, 0] Cert.ReferenceIdeal.Gen.slices_S2x5x5_S1x1x1_1_4_0 A) X) (Spec.sc (F := Ideal) (Spec.coef (F := Ideal) ![1, 4, 1] Cert.ReferenceIdeal.Gen.slices_S2x5x5_S1x1x1_1_4_1 A) (Spec.mv (F := Ideal) HnB X))) (Spec.sc (F := Ideal) (Spec.coef (F := Ideal) ![1, 4, 2] Cert.ReferenceIdeal.Gen.slices_S2x5x5_S1x1x1_1_4_2 A) (Spec.mv (F := Ideal) HnB (Spec.mv (F := Ideal) HnB X)))) (Spec.sc (F := Ideal) (Spec.coef (F := Ideal) ![1, 4, 3] Cert.ReferenceIdeal.Gen.slices_S2x5x5_S1x1x1_1_4_3 A) (Spec.mv (F := Ideal) HnB (Spec.mv (F := Ideal) HnB (Spec.mv (F := Ideal) HnB X))))) (Spec.sc (F := Ideal) (Spec.coef (F := Ideal) ![1, 4, 4] Cert.ReferenceIdeal.Gen.slices_S2x5x5_S1x1x1_1_4_4 A) (Spec.mv (F := Ideal) h (Spec.mv (F := Ideal) HnB (Spec.mv (F := Ideal) HnB (Spec.mv (F := Ideal) HnB X)))))) H79
  have C80 : W80 m ρ c (Proc.devRef .tc main_call0_v150) = W73 m ρ c (Proc.devRef .tc main_call0_v150) := (Region39.exit_keep m ρ c main_call0_v150 (by decide)).trans C79
  exact ⟨A80, y80, C80⟩

end Cert.KernelIdeal.Chain

end
-- ==== Proof.KValue.lean ====
/-
  The kernel program's result, as one function of the three argument arrays: the fold through the 81 segments of @main, layer
  by layer — the ten layers chained (each takes the previous layer's column), the first output column kept from the end of layer
  4 to the last stretch, and the last stretch's sigmoid of the two columns side by side — is the specification's `out`.
-/
import proofs.«144169_j55405078119367_2_alg».proof.Proof.KHost
import proofs.«144169_j55405078119367_2_alg».proof.Proof.KLayer0
import proofs.«144169_j55405078119367_2_alg».proof.Proof.KLayer1
import proofs.«144169_j55405078119367_2_alg».proof.Proof.KLayer2
import proofs.«144169_j55405078119367_2_alg».proof.Proof.KLayer3
import proofs.«144169_j55405078119367_2_alg».proof.Proof.KLayer4
import proofs.«144169_j55405078119367_2_alg».proof.Proof.KLayer5
import proofs.«144169_j55405078119367_2_alg».proof.Proof.KLayer6
import proofs.«144169_j55405078119367_2_alg».proof.Proof.KLayer7
import proofs.«144169_j55405078119367_2_alg».proof.Proof.KLayer8
import proofs.«144169_j55405078119367_2_alg».proof.Proof.KLayer9

set_option maxRecDepth 16384

noncomputable section

namespace Cert.KernelIdeal.Chain

open Cert.KernelIdeal Cert.KernelIdeal.Gen Cert.KernelIdeal.GenP Cert.KernelIdeal.Bridge Cert.KernelIdeal.KHost
open Idealize.ShloMosaic Idealize.ShloMosaic.TcCoe Idealize.ShloMosaic.StableHlo Idealize.SL.Sem
open Cert.ReferenceIdeal (Spec.bc Spec.mv Spec.sc Spec.leaky Spec.meanB Spec.norm Spec.coef Spec.taps Spec.layer Spec.x0 Spec.Hn Spec.tail Spec.out Spec.col0 Spec.col1 Spec.layer00 Spec.layer01 Spec.layer02 Spec.layer03 Spec.layer04 Spec.layer10 Spec.layer11 Spec.layer12 Spec.layer13 Spec.layer14)

variable (m : (ℓ : Loc nD τ sig) → Buf (Elt Ideal) ℓ) (ρ : Dev nD → PrngReg) (c : Dev nD)

/-- THE KERNEL'S VALUE: the result buffer at the last boundary is the specification of the launch contents of the arguments. -/
theorem kernel_value :
    W81 m ρ c (Proc.devRef .tc main_v0)
      = Spec.out (F := Ideal) (m ((c : Thread nD τ).loc main_arg0)) (m ((c : Thread nD τ).loc main_arg1)) (m ((c : Thread nD τ).loc main_arg2)) := by
  obtain ⟨A9, H9, x9, y9, a9⟩ := layer0 m ρ c
  obtain ⟨A17, H17, x17, y17, a17⟩ := layer1 m ρ c _ _ _ A9 H9 x9 y9 a9
  obtain ⟨A25, H25, x25, y25, a25⟩ := layer2 m ρ c _ _ _ A17 H17 x17 y17 a17
  obtain ⟨A33, H33, x33, y33, a33⟩ := layer3 m ρ c _ _ _ A25 H25 x25 y25 a25
  obtain ⟨A41, H41, x41, y41, a41⟩ := layer4 m ρ c _ _ _ A33 H33 x33 y33 a33
  obtain ⟨A49, H49, x49, y49, a49, C49⟩ := layer5 m ρ c _ _ _ A41 H41 x41 y41 a41
  obtain ⟨A57, H57, x57, y57, a57, C57⟩ := layer6 m ρ c _ _ _ A49 H49 x49 y49 a49
  obtain ⟨A65, H65, x65, y65, a65, C65⟩ := layer7 m ρ c _ _ _ A57 H57 x57 y57 a57
  obtain ⟨A73, H73, x73, y73, a73, C73⟩ := layer8 m ρ c _ _ _ A65 H65 x65 y65 a65
  obtain ⟨A80, y80, C80⟩ := layer9 m ρ c _ _ _ A73 H73 x73 y73 a73
  have hC : toCol (W80 m ρ c (Proc.devRef .tc main_call0_v150)) = toCol (W41 m ρ c (Proc.devRef .tc main_call0_v150)) :=
    congrArg toCol (C80.trans (C73.trans (C65.trans (C57.trans C49))))
  refine (h40_out (W80 m ρ c)).trans ?_
  rw [hC, x41, y80]
  rfl

end Cert.KernelIdeal.Chain

end
-- ==== Proof.RefOps.lean ====
/-
  The reference program's @main as the straight line of its host operations. @main is printed in eight windows; each
  window is the list of its operations in order, a call of leaky_relu contributing the callee's seven operations
  (the zero and its spread, the comparison, the slope and its spread, the product, then the select of the nested
  where) over the call's own buffers. The program is the concatenation of the eight lists, every operation touches
  TensorCore references only and determines its result, so the run of @main ends with each buffer at the fold of the
  operations' results over the launch contents.
-/
import proofs.«144169_j55405078119367_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of statements window 0 of @main, in order, each call's operations inline over the call's record. -/
abbrev ops0 : List (HloOp τ sig (Elt F)) :=
  (
    (StableHlo.nullary main_cst (constant S_ .f32 0x3F800000#32)) ::
    (StableHlo.unary main_cst main_v0 (broadcastInDim S8192x8192 ![] bcast_S_S8192x8192 : (⟨S_, .f32⟩ : BufTy).Contents (Elt F) → (⟨S8192x8192, .f32⟩ : BufTy).Contents (Elt F))) ::
    (StableHlo.binary main_arg0 main_v0 main_v1 (addf : (⟨S8192x8192, .f32⟩ : BufTy).Contents (Elt F) → (⟨S8192x8192, .f32⟩ : BufTy).Contents (Elt F) → (⟨S8192x8192, .f32⟩ : BufTy).Contents (Elt F))) ::
    (StableHlo.nullary main_cst_0 (constant S_ .f32 0x3F000000#32)) ::
    (StableHlo.unary main_cst_0 main_v2 (broadcastInDim S8192x8192 ![] bcast_S_S8192x8192 : (⟨S_, .f32⟩ : BufTy).Contents (Elt F) → (⟨S8192x8192, .f32⟩ : BufTy).Contents (Elt F))) ::
    (StableHlo.binary main_v1 main_v2 main_v3 (mulf : (⟨S8192x8192, .f32⟩ : BufTy).Contents (Elt F) → (⟨S8192x8192, .f32⟩ : BufTy).Contents (Elt F) → (⟨S8192x8192, .f32⟩ : BufTy).Contents (Elt F))) ::
    (StableHlo.nullary main_cst_1 (constant S_ .f32 0x3F800000#32)) ::
    (StableHlo.unary main_cst_1 main_v4 (broadcastInDim S8192x1 ![] bcast_S_S8192x1 : (⟨S_, .f32⟩ : BufTy).Contents (Elt F) → (⟨S8192x1, .f32⟩ : BufTy).Contents (Elt F))) ::
    (StableHlo.binary main_arg1 main_v4 main_v5 (addf : (⟨S8192x1, .f32⟩ : BufTy).Contents (Elt F) → (⟨S8192x1, .f32⟩ : BufTy).Contents (Elt F) → (⟨S8192x1, .f32⟩ : BufTy).Contents (Elt F))) ::
    (StableHlo.nullary main_cst_2 (constant S_ .f32 0x3F000000#32)) ::
    (StableHlo.unary main_cst_2 main_v6 (broadcastInDim S8192x1 ![] bcast_S_S8192x1 : (⟨S_, .f32⟩ : BufTy).Contents (Elt F) → (⟨S8192x1, .f32⟩ : BufTy).Contents (Elt F))) ::
    (StableHlo.binary main_v5 main_v6 main_v7 (mulf : (⟨S8192x1, .f32⟩ : BufTy).Contents (Elt F) → (⟨S8192x1, .f32⟩ : BufTy).Contents (Elt F) → (⟨S8192x1, .f32⟩ : BufTy).Contents (Elt F))) ::
    (StableHlo.unary main_arg2 main_v8 ((extractStridedSlice S1x1x1 ![0, 0, 0] · slices_S2x5x5_S1x1x1_0_0_0) : (⟨S2x5x5, .f32⟩ : BufTy).Contents (Elt F) → (⟨S1x1x1, .f32⟩ : BufTy).Contents (Elt F))) ::
    (StableHlo.reshape main_v8 main_v9 rfl shapeCasts_S1x1x1_S_) ::
    (StableHlo.unary main_v9 main_v10 (broadcastInDim S8192x1 ![] bcast_S_S8192x1 : (⟨S_, .f32⟩ : BufTy).Contents (Elt F) → (⟨S8192x1, .f32⟩ : BufTy).Contents (Elt F))) ::
    (StableHlo.binary main_v10 main_v7 main_v11 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v7 main_v12 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v13 ((extractStridedSlice S1x1x1 ![0, 0, 1] · slices_S2x5x5_S1x1x1_0_0_1) : (⟨S2x5x5, .f32⟩ : BufTy).Contents (Elt F) → (⟨S1x1x1, .f32⟩ : BufTy).Contents (Elt F))) ::
    (StableHlo.reshape main_v13 main_v14 rfl shapeCasts_S1x1x1_S_) ::
    (StableHlo.unary main_v14 main_v15 (broadcastInDim S8192x1 ![] bcast_S_S8192x1 : (⟨S_, .f32⟩ : BufTy).Contents (Elt F) → (⟨S8192x1, .f32⟩ : BufTy).Contents (Elt F))) ::
    (StableHlo.binary main_v15 main_v12 main_v16 (mulf : (⟨S8192x1, .f32⟩ : BufTy).Contents (Elt F) → (⟨S8192x1, .f32⟩ : BufTy).Contents (Elt F) → (⟨S8192x1, .f32⟩ : BufTy).Contents (Elt F))) ::
    (StableHlo.binary main_v11 main_v16 main_v17 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v12 main_v18 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v19 ((extractStridedSlice S1x1x1 ![0, 0, 2] · slices_S2x5x5_S1x1x1_0_0_2) : (⟨S2x5x5, .f32⟩ : BufTy).Contents (Elt F) → (⟨S1x1x1, .f32⟩ : BufTy).Contents (Elt F))) ::
    (StableHlo.reshape main_v19 main_v20 rfl shapeCasts_S1x1x1_S_) ::
    (StableHlo.unary main_v20 main_v21 (broadcastInDim S8192x1 ![] bcast_S_S8192x1 : (⟨S_, .f32⟩ : BufTy).Contents (Elt F) → (⟨S8192x1, .f32⟩ : BufTy).Contents (Elt F))) ::
    (StableHlo.binary main_v21 main_v18 main_v22 (mulf : (⟨S8192x1, .f32⟩ : BufTy).Contents (Elt F) → (⟨S8192x1, .f32⟩ : BufTy).Contents (Elt F) → (⟨S8192x1, .f32⟩ : BufTy).Contents (Elt F))) ::
    (StableHlo.binary main_v17 main_v22 main_v23 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v18 main_v24 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v25 ((extractStridedSlice S1x1x1 ![0, 0, 3] · slices_S2x5x5_S1x1x1_0_0_3) : (⟨S2x5x5, .f32⟩ : BufTy).Contents (Elt F) → (⟨S1x1x1, .f32⟩ : BufTy).Contents (Elt F))) ::
    (StableHlo.reshape main_v25 main_v26 rfl shapeCasts_S1x1x1_S_) ::
    (StableHlo.unary main_v26 main_v27 (broadcastInDim S8192x1 ![] bcast_S_S8192x1 : (⟨S_, .f32⟩ : BufTy).Contents (Elt F) → (⟨S8192x1, .f32⟩ : BufTy).Contents (Elt F))) ::
    (StableHlo.binary main_v27 main_v24 main_v28 (mulf : (⟨S8192x1, .f32⟩ : BufTy).Contents (Elt F) → (⟨S8192x1, .f32⟩ : BufTy).Contents (Elt F) → (⟨S8192x1, .f32⟩ : BufTy).Contents (Elt F))) ::
    (StableHlo.binary main_v23 main_v28 main_v29 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v24 main_v30 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v31 ((extractStridedSlice S1x1x1 ![0, 0, 4] · slices_S2x5x5_S1x1x1_0_0_4) : (⟨S2x5x5, .f32⟩ : BufTy).Contents (Elt F) → (⟨S1x1x1, .f32⟩ : BufTy).Contents (Elt F))) ::
    (StableHlo.reshape main_v31 main_v32 rfl shapeCasts_S1x1x1_S_) ::
    (StableHlo.unary main_v32 main_v33 (broadcastInDim S8192x1 ![] bcast_S_S8192x1 : (⟨S_, .f32⟩ : BufTy).Contents (Elt F) → (⟨S8192x1, .f32⟩ : BufTy).Contents (Elt F))) ::
    (StableHlo.binary main_v33 main_v30 main_v34 (mulf : (⟨S8192x1, .f32⟩ : BufTy).Contents (Elt F) → (⟨S8192x1, .f32⟩ : BufTy).Contents (Elt F) → (⟨S8192x1, .f32⟩ : BufTy).Contents (Elt F))) ::
    (StableHlo.binary main_v29 main_v34 main_v35 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call0.cst (constant S_ .f32 0x00000000#32)) ::
    (StableHlo.TRef.unary main_call0.cst main_call0.v0 (broadcastInDim S8192x1 ![] bcast_S_S8192x1)) ::
    (StableHlo.TRef.binary (.of main_v35) main_call0.v0 main_call0.v1 (cmpf (F := F) .oge)) ::
    (StableHlo.TRef.nullary main_call0.cst_0 (constant S_ .f32 0x3C23D70A#32)) ::
    (StableHlo.TRef.unary main_call0.cst_0 main_call0.v2 (broadcastInDim S8192x1 ![] bcast_S_S8192x1)) ::
    (StableHlo.TRef.binary main_call0.v2 (.of main_v35) main_call0.v3 mulf) ::
    (StableHlo.TRef.ternary main_call0.v1 (.of main_v35) main_call0.v3 main_call0.call0.v0 select) ::
    (StableHlo.nullary main_cst_3 (constant S_ .f32 0x00000000#32)) ::
    (StableHlo.binary main_v36 main_cst_3 main_v37 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_4 (constant S_ .f32 0x46000000#32)) ::
    (StableHlo.binary main_v37 main_cst_4 main_v38 (Host.divf : (⟨S_, .f32⟩ : BufTy).Contents (Elt F) → (⟨S_, .f32⟩ : BufTy).Contents (Elt F) → (⟨S_, .f32⟩ : BufTy).Contents (Elt F))) ::
    (StableHlo.unary main_v38 main_v39 (broadcastInDim S8192x1 ![] bcast_S_S8192x1 : (⟨S_, .f32⟩ : BufTy).Contents (Elt F) → (⟨S8192x1, .f32⟩ : BufTy).Contents (Elt F))) ::
    (StableHlo.binary main_v36 main_v39 main_v40 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_5 (constant S_ .f32 0x00000000#32)) ::
    (StableHlo.binary main_v40 main_cst_5 main_v41 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_6 (constant S_ .f32 0x46000000#32)) ::
    (StableHlo.binary main_v41 main_cst_6 main_v42 (Host.divf : (⟨S_, .f32⟩ : BufTy).Contents (Elt F) → (⟨S_, .f32⟩ : BufTy).Contents (Elt F) → (⟨S_, .f32⟩ : BufTy).Contents (Elt F))) ::
    (StableHlo.unary main_v42 main_v43 (broadcastInDim S8192x1 ![] bcast_S_S8192x1 : (⟨S_, .f32⟩ : BufTy).Contents (Elt F) → (⟨S8192x1, .f32⟩ : BufTy).Contents (Elt F))) ::
    (StableHlo.binary main_v40 main_v43 main_v44 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v45 ((extractStridedSlice S1x1x1 ![0, 1, 0] · slices_S2x5x5_S1x1x1_0_1_0) : (⟨S2x5x5, .f32⟩ : BufTy).Contents (Elt F) → (⟨S1x1x1, .f32⟩ : BufTy).Contents (Elt F))) ::
    (StableHlo.reshape main_v45 main_v46 rfl shapeCasts_S1x1x1_S_) ::
    (StableHlo.unary main_v46 main_v47 (broadcastInDim S8192x1 ![] bcast_S_S8192x1 : (⟨S_, .f32⟩ : BufTy).Contents (Elt F) → (⟨S8192x1, .f32⟩ : BufTy).Contents (Elt F))) ::
    (StableHlo.binary main_v47 main_v44 main_v48 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v44 main_v49 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v50 ((extractStridedSlice S1x1x1 ![0, 1, 1] · slices_S2x5x5_S1x1x1_0_1_1) : (⟨S2x5x5, .f32⟩ : BufTy).Contents (Elt F) → (⟨S1x1x1, .f32⟩ : BufTy).Contents (Elt F))) ::
    (StableHlo.reshape main_v50 main_v51 rfl shapeCasts_S1x1x1_S_) :: []
  )

/-- The operations of statements window 1 of @main, in order, each call's operations inline over the call's record. -/
abbrev ops1 : List (HloOp τ sig (Elt F)) :=
  (
    (StableHlo.unary main_v51 main_v52 (broadcastInDim S8192x1 ![] bcast_S_S8192x1 : (⟨S_, .f32⟩ : BufTy).Contents (Elt F) → (⟨S8192x1, .f32⟩ : BufTy).Contents (Elt F))) ::
    (StableHlo.binary main_v52 main_v49 main_v53 (mulf : (⟨S8192x1, .f32⟩ : BufTy).Contents (Elt F) → (⟨S8192x1, .f32⟩ : BufTy).Contents (Elt F) → (⟨S8192x1, .f32⟩ : BufTy).Contents (Elt F))) ::
    (StableHlo.binary main_v48 main_v53 main_v54 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v49 main_v55 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v56 ((extractStridedSlice S1x1x1 ![0, 1, 2] · slices_S2x5x5_S1x1x1_0_1_2) : (⟨S2x5x5, .f32⟩ : BufTy).Contents (Elt F) → (⟨S1x1x1, .f32⟩ : BufTy).Contents (Elt F))) ::
    (StableHlo.reshape main_v56 main_v57 rfl shapeCasts_S1x1x1_S_) ::
    (StableHlo.unary main_v57 main_v58 (broadcastInDim S8192x1 ![] bcast_S_S8192x1 : (⟨S_, .f32⟩ : BufTy).Contents (Elt F) → (⟨S8192x1, .f32⟩ : BufTy).Contents (Elt F))) ::
    (StableHlo.binary main_v58 main_v55 main_v59 (mulf : (⟨S8192x1, .f32⟩ : BufTy).Contents (Elt F) → (⟨S8192x1, .f32⟩ : BufTy).Contents (Elt F) → (⟨S8192x1, .f32⟩ : BufTy).Contents (Elt F))) ::
    (StableHlo.binary main_v54 main_v59 main_v60 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v55 main_v61 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v62 ((extractStridedSlice S1x1x1 ![0, 1, 3] · slices_S2x5x5_S1x1x1_0_1_3) : (⟨S2x5x5, .f32⟩ : BufTy).Contents (Elt F) → (⟨S1x1x1, .f32⟩ : BufTy).Contents (Elt F))) ::
    (StableHlo.reshape main_v62 main_v63 rfl shapeCasts_S1x1x1_S_) ::
    (StableHlo.unary main_v63 main_v64 (broadcastInDim S8192x1 ![] bcast_S_S8192x1 : (⟨S_, .f32⟩ : BufTy).Contents (Elt F) → (⟨S8192x1, .f32⟩ : BufTy).Contents (Elt F))) ::
    (StableHlo.binary main_v64 main_v61 main_v65 (mulf : (⟨S8192x1, .f32⟩ : BufTy).Contents (Elt F) → (⟨S8192x1, .f32⟩ : BufTy).Contents (Elt F) → (⟨S8192x1, .f32⟩ : BufTy).Contents (Elt F))) ::
    (StableHlo.binary main_v60 main_v65 main_v66 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v61 main_v67 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v68 ((extractStridedSlice S1x1x1 ![0, 1, 4] · slices_S2x5x5_S1x1x1_0_1_4) : (⟨S2x5x5, .f32⟩ : BufTy).Contents (Elt F) → (⟨S1x1x1, .f32⟩ : BufTy).Contents (Elt F))) ::
    (StableHlo.reshape main_v68 main_v69 rfl shapeCasts_S1x1x1_S_) ::
    (StableHlo.unary main_v69 main_v70 (broadcastInDim S8192x1 ![] bcast_S_S8192x1 : (⟨S_, .f32⟩ : BufTy).Contents (Elt F) → (⟨S8192x1, .f32⟩ : BufTy).Contents (Elt F))) ::
    (StableHlo.binary main_v70 main_v67 main_v71 (mulf : (⟨S8192x1, .f32⟩ : BufTy).Contents (Elt F) → (⟨S8192x1, .f32⟩ : BufTy).Contents (Elt F) → (⟨S8192x1, .f32⟩ : BufTy).Contents (Elt F))) ::
    (StableHlo.binary main_v66 main_v71 main_v72 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call1.cst (constant S_ .f32 0x00000000#32)) ::
    (StableHlo.TRef.unary main_call1.cst main_call1.v0 (broadcastInDim S8192x1 ![] bcast_S_S8192x1)) ::
    (StableHlo.TRef.binary (.of main_v72) main_call1.v0 main_call1.v1 (cmpf (F := F) .oge)) ::
    (StableHlo.TRef.nullary main_call1.cst_0 (constant S_ .f32 0x3C23D70A#32)) ::
    (StableHlo.TRef.unary main_call1.cst_0 main_call1.v2 (broadcastInDim S8192x1 ![] bcast_S_S8192x1)) ::
    (StableHlo.TRef.binary main_call1.v2 (.of main_v72) main_call1.v3 mulf) ::
    (StableHlo.TRef.ternary main_call1.v1 (.of main_v72) main_call1.v3 main_call1.call0.v0 select) ::
    (StableHlo.nullary main_cst_7 (constant S_ .f32 0x00000000#32)) ::
    (StableHlo.binary main_v73 main_cst_7 main_v74 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_8 (constant S_ .f32 0x46000000#32)) ::
    (StableHlo.binary main_v74 main_cst_8 main_v75 (Host.divf : (⟨S_, .f32⟩ : BufTy).Contents (Elt F) → (⟨S_, .f32⟩ : BufTy).Contents (Elt F) → (⟨S_, .f32⟩ : BufTy).Contents (Elt F))) ::
    (StableHlo.unary main_v75 main_v76 (broadcastInDim S8192x1 ![] bcast_S_S8192x1 : (⟨S_, .f32⟩ : BufTy).Contents (Elt F) → (⟨S8192x1, .f32⟩ : BufTy).Contents (Elt F))) ::
    (StableHlo.binary main_v73 main_v76 main_v77 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_9 (constant S_ .f32 0x00000000#32)) ::
    (StableHlo.binary main_v77 main_cst_9 main_v78 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_10 (constant S_ .f32 0x46000000#32)) ::
    (StableHlo.binary main_v78 main_cst_10 main_v79 (Host.divf : (⟨S_, .f32⟩ : BufTy).Contents (Elt F) → (⟨S_, .f32⟩ : BufTy).Contents (Elt F) → (⟨S_, .f32⟩ : BufTy).Contents (Elt F))) ::
    (StableHlo.unary main_v79 main_v80 (broadcastInDim S8192x1 ![] bcast_S_S8192x1 : (⟨S_, .f32⟩ : BufTy).Contents (Elt F) → (⟨S8192x1, .f32⟩ : BufTy).Contents (Elt F))) ::
    (StableHlo.binary main_v77 main_v80 main_v81 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v82 ((extractStridedSlice S1x1x1 ![0, 2, 0] · slices_S2x5x5_S1x1x1_0_2_0) : (⟨S2x5x5, .f32⟩ : BufTy).Contents (Elt F) → (⟨S1x1x1, .f32⟩ : BufTy).Contents (Elt F))) ::
    (StableHlo.reshape main_v82 main_v83 rfl shapeCasts_S1x1x1_S_) ::
    (StableHlo.unary main_v83 main_v84 (broadcastInDim S8192x1 ![] bcast_S_S8192x1 : (⟨S_, .f32⟩ : BufTy).Contents (Elt F) → (⟨S8192x1, .f32⟩ : BufTy).Contents (Elt F))) ::
    (StableHlo.binary main_v84 main_v81 main_v85 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v81 main_v86 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v87 ((extractStridedSlice S1x1x1 ![0, 2, 1] · slices_S2x5x5_S1x1x1_0_2_1) : (⟨S2x5x5, .f32⟩ : BufTy).Contents (Elt F) → (⟨S1x1x1, .f32⟩ : BufTy).Contents (Elt F))) ::
    (StableHlo.reshape main_v87 main_v88 rfl shapeCasts_S1x1x1_S_) ::
    (StableHlo.unary main_v88 main_v89 (broadcastInDim S8192x1 ![] bcast_S_S8192x1 : (⟨S_, .f32⟩ : BufTy).Contents (Elt F) → (⟨S8192x1, .f32⟩ : BufTy).Contents (Elt F))) ::
    (StableHlo.binary main_v89 main_v86 main_v90 (mulf : (⟨S8192x1, .f32⟩ : BufTy).Contents (Elt F) → (⟨S8192x1, .f32⟩ : BufTy).Contents (Elt F) → (⟨S8192x1, .f32⟩ : BufTy).Contents (Elt F))) ::
    (StableHlo.binary main_v85 main_v90 main_v91 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v86 main_v92 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v93 ((extractStridedSlice S1x1x1 ![0, 2, 2] · slices_S2x5x5_S1x1x1_0_2_2) : (⟨S2x5x5, .f32⟩ : BufTy).Contents (Elt F) → (⟨S1x1x1, .f32⟩ : BufTy).Contents (Elt F))) ::
    (StableHlo.reshape main_v93 main_v94 rfl shapeCasts_S1x1x1_S_) ::
    (StableHlo.unary main_v94 main_v95 (broadcastInDim S8192x1 ![] bcast_S_S8192x1 : (⟨S_, .f32⟩ : BufTy).Contents (Elt F) → (⟨S8192x1, .f32⟩ : BufTy).Contents (Elt F))) ::
    (StableHlo.binary main_v95 main_v92 main_v96 (mulf : (⟨S8192x1, .f32⟩ : BufTy).Contents (Elt F) → (⟨S8192x1, .f32⟩ : BufTy).Contents (Elt F) → (⟨S8192x1, .f32⟩ : BufTy).Contents (Elt F))) ::
    (StableHlo.binary main_v91 main_v96 main_v97 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v92 main_v98 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v99 ((extractStridedSlice S1x1x1 ![0, 2, 3] · slices_S2x5x5_S1x1x1_0_2_3) : (⟨S2x5x5, .f32⟩ : BufTy).Contents (Elt F) → (⟨S1x1x1, .f32⟩ : BufTy).Contents (Elt F))) ::
    (StableHlo.reshape main_v99 main_v100 rfl shapeCasts_S1x1x1_S_) ::
    (StableHlo.unary main_v100 main_v101 (broadcastInDim S8192x1 ![] bcast_S_S8192x1 : (⟨S_, .f32⟩ : BufTy).Contents (Elt F) → (⟨S8192x1, .f32⟩ : BufTy).Contents (Elt F))) ::
    (StableHlo.binary main_v101 main_v98 main_v102 (mulf : (⟨S8192x1, .f32⟩ : BufTy).Contents (Elt F) → (⟨S8192x1, .f32⟩ : BufTy).Contents (Elt F) → (⟨S8192x1, .f32⟩ : BufTy).Contents (Elt F))) ::
    (StableHlo.binary main_v97 main_v102 main_v103 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v98 main_v104 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v105 ((extractStridedSlice S1x1x1 ![0, 2, 4] · slices_S2x5x5_S1x1x1_0_2_4) : (⟨S2x5x5, .f32⟩ : BufTy).Contents (Elt F) → (⟨S1x1x1, .f32⟩ : BufTy).Contents (Elt F))) ::
    (StableHlo.reshape main_v105 main_v106 rfl shapeCasts_S1x1x1_S_) ::
    (StableHlo.unary main_v106 main_v107 (broadcastInDim S8192x1 ![] bcast_S_S8192x1 : (⟨S_, .f32⟩ : BufTy).Contents (Elt F) → (⟨S8192x1, .f32⟩ : BufTy).Contents (Elt F))) :: []
  )

/-- The operations of statements window 2 of @main, in order, each call's operations inline over the call's record. -/
abbrev ops2 : List (HloOp τ sig (Elt F)) :=
  (
    (StableHlo.binary main_v107 main_v104 main_v108 (mulf : (⟨S8192x1, .f32⟩ : BufTy).Contents (Elt F) → (⟨S8192x1, .f32⟩ : BufTy).Contents (Elt F) → (⟨S8192x1, .f32⟩ : BufTy).Contents (Elt F))) ::
    (StableHlo.binary main_v103 main_v108 main_v109 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call2.cst (constant S_ .f32 0x00000000#32)) ::
    (StableHlo.TRef.unary main_call2.cst main_call2.v0 (broadcastInDim S8192x1 ![] bcast_S_S8192x1)) ::
    (StableHlo.TRef.binary (.of main_v109) main_call2.v0 main_call2.v1 (cmpf (F := F) .oge)) ::
    (StableHlo.TRef.nullary main_call2.cst_0 (constant S_ .f32 0x3C23D70A#32)) ::
    (StableHlo.TRef.unary main_call2.cst_0 main_call2.v2 (broadcastInDim S8192x1 ![] bcast_S_S8192x1)) ::
    (StableHlo.TRef.binary main_call2.v2 (.of main_v109) main_call2.v3 mulf) ::
    (StableHlo.TRef.ternary main_call2.v1 (.of main_v109) main_call2.v3 main_call2.call0.v0 select) ::
    (StableHlo.nullary main_cst_11 (constant S_ .f32 0x00000000#32)) ::
    (StableHlo.binary main_v110 main_cst_11 main_v111 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_12 (constant S_ .f32 0x46000000#32)) ::
    (StableHlo.binary main_v111 main_cst_12 main_v112 (Host.divf : (⟨S_, .f32⟩ : BufTy).Contents (Elt F) → (⟨S_, .f32⟩ : BufTy).Contents (Elt F) → (⟨S_, .f32⟩ : BufTy).Contents (Elt F))) ::
    (StableHlo.unary main_v112 main_v113 (broadcastInDim S8192x1 ![] bcast_S_S8192x1 : (⟨S_, .f32⟩ : BufTy).Contents (Elt F) → (⟨S8192x1, .f32⟩ : BufTy).Contents (Elt F))) ::
    (StableHlo.binary main_v110 main_v113 main_v114 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_13 (constant S_ .f32 0x00000000#32)) ::
    (StableHlo.binary main_v114 main_cst_13 main_v115 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_14 (constant S_ .f32 0x46000000#32)) ::
    (StableHlo.binary main_v115 main_cst_14 main_v116 (Host.divf : (⟨S_, .f32⟩ : BufTy).Contents (Elt F) → (⟨S_, .f32⟩ : BufTy).Contents (Elt F) → (⟨S_, .f32⟩ : BufTy).Contents (Elt F))) ::
    (StableHlo.unary main_v116 main_v117 (broadcastInDim S8192x1 ![] bcast_S_S8192x1 : (⟨S_, .f32⟩ : BufTy).Contents (Elt F) → (⟨S8192x1, .f32⟩ : BufTy).Contents (Elt F))) ::
    (StableHlo.binary main_v114 main_v117 main_v118 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v119 ((extractStridedSlice S1x1x1 ![0, 3, 0] · slices_S2x5x5_S1x1x1_0_3_0) : (⟨S2x5x5, .f32⟩ : BufTy).Contents (Elt F) → (⟨S1x1x1, .f32⟩ : BufTy).Contents (Elt F))) ::
    (StableHlo.reshape main_v119 main_v120 rfl shapeCasts_S1x1x1_S_) ::
    (StableHlo.unary main_v120 main_v121 (broadcastInDim S8192x1 ![] bcast_S_S8192x1 : (⟨S_, .f32⟩ : BufTy).Contents (Elt F) → (⟨S8192x1, .f32⟩ : BufTy).Contents (Elt F))) ::
    (StableHlo.binary main_v121 main_v118 main_v122 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v118 main_v123 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v124 ((extractStridedSlice S1x1x1 ![0, 3, 1] · slices_S2x5x5_S1x1x1_0_3_1) : (⟨S2x5x5, .f32⟩ : BufTy).Contents (Elt F) → (⟨S1x1x1, .f32⟩ : BufTy).Contents (Elt F))) ::
    (StableHlo.reshape main_v124 main_v125 rfl shapeCasts_S1x1x1_S_) ::
    (StableHlo.unary main_v125 main_v126 (broadcastInDim S8192x1 ![] bcast_S_S8192x1 : (⟨S_, .f32⟩ : BufTy).Contents (Elt F) → (⟨S8192x1, .f32⟩ : BufTy).Contents (Elt F))) ::
    (StableHlo.binary main_v126 main_v123 main_v127 (mulf : (⟨S8192x1, .f32⟩ : BufTy).Contents (Elt F) → (⟨S8192x1, .f32⟩ : BufTy).Contents (Elt F) → (⟨S8192x1, .f32⟩ : BufTy).Contents (Elt F))) ::
    (StableHlo.binary main_v122 main_v127 main_v128 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v123 main_v129 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v130 ((extractStridedSlice S1x1x1 ![0, 3, 2] · slices_S2x5x5_S1x1x1_0_3_2) : (⟨S2x5x5, .f32⟩ : BufTy).Contents (Elt F) → (⟨S1x1x1, .f32⟩ : BufTy).Contents (Elt F))) ::
    (StableHlo.reshape main_v130 main_v131 rfl shapeCasts_S1x1x1_S_) ::
    (StableHlo.unary main_v131 main_v132 (broadcastInDim S8192x1 ![] bcast_S_S8192x1 : (⟨S_, .f32⟩ : BufTy).Contents (Elt F) → (⟨S8192x1, .f32⟩ : BufTy).Contents (Elt F))) ::
    (StableHlo.binary main_v132 main_v129 main_v133 (mulf : (⟨S8192x1, .f32⟩ : BufTy).Contents (Elt F) → (⟨S8192x1, .f32⟩ : BufTy).Contents (Elt F) → (⟨S8192x1, .f32⟩ : BufTy).Contents (Elt F))) ::
    (StableHlo.binary main_v128 main_v133 main_v134 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v129 main_v135 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v136 ((extractStridedSlice S1x1x1 ![0, 3, 3] · slices_S2x5x5_S1x1x1_0_3_3) : (⟨S2x5x5, .f32⟩ : BufTy).Contents (Elt F) → (⟨S1x1x1, .f32⟩ : BufTy).Contents (Elt F))) ::
    (StableHlo.reshape main_v136 main_v137 rfl shapeCasts_S1x1x1_S_) ::
    (StableHlo.unary main_v137 main_v138 (broadcastInDim S8192x1 ![] bcast_S_S8192x1 : (⟨S_, .f32⟩ : BufTy).Contents (Elt F) → (⟨S8192x1, .f32⟩ : BufTy).Contents (Elt F))) ::
    (StableHlo.binary main_v138 main_v135 main_v139 (mulf : (⟨S8192x1, .f32⟩ : BufTy).Contents (Elt F) → (⟨S8192x1, .f32⟩ : BufTy).Contents (Elt F) → (⟨S8192x1, .f32⟩ : BufTy).Contents (Elt F))) ::
    (StableHlo.binary main_v134 main_v139 main_v140 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v135 main_v141 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v142 ((extractStridedSlice S1x1x1 ![0, 3, 4] · slices_S2x5x5_S1x1x1_0_3_4) : (⟨S2x5x5, .f32⟩ : BufTy).Contents (Elt F) → (⟨S1x1x1, .f32⟩ : BufTy).Contents (Elt F))) ::
    (StableHlo.reshape main_v142 main_v143 rfl shapeCasts_S1x1x1_S_) ::
    (StableHlo.unary main_v143 main_v144 (broadcastInDim S8192x1 ![] bcast_S_S8192x1 : (⟨S_, .f32⟩ : BufTy).Contents (Elt F) → (⟨S8192x1, .f32⟩ : BufTy).Contents (Elt F))) ::
    (StableHlo.binary main_v144 main_v141 main_v145 (mulf : (⟨S8192x1, .f32⟩ : BufTy).Contents (Elt F) → (⟨S8192x1, .f32⟩ : BufTy).Contents (Elt F) → (⟨S8192x1, .f32⟩ : BufTy).Contents (Elt F))) ::
    (StableHlo.binary main_v140 main_v145 main_v146 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call3.cst (constant S_ .f32 0x00000000#32)) ::
    (StableHlo.TRef.unary main_call3.cst main_call3.v0 (broadcastInDim S8192x1 ![] bcast_S_S8192x1)) ::
    (StableHlo.TRef.binary (.of main_v146) main_call3.v0 main_call3.v1 (cmpf (F := F) .oge)) ::
    (StableHlo.TRef.nullary main_call3.cst_0 (constant S_ .f32 0x3C23D70A#32)) ::
    (StableHlo.TRef.unary main_call3.cst_0 main_call3.v2 (broadcastInDim S8192x1 ![] bcast_S_S8192x1)) ::
    (StableHlo.TRef.binary main_call3.v2 (.of main_v146) main_call3.v3 mulf) ::
    (StableHlo.TRef.ternary main_call3.v1 (.of main_v146) main_call3.v3 main_call3.call0.v0 select) ::
    (StableHlo.nullary main_cst_15 (constant S_ .f32 0x00000000#32)) ::
    (StableHlo.binary main_v147 main_cst_15 main_v148 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_16 (constant S_ .f32 0x46000000#32)) ::
    (StableHlo.binary main_v148 main_cst_16 main_v149 (Host.divf : (⟨S_, .f32⟩ : BufTy).Contents (Elt F) → (⟨S_, .f32⟩ : BufTy).Contents (Elt F) → (⟨S_, .f32⟩ : BufTy).Contents (Elt F))) ::
    (StableHlo.unary main_v149 main_v150 (broadcastInDim S8192x1 ![] bcast_S_S8192x1 : (⟨S_, .f32⟩ : BufTy).Contents (Elt F) → (⟨S8192x1, .f32⟩ : BufTy).Contents (Elt F))) ::
    (StableHlo.binary main_v147 main_v150 main_v151 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_17 (constant S_ .f32 0x00000000#32)) ::
    (StableHlo.binary main_v151 main_cst_17 main_v152 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_18 (constant S_ .f32 0x46000000#32)) ::
    (StableHlo.binary main_v152 main_cst_18 main_v153 (Host.divf : (⟨S_, .f32⟩ : BufTy).Contents (Elt F) → (⟨S_, .f32⟩ : BufTy).Contents (Elt F) → (⟨S_, .f32⟩ : BufTy).Contents (Elt F))) ::
    (StableHlo.unary main_v153 main_v154 (broadcastInDim S8192x1 ![] bcast_S_S8192x1 : (⟨S_, .f32⟩ : BufTy).Contents (Elt F) → (⟨S8192x1, .f32⟩ : BufTy).Contents (Elt F))) ::
    (StableHlo.binary main_v151 main_v154 main_v155 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v156 ((extractStridedSlice S1x1x1 ![0, 4, 0] · slices_S2x5x5_S1x1x1_0_4_0) : (⟨S2x5x5, .f32⟩ : BufTy).Contents (Elt F) → (⟨S1x1x1, .f32⟩ : BufTy).Contents (Elt F))) ::
    (StableHlo.reshape main_v156 main_v157 rfl shapeCasts_S1x1x1_S_) ::
    (StableHlo.unary main_v157 main_v158 (broadcastInDim S8192x1 ![] bcast_S_S8192x1 : (⟨S_, .f32⟩ : BufTy).Contents (Elt F) → (⟨S8192x1, .f32⟩ : BufTy).Contents (Elt F))) ::
    (StableHlo.binary main_v158 main_v155 main_v159 (mulf : (⟨S8192x1, .f32⟩ : BufTy).Contents (Elt F) → (⟨S8192x1, .f32⟩ : BufTy).Contents (Elt F) → (⟨S8192x1, .f32⟩ : BufTy).Contents (Elt F))) :: []
  )

/-- The operations of statements window 3 of @main, in order, each call's operations inline over the call's record. -/
abbrev ops3 : List (HloOp τ sig (Elt F)) :=
  (
    (StableHlo.binary main_v3 main_v155 main_v160 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v161 ((extractStridedSlice S1x1x1 ![0, 4, 1] · slices_S2x5x5_S1x1x1_0_4_1) : (⟨S2x5x5, .f32⟩ : BufTy).Contents (Elt F) → (⟨S1x1x1, .f32⟩ : BufTy).Contents (Elt F))) ::
    (StableHlo.reshape main_v161 main_v162 rfl shapeCasts_S1x1x1_S_) ::
    (StableHlo.unary main_v162 main_v163 (broadcastInDim S8192x1 ![] bcast_S_S8192x1 : (⟨S_, .f32⟩ : BufTy).Contents (Elt F) → (⟨S8192x1, .f32⟩ : BufTy).Contents (Elt F))) ::
    (StableHlo.binary main_v163 main_v160 main_v164 (mulf : (⟨S8192x1, .f32⟩ : BufTy).Contents (Elt F) → (⟨S8192x1, .f32⟩ : BufTy).Contents (Elt F) → (⟨S8192x1, .f32⟩ : BufTy).Contents (Elt F))) ::
    (StableHlo.binary main_v159 main_v164 main_v165 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v160 main_v166 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v167 ((extractStridedSlice S1x1x1 ![0, 4, 2] · slices_S2x5x5_S1x1x1_0_4_2) : (⟨S2x5x5, .f32⟩ : BufTy).Contents (Elt F) → (⟨S1x1x1, .f32⟩ : BufTy).Contents (Elt F))) ::
    (StableHlo.reshape main_v167 main_v168 rfl shapeCasts_S1x1x1_S_) ::
    (StableHlo.unary main_v168 main_v169 (broadcastInDim S8192x1 ![] bcast_S_S8192x1 : (⟨S_, .f32⟩ : BufTy).Contents (Elt F) → (⟨S8192x1, .f32⟩ : BufTy).Contents (Elt F))) ::
    (StableHlo.binary main_v169 main_v166 main_v170 (mulf : (⟨S8192x1, .f32⟩ : BufTy).Contents (Elt F) → (⟨S8192x1, .f32⟩ : BufTy).Contents (Elt F) → (⟨S8192x1, .f32⟩ : BufTy).Contents (Elt F))) ::
    (StableHlo.binary main_v165 main_v170 main_v171 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v166 main_v172 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v173 ((extractStridedSlice S1x1x1 ![0, 4, 3] · slices_S2x5x5_S1x1x1_0_4_3) : (⟨S2x5x5, .f32⟩ : BufTy).Contents (Elt F) → (⟨S1x1x1, .f32⟩ : BufTy).Contents (Elt F))) ::
    (StableHlo.reshape main_v173 main_v174 rfl shapeCasts_S1x1x1_S_) ::
    (StableHlo.unary main_v174 main_v175 (broadcastInDim S8192x1 ![] bcast_S_S8192x1 : (⟨S_, .f32⟩ : BufTy).Contents (Elt F) → (⟨S8192x1, .f32⟩ : BufTy).Contents (Elt F))) ::
    (StableHlo.binary main_v175 main_v172 main_v176 (mulf : (⟨S8192x1, .f32⟩ : BufTy).Contents (Elt F) → (⟨S8192x1, .f32⟩ : BufTy).Contents (Elt F) → (⟨S8192x1, .f32⟩ : BufTy).Contents (Elt F))) ::
    (StableHlo.binary main_v171 main_v176 main_v177 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v172 main_v178 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v179 ((extractStridedSlice S1x1x1 ![0, 4, 4] · slices_S2x5x5_S1x1x1_0_4_4) : (⟨S2x5x5, .f32⟩ : BufTy).Contents (Elt F) → (⟨S1x1x1, .f32⟩ : BufTy).Contents (Elt F))) ::
    (StableHlo.reshape main_v179 main_v180 rfl shapeCasts_S1x1x1_S_) ::
    (StableHlo.unary main_v180 main_v181 (broadcastInDim S8192x1 ![] bcast_S_S8192x1 : (⟨S_, .f32⟩ : BufTy).Contents (Elt F) → (⟨S8192x1, .f32⟩ : BufTy).Contents (Elt F))) ::
    (StableHlo.binary main_v181 main_v178 main_v182 (mulf : (⟨S8192x1, .f32⟩ : BufTy).Contents (Elt F) → (⟨S8192x1, .f32⟩ : BufTy).Contents (Elt F) → (⟨S8192x1, .f32⟩ : BufTy).Contents (Elt F))) ::
    (StableHlo.binary main_v177 main_v182 main_v183 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call4.cst (constant S_ .f32 0x00000000#32)) ::
    (StableHlo.TRef.unary main_call4.cst main_call4.v0 (broadcastInDim S8192x1 ![] bcast_S_S8192x1)) ::
    (StableHlo.TRef.binary (.of main_v183) main_call4.v0 main_call4.v1 (cmpf (F := F) .oge)) ::
    (StableHlo.TRef.nullary main_call4.cst_0 (constant S_ .f32 0x3C23D70A#32)) ::
    (StableHlo.TRef.unary main_call4.cst_0 main_call4.v2 (broadcastInDim S8192x1 ![] bcast_S_S8192x1)) ::
    (StableHlo.TRef.binary main_call4.v2 (.of main_v183) main_call4.v3 mulf) ::
    (StableHlo.TRef.ternary main_call4.v1 (.of main_v183) main_call4.v3 main_call4.call0.v0 select) ::
    (StableHlo.nullary main_cst_19 (constant S_ .f32 0x00000000#32)) ::
    (StableHlo.binary main_v184 main_cst_19 main_v185 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_20 (constant S_ .f32 0x46000000#32)) ::
    (StableHlo.binary main_v185 main_cst_20 main_v186 (Host.divf : (⟨S_, .f32⟩ : BufTy).Contents (Elt F) → (⟨S_, .f32⟩ : BufTy).Contents (Elt F) → (⟨S_, .f32⟩ : BufTy).Contents (Elt F))) ::
    (StableHlo.unary main_v186 main_v187 (broadcastInDim S8192x1 ![] bcast_S_S8192x1 : (⟨S_, .f32⟩ : BufTy).Contents (Elt F) → (⟨S8192x1, .f32⟩ : BufTy).Contents (Elt F))) ::
    (StableHlo.binary main_v184 main_v187 main_v188 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_21 (constant S_ .f32 0x00000000#32)) ::
    (StableHlo.binary main_v188 main_cst_21 main_v189 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_22 (constant S_ .f32 0x46000000#32)) ::
    (StableHlo.binary main_v189 main_cst_22 main_v190 (Host.divf : (⟨S_, .f32⟩ : BufTy).Contents (Elt F) → (⟨S_, .f32⟩ : BufTy).Contents (Elt F) → (⟨S_, .f32⟩ : BufTy).Contents (Elt F))) ::
    (StableHlo.unary main_v190 main_v191 (broadcastInDim S8192x1 ![] bcast_S_S8192x1 : (⟨S_, .f32⟩ : BufTy).Contents (Elt F) → (⟨S8192x1, .f32⟩ : BufTy).Contents (Elt F))) ::
    (StableHlo.binary main_v188 main_v191 main_v192 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v193 ((extractStridedSlice S1x1x1 ![1, 0, 0] · slices_S2x5x5_S1x1x1_1_0_0) : (⟨S2x5x5, .f32⟩ : BufTy).Contents (Elt F) → (⟨S1x1x1, .f32⟩ : BufTy).Contents (Elt F))) ::
    (StableHlo.reshape main_v193 main_v194 rfl shapeCasts_S1x1x1_S_) ::
    (StableHlo.unary main_v194 main_v195 (broadcastInDim S8192x1 ![] bcast_S_S8192x1 : (⟨S_, .f32⟩ : BufTy).Contents (Elt F) → (⟨S8192x1, .f32⟩ : BufTy).Contents (Elt F))) ::
    (StableHlo.binary main_v195 main_v192 main_v196 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v192 main_v197 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v198 ((extractStridedSlice S1x1x1 ![1, 0, 1] · slices_S2x5x5_S1x1x1_1_0_1) : (⟨S2x5x5, .f32⟩ : BufTy).Contents (Elt F) → (⟨S1x1x1, .f32⟩ : BufTy).Contents (Elt F))) ::
    (StableHlo.reshape main_v198 main_v199 rfl shapeCasts_S1x1x1_S_) ::
    (StableHlo.unary main_v199 main_v200 (broadcastInDim S8192x1 ![] bcast_S_S8192x1 : (⟨S_, .f32⟩ : BufTy).Contents (Elt F) → (⟨S8192x1, .f32⟩ : BufTy).Contents (Elt F))) ::
    (StableHlo.binary main_v200 main_v197 main_v201 (mulf : (⟨S8192x1, .f32⟩ : BufTy).Contents (Elt F) → (⟨S8192x1, .f32⟩ : BufTy).Contents (Elt F) → (⟨S8192x1, .f32⟩ : BufTy).Contents (Elt F))) ::
    (StableHlo.binary main_v196 main_v201 main_v202 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v197 main_v203 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v204 ((extractStridedSlice S1x1x1 ![1, 0, 2] · slices_S2x5x5_S1x1x1_1_0_2) : (⟨S2x5x5, .f32⟩ : BufTy).Contents (Elt F) → (⟨S1x1x1, .f32⟩ : BufTy).Contents (Elt F))) ::
    (StableHlo.reshape main_v204 main_v205 rfl shapeCasts_S1x1x1_S_) ::
    (StableHlo.unary main_v205 main_v206 (broadcastInDim S8192x1 ![] bcast_S_S8192x1 : (⟨S_, .f32⟩ : BufTy).Contents (Elt F) → (⟨S8192x1, .f32⟩ : BufTy).Contents (Elt F))) ::
    (StableHlo.binary main_v206 main_v203 main_v207 (mulf : (⟨S8192x1, .f32⟩ : BufTy).Contents (Elt F) → (⟨S8192x1, .f32⟩ : BufTy).Contents (Elt F) → (⟨S8192x1, .f32⟩ : BufTy).Contents (Elt F))) ::
    (StableHlo.binary main_v202 main_v207 main_v208 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v203 main_v209 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v210 ((extractStridedSlice S1x1x1 ![1, 0, 3] · slices_S2x5x5_S1x1x1_1_0_3) : (⟨S2x5x5, .f32⟩ : BufTy).Contents (Elt F) → (⟨S1x1x1, .f32⟩ : BufTy).Contents (Elt F))) ::
    (StableHlo.reshape main_v210 main_v211 rfl shapeCasts_S1x1x1_S_) ::
    (StableHlo.unary main_v211 main_v212 (broadcastInDim S8192x1 ![] bcast_S_S8192x1 : (⟨S_, .f32⟩ : BufTy).Contents (Elt F) → (⟨S8192x1, .f32⟩ : BufTy).Contents (Elt F))) ::
    (StableHlo.binary main_v212 main_v209 main_v213 (mulf : (⟨S8192x1, .f32⟩ : BufTy).Contents (Elt F) → (⟨S8192x1, .f32⟩ : BufTy).Contents (Elt F) → (⟨S8192x1, .f32⟩ : BufTy).Contents (Elt F))) ::
    (StableHlo.binary main_v208 main_v213 main_v214 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v209 main_v215 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) :: []
  )

/-- The operations of statements window 4 of @main, in order, each call's operations inline over the call's record. -/
abbrev ops4 : List (HloOp τ sig (Elt F)) :=
  (
    (StableHlo.unary main_arg2 main_v216 ((extractStridedSlice S1x1x1 ![1, 0, 4] · slices_S2x5x5_S1x1x1_1_0_4) : (⟨S2x5x5, .f32⟩ : BufTy).Contents (Elt F) → (⟨S1x1x1, .f32⟩ : BufTy).Contents (Elt F))) ::
    (StableHlo.reshape main_v216 main_v217 rfl shapeCasts_S1x1x1_S_) ::
    (StableHlo.unary main_v217 main_v218 (broadcastInDim S8192x1 ![] bcast_S_S8192x1 : (⟨S_, .f32⟩ : BufTy).Contents (Elt F) → (⟨S8192x1, .f32⟩ : BufTy).Contents (Elt F))) ::
    (StableHlo.binary main_v218 main_v215 main_v219 (mulf : (⟨S8192x1, .f32⟩ : BufTy).Contents (Elt F) → (⟨S8192x1, .f32⟩ : BufTy).Contents (Elt F) → (⟨S8192x1, .f32⟩ : BufTy).Contents (Elt F))) ::
    (StableHlo.binary main_v214 main_v219 main_v220 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call5.cst (constant S_ .f32 0x00000000#32)) ::
    (StableHlo.TRef.unary main_call5.cst main_call5.v0 (broadcastInDim S8192x1 ![] bcast_S_S8192x1)) ::
    (StableHlo.TRef.binary (.of main_v220) main_call5.v0 main_call5.v1 (cmpf (F := F) .oge)) ::
    (StableHlo.TRef.nullary main_call5.cst_0 (constant S_ .f32 0x3C23D70A#32)) ::
    (StableHlo.TRef.unary main_call5.cst_0 main_call5.v2 (broadcastInDim S8192x1 ![] bcast_S_S8192x1)) ::
    (StableHlo.TRef.binary main_call5.v2 (.of main_v220) main_call5.v3 mulf) ::
    (StableHlo.TRef.ternary main_call5.v1 (.of main_v220) main_call5.v3 main_call5.call0.v0 select) ::
    (StableHlo.nullary main_cst_23 (constant S_ .f32 0x00000000#32)) ::
    (StableHlo.binary main_v221 main_cst_23 main_v222 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_24 (constant S_ .f32 0x46000000#32)) ::
    (StableHlo.binary main_v222 main_cst_24 main_v223 (Host.divf : (⟨S_, .f32⟩ : BufTy).Contents (Elt F) → (⟨S_, .f32⟩ : BufTy).Contents (Elt F) → (⟨S_, .f32⟩ : BufTy).Contents (Elt F))) ::
    (StableHlo.unary main_v223 main_v224 (broadcastInDim S8192x1 ![] bcast_S_S8192x1 : (⟨S_, .f32⟩ : BufTy).Contents (Elt F) → (⟨S8192x1, .f32⟩ : BufTy).Contents (Elt F))) ::
    (StableHlo.binary main_v221 main_v224 main_v225 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_25 (constant S_ .f32 0x00000000#32)) ::
    (StableHlo.binary main_v225 main_cst_25 main_v226 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_26 (constant S_ .f32 0x46000000#32)) ::
    (StableHlo.binary main_v226 main_cst_26 main_v227 (Host.divf : (⟨S_, .f32⟩ : BufTy).Contents (Elt F) → (⟨S_, .f32⟩ : BufTy).Contents (Elt F) → (⟨S_, .f32⟩ : BufTy).Contents (Elt F))) ::
    (StableHlo.unary main_v227 main_v228 (broadcastInDim S8192x1 ![] bcast_S_S8192x1 : (⟨S_, .f32⟩ : BufTy).Contents (Elt F) → (⟨S8192x1, .f32⟩ : BufTy).Contents (Elt F))) ::
    (StableHlo.binary main_v225 main_v228 main_v229 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v230 ((extractStridedSlice S1x1x1 ![1, 1, 0] · slices_S2x5x5_S1x1x1_1_1_0) : (⟨S2x5x5, .f32⟩ : BufTy).Contents (Elt F) → (⟨S1x1x1, .f32⟩ : BufTy).Contents (Elt F))) ::
    (StableHlo.reshape main_v230 main_v231 rfl shapeCasts_S1x1x1_S_) ::
    (StableHlo.unary main_v231 main_v232 (broadcastInDim S8192x1 ![] bcast_S_S8192x1 : (⟨S_, .f32⟩ : BufTy).Contents (Elt F) → (⟨S8192x1, .f32⟩ : BufTy).Contents (Elt F))) ::
    (StableHlo.binary main_v232 main_v229 main_v233 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v229 main_v234 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v235 ((extractStridedSlice S1x1x1 ![1, 1, 1] · slices_S2x5x5_S1x1x1_1_1_1) : (⟨S2x5x5, .f32⟩ : BufTy).Contents (Elt F) → (⟨S1x1x1, .f32⟩ : BufTy).Contents (Elt F))) ::
    (StableHlo.reshape main_v235 main_v236 rfl shapeCasts_S1x1x1_S_) ::
    (StableHlo.unary main_v236 main_v237 (broadcastInDim S8192x1 ![] bcast_S_S8192x1 : (⟨S_, .f32⟩ : BufTy).Contents (Elt F) → (⟨S8192x1, .f32⟩ : BufTy).Contents (Elt F))) ::
    (StableHlo.binary main_v237 main_v234 main_v238 (mulf : (⟨S8192x1, .f32⟩ : BufTy).Contents (Elt F) → (⟨S8192x1, .f32⟩ : BufTy).Contents (Elt F) → (⟨S8192x1, .f32⟩ : BufTy).Contents (Elt F))) ::
    (StableHlo.binary main_v233 main_v238 main_v239 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v234 main_v240 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v241 ((extractStridedSlice S1x1x1 ![1, 1, 2] · slices_S2x5x5_S1x1x1_1_1_2) : (⟨S2x5x5, .f32⟩ : BufTy).Contents (Elt F) → (⟨S1x1x1, .f32⟩ : BufTy).Contents (Elt F))) ::
    (StableHlo.reshape main_v241 main_v242 rfl shapeCasts_S1x1x1_S_) ::
    (StableHlo.unary main_v242 main_v243 (broadcastInDim S8192x1 ![] bcast_S_S8192x1 : (⟨S_, .f32⟩ : BufTy).Contents (Elt F) → (⟨S8192x1, .f32⟩ : BufTy).Contents (Elt F))) ::
    (StableHlo.binary main_v243 main_v240 main_v244 (mulf : (⟨S8192x1, .f32⟩ : BufTy).Contents (Elt F) → (⟨S8192x1, .f32⟩ : BufTy).Contents (Elt F) → (⟨S8192x1, .f32⟩ : BufTy).Contents (Elt F))) ::
    (StableHlo.binary main_v239 main_v244 main_v245 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v240 main_v246 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v247 ((extractStridedSlice S1x1x1 ![1, 1, 3] · slices_S2x5x5_S1x1x1_1_1_3) : (⟨S2x5x5, .f32⟩ : BufTy).Contents (Elt F) → (⟨S1x1x1, .f32⟩ : BufTy).Contents (Elt F))) ::
    (StableHlo.reshape main_v247 main_v248 rfl shapeCasts_S1x1x1_S_) ::
    (StableHlo.unary main_v248 main_v249 (broadcastInDim S8192x1 ![] bcast_S_S8192x1 : (⟨S_, .f32⟩ : BufTy).Contents (Elt F) → (⟨S8192x1, .f32⟩ : BufTy).Contents (Elt F))) ::
    (StableHlo.binary main_v249 main_v246 main_v250 (mulf : (⟨S8192x1, .f32⟩ : BufTy).Contents (Elt F) → (⟨S8192x1, .f32⟩ : BufTy).Contents (Elt F) → (⟨S8192x1, .f32⟩ : BufTy).Contents (Elt F))) ::
    (StableHlo.binary main_v245 main_v250 main_v251 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v246 main_v252 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v253 ((extractStridedSlice S1x1x1 ![1, 1, 4] · slices_S2x5x5_S1x1x1_1_1_4) : (⟨S2x5x5, .f32⟩ : BufTy).Contents (Elt F) → (⟨S1x1x1, .f32⟩ : BufTy).Contents (Elt F))) ::
    (StableHlo.reshape main_v253 main_v254 rfl shapeCasts_S1x1x1_S_) ::
    (StableHlo.unary main_v254 main_v255 (broadcastInDim S8192x1 ![] bcast_S_S8192x1 : (⟨S_, .f32⟩ : BufTy).Contents (Elt F) → (⟨S8192x1, .f32⟩ : BufTy).Contents (Elt F))) ::
    (StableHlo.binary main_v255 main_v252 main_v256 (mulf : (⟨S8192x1, .f32⟩ : BufTy).Contents (Elt F) → (⟨S8192x1, .f32⟩ : BufTy).Contents (Elt F) → (⟨S8192x1, .f32⟩ : BufTy).Contents (Elt F))) ::
    (StableHlo.binary main_v251 main_v256 main_v257 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call6.cst (constant S_ .f32 0x00000000#32)) ::
    (StableHlo.TRef.unary main_call6.cst main_call6.v0 (broadcastInDim S8192x1 ![] bcast_S_S8192x1)) ::
    (StableHlo.TRef.binary (.of main_v257) main_call6.v0 main_call6.v1 (cmpf (F := F) .oge)) ::
    (StableHlo.TRef.nullary main_call6.cst_0 (constant S_ .f32 0x3C23D70A#32)) ::
    (StableHlo.TRef.unary main_call6.cst_0 main_call6.v2 (broadcastInDim S8192x1 ![] bcast_S_S8192x1)) ::
    (StableHlo.TRef.binary main_call6.v2 (.of main_v257) main_call6.v3 mulf) ::
    (StableHlo.TRef.ternary main_call6.v1 (.of main_v257) main_call6.v3 main_call6.call0.v0 select) ::
    (StableHlo.nullary main_cst_27 (constant S_ .f32 0x00000000#32)) ::
    (StableHlo.binary main_v258 main_cst_27 main_v259 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_28 (constant S_ .f32 0x46000000#32)) ::
    (StableHlo.binary main_v259 main_cst_28 main_v260 (Host.divf : (⟨S_, .f32⟩ : BufTy).Contents (Elt F) → (⟨S_, .f32⟩ : BufTy).Contents (Elt F) → (⟨S_, .f32⟩ : BufTy).Contents (Elt F))) ::
    (StableHlo.unary main_v260 main_v261 (broadcastInDim S8192x1 ![] bcast_S_S8192x1 : (⟨S_, .f32⟩ : BufTy).Contents (Elt F) → (⟨S8192x1, .f32⟩ : BufTy).Contents (Elt F))) ::
    (StableHlo.binary main_v258 main_v261 main_v262 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_29 (constant S_ .f32 0x00000000#32)) ::
    (StableHlo.binary main_v262 main_cst_29 main_v263 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_30 (constant S_ .f32 0x46000000#32)) ::
    (StableHlo.binary main_v263 main_cst_30 main_v264 (Host.divf : (⟨S_, .f32⟩ : BufTy).Contents (Elt F) → (⟨S_, .f32⟩ : BufTy).Contents (Elt F) → (⟨S_, .f32⟩ : BufTy).Contents (Elt F))) ::
    (StableHlo.unary main_v264 main_v265 (broadcastInDim S8192x1 ![] bcast_S_S8192x1 : (⟨S_, .f32⟩ : BufTy).Contents (Elt F) → (⟨S8192x1, .f32⟩ : BufTy).Contents (Elt F))) ::
    (StableHlo.binary main_v262 main_v265 main_v266 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v267 ((extractStridedSlice S1x1x1 ![1, 2, 0] · slices_S2x5x5_S1x1x1_1_2_0) : (⟨S2x5x5, .f32⟩ : BufTy).Contents (Elt F) → (⟨S1x1x1, .f32⟩ : BufTy).Contents (Elt F))) :: []
  )

/-- The operations of statements window 5 of @main, in order, each call's operations inline over the call's record. -/
abbrev ops5 : List (HloOp τ sig (Elt F)) :=
  (
    (StableHlo.reshape main_v267 main_v268 rfl shapeCasts_S1x1x1_S_) ::
    (StableHlo.unary main_v268 main_v269 (broadcastInDim S8192x1 ![] bcast_S_S8192x1 : (⟨S_, .f32⟩ : BufTy).Contents (Elt F) → (⟨S8192x1, .f32⟩ : BufTy).Contents (Elt F))) ::
    (StableHlo.binary main_v269 main_v266 main_v270 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v266 main_v271 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v272 ((extractStridedSlice S1x1x1 ![1, 2, 1] · slices_S2x5x5_S1x1x1_1_2_1) : (⟨S2x5x5, .f32⟩ : BufTy).Contents (Elt F) → (⟨S1x1x1, .f32⟩ : BufTy).Contents (Elt F))) ::
    (StableHlo.reshape main_v272 main_v273 rfl shapeCasts_S1x1x1_S_) ::
    (StableHlo.unary main_v273 main_v274 (broadcastInDim S8192x1 ![] bcast_S_S8192x1 : (⟨S_, .f32⟩ : BufTy).Contents (Elt F) → (⟨S8192x1, .f32⟩ : BufTy).Contents (Elt F))) ::
    (StableHlo.binary main_v274 main_v271 main_v275 (mulf : (⟨S8192x1, .f32⟩ : BufTy).Contents (Elt F) → (⟨S8192x1, .f32⟩ : BufTy).Contents (Elt F) → (⟨S8192x1, .f32⟩ : BufTy).Contents (Elt F))) ::
    (StableHlo.binary main_v270 main_v275 main_v276 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v271 main_v277 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v278 ((extractStridedSlice S1x1x1 ![1, 2, 2] · slices_S2x5x5_S1x1x1_1_2_2) : (⟨S2x5x5, .f32⟩ : BufTy).Contents (Elt F) → (⟨S1x1x1, .f32⟩ : BufTy).Contents (Elt F))) ::
    (StableHlo.reshape main_v278 main_v279 rfl shapeCasts_S1x1x1_S_) ::
    (StableHlo.unary main_v279 main_v280 (broadcastInDim S8192x1 ![] bcast_S_S8192x1 : (⟨S_, .f32⟩ : BufTy).Contents (Elt F) → (⟨S8192x1, .f32⟩ : BufTy).Contents (Elt F))) ::
    (StableHlo.binary main_v280 main_v277 main_v281 (mulf : (⟨S8192x1, .f32⟩ : BufTy).Contents (Elt F) → (⟨S8192x1, .f32⟩ : BufTy).Contents (Elt F) → (⟨S8192x1, .f32⟩ : BufTy).Contents (Elt F))) ::
    (StableHlo.binary main_v276 main_v281 main_v282 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v277 main_v283 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v284 ((extractStridedSlice S1x1x1 ![1, 2, 3] · slices_S2x5x5_S1x1x1_1_2_3) : (⟨S2x5x5, .f32⟩ : BufTy).Contents (Elt F) → (⟨S1x1x1, .f32⟩ : BufTy).Contents (Elt F))) ::
    (StableHlo.reshape main_v284 main_v285 rfl shapeCasts_S1x1x1_S_) ::
    (StableHlo.unary main_v285 main_v286 (broadcastInDim S8192x1 ![] bcast_S_S8192x1 : (⟨S_, .f32⟩ : BufTy).Contents (Elt F) → (⟨S8192x1, .f32⟩ : BufTy).Contents (Elt F))) ::
    (StableHlo.binary main_v286 main_v283 main_v287 (mulf : (⟨S8192x1, .f32⟩ : BufTy).Contents (Elt F) → (⟨S8192x1, .f32⟩ : BufTy).Contents (Elt F) → (⟨S8192x1, .f32⟩ : BufTy).Contents (Elt F))) ::
    (StableHlo.binary main_v282 main_v287 main_v288 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v283 main_v289 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v290 ((extractStridedSlice S1x1x1 ![1, 2, 4] · slices_S2x5x5_S1x1x1_1_2_4) : (⟨S2x5x5, .f32⟩ : BufTy).Contents (Elt F) → (⟨S1x1x1, .f32⟩ : BufTy).Contents (Elt F))) ::
    (StableHlo.reshape main_v290 main_v291 rfl shapeCasts_S1x1x1_S_) ::
    (StableHlo.unary main_v291 main_v292 (broadcastInDim S8192x1 ![] bcast_S_S8192x1 : (⟨S_, .f32⟩ : BufTy).Contents (Elt F) → (⟨S8192x1, .f32⟩ : BufTy).Contents (Elt F))) ::
    (StableHlo.binary main_v292 main_v289 main_v293 (mulf : (⟨S8192x1, .f32⟩ : BufTy).Contents (Elt F) → (⟨S8192x1, .f32⟩ : BufTy).Contents (Elt F) → (⟨S8192x1, .f32⟩ : BufTy).Contents (Elt F))) ::
    (StableHlo.binary main_v288 main_v293 main_v294 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call7.cst (constant S_ .f32 0x00000000#32)) ::
    (StableHlo.TRef.unary main_call7.cst main_call7.v0 (broadcastInDim S8192x1 ![] bcast_S_S8192x1)) ::
    (StableHlo.TRef.binary (.of main_v294) main_call7.v0 main_call7.v1 (cmpf (F := F) .oge)) ::
    (StableHlo.TRef.nullary main_call7.cst_0 (constant S_ .f32 0x3C23D70A#32)) ::
    (StableHlo.TRef.unary main_call7.cst_0 main_call7.v2 (broadcastInDim S8192x1 ![] bcast_S_S8192x1)) ::
    (StableHlo.TRef.binary main_call7.v2 (.of main_v294) main_call7.v3 mulf) ::
    (StableHlo.TRef.ternary main_call7.v1 (.of main_v294) main_call7.v3 main_call7.call0.v0 select) ::
    (StableHlo.nullary main_cst_31 (constant S_ .f32 0x00000000#32)) ::
    (StableHlo.binary main_v295 main_cst_31 main_v296 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_32 (constant S_ .f32 0x46000000#32)) ::
    (StableHlo.binary main_v296 main_cst_32 main_v297 (Host.divf : (⟨S_, .f32⟩ : BufTy).Contents (Elt F) → (⟨S_, .f32⟩ : BufTy).Contents (Elt F) → (⟨S_, .f32⟩ : BufTy).Contents (Elt F))) ::
    (StableHlo.unary main_v297 main_v298 (broadcastInDim S8192x1 ![] bcast_S_S8192x1 : (⟨S_, .f32⟩ : BufTy).Contents (Elt F) → (⟨S8192x1, .f32⟩ : BufTy).Contents (Elt F))) ::
    (StableHlo.binary main_v295 main_v298 main_v299 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_33 (constant S_ .f32 0x00000000#32)) ::
    (StableHlo.binary main_v299 main_cst_33 main_v300 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_34 (constant S_ .f32 0x46000000#32)) ::
    (StableHlo.binary main_v300 main_cst_34 main_v301 (Host.divf : (⟨S_, .f32⟩ : BufTy).Contents (Elt F) → (⟨S_, .f32⟩ : BufTy).Contents (Elt F) → (⟨S_, .f32⟩ : BufTy).Contents (Elt F))) ::
    (StableHlo.unary main_v301 main_v302 (broadcastInDim S8192x1 ![] bcast_S_S8192x1 : (⟨S_, .f32⟩ : BufTy).Contents (Elt F) → (⟨S8192x1, .f32⟩ : BufTy).Contents (Elt F))) ::
    (StableHlo.binary main_v299 main_v302 main_v303 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v304 ((extractStridedSlice S1x1x1 ![1, 3, 0] · slices_S2x5x5_S1x1x1_1_3_0) : (⟨S2x5x5, .f32⟩ : BufTy).Contents (Elt F) → (⟨S1x1x1, .f32⟩ : BufTy).Contents (Elt F))) ::
    (StableHlo.reshape main_v304 main_v305 rfl shapeCasts_S1x1x1_S_) ::
    (StableHlo.unary main_v305 main_v306 (broadcastInDim S8192x1 ![] bcast_S_S8192x1 : (⟨S_, .f32⟩ : BufTy).Contents (Elt F) → (⟨S8192x1, .f32⟩ : BufTy).Contents (Elt F))) ::
    (StableHlo.binary main_v306 main_v303 main_v307 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v303 main_v308 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v309 ((extractStridedSlice S1x1x1 ![1, 3, 1] · slices_S2x5x5_S1x1x1_1_3_1) : (⟨S2x5x5, .f32⟩ : BufTy).Contents (Elt F) → (⟨S1x1x1, .f32⟩ : BufTy).Contents (Elt F))) ::
    (StableHlo.reshape main_v309 main_v310 rfl shapeCasts_S1x1x1_S_) ::
    (StableHlo.unary main_v310 main_v311 (broadcastInDim S8192x1 ![] bcast_S_S8192x1 : (⟨S_, .f32⟩ : BufTy).Contents (Elt F) → (⟨S8192x1, .f32⟩ : BufTy).Contents (Elt F))) ::
    (StableHlo.binary main_v311 main_v308 main_v312 (mulf : (⟨S8192x1, .f32⟩ : BufTy).Contents (Elt F) → (⟨S8192x1, .f32⟩ : BufTy).Contents (Elt F) → (⟨S8192x1, .f32⟩ : BufTy).Contents (Elt F))) ::
    (StableHlo.binary main_v307 main_v312 main_v313 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v308 main_v314 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v315 ((extractStridedSlice S1x1x1 ![1, 3, 2] · slices_S2x5x5_S1x1x1_1_3_2) : (⟨S2x5x5, .f32⟩ : BufTy).Contents (Elt F) → (⟨S1x1x1, .f32⟩ : BufTy).Contents (Elt F))) ::
    (StableHlo.reshape main_v315 main_v316 rfl shapeCasts_S1x1x1_S_) ::
    (StableHlo.unary main_v316 main_v317 (broadcastInDim S8192x1 ![] bcast_S_S8192x1 : (⟨S_, .f32⟩ : BufTy).Contents (Elt F) → (⟨S8192x1, .f32⟩ : BufTy).Contents (Elt F))) ::
    (StableHlo.binary main_v317 main_v314 main_v318 (mulf : (⟨S8192x1, .f32⟩ : BufTy).Contents (Elt F) → (⟨S8192x1, .f32⟩ : BufTy).Contents (Elt F) → (⟨S8192x1, .f32⟩ : BufTy).Contents (Elt F))) ::
    (StableHlo.binary main_v313 main_v318 main_v319 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v314 main_v320 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v321 ((extractStridedSlice S1x1x1 ![1, 3, 3] · slices_S2x5x5_S1x1x1_1_3_3) : (⟨S2x5x5, .f32⟩ : BufTy).Contents (Elt F) → (⟨S1x1x1, .f32⟩ : BufTy).Contents (Elt F))) ::
    (StableHlo.reshape main_v321 main_v322 rfl shapeCasts_S1x1x1_S_) ::
    (StableHlo.unary main_v322 main_v323 (broadcastInDim S8192x1 ![] bcast_S_S8192x1 : (⟨S_, .f32⟩ : BufTy).Contents (Elt F) → (⟨S8192x1, .f32⟩ : BufTy).Contents (Elt F))) :: []
  )

/-- The operations of statements window 6 of @main, in order, each call's operations inline over the call's record. -/
abbrev ops6 : List (HloOp τ sig (Elt F)) :=
  (
    (StableHlo.binary main_v323 main_v320 main_v324 (mulf : (⟨S8192x1, .f32⟩ : BufTy).Contents (Elt F) → (⟨S8192x1, .f32⟩ : BufTy).Contents (Elt F) → (⟨S8192x1, .f32⟩ : BufTy).Contents (Elt F))) ::
    (StableHlo.binary main_v319 main_v324 main_v325 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v320 main_v326 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v327 ((extractStridedSlice S1x1x1 ![1, 3, 4] · slices_S2x5x5_S1x1x1_1_3_4) : (⟨S2x5x5, .f32⟩ : BufTy).Contents (Elt F) → (⟨S1x1x1, .f32⟩ : BufTy).Contents (Elt F))) ::
    (StableHlo.reshape main_v327 main_v328 rfl shapeCasts_S1x1x1_S_) ::
    (StableHlo.unary main_v328 main_v329 (broadcastInDim S8192x1 ![] bcast_S_S8192x1 : (⟨S_, .f32⟩ : BufTy).Contents (Elt F) → (⟨S8192x1, .f32⟩ : BufTy).Contents (Elt F))) ::
    (StableHlo.binary main_v329 main_v326 main_v330 (mulf : (⟨S8192x1, .f32⟩ : BufTy).Contents (Elt F) → (⟨S8192x1, .f32⟩ : BufTy).Contents (Elt F) → (⟨S8192x1, .f32⟩ : BufTy).Contents (Elt F))) ::
    (StableHlo.binary main_v325 main_v330 main_v331 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call8.cst (constant S_ .f32 0x00000000#32)) ::
    (StableHlo.TRef.unary main_call8.cst main_call8.v0 (broadcastInDim S8192x1 ![] bcast_S_S8192x1)) ::
    (StableHlo.TRef.binary (.of main_v331) main_call8.v0 main_call8.v1 (cmpf (F := F) .oge)) ::
    (StableHlo.TRef.nullary main_call8.cst_0 (constant S_ .f32 0x3C23D70A#32)) ::
    (StableHlo.TRef.unary main_call8.cst_0 main_call8.v2 (broadcastInDim S8192x1 ![] bcast_S_S8192x1)) ::
    (StableHlo.TRef.binary main_call8.v2 (.of main_v331) main_call8.v3 mulf) ::
    (StableHlo.TRef.ternary main_call8.v1 (.of main_v331) main_call8.v3 main_call8.call0.v0 select) ::
    (StableHlo.nullary main_cst_35 (constant S_ .f32 0x00000000#32)) ::
    (StableHlo.binary main_v332 main_cst_35 main_v333 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_36 (constant S_ .f32 0x46000000#32)) ::
    (StableHlo.binary main_v333 main_cst_36 main_v334 (Host.divf : (⟨S_, .f32⟩ : BufTy).Contents (Elt F) → (⟨S_, .f32⟩ : BufTy).Contents (Elt F) → (⟨S_, .f32⟩ : BufTy).Contents (Elt F))) ::
    (StableHlo.unary main_v334 main_v335 (broadcastInDim S8192x1 ![] bcast_S_S8192x1 : (⟨S_, .f32⟩ : BufTy).Contents (Elt F) → (⟨S8192x1, .f32⟩ : BufTy).Contents (Elt F))) ::
    (StableHlo.binary main_v332 main_v335 main_v336 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_37 (constant S_ .f32 0x00000000#32)) ::
    (StableHlo.binary main_v336 main_cst_37 main_v337 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_38 (constant S_ .f32 0x46000000#32)) ::
    (StableHlo.binary main_v337 main_cst_38 main_v338 (Host.divf : (⟨S_, .f32⟩ : BufTy).Contents (Elt F) → (⟨S_, .f32⟩ : BufTy).Contents (Elt F) → (⟨S_, .f32⟩ : BufTy).Contents (Elt F))) ::
    (StableHlo.unary main_v338 main_v339 (broadcastInDim S8192x1 ![] bcast_S_S8192x1 : (⟨S_, .f32⟩ : BufTy).Contents (Elt F) → (⟨S8192x1, .f32⟩ : BufTy).Contents (Elt F))) ::
    (StableHlo.binary main_v336 main_v339 main_v340 (subf : (⟨S8192x1, .f32⟩ : BufTy).Contents (Elt F) → (⟨S8192x1, .f32⟩ : BufTy).Contents (Elt F) → (⟨S8192x1, .f32⟩ : BufTy).Contents (Elt F))) ::
    (StableHlo.unary main_arg2 main_v341 ((extractStridedSlice S1x1x1 ![1, 4, 0] · slices_S2x5x5_S1x1x1_1_4_0) : (⟨S2x5x5, .f32⟩ : BufTy).Contents (Elt F) → (⟨S1x1x1, .f32⟩ : BufTy).Contents (Elt F))) ::
    (StableHlo.reshape main_v341 main_v342 rfl shapeCasts_S1x1x1_S_) ::
    (StableHlo.unary main_v342 main_v343 (broadcastInDim S8192x1 ![] bcast_S_S8192x1 : (⟨S_, .f32⟩ : BufTy).Contents (Elt F) → (⟨S8192x1, .f32⟩ : BufTy).Contents (Elt F))) ::
    (StableHlo.binary main_v343 main_v340 main_v344 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v340 main_v345 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v346 ((extractStridedSlice S1x1x1 ![1, 4, 1] · slices_S2x5x5_S1x1x1_1_4_1) : (⟨S2x5x5, .f32⟩ : BufTy).Contents (Elt F) → (⟨S1x1x1, .f32⟩ : BufTy).Contents (Elt F))) ::
    (StableHlo.reshape main_v346 main_v347 rfl shapeCasts_S1x1x1_S_) ::
    (StableHlo.unary main_v347 main_v348 (broadcastInDim S8192x1 ![] bcast_S_S8192x1 : (⟨S_, .f32⟩ : BufTy).Contents (Elt F) → (⟨S8192x1, .f32⟩ : BufTy).Contents (Elt F))) ::
    (StableHlo.binary main_v348 main_v345 main_v349 (mulf : (⟨S8192x1, .f32⟩ : BufTy).Contents (Elt F) → (⟨S8192x1, .f32⟩ : BufTy).Contents (Elt F) → (⟨S8192x1, .f32⟩ : BufTy).Contents (Elt F))) ::
    (StableHlo.binary main_v344 main_v349 main_v350 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v345 main_v351 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v352 ((extractStridedSlice S1x1x1 ![1, 4, 2] · slices_S2x5x5_S1x1x1_1_4_2) : (⟨S2x5x5, .f32⟩ : BufTy).Contents (Elt F) → (⟨S1x1x1, .f32⟩ : BufTy).Contents (Elt F))) ::
    (StableHlo.reshape main_v352 main_v353 rfl shapeCasts_S1x1x1_S_) ::
    (StableHlo.unary main_v353 main_v354 (broadcastInDim S8192x1 ![] bcast_S_S8192x1 : (⟨S_, .f32⟩ : BufTy).Contents (Elt F) → (⟨S8192x1, .f32⟩ : BufTy).Contents (Elt F))) ::
    (StableHlo.binary main_v354 main_v351 main_v355 (mulf : (⟨S8192x1, .f32⟩ : BufTy).Contents (Elt F) → (⟨S8192x1, .f32⟩ : BufTy).Contents (Elt F) → (⟨S8192x1, .f32⟩ : BufTy).Contents (Elt F))) ::
    (StableHlo.binary main_v350 main_v355 main_v356 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v351 main_v357 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v358 ((extractStridedSlice S1x1x1 ![1, 4, 3] · slices_S2x5x5_S1x1x1_1_4_3) : (⟨S2x5x5, .f32⟩ : BufTy).Contents (Elt F) → (⟨S1x1x1, .f32⟩ : BufTy).Contents (Elt F))) ::
    (StableHlo.reshape main_v358 main_v359 rfl shapeCasts_S1x1x1_S_) ::
    (StableHlo.unary main_v359 main_v360 (broadcastInDim S8192x1 ![] bcast_S_S8192x1 : (⟨S_, .f32⟩ : BufTy).Contents (Elt F) → (⟨S8192x1, .f32⟩ : BufTy).Contents (Elt F))) ::
    (StableHlo.binary main_v360 main_v357 main_v361 (mulf : (⟨S8192x1, .f32⟩ : BufTy).Contents (Elt F) → (⟨S8192x1, .f32⟩ : BufTy).Contents (Elt F) → (⟨S8192x1, .f32⟩ : BufTy).Contents (Elt F))) ::
    (StableHlo.binary main_v356 main_v361 main_v362 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v357 main_v363 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v364 ((extractStridedSlice S1x1x1 ![1, 4, 4] · slices_S2x5x5_S1x1x1_1_4_4) : (⟨S2x5x5, .f32⟩ : BufTy).Contents (Elt F) → (⟨S1x1x1, .f32⟩ : BufTy).Contents (Elt F))) ::
    (StableHlo.reshape main_v364 main_v365 rfl shapeCasts_S1x1x1_S_) ::
    (StableHlo.unary main_v365 main_v366 (broadcastInDim S8192x1 ![] bcast_S_S8192x1 : (⟨S_, .f32⟩ : BufTy).Contents (Elt F) → (⟨S8192x1, .f32⟩ : BufTy).Contents (Elt F))) ::
    (StableHlo.binary main_v366 main_v363 main_v367 (mulf : (⟨S8192x1, .f32⟩ : BufTy).Contents (Elt F) → (⟨S8192x1, .f32⟩ : BufTy).Contents (Elt F) → (⟨S8192x1, .f32⟩ : BufTy).Contents (Elt F))) ::
    (StableHlo.binary main_v362 main_v367 main_v368 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call9.cst (constant S_ .f32 0x00000000#32)) ::
    (StableHlo.TRef.unary main_call9.cst main_call9.v0 (broadcastInDim S8192x1 ![] bcast_S_S8192x1)) ::
    (StableHlo.TRef.binary (.of main_v368) main_call9.v0 main_call9.v1 (cmpf (F := F) .oge)) ::
    (StableHlo.TRef.nullary main_call9.cst_0 (constant S_ .f32 0x3C23D70A#32)) ::
    (StableHlo.TRef.unary main_call9.cst_0 main_call9.v2 (broadcastInDim S8192x1 ![] bcast_S_S8192x1)) ::
    (StableHlo.TRef.binary main_call9.v2 (.of main_v368) main_call9.v3 mulf) ::
    (StableHlo.TRef.ternary main_call9.v1 (.of main_v368) main_call9.v3 main_call9.call0.v0 select) ::
    (StableHlo.nullary main_cst_39 (constant S_ .f32 0x00000000#32)) ::
    (StableHlo.binary main_v369 main_cst_39 main_v370 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_40 (constant S_ .f32 0x46000000#32)) ::
    (StableHlo.binary main_v370 main_cst_40 main_v371 (Host.divf : (⟨S_, .f32⟩ : BufTy).Contents (Elt F) → (⟨S_, .f32⟩ : BufTy).Contents (Elt F) → (⟨S_, .f32⟩ : BufTy).Contents (Elt F))) ::
    (StableHlo.unary main_v371 main_v372 (broadcastInDim S8192x1 ![] bcast_S_S8192x1 : (⟨S_, .f32⟩ : BufTy).Contents (Elt F) → (⟨S8192x1, .f32⟩ : BufTy).Contents (Elt F))) ::
    (StableHlo.binary main_v369 main_v372 main_v373 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_41 (constant S_ .f32 0x00000000#32)) ::
    (StableHlo.binary main_v373 main_cst_41 main_v374 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_42 (constant S_ .f32 0x46000000#32)) ::
    (StableHlo.binary main_v374 main_cst_42 main_v375 (Host.divf : (⟨S_, .f32⟩ : BufTy).Contents (Elt F) → (⟨S_, .f32⟩ : BufTy).Contents (Elt F) → (⟨S_, .f32⟩ : BufTy).Contents (Elt F))) :: []
  )

/-- The operations of statements window 7 of @main, in order, each call's operations inline over the call's record. -/
abbrev ops7 : List (HloOp τ sig (Elt F)) :=
  (
    (StableHlo.unary main_v375 main_v376 (broadcastInDim S8192x1 ![] bcast_S_S8192x1 : (⟨S_, .f32⟩ : BufTy).Contents (Elt F) → (⟨S8192x1, .f32⟩ : BufTy).Contents (Elt F))) ::
    (StableHlo.binary main_v373 main_v376 main_v377 (subf : (⟨S8192x1, .f32⟩ : BufTy).Contents (Elt F) → (⟨S8192x1, .f32⟩ : BufTy).Contents (Elt F) → (⟨S8192x1, .f32⟩ : BufTy).Contents (Elt F))) ::
    (StableHlo.binary main_v192 main_v377 main_v378 ((fun a b => concatenate S8192x2 1 [⟨S8192x1, a⟩, ⟨S8192x1, b⟩] concatenates_S8192x1_S8192x1_S8192x2_d1) : (⟨S8192x1, .f32⟩ : BufTy).Contents (Elt F) → (⟨S8192x1, .f32⟩ : BufTy).Contents (Elt F) → (⟨S8192x2, .f32⟩ : BufTy).Contents (Elt F))) ::
    (StableHlo.unary main_v378 main_v379 (Host.negf : (⟨S8192x2, .f32⟩ : BufTy).Contents (Elt F) → (⟨S8192x2, .f32⟩ : BufTy).Contents (Elt F))) ::
    (StableHlo.unary main_v379 main_v380 (Host.exp : (⟨S8192x2, .f32⟩ : BufTy).Contents (Elt F) → (⟨S8192x2, .f32⟩ : BufTy).Contents (Elt F))) ::
    (StableHlo.nullary main_cst_43 (constant S_ .f32 0x3F800000#32)) ::
    (StableHlo.unary main_cst_43 main_v381 (broadcastInDim S8192x2 ![] bcast_S_S8192x2 : (⟨S_, .f32⟩ : BufTy).Contents (Elt F) → (⟨S8192x2, .f32⟩ : BufTy).Contents (Elt F))) ::
    (StableHlo.binary main_v381 main_v380 main_v382 (addf : (⟨S8192x2, .f32⟩ : BufTy).Contents (Elt F) → (⟨S8192x2, .f32⟩ : BufTy).Contents (Elt F) → (⟨S8192x2, .f32⟩ : BufTy).Contents (Elt F))) ::
    (StableHlo.nullary main_cst_44 (constant S_ .f32 0x3F800000#32)) ::
    (StableHlo.unary main_cst_44 main_v383 (broadcastInDim S8192x2 ![] bcast_S_S8192x2 : (⟨S_, .f32⟩ : BufTy).Contents (Elt F) → (⟨S8192x2, .f32⟩ : BufTy).Contents (Elt F))) ::
    (StableHlo.binary main_v383 main_v382 main_v384 (Host.divf : (⟨S8192x2, .f32⟩ : BufTy).Contents (Elt F) → (⟨S8192x2, .f32⟩ : BufTy).Contents (Elt F) → (⟨S8192x2, .f32⟩ : BufTy).Contents (Elt F))) :: []
  )

set_option maxRecDepth 8192 in
/-- Window 0 of @main is the straight line of its operations. -/
theorem part_eq_0 (c : Dev nD) : main_part0 (F := F) c = seq ops0 := rfl

set_option maxRecDepth 8192 in
/-- Window 1 of @main is the straight line of its operations. -/
theorem part_eq_1 (c : Dev nD) : main_part1 (F := F) c = seq ops1 := rfl

set_option maxRecDepth 8192 in
/-- Window 2 of @main is the straight line of its operations. -/
theorem part_eq_2 (c : Dev nD) : main_part2 (F := F) c = seq ops2 := rfl

set_option maxRecDepth 8192 in
/-- Window 3 of @main is the straight line of its operations. -/
theorem part_eq_3 (c : Dev nD) : main_part3 (F := F) c = seq ops3 := rfl

set_option maxRecDepth 8192 in
/-- Window 4 of @main is the straight line of its operations. -/
theorem part_eq_4 (c : Dev nD) : main_part4 (F := F) c = seq ops4 := rfl

set_option maxRecDepth 8192 in
/-- Window 5 of @main is the straight line of its operations. -/
theorem part_eq_5 (c : Dev nD) : main_part5 (F := F) c = seq ops5 := rfl

set_option maxRecDepth 8192 in
/-- Window 6 of @main is the straight line of its operations. -/
theorem part_eq_6 (c : Dev nD) : main_part6 (F := F) c = seq ops6 := rfl

set_option maxRecDepth 8192 in
/-- Window 7 of @main is the straight line of its operations. -/
theorem part_eq_7 (c : Dev nD) : main_part7 (F := F) c = seq ops7 := rfl

/-- @main's operations, in order: the eight windows one after the other. -/
abbrev ops : List (HloOp τ sig (Elt F)) := ops0 ++ (ops1 ++ (ops2 ++ (ops3 ++ (ops4 ++ (ops5 ++ (ops6 ++ ops7))))))

/-- @main is the straight line of its operations. -/
theorem main_eq (c : Dev nD) : main (F := F) c = seq ops := by
  simp only [ops, seq_append, ← part_eq_0 c, ← part_eq_1 c, ← part_eq_2 c, ← part_eq_3 c, ← part_eq_4 c, ← part_eq_5 c, ← part_eq_6 c, ← part_eq_7 c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops5_sub : (ops5 : List (HloOp τ sig (Elt F))).Forall fun op => op.bufs ⊆ tcRefs τ sig :=
  ⟨reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops6_sub : (ops6 : List (HloOp τ sig (Elt F))).Forall fun op => op.bufs ⊆ tcRefs τ sig :=
  ⟨binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., binary_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., unary_bufs_sub .., binary_bufs_sub .., nullary_bufs_sub .., binary_bufs_sub .., nullary_bufs_sub .., binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops7_sub : (ops7 : List (HloOp τ sig (Elt F))).Forall fun op => op.bufs ⊆ tcRefs τ sig :=
  ⟨unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

theorem ops7_fresh : (ops7 : List (HloOp τ sig (Elt F))).Forall fun op => op.fresh = ∅ :=
  ⟨rfl, rfl, rfl, rfl, rfl, rfl, rfl, rfl, rfl, rfl, rfl⟩

/-- Every operation touches TensorCore references only. -/
theorem ops_sub : (ops : List (HloOp τ sig (Elt F))).Forall fun op => op.bufs ⊆ tcRefs τ sig := by
  rw [List.forall_iff_forall_mem]
  intro op h
  simp only [ops, List.mem_append] at h
  rcases h with h | h | h | h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h

/-- Every operation determines its result. -/
theorem ops_fresh : ∀ op ∈ (ops : List (HloOp τ sig (Elt F))), op.fresh = ∅ := by
  intro op h
  simp only [ops, List.mem_append] at h
  rcases h with h | h | h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h
  · exact List.forall_iff_forall_mem.mp ops7_fresh op h

/-- From any memory with zero counters every weakly fair execution of @main terminates, each TensorCore buffer at
    the fold of the operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.RefChunks.lean ====
/-
  @main's operations cut at the mathematical boundaries: the prelude (the affine maps of the matrix and of the input
  column), one list per layer, and the tail (the sigmoid of the two columns side by side).
-/
import proofs.«144169_j55405078119367_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations up to the two affine maps of the matrix and of the input column. -/
abbrev pre : List (HloOp τ sig (Elt F)) :=
  (
    (StableHlo.nullary main_cst (constant S_ .f32 0x3F800000#32)) ::
    (StableHlo.unary main_cst main_v0 (broadcastInDim S8192x8192 ![] bcast_S_S8192x8192 : (⟨S_, .f32⟩ : BufTy).Contents (Elt F) → (⟨S8192x8192, .f32⟩ : BufTy).Contents (Elt F))) ::
    (StableHlo.binary main_arg0 main_v0 main_v1 (addf : (⟨S8192x8192, .f32⟩ : BufTy).Contents (Elt F) → (⟨S8192x8192, .f32⟩ : BufTy).Contents (Elt F) → (⟨S8192x8192, .f32⟩ : BufTy).Contents (Elt F))) ::
    (StableHlo.nullary main_cst_0 (constant S_ .f32 0x3F000000#32)) ::
    (StableHlo.unary main_cst_0 main_v2 (broadcastInDim S8192x8192 ![] bcast_S_S8192x8192 : (⟨S_, .f32⟩ : BufTy).Contents (Elt F) → (⟨S8192x8192, .f32⟩ : BufTy).Contents (Elt F))) ::
    (StableHlo.binary main_v1 main_v2 main_v3 (mulf : (⟨S8192x8192, .f32⟩ : BufTy).Contents (Elt F) → (⟨S8192x8192, .f32⟩ : BufTy).Contents (Elt F) → (⟨S8192x8192, .f32⟩ : BufTy).Contents (Elt F))) ::
    (StableHlo.nullary main_cst_1 (constant S_ .f32 0x3F800000#32)) ::
    (StableHlo.unary main_cst_1 main_v4 (broadcastInDim S8192x1 ![] bcast_S_S8192x1 : (⟨S_, .f32⟩ : BufTy).Contents (Elt F) → (⟨S8192x1, .f32⟩ : BufTy).Contents (Elt F))) ::
    (StableHlo.binary main_arg1 main_v4 main_v5 (addf : (⟨S8192x1, .f32⟩ : BufTy).Contents (Elt F) → (⟨S8192x1, .f32⟩ : BufTy).Contents (Elt F) → (⟨S8192x1, .f32⟩ : BufTy).Contents (Elt F))) ::
    (StableHlo.nullary main_cst_2 (constant S_ .f32 0x3F000000#32)) ::
    (StableHlo.unary main_cst_2 main_v6 (broadcastInDim S8192x1 ![] bcast_S_S8192x1 : (⟨S_, .f32⟩ : BufTy).Contents (Elt F) → (⟨S8192x1, .f32⟩ : BufTy).Contents (Elt F))) ::
    (StableHlo.binary main_v5 main_v6 main_v7 (mulf : (⟨S8192x1, .f32⟩ : BufTy).Contents (Elt F) → (⟨S8192x1, .f32⟩ : BufTy).Contents (Elt F) → (⟨S8192x1, .f32⟩ : BufTy).Contents (Elt F))) :: []
  )

/-- The operations of layer (0, 0): taps, leaky_relu, the two normalisations. -/
abbrev L00 : List (HloOp τ sig (Elt F)) :=
  (
    (StableHlo.unary main_arg2 main_v8 ((extractStridedSlice S1x1x1 ![0, 0, 0] · slices_S2x5x5_S1x1x1_0_0_0) : (⟨S2x5x5, .f32⟩ : BufTy).Contents (Elt F) → (⟨S1x1x1, .f32⟩ : BufTy).Contents (Elt F))) ::
    (StableHlo.reshape main_v8 main_v9 rfl shapeCasts_S1x1x1_S_) ::
    (StableHlo.unary main_v9 main_v10 (broadcastInDim S8192x1 ![] bcast_S_S8192x1 : (⟨S_, .f32⟩ : BufTy).Contents (Elt F) → (⟨S8192x1, .f32⟩ : BufTy).Contents (Elt F))) ::
    (StableHlo.binary main_v10 main_v7 main_v11 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v7 main_v12 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v13 ((extractStridedSlice S1x1x1 ![0, 0, 1] · slices_S2x5x5_S1x1x1_0_0_1) : (⟨S2x5x5, .f32⟩ : BufTy).Contents (Elt F) → (⟨S1x1x1, .f32⟩ : BufTy).Contents (Elt F))) ::
    (StableHlo.reshape main_v13 main_v14 rfl shapeCasts_S1x1x1_S_) ::
    (StableHlo.unary main_v14 main_v15 (broadcastInDim S8192x1 ![] bcast_S_S8192x1 : (⟨S_, .f32⟩ : BufTy).Contents (Elt F) → (⟨S8192x1, .f32⟩ : BufTy).Contents (Elt F))) ::
    (StableHlo.binary main_v15 main_v12 main_v16 (mulf : (⟨S8192x1, .f32⟩ : BufTy).Contents (Elt F) → (⟨S8192x1, .f32⟩ : BufTy).Contents (Elt F) → (⟨S8192x1, .f32⟩ : BufTy).Contents (Elt F))) ::
    (StableHlo.binary main_v11 main_v16 main_v17 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v12 main_v18 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v19 ((extractStridedSlice S1x1x1 ![0, 0, 2] · slices_S2x5x5_S1x1x1_0_0_2) : (⟨S2x5x5, .f32⟩ : BufTy).Contents (Elt F) → (⟨S1x1x1, .f32⟩ : BufTy).Contents (Elt F))) ::
    (StableHlo.reshape main_v19 main_v20 rfl shapeCasts_S1x1x1_S_) ::
    (StableHlo.unary main_v20 main_v21 (broadcastInDim S8192x1 ![] bcast_S_S8192x1 : (⟨S_, .f32⟩ : BufTy).Contents (Elt F) → (⟨S8192x1, .f32⟩ : BufTy).Contents (Elt F))) ::
    (StableHlo.binary main_v21 main_v18 main_v22 (mulf : (⟨S8192x1, .f32⟩ : BufTy).Contents (Elt F) → (⟨S8192x1, .f32⟩ : BufTy).Contents (Elt F) → (⟨S8192x1, .f32⟩ : BufTy).Contents (Elt F))) ::
    (StableHlo.binary main_v17 main_v22 main_v23 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v18 main_v24 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v25 ((extractStridedSlice S1x1x1 ![0, 0, 3] · slices_S2x5x5_S1x1x1_0_0_3) : (⟨S2x5x5, .f32⟩ : BufTy).Contents (Elt F) → (⟨S1x1x1, .f32⟩ : BufTy).Contents (Elt F))) ::
    (StableHlo.reshape main_v25 main_v26 rfl shapeCasts_S1x1x1_S_) ::
    (StableHlo.unary main_v26 main_v27 (broadcastInDim S8192x1 ![] bcast_S_S8192x1 : (⟨S_, .f32⟩ : BufTy).Contents (Elt F) → (⟨S8192x1, .f32⟩ : BufTy).Contents (Elt F))) ::
    (StableHlo.binary main_v27 main_v24 main_v28 (mulf : (⟨S8192x1, .f32⟩ : BufTy).Contents (Elt F) → (⟨S8192x1, .f32⟩ : BufTy).Contents (Elt F) → (⟨S8192x1, .f32⟩ : BufTy).Contents (Elt F))) ::
    (StableHlo.binary main_v23 main_v28 main_v29 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v24 main_v30 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v31 ((extractStridedSlice S1x1x1 ![0, 0, 4] · slices_S2x5x5_S1x1x1_0_0_4) : (⟨S2x5x5, .f32⟩ : BufTy).Contents (Elt F) → (⟨S1x1x1, .f32⟩ : BufTy).Contents (Elt F))) ::
    (StableHlo.reshape main_v31 main_v32 rfl shapeCasts_S1x1x1_S_) ::
    (StableHlo.unary main_v32 main_v33 (broadcastInDim S8192x1 ![] bcast_S_S8192x1 : (⟨S_, .f32⟩ : BufTy).Contents (Elt F) → (⟨S8192x1, .f32⟩ : BufTy).Contents (Elt F))) ::
    (StableHlo.binary main_v33 main_v30 main_v34 (mulf : (⟨S8192x1, .f32⟩ : BufTy).Contents (Elt F) → (⟨S8192x1, .f32⟩ : BufTy).Contents (Elt F) → (⟨S8192x1, .f32⟩ : BufTy).Contents (Elt F))) ::
    (StableHlo.binary main_v29 main_v34 main_v35 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call0.cst (constant S_ .f32 0x00000000#32)) ::
    (StableHlo.TRef.unary main_call0.cst main_call0.v0 (broadcastInDim S8192x1 ![] bcast_S_S8192x1)) ::
    (StableHlo.TRef.binary (.of main_v35) main_call0.v0 main_call0.v1 (cmpf (F := F) .oge)) ::
    (StableHlo.TRef.nullary main_call0.cst_0 (constant S_ .f32 0x3C23D70A#32)) ::
    (StableHlo.TRef.unary main_call0.cst_0 main_call0.v2 (broadcastInDim S8192x1 ![] bcast_S_S8192x1)) ::
    (StableHlo.TRef.binary main_call0.v2 (.of main_v35) main_call0.v3 mulf) ::
    (StableHlo.TRef.ternary main_call0.v1 (.of main_v35) main_call0.v3 main_call0.call0.v0 select) ::
    (StableHlo.nullary main_cst_3 (constant S_ .f32 0x00000000#32)) ::
    (StableHlo.binary main_v36 main_cst_3 main_v37 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_4 (constant S_ .f32 0x46000000#32)) ::
    (StableHlo.binary main_v37 main_cst_4 main_v38 (Host.divf : (⟨S_, .f32⟩ : BufTy).Contents (Elt F) → (⟨S_, .f32⟩ : BufTy).Contents (Elt F) → (⟨S_, .f32⟩ : BufTy).Contents (Elt F))) ::
    (StableHlo.unary main_v38 main_v39 (broadcastInDim S8192x1 ![] bcast_S_S8192x1 : (⟨S_, .f32⟩ : BufTy).Contents (Elt F) → (⟨S8192x1, .f32⟩ : BufTy).Contents (Elt F))) ::
    (StableHlo.binary main_v36 main_v39 main_v40 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_5 (constant S_ .f32 0x00000000#32)) ::
    (StableHlo.binary main_v40 main_cst_5 main_v41 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_6 (constant S_ .f32 0x46000000#32)) ::
    (StableHlo.binary main_v41 main_cst_6 main_v42 (Host.divf : (⟨S_, .f32⟩ : BufTy).Contents (Elt F) → (⟨S_, .f32⟩ : BufTy).Contents (Elt F) → (⟨S_, .f32⟩ : BufTy).Contents (Elt F))) ::
    (StableHlo.unary main_v42 main_v43 (broadcastInDim S8192x1 ![] bcast_S_S8192x1 : (⟨S_, .f32⟩ : BufTy).Contents (Elt F) → (⟨S8192x1, .f32⟩ : BufTy).Contents (Elt F))) ::
    (StableHlo.binary main_v40 main_v43 main_v44 (subf : (⟨S8192x1, .f32⟩ : BufTy).Contents (Elt F) → (⟨S8192x1, .f32⟩ : BufTy).Contents (Elt F) → (⟨S8192x1, .f32⟩ : BufTy).Contents (Elt F))) :: []
  )

/-- The operations of layer (0, 1): taps, leaky_relu, the two normalisations. -/
abbrev L01 : List (HloOp τ sig (Elt F)) :=
  (
    (StableHlo.unary main_arg2 main_v45 ((extractStridedSlice S1x1x1 ![0, 1, 0] · slices_S2x5x5_S1x1x1_0_1_0) : (⟨S2x5x5, .f32⟩ : BufTy).Contents (Elt F) → (⟨S1x1x1, .f32⟩ : BufTy).Contents (Elt F))) ::
    (StableHlo.reshape main_v45 main_v46 rfl shapeCasts_S1x1x1_S_) ::
    (StableHlo.unary main_v46 main_v47 (broadcastInDim S8192x1 ![] bcast_S_S8192x1 : (⟨S_, .f32⟩ : BufTy).Contents (Elt F) → (⟨S8192x1, .f32⟩ : BufTy).Contents (Elt F))) ::
    (StableHlo.binary main_v47 main_v44 main_v48 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v44 main_v49 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v50 ((extractStridedSlice S1x1x1 ![0, 1, 1] · slices_S2x5x5_S1x1x1_0_1_1) : (⟨S2x5x5, .f32⟩ : BufTy).Contents (Elt F) → (⟨S1x1x1, .f32⟩ : BufTy).Contents (Elt F))) ::
    (StableHlo.reshape main_v50 main_v51 rfl shapeCasts_S1x1x1_S_) ::
    (StableHlo.unary main_v51 main_v52 (broadcastInDim S8192x1 ![] bcast_S_S8192x1 : (⟨S_, .f32⟩ : BufTy).Contents (Elt F) → (⟨S8192x1, .f32⟩ : BufTy).Contents (Elt F))) ::
    (StableHlo.binary main_v52 main_v49 main_v53 (mulf : (⟨S8192x1, .f32⟩ : BufTy).Contents (Elt F) → (⟨S8192x1, .f32⟩ : BufTy).Contents (Elt F) → (⟨S8192x1, .f32⟩ : BufTy).Contents (Elt F))) ::
    (StableHlo.binary main_v48 main_v53 main_v54 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v49 main_v55 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v56 ((extractStridedSlice S1x1x1 ![0, 1, 2] · slices_S2x5x5_S1x1x1_0_1_2) : (⟨S2x5x5, .f32⟩ : BufTy).Contents (Elt F) → (⟨S1x1x1, .f32⟩ : BufTy).Contents (Elt F))) ::
    (StableHlo.reshape main_v56 main_v57 rfl shapeCasts_S1x1x1_S_) ::
    (StableHlo.unary main_v57 main_v58 (broadcastInDim S8192x1 ![] bcast_S_S8192x1 : (⟨S_, .f32⟩ : BufTy).Contents (Elt F) → (⟨S8192x1, .f32⟩ : BufTy).Contents (Elt F))) ::
    (StableHlo.binary main_v58 main_v55 main_v59 (mulf : (⟨S8192x1, .f32⟩ : BufTy).Contents (Elt F) → (⟨S8192x1, .f32⟩ : BufTy).Contents (Elt F) → (⟨S8192x1, .f32⟩ : BufTy).Contents (Elt F))) ::
    (StableHlo.binary main_v54 main_v59 main_v60 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v55 main_v61 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v62 ((extractStridedSlice S1x1x1 ![0, 1, 3] · slices_S2x5x5_S1x1x1_0_1_3) : (⟨S2x5x5, .f32⟩ : BufTy).Contents (Elt F) → (⟨S1x1x1, .f32⟩ : BufTy).Contents (Elt F))) ::
    (StableHlo.reshape main_v62 main_v63 rfl shapeCasts_S1x1x1_S_) ::
    (StableHlo.unary main_v63 main_v64 (broadcastInDim S8192x1 ![] bcast_S_S8192x1 : (⟨S_, .f32⟩ : BufTy).Contents (Elt F) → (⟨S8192x1, .f32⟩ : BufTy).Contents (Elt F))) ::
    (StableHlo.binary main_v64 main_v61 main_v65 (mulf : (⟨S8192x1, .f32⟩ : BufTy).Contents (Elt F) → (⟨S8192x1, .f32⟩ : BufTy).Contents (Elt F) → (⟨S8192x1, .f32⟩ : BufTy).Contents (Elt F))) ::
    (StableHlo.binary main_v60 main_v65 main_v66 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v61 main_v67 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v68 ((extractStridedSlice S1x1x1 ![0, 1, 4] · slices_S2x5x5_S1x1x1_0_1_4) : (⟨S2x5x5, .f32⟩ : BufTy).Contents (Elt F) → (⟨S1x1x1, .f32⟩ : BufTy).Contents (Elt F))) ::
    (StableHlo.reshape main_v68 main_v69 rfl shapeCasts_S1x1x1_S_) ::
    (StableHlo.unary main_v69 main_v70 (broadcastInDim S8192x1 ![] bcast_S_S8192x1 : (⟨S_, .f32⟩ : BufTy).Contents (Elt F) → (⟨S8192x1, .f32⟩ : BufTy).Contents (Elt F))) ::
    (StableHlo.binary main_v70 main_v67 main_v71 (mulf : (⟨S8192x1, .f32⟩ : BufTy).Contents (Elt F) → (⟨S8192x1, .f32⟩ : BufTy).Contents (Elt F) → (⟨S8192x1, .f32⟩ : BufTy).Contents (Elt F))) ::
    (StableHlo.binary main_v66 main_v71 main_v72 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call1.cst (constant S_ .f32 0x00000000#32)) ::
    (StableHlo.TRef.unary main_call1.cst main_call1.v0 (broadcastInDim S8192x1 ![] bcast_S_S8192x1)) ::
    (StableHlo.TRef.binary (.of main_v72) main_call1.v0 main_call1.v1 (cmpf (F := F) .oge)) ::
    (StableHlo.TRef.nullary main_call1.cst_0 (constant S_ .f32 0x3C23D70A#32)) ::
    (StableHlo.TRef.unary main_call1.cst_0 main_call1.v2 (broadcastInDim S8192x1 ![] bcast_S_S8192x1)) ::
    (StableHlo.TRef.binary main_call1.v2 (.of main_v72) main_call1.v3 mulf) ::
    (StableHlo.TRef.ternary main_call1.v1 (.of main_v72) main_call1.v3 main_call1.call0.v0 select) ::
    (StableHlo.nullary main_cst_7 (constant S_ .f32 0x00000000#32)) ::
    (StableHlo.binary main_v73 main_cst_7 main_v74 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_8 (constant S_ .f32 0x46000000#32)) ::
    (StableHlo.binary main_v74 main_cst_8 main_v75 (Host.divf : (⟨S_, .f32⟩ : BufTy).Contents (Elt F) → (⟨S_, .f32⟩ : BufTy).Contents (Elt F) → (⟨S_, .f32⟩ : BufTy).Contents (Elt F))) ::
    (StableHlo.unary main_v75 main_v76 (broadcastInDim S8192x1 ![] bcast_S_S8192x1 : (⟨S_, .f32⟩ : BufTy).Contents (Elt F) → (⟨S8192x1, .f32⟩ : BufTy).Contents (Elt F))) ::
    (StableHlo.binary main_v73 main_v76 main_v77 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_9 (constant S_ .f32 0x00000000#32)) ::
    (StableHlo.binary main_v77 main_cst_9 main_v78 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_10 (constant S_ .f32 0x46000000#32)) ::
    (StableHlo.binary main_v78 main_cst_10 main_v79 (Host.divf : (⟨S_, .f32⟩ : BufTy).Contents (Elt F) → (⟨S_, .f32⟩ : BufTy).Contents (Elt F) → (⟨S_, .f32⟩ : BufTy).Contents (Elt F))) ::
    (StableHlo.unary main_v79 main_v80 (broadcastInDim S8192x1 ![] bcast_S_S8192x1 : (⟨S_, .f32⟩ : BufTy).Contents (Elt F) → (⟨S8192x1, .f32⟩ : BufTy).Contents (Elt F))) ::
    (StableHlo.binary main_v77 main_v80 main_v81 (subf : (⟨S8192x1, .f32⟩ : BufTy).Contents (Elt F) → (⟨S8192x1, .f32⟩ : BufTy).Contents (Elt F) → (⟨S8192x1, .f32⟩ : BufTy).Contents (Elt F))) :: []
  )

/-- The operations of layer (0, 2): taps, leaky_relu, the two normalisations. -/
abbrev L02 : List (HloOp τ sig (Elt F)) :=
  (
    (StableHlo.unary main_arg2 main_v82 ((extractStridedSlice S1x1x1 ![0, 2, 0] · slices_S2x5x5_S1x1x1_0_2_0) : (⟨S2x5x5, .f32⟩ : BufTy).Contents (Elt F) → (⟨S1x1x1, .f32⟩ : BufTy).Contents (Elt F))) ::
    (StableHlo.reshape main_v82 main_v83 rfl shapeCasts_S1x1x1_S_) ::
    (StableHlo.unary main_v83 main_v84 (broadcastInDim S8192x1 ![] bcast_S_S8192x1 : (⟨S_, .f32⟩ : BufTy).Contents (Elt F) → (⟨S8192x1, .f32⟩ : BufTy).Contents (Elt F))) ::
    (StableHlo.binary main_v84 main_v81 main_v85 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v81 main_v86 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v87 ((extractStridedSlice S1x1x1 ![0, 2, 1] · slices_S2x5x5_S1x1x1_0_2_1) : (⟨S2x5x5, .f32⟩ : BufTy).Contents (Elt F) → (⟨S1x1x1, .f32⟩ : BufTy).Contents (Elt F))) ::
    (StableHlo.reshape main_v87 main_v88 rfl shapeCasts_S1x1x1_S_) ::
    (StableHlo.unary main_v88 main_v89 (broadcastInDim S8192x1 ![] bcast_S_S8192x1 : (⟨S_, .f32⟩ : BufTy).Contents (Elt F) → (⟨S8192x1, .f32⟩ : BufTy).Contents (Elt F))) ::
    (StableHlo.binary main_v89 main_v86 main_v90 (mulf : (⟨S8192x1, .f32⟩ : BufTy).Contents (Elt F) → (⟨S8192x1, .f32⟩ : BufTy).Contents (Elt F) → (⟨S8192x1, .f32⟩ : BufTy).Contents (Elt F))) ::
    (StableHlo.binary main_v85 main_v90 main_v91 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v86 main_v92 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v93 ((extractStridedSlice S1x1x1 ![0, 2, 2] · slices_S2x5x5_S1x1x1_0_2_2) : (⟨S2x5x5, .f32⟩ : BufTy).Contents (Elt F) → (⟨S1x1x1, .f32⟩ : BufTy).Contents (Elt F))) ::
    (StableHlo.reshape main_v93 main_v94 rfl shapeCasts_S1x1x1_S_) ::
    (StableHlo.unary main_v94 main_v95 (broadcastInDim S8192x1 ![] bcast_S_S8192x1 : (⟨S_, .f32⟩ : BufTy).Contents (Elt F) → (⟨S8192x1, .f32⟩ : BufTy).Contents (Elt F))) ::
    (StableHlo.binary main_v95 main_v92 main_v96 (mulf : (⟨S8192x1, .f32⟩ : BufTy).Contents (Elt F) → (⟨S8192x1, .f32⟩ : BufTy).Contents (Elt F) → (⟨S8192x1, .f32⟩ : BufTy).Contents (Elt F))) ::
    (StableHlo.binary main_v91 main_v96 main_v97 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v92 main_v98 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v99 ((extractStridedSlice S1x1x1 ![0, 2, 3] · slices_S2x5x5_S1x1x1_0_2_3) : (⟨S2x5x5, .f32⟩ : BufTy).Contents (Elt F) → (⟨S1x1x1, .f32⟩ : BufTy).Contents (Elt F))) ::
    (StableHlo.reshape main_v99 main_v100 rfl shapeCasts_S1x1x1_S_) ::
    (StableHlo.unary main_v100 main_v101 (broadcastInDim S8192x1 ![] bcast_S_S8192x1 : (⟨S_, .f32⟩ : BufTy).Contents (Elt F) → (⟨S8192x1, .f32⟩ : BufTy).Contents (Elt F))) ::
    (StableHlo.binary main_v101 main_v98 main_v102 (mulf : (⟨S8192x1, .f32⟩ : BufTy).Contents (Elt F) → (⟨S8192x1, .f32⟩ : BufTy).Contents (Elt F) → (⟨S8192x1, .f32⟩ : BufTy).Contents (Elt F))) ::
    (StableHlo.binary main_v97 main_v102 main_v103 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v98 main_v104 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v105 ((extractStridedSlice S1x1x1 ![0, 2, 4] · slices_S2x5x5_S1x1x1_0_2_4) : (⟨S2x5x5, .f32⟩ : BufTy).Contents (Elt F) → (⟨S1x1x1, .f32⟩ : BufTy).Contents (Elt F))) ::
    (StableHlo.reshape main_v105 main_v106 rfl shapeCasts_S1x1x1_S_) ::
    (StableHlo.unary main_v106 main_v107 (broadcastInDim S8192x1 ![] bcast_S_S8192x1 : (⟨S_, .f32⟩ : BufTy).Contents (Elt F) → (⟨S8192x1, .f32⟩ : BufTy).Contents (Elt F))) ::
    (StableHlo.binary main_v107 main_v104 main_v108 (mulf : (⟨S8192x1, .f32⟩ : BufTy).Contents (Elt F) → (⟨S8192x1, .f32⟩ : BufTy).Contents (Elt F) → (⟨S8192x1, .f32⟩ : BufTy).Contents (Elt F))) ::
    (StableHlo.binary main_v103 main_v108 main_v109 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call2.cst (constant S_ .f32 0x00000000#32)) ::
    (StableHlo.TRef.unary main_call2.cst main_call2.v0 (broadcastInDim S8192x1 ![] bcast_S_S8192x1)) ::
    (StableHlo.TRef.binary (.of main_v109) main_call2.v0 main_call2.v1 (cmpf (F := F) .oge)) ::
    (StableHlo.TRef.nullary main_call2.cst_0 (constant S_ .f32 0x3C23D70A#32)) ::
    (StableHlo.TRef.unary main_call2.cst_0 main_call2.v2 (broadcastInDim S8192x1 ![] bcast_S_S8192x1)) ::
    (StableHlo.TRef.binary main_call2.v2 (.of main_v109) main_call2.v3 mulf) ::
    (StableHlo.TRef.ternary main_call2.v1 (.of main_v109) main_call2.v3 main_call2.call0.v0 select) ::
    (StableHlo.nullary main_cst_11 (constant S_ .f32 0x00000000#32)) ::
    (StableHlo.binary main_v110 main_cst_11 main_v111 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_12 (constant S_ .f32 0x46000000#32)) ::
    (StableHlo.binary main_v111 main_cst_12 main_v112 (Host.divf : (⟨S_, .f32⟩ : BufTy).Contents (Elt F) → (⟨S_, .f32⟩ : BufTy).Contents (Elt F) → (⟨S_, .f32⟩ : BufTy).Contents (Elt F))) ::
    (StableHlo.unary main_v112 main_v113 (broadcastInDim S8192x1 ![] bcast_S_S8192x1 : (⟨S_, .f32⟩ : BufTy).Contents (Elt F) → (⟨S8192x1, .f32⟩ : BufTy).Contents (Elt F))) ::
    (StableHlo.binary main_v110 main_v113 main_v114 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_13 (constant S_ .f32 0x00000000#32)) ::
    (StableHlo.binary main_v114 main_cst_13 main_v115 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_14 (constant S_ .f32 0x46000000#32)) ::
    (StableHlo.binary main_v115 main_cst_14 main_v116 (Host.divf : (⟨S_, .f32⟩ : BufTy).Contents (Elt F) → (⟨S_, .f32⟩ : BufTy).Contents (Elt F) → (⟨S_, .f32⟩ : BufTy).Contents (Elt F))) ::
    (StableHlo.unary main_v116 main_v117 (broadcastInDim S8192x1 ![] bcast_S_S8192x1 : (⟨S_, .f32⟩ : BufTy).Contents (Elt F) → (⟨S8192x1, .f32⟩ : BufTy).Contents (Elt F))) ::
    (StableHlo.binary main_v114 main_v117 main_v118 (subf : (⟨S8192x1, .f32⟩ : BufTy).Contents (Elt F) → (⟨S8192x1, .f32⟩ : BufTy).Contents (Elt F) → (⟨S8192x1, .f32⟩ : BufTy).Contents (Elt F))) :: []
  )

/-- The operations of layer (0, 3): taps, leaky_relu, the two normalisations. -/
abbrev L03 : List (HloOp τ sig (Elt F)) :=
  (
    (StableHlo.unary main_arg2 main_v119 ((extractStridedSlice S1x1x1 ![0, 3, 0] · slices_S2x5x5_S1x1x1_0_3_0) : (⟨S2x5x5, .f32⟩ : BufTy).Contents (Elt F) → (⟨S1x1x1, .f32⟩ : BufTy).Contents (Elt F))) ::
    (StableHlo.reshape main_v119 main_v120 rfl shapeCasts_S1x1x1_S_) ::
    (StableHlo.unary main_v120 main_v121 (broadcastInDim S8192x1 ![] bcast_S_S8192x1 : (⟨S_, .f32⟩ : BufTy).Contents (Elt F) → (⟨S8192x1, .f32⟩ : BufTy).Contents (Elt F))) ::
    (StableHlo.binary main_v121 main_v118 main_v122 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v118 main_v123 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v124 ((extractStridedSlice S1x1x1 ![0, 3, 1] · slices_S2x5x5_S1x1x1_0_3_1) : (⟨S2x5x5, .f32⟩ : BufTy).Contents (Elt F) → (⟨S1x1x1, .f32⟩ : BufTy).Contents (Elt F))) ::
    (StableHlo.reshape main_v124 main_v125 rfl shapeCasts_S1x1x1_S_) ::
    (StableHlo.unary main_v125 main_v126 (broadcastInDim S8192x1 ![] bcast_S_S8192x1 : (⟨S_, .f32⟩ : BufTy).Contents (Elt F) → (⟨S8192x1, .f32⟩ : BufTy).Contents (Elt F))) ::
    (StableHlo.binary main_v126 main_v123 main_v127 (mulf : (⟨S8192x1, .f32⟩ : BufTy).Contents (Elt F) → (⟨S8192x1, .f32⟩ : BufTy).Contents (Elt F) → (⟨S8192x1, .f32⟩ : BufTy).Contents (Elt F))) ::
    (StableHlo.binary main_v122 main_v127 main_v128 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v123 main_v129 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v130 ((extractStridedSlice S1x1x1 ![0, 3, 2] · slices_S2x5x5_S1x1x1_0_3_2) : (⟨S2x5x5, .f32⟩ : BufTy).Contents (Elt F) → (⟨S1x1x1, .f32⟩ : BufTy).Contents (Elt F))) ::
    (StableHlo.reshape main_v130 main_v131 rfl shapeCasts_S1x1x1_S_) ::
    (StableHlo.unary main_v131 main_v132 (broadcastInDim S8192x1 ![] bcast_S_S8192x1 : (⟨S_, .f32⟩ : BufTy).Contents (Elt F) → (⟨S8192x1, .f32⟩ : BufTy).Contents (Elt F))) ::
    (StableHlo.binary main_v132 main_v129 main_v133 (mulf : (⟨S8192x1, .f32⟩ : BufTy).Contents (Elt F) → (⟨S8192x1, .f32⟩ : BufTy).Contents (Elt F) → (⟨S8192x1, .f32⟩ : BufTy).Contents (Elt F))) ::
    (StableHlo.binary main_v128 main_v133 main_v134 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v129 main_v135 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v136 ((extractStridedSlice S1x1x1 ![0, 3, 3] · slices_S2x5x5_S1x1x1_0_3_3) : (⟨S2x5x5, .f32⟩ : BufTy).Contents (Elt F) → (⟨S1x1x1, .f32⟩ : BufTy).Contents (Elt F))) ::
    (StableHlo.reshape main_v136 main_v137 rfl shapeCasts_S1x1x1_S_) ::
    (StableHlo.unary main_v137 main_v138 (broadcastInDim S8192x1 ![] bcast_S_S8192x1 : (⟨S_, .f32⟩ : BufTy).Contents (Elt F) → (⟨S8192x1, .f32⟩ : BufTy).Contents (Elt F))) ::
    (StableHlo.binary main_v138 main_v135 main_v139 (mulf : (⟨S8192x1, .f32⟩ : BufTy).Contents (Elt F) → (⟨S8192x1, .f32⟩ : BufTy).Contents (Elt F) → (⟨S8192x1, .f32⟩ : BufTy).Contents (Elt F))) ::
    (StableHlo.binary main_v134 main_v139 main_v140 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v135 main_v141 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v142 ((extractStridedSlice S1x1x1 ![0, 3, 4] · slices_S2x5x5_S1x1x1_0_3_4) : (⟨S2x5x5, .f32⟩ : BufTy).Contents (Elt F) → (⟨S1x1x1, .f32⟩ : BufTy).Contents (Elt F))) ::
    (StableHlo.reshape main_v142 main_v143 rfl shapeCasts_S1x1x1_S_) ::
    (StableHlo.unary main_v143 main_v144 (broadcastInDim S8192x1 ![] bcast_S_S8192x1 : (⟨S_, .f32⟩ : BufTy).Contents (Elt F) → (⟨S8192x1, .f32⟩ : BufTy).Contents (Elt F))) ::
    (StableHlo.binary main_v144 main_v141 main_v145 (mulf : (⟨S8192x1, .f32⟩ : BufTy).Contents (Elt F) → (⟨S8192x1, .f32⟩ : BufTy).Contents (Elt F) → (⟨S8192x1, .f32⟩ : BufTy).Contents (Elt F))) ::
    (StableHlo.binary main_v140 main_v145 main_v146 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call3.cst (constant S_ .f32 0x00000000#32)) ::
    (StableHlo.TRef.unary main_call3.cst main_call3.v0 (broadcastInDim S8192x1 ![] bcast_S_S8192x1)) ::
    (StableHlo.TRef.binary (.of main_v146) main_call3.v0 main_call3.v1 (cmpf (F := F) .oge)) ::
    (StableHlo.TRef.nullary main_call3.cst_0 (constant S_ .f32 0x3C23D70A#32)) ::
    (StableHlo.TRef.unary main_call3.cst_0 main_call3.v2 (broadcastInDim S8192x1 ![] bcast_S_S8192x1)) ::
    (StableHlo.TRef.binary main_call3.v2 (.of main_v146) main_call3.v3 mulf) ::
    (StableHlo.TRef.ternary main_call3.v1 (.of main_v146) main_call3.v3 main_call3.call0.v0 select) ::
    (StableHlo.nullary main_cst_15 (constant S_ .f32 0x00000000#32)) ::
    (StableHlo.binary main_v147 main_cst_15 main_v148 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_16 (constant S_ .f32 0x46000000#32)) ::
    (StableHlo.binary main_v148 main_cst_16 main_v149 (Host.divf : (⟨S_, .f32⟩ : BufTy).Contents (Elt F) → (⟨S_, .f32⟩ : BufTy).Contents (Elt F) → (⟨S_, .f32⟩ : BufTy).Contents (Elt F))) ::
    (StableHlo.unary main_v149 main_v150 (broadcastInDim S8192x1 ![] bcast_S_S8192x1 : (⟨S_, .f32⟩ : BufTy).Contents (Elt F) → (⟨S8192x1, .f32⟩ : BufTy).Contents (Elt F))) ::
    (StableHlo.binary main_v147 main_v150 main_v151 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_17 (constant S_ .f32 0x00000000#32)) ::
    (StableHlo.binary main_v151 main_cst_17 main_v152 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_18 (constant S_ .f32 0x46000000#32)) ::
    (StableHlo.binary main_v152 main_cst_18 main_v153 (Host.divf : (⟨S_, .f32⟩ : BufTy).Contents (Elt F) → (⟨S_, .f32⟩ : BufTy).Contents (Elt F) → (⟨S_, .f32⟩ : BufTy).Contents (Elt F))) ::
    (StableHlo.unary main_v153 main_v154 (broadcastInDim S8192x1 ![] bcast_S_S8192x1 : (⟨S_, .f32⟩ : BufTy).Contents (Elt F) → (⟨S8192x1, .f32⟩ : BufTy).Contents (Elt F))) ::
    (StableHlo.binary main_v151 main_v154 main_v155 (subf : (⟨S8192x1, .f32⟩ : BufTy).Contents (Elt F) → (⟨S8192x1, .f32⟩ : BufTy).Contents (Elt F) → (⟨S8192x1, .f32⟩ : BufTy).Contents (Elt F))) :: []
  )

/-- The operations of layer (0, 4): taps, leaky_relu, the two normalisations. -/
abbrev L04 : List (HloOp τ sig (Elt F)) :=
  (
    (StableHlo.unary main_arg2 main_v156 ((extractStridedSlice S1x1x1 ![0, 4, 0] · slices_S2x5x5_S1x1x1_0_4_0) : (⟨S2x5x5, .f32⟩ : BufTy).Contents (Elt F) → (⟨S1x1x1, .f32⟩ : BufTy).Contents (Elt F))) ::
    (StableHlo.reshape main_v156 main_v157 rfl shapeCasts_S1x1x1_S_) ::
    (StableHlo.unary main_v157 main_v158 (broadcastInDim S8192x1 ![] bcast_S_S8192x1 : (⟨S_, .f32⟩ : BufTy).Contents (Elt F) → (⟨S8192x1, .f32⟩ : BufTy).Contents (Elt F))) ::
    (StableHlo.binary main_v158 main_v155 main_v159 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v155 main_v160 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v161 ((extractStridedSlice S1x1x1 ![0, 4, 1] · slices_S2x5x5_S1x1x1_0_4_1) : (⟨S2x5x5, .f32⟩ : BufTy).Contents (Elt F) → (⟨S1x1x1, .f32⟩ : BufTy).Contents (Elt F))) ::
    (StableHlo.reshape main_v161 main_v162 rfl shapeCasts_S1x1x1_S_) ::
    (StableHlo.unary main_v162 main_v163 (broadcastInDim S8192x1 ![] bcast_S_S8192x1 : (⟨S_, .f32⟩ : BufTy).Contents (Elt F) → (⟨S8192x1, .f32⟩ : BufTy).Contents (Elt F))) ::
    (StableHlo.binary main_v163 main_v160 main_v164 (mulf : (⟨S8192x1, .f32⟩ : BufTy).Contents (Elt F) → (⟨S8192x1, .f32⟩ : BufTy).Contents (Elt F) → (⟨S8192x1, .f32⟩ : BufTy).Contents (Elt F))) ::
    (StableHlo.binary main_v159 main_v164 main_v165 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v160 main_v166 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v167 ((extractStridedSlice S1x1x1 ![0, 4, 2] · slices_S2x5x5_S1x1x1_0_4_2) : (⟨S2x5x5, .f32⟩ : BufTy).Contents (Elt F) → (⟨S1x1x1, .f32⟩ : BufTy).Contents (Elt F))) ::
    (StableHlo.reshape main_v167 main_v168 rfl shapeCasts_S1x1x1_S_) ::
    (StableHlo.unary main_v168 main_v169 (broadcastInDim S8192x1 ![] bcast_S_S8192x1 : (⟨S_, .f32⟩ : BufTy).Contents (Elt F) → (⟨S8192x1, .f32⟩ : BufTy).Contents (Elt F))) ::
    (StableHlo.binary main_v169 main_v166 main_v170 (mulf : (⟨S8192x1, .f32⟩ : BufTy).Contents (Elt F) → (⟨S8192x1, .f32⟩ : BufTy).Contents (Elt F) → (⟨S8192x1, .f32⟩ : BufTy).Contents (Elt F))) ::
    (StableHlo.binary main_v165 main_v170 main_v171 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v166 main_v172 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v173 ((extractStridedSlice S1x1x1 ![0, 4, 3] · slices_S2x5x5_S1x1x1_0_4_3) : (⟨S2x5x5, .f32⟩ : BufTy).Contents (Elt F) → (⟨S1x1x1, .f32⟩ : BufTy).Contents (Elt F))) ::
    (StableHlo.reshape main_v173 main_v174 rfl shapeCasts_S1x1x1_S_) ::
    (StableHlo.unary main_v174 main_v175 (broadcastInDim S8192x1 ![] bcast_S_S8192x1 : (⟨S_, .f32⟩ : BufTy).Contents (Elt F) → (⟨S8192x1, .f32⟩ : BufTy).Contents (Elt F))) ::
    (StableHlo.binary main_v175 main_v172 main_v176 (mulf : (⟨S8192x1, .f32⟩ : BufTy).Contents (Elt F) → (⟨S8192x1, .f32⟩ : BufTy).Contents (Elt F) → (⟨S8192x1, .f32⟩ : BufTy).Contents (Elt F))) ::
    (StableHlo.binary main_v171 main_v176 main_v177 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v172 main_v178 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v179 ((extractStridedSlice S1x1x1 ![0, 4, 4] · slices_S2x5x5_S1x1x1_0_4_4) : (⟨S2x5x5, .f32⟩ : BufTy).Contents (Elt F) → (⟨S1x1x1, .f32⟩ : BufTy).Contents (Elt F))) ::
    (StableHlo.reshape main_v179 main_v180 rfl shapeCasts_S1x1x1_S_) ::
    (StableHlo.unary main_v180 main_v181 (broadcastInDim S8192x1 ![] bcast_S_S8192x1 : (⟨S_, .f32⟩ : BufTy).Contents (Elt F) → (⟨S8192x1, .f32⟩ : BufTy).Contents (Elt F))) ::
    (StableHlo.binary main_v181 main_v178 main_v182 (mulf : (⟨S8192x1, .f32⟩ : BufTy).Contents (Elt F) → (⟨S8192x1, .f32⟩ : BufTy).Contents (Elt F) → (⟨S8192x1, .f32⟩ : BufTy).Contents (Elt F))) ::
    (StableHlo.binary main_v177 main_v182 main_v183 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call4.cst (constant S_ .f32 0x00000000#32)) ::
    (StableHlo.TRef.unary main_call4.cst main_call4.v0 (broadcastInDim S8192x1 ![] bcast_S_S8192x1)) ::
    (StableHlo.TRef.binary (.of main_v183) main_call4.v0 main_call4.v1 (cmpf (F := F) .oge)) ::
    (StableHlo.TRef.nullary main_call4.cst_0 (constant S_ .f32 0x3C23D70A#32)) ::
    (StableHlo.TRef.unary main_call4.cst_0 main_call4.v2 (broadcastInDim S8192x1 ![] bcast_S_S8192x1)) ::
    (StableHlo.TRef.binary main_call4.v2 (.of main_v183) main_call4.v3 mulf) ::
    (StableHlo.TRef.ternary main_call4.v1 (.of main_v183) main_call4.v3 main_call4.call0.v0 select) ::
    (StableHlo.nullary main_cst_19 (constant S_ .f32 0x00000000#32)) ::
    (StableHlo.binary main_v184 main_cst_19 main_v185 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_20 (constant S_ .f32 0x46000000#32)) ::
    (StableHlo.binary main_v185 main_cst_20 main_v186 (Host.divf : (⟨S_, .f32⟩ : BufTy).Contents (Elt F) → (⟨S_, .f32⟩ : BufTy).Contents (Elt F) → (⟨S_, .f32⟩ : BufTy).Contents (Elt F))) ::
    (StableHlo.unary main_v186 main_v187 (broadcastInDim S8192x1 ![] bcast_S_S8192x1 : (⟨S_, .f32⟩ : BufTy).Contents (Elt F) → (⟨S8192x1, .f32⟩ : BufTy).Contents (Elt F))) ::
    (StableHlo.binary main_v184 main_v187 main_v188 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_21 (constant S_ .f32 0x00000000#32)) ::
    (StableHlo.binary main_v188 main_cst_21 main_v189 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_22 (constant S_ .f32 0x46000000#32)) ::
    (StableHlo.binary main_v189 main_cst_22 main_v190 (Host.divf : (⟨S_, .f32⟩ : BufTy).Contents (Elt F) → (⟨S_, .f32⟩ : BufTy).Contents (Elt F) → (⟨S_, .f32⟩ : BufTy).Contents (Elt F))) ::
    (StableHlo.unary main_v190 main_v191 (broadcastInDim S8192x1 ![] bcast_S_S8192x1 : (⟨S_, .f32⟩ : BufTy).Contents (Elt F) → (⟨S8192x1, .f32⟩ : BufTy).Contents (Elt F))) ::
    (StableHlo.binary main_v188 main_v191 main_v192 (subf : (⟨S8192x1, .f32⟩ : BufTy).Contents (Elt F) → (⟨S8192x1, .f32⟩ : BufTy).Contents (Elt F) → (⟨S8192x1, .f32⟩ : BufTy).Contents (Elt F))) :: []
  )

/-- The operations of layer (1, 0): taps, leaky_relu, the two normalisations. -/
abbrev L10 : List (HloOp τ sig (Elt F)) :=
  (
    (StableHlo.unary main_arg2 main_v193 ((extractStridedSlice S1x1x1 ![1, 0, 0] · slices_S2x5x5_S1x1x1_1_0_0) : (⟨S2x5x5, .f32⟩ : BufTy).Contents (Elt F) → (⟨S1x1x1, .f32⟩ : BufTy).Contents (Elt F))) ::
    (StableHlo.reshape main_v193 main_v194 rfl shapeCasts_S1x1x1_S_) ::
    (StableHlo.unary main_v194 main_v195 (broadcastInDim S8192x1 ![] bcast_S_S8192x1 : (⟨S_, .f32⟩ : BufTy).Contents (Elt F) → (⟨S8192x1, .f32⟩ : BufTy).Contents (Elt F))) ::
    (StableHlo.binary main_v195 main_v192 main_v196 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v192 main_v197 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v198 ((extractStridedSlice S1x1x1 ![1, 0, 1] · slices_S2x5x5_S1x1x1_1_0_1) : (⟨S2x5x5, .f32⟩ : BufTy).Contents (Elt F) → (⟨S1x1x1, .f32⟩ : BufTy).Contents (Elt F))) ::
    (StableHlo.reshape main_v198 main_v199 rfl shapeCasts_S1x1x1_S_) ::
    (StableHlo.unary main_v199 main_v200 (broadcastInDim S8192x1 ![] bcast_S_S8192x1 : (⟨S_, .f32⟩ : BufTy).Contents (Elt F) → (⟨S8192x1, .f32⟩ : BufTy).Contents (Elt F))) ::
    (StableHlo.binary main_v200 main_v197 main_v201 (mulf : (⟨S8192x1, .f32⟩ : BufTy).Contents (Elt F) → (⟨S8192x1, .f32⟩ : BufTy).Contents (Elt F) → (⟨S8192x1, .f32⟩ : BufTy).Contents (Elt F))) ::
    (StableHlo.binary main_v196 main_v201 main_v202 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v197 main_v203 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v204 ((extractStridedSlice S1x1x1 ![1, 0, 2] · slices_S2x5x5_S1x1x1_1_0_2) : (⟨S2x5x5, .f32⟩ : BufTy).Contents (Elt F) → (⟨S1x1x1, .f32⟩ : BufTy).Contents (Elt F))) ::
    (StableHlo.reshape main_v204 main_v205 rfl shapeCasts_S1x1x1_S_) ::
    (StableHlo.unary main_v205 main_v206 (broadcastInDim S8192x1 ![] bcast_S_S8192x1 : (⟨S_, .f32⟩ : BufTy).Contents (Elt F) → (⟨S8192x1, .f32⟩ : BufTy).Contents (Elt F))) ::
    (StableHlo.binary main_v206 main_v203 main_v207 (mulf : (⟨S8192x1, .f32⟩ : BufTy).Contents (Elt F) → (⟨S8192x1, .f32⟩ : BufTy).Contents (Elt F) → (⟨S8192x1, .f32⟩ : BufTy).Contents (Elt F))) ::
    (StableHlo.binary main_v202 main_v207 main_v208 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v203 main_v209 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v210 ((extractStridedSlice S1x1x1 ![1, 0, 3] · slices_S2x5x5_S1x1x1_1_0_3) : (⟨S2x5x5, .f32⟩ : BufTy).Contents (Elt F) → (⟨S1x1x1, .f32⟩ : BufTy).Contents (Elt F))) ::
    (StableHlo.reshape main_v210 main_v211 rfl shapeCasts_S1x1x1_S_) ::
    (StableHlo.unary main_v211 main_v212 (broadcastInDim S8192x1 ![] bcast_S_S8192x1 : (⟨S_, .f32⟩ : BufTy).Contents (Elt F) → (⟨S8192x1, .f32⟩ : BufTy).Contents (Elt F))) ::
    (StableHlo.binary main_v212 main_v209 main_v213 (mulf : (⟨S8192x1, .f32⟩ : BufTy).Contents (Elt F) → (⟨S8192x1, .f32⟩ : BufTy).Contents (Elt F) → (⟨S8192x1, .f32⟩ : BufTy).Contents (Elt F))) ::
    (StableHlo.binary main_v208 main_v213 main_v214 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v209 main_v215 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v216 ((extractStridedSlice S1x1x1 ![1, 0, 4] · slices_S2x5x5_S1x1x1_1_0_4) : (⟨S2x5x5, .f32⟩ : BufTy).Contents (Elt F) → (⟨S1x1x1, .f32⟩ : BufTy).Contents (Elt F))) ::
    (StableHlo.reshape main_v216 main_v217 rfl shapeCasts_S1x1x1_S_) ::
    (StableHlo.unary main_v217 main_v218 (broadcastInDim S8192x1 ![] bcast_S_S8192x1 : (⟨S_, .f32⟩ : BufTy).Contents (Elt F) → (⟨S8192x1, .f32⟩ : BufTy).Contents (Elt F))) ::
    (StableHlo.binary main_v218 main_v215 main_v219 (mulf : (⟨S8192x1, .f32⟩ : BufTy).Contents (Elt F) → (⟨S8192x1, .f32⟩ : BufTy).Contents (Elt F) → (⟨S8192x1, .f32⟩ : BufTy).Contents (Elt F))) ::
    (StableHlo.binary main_v214 main_v219 main_v220 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call5.cst (constant S_ .f32 0x00000000#32)) ::
    (StableHlo.TRef.unary main_call5.cst main_call5.v0 (broadcastInDim S8192x1 ![] bcast_S_S8192x1)) ::
    (StableHlo.TRef.binary (.of main_v220) main_call5.v0 main_call5.v1 (cmpf (F := F) .oge)) ::
    (StableHlo.TRef.nullary main_call5.cst_0 (constant S_ .f32 0x3C23D70A#32)) ::
    (StableHlo.TRef.unary main_call5.cst_0 main_call5.v2 (broadcastInDim S8192x1 ![] bcast_S_S8192x1)) ::
    (StableHlo.TRef.binary main_call5.v2 (.of main_v220) main_call5.v3 mulf) ::
    (StableHlo.TRef.ternary main_call5.v1 (.of main_v220) main_call5.v3 main_call5.call0.v0 select) ::
    (StableHlo.nullary main_cst_23 (constant S_ .f32 0x00000000#32)) ::
    (StableHlo.binary main_v221 main_cst_23 main_v222 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_24 (constant S_ .f32 0x46000000#32)) ::
    (StableHlo.binary main_v222 main_cst_24 main_v223 (Host.divf : (⟨S_, .f32⟩ : BufTy).Contents (Elt F) → (⟨S_, .f32⟩ : BufTy).Contents (Elt F) → (⟨S_, .f32⟩ : BufTy).Contents (Elt F))) ::
    (StableHlo.unary main_v223 main_v224 (broadcastInDim S8192x1 ![] bcast_S_S8192x1 : (⟨S_, .f32⟩ : BufTy).Contents (Elt F) → (⟨S8192x1, .f32⟩ : BufTy).Contents (Elt F))) ::
    (StableHlo.binary main_v221 main_v224 main_v225 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_25 (constant S_ .f32 0x00000000#32)) ::
    (StableHlo.binary main_v225 main_cst_25 main_v226 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_26 (constant S_ .f32 0x46000000#32)) ::
    (StableHlo.binary main_v226 main_cst_26 main_v227 (Host.divf : (⟨S_, .f32⟩ : BufTy).Contents (Elt F) → (⟨S_, .f32⟩ : BufTy).Contents (Elt F) → (⟨S_, .f32⟩ : BufTy).Contents (Elt F))) ::
    (StableHlo.unary main_v227 main_v228 (broadcastInDim S8192x1 ![] bcast_S_S8192x1 : (⟨S_, .f32⟩ : BufTy).Contents (Elt F) → (⟨S8192x1, .f32⟩ : BufTy).Contents (Elt F))) ::
    (StableHlo.binary main_v225 main_v228 main_v229 (subf : (⟨S8192x1, .f32⟩ : BufTy).Contents (Elt F) → (⟨S8192x1, .f32⟩ : BufTy).Contents (Elt F) → (⟨S8192x1, .f32⟩ : BufTy).Contents (Elt F))) :: []
  )

/-- The operations of layer (1, 1): taps, leaky_relu, the two normalisations. -/
abbrev L11 : List (HloOp τ sig (Elt F)) :=
  (
    (StableHlo.unary main_arg2 main_v230 ((extractStridedSlice S1x1x1 ![1, 1, 0] · slices_S2x5x5_S1x1x1_1_1_0) : (⟨S2x5x5, .f32⟩ : BufTy).Contents (Elt F) → (⟨S1x1x1, .f32⟩ : BufTy).Contents (Elt F))) ::
    (StableHlo.reshape main_v230 main_v231 rfl shapeCasts_S1x1x1_S_) ::
    (StableHlo.unary main_v231 main_v232 (broadcastInDim S8192x1 ![] bcast_S_S8192x1 : (⟨S_, .f32⟩ : BufTy).Contents (Elt F) → (⟨S8192x1, .f32⟩ : BufTy).Contents (Elt F))) ::
    (StableHlo.binary main_v232 main_v229 main_v233 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v229 main_v234 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v235 ((extractStridedSlice S1x1x1 ![1, 1, 1] · slices_S2x5x5_S1x1x1_1_1_1) : (⟨S2x5x5, .f32⟩ : BufTy).Contents (Elt F) → (⟨S1x1x1, .f32⟩ : BufTy).Contents (Elt F))) ::
    (StableHlo.reshape main_v235 main_v236 rfl shapeCasts_S1x1x1_S_) ::
    (StableHlo.unary main_v236 main_v237 (broadcastInDim S8192x1 ![] bcast_S_S8192x1 : (⟨S_, .f32⟩ : BufTy).Contents (Elt F) → (⟨S8192x1, .f32⟩ : BufTy).Contents (Elt F))) ::
    (StableHlo.binary main_v237 main_v234 main_v238 (mulf : (⟨S8192x1, .f32⟩ : BufTy).Contents (Elt F) → (⟨S8192x1, .f32⟩ : BufTy).Contents (Elt F) → (⟨S8192x1, .f32⟩ : BufTy).Contents (Elt F))) ::
    (StableHlo.binary main_v233 main_v238 main_v239 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v234 main_v240 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v241 ((extractStridedSlice S1x1x1 ![1, 1, 2] · slices_S2x5x5_S1x1x1_1_1_2) : (⟨S2x5x5, .f32⟩ : BufTy).Contents (Elt F) → (⟨S1x1x1, .f32⟩ : BufTy).Contents (Elt F))) ::
    (StableHlo.reshape main_v241 main_v242 rfl shapeCasts_S1x1x1_S_) ::
    (StableHlo.unary main_v242 main_v243 (broadcastInDim S8192x1 ![] bcast_S_S8192x1 : (⟨S_, .f32⟩ : BufTy).Contents (Elt F) → (⟨S8192x1, .f32⟩ : BufTy).Contents (Elt F))) ::
    (StableHlo.binary main_v243 main_v240 main_v244 (mulf : (⟨S8192x1, .f32⟩ : BufTy).Contents (Elt F) → (⟨S8192x1, .f32⟩ : BufTy).Contents (Elt F) → (⟨S8192x1, .f32⟩ : BufTy).Contents (Elt F))) ::
    (StableHlo.binary main_v239 main_v244 main_v245 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v240 main_v246 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v247 ((extractStridedSlice S1x1x1 ![1, 1, 3] · slices_S2x5x5_S1x1x1_1_1_3) : (⟨S2x5x5, .f32⟩ : BufTy).Contents (Elt F) → (⟨S1x1x1, .f32⟩ : BufTy).Contents (Elt F))) ::
    (StableHlo.reshape main_v247 main_v248 rfl shapeCasts_S1x1x1_S_) ::
    (StableHlo.unary main_v248 main_v249 (broadcastInDim S8192x1 ![] bcast_S_S8192x1 : (⟨S_, .f32⟩ : BufTy).Contents (Elt F) → (⟨S8192x1, .f32⟩ : BufTy).Contents (Elt F))) ::
    (StableHlo.binary main_v249 main_v246 main_v250 (mulf : (⟨S8192x1, .f32⟩ : BufTy).Contents (Elt F) → (⟨S8192x1, .f32⟩ : BufTy).Contents (Elt F) → (⟨S8192x1, .f32⟩ : BufTy).Contents (Elt F))) ::
    (StableHlo.binary main_v245 main_v250 main_v251 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v246 main_v252 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v253 ((extractStridedSlice S1x1x1 ![1, 1, 4] · slices_S2x5x5_S1x1x1_1_1_4) : (⟨S2x5x5, .f32⟩ : BufTy).Contents (Elt F) → (⟨S1x1x1, .f32⟩ : BufTy).Contents (Elt F))) ::
    (StableHlo.reshape main_v253 main_v254 rfl shapeCasts_S1x1x1_S_) ::
    (StableHlo.unary main_v254 main_v255 (broadcastInDim S8192x1 ![] bcast_S_S8192x1 : (⟨S_, .f32⟩ : BufTy).Contents (Elt F) → (⟨S8192x1, .f32⟩ : BufTy).Contents (Elt F))) ::
    (StableHlo.binary main_v255 main_v252 main_v256 (mulf : (⟨S8192x1, .f32⟩ : BufTy).Contents (Elt F) → (⟨S8192x1, .f32⟩ : BufTy).Contents (Elt F) → (⟨S8192x1, .f32⟩ : BufTy).Contents (Elt F))) ::
    (StableHlo.binary main_v251 main_v256 main_v257 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call6.cst (constant S_ .f32 0x00000000#32)) ::
    (StableHlo.TRef.unary main_call6.cst main_call6.v0 (broadcastInDim S8192x1 ![] bcast_S_S8192x1)) ::
    (StableHlo.TRef.binary (.of main_v257) main_call6.v0 main_call6.v1 (cmpf (F := F) .oge)) ::
    (StableHlo.TRef.nullary main_call6.cst_0 (constant S_ .f32 0x3C23D70A#32)) ::
    (StableHlo.TRef.unary main_call6.cst_0 main_call6.v2 (broadcastInDim S8192x1 ![] bcast_S_S8192x1)) ::
    (StableHlo.TRef.binary main_call6.v2 (.of main_v257) main_call6.v3 mulf) ::
    (StableHlo.TRef.ternary main_call6.v1 (.of main_v257) main_call6.v3 main_call6.call0.v0 select) ::
    (StableHlo.nullary main_cst_27 (constant S_ .f32 0x00000000#32)) ::
    (StableHlo.binary main_v258 main_cst_27 main_v259 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_28 (constant S_ .f32 0x46000000#32)) ::
    (StableHlo.binary main_v259 main_cst_28 main_v260 (Host.divf : (⟨S_, .f32⟩ : BufTy).Contents (Elt F) → (⟨S_, .f32⟩ : BufTy).Contents (Elt F) → (⟨S_, .f32⟩ : BufTy).Contents (Elt F))) ::
    (StableHlo.unary main_v260 main_v261 (broadcastInDim S8192x1 ![] bcast_S_S8192x1 : (⟨S_, .f32⟩ : BufTy).Contents (Elt F) → (⟨S8192x1, .f32⟩ : BufTy).Contents (Elt F))) ::
    (StableHlo.binary main_v258 main_v261 main_v262 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_29 (constant S_ .f32 0x00000000#32)) ::
    (StableHlo.binary main_v262 main_cst_29 main_v263 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_30 (constant S_ .f32 0x46000000#32)) ::
    (StableHlo.binary main_v263 main_cst_30 main_v264 (Host.divf : (⟨S_, .f32⟩ : BufTy).Contents (Elt F) → (⟨S_, .f32⟩ : BufTy).Contents (Elt F) → (⟨S_, .f32⟩ : BufTy).Contents (Elt F))) ::
    (StableHlo.unary main_v264 main_v265 (broadcastInDim S8192x1 ![] bcast_S_S8192x1 : (⟨S_, .f32⟩ : BufTy).Contents (Elt F) → (⟨S8192x1, .f32⟩ : BufTy).Contents (Elt F))) ::
    (StableHlo.binary main_v262 main_v265 main_v266 (subf : (⟨S8192x1, .f32⟩ : BufTy).Contents (Elt F) → (⟨S8192x1, .f32⟩ : BufTy).Contents (Elt F) → (⟨S8192x1, .f32⟩ : BufTy).Contents (Elt F))) :: []
  )

/-- The operations of layer (1, 2): taps, leaky_relu, the two normalisations. -/
abbrev L12 : List (HloOp τ sig (Elt F)) :=
  (
    (StableHlo.unary main_arg2 main_v267 ((extractStridedSlice S1x1x1 ![1, 2, 0] · slices_S2x5x5_S1x1x1_1_2_0) : (⟨S2x5x5, .f32⟩ : BufTy).Contents (Elt F) → (⟨S1x1x1, .f32⟩ : BufTy).Contents (Elt F))) ::
    (StableHlo.reshape main_v267 main_v268 rfl shapeCasts_S1x1x1_S_) ::
    (StableHlo.unary main_v268 main_v269 (broadcastInDim S8192x1 ![] bcast_S_S8192x1 : (⟨S_, .f32⟩ : BufTy).Contents (Elt F) → (⟨S8192x1, .f32⟩ : BufTy).Contents (Elt F))) ::
    (StableHlo.binary main_v269 main_v266 main_v270 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v266 main_v271 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v272 ((extractStridedSlice S1x1x1 ![1, 2, 1] · slices_S2x5x5_S1x1x1_1_2_1) : (⟨S2x5x5, .f32⟩ : BufTy).Contents (Elt F) → (⟨S1x1x1, .f32⟩ : BufTy).Contents (Elt F))) ::
    (StableHlo.reshape main_v272 main_v273 rfl shapeCasts_S1x1x1_S_) ::
    (StableHlo.unary main_v273 main_v274 (broadcastInDim S8192x1 ![] bcast_S_S8192x1 : (⟨S_, .f32⟩ : BufTy).Contents (Elt F) → (⟨S8192x1, .f32⟩ : BufTy).Contents (Elt F))) ::
    (StableHlo.binary main_v274 main_v271 main_v275 (mulf : (⟨S8192x1, .f32⟩ : BufTy).Contents (Elt F) → (⟨S8192x1, .f32⟩ : BufTy).Contents (Elt F) → (⟨S8192x1, .f32⟩ : BufTy).Contents (Elt F))) ::
    (StableHlo.binary main_v270 main_v275 main_v276 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v271 main_v277 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v278 ((extractStridedSlice S1x1x1 ![1, 2, 2] · slices_S2x5x5_S1x1x1_1_2_2) : (⟨S2x5x5, .f32⟩ : BufTy).Contents (Elt F) → (⟨S1x1x1, .f32⟩ : BufTy).Contents (Elt F))) ::
    (StableHlo.reshape main_v278 main_v279 rfl shapeCasts_S1x1x1_S_) ::
    (StableHlo.unary main_v279 main_v280 (broadcastInDim S8192x1 ![] bcast_S_S8192x1 : (⟨S_, .f32⟩ : BufTy).Contents (Elt F) → (⟨S8192x1, .f32⟩ : BufTy).Contents (Elt F))) ::
    (StableHlo.binary main_v280 main_v277 main_v281 (mulf : (⟨S8192x1, .f32⟩ : BufTy).Contents (Elt F) → (⟨S8192x1, .f32⟩ : BufTy).Contents (Elt F) → (⟨S8192x1, .f32⟩ : BufTy).Contents (Elt F))) ::
    (StableHlo.binary main_v276 main_v281 main_v282 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v277 main_v283 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v284 ((extractStridedSlice S1x1x1 ![1, 2, 3] · slices_S2x5x5_S1x1x1_1_2_3) : (⟨S2x5x5, .f32⟩ : BufTy).Contents (Elt F) → (⟨S1x1x1, .f32⟩ : BufTy).Contents (Elt F))) ::
    (StableHlo.reshape main_v284 main_v285 rfl shapeCasts_S1x1x1_S_) ::
    (StableHlo.unary main_v285 main_v286 (broadcastInDim S8192x1 ![] bcast_S_S8192x1 : (⟨S_, .f32⟩ : BufTy).Contents (Elt F) → (⟨S8192x1, .f32⟩ : BufTy).Contents (Elt F))) ::
    (StableHlo.binary main_v286 main_v283 main_v287 (mulf : (⟨S8192x1, .f32⟩ : BufTy).Contents (Elt F) → (⟨S8192x1, .f32⟩ : BufTy).Contents (Elt F) → (⟨S8192x1, .f32⟩ : BufTy).Contents (Elt F))) ::
    (StableHlo.binary main_v282 main_v287 main_v288 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v283 main_v289 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v290 ((extractStridedSlice S1x1x1 ![1, 2, 4] · slices_S2x5x5_S1x1x1_1_2_4) : (⟨S2x5x5, .f32⟩ : BufTy).Contents (Elt F) → (⟨S1x1x1, .f32⟩ : BufTy).Contents (Elt F))) ::
    (StableHlo.reshape main_v290 main_v291 rfl shapeCasts_S1x1x1_S_) ::
    (StableHlo.unary main_v291 main_v292 (broadcastInDim S8192x1 ![] bcast_S_S8192x1 : (⟨S_, .f32⟩ : BufTy).Contents (Elt F) → (⟨S8192x1, .f32⟩ : BufTy).Contents (Elt F))) ::
    (StableHlo.binary main_v292 main_v289 main_v293 (mulf : (⟨S8192x1, .f32⟩ : BufTy).Contents (Elt F) → (⟨S8192x1, .f32⟩ : BufTy).Contents (Elt F) → (⟨S8192x1, .f32⟩ : BufTy).Contents (Elt F))) ::
    (StableHlo.binary main_v288 main_v293 main_v294 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call7.cst (constant S_ .f32 0x00000000#32)) ::
    (StableHlo.TRef.unary main_call7.cst main_call7.v0 (broadcastInDim S8192x1 ![] bcast_S_S8192x1)) ::
    (StableHlo.TRef.binary (.of main_v294) main_call7.v0 main_call7.v1 (cmpf (F := F) .oge)) ::
    (StableHlo.TRef.nullary main_call7.cst_0 (constant S_ .f32 0x3C23D70A#32)) ::
    (StableHlo.TRef.unary main_call7.cst_0 main_call7.v2 (broadcastInDim S8192x1 ![] bcast_S_S8192x1)) ::
    (StableHlo.TRef.binary main_call7.v2 (.of main_v294) main_call7.v3 mulf) ::
    (StableHlo.TRef.ternary main_call7.v1 (.of main_v294) main_call7.v3 main_call7.call0.v0 select) ::
    (StableHlo.nullary main_cst_31 (constant S_ .f32 0x00000000#32)) ::
    (StableHlo.binary main_v295 main_cst_31 main_v296 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_32 (constant S_ .f32 0x46000000#32)) ::
    (StableHlo.binary main_v296 main_cst_32 main_v297 (Host.divf : (⟨S_, .f32⟩ : BufTy).Contents (Elt F) → (⟨S_, .f32⟩ : BufTy).Contents (Elt F) → (⟨S_, .f32⟩ : BufTy).Contents (Elt F))) ::
    (StableHlo.unary main_v297 main_v298 (broadcastInDim S8192x1 ![] bcast_S_S8192x1 : (⟨S_, .f32⟩ : BufTy).Contents (Elt F) → (⟨S8192x1, .f32⟩ : BufTy).Contents (Elt F))) ::
    (StableHlo.binary main_v295 main_v298 main_v299 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_33 (constant S_ .f32 0x00000000#32)) ::
    (StableHlo.binary main_v299 main_cst_33 main_v300 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_34 (constant S_ .f32 0x46000000#32)) ::
    (StableHlo.binary main_v300 main_cst_34 main_v301 (Host.divf : (⟨S_, .f32⟩ : BufTy).Contents (Elt F) → (⟨S_, .f32⟩ : BufTy).Contents (Elt F) → (⟨S_, .f32⟩ : BufTy).Contents (Elt F))) ::
    (StableHlo.unary main_v301 main_v302 (broadcastInDim S8192x1 ![] bcast_S_S8192x1 : (⟨S_, .f32⟩ : BufTy).Contents (Elt F) → (⟨S8192x1, .f32⟩ : BufTy).Contents (Elt F))) ::
    (StableHlo.binary main_v299 main_v302 main_v303 (subf : (⟨S8192x1, .f32⟩ : BufTy).Contents (Elt F) → (⟨S8192x1, .f32⟩ : BufTy).Contents (Elt F) → (⟨S8192x1, .f32⟩ : BufTy).Contents (Elt F))) :: []
  )

/-- The operations of layer (1, 3): taps, leaky_relu, the two normalisations. -/
abbrev L13 : List (HloOp τ sig (Elt F)) :=
  (
    (StableHlo.unary main_arg2 main_v304 ((extractStridedSlice S1x1x1 ![1, 3, 0] · slices_S2x5x5_S1x1x1_1_3_0) : (⟨S2x5x5, .f32⟩ : BufTy).Contents (Elt F) → (⟨S1x1x1, .f32⟩ : BufTy).Contents (Elt F))) ::
    (StableHlo.reshape main_v304 main_v305 rfl shapeCasts_S1x1x1_S_) ::
    (StableHlo.unary main_v305 main_v306 (broadcastInDim S8192x1 ![] bcast_S_S8192x1 : (⟨S_, .f32⟩ : BufTy).Contents (Elt F) → (⟨S8192x1, .f32⟩ : BufTy).Contents (Elt F))) ::
    (StableHlo.binary main_v306 main_v303 main_v307 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v303 main_v308 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v309 ((extractStridedSlice S1x1x1 ![1, 3, 1] · slices_S2x5x5_S1x1x1_1_3_1) : (⟨S2x5x5, .f32⟩ : BufTy).Contents (Elt F) → (⟨S1x1x1, .f32⟩ : BufTy).Contents (Elt F))) ::
    (StableHlo.reshape main_v309 main_v310 rfl shapeCasts_S1x1x1_S_) ::
    (StableHlo.unary main_v310 main_v311 (broadcastInDim S8192x1 ![] bcast_S_S8192x1 : (⟨S_, .f32⟩ : BufTy).Contents (Elt F) → (⟨S8192x1, .f32⟩ : BufTy).Contents (Elt F))) ::
    (StableHlo.binary main_v311 main_v308 main_v312 (mulf : (⟨S8192x1, .f32⟩ : BufTy).Contents (Elt F) → (⟨S8192x1, .f32⟩ : BufTy).Contents (Elt F) → (⟨S8192x1, .f32⟩ : BufTy).Contents (Elt F))) ::
    (StableHlo.binary main_v307 main_v312 main_v313 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v308 main_v314 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v315 ((extractStridedSlice S1x1x1 ![1, 3, 2] · slices_S2x5x5_S1x1x1_1_3_2) : (⟨S2x5x5, .f32⟩ : BufTy).Contents (Elt F) → (⟨S1x1x1, .f32⟩ : BufTy).Contents (Elt F))) ::
    (StableHlo.reshape main_v315 main_v316 rfl shapeCasts_S1x1x1_S_) ::
    (StableHlo.unary main_v316 main_v317 (broadcastInDim S8192x1 ![] bcast_S_S8192x1 : (⟨S_, .f32⟩ : BufTy).Contents (Elt F) → (⟨S8192x1, .f32⟩ : BufTy).Contents (Elt F))) ::
    (StableHlo.binary main_v317 main_v314 main_v318 (mulf : (⟨S8192x1, .f32⟩ : BufTy).Contents (Elt F) → (⟨S8192x1, .f32⟩ : BufTy).Contents (Elt F) → (⟨S8192x1, .f32⟩ : BufTy).Contents (Elt F))) ::
    (StableHlo.binary main_v313 main_v318 main_v319 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v314 main_v320 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v321 ((extractStridedSlice S1x1x1 ![1, 3, 3] · slices_S2x5x5_S1x1x1_1_3_3) : (⟨S2x5x5, .f32⟩ : BufTy).Contents (Elt F) → (⟨S1x1x1, .f32⟩ : BufTy).Contents (Elt F))) ::
    (StableHlo.reshape main_v321 main_v322 rfl shapeCasts_S1x1x1_S_) ::
    (StableHlo.unary main_v322 main_v323 (broadcastInDim S8192x1 ![] bcast_S_S8192x1 : (⟨S_, .f32⟩ : BufTy).Contents (Elt F) → (⟨S8192x1, .f32⟩ : BufTy).Contents (Elt F))) ::
    (StableHlo.binary main_v323 main_v320 main_v324 (mulf : (⟨S8192x1, .f32⟩ : BufTy).Contents (Elt F) → (⟨S8192x1, .f32⟩ : BufTy).Contents (Elt F) → (⟨S8192x1, .f32⟩ : BufTy).Contents (Elt F))) ::
    (StableHlo.binary main_v319 main_v324 main_v325 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v320 main_v326 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v327 ((extractStridedSlice S1x1x1 ![1, 3, 4] · slices_S2x5x5_S1x1x1_1_3_4) : (⟨S2x5x5, .f32⟩ : BufTy).Contents (Elt F) → (⟨S1x1x1, .f32⟩ : BufTy).Contents (Elt F))) ::
    (StableHlo.reshape main_v327 main_v328 rfl shapeCasts_S1x1x1_S_) ::
    (StableHlo.unary main_v328 main_v329 (broadcastInDim S8192x1 ![] bcast_S_S8192x1 : (⟨S_, .f32⟩ : BufTy).Contents (Elt F) → (⟨S8192x1, .f32⟩ : BufTy).Contents (Elt F))) ::
    (StableHlo.binary main_v329 main_v326 main_v330 (mulf : (⟨S8192x1, .f32⟩ : BufTy).Contents (Elt F) → (⟨S8192x1, .f32⟩ : BufTy).Contents (Elt F) → (⟨S8192x1, .f32⟩ : BufTy).Contents (Elt F))) ::
    (StableHlo.binary main_v325 main_v330 main_v331 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call8.cst (constant S_ .f32 0x00000000#32)) ::
    (StableHlo.TRef.unary main_call8.cst main_call8.v0 (broadcastInDim S8192x1 ![] bcast_S_S8192x1)) ::
    (StableHlo.TRef.binary (.of main_v331) main_call8.v0 main_call8.v1 (cmpf (F := F) .oge)) ::
    (StableHlo.TRef.nullary main_call8.cst_0 (constant S_ .f32 0x3C23D70A#32)) ::
    (StableHlo.TRef.unary main_call8.cst_0 main_call8.v2 (broadcastInDim S8192x1 ![] bcast_S_S8192x1)) ::
    (StableHlo.TRef.binary main_call8.v2 (.of main_v331) main_call8.v3 mulf) ::
    (StableHlo.TRef.ternary main_call8.v1 (.of main_v331) main_call8.v3 main_call8.call0.v0 select) ::
    (StableHlo.nullary main_cst_35 (constant S_ .f32 0x00000000#32)) ::
    (StableHlo.binary main_v332 main_cst_35 main_v333 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_36 (constant S_ .f32 0x46000000#32)) ::
    (StableHlo.binary main_v333 main_cst_36 main_v334 (Host.divf : (⟨S_, .f32⟩ : BufTy).Contents (Elt F) → (⟨S_, .f32⟩ : BufTy).Contents (Elt F) → (⟨S_, .f32⟩ : BufTy).Contents (Elt F))) ::
    (StableHlo.unary main_v334 main_v335 (broadcastInDim S8192x1 ![] bcast_S_S8192x1 : (⟨S_, .f32⟩ : BufTy).Contents (Elt F) → (⟨S8192x1, .f32⟩ : BufTy).Contents (Elt F))) ::
    (StableHlo.binary main_v332 main_v335 main_v336 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_37 (constant S_ .f32 0x00000000#32)) ::
    (StableHlo.binary main_v336 main_cst_37 main_v337 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_38 (constant S_ .f32 0x46000000#32)) ::
    (StableHlo.binary main_v337 main_cst_38 main_v338 (Host.divf : (⟨S_, .f32⟩ : BufTy).Contents (Elt F) → (⟨S_, .f32⟩ : BufTy).Contents (Elt F) → (⟨S_, .f32⟩ : BufTy).Contents (Elt F))) ::
    (StableHlo.unary main_v338 main_v339 (broadcastInDim S8192x1 ![] bcast_S_S8192x1 : (⟨S_, .f32⟩ : BufTy).Contents (Elt F) → (⟨S8192x1, .f32⟩ : BufTy).Contents (Elt F))) ::
    (StableHlo.binary main_v336 main_v339 main_v340 (subf : (⟨S8192x1, .f32⟩ : BufTy).Contents (Elt F) → (⟨S8192x1, .f32⟩ : BufTy).Contents (Elt F) → (⟨S8192x1, .f32⟩ : BufTy).Contents (Elt F))) :: []
  )

/-- The operations of layer (1, 4): taps, leaky_relu, the two normalisations. -/
abbrev L14 : List (HloOp τ sig (Elt F)) :=
  (
    (StableHlo.unary main_arg2 main_v341 ((extractStridedSlice S1x1x1 ![1, 4, 0] · slices_S2x5x5_S1x1x1_1_4_0) : (⟨S2x5x5, .f32⟩ : BufTy).Contents (Elt F) → (⟨S1x1x1, .f32⟩ : BufTy).Contents (Elt F))) ::
    (StableHlo.reshape main_v341 main_v342 rfl shapeCasts_S1x1x1_S_) ::
    (StableHlo.unary main_v342 main_v343 (broadcastInDim S8192x1 ![] bcast_S_S8192x1 : (⟨S_, .f32⟩ : BufTy).Contents (Elt F) → (⟨S8192x1, .f32⟩ : BufTy).Contents (Elt F))) ::
    (StableHlo.binary main_v343 main_v340 main_v344 (mulf : (⟨S8192x1, .f32⟩ : BufTy).Contents (Elt F) → (⟨S8192x1, .f32⟩ : BufTy).Contents (Elt F) → (⟨S8192x1, .f32⟩ : BufTy).Contents (Elt F))) ::
    (StableHlo.binary main_v3 main_v340 main_v345 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v346 ((extractStridedSlice S1x1x1 ![1, 4, 1] · slices_S2x5x5_S1x1x1_1_4_1) : (⟨S2x5x5, .f32⟩ : BufTy).Contents (Elt F) → (⟨S1x1x1, .f32⟩ : BufTy).Contents (Elt F))) ::
    (StableHlo.reshape main_v346 main_v347 rfl shapeCasts_S1x1x1_S_) ::
    (StableHlo.unary main_v347 main_v348 (broadcastInDim S8192x1 ![] bcast_S_S8192x1 : (⟨S_, .f32⟩ : BufTy).Contents (Elt F) → (⟨S8192x1, .f32⟩ : BufTy).Contents (Elt F))) ::
    (StableHlo.binary main_v348 main_v345 main_v349 (mulf : (⟨S8192x1, .f32⟩ : BufTy).Contents (Elt F) → (⟨S8192x1, .f32⟩ : BufTy).Contents (Elt F) → (⟨S8192x1, .f32⟩ : BufTy).Contents (Elt F))) ::
    (StableHlo.binary main_v344 main_v349 main_v350 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v345 main_v351 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v352 ((extractStridedSlice S1x1x1 ![1, 4, 2] · slices_S2x5x5_S1x1x1_1_4_2) : (⟨S2x5x5, .f32⟩ : BufTy).Contents (Elt F) → (⟨S1x1x1, .f32⟩ : BufTy).Contents (Elt F))) ::
    (StableHlo.reshape main_v352 main_v353 rfl shapeCasts_S1x1x1_S_) ::
    (StableHlo.unary main_v353 main_v354 (broadcastInDim S8192x1 ![] bcast_S_S8192x1 : (⟨S_, .f32⟩ : BufTy).Contents (Elt F) → (⟨S8192x1, .f32⟩ : BufTy).Contents (Elt F))) ::
    (StableHlo.binary main_v354 main_v351 main_v355 (mulf : (⟨S8192x1, .f32⟩ : BufTy).Contents (Elt F) → (⟨S8192x1, .f32⟩ : BufTy).Contents (Elt F) → (⟨S8192x1, .f32⟩ : BufTy).Contents (Elt F))) ::
    (StableHlo.binary main_v350 main_v355 main_v356 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v351 main_v357 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v358 ((extractStridedSlice S1x1x1 ![1, 4, 3] · slices_S2x5x5_S1x1x1_1_4_3) : (⟨S2x5x5, .f32⟩ : BufTy).Contents (Elt F) → (⟨S1x1x1, .f32⟩ : BufTy).Contents (Elt F))) ::
    (StableHlo.reshape main_v358 main_v359 rfl shapeCasts_S1x1x1_S_) ::
    (StableHlo.unary main_v359 main_v360 (broadcastInDim S8192x1 ![] bcast_S_S8192x1 : (⟨S_, .f32⟩ : BufTy).Contents (Elt F) → (⟨S8192x1, .f32⟩ : BufTy).Contents (Elt F))) ::
    (StableHlo.binary main_v360 main_v357 main_v361 (mulf : (⟨S8192x1, .f32⟩ : BufTy).Contents (Elt F) → (⟨S8192x1, .f32⟩ : BufTy).Contents (Elt F) → (⟨S8192x1, .f32⟩ : BufTy).Contents (Elt F))) ::
    (StableHlo.binary main_v356 main_v361 main_v362 (addf : (⟨S8192x1, .f32⟩ : BufTy).Contents (Elt F) → (⟨S8192x1, .f32⟩ : BufTy).Contents (Elt F) → (⟨S8192x1, .f32⟩ : BufTy).Contents (Elt F))) ::
    (StableHlo.binary main_v3 main_v357 main_v363 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F))) ::
    (StableHlo.unary main_arg2 main_v364 ((extractStridedSlice S1x1x1 ![1, 4, 4] · slices_S2x5x5_S1x1x1_1_4_4) : (⟨S2x5x5, .f32⟩ : BufTy).Contents (Elt F) → (⟨S1x1x1, .f32⟩ : BufTy).Contents (Elt F))) ::
    (StableHlo.reshape main_v364 main_v365 rfl shapeCasts_S1x1x1_S_) ::
    (StableHlo.unary main_v365 main_v366 (broadcastInDim S8192x1 ![] bcast_S_S8192x1 : (⟨S_, .f32⟩ : BufTy).Contents (Elt F) → (⟨S8192x1, .f32⟩ : BufTy).Contents (Elt F))) ::
    (StableHlo.binary main_v366 main_v363 main_v367 (mulf : (⟨S8192x1, .f32⟩ : BufTy).Contents (Elt F) → (⟨S8192x1, .f32⟩ : BufTy).Contents (Elt F) → (⟨S8192x1, .f32⟩ : BufTy).Contents (Elt F))) ::
    (StableHlo.binary main_v362 main_v367 main_v368 (addf : (⟨S8192x1, .f32⟩ : BufTy).Contents (Elt F) → (⟨S8192x1, .f32⟩ : BufTy).Contents (Elt F) → (⟨S8192x1, .f32⟩ : BufTy).Contents (Elt F))) ::
    (StableHlo.TRef.nullary main_call9.cst (constant S_ .f32 0x00000000#32)) ::
    (StableHlo.TRef.unary main_call9.cst main_call9.v0 (broadcastInDim S8192x1 ![] bcast_S_S8192x1)) ::
    (StableHlo.TRef.binary (.of main_v368) main_call9.v0 main_call9.v1 (cmpf (F := F) .oge)) ::
    (StableHlo.TRef.nullary main_call9.cst_0 (constant S_ .f32 0x3C23D70A#32)) ::
    (StableHlo.TRef.unary main_call9.cst_0 main_call9.v2 (broadcastInDim S8192x1 ![] bcast_S_S8192x1)) ::
    (StableHlo.TRef.binary main_call9.v2 (.of main_v368) main_call9.v3 mulf) ::
    (StableHlo.TRef.ternary main_call9.v1 (.of main_v368) main_call9.v3 main_call9.call0.v0 select) ::
    (StableHlo.nullary main_cst_39 (constant S_ .f32 0x00000000#32)) ::
    (StableHlo.binary main_v369 main_cst_39 main_v370 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_40 (constant S_ .f32 0x46000000#32)) ::
    (StableHlo.binary main_v370 main_cst_40 main_v371 (Host.divf : (⟨S_, .f32⟩ : BufTy).Contents (Elt F) → (⟨S_, .f32⟩ : BufTy).Contents (Elt F) → (⟨S_, .f32⟩ : BufTy).Contents (Elt F))) ::
    (StableHlo.unary main_v371 main_v372 (broadcastInDim S8192x1 ![] bcast_S_S8192x1 : (⟨S_, .f32⟩ : BufTy).Contents (Elt F) → (⟨S8192x1, .f32⟩ : BufTy).Contents (Elt F))) ::
    (StableHlo.binary main_v369 main_v372 main_v373 (Host.divf : (⟨S8192x1, .f32⟩ : BufTy).Contents (Elt F) → (⟨S8192x1, .f32⟩ : BufTy).Contents (Elt F) → (⟨S8192x1, .f32⟩ : BufTy).Contents (Elt F))) ::
    (StableHlo.nullary main_cst_41 (constant S_ .f32 0x00000000#32)) ::
    (StableHlo.binary main_v373 main_cst_41 main_v374 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F))) ::
    (StableHlo.nullary main_cst_42 (constant S_ .f32 0x46000000#32)) ::
    (StableHlo.binary main_v374 main_cst_42 main_v375 (Host.divf : (⟨S_, .f32⟩ : BufTy).Contents (Elt F) → (⟨S_, .f32⟩ : BufTy).Contents (Elt F) → (⟨S_, .f32⟩ : BufTy).Contents (Elt F))) ::
    (StableHlo.unary main_v375 main_v376 (broadcastInDim S8192x1 ![] bcast_S_S8192x1 : (⟨S_, .f32⟩ : BufTy).Contents (Elt F) → (⟨S8192x1, .f32⟩ : BufTy).Contents (Elt F))) ::
    (StableHlo.binary main_v373 main_v376 main_v377 (subf : (⟨S8192x1, .f32⟩ : BufTy).Contents (Elt F) → (⟨S8192x1, .f32⟩ : BufTy).Contents (Elt F) → (⟨S8192x1, .f32⟩ : BufTy).Contents (Elt F))) :: []
  )

/-- The last operations: the two columns side by side, then 1 / (1 + exp (−·)). -/
abbrev tl : List (HloOp τ sig (Elt F)) :=
  (
    (StableHlo.binary main_v192 main_v377 main_v378 ((fun a b => concatenate S8192x2 1 [⟨S8192x1, a⟩, ⟨S8192x1, b⟩] concatenates_S8192x1_S8192x1_S8192x2_d1) : (⟨S8192x1, .f32⟩ : BufTy).Contents (Elt F) → (⟨S8192x1, .f32⟩ : BufTy).Contents (Elt F) → (⟨S8192x2, .f32⟩ : BufTy).Contents (Elt F))) ::
    (StableHlo.unary main_v378 main_v379 (Host.negf : (⟨S8192x2, .f32⟩ : BufTy).Contents (Elt F) → (⟨S8192x2, .f32⟩ : BufTy).Contents (Elt F))) ::
    (StableHlo.unary main_v379 main_v380 (Host.exp : (⟨S8192x2, .f32⟩ : BufTy).Contents (Elt F) → (⟨S8192x2, .f32⟩ : BufTy).Contents (Elt F))) ::
    (StableHlo.nullary main_cst_43 (constant S_ .f32 0x3F800000#32)) ::
    (StableHlo.unary main_cst_43 main_v381 (broadcastInDim S8192x2 ![] bcast_S_S8192x2 : (⟨S_, .f32⟩ : BufTy).Contents (Elt F) → (⟨S8192x2, .f32⟩ : BufTy).Contents (Elt F))) ::
    (StableHlo.binary main_v381 main_v380 main_v382 (addf : (⟨S8192x2, .f32⟩ : BufTy).Contents (Elt F) → (⟨S8192x2, .f32⟩ : BufTy).Contents (Elt F) → (⟨S8192x2, .f32⟩ : BufTy).Contents (Elt F))) ::
    (StableHlo.nullary main_cst_44 (constant S_ .f32 0x3F800000#32)) ::
    (StableHlo.unary main_cst_44 main_v383 (broadcastInDim S8192x2 ![] bcast_S_S8192x2 : (⟨S_, .f32⟩ : BufTy).Contents (Elt F) → (⟨S8192x2, .f32⟩ : BufTy).Contents (Elt F))) ::
    (StableHlo.binary main_v383 main_v382 main_v384 (Host.divf : (⟨S8192x2, .f32⟩ : BufTy).Contents (Elt F) → (⟨S8192x2, .f32⟩ : BufTy).Contents (Elt F) → (⟨S8192x2, .f32⟩ : BufTy).Contents (Elt F))) :: []
  )

/-- @main's operations cut at the layers' ends instead of at the windows' ends: the same list. -/
theorem ops_eq : (ops : List (HloOp τ sig (Elt F))) = pre ++ (L00 ++ (L01 ++ (L02 ++ (L03 ++ (L04 ++ (L10 ++ (L11 ++ (L12 ++ (L13 ++ (L14 ++ (tl))))))))))) := rfl

/-- The fold over two lines one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefValue

end
-- ==== Proof.RefLayers.lean ====
/-
  What each cut of @main's operations computes, at ARBITRARY contents of the buffers: the prelude the two affine maps,
  each layer the layer function of the specification (whose definition is the same host operations in the same order,
  so each equation is closed by unfolding the fold and comparing), the tail the sigmoid of the two columns; and which
  buffers each cut leaves as they were.
-/
import proofs.«144169_j55405078119367_2_alg».proof.Proof.RefChunks
import proofs.«144169_j55405078119367_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- After the prelude the matrix buffer holds the affine map of the argument matrix. -/
theorem pre_v3 (V : Valuation τ sig (Elt F)) :
    after pre V (Proc.devRef .tc main_v3) = Spec.Hn (V (Proc.devRef .tc main_arg0)) := by
  after_results_simp
  rfl

/-- After the prelude the first column buffer holds the affine map of the argument column. -/
theorem pre_v7 (V : Valuation τ sig (Elt F)) :
    after pre V (Proc.devRef .tc main_v7) = Spec.x0 (V (Proc.devRef .tc main_arg1)) := by
  after_results_simp
  rfl

/-- The prelude writes none of its operands: this buffer keeps its contents. -/
theorem pre_arg0 (V : Valuation τ sig (Elt F)) :
    after pre V (Proc.devRef .tc main_arg0) = V (Proc.devRef .tc main_arg0) := by
  after_results_simp

/-- The prelude writes none of its operands: this buffer keeps its contents. -/
theorem pre_arg1 (V : Valuation τ sig (Elt F)) :
    after pre V (Proc.devRef .tc main_arg1) = V (Proc.devRef .tc main_arg1) := by
  after_results_simp

/-- The prelude writes none of its operands: this buffer keeps its contents. -/
theorem pre_arg2 (V : Valuation τ sig (Elt F)) :
    after pre V (Proc.devRef .tc main_arg2) = V (Proc.devRef .tc main_arg2) := by
  after_results_simp

set_option maxRecDepth 8192 in
/-- Layer (0, 0) at any contents: its last buffer ends at the layer function of the coefficient array, the matrix and
    the input column as the contents have them (the operations are the layer function's own, in order). -/
theorem L00_out (V : Valuation τ sig (Elt F)) :
    after L00 V (Proc.devRef .tc main_v44)
      = Spec.layer00 (V (Proc.devRef .tc main_arg2)) (V (Proc.devRef .tc main_v3)) (V (Proc.devRef .tc main_v7)) := by
  after_results_simp
  rfl

/-- Layer (0, 0) writes none of its operands: this buffer keeps its contents. -/
theorem L00_arg0 (V : Valuation τ sig (Elt F)) :
    after L00 V (Proc.devRef .tc main_arg0) = V (Proc.devRef .tc main_arg0) := by
  after_results_simp

/-- Layer (0, 0) writes none of its operands: this buffer keeps its contents. -/
theorem L00_arg1 (V : Valuation τ sig (Elt F)) :
    after L00 V (Proc.devRef .tc main_arg1) = V (Proc.devRef .tc main_arg1) := by
  after_results_simp

/-- Layer (0, 0) writes none of its operands: this buffer keeps its contents. -/
theorem L00_arg2 (V : Valuation τ sig (Elt F)) :
    after L00 V (Proc.devRef .tc main_arg2) = V (Proc.devRef .tc main_arg2) := by
  after_results_simp

/-- Layer (0, 0) writes none of its operands: this buffer keeps its contents. -/
theorem L00_v3 (V : Valuation τ sig (Elt F)) :
    after L00 V (Proc.devRef .tc main_v3) = V (Proc.devRef .tc main_v3) := by
  after_results_simp

set_option maxRecDepth 8192 in
/-- Layer (0, 1) at any contents: its last buffer ends at the layer function of the coefficient array, the matrix and
    the input column as the contents have them (the operations are the layer function's own, in order). -/
theorem L01_out (V : Valuation τ sig (Elt F)) :
    after L01 V (Proc.devRef .tc main_v81)
      = Spec.layer01 (V (Proc.devRef .tc main_arg2)) (V (Proc.devRef .tc main_v3)) (V (Proc.devRef .tc main_v44)) := by
  after_results_simp
  rfl

/-- Layer (0, 1) writes none of its operands: this buffer keeps its contents. -/
theorem L01_arg0 (V : Valuation τ sig (Elt F)) :
    after L01 V (Proc.devRef .tc main_arg0) = V (Proc.devRef .tc main_arg0) := by
  after_results_simp

/-- Layer (0, 1) writes none of its operands: this buffer keeps its contents. -/
theorem L01_arg1 (V : Valuation τ sig (Elt F)) :
    after L01 V (Proc.devRef .tc main_arg1) = V (Proc.devRef .tc main_arg1) := by
  after_results_simp

/-- Layer (0, 1) writes none of its operands: this buffer keeps its contents. -/
theorem L01_arg2 (V : Valuation τ sig (Elt F)) :
    after L01 V (Proc.devRef .tc main_arg2) = V (Proc.devRef .tc main_arg2) := by
  after_results_simp

/-- Layer (0, 1) writes none of its operands: this buffer keeps its contents. -/
theorem L01_v3 (V : Valuation τ sig (Elt F)) :
    after L01 V (Proc.devRef .tc main_v3) = V (Proc.devRef .tc main_v3) := by
  after_results_simp

set_option maxRecDepth 8192 in
/-- Layer (0, 2) at any contents: its last buffer ends at the layer function of the coefficient array, the matrix and
    the input column as the contents have them (the operations are the layer function's own, in order). -/
theorem L02_out (V : Valuation τ sig (Elt F)) :
    after L02 V (Proc.devRef .tc main_v118)
      = Spec.layer02 (V (Proc.devRef .tc main_arg2)) (V (Proc.devRef .tc main_v3)) (V (Proc.devRef .tc main_v81)) := by
  after_results_simp
  rfl

/-- Layer (0, 2) writes none of its operands: this buffer keeps its contents. -/
theorem L02_arg0 (V : Valuation τ sig (Elt F)) :
    after L02 V (Proc.devRef .tc main_arg0) = V (Proc.devRef .tc main_arg0) := by
  after_results_simp

/-- Layer (0, 2) writes none of its operands: this buffer keeps its contents. -/
theorem L02_arg1 (V : Valuation τ sig (Elt F)) :
    after L02 V (Proc.devRef .tc main_arg1) = V (Proc.devRef .tc main_arg1) := by
  after_results_simp

/-- Layer (0, 2) writes none of its operands: this buffer keeps its contents. -/
theorem L02_arg2 (V : Valuation τ sig (Elt F)) :
    after L02 V (Proc.devRef .tc main_arg2) = V (Proc.devRef .tc main_arg2) := by
  after_results_simp

/-- Layer (0, 2) writes none of its operands: this buffer keeps its contents. -/
theorem L02_v3 (V : Valuation τ sig (Elt F)) :
    after L02 V (Proc.devRef .tc main_v3) = V (Proc.devRef .tc main_v3) := by
  after_results_simp

set_option maxRecDepth 8192 in
/-- Layer (0, 3) at any contents: its last buffer ends at the layer function of the coefficient array, the matrix and
    the input column as the contents have them (the operations are the layer function's own, in order). -/
theorem L03_out (V : Valuation τ sig (Elt F)) :
    after L03 V (Proc.devRef .tc main_v155)
      = Spec.layer03 (V (Proc.devRef .tc main_arg2)) (V (Proc.devRef .tc main_v3)) (V (Proc.devRef .tc main_v118)) := by
  after_results_simp
  rfl

/-- Layer (0, 3) writes none of its operands: this buffer keeps its contents. -/
theorem L03_arg0 (V : Valuation τ sig (Elt F)) :
    after L03 V (Proc.devRef .tc main_arg0) = V (Proc.devRef .tc main_arg0) := by
  after_results_simp

/-- Layer (0, 3) writes none of its operands: this buffer keeps its contents. -/
theorem L03_arg1 (V : Valuation τ sig (Elt F)) :
    after L03 V (Proc.devRef .tc main_arg1) = V (Proc.devRef .tc main_arg1) := by
  after_results_simp

/-- Layer (0, 3) writes none of its operands: this buffer keeps its contents. -/
theorem L03_arg2 (V : Valuation τ sig (Elt F)) :
    after L03 V (Proc.devRef .tc main_arg2) = V (Proc.devRef .tc main_arg2) := by
  after_results_simp

/-- Layer (0, 3) writes none of its operands: this buffer keeps its contents. -/
theorem L03_v3 (V : Valuation τ sig (Elt F)) :
    after L03 V (Proc.devRef .tc main_v3) = V (Proc.devRef .tc main_v3) := by
  after_results_simp

set_option maxRecDepth 8192 in
/-- Layer (0, 4) at any contents: its last buffer ends at the layer function of the coefficient array, the matrix and
    the input column as the contents have them (the operations are the layer function's own, in order). -/
theorem L04_out (V : Valuation τ sig (Elt F)) :
    after L04 V (Proc.devRef .tc main_v192)
      = Spec.layer04 (V (Proc.devRef .tc main_arg2)) (V (Proc.devRef .tc main_v3)) (V (Proc.devRef .tc main_v155)) := by
  after_results_simp
  rfl

/-- Layer (0, 4) writes none of its operands: this buffer keeps its contents. -/
theorem L04_arg0 (V : Valuation τ sig (Elt F)) :
    after L04 V (Proc.devRef .tc main_arg0) = V (Proc.devRef .tc main_arg0) := by
  after_results_simp

/-- Layer (0, 4) writes none of its operands: this buffer keeps its contents. -/
theorem L04_arg1 (V : Valuation τ sig (Elt F)) :
    after L04 V (Proc.devRef .tc main_arg1) = V (Proc.devRef .tc main_arg1) := by
  after_results_simp

/-- Layer (0, 4) writes none of its operands: this buffer keeps its contents. -/
theorem L04_arg2 (V : Valuation τ sig (Elt F)) :
    after L04 V (Proc.devRef .tc main_arg2) = V (Proc.devRef .tc main_arg2) := by
  after_results_simp

/-- Layer (0, 4) writes none of its operands: this buffer keeps its contents. -/
theorem L04_v3 (V : Valuation τ sig (Elt F)) :
    after L04 V (Proc.devRef .tc main_v3) = V (Proc.devRef .tc main_v3) := by
  after_results_simp

set_option maxRecDepth 8192 in
/-- Layer (1, 0) at any contents: its last buffer ends at the layer function of the coefficient array, the matrix and
    the input column as the contents have them (the operations are the layer function's own, in order). -/
theorem L10_out (V : Valuation τ sig (Elt F)) :
    after L10 V (Proc.devRef .tc main_v229)
      = Spec.layer10 (V (Proc.devRef .tc main_arg2)) (V (Proc.devRef .tc main_v3)) (V (Proc.devRef .tc main_v192)) := by
  after_results_simp
  rfl

/-- Layer (1, 0) writes none of its operands: this buffer keeps its contents. -/
theorem L10_arg0 (V : Valuation τ sig (Elt F)) :
    after L10 V (Proc.devRef .tc main_arg0) = V (Proc.devRef .tc main_arg0) := by
  after_results_simp

/-- Layer (1, 0) writes none of its operands: this buffer keeps its contents. -/
theorem L10_arg1 (V : Valuation τ sig (Elt F)) :
    after L10 V (Proc.devRef .tc main_arg1) = V (Proc.devRef .tc main_arg1) := by
  after_results_simp

/-- Layer (1, 0) writes none of its operands: this buffer keeps its contents. -/
theorem L10_arg2 (V : Valuation τ sig (Elt F)) :
    after L10 V (Proc.devRef .tc main_arg2) = V (Proc.devRef .tc main_arg2) := by
  after_results_simp

/-- Layer (1, 0) writes none of its operands: this buffer keeps its contents. -/
theorem L10_v3 (V : Valuation τ sig (Elt F)) :
    after L10 V (Proc.devRef .tc main_v3) = V (Proc.devRef .tc main_v3) := by
  after_results_simp

/-- Layer (1, 0) writes none of its operands: this buffer keeps its contents. -/
theorem L10_v192 (V : Valuation τ sig (Elt F)) :
    after L10 V (Proc.devRef .tc main_v192) = V (Proc.devRef .tc main_v192) := by
  after_results_simp

set_option maxRecDepth 8192 in
/-- Layer (1, 1) at any contents: its last buffer ends at the layer function of the coefficient array, the matrix and
    the input column as the contents have them (the operations are the layer function's own, in order). -/
theorem L11_out (V : Valuation τ sig (Elt F)) :
    after L11 V (Proc.devRef .tc main_v266)
      = Spec.layer11 (V (Proc.devRef .tc main_arg2)) (V (Proc.devRef .tc main_v3)) (V (Proc.devRef .tc main_v229)) := by
  after_results_simp
  rfl

/-- Layer (1, 1) writes none of its operands: this buffer keeps its contents. -/
theorem L11_arg0 (V : Valuation τ sig (Elt F)) :
    after L11 V (Proc.devRef .tc main_arg0) = V (Proc.devRef .tc main_arg0) := by
  after_results_simp

/-- Layer (1, 1) writes none of its operands: this buffer keeps its contents. -/
theorem L11_arg1 (V : Valuation τ sig (Elt F)) :
    after L11 V (Proc.devRef .tc main_arg1) = V (Proc.devRef .tc main_arg1) := by
  after_results_simp

/-- Layer (1, 1) writes none of its operands: this buffer keeps its contents. -/
theorem L11_arg2 (V : Valuation τ sig (Elt F)) :
    after L11 V (Proc.devRef .tc main_arg2) = V (Proc.devRef .tc main_arg2) := by
  after_results_simp

/-- Layer (1, 1) writes none of its operands: this buffer keeps its contents. -/
theorem L11_v3 (V : Valuation τ sig (Elt F)) :
    after L11 V (Proc.devRef .tc main_v3) = V (Proc.devRef .tc main_v3) := by
  after_results_simp

/-- Layer (1, 1) writes none of its operands: this buffer keeps its contents. -/
theorem L11_v192 (V : Valuation τ sig (Elt F)) :
    after L11 V (Proc.devRef .tc main_v192) = V (Proc.devRef .tc main_v192) := by
  after_results_simp

set_option maxRecDepth 8192 in
/-- Layer (1, 2) at any contents: its last buffer ends at the layer function of the coefficient array, the matrix and
    the input column as the contents have them (the operations are the layer function's own, in order). -/
theorem L12_out (V : Valuation τ sig (Elt F)) :
    after L12 V (Proc.devRef .tc main_v303)
      = Spec.layer12 (V (Proc.devRef .tc main_arg2)) (V (Proc.devRef .tc main_v3)) (V (Proc.devRef .tc main_v266)) := by
  after_results_simp
  rfl

/-- Layer (1, 2) writes none of its operands: this buffer keeps its contents. -/
theorem L12_arg0 (V : Valuation τ sig (Elt F)) :
    after L12 V (Proc.devRef .tc main_arg0) = V (Proc.devRef .tc main_arg0) := by
  after_results_simp

/-- Layer (1, 2) writes none of its operands: this buffer keeps its contents. -/
theorem L12_arg1 (V : Valuation τ sig (Elt F)) :
    after L12 V (Proc.devRef .tc main_arg1) = V (Proc.devRef .tc main_arg1) := by
  after_results_simp

/-- Layer (1, 2) writes none of its operands: this buffer keeps its contents. -/
theorem L12_arg2 (V : Valuation τ sig (Elt F)) :
    after L12 V (Proc.devRef .tc main_arg2) = V (Proc.devRef .tc main_arg2) := by
  after_results_simp

/-- Layer (1, 2) writes none of its operands: this buffer keeps its contents. -/
theorem L12_v3 (V : Valuation τ sig (Elt F)) :
    after L12 V (Proc.devRef .tc main_v3) = V (Proc.devRef .tc main_v3) := by
  after_results_simp

/-- Layer (1, 2) writes none of its operands: this buffer keeps its contents. -/
theorem L12_v192 (V : Valuation τ sig (Elt F)) :
    after L12 V (Proc.devRef .tc main_v192) = V (Proc.devRef .tc main_v192) := by
  after_results_simp

set_option maxRecDepth 8192 in
/-- Layer (1, 3) at any contents: its last buffer ends at the layer function of the coefficient array, the matrix and
    the input column as the contents have them (the operations are the layer function's own, in order). -/
theorem L13_out (V : Valuation τ sig (Elt F)) :
    after L13 V (Proc.devRef .tc main_v340)
      = Spec.layer13 (V (Proc.devRef .tc main_arg2)) (V (Proc.devRef .tc main_v3)) (V (Proc.devRef .tc main_v303)) := by
  after_results_simp
  rfl

/-- Layer (1, 3) writes none of its operands: this buffer keeps its contents. -/
theorem L13_arg0 (V : Valuation τ sig (Elt F)) :
    after L13 V (Proc.devRef .tc main_arg0) = V (Proc.devRef .tc main_arg0) := by
  after_results_simp

/-- Layer (1, 3) writes none of its operands: this buffer keeps its contents. -/
theorem L13_arg1 (V : Valuation τ sig (Elt F)) :
    after L13 V (Proc.devRef .tc main_arg1) = V (Proc.devRef .tc main_arg1) := by
  after_results_simp

/-- Layer (1, 3) writes none of its operands: this buffer keeps its contents. -/
theorem L13_arg2 (V : Valuation τ sig (Elt F)) :
    after L13 V (Proc.devRef .tc main_arg2) = V (Proc.devRef .tc main_arg2) := by
  after_results_simp

/-- Layer (1, 3) writes none of its operands: this buffer keeps its contents. -/
theorem L13_v3 (V : Valuation τ sig (Elt F)) :
    after L13 V (Proc.devRef .tc main_v3) = V (Proc.devRef .tc main_v3) := by
  after_results_simp

/-- Layer (1, 3) writes none of its operands: this buffer keeps its contents. -/
theorem L13_v192 (V : Valuation τ sig (Elt F)) :
    after L13 V (Proc.devRef .tc main_v192) = V (Proc.devRef .tc main_v192) := by
  after_results_simp

set_option maxRecDepth 8192 in
/-- Layer (1, 4) at any contents: its last buffer ends at the layer function of the coefficient array, the matrix and
    the input column as the contents have them (the operations are the layer function's own, in order). -/
theorem L14_out (V : Valuation τ sig (Elt F)) :
    after L14 V (Proc.devRef .tc main_v377)
      = Spec.layer14 (V (Proc.devRef .tc main_arg2)) (V (Proc.devRef .tc main_v3)) (V (Proc.devRef .tc main_v340)) := by
  after_results_simp
  rfl

/-- Layer (1, 4) writes none of its operands: this buffer keeps its contents. -/
theorem L14_arg0 (V : Valuation τ sig (Elt F)) :
    after L14 V (Proc.devRef .tc main_arg0) = V (Proc.devRef .tc main_arg0) := by
  after_results_simp

/-- Layer (1, 4) writes none of its operands: this buffer keeps its contents. -/
theorem L14_arg1 (V : Valuation τ sig (Elt F)) :
    after L14 V (Proc.devRef .tc main_arg1) = V (Proc.devRef .tc main_arg1) := by
  after_results_simp

/-- Layer (1, 4) writes none of its operands: this buffer keeps its contents. -/
theorem L14_arg2 (V : Valuation τ sig (Elt F)) :
    after L14 V (Proc.devRef .tc main_arg2) = V (Proc.devRef .tc main_arg2) := by
  after_results_simp

/-- Layer (1, 4) writes none of its operands: this buffer keeps its contents. -/
theorem L14_v3 (V : Valuation τ sig (Elt F)) :
    after L14 V (Proc.devRef .tc main_v3) = V (Proc.devRef .tc main_v3) := by
  after_results_simp

/-- Layer (1, 4) writes none of its operands: this buffer keeps its contents. -/
theorem L14_v192 (V : Valuation τ sig (Elt F)) :
    after L14 V (Proc.devRef .tc main_v192) = V (Proc.devRef .tc main_v192) := by
  after_results_simp

/-- After the tail the result buffer holds the sigmoid of the two columns side by side. -/
theorem tl_out (V : Valuation τ sig (Elt F)) :
    after tl V (Proc.devRef .tc main_v384) = Spec.tail (V (Proc.devRef .tc main_v192)) (V (Proc.devRef .tc main_v377)) := by
  after_results_simp
  rfl

/-- The tail writes none of its operands: this buffer keeps its contents. -/
theorem tl_arg0 (V : Valuation τ sig (Elt F)) :
    after tl V (Proc.devRef .tc main_arg0) = V (Proc.devRef .tc main_arg0) := by
  after_results_simp

/-- The tail writes none of its operands: this buffer keeps its contents. -/
theorem tl_arg1 (V : Valuation τ sig (Elt F)) :
    after tl V (Proc.devRef .tc main_arg1) = V (Proc.devRef .tc main_arg1) := by
  after_results_simp

/-- The tail writes none of its operands: this buffer keeps its contents. -/
theorem tl_arg2 (V : Valuation τ sig (Elt F)) :
    after tl V (Proc.devRef .tc main_arg2) = V (Proc.devRef .tc main_arg2) := by
  after_results_simp

end Cert.ReferenceIdeal.RefValue

end
-- ==== Proof.RefRun.lean ====
/-
  The run of the reference program read back: every weakly fair execution of @main terminates with the result buffer
  at the specification's function of the three argument arrays, and the argument buffers as they were. The run gives
  each buffer as the fold of the operations over the launch contents; the fold is cut at the layers' ends, and each cut
  is replaced by what it computes at arbitrary contents, so that no two whole compositions are ever compared.
-/
import proofs.«144169_j55405078119367_2_alg».proof.Proof.RefLayers
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The result buffer after all of @main's operations, at any contents: the specification's function of the three
    argument buffers. The fold is cut at the layers' ends and each cut replaced by what it computes, from the last
    backwards; what is left is the specification with its columns named. -/
theorem after_out (V : Valuation τ sig (Elt F)) :
    after ops V (Proc.devRef .tc main_v384)
      = Spec.out (V (Proc.devRef .tc main_arg0)) (V (Proc.devRef .tc main_arg1)) (V (Proc.devRef .tc main_arg2)) := by
  rw [ops_eq]
  simp only [after_append]
  rw [tl_out, L14_out, L14_v192, L13_out, L13_v192, L13_arg2, L13_v3, L12_out, L12_v192, L12_arg2, L12_v3, L11_out, L11_v192, L11_arg2, L11_v3, L10_out, L10_v192, L10_arg2, L10_v3, L04_out, L04_arg2, L04_v3, L03_out, L03_arg2, L03_v3, L02_out, L02_arg2, L02_v3, L01_out, L01_arg2, L01_v3, L00_out, L00_arg2, L00_v3, pre_v7, pre_v3, pre_arg2]
  rfl

/-- No operation of @main writes this argument's buffer. -/
theorem after_arg0 (V : Valuation τ sig (Elt F)) :
    after ops V (Proc.devRef .tc main_arg0) = V (Proc.devRef .tc main_arg0) := by
  rw [ops_eq]
  simp only [after_append]
  rw [tl_arg0, L14_arg0, L13_arg0, L12_arg0, L11_arg0, L10_arg0, L04_arg0, L03_arg0, L02_arg0, L01_arg0, L00_arg0, pre_arg0]

/-- No operation of @main writes this argument's buffer. -/
theorem after_arg1 (V : Valuation τ sig (Elt F)) :
    after ops V (Proc.devRef .tc main_arg1) = V (Proc.devRef .tc main_arg1) := by
  rw [ops_eq]
  simp only [after_append]
  rw [tl_arg1, L14_arg1, L13_arg1, L12_arg1, L11_arg1, L10_arg1, L04_arg1, L03_arg1, L02_arg1, L01_arg1, L00_arg1, pre_arg1]

/-- No operation of @main writes this argument's buffer. -/
theorem after_arg2 (V : Valuation τ sig (Elt F)) :
    after ops V (Proc.devRef .tc main_arg2) = V (Proc.devRef .tc main_arg2) := by
  rw [ops_eq]
  simp only [after_append]
  rw [tl_arg2, L14_arg2, L13_arg2, L12_arg2, L11_arg2, L10_arg2, L04_arg2, L03_arg2, L02_arg2, L01_arg2, L00_arg2, pre_arg2]

/-- On every device, for any float values, from any memory with zero counters: every weakly fair execution of @main
    terminates with the three argument buffers unchanged. -/
theorem run_frame_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (after_arg0 _), (h c main_arg1).trans (after_arg1 _),
      (h c main_arg2).trans (after_arg2 _)⟩)
    (run_after m ρ)

/-- The same with the result: the result buffer ends at the specification's function of the arguments' launch contents. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v384) = Spec.out (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v384).trans (after_out _), (h c main_arg0).trans (after_arg0 _),
      (h c main_arg1).trans (after_arg1 _), (h c main_arg2).trans (after_arg2 _)⟩)
    (run_after m ρ)

/-- At the ideal values: the arguments unchanged. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run_frame_gen m ρ

/-- At the ideal values: the result is the specification's function of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v384) = Spec.out (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run_gen m ρ

end Cert.ReferenceIdeal.RefValue

end
-- ==== Proof.lean ====
/-
  The certificate of a polynomial graph filter: forty sequential matrix–vector products H·v in ten layers of four taps, each
  layer followed by leaky_relu and two mean-normalisations, and a sigmoid of the two output columns.

  The kernel keeps every vector as a row [1, 8192], casts (H + 1)·0.5 once inside its first region, and computes each product
  as Σₖ v[0,k]·Hb[n,k] block of rows by block of rows, accumulating α·(H v) into y in the same region; the reference keeps
  columns and applies the matrix with one dot product. On the extended reals a change of float format is the identity, the
  products commute, and a sum does not depend on its arrangement, so both programs compute ONE function of the three argument
  arrays (`Spec.out`): the reference by definition of the specification (its own host operations), the kernel region by
  region and stretch by stretch after reading every row as a column. No law used needs finiteness: the precondition is not
  opened. The three frames are the programs' runs with the result dropped; the idealization rewrote nothing.
-/
import proofs.«144169_j55405078119367_2_alg».proof.Defs
import proofs.«144169_j55405078119367_2_alg».proof.Proof.Gen.Kernel
import proofs.«144169_j55405078119367_2_alg».proof.Proof.Gen.KernelIdeal
import proofs.«144169_j55405078119367_2_alg».proof.Proof.Gen.ReferenceIdeal
import proofs.«144169_j55405078119367_2_alg».proof.Proof.Gen.Pre_finite_inputs
import proofs.«144169_j55405078119367_2_alg».proof.Proof.GenP.Kernel.Frame
import proofs.«144169_j55405078119367_2_alg».proof.Proof.GenP.KernelIdeal.Frame
import proofs.«144169_j55405078119367_2_alg».proof.Proof.KRun
import proofs.«144169_j55405078119367_2_alg».proof.Proof.KValue
import proofs.«144169_j55405078119367_2_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefValue.run_frame m ρ

/-- Both idealized programs end with the specification of their (agreeing) arguments in the result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Chain.kernel_value m ρ c), (h c).2⟩)
      (Cert.KernelIdeal.GenP.run_value (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
